-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S128x64 .f32) (main_arg11 : FVec F S64 .f32) (main_arg12 : FVec F S64 .f32) (main_arg13 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_arg12 : FVec F S64 .f32) (main_arg13 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_arg12 : FVec F S64 .f32) (main_arg13 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S50000x64 : Shape := ⟨2, ![50000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 120
  | .vmem => 78
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S50000, .f32⟩
  | .hbm, ⟨22, _⟩ => ⟨S1600000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S50000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S50000x128, .f32⟩
  | .hbm, ⟨63, _⟩ => ⟨S1600000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S1600000x1, .f32⟩
  | .hbm, ⟨83, _⟩ => ⟨S1600000x128, .f32⟩
  | .hbm, ⟨84, _⟩ => ⟨S1600000x128, .f32⟩
  | .hbm, ⟨85, _⟩ => ⟨S_, .f32⟩
  | .hbm, ⟨86, _⟩ => ⟨S50000x128, .f32⟩
  | .hbm, ⟨87, _⟩ => ⟨S1600000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S50000x128, .f32⟩
  | .hbm, ⟨96, _⟩ => ⟨S50000x64, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S50000x64, .f32⟩
  | .hbm, ⟨111, _⟩ => ⟨S1600000x1, .i32⟩
  | .hbm, ⟨112, _⟩ => ⟨S50000x64, .f32⟩
  | .hbm, ⟨113, _⟩ => ⟨S1x64, .f32⟩
  | .hbm, ⟨114, _⟩ => ⟨S50000x64, .f32⟩
  | .hbm, ⟨115, _⟩ => ⟨S1x64, .f32⟩
  | .hbm, ⟨116, _⟩ => ⟨S1x64, .f32⟩
  | .hbm, ⟨117, _⟩ => ⟨S1x64, .f32⟩
  | .hbm, ⟨118, _⟩ => ⟨S1x64, .f32⟩
  | .hbm, ⟨119, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x1, .f32⟩
  | .local _ .vmem, ⟨62, _⟩ => ⟨S5000x1, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | .local _ .vmem, ⟨66, _⟩ => ⟨S1x64, .f32⟩
  | .local _ .vmem, ⟨67, _⟩ => ⟨S1x64, .f32⟩
  | .local _ .vmem, ⟨68, _⟩ => ⟨S1x64, .f32⟩
  | .local _ .vmem, ⟨69, _⟩ => ⟨S1x64, .f32⟩
  | .local _ .vmem, ⟨70, _⟩ => ⟨S5000x64, .f32⟩
  | .local _ .vmem, ⟨71, _⟩ => ⟨S5000x64, .f32⟩
  | .local _ .vmem, ⟨72, _⟩ => ⟨S1x64, .f32⟩
  | .local _ .vmem, ⟨73, _⟩ => ⟨S1x64, .f32⟩
  | .local _ .vmem, ⟨74, _⟩ => ⟨S1x64, .f32⟩
  | .local _ .vmem, ⟨75, _⟩ => ⟨S1x64, .f32⟩
  | .local _ .vmem, ⟨76, _⟩ => ⟨S5000x64, .f32⟩
  | .local _ .vmem, ⟨77, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42_0 : Ref sig .tc := ⟨.hbm, 66, rfl⟩
abbrev main_v42_1 : Ref sig .tc := ⟨.hbm, 67, rfl⟩
abbrev main_v42_2 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61_0 : Ref sig .tc := ⟨.hbm, 90, rfl⟩
abbrev main_v61_1 : Ref sig .tc := ⟨.hbm, 91, rfl⟩
abbrev main_v61_2 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_11 : Ref sig .tc := ⟨.hbm, 97, rfl⟩
abbrev main_v66 : Ref sig .tc := ⟨.hbm, 98, rfl⟩
abbrev main_v67 : Ref sig .tc := ⟨.hbm, 99, rfl⟩
abbrev main_c_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80_0 : Ref sig .tc := ⟨.hbm, 114, rfl⟩
abbrev main_v80_1 : Ref sig .tc := ⟨.hbm, 115, rfl⟩
abbrev main_v80_2 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg6_0 : Ref sig .tc := ⟨.vmem, 41, rfl⟩
abbrev cc4_scratch0 : Ref sig .tc := ⟨.vmem, 42, rfl⟩
abbrev cc4_scratch1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg2_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg2_1 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg4_1 : Ref sig .tc := ⟨.vmem, 65, rfl⟩
abbrev cc7_stg5_0 : Ref sig .tc := ⟨.vmem, 66, rfl⟩
abbrev cc7_stg6_0 : Ref sig .tc := ⟨.vmem, 67, rfl⟩
abbrev cc7_scratch0 : Ref sig .tc := ⟨.vmem, 68, rfl⟩
abbrev cc7_scratch1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg5_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61
abbrev cc7_sem5_0 : DmaSem sig := 62
abbrev cc7_sem6_0 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_19 : BitVec 32 := 0#32
  let v35 : BitVec 1 := Scalar.cmpi .ne v34 c0_i32_19
  v35

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_19 : BitVec 32 := 0#32
  let v35 : BitVec 1 := Scalar.cmpi .ne v34 c0_i32_19
  v35

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_19 : BitVec 32 := 0#32
  let v35 : BitVec 1 := Scalar.cmpi .ne v34 c0_i32_19
  v35

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  broadcasts_S1x128_S5000x128 : S1x128.Broadcasts S5000x128
  reduces_S5000x128_S128 : S5000x128.Reduces [0] S128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S5000x1_S5000x64 : S5000x1.Broadcasts S5000x64
  broadcasts_S1x64_S5000x64 : S1x64.Broadcasts S5000x64
  reduces_S5000x64_S64 : S5000x64.Reduces [0] S64
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S50000x64.size a
  hwx7_4 : ∀ i : grid7.Coords, EltTy.bits .f32 = 32 ∨ (Rect.block (s := S50000x64) S5000x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S50000x64.size a
  hwx8_5 : ∀ i : grid8.Coords, EltTy.bits .f32 = 32 ∨ (Rect.block (s := S50000x64) S5000x64.size (cc8_transform_5 i) (hinb8_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v42_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v42_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42_1) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42_2) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v60) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v61_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v61_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v61_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61_1) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61_2) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v63) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v64) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v64) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v65) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v78) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v65) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v11) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v79) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v80_0) S5000x64.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v80_1) S1x64.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v80_2) S1x64.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev idle7 : Fin 7 → grid7.Coords → Bool := fun | 0 => fun _ => false | 1 => fun _ => false | 2 => fun _ => false | 3 => fun _ => false | 4 => fun _ => false | 5 => fun i => !(k7_cond2 i == 1#1) | 6 => fun i => !(k7_cond2 i == 1#1) | ⟨_ + 7, h⟩ => absurd h (Nat.not_lt.2 (Nat.le_add_left _ _))

abbrev win8_0 : Pipeline.Window sig grid8 :=
  Pipeline.Window.ofSpec (Memref.whole main_v80_0) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v80_1) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v80_2) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v81) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v82) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v83) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x64 : Shape := ⟨2, ![50000, 64]⟩
abbrev S1600000x64 : Shape := ⟨2, ![1600000, 64]⟩
abbrev S1x64 : Shape := ⟨2, ![1, 64]⟩

abbrev nBuf : Space → Nat
  | .hbm => 295
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S64, .f32⟩
  | 13 => ⟨S64, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S50000, .f32⟩
  | 22 => ⟨S1600000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S50000x128, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S1600000x1, .f32⟩
  | 58 => ⟨S1600000x128, .f32⟩
  | 59 => ⟨S1600000x128, .f32⟩
  | 60 => ⟨S_, .f32⟩
  | 61 => ⟨S50000x128, .f32⟩
  | 62 => ⟨S1600000x1, .i32⟩
  | 63 => ⟨S50000x128, .f32⟩
  | 64 => ⟨S50000, .f32⟩
  | 65 => ⟨S50000x1, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S50000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .i1⟩
  | 105 => ⟨S_, .f32⟩
  | 106 => ⟨S50000x128, .f32⟩
  | 107 => ⟨S50000x128, .i1⟩
  | 108 => ⟨S_, .f32⟩
  | 109 => ⟨S_, .f32⟩
  | 110 => ⟨S50000x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S50000x128, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000, .f32⟩
  | 127 => ⟨S_, .i32⟩
  | _ => ⟨S50000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000, .f32⟩
  | 8 => ⟨S1600000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x128, .f32⟩
  | 18 => ⟨S1600000x1, .f32⟩
  | 19 => ⟨S1600000x128, .f32⟩
  | 20 => ⟨S1600000x128, .f32⟩
  | 21 => ⟨S_, .f32⟩
  | 22 => ⟨S50000x128, .f32⟩
  | 23 => ⟨S1600000x1, .i32⟩
  | 24 => ⟨S50000x128, .f32⟩
  | 25 => ⟨S50000, .f32⟩
  | 26 => ⟨S50000x1, .f32⟩
  | 27 => ⟨S50000x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S128, .f32⟩
  | 35 => ⟨S_, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S50000x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .i1⟩
  | 66 => ⟨S_, .f32⟩
  | 67 => ⟨S50000x128, .f32⟩
  | 68 => ⟨S50000x128, .i1⟩
  | 69 => ⟨S_, .f32⟩
  | 70 => ⟨S_, .f32⟩
  | 71 => ⟨S50000x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S50000x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S1600000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x64, .f32⟩
  | 107 => ⟨S1600000x1, .f32⟩
  | 108 => ⟨S1600000x64, .f32⟩
  | 109 => ⟨S1600000x64, .f32⟩
  | 110 => ⟨S_, .f32⟩
  | 111 => ⟨S50000x64, .f32⟩
  | 112 => ⟨S1600000x1, .i32⟩
  | 113 => ⟨S50000x64, .f32⟩
  | 114 => ⟨S50000, .f32⟩
  | 115 => ⟨S50000x1, .f32⟩
  | 116 => ⟨S50000x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S64, .f32⟩
  | 124 => ⟨S_, .f32⟩
  | 125 => ⟨S64, .f32⟩
  | 126 => ⟨S64, .f32⟩
  | 127 => ⟨S1x64, .f32⟩
  | _ => ⟨S50000x128, .f32⟩

abbrev hbmTy0_2 (i : Nat) : BufTy := match i % 128 with
  | 0 => ⟨S50000x64, .f32⟩
  | 1 => ⟨S50000x64, .f32⟩
  | 2 => ⟨S50000x64, .f32⟩
  | 3 => ⟨S_, .f32⟩
  | 4 => ⟨S64, .f32⟩
  | 5 => ⟨S_, .f32⟩
  | 6 => ⟨S64, .f32⟩
  | 7 => ⟨S64, .f32⟩
  | 8 => ⟨S1x64, .f32⟩
  | 9 => ⟨S50000x64, .f32⟩
  | 10 => ⟨S50000x64, .f32⟩
  | 11 => ⟨S1x64, .f32⟩
  | 12 => ⟨S50000x64, .f32⟩
  | 13 => ⟨S50000x64, .f32⟩
  | 14 => ⟨S_, .f32⟩
  | 15 => ⟨S64, .f32⟩
  | 16 => ⟨S64, .f32⟩
  | 17 => ⟨S64, .f32⟩
  | 18 => ⟨S1x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S50000x64, .f32⟩
  | 26 => ⟨S50000x64, .i1⟩
  | 27 => ⟨S_, .f32⟩
  | 28 => ⟨S50000x64, .f32⟩
  | 29 => ⟨S50000x64, .i1⟩
  | 30 => ⟨S_, .f32⟩
  | 31 => ⟨S_, .f32⟩
  | 32 => ⟨S50000x64, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_call0_cst : Ref sig .tc := ⟨.hbm, 102, rfl⟩
abbrev main_call0_v0 : Ref sig .tc := ⟨.hbm, 103, rfl⟩
abbrev main_call0_v1 : Ref sig .tc := ⟨.hbm, 104, rfl⟩
abbrev main_call0_cst_0 : Ref sig .tc := ⟨.hbm, 105, rfl⟩
abbrev main_call0_v2 : Ref sig .tc := ⟨.hbm, 106, rfl⟩
abbrev main_call0_v3 : Ref sig .tc := ⟨.hbm, 107, rfl⟩
abbrev main_call0_cst_1 : Ref sig .tc := ⟨.hbm, 108, rfl⟩
abbrev main_call0_call0_v0 : Ref sig .tc := ⟨.hbm, 109, rfl⟩
abbrev main_call0_call0_v1 : Ref sig .tc := ⟨.hbm, 110, rfl⟩
abbrev main_call0_v4 : Ref sig .tc := ⟨.hbm, 111, rfl⟩
abbrev main_call0_v5 : Ref sig .tc := ⟨.hbm, 112, rfl⟩
abbrev main_call0_cst_2 : Ref sig .tc := ⟨.hbm, 113, rfl⟩
abbrev main_call0_v6 : Ref sig .tc := ⟨.hbm, 114, rfl⟩
abbrev main_call0_v7 : Ref sig .tc := ⟨.hbm, 115, rfl⟩
abbrev main_v73 : Ref sig .tc := ⟨.hbm, 116, rfl⟩
abbrev main_v74 : Ref sig .tc := ⟨.hbm, 117, rfl⟩
abbrev main_c_13 : Ref sig .tc := ⟨.hbm, 118, rfl⟩
abbrev main_v75 : Ref sig .tc := ⟨.hbm, 119, rfl⟩
abbrev main_v76 : Ref sig .tc := ⟨.hbm, 120, rfl⟩
abbrev main_c_14 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_15 : Ref sig .tc := ⟨.hbm, 127, rfl⟩
abbrev main_v82 : Ref sig .tc := ⟨.hbm, 128, rfl⟩
abbrev main_v83 : Ref sig .tc := ⟨.hbm, 129, rfl⟩
abbrev main_c_16 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_17 : Ref sig .tc := ⟨.hbm, 137, rfl⟩
abbrev main_v90 : Ref sig .tc := ⟨.hbm, 138, rfl⟩
abbrev main_v91 : Ref sig .tc := ⟨.hbm, 139, rfl⟩
abbrev main_c_18 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_19 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_20 : Ref sig .tc := ⟨.hbm, 161, rfl⟩
abbrev main_v111 : Ref sig .tc := ⟨.hbm, 162, rfl⟩
abbrev main_cst_21 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_cst_22 : Ref sig .tc := ⟨.hbm, 170, rfl⟩
abbrev main_v118 : Ref sig .tc := ⟨.hbm, 171, rfl⟩
abbrev main_cst_23 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_24 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_call1_cst : Ref sig .tc := ⟨.hbm, 191, rfl⟩
abbrev main_call1_v0 : Ref sig .tc := ⟨.hbm, 192, rfl⟩
abbrev main_call1_v1 : Ref sig .tc := ⟨.hbm, 193, rfl⟩
abbrev main_call1_cst_0 : Ref sig .tc := ⟨.hbm, 194, rfl⟩
abbrev main_call1_v2 : Ref sig .tc := ⟨.hbm, 195, rfl⟩
abbrev main_call1_v3 : Ref sig .tc := ⟨.hbm, 196, rfl⟩
abbrev main_call1_cst_1 : Ref sig .tc := ⟨.hbm, 197, rfl⟩
abbrev main_call1_call0_v0 : Ref sig .tc := ⟨.hbm, 198, rfl⟩
abbrev main_call1_call0_v1 : Ref sig .tc := ⟨.hbm, 199, rfl⟩
abbrev main_call1_v4 : Ref sig .tc := ⟨.hbm, 200, rfl⟩
abbrev main_call1_v5 : Ref sig .tc := ⟨.hbm, 201, rfl⟩
abbrev main_call1_cst_2 : Ref sig .tc := ⟨.hbm, 202, rfl⟩
abbrev main_call1_v6 : Ref sig .tc := ⟨.hbm, 203, rfl⟩
abbrev main_call1_v7 : Ref sig .tc := ⟨.hbm, 204, rfl⟩
abbrev main_v136 : Ref sig .tc := ⟨.hbm, 205, rfl⟩
abbrev main_v137 : Ref sig .tc := ⟨.hbm, 206, rfl⟩
abbrev main_c_25 : Ref sig .tc := ⟨.hbm, 207, rfl⟩
abbrev main_v138 : Ref sig .tc := ⟨.hbm, 208, rfl⟩
abbrev main_v139 : Ref sig .tc := ⟨.hbm, 209, rfl⟩
abbrev main_c_26 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_c_27 : Ref sig .tc := ⟨.hbm, 216, rfl⟩
abbrev main_v145 : Ref sig .tc := ⟨.hbm, 217, rfl⟩
abbrev main_v146 : Ref sig .tc := ⟨.hbm, 218, rfl⟩
abbrev main_c_28 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_c_29 : Ref sig .tc := ⟨.hbm, 226, rfl⟩
abbrev main_v153 : Ref sig .tc := ⟨.hbm, 227, rfl⟩
abbrev main_v154 : Ref sig .tc := ⟨.hbm, 228, rfl⟩
abbrev main_c_30 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_cst_31 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_cst_32 : Ref sig .tc := ⟨.hbm, 250, rfl⟩
abbrev main_v174 : Ref sig .tc := ⟨.hbm, 251, rfl⟩
abbrev main_cst_33 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_cst_34 : Ref sig .tc := ⟨.hbm, 259, rfl⟩
abbrev main_v181 : Ref sig .tc := ⟨.hbm, 260, rfl⟩
abbrev main_cst_35 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_cst_36 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_call2_cst : Ref sig .tc := ⟨.hbm, 280, rfl⟩
abbrev main_call2_v0 : Ref sig .tc := ⟨.hbm, 281, rfl⟩
abbrev main_call2_v1 : Ref sig .tc := ⟨.hbm, 282, rfl⟩
abbrev main_call2_cst_0 : Ref sig .tc := ⟨.hbm, 283, rfl⟩
abbrev main_call2_v2 : Ref sig .tc := ⟨.hbm, 284, rfl⟩
abbrev main_call2_v3 : Ref sig .tc := ⟨.hbm, 285, rfl⟩
abbrev main_call2_cst_1 : Ref sig .tc := ⟨.hbm, 286, rfl⟩
abbrev main_call2_call0_v0 : Ref sig .tc := ⟨.hbm, 287, rfl⟩
abbrev main_call2_call0_v1 : Ref sig .tc := ⟨.hbm, 288, rfl⟩
abbrev main_call2_v4 : Ref sig .tc := ⟨.hbm, 289, rfl⟩
abbrev main_call2_v5 : Ref sig .tc := ⟨.hbm, 290, rfl⟩
abbrev main_call2_cst_2 : Ref sig .tc := ⟨.hbm, 291, rfl⟩
abbrev main_call2_v6 : Ref sig .tc := ⟨.hbm, 292, rfl⟩
abbrev main_call2_v7 : Ref sig .tc := ⟨.hbm, 293, rfl⟩
abbrev main_v199 : Ref sig .tc := ⟨.hbm, 294, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.Bits.Product0.lean ====
/-
  The first pallas_call of the kernel as printed: the feature product h = x · W of layer one, tiled over ten
  blocks of 5000 rows. Each grid point reads its block of x (window 0) and the whole weight matrix (window 1,
  the same block at every point, fetched once) and stores the block's product into window 2.
  Stated at a parameter V — the buffer contents when the call is entered — and at any float instance F:
  what the body leaves in the output buffer, the body's triple, the proof data, and the body obligation at
  every point.
-/
import proofs.«169495_j53601191854606_1_alg».proof.Proof.Gen.Kernel.Launch
import proofs.«169495_j53601191854606_1_alg».proof.Proof.Gen.Kernel.Skeleton
import proofs.«169495_j53601191854606_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows block of x sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight matrix sits in its staging buffer at every point: fetched at the first, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The one rectangle the body stores through: the whole output block. -/
abbrev whole0 : Rect S5000x128 := Rect.unit (s := S5000x128) ![0, 0] S5000x128.size inb_S5000x128_S5000x128_0_0
abbrev wholeW0 : Rect S128x128 := Rect.unit (s := S128x128) ![0, 0] S128x128.size inb_S128x128_S128x128_0_0

/-- The output buffer after the body: the product of the loaded block and the loaded weights. -/
def prod0 (x : Vec F S5000x128 .f32) (w : Vec F S128x128 .f32) : Vec F S5000x128 .f32 :=
  View.canon [⟨whole0, k0_pay1 (View.ld x whole0) (View.ld w wholeW0)⟩]

theorem cover_prod0 (p0 : Vec F S5000x128 .f32) (y : S5000x128.Idx) :
    ∃ pc ∈ ([⟨whole0, p0⟩] : List (View.Piece (Elt F) S5000x128 .f32)), y ∈ pc.1.set :=
  View.cover_of_tiled [⟨whole0, p0⟩] S5000x128.size (by rfl) y

set_option maxHeartbeats 1000000 in
/-- The body on whole staging buffers: inputs kept, the output at the product. -/
theorem sound_product0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod0 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_prod0 _)

/-- The proof data of the call: arrays as found; after the body each input buffer still holds its block and the
    output buffer the block's product; nothing carried, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) :
    (dat0 V c).after 2 t = prod0 (blk0 V c 0 t) (blk0 V c 1 t) := by dsimp only [dat0]

theorem dat0_before_0 (c : Dev nD) (t : Fin cfg0.N) (d) : (dat0 V c).before 0 t d = blk0 V c 0 t :=
  before0_0_of V (dat0 V c) (dat0_A V c 0) (dat0_after_0 V c) t d
theorem dat0_before_1 (c : Dev nD) (t : Fin cfg0.N) (d) : (dat0 V c).before 1 t d = blk0 V c 1 t :=
  before0_1_of V (dat0 V c) (dat0_A V c 1) (dat0_after_1 V c) t d

/-- What the body is entered with at point t, window by window, -/
def enter0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it leaves. -/
def leave0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_point0 (c : Dev nD) (t : Fin cfg0.N) :
    enter0 V c t ⊢ wp frame (wpE (defs₀ (F := F)) Variants.none c none) Set.univ (bodyAt0 t) (fun _ => leave0 V c t) := by
  unfold enter0 leave0 bodyAt0
  simp only [dat0_before_0, dat0_before_1]
  rw [show (dat0 V c).Φ t.succ = (dat0 V c).Φ t.castSucc from rfl,
    show (dat0 V c).owesAt () t.succ = (dat0 V c).owesAt () t.castSucc from rfl,
    dat0_after_0, dat0_after_1, dat0_after_2]
  iintro ⟨HΦ, Ho, ⟨%d0, H0⟩, ⟨%d1, H1⟩, ⟨%d2, H2⟩⟩
  iapply (sound_product0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation0 (c : Dev nD) : BodyObligation (dat0 (F := F) V c) (defs₀ (F := F)) Variants.none () Set.univ := fun t => by
  rw [bigSep_W0, bigSep_W0]
  exact sound_point0 V c t

end Cert.Kernel.Hand

end
-- ==== Proof.Bits.Stats1Base.lean ====
/-
  The second pallas_call of the kernel as printed, layer one: pre = agg + h · dis² + b on ten blocks of 5000 rows,
  with the column sums of pre and of pre² accumulated in two one-row scratch buffers that live across the grid
  points: zeroed at the first point, added to at every point, and turned into the batch mean and the one-pass
  variance (stored to windows 5 and 6) at the last point only.
  Here: the two branch conditions in closed form over the grid, where windows 5 and 6 are idle and not written
  back, the scratch buffers as memrefs, and the call's resting invariant opened at the two scratch buffers.
-/
import proofs.«169495_j53601191854606_1_alg».proof.Proof.Gen.Kernel.Launch
import proofs.«169495_j53601191854606_1_alg».proof.Proof.Gen.Kernel.Skeleton
import proofs.«169495_j53601191854606_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body zeroes the accumulators when the grid coordinate is 0, -/
abbrev atFirst1 (i : grid1.Coords) : Prop :=
  (Scalar.cmpi .ne (Scalar.extui (Scalar.cmpi .eq (BitVec.ofNat 32 (i 0).val) 0#32)) 0#32) = 1#1
theorem atFirst1_iff : ∀ t : Fin cfg1.N, atFirst1 (grid1.coords t) ↔ t.val % 10 = 0 :=
  (by decide +kernel : ∀ t : Fin grid1.N, atFirst1 (grid1.coords t) ↔ t.val % 10 = 0)

/-- and stores the statistics when it is 9. -/
abbrev atLast1 (i : grid1.Coords) : Prop := k1_cond2 i = 1#1
theorem atLast1_iff : ∀ t : Fin cfg1.N, atLast1 (grid1.coords t) ↔ t.val % 10 = 9 :=
  (by decide +kernel : ∀ t : Fin grid1.N, atLast1 (grid1.coords t) ↔ t.val % 10 = 9)

/-- The four inputs and the combined block are live at every point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- The mean and variance windows are idle, and not written back, away from the last point; live at it. -/
theorem idle1_5 : ∀ t : Fin cfg1.N, ¬atLast1 (grid1.coords t) → cfg1.idle 5 (grid1.coords t) = true := by decide +kernel
theorem idle1_6 : ∀ t : Fin cfg1.N, ¬atLast1 (grid1.coords t) → cfg1.idle 6 (grid1.coords t) = true := by decide +kernel
theorem keep1_5 : ∀ t : Fin cfg1.N, ¬atLast1 (grid1.coords t) → (cfg1.win 5).flush t = false := by decide +kernel
theorem keep1_6 : ∀ t : Fin cfg1.N, ¬atLast1 (grid1.coords t) → (cfg1.win 6).flush t = false := by decide +kernel
theorem last1_5 : ∀ t : Fin cfg1.N, atLast1 (grid1.coords t) → cfg1.idle 5 (grid1.coords t) = false := by decide +kernel
theorem last1_6 : ∀ t : Fin cfg1.N, atLast1 (grid1.coords t) → cfg1.idle 6 (grid1.coords t) = false := by decide +kernel

/-- The two accumulators: whole scoped buffers of the call's own. -/
abbrev sumBuf1 : Memref sig .tc .vmem S1x128 .f32 := Memref.whole cc1_scratch0
abbrev sqBuf1 : Memref sig .tc .vmem S1x128 .f32 := Memref.whole cc1_scratch1

/-- The resting invariant of the call, opened at the accumulators: each at some contents, every other scoped buffer
    unopened, the generator register at some state. -/
theorem rest1_eq (c : Dev nD) :
    (Pipeline.ΦA spec1 c : sProp 𝕄)
      = iprop(iprop(iprop((∃ d, owns (c : Thread nD τ) sumBuf1 fullShare d) ∗ (∃ d, owns (c : Thread nD τ) sqBuf1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [sumBuf1, sqBuf1, owns_whole]; try rfl

end Cert.Kernel.Hand

end
-- ==== Proof.Bits.Stats1First.lean ====
/-
  The combine-and-statistics body of layer one at the first grid point: the zeroing branch is taken, the
  statistics branch is not. The accumulators are entered at arbitrary contents (they are stored over before
  they are read); everything else is as at a middle point. The stored pieces are found by the run.
-/
import proofs.«169495_j53601191854606_1_alg».proof.Proof.Bits.Stats1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runFirst1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : atFirst1 i) (hc1 : ¬atLast1 i)
    (x1 : Vec F S5000x128 .f32) (x2 : Vec F S5000x128 .f32) (x3 : Vec F S5000x1 .f32) (x4 : Vec F S1x128 .f32) :
    Σ' (L5 : List (View.Piece (Elt F) S5000x128 .f32)), Σ' (L8 : List (View.Piece (Elt F) S1x128 .f32)), { L9 : List (View.Piece (Elt F) S1x128 .f32) //
      ∀ (k6 : Vec F S1x128 .f32) (k7 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ owns (c : Thread nD τ) arg6 fullShare k6 ∗ owns (c : Thread nD τ) arg7 fullShare k7
            ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare k6 ∗ owns (c : Thread nD τ) arg7 fullShare k7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, fun k6 k7 E K => ?run⟩
  case run =>
    simp only [cc1__combine_stats_kernel_eq_skeleton]; unfold cc1__combine_stats_kernel_skel
    simp only [k1_part1_eq_skeleton]; unfold k1_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

end Cert.Kernel.Hand

end
-- ==== Proof.Bits.Stats1Mid.lean ====
/-
  The combine-and-statistics body of layer one at a grid point that is neither the first nor the last: neither
  branch is taken. On whole staging buffers — the four inputs at their contents, the mean and variance buffers
  at contents handed back untouched, the accumulators at what the point before left — it runs to the end with
  the combined block stored and both accumulators stored over; the stored pieces are found by the run.
-/
import proofs.«169495_j53601191854606_1_alg».proof.Proof.Bits.Stats1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runMid1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬atFirst1 i) (hc1 : ¬atLast1 i)
    (x1 : Vec F S5000x128 .f32) (x2 : Vec F S5000x128 .f32) (x3 : Vec F S5000x1 .f32) (x4 : Vec F S1x128 .f32)
    (s8 : Vec F S1x128 .f32) (s9 : Vec F S1x128 .f32) :
    Σ' (L5 : List (View.Piece (Elt F) S5000x128 .f32)), Σ' (L8 : List (View.Piece (Elt F) S1x128 .f32)), { L9 : List (View.Piece (Elt F) S1x128 .f32) //
      ∀ (k6 : Vec F S1x128 .f32) (k7 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ owns (c : Thread nD τ) arg6 fullShare k6 ∗ owns (c : Thread nD τ) arg7 fullShare k7
            ∗ owns (c : Thread nD τ) arg8 fullShare s8 ∗ owns (c : Thread nD τ) arg9 fullShare s9
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare k6 ∗ owns (c : Thread nD τ) arg7 fullShare k7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, fun k6 k7 E K => ?run⟩
  case run =>
    simp only [cc1__combine_stats_kernel_eq_skeleton]; unfold cc1__combine_stats_kernel_skel
    simp only [k1_part1_eq_skeleton]; unfold k1_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

end Cert.Kernel.Hand

end
-- ==== Proof.Bits.Stats1Last.lean ====
/-
  The combine-and-statistics body of layer one at the last grid point: the zeroing branch is not taken, the
  statistics branch is. The accumulators are entered at what the point before left; the mean and variance
  buffers at arbitrary contents, and are stored over. The stored pieces are found by the run.
-/
import proofs.«169495_j53601191854606_1_alg».proof.Proof.Bits.Stats1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runLast1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬atFirst1 i) (hc1 : atLast1 i)
    (x1 : Vec F S5000x128 .f32) (x2 : Vec F S5000x128 .f32) (x3 : Vec F S5000x1 .f32) (x4 : Vec F S1x128 .f32)
    (s8 : Vec F S1x128 .f32) (s9 : Vec F S1x128 .f32) :
    Σ' (L5 : List (View.Piece (Elt F) S5000x128 .f32)), Σ' (L6 : List (View.Piece (Elt F) S1x128 .f32)), Σ' (L7 : List (View.Piece (Elt F) S1x128 .f32)),
      Σ' (L8 : List (View.Piece (Elt F) S1x128 .f32)), { L9 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ (∃ d, owns (c : Thread nD τ) arg6 fullShare d) ∗ (∃ d, owns (c : Thread nD τ) arg7 fullShare d)
            ∗ owns (c : Thread nD τ) arg8 fullShare s8 ∗ owns (c : Thread nD τ) arg9 fullShare s9
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__combine_stats_kernel_eq_skeleton]; unfold cc1__combine_stats_kernel_skel
    simp only [k1_part1_eq_skeleton]; unfold k1_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; iexact H7
    isplitl [H8]
    · iexists _; iexact H8
    iexists _; iexact H9

end Cert.Kernel.Hand

end
-- ==== Proof.Bits.Stats1Cases.lean ====
/-
  The combine-and-statistics call of layer one, case by case: each window's block at a grid point, the staging
  buffers the body is called on, and what each of the three runs (first point, middle point, last point) leaves
  in the combined-block buffer, the mean and variance buffers and the two accumulators — its stored pieces read
  back, with the fact that they cover the buffer. Stated at a parameter V (the buffer contents when the call is
  entered) and at any float instance.
-/
import proofs.«169495_j53601191854606_1_alg».proof.Proof.Bits.Stats1First
import proofs.«169495_j53601191854606_1_alg».proof.Proof.Bits.Stats1Mid
import proofs.«169495_j53601191854606_1_alg».proof.Proof.Bits.Stats1Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's block sits in its current staging buffer at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Each window's current staging memref at point t, as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)

/-- One staging buffer of each output window, through which its contents are stated (which one does not matter
    once the stores cover the block). -/
abbrev viaPre1 : View sig .tc .vmem S5000x128 .f32 := (Memref.whole cc1_stg4_0 : Memref sig .tc .vmem S5000x128 .f32).view
abbrev viaMean1 : View sig .tc .vmem S1x128 .f32 := (Memref.whole cc1_stg5_0 : Memref sig .tc .vmem S1x128 .f32).view
abbrev viaVar1 : View sig .tc .vmem S1x128 .f32 := (Memref.whole cc1_stg6_0 : Memref sig .tc .vmem S1x128 .f32).view
abbrev viaSum1 : View sig .tc .vmem S1x128 .f32 := sumBuf1.view
abbrev viaSq1 : View sig .tc .vmem S1x128 .f32 := sqBuf1.view

/-- What the five buffers hold after a point: the combined block, the mean, the variance, the running column
    sums of pre and of pre². -/
structure After1 (F : FTy → Type) [FloatOps F] where
  pre : Vec F S5000x128 .f32
  mean : Vec F S1x128 .f32
  var : Vec F S1x128 .f32
  sum : Vec F S1x128 .f32
  sq : Vec F S1x128 .f32

theorem cover_first_pre (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst1 i) (hc1 : ¬atLast1 i) (x1 : Vec F S5000x128 .f32) (x2 : Vec F S5000x128 .f32) (x3 : Vec F S5000x1 .f32) (x4 : Vec F S1x128 .f32) (y : S5000x128.Idx) :
    ∃ pc ∈ (runFirst1 c i arg1 harg1 arg2 harg2 arg3 harg3 arg4 harg4 arg5 harg5 arg6 harg6 arg7 harg7 arg8 harg8 arg9 harg9 hc0 hc1 x1 x2 x3 x4).1, y ∈ pc.1.set :=
  View.cover_of_tiledL (runFirst1 c i arg1 harg1 arg2 harg2 arg3 harg3 arg4 harg4 arg5 harg5 arg6 harg6 arg7 harg7 arg8 harg8 arg9 harg9 hc0 hc1 x1 x2 x3 x4).1 S5000x128.size (by sl_kernel_rfl) y
theorem cover_first_sum (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst1 i) (hc1 : ¬atLast1 i) (x1 : Vec F S5000x128 .f32) (x2 : Vec F S5000x128 .f32) (x3 : Vec F S5000x1 .f32) (x4 : Vec F S1x128 .f32) (y : S1x128.Idx) :
    ∃ pc ∈ (runFirst1 c i arg1 harg1 arg2 harg2 arg3 harg3 arg4 harg4 arg5 harg5 arg6 harg6 arg7 harg7 arg8 harg8 arg9 harg9 hc0 hc1 x1 x2 x3 x4).2.1, y ∈ pc.1.set :=
  View.cover_of_tiledL (runFirst1 c i arg1 harg1 arg2 harg2 arg3 harg3 arg4 harg4 arg5 harg5 arg6 harg6 arg7 harg7 arg8 harg8 arg9 harg9 hc0 hc1 x1 x2 x3 x4).2.1 S1x128.size (by sl_kernel_rfl) y
theorem cover_first_sq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst1 i) (hc1 : ¬atLast1 i) (x1 : Vec F S5000x128 .f32) (x2 : Vec F S5000x128 .f32) (x3 : Vec F S5000x1 .f32) (x4 : Vec F S1x128 .f32) (y : S1x128.Idx) :
    ∃ pc ∈ (runFirst1 c i arg1 harg1 arg2 harg2 arg3 harg3 arg4 harg4 arg5 harg5 arg6 harg6 arg7 harg7 arg8 harg8 arg9 harg9 hc0 hc1 x1 x2 x3 x4).2.2.1, y ∈ pc.1.set :=
  View.cover_of_tiledL (runFirst1 c i arg1 harg1 arg2 harg2 arg3 harg3 arg4 harg4 arg5 harg5 arg6 harg6 arg7 harg7 arg8 harg8 arg9 harg9 hc0 hc1 x1 x2 x3 x4).2.2.1 S1x128.size (by sl_kernel_rfl) y
/-- What the first point's run leaves: its stored pieces read back (the mean and variance buffers are not stored: placeholders nothing consults). -/
def first1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst1 i) (hc1 : ¬atLast1 i) (x1 : Vec F S5000x128 .f32) (x2 : Vec F S5000x128 .f32) (x3 : Vec F S5000x1 .f32) (x4 : Vec F S1x128 .f32) : After1 F where
  pre := viaPre1.read (Elt F) (viaPre1.writes (Elt F) viaPre1.junk (runFirst1 c i arg1 harg1 arg2 harg2 arg3 harg3 arg4 harg4 arg5 harg5 arg6 harg6 arg7 harg7 arg8 harg8 arg9 harg9 hc0 hc1 x1 x2 x3 x4).1)
  mean := viaMean1.read (Elt F) viaMean1.junk
  var := viaVar1.read (Elt F) viaVar1.junk
  sum := viaSum1.read (Elt F) (viaSum1.writes (Elt F) viaSum1.junk (runFirst1 c i arg1 harg1 arg2 harg2 arg3 harg3 arg4 harg4 arg5 harg5 arg6 harg6 arg7 harg7 arg8 harg8 arg9 harg9 hc0 hc1 x1 x2 x3 x4).2.1)
  sq := viaSq1.read (Elt F) (viaSq1.writes (Elt F) viaSq1.junk (runFirst1 c i arg1 harg1 arg2 harg2 arg3 harg3 arg4 harg4 arg5 harg5 arg6 harg6 arg7 harg7 arg8 harg8 arg9 harg9 hc0 hc1 x1 x2 x3 x4).2.2.1)

theorem cover_mid_pre (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : ¬atLast1 i) (x1 : Vec F S5000x128 .f32) (x2 : Vec F S5000x128 .f32) (x3 : Vec F S5000x1 .f32) (x4 : Vec F S1x128 .f32) (s8 : Vec F S1x128 .f32) (s9 : Vec F S1x128 .f32) (y : S5000x128.Idx) :
    ∃ pc ∈ (runMid1 c i arg1 harg1 arg2 harg2 arg3 harg3 arg4 harg4 arg5 harg5 arg6 harg6 arg7 harg7 arg8 harg8 arg9 harg9 hc0 hc1 x1 x2 x3 x4 s8 s9).1, y ∈ pc.1.set :=
  View.cover_of_tiledL (runMid1 c i arg1 harg1 arg2 harg2 arg3 harg3 arg4 harg4 arg5 harg5 arg6 harg6 arg7 harg7 arg8 harg8 arg9 harg9 hc0 hc1 x1 x2 x3 x4 s8 s9).1 S5000x128.size (by sl_kernel_rfl) y
theorem cover_mid_sum (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : ¬atLast1 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runMid1 c i arg1 harg1 arg2 harg2 arg3 harg3 arg4 harg4 arg5 harg5 arg6 harg6 arg7 harg7 arg8 harg8 arg9 harg9 hc0 hc1 x1 x2 x3 x4 s8 s9).2.1, y ∈ pc.1.set :=
  View.cover_of_tiledL (runMid1 c i arg1 harg1 arg2 harg2 arg3 harg3 arg4 harg4 arg5 harg5 arg6 harg6 arg7 harg7 arg8 harg8 arg9 harg9 hc0 hc1 x1 x2 x3 x4 s8 s9).2.1 S1x128.size (by sl_kernel_rfl) y
theorem cover_mid_sq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : ¬atLast1 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runMid1 c i arg1 harg1 arg2 harg2 arg3 harg3 arg4 harg4 arg5 harg5 arg6 harg6 arg7 harg7 arg8 harg8 arg9 harg9 hc0 hc1 x1 x2 x3 x4 s8 s9).2.2.1, y ∈ pc.1.set :=
  View.cover_of_tiledL (runMid1 c i arg1 harg1 arg2 harg2 arg3 harg3 arg4 harg4 arg5 harg5 arg6 harg6 arg7 harg7 arg8 harg8 arg9 harg9 hc0 hc1 x1 x2 x3 x4 s8 s9).2.2.1 S1x128.size (by sl_kernel_rfl) y
/-- What the mid point's run leaves: its stored pieces read back (the mean and variance buffers are not stored: placeholders nothing consults). -/
def mid1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : ¬atLast1 i) (x1 : Vec F S5000x128 .f32) (x2 : Vec F S5000x128 .f32) (x3 : Vec F S5000x1 .f32) (x4 : Vec F S1x128 .f32) (s8 : Vec F S1x128 .f32) (s9 : Vec F S1x128 .f32) : After1 F where
  pre := viaPre1.read (Elt F) (viaPre1.writes (Elt F) viaPre1.junk (runMid1 c i arg1 harg1 arg2 harg2 arg3 harg3 arg4 harg4 arg5 harg5 arg6 harg6 arg7 harg7 arg8 harg8 arg9 harg9 hc0 hc1 x1 x2 x3 x4 s8 s9).1)
  mean := viaMean1.read (Elt F) viaMean1.junk
  var := viaVar1.read (Elt F) viaVar1.junk
  sum := viaSum1.read (Elt F) (viaSum1.writes (Elt F) viaSum1.junk (runMid1 c i arg1 harg1 arg2 harg2 arg3 harg3 arg4 harg4 arg5 harg5 arg6 harg6 arg7 harg7 arg8 harg8 arg9 harg9 hc0 hc1 x1 x2 x3 x4 s8 s9).2.1)
  sq := viaSq1.read (Elt F) (viaSq1.writes (Elt F) viaSq1.junk (runMid1 c i arg1 harg1 arg2 harg2 arg3 harg3 arg4 harg4 arg5 harg5 arg6 harg6 arg7 harg7 arg8 harg8 arg9 harg9 hc0 hc1 x1 x2 x3 x4 s8 s9).2.2.1)

theorem cover_last_pre (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) (y : S5000x128.Idx) :
    ∃ pc ∈ (runLast1 c i arg1 harg1 arg2 harg2 arg3 harg3 arg4 harg4 arg5 harg5 arg6 harg6 arg7 harg7 arg8 harg8 arg9 harg9 hc0 hc1 x1 x2 x3 x4 s8 s9).1, y ∈ pc.1.set :=
  View.cover_of_tiledL (runLast1 c i arg1 harg1 arg2 harg2 arg3 harg3 arg4 harg4 arg5 harg5 arg6 harg6 arg7 harg7 arg8 harg8 arg9 harg9 hc0 hc1 x1 x2 x3 x4 s8 s9).1 S5000x128.size (by sl_kernel_rfl) y
theorem cover_last_mean (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast1 c i arg1 harg1 arg2 harg2 arg3 harg3 arg4 harg4 arg5 harg5 arg6 harg6 arg7 harg7 arg8 harg8 arg9 harg9 hc0 hc1 x1 x2 x3 x4 s8 s9).2.1, y ∈ pc.1.set :=
  View.cover_of_tiledL (runLast1 c i arg1 harg1 arg2 harg2 arg3 harg3 arg4 harg4 arg5 harg5 arg6 harg6 arg7 harg7 arg8 harg8 arg9 harg9 hc0 hc1 x1 x2 x3 x4 s8 s9).2.1 S1x128.size (by sl_kernel_rfl) y
theorem cover_last_var (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast1 c i arg1 harg1 arg2 harg2 arg3 harg3 arg4 harg4 arg5 harg5 arg6 harg6 arg7 harg7 arg8 harg8 arg9 harg9 hc0 hc1 x1 x2 x3 x4 s8 s9).2.2.1, y ∈ pc.1.set :=
  View.cover_of_tiledL (runLast1 c i arg1 harg1 arg2 harg2 arg3 harg3 arg4 harg4 arg5 harg5 arg6 harg6 arg7 harg7 arg8 harg8 arg9 harg9 hc0 hc1 x1 x2 x3 x4 s8 s9).2.2.1 S1x128.size (by sl_kernel_rfl) y
theorem cover_last_sum (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast1 c i arg1 harg1 arg2 harg2 arg3 harg3 arg4 harg4 arg5 harg5 arg6 harg6 arg7 harg7 arg8 harg8 arg9 harg9 hc0 hc1 x1 x2 x3 x4 s8 s9).2.2.2.1, y ∈ pc.1.set :=
  View.cover_of_tiledL (runLast1 c i arg1 harg1 arg2 harg2 arg3 harg3 arg4 harg4 arg5 harg5 arg6 harg6 arg7 harg7 arg8 harg8 arg9 harg9 hc0 hc1 x1 x2 x3 x4 s8 s9).2.2.2.1 S1x128.size (by sl_kernel_rfl) y
theorem cover_last_sq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast1 c i arg1 harg1 arg2 harg2 arg3 harg3 arg4 harg4 arg5 harg5 arg6 harg6 arg7 harg7 arg8 harg8 arg9 harg9 hc0 hc1 x1 x2 x3 x4 s8 s9).2.2.2.2.1, y ∈ pc.1.set :=
  View.cover_of_tiledL (runLast1 c i arg1 harg1 arg2 harg2 arg3 harg3 arg4 harg4 arg5 harg5 arg6 harg6 arg7 harg7 arg8 harg8 arg9 harg9 hc0 hc1 x1 x2 x3 x4 s8 s9).2.2.2.2.1 S1x128.size (by sl_kernel_rfl) y
/-- What the last point's run leaves: its stored pieces read back. -/
def last1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) : After1 F where
  pre := viaPre1.read (Elt F) (viaPre1.writes (Elt F) viaPre1.junk (runLast1 c i arg1 harg1 arg2 harg2 arg3 harg3 arg4 harg4 arg5 harg5 arg6 harg6 arg7 harg7 arg8 harg8 arg9 harg9 hc0 hc1 x1 x2 x3 x4 s8 s9).1)
  mean := viaMean1.read (Elt F) (viaMean1.writes (Elt F) viaMean1.junk (runLast1 c i arg1 harg1 arg2 harg2 arg3 harg3 arg4 harg4 arg5 harg5 arg6 harg6 arg7 harg7 arg8 harg8 arg9 harg9 hc0 hc1 x1 x2 x3 x4 s8 s9).2.1)
  var := viaVar1.read (Elt F) (viaVar1.writes (Elt F) viaVar1.junk (runLast1 c i arg1 harg1 arg2 harg2 arg3 harg3 arg4 harg4 arg5 harg5 arg6 harg6 arg7 harg7 arg8 harg8 arg9 harg9 hc0 hc1 x1 x2 x3 x4 s8 s9).2.2.1)
  sum := viaSum1.read (Elt F) (viaSum1.writes (Elt F) viaSum1.junk (runLast1 c i arg1 harg1 arg2 harg2 arg3 harg3 arg4 harg4 arg5 harg5 arg6 harg6 arg7 harg7 arg8 harg8 arg9 harg9 hc0 hc1 x1 x2 x3 x4 s8 s9).2.2.2.1)
  sq := viaSq1.read (Elt F) (viaSq1.writes (Elt F) viaSq1.junk (runLast1 c i arg1 harg1 arg2 harg2 arg3 harg3 arg4 harg4 arg5 harg5 arg6 harg6 arg7 harg7 arg8 harg8 arg9 harg9 hc0 hc1 x1 x2 x3 x4 s8 s9).2.2.2.2.1)

end Cert.Kernel.Hand

end
-- ==== Proof.Bits.Stats1Acc.lean ====
/-
  The combine-and-statistics call of layer one, point by point. What the five buffers hold after the body at
  each grid point: the first point's run from the point's input blocks; at a later point the middle or the last
  run from the input blocks and from the column sums the point before left. The call's invariant carries the
  two accumulators at those sums from one point to the next; the body obligation follows at every point.
-/
import proofs.«169495_j53601191854606_1_alg».proof.Proof.Bits.Stats1Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tenPoints1 : cfg1.N = 10 := N_1

/-- THE ACCUMULATION: the five buffers after the body at position n. -/
def after1 (c : Dev nD) : (n : ℕ) → n < cfg1.N → After1 F
  | 0, hn => first1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) sumBuf1 (Memref.isWhole_whole _) sqBuf1 (Memref.isWhole_whole _)
      ((atFirst1_iff ⟨0, hn⟩).mpr (Nat.zero_mod _))
      (fun h => by have h9 := (atLast1_iff ⟨0, hn⟩).mp h; (try dsimp only at h9); omega) (blk1 V c 0 ⟨0, hn⟩) (blk1 V c 1 ⟨0, hn⟩) (blk1 V c 2 ⟨0, hn⟩) (blk1 V c 3 ⟨0, hn⟩)
  | n + 1, hn =>
    if h1 : (n + 1) % 10 = 9 then
      last1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) sumBuf1 (Memref.isWhole_whole _) sqBuf1 (Memref.isWhole_whole _)
        (fun h => by have h0 := (atFirst1_iff ⟨n + 1, hn⟩).mp h; have hN : n + 1 < 10 := lt_of_lt_of_eq hn tenPoints1; (try dsimp only at h0); omega)
        ((atLast1_iff ⟨n + 1, hn⟩).mpr h1) (blk1 V c 0 ⟨n + 1, hn⟩) (blk1 V c 1 ⟨n + 1, hn⟩) (blk1 V c 2 ⟨n + 1, hn⟩) (blk1 V c 3 ⟨n + 1, hn⟩)
        (after1 c n (Nat.lt_of_succ_lt hn)).sum (after1 c n (Nat.lt_of_succ_lt hn)).sq
    else
      mid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) sumBuf1 (Memref.isWhole_whole _) sqBuf1 (Memref.isWhole_whole _)
        (fun h => by have h0 := (atFirst1_iff ⟨n + 1, hn⟩).mp h; have hN : n + 1 < 10 := lt_of_lt_of_eq hn tenPoints1; (try dsimp only at h0); omega)
        (fun h => h1 ((atLast1_iff ⟨n + 1, hn⟩).mp h)) (blk1 V c 0 ⟨n + 1, hn⟩) (blk1 V c 1 ⟨n + 1, hn⟩) (blk1 V c 2 ⟨n + 1, hn⟩) (blk1 V c 3 ⟨n + 1, hn⟩)
        (after1 c n (Nat.lt_of_succ_lt hn)).sum (after1 c n (Nat.lt_of_succ_lt hn)).sq

theorem after1_first (c : Dev nD) (t : Fin cfg1.N) (h0 : t.val % 10 = 0) (h1 : ¬t.val % 10 = 9) :
    after1 V c t.val t.isLt = first1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sumBuf1 (Memref.isWhole_whole _) sqBuf1 (Memref.isWhole_whole _) ((atFirst1_iff t).mpr h0) (fun h => h1 ((atLast1_iff t).mp h)) (blk1 V c 0 t) (blk1 V c 1 t) (blk1 V c 2 t) (blk1 V c 3 t) := by
  obtain ⟨n, hn⟩ := t
  cases n with
  | zero => exact rfl
  | succ n => exfalso; have hN : n + 1 < 10 := lt_of_lt_of_eq hn tenPoints1; (try dsimp only at h0); omega

theorem after1_mid (c : Dev nD) (t : Fin cfg1.N) (h0 : ¬t.val % 10 = 0) (h1 : ¬t.val % 10 = 9) :
    after1 V c t.val t.isLt = mid1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sumBuf1 (Memref.isWhole_whole _) sqBuf1 (Memref.isWhole_whole _) (fun h => h0 ((atFirst1_iff t).mp h)) (fun h => h1 ((atLast1_iff t).mp h)) (blk1 V c 0 t) (blk1 V c 1 t) (blk1 V c 2 t) (blk1 V c 3 t)
      (after1 V c (t.val - 1) (Nat.lt_of_le_of_lt (Nat.sub_le _ _) t.isLt)).sum (after1 V c (t.val - 1) (Nat.lt_of_le_of_lt (Nat.sub_le _ _) t.isLt)).sq := by
  obtain ⟨n, hn⟩ := t
  cases n with
  | zero => exact (by exfalso; (try dsimp only at h0); exact absurd (Nat.zero_mod _) h0)
  | succ n => exact (dif_neg h1).trans rfl

theorem after1_last (c : Dev nD) (t : Fin cfg1.N) (h0 : ¬t.val % 10 = 0) (h1 : t.val % 10 = 9) :
    after1 V c t.val t.isLt = last1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sumBuf1 (Memref.isWhole_whole _) sqBuf1 (Memref.isWhole_whole _) (fun h => h0 ((atFirst1_iff t).mp h)) ((atLast1_iff t).mpr h1) (blk1 V c 0 t) (blk1 V c 1 t) (blk1 V c 2 t) (blk1 V c 3 t)
      (after1 V c (t.val - 1) (Nat.lt_of_le_of_lt (Nat.sub_le _ _) t.isLt)).sum (after1 V c (t.val - 1) (Nat.lt_of_le_of_lt (Nat.sub_le _ _) t.isLt)).sq := by
  obtain ⟨n, hn⟩ := t
  cases n with
  | zero => exact (by exfalso; (try dsimp only at h0); exact absurd (Nat.zero_mod _) h0)
  | succ n => exact (dif_pos h1).trans rfl

/-- The call's invariant before position n: the resting one before the first point; afterwards the accumulators at
    the sums the point before left, every other scoped buffer unopened, the generator register at some state. -/
def carry1 (c : Dev nD) : (n : ℕ) → n ≤ cfg1.N → sProp 𝕄
  | 0, _ => Pipeline.ΦA spec1 c
  | n + 1, hn => iprop(iprop(iprop(owns (c : Thread nD τ) sumBuf1 fullShare (after1 V c n hn).sum ∗ owns (c : Thread nD τ) sqBuf1 fullShare (after1 V c n hn).sq)
      ∗ Pipeline.scopedRestBut (Ix := Unit) (Name := ℕ) (U := UR sig nD τ) (Lvl := ℕ) (Val := Elt F) spec1 c [cc1_scratch0, cc1_scratch1]) ∗ (∃ r, prngReg c r))

theorem carry1_zero (c : Dev nD) (n : ℕ) (h : n ≤ cfg1.N) (hz : n = 0) : carry1 V c n h = Pipeline.ΦA spec1 c := by
  subst hz; rfl

theorem carry1_succ (c : Dev nD) (n : ℕ) (hn : n < cfg1.N) :
    carry1 V c (n + 1) hn = iprop(iprop(iprop(owns (c : Thread nD τ) sumBuf1 fullShare (after1 V c n hn).sum ∗ owns (c : Thread nD τ) sqBuf1 fullShare (after1 V c n hn).sq)
      ∗ Pipeline.scopedRestBut (Ix := Unit) (Name := ℕ) (U := UR sig nD τ) (Lvl := ℕ) (Val := Elt F) spec1 c [cc1_scratch0, cc1_scratch1]) ∗ (∃ r, prngReg c r)) := rfl

theorem carry1_pos (c : Dev nD) (n : ℕ) (h : n ≤ cfg1.N) (hz : n ≠ 0) :
    carry1 V c n h = iprop(iprop(iprop(owns (c : Thread nD τ) sumBuf1 fullShare (after1 V c (n - 1) (by omega)).sum ∗ owns (c : Thread nD τ) sqBuf1 fullShare (after1 V c (n - 1) (by omega)).sq)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-- The proof data of the call: arrays as found; after the body each input buffer at its block, the three output
    buffers at the accumulation's components; the invariant the carried one; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => (after1 V c t.val t.isLt).pre
    | ⟨5, _⟩ => (after1 V c t.val t.isLt).mean
    | ⟨6, _⟩ => (after1 V c t.val t.isLt).var
  Φ t := carry1 V c t.val (Nat.le_of_lt_succ t.isLt)
  q _ := fullShare
  owed _ := 0

theorem dat1_A (c : Dev nD) (w : Fin cfg1.W) : (dat1 V c).A w = V c (Pipeline.arrRef spec1 w) := by
  dsimp only [dat1]

theorem dat1_carry (c : Dev nD) (t : Fin cfg1.N) :
    (dat1 V c).Φ t.castSucc = carry1 V c t.val (Nat.le_of_lt t.isLt) := by
  dsimp only [dat1]; simp only [Fin.coe_castSucc]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = blk1 V c 3 t := by dsimp only [dat1]
theorem dat1_after_4 (c : Dev nD) (t : Fin cfg1.N) : (dat1 V c).after 4 t = (after1 V c t.val t.isLt).pre := by dsimp only [dat1]
theorem dat1_after_5 (c : Dev nD) (t : Fin cfg1.N) : (dat1 V c).after 5 t = (after1 V c t.val t.isLt).mean := by dsimp only [dat1]
theorem dat1_after_6 (c : Dev nD) (t : Fin cfg1.N) : (dat1 V c).after 6 t = (after1 V c t.val t.isLt).var := by dsimp only [dat1]

theorem dat1_before_0 (c : Dev nD) (t : Fin cfg1.N) (d) : (dat1 V c).before 0 t d = blk1 V c 0 t :=
  before1_0_of V (dat1 V c) (dat1_A V c 0) (dat1_after_0 V c) t d
theorem dat1_before_1 (c : Dev nD) (t : Fin cfg1.N) (d) : (dat1 V c).before 1 t d = blk1 V c 1 t :=
  before1_1_of V (dat1 V c) (dat1_A V c 1) (dat1_after_1 V c) t d
theorem dat1_before_2 (c : Dev nD) (t : Fin cfg1.N) (d) : (dat1 V c).before 2 t d = blk1 V c 2 t :=
  before1_2_of V (dat1 V c) (dat1_A V c 2) (dat1_after_2 V c) t d
theorem dat1_before_3 (c : Dev nD) (t : Fin cfg1.N) (d) : (dat1 V c).before 3 t d = blk1 V c 3 t :=
  before1_3_of V (dat1 V c) (dat1_A V c 3) (dat1_after_3 V c) t d

end Cert.Kernel.Hand

end
-- ==== Proof.Bits.Stats1Body.lean ====
/-
  The combine-and-statistics call of layer one: the body obligation. At a generic grid point the body is entered
  with the carried invariant, nothing owed, and each window's current staging buffer (an input's at its block); it
  leaves the invariant of the next position — the accumulators at this point's sums —, each input buffer as it was,
  the combined block stored, and the mean and variance buffers stored at the last point and handed back untouched
  elsewhere. Three cases by the point's position: first, middle, last.
-/
import proofs.«169495_j53601191854606_1_alg».proof.Proof.Bits.Stats1Acc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def enter1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def leave1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
theorem sound_point1 (c : Dev nD) (t : Fin cfg1.N) :
    enter1 V c t ⊢ wp frame (wpE (defs₀ (F := F)) Variants.none c none) Set.univ (bodyAt1 t) (fun _ => leave1 V c t) := by
  unfold enter1 leave1 bodyAt1
  simp only [dat1_before_0, dat1_before_1, dat1_before_2, dat1_before_3]
  rw [show (dat1 V c).owesAt () t.succ = (dat1 V c).owesAt () t.castSucc from rfl]
  rw [show (dat1 V c).Φ t.succ = carry1 V c (t.val + 1) t.isLt from rfl, carry1_succ]
  have hN : t.val < 10 := lt_of_lt_of_eq t.isLt tenPoints1
  rw [show (dat1 V c).leavesExact 0 t = owns (c : Thread nD τ) (ms1_0 t) fullShare ((dat1 V c).after 0 t) from by
    unfold Dat.leavesExact; rw [live1_0 t], dat1_after_0]
  rw [show (dat1 V c).leavesExact 1 t = owns (c : Thread nD τ) (ms1_1 t) fullShare ((dat1 V c).after 1 t) from by
    unfold Dat.leavesExact; rw [live1_1 t], dat1_after_1]
  rw [show (dat1 V c).leavesExact 2 t = owns (c : Thread nD τ) (ms1_2 t) fullShare ((dat1 V c).after 2 t) from by
    unfold Dat.leavesExact; rw [live1_2 t], dat1_after_2]
  rw [show (dat1 V c).leavesExact 3 t = owns (c : Thread nD τ) (ms1_3 t) fullShare ((dat1 V c).after 3 t) from by
    unfold Dat.leavesExact; rw [live1_3 t], dat1_after_3]
  rw [show (dat1 V c).leavesExact 4 t = owns (c : Thread nD τ) (ms1_4 t) fullShare ((dat1 V c).after 4 t) from by
    unfold Dat.leavesExact; rw [live1_4 t], dat1_after_4]
  by_cases h0 : t.val % 10 = 0
  · -- the first point
    have h1 : ¬t.val % 10 = 9 := by omega
    have hz : t.val = 0 := by omega
    rw [Dat.leavesExact_idle (dat1 V c) 5 t (idle1_5 t (fun h => h1 ((atLast1_iff t).mp h))) (keep1_5 t (fun h => h1 ((atLast1_iff t).mp h)))]
    rw [Dat.leavesExact_idle (dat1 V c) 6 t (idle1_6 t (fun h => h1 ((atLast1_iff t).mp h))) (keep1_6 t (fun h => h1 ((atLast1_iff t).mp h)))]
    rw [after1_first V c t h0 h1]
    unfold first1; (try dsimp only)
    rw [dat1_carry V c t, carry1_zero V c _ _ hz, rest1_eq]
    iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runFirst1 c (grid1.coords t) _ _ _ _ _ _ _ _ _ _ _ _ _ _ _ _ _ _ ((atFirst1_iff t).mpr h0) (fun h => h1 ((atLast1_iff t).mp h)) (blk1 V c 0 t) (blk1 V c 1 t) (blk1 V c 2 t) (blk1 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, ⟨%e4, H4⟩, H5, H6, ⟨%e8, HS8⟩, ⟨%e9, HS9⟩⟩
    isplitl [HS8 HS9 HR Hg]
    · isplitl [HS8 HS9 HR]
      · isplitl [HS8 HS9]
        · isplitl [HS8]
          · unfold owns; iexists _; isplitr
            swap; · iexact HS8
            ipureintro; exact View.read_writes_of_cover _ _ _ _ _ (cover_first_sum c _ _ _ _ _ _ _ _ _ _ _ _ _ _ _ _ _ _ _ _ _ _ _ _ _)
          · unfold owns; iexists _; isplitr
            swap; · iexact HS9
            ipureintro; exact View.read_writes_of_cover _ _ _ _ _ (cover_first_sq c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_first_pre c _ _ _ _ _ _ _ _ _ _ _ _ _ _ _ _ _ _ _ _ _ _ _ _ _)
    isplitl [H5]; · iexists _; iexact H5
    iexists _; iexact H6
  · have hz : t.val ≠ 0 := by omega
    by_cases h1 : t.val % 10 = 9
    · -- the last point
      rw [show (dat1 V c).leavesExact 5 t = owns (c : Thread nD τ) (ms1_5 t) fullShare ((dat1 V c).after 5 t) from by
        unfold Dat.leavesExact; rw [last1_5 t ((atLast1_iff t).mpr h1)], dat1_after_5]
      rw [show (dat1 V c).leavesExact 6 t = owns (c : Thread nD τ) (ms1_6 t) fullShare ((dat1 V c).after 6 t) from by
        unfold Dat.leavesExact; rw [last1_6 t ((atLast1_iff t).mpr h1)], dat1_after_6]
      rw [after1_last V c t h0 h1]
      unfold last1; (try dsimp only)
      rw [dat1_carry V c t, carry1_pos V c _ _ hz]
      iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast1 c (grid1.coords t) _ _ _ _ _ _ _ _ _ _ _ _ _ _ _ _ _ _ (fun h => h0 ((atFirst1_iff t).mp h)) ((atLast1_iff t).mpr h1) (blk1 V c 0 t) (blk1 V c 1 t) (blk1 V c 2 t) (blk1 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, ⟨%e4, H4⟩, ⟨%e5, H5⟩, ⟨%e6, H6⟩, ⟨%e8, HS8⟩, ⟨%e9, HS9⟩⟩
      isplitl [HS8 HS9 HR Hg]
      · isplitl [HS8 HS9 HR]
        · isplitl [HS8 HS9]
          · isplitl [HS8]
            · unfold owns; iexists _; isplitr
              swap; · iexact HS8
              ipureintro; exact View.read_writes_of_cover _ _ _ _ _ (cover_last_sum c _ _ _ _ _ _ _ _ _ _ _ _ _ _ _ _ _ _ _ _ _ _ _ _ _ _ _)
            · unfold owns; iexists _; isplitr
              swap; · iexact HS9
              ipureintro; exact View.read_writes_of_cover _ _ _ _ _ (cover_last_sq c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_last_pre c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover_last_mean c _ _ _ _ _ _ _ _ _ _ _ _ _ _ _ _ _ _ _ _ _ _ _ _ _ _ _)
      unfold owns; iexists _; isplitr
      swap; · iexact H6
      ipureintro; exact View.read_writes_of_cover _ _ _ _ _ (cover_last_var c _ _ _ _ _ _ _ _ _ _ _ _ _ _ _ _ _ _ _ _ _ _ _ _ _ _ _)
    · -- a middle point
      rw [Dat.leavesExact_idle (dat1 V c) 5 t (idle1_5 t (fun h => h1 ((atLast1_iff t).mp h))) (keep1_5 t (fun h => h1 ((atLast1_iff t).mp h)))]
      rw [Dat.leavesExact_idle (dat1 V c) 6 t (idle1_6 t (fun h => h1 ((atLast1_iff t).mp h))) (keep1_6 t (fun h => h1 ((atLast1_iff t).mp h)))]
      rw [after1_mid V c t h0 h1]
      unfold mid1; (try dsimp only)
      rw [dat1_carry V c t, carry1_pos V c _ _ hz]
      iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid1 c (grid1.coords t) _ _ _ _ _ _ _ _ _ _ _ _ _ _ _ _ _ _ (fun h => h0 ((atFirst1_iff t).mp h)) (fun h => h1 ((atLast1_iff t).mp h)) (blk1 V c 0 t) (blk1 V c 1 t) (blk1 V c 2 t) (blk1 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, ⟨%e4, H4⟩, H5, H6, ⟨%e8, HS8⟩, ⟨%e9, HS9⟩⟩
      isplitl [HS8 HS9 HR Hg]
      · isplitl [HS8 HS9 HR]
        · isplitl [HS8 HS9]
          · isplitl [HS8]
            · unfold owns; iexists _; isplitr
              swap; · iexact HS8
              ipureintro; exact View.read_writes_of_cover _ _ _ _ _ (cover_mid_sum c _ _ _ _ _ _ _ _ _ _ _ _ _ _ _ _ _ _ _ _ _ _ _ _ _ _ _)
            · unfold owns; iexists _; isplitr
              swap; · iexact HS9
              ipureintro; exact View.read_writes_of_cover _ _ _ _ _ (cover_mid_sq c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_mid_pre c _ _ _ _ _ _ _ _ _ _ _ _ _ _ _ _ _ _ _ _ _ _ _ _ _ _ _)
      isplitl [H5]; · iexists _; iexact H5
      iexists _; iexact H6

theorem obligation1 (c : Dev nD) : BodyObligation (dat1 (F := F) V c) (defs₀ (F := F)) Variants.none () Set.univ := fun t => by
  rw [bigSep_W1, bigSep_W1]
  exact sound_point1 V c t

/-- What the launch hands the call is the invariant before the first point, -/
theorem carry1_in (c : Dev nD) : Pipeline.ΦA spec1 c ⊢ (dat1 V c).Φ 0 := by
  rw [show (dat1 V c).Φ 0 = carry1 V c 0 (Nat.zero_le _) from rfl, carry1_zero V c 0 _ rfl]
  try exact Idealize.SL.BI.Entails.refl _

/-- and after the last point the invariant gives the resting one back, the sums forgotten. -/
theorem carry1_out (c : Dev nD) : (dat1 V c).Φ (Fin.last cfg1.N) ⊢ Pipeline.ΦA spec1 c := by
  rw [show (dat1 V c).Φ (Fin.last cfg1.N) = carry1 V c (Fin.last cfg1.N).val (Nat.le_of_lt_succ (Fin.last cfg1.N).isLt) from rfl,
    carry1_pos V c _ _ (by rw [Fin.val_last]; have : cfg1.N = 10 := tenPoints1; omega), rest1_eq]
  iintro ⟨⟨⟨HS8, HS9⟩, HR⟩, Hg⟩
  isplitl [HS8 HS9 HR]
  · isplitl [HS8 HS9]
    · isplitl [HS8]
      · iexists _; iexact HS8
      iexists _; iexact HS9
    iexact HR
  iexact Hg

end Cert.Kernel.Hand

end
-- ==== Proof.Bits.Act2.lean ====
/-
  The normalisation and rectifier of layer one (pallas_call 2 of the kernel as printed) on ten blocks of 5000 rows of
  width 128: each grid point reads its block of pre (window 0) and the one-row mean, variance, scale and shift
  (windows 1 to 4, the same block at every point, fetched once) and stores g · ((pre − mean) · rsqrt(var + eps)) + be
  passed through the exponential linear unit into window 5. At a parameter V and any float instance: what the body
  leaves, its triple, the proof data and the body obligation at every point.
-/
import proofs.«169495_j53601191854606_1_alg».proof.Proof.Gen.Kernel.Launch
import proofs.«169495_j53601191854606_1_alg».proof.Proof.Gen.Kernel.Skeleton
import proofs.«169495_j53601191854606_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's block sits in its current staging buffer at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-- The output buffer after the body, from the loaded input blocks: one store through the whole block. -/
def act2 (x0 : Vec F S5000x128 .f32) (x1 : Vec F S1x128 .f32) (x2 : Vec F S1x128 .f32) (x3 : Vec F S1x128 .f32) (x4 : Vec F S1x128 .f32) : Vec F S5000x128 .f32 :=
  View.canon [⟨Rect.unit (s := S5000x128) ![0, 0] S5000x128.size inb_S5000x128_S5000x128_0_0, k2_pay1 (View.ld x0 (Rect.unit (s := S5000x128) ![0, 0] S5000x128.size inb_S5000x128_S5000x128_0_0)) (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

theorem cover_act2 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 1000000 in
/-- The body on whole staging buffers: inputs kept, the output stored. -/
theorem sound_act2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (act2 x0 x1 x2 x3 x4)) -∗ K ⟨⟩))
      ⊢ wp frame (wpE (defs₀ (F := F)) Variants.none c none) E (cc2__norm_elu_kernel i arg1 harg1 arg2 harg2 arg3 harg3 arg4 harg4 arg5 harg5 arg6 harg6) K := by
  simp only [cc2__norm_elu_kernel_eq_skeleton]; unfold cc2__norm_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover_act2 _)

/-- The proof data of the call: arrays as found; after the body each input buffer still at its block, the output
    buffer at what the body stores; nothing carried, nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => act2 (blk2 V c 0 t) (blk2 V c 1 t) (blk2 V c 2 t) (blk2 V c 3 t) (blk2 V c 4 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) : (dat2 V c).after 3 t = blk2 V c 3 t := by dsimp only [dat2]
theorem dat2_after_4 (c : Dev nD) (t : Fin cfg2.N) : (dat2 V c).after 4 t = blk2 V c 4 t := by dsimp only [dat2]
theorem dat2_after_5 (c : Dev nD) (t : Fin cfg2.N) :
    (dat2 V c).after 5 t = act2 (blk2 V c 0 t) (blk2 V c 1 t) (blk2 V c 2 t) (blk2 V c 3 t) (blk2 V c 4 t) := by dsimp only [dat2]

theorem dat2_before_0 (c : Dev nD) (t : Fin cfg2.N) (d) : (dat2 V c).before 0 t d = blk2 V c 0 t :=
  before2_0_of V (dat2 V c) (dat2_A V c 0) (dat2_after_0 V c) t d
theorem dat2_before_1 (c : Dev nD) (t : Fin cfg2.N) (d) : (dat2 V c).before 1 t d = blk2 V c 1 t :=
  before2_1_of V (dat2 V c) (dat2_A V c 1) (dat2_after_1 V c) t d
theorem dat2_before_2 (c : Dev nD) (t : Fin cfg2.N) (d) : (dat2 V c).before 2 t d = blk2 V c 2 t :=
  before2_2_of V (dat2 V c) (dat2_A V c 2) (dat2_after_2 V c) t d
theorem dat2_before_3 (c : Dev nD) (t : Fin cfg2.N) (d) : (dat2 V c).before 3 t d = blk2 V c 3 t :=
  before2_3_of V (dat2 V c) (dat2_A V c 3) (dat2_after_3 V c) t d
theorem dat2_before_4 (c : Dev nD) (t : Fin cfg2.N) (d) : (dat2 V c).before 4 t d = blk2 V c 4 t :=
  before2_4_of V (dat2 V c) (dat2_A V c 4) (dat2_after_4 V c) t d

def enter2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def leave2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_point2 (c : Dev nD) (t : Fin cfg2.N) :
    enter2 V c t ⊢ wp frame (wpE (defs₀ (F := F)) Variants.none c none) Set.univ (bodyAt2 t) (fun _ => leave2 V c t) := by
  unfold enter2 leave2 bodyAt2
  simp only [dat2_before_0, dat2_before_1, dat2_before_2, dat2_before_3, dat2_before_4]
  rw [show (dat2 V c).Φ t.succ = (dat2 V c).Φ t.castSucc from rfl,
    show (dat2 V c).owesAt () t.succ = (dat2 V c).owesAt () t.castSucc from rfl,
    dat2_after_0, dat2_after_1, dat2_after_2, dat2_after_3, dat2_after_4, dat2_after_5]
  iintro ⟨HΦ, Ho, ⟨%d0, H0⟩, ⟨%d1, H1⟩, ⟨%d2, H2⟩, ⟨%d3, H3⟩, ⟨%d4, H4⟩, ⟨%d5, H5⟩⟩
  iapply (sound_act2 c Set.univ _ _ _ _ _ _ _ _ _ _ _ _ _ (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem obligation2 (c : Dev nD) : BodyObligation (dat2 (F := F) V c) (defs₀ (F := F)) Variants.none () Set.univ := fun t => by
  rw [bigSep_W2, bigSep_W2]
  exact sound_point2 V c t

end Cert.Kernel.Hand

end
-- ==== Proof.Bits.Product3.lean ====
/-
  The feature product of layer two (pallas_call 3 of the kernel as printed): h = x · W on ten blocks of 5000
  rows. Each grid point reads its block of x (window 0) and the whole weight matrix (window 1, 128 by 128, the same
  block at every point, fetched once) and stores the block's product into window 2. At a parameter V — the buffer
  contents when the call is entered — and any float instance: what the body leaves, its triple, the proof data and
  the body obligation at every point.
-/
import proofs.«169495_j53601191854606_1_alg».proof.Proof.Gen.Kernel.Launch
import proofs.«169495_j53601191854606_1_alg».proof.Proof.Gen.Kernel.Skeleton
import proofs.«169495_j53601191854606_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input's block sits in its current staging buffer at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The output buffer after the body, from the loaded input blocks: one store through the whole block. -/
def prod3 (x0 : Vec F S5000x128 .f32) (x1 : Vec F S128x128 .f32) : Vec F S5000x128 .f32 :=
  View.canon [⟨Rect.unit (s := S5000x128) ![0, 0] S5000x128.size inb_S5000x128_S5000x128_0_0, k3_pay1 (View.ld x0 (Rect.unit (s := S5000x128) ![0, 0] S5000x128.size inb_S5000x128_S5000x128_0_0)) (View.ld x1 (Rect.unit (s := S128x128) ![0, 0] S128x128.size inb_S128x128_S128x128_0_0))⟩]

theorem cover_prod3 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 1000000 in
/-- The body on whole staging buffers: inputs kept, the output stored. -/
theorem sound_prod3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod3 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover_prod3 _)

/-- The proof data of the call: arrays as found; after the body each input buffer still at its block, the output
    buffer at what the body stores; nothing carried, nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => prod3 (blk3 V c 0 t) (blk3 V c 1 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after_0 (c : Dev nD) (t : Fin cfg3.N) : (dat3 V c).after 0 t = blk3 V c 0 t := by dsimp only [dat3]
theorem dat3_after_1 (c : Dev nD) (t : Fin cfg3.N) : (dat3 V c).after 1 t = blk3 V c 1 t := by dsimp only [dat3]
theorem dat3_after_2 (c : Dev nD) (t : Fin cfg3.N) :
    (dat3 V c).after 2 t = prod3 (blk3 V c 0 t) (blk3 V c 1 t) := by dsimp only [dat3]

theorem dat3_before_0 (c : Dev nD) (t : Fin cfg3.N) (d) : (dat3 V c).before 0 t d = blk3 V c 0 t :=
  before3_0_of V (dat3 V c) (dat3_A V c 0) (dat3_after_0 V c) t d
theorem dat3_before_1 (c : Dev nD) (t : Fin cfg3.N) (d) : (dat3 V c).before 1 t d = blk3 V c 1 t :=
  before3_1_of V (dat3 V c) (dat3_A V c 1) (dat3_after_1 V c) t d

def enter3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def leave3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_point3 (c : Dev nD) (t : Fin cfg3.N) :
    enter3 V c t ⊢ wp frame (wpE (defs₀ (F := F)) Variants.none c none) Set.univ (bodyAt3 t) (fun _ => leave3 V c t) := by
  unfold enter3 leave3 bodyAt3
  simp only [dat3_before_0, dat3_before_1]
  rw [show (dat3 V c).Φ t.succ = (dat3 V c).Φ t.castSucc from rfl,
    show (dat3 V c).owesAt () t.succ = (dat3 V c).owesAt () t.castSucc from rfl,
    dat3_after_0, dat3_after_1, dat3_after_2]
  iintro ⟨HΦ, Ho, ⟨%d0, H0⟩, ⟨%d1, H1⟩, ⟨%d2, H2⟩⟩
  iapply (sound_prod3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation3 (c : Dev nD) : BodyObligation (dat3 (F := F) V c) (defs₀ (F := F)) Variants.none () Set.univ := fun t => by
  rw [bigSep_W3, bigSep_W3]
  exact sound_point3 V c t

end Cert.Kernel.Hand

end
-- ==== Proof.Bits.Stats4Base.lean ====
/-
  The fifth pallas_call of the kernel as printed, layer two: pre = agg + h · dis² + b on ten blocks of 5000 rows,
  with the column sums of pre and of pre² accumulated in two one-row scratch buffers that live across the grid
  points: zeroed at the first point, added to at every point, and turned into the batch mean and the one-pass
  variance (stored to windows 5 and 6) at the last point only.
  Here: the two branch conditions in closed form over the grid, where windows 5 and 6 are idle and not written
  back, the scratch buffers as memrefs, and the call's resting invariant opened at the two scratch buffers.
-/
import proofs.«169495_j53601191854606_1_alg».proof.Proof.Gen.Kernel.Launch
import proofs.«169495_j53601191854606_1_alg».proof.Proof.Gen.Kernel.Skeleton
import proofs.«169495_j53601191854606_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body zeroes the accumulators when the grid coordinate is 0, -/
abbrev atFirst4 (i : grid4.Coords) : Prop :=
  (Scalar.cmpi .ne (Scalar.extui (Scalar.cmpi .eq (BitVec.ofNat 32 (i 0).val) 0#32)) 0#32) = 1#1
theorem atFirst4_iff : ∀ t : Fin cfg4.N, atFirst4 (grid4.coords t) ↔ t.val % 10 = 0 :=
  (by decide +kernel : ∀ t : Fin grid4.N, atFirst4 (grid4.coords t) ↔ t.val % 10 = 0)

/-- and stores the statistics when it is 9. -/
abbrev atLast4 (i : grid4.Coords) : Prop := k4_cond2 i = 1#1
theorem atLast4_iff : ∀ t : Fin cfg4.N, atLast4 (grid4.coords t) ↔ t.val % 10 = 9 :=
  (by decide +kernel : ∀ t : Fin grid4.N, atLast4 (grid4.coords t) ↔ t.val % 10 = 9)

/-- The four inputs and the combined block are live at every point. -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
/-- The mean and variance windows are idle, and not written back, away from the last point; live at it. -/
theorem idle4_5 : ∀ t : Fin cfg4.N, ¬atLast4 (grid4.coords t) → cfg4.idle 5 (grid4.coords t) = true := by decide +kernel
theorem idle4_6 : ∀ t : Fin cfg4.N, ¬atLast4 (grid4.coords t) → cfg4.idle 6 (grid4.coords t) = true := by decide +kernel
theorem keep4_5 : ∀ t : Fin cfg4.N, ¬atLast4 (grid4.coords t) → (cfg4.win 5).flush t = false := by decide +kernel
theorem keep4_6 : ∀ t : Fin cfg4.N, ¬atLast4 (grid4.coords t) → (cfg4.win 6).flush t = false := by decide +kernel
theorem last4_5 : ∀ t : Fin cfg4.N, atLast4 (grid4.coords t) → cfg4.idle 5 (grid4.coords t) = false := by decide +kernel
theorem last4_6 : ∀ t : Fin cfg4.N, atLast4 (grid4.coords t) → cfg4.idle 6 (grid4.coords t) = false := by decide +kernel

/-- The two accumulators: whole scoped buffers of the call's own. -/
abbrev sumBuf4 : Memref sig .tc .vmem S1x128 .f32 := Memref.whole cc4_scratch0
abbrev sqBuf4 : Memref sig .tc .vmem S1x128 .f32 := Memref.whole cc4_scratch1

/-- The resting invariant of the call, opened at the accumulators: each at some contents, every other scoped buffer
    unopened, the generator register at some state. -/
theorem rest4_eq (c : Dev nD) :
    (Pipeline.ΦA spec4 c : sProp 𝕄)
      = iprop(iprop(iprop((∃ d, owns (c : Thread nD τ) sumBuf4 fullShare d) ∗ (∃ d, owns (c : Thread nD τ) sqBuf4 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [sumBuf4, sqBuf4, owns_whole]; try rfl

end Cert.Kernel.Hand

end
-- ==== Proof.Bits.Stats4First.lean ====
/-
  The combine-and-statistics body of layer two at the first grid point: the zeroing branch is taken, the
  statistics branch is not. The accumulators are entered at arbitrary contents (they are stored over before
  they are read); everything else is as at a middle point. The stored pieces are found by the run.
-/
import proofs.«169495_j53601191854606_1_alg».proof.Proof.Bits.Stats4Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runFirst4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : atFirst4 i) (hc1 : ¬atLast4 i)
    (x1 : Vec F S5000x128 .f32) (x2 : Vec F S5000x128 .f32) (x3 : Vec F S5000x1 .f32) (x4 : Vec F S1x128 .f32) :
    Σ' (L5 : List (View.Piece (Elt F) S5000x128 .f32)), Σ' (L8 : List (View.Piece (Elt F) S1x128 .f32)), { L9 : List (View.Piece (Elt F) S1x128 .f32) //
      ∀ (k6 : Vec F S1x128 .f32) (k7 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ owns (c : Thread nD τ) arg6 fullShare k6 ∗ owns (c : Thread nD τ) arg7 fullShare k7
            ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare k6 ∗ owns (c : Thread nD τ) arg7 fullShare k7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, fun k6 k7 E K => ?run⟩
  case run =>
    simp only [cc4__combine_stats_kernel_eq_skeleton]; unfold cc4__combine_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

end Cert.Kernel.Hand

end
-- ==== Proof.Bits.Stats4Mid.lean ====
/-
  The combine-and-statistics body of layer two at a grid point that is neither the first nor the last: neither
  branch is taken. On whole staging buffers — the four inputs at their contents, the mean and variance buffers
  at contents handed back untouched, the accumulators at what the point before left — it runs to the end with
  the combined block stored and both accumulators stored over; the stored pieces are found by the run.
-/
import proofs.«169495_j53601191854606_1_alg».proof.Proof.Bits.Stats4Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runMid4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬atFirst4 i) (hc1 : ¬atLast4 i)
    (x1 : Vec F S5000x128 .f32) (x2 : Vec F S5000x128 .f32) (x3 : Vec F S5000x1 .f32) (x4 : Vec F S1x128 .f32)
    (s8 : Vec F S1x128 .f32) (s9 : Vec F S1x128 .f32) :
    Σ' (L5 : List (View.Piece (Elt F) S5000x128 .f32)), Σ' (L8 : List (View.Piece (Elt F) S1x128 .f32)), { L9 : List (View.Piece (Elt F) S1x128 .f32) //
      ∀ (k6 : Vec F S1x128 .f32) (k7 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ owns (c : Thread nD τ) arg6 fullShare k6 ∗ owns (c : Thread nD τ) arg7 fullShare k7
            ∗ owns (c : Thread nD τ) arg8 fullShare s8 ∗ owns (c : Thread nD τ) arg9 fullShare s9
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare k6 ∗ owns (c : Thread nD τ) arg7 fullShare k7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, fun k6 k7 E K => ?run⟩
  case run =>
    simp only [cc4__combine_stats_kernel_eq_skeleton]; unfold cc4__combine_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

end Cert.Kernel.Hand

end
-- ==== Proof.Bits.Stats4Last.lean ====
/-
  The combine-and-statistics body of layer two at the last grid point: the zeroing branch is not taken, the
  statistics branch is. The accumulators are entered at what the point before left; the mean and variance
  buffers at arbitrary contents, and are stored over. The stored pieces are found by the run.
-/
import proofs.«169495_j53601191854606_1_alg».proof.Proof.Bits.Stats4Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runLast4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬atFirst4 i) (hc1 : atLast4 i)
    (x1 : Vec F S5000x128 .f32) (x2 : Vec F S5000x128 .f32) (x3 : Vec F S5000x1 .f32) (x4 : Vec F S1x128 .f32)
    (s8 : Vec F S1x128 .f32) (s9 : Vec F S1x128 .f32) :
    Σ' (L5 : List (View.Piece (Elt F) S5000x128 .f32)), Σ' (L6 : List (View.Piece (Elt F) S1x128 .f32)), Σ' (L7 : List (View.Piece (Elt F) S1x128 .f32)),
      Σ' (L8 : List (View.Piece (Elt F) S1x128 .f32)), { L9 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ (∃ d, owns (c : Thread nD τ) arg6 fullShare d) ∗ (∃ d, owns (c : Thread nD τ) arg7 fullShare d)
            ∗ owns (c : Thread nD τ) arg8 fullShare s8 ∗ owns (c : Thread nD τ) arg9 fullShare s9
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__combine_stats_kernel_eq_skeleton]; unfold cc4__combine_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; iexact H7
    isplitl [H8]
    · iexists _; iexact H8
    iexists _; iexact H9

end Cert.Kernel.Hand

end
-- ==== Proof.Bits.Stats4Cases.lean ====
/-
  The combine-and-statistics call of layer two, case by case: each window's block at a grid point, the staging
  buffers the body is called on, and what each of the three runs (first point, middle point, last point) leaves
  in the combined-block buffer, the mean and variance buffers and the two accumulators — its stored pieces read
  back, with the fact that they cover the buffer. Stated at a parameter V (the buffer contents when the call is
  entered) and at any float instance.
-/
import proofs.«169495_j53601191854606_1_alg».proof.Proof.Bits.Stats4First
import proofs.«169495_j53601191854606_1_alg».proof.Proof.Bits.Stats4Mid
import proofs.«169495_j53601191854606_1_alg».proof.Proof.Bits.Stats4Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input's block sits in its current staging buffer at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)

/-- Each window's current staging memref at point t, as the pipeline passes it, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S5000x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)

/-- One staging buffer of each output window, through which its contents are stated (which one does not matter
    once the stores cover the block). -/
abbrev viaPre4 : View sig .tc .vmem S5000x128 .f32 := (Memref.whole cc4_stg4_0 : Memref sig .tc .vmem S5000x128 .f32).view
abbrev viaMean4 : View sig .tc .vmem S1x128 .f32 := (Memref.whole cc4_stg5_0 : Memref sig .tc .vmem S1x128 .f32).view
abbrev viaVar4 : View sig .tc .vmem S1x128 .f32 := (Memref.whole cc4_stg6_0 : Memref sig .tc .vmem S1x128 .f32).view
abbrev viaSum4 : View sig .tc .vmem S1x128 .f32 := sumBuf4.view
abbrev viaSq4 : View sig .tc .vmem S1x128 .f32 := sqBuf4.view

/-- What the five buffers hold after a point: the combined block, the mean, the variance, the running column
    sums of pre and of pre². -/
structure After4 (F : FTy → Type) [FloatOps F] where
  pre : Vec F S5000x128 .f32
  mean : Vec F S1x128 .f32
  var : Vec F S1x128 .f32
  sum : Vec F S1x128 .f32
  sq : Vec F S1x128 .f32

theorem cover4_first_pre (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst4 i) (hc1 : ¬atLast4 i) (x1 : Vec F S5000x128 .f32) (x2 : Vec F S5000x128 .f32) (x3 : Vec F S5000x1 .f32) (x4 : Vec F S1x128 .f32) (y : S5000x128.Idx) :
    ∃ pc ∈ (runFirst4 c i arg1 harg1 arg2 harg2 arg3 harg3 arg4 harg4 arg5 harg5 arg6 harg6 arg7 harg7 arg8 harg8 arg9 harg9 hc0 hc1 x1 x2 x3 x4).1, y ∈ pc.1.set :=
  View.cover_of_tiledL (runFirst4 c i arg1 harg1 arg2 harg2 arg3 harg3 arg4 harg4 arg5 harg5 arg6 harg6 arg7 harg7 arg8 harg8 arg9 harg9 hc0 hc1 x1 x2 x3 x4).1 S5000x128.size (by sl_kernel_rfl) y
theorem cover4_first_sum (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst4 i) (hc1 : ¬atLast4 i) (x1 : Vec F S5000x128 .f32) (x2 : Vec F S5000x128 .f32) (x3 : Vec F S5000x1 .f32) (x4 : Vec F S1x128 .f32) (y : S1x128.Idx) :
    ∃ pc ∈ (runFirst4 c i arg1 harg1 arg2 harg2 arg3 harg3 arg4 harg4 arg5 harg5 arg6 harg6 arg7 harg7 arg8 harg8 arg9 harg9 hc0 hc1 x1 x2 x3 x4).2.1, y ∈ pc.1.set :=
  View.cover_of_tiledL (runFirst4 c i arg1 harg1 arg2 harg2 arg3 harg3 arg4 harg4 arg5 harg5 arg6 harg6 arg7 harg7 arg8 harg8 arg9 harg9 hc0 hc1 x1 x2 x3 x4).2.1 S1x128.size (by sl_kernel_rfl) y
theorem cover4_first_sq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst4 i) (hc1 : ¬atLast4 i) (x1 : Vec F S5000x128 .f32) (x2 : Vec F S5000x128 .f32) (x3 : Vec F S5000x1 .f32) (x4 : Vec F S1x128 .f32) (y : S1x128.Idx) :
    ∃ pc ∈ (runFirst4 c i arg1 harg1 arg2 harg2 arg3 harg3 arg4 harg4 arg5 harg5 arg6 harg6 arg7 harg7 arg8 harg8 arg9 harg9 hc0 hc1 x1 x2 x3 x4).2.2.1, y ∈ pc.1.set :=
  View.cover_of_tiledL (runFirst4 c i arg1 harg1 arg2 harg2 arg3 harg3 arg4 harg4 arg5 harg5 arg6 harg6 arg7 harg7 arg8 harg8 arg9 harg9 hc0 hc1 x1 x2 x3 x4).2.2.1 S1x128.size (by sl_kernel_rfl) y
/-- What the first point's run leaves: its stored pieces read back (the mean and variance buffers are not stored: placeholders nothing consults). -/
def first4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst4 i) (hc1 : ¬atLast4 i) (x1 : Vec F S5000x128 .f32) (x2 : Vec F S5000x128 .f32) (x3 : Vec F S5000x1 .f32) (x4 : Vec F S1x128 .f32) : After4 F where
  pre := viaPre4.read (Elt F) (viaPre4.writes (Elt F) viaPre4.junk (runFirst4 c i arg1 harg1 arg2 harg2 arg3 harg3 arg4 harg4 arg5 harg5 arg6 harg6 arg7 harg7 arg8 harg8 arg9 harg9 hc0 hc1 x1 x2 x3 x4).1)
  mean := viaMean4.read (Elt F) viaMean4.junk
  var := viaVar4.read (Elt F) viaVar4.junk
  sum := viaSum4.read (Elt F) (viaSum4.writes (Elt F) viaSum4.junk (runFirst4 c i arg1 harg1 arg2 harg2 arg3 harg3 arg4 harg4 arg5 harg5 arg6 harg6 arg7 harg7 arg8 harg8 arg9 harg9 hc0 hc1 x1 x2 x3 x4).2.1)
  sq := viaSq4.read (Elt F) (viaSq4.writes (Elt F) viaSq4.junk (runFirst4 c i arg1 harg1 arg2 harg2 arg3 harg3 arg4 harg4 arg5 harg5 arg6 harg6 arg7 harg7 arg8 harg8 arg9 harg9 hc0 hc1 x1 x2 x3 x4).2.2.1)

theorem cover4_mid_pre (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : ¬atLast4 i) (x1 : Vec F S5000x128 .f32) (x2 : Vec F S5000x128 .f32) (x3 : Vec F S5000x1 .f32) (x4 : Vec F S1x128 .f32) (s8 : Vec F S1x128 .f32) (s9 : Vec F S1x128 .f32) (y : S5000x128.Idx) :
    ∃ pc ∈ (runMid4 c i arg1 harg1 arg2 harg2 arg3 harg3 arg4 harg4 arg5 harg5 arg6 harg6 arg7 harg7 arg8 harg8 arg9 harg9 hc0 hc1 x1 x2 x3 x4 s8 s9).1, y ∈ pc.1.set :=
  View.cover_of_tiledL (runMid4 c i arg1 harg1 arg2 harg2 arg3 harg3 arg4 harg4 arg5 harg5 arg6 harg6 arg7 harg7 arg8 harg8 arg9 harg9 hc0 hc1 x1 x2 x3 x4 s8 s9).1 S5000x128.size (by sl_kernel_rfl) y
theorem cover4_mid_sum (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : ¬atLast4 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runMid4 c i arg1 harg1 arg2 harg2 arg3 harg3 arg4 harg4 arg5 harg5 arg6 harg6 arg7 harg7 arg8 harg8 arg9 harg9 hc0 hc1 x1 x2 x3 x4 s8 s9).2.1, y ∈ pc.1.set :=
  View.cover_of_tiledL (runMid4 c i arg1 harg1 arg2 harg2 arg3 harg3 arg4 harg4 arg5 harg5 arg6 harg6 arg7 harg7 arg8 harg8 arg9 harg9 hc0 hc1 x1 x2 x3 x4 s8 s9).2.1 S1x128.size (by sl_kernel_rfl) y
theorem cover4_mid_sq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : ¬atLast4 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runMid4 c i arg1 harg1 arg2 harg2 arg3 harg3 arg4 harg4 arg5 harg5 arg6 harg6 arg7 harg7 arg8 harg8 arg9 harg9 hc0 hc1 x1 x2 x3 x4 s8 s9).2.2.1, y ∈ pc.1.set :=
  View.cover_of_tiledL (runMid4 c i arg1 harg1 arg2 harg2 arg3 harg3 arg4 harg4 arg5 harg5 arg6 harg6 arg7 harg7 arg8 harg8 arg9 harg9 hc0 hc1 x1 x2 x3 x4 s8 s9).2.2.1 S1x128.size (by sl_kernel_rfl) y
/-- What the mid point's run leaves: its stored pieces read back (the mean and variance buffers are not stored: placeholders nothing consults). -/
def mid4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : ¬atLast4 i) (x1 : Vec F S5000x128 .f32) (x2 : Vec F S5000x128 .f32) (x3 : Vec F S5000x1 .f32) (x4 : Vec F S1x128 .f32) (s8 : Vec F S1x128 .f32) (s9 : Vec F S1x128 .f32) : After4 F where
  pre := viaPre4.read (Elt F) (viaPre4.writes (Elt F) viaPre4.junk (runMid4 c i arg1 harg1 arg2 harg2 arg3 harg3 arg4 harg4 arg5 harg5 arg6 harg6 arg7 harg7 arg8 harg8 arg9 harg9 hc0 hc1 x1 x2 x3 x4 s8 s9).1)
  mean := viaMean4.read (Elt F) viaMean4.junk
  var := viaVar4.read (Elt F) viaVar4.junk
  sum := viaSum4.read (Elt F) (viaSum4.writes (Elt F) viaSum4.junk (runMid4 c i arg1 harg1 arg2 harg2 arg3 harg3 arg4 harg4 arg5 harg5 arg6 harg6 arg7 harg7 arg8 harg8 arg9 harg9 hc0 hc1 x1 x2 x3 x4 s8 s9).2.1)
  sq := viaSq4.read (Elt F) (viaSq4.writes (Elt F) viaSq4.junk (runMid4 c i arg1 harg1 arg2 harg2 arg3 harg3 arg4 harg4 arg5 harg5 arg6 harg6 arg7 harg7 arg8 harg8 arg9 harg9 hc0 hc1 x1 x2 x3 x4 s8 s9).2.2.1)

theorem cover4_last_pre (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) (y : S5000x128.Idx) :
    ∃ pc ∈ (runLast4 c i arg1 harg1 arg2 harg2 arg3 harg3 arg4 harg4 arg5 harg5 arg6 harg6 arg7 harg7 arg8 harg8 arg9 harg9 hc0 hc1 x1 x2 x3 x4 s8 s9).1, y ∈ pc.1.set :=
  View.cover_of_tiledL (runLast4 c i arg1 harg1 arg2 harg2 arg3 harg3 arg4 harg4 arg5 harg5 arg6 harg6 arg7 harg7 arg8 harg8 arg9 harg9 hc0 hc1 x1 x2 x3 x4 s8 s9).1 S5000x128.size (by sl_kernel_rfl) y
theorem cover4_last_mean (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast4 c i arg1 harg1 arg2 harg2 arg3 harg3 arg4 harg4 arg5 harg5 arg6 harg6 arg7 harg7 arg8 harg8 arg9 harg9 hc0 hc1 x1 x2 x3 x4 s8 s9).2.1, y ∈ pc.1.set :=
  View.cover_of_tiledL (runLast4 c i arg1 harg1 arg2 harg2 arg3 harg3 arg4 harg4 arg5 harg5 arg6 harg6 arg7 harg7 arg8 harg8 arg9 harg9 hc0 hc1 x1 x2 x3 x4 s8 s9).2.1 S1x128.size (by sl_kernel_rfl) y
theorem cover4_last_var (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast4 c i arg1 harg1 arg2 harg2 arg3 harg3 arg4 harg4 arg5 harg5 arg6 harg6 arg7 harg7 arg8 harg8 arg9 harg9 hc0 hc1 x1 x2 x3 x4 s8 s9).2.2.1, y ∈ pc.1.set :=
  View.cover_of_tiledL (runLast4 c i arg1 harg1 arg2 harg2 arg3 harg3 arg4 harg4 arg5 harg5 arg6 harg6 arg7 harg7 arg8 harg8 arg9 harg9 hc0 hc1 x1 x2 x3 x4 s8 s9).2.2.1 S1x128.size (by sl_kernel_rfl) y
theorem cover4_last_sum (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast4 c i arg1 harg1 arg2 harg2 arg3 harg3 arg4 harg4 arg5 harg5 arg6 harg6 arg7 harg7 arg8 harg8 arg9 harg9 hc0 hc1 x1 x2 x3 x4 s8 s9).2.2.2.1, y ∈ pc.1.set :=
  View.cover_of_tiledL (runLast4 c i arg1 harg1 arg2 harg2 arg3 harg3 arg4 harg4 arg5 harg5 arg6 harg6 arg7 harg7 arg8 harg8 arg9 harg9 hc0 hc1 x1 x2 x3 x4 s8 s9).2.2.2.1 S1x128.size (by sl_kernel_rfl) y
theorem cover4_last_sq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast4 c i arg1 harg1 arg2 harg2 arg3 harg3 arg4 harg4 arg5 harg5 arg6 harg6 arg7 harg7 arg8 harg8 arg9 harg9 hc0 hc1 x1 x2 x3 x4 s8 s9).2.2.2.2.1, y ∈ pc.1.set :=
  View.cover_of_tiledL (runLast4 c i arg1 harg1 arg2 harg2 arg3 harg3 arg4 harg4 arg5 harg5 arg6 harg6 arg7 harg7 arg8 harg8 arg9 harg9 hc0 hc1 x1 x2 x3 x4 s8 s9).2.2.2.2.1 S1x128.size (by sl_kernel_rfl) y
/-- What the last point's run leaves: its stored pieces read back. -/
def last4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) : After4 F where
  pre := viaPre4.read (Elt F) (viaPre4.writes (Elt F) viaPre4.junk (runLast4 c i arg1 harg1 arg2 harg2 arg3 harg3 arg4 harg4 arg5 harg5 arg6 harg6 arg7 harg7 arg8 harg8 arg9 harg9 hc0 hc1 x1 x2 x3 x4 s8 s9).1)
  mean := viaMean4.read (Elt F) (viaMean4.writes (Elt F) viaMean4.junk (runLast4 c i arg1 harg1 arg2 harg2 arg3 harg3 arg4 harg4 arg5 harg5 arg6 harg6 arg7 harg7 arg8 harg8 arg9 harg9 hc0 hc1 x1 x2 x3 x4 s8 s9).2.1)
  var := viaVar4.read (Elt F) (viaVar4.writes (Elt F) viaVar4.junk (runLast4 c i arg1 harg1 arg2 harg2 arg3 harg3 arg4 harg4 arg5 harg5 arg6 harg6 arg7 harg7 arg8 harg8 arg9 harg9 hc0 hc1 x1 x2 x3 x4 s8 s9).2.2.1)
  sum := viaSum4.read (Elt F) (viaSum4.writes (Elt F) viaSum4.junk (runLast4 c i arg1 harg1 arg2 harg2 arg3 harg3 arg4 harg4 arg5 harg5 arg6 harg6 arg7 harg7 arg8 harg8 arg9 harg9 hc0 hc1 x1 x2 x3 x4 s8 s9).2.2.2.1)
  sq := viaSq4.read (Elt F) (viaSq4.writes (Elt F) viaSq4.junk (runLast4 c i arg1 harg1 arg2 harg2 arg3 harg3 arg4 harg4 arg5 harg5 arg6 harg6 arg7 harg7 arg8 harg8 arg9 harg9 hc0 hc1 x1 x2 x3 x4 s8 s9).2.2.2.2.1)

end Cert.Kernel.Hand

end
-- ==== Proof.Bits.Stats4Acc.lean ====
/-
  The combine-and-statistics call of layer two, point by point. What the five buffers hold after the body at
  each grid point: the first point's run from the point's input blocks; at a later point the middle or the last
  run from the input blocks and from the column sums the point before left. The call's invariant carries the
  two accumulators at those sums from one point to the next; the body obligation follows at every point.
-/
import proofs.«169495_j53601191854606_1_alg».proof.Proof.Bits.Stats4Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tenPoints4 : cfg4.N = 10 := N_4

/-- THE ACCUMULATION: the five buffers after the body at position n. -/
def after4 (c : Dev nD) : (n : ℕ) → n < cfg4.N → After4 F
  | 0, hn => first4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) sumBuf4 (Memref.isWhole_whole _) sqBuf4 (Memref.isWhole_whole _)
      ((atFirst4_iff ⟨0, hn⟩).mpr (Nat.zero_mod _))
      (fun h => by have h9 := (atLast4_iff ⟨0, hn⟩).mp h; (try dsimp only at h9); omega) (blk4 V c 0 ⟨0, hn⟩) (blk4 V c 1 ⟨0, hn⟩) (blk4 V c 2 ⟨0, hn⟩) (blk4 V c 3 ⟨0, hn⟩)
  | n + 1, hn =>
    if h1 : (n + 1) % 10 = 9 then
      last4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) sumBuf4 (Memref.isWhole_whole _) sqBuf4 (Memref.isWhole_whole _)
        (fun h => by have h0 := (atFirst4_iff ⟨n + 1, hn⟩).mp h; have hN : n + 1 < 10 := lt_of_lt_of_eq hn tenPoints4; (try dsimp only at h0); omega)
        ((atLast4_iff ⟨n + 1, hn⟩).mpr h1) (blk4 V c 0 ⟨n + 1, hn⟩) (blk4 V c 1 ⟨n + 1, hn⟩) (blk4 V c 2 ⟨n + 1, hn⟩) (blk4 V c 3 ⟨n + 1, hn⟩)
        (after4 c n (Nat.lt_of_succ_lt hn)).sum (after4 c n (Nat.lt_of_succ_lt hn)).sq
    else
      mid4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) sumBuf4 (Memref.isWhole_whole _) sqBuf4 (Memref.isWhole_whole _)
        (fun h => by have h0 := (atFirst4_iff ⟨n + 1, hn⟩).mp h; have hN : n + 1 < 10 := lt_of_lt_of_eq hn tenPoints4; (try dsimp only at h0); omega)
        (fun h => h1 ((atLast4_iff ⟨n + 1, hn⟩).mp h)) (blk4 V c 0 ⟨n + 1, hn⟩) (blk4 V c 1 ⟨n + 1, hn⟩) (blk4 V c 2 ⟨n + 1, hn⟩) (blk4 V c 3 ⟨n + 1, hn⟩)
        (after4 c n (Nat.lt_of_succ_lt hn)).sum (after4 c n (Nat.lt_of_succ_lt hn)).sq

theorem after4_first (c : Dev nD) (t : Fin cfg4.N) (h0 : t.val % 10 = 0) (h1 : ¬t.val % 10 = 9) :
    after4 V c t.val t.isLt = first4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sumBuf4 (Memref.isWhole_whole _) sqBuf4 (Memref.isWhole_whole _) ((atFirst4_iff t).mpr h0) (fun h => h1 ((atLast4_iff t).mp h)) (blk4 V c 0 t) (blk4 V c 1 t) (blk4 V c 2 t) (blk4 V c 3 t) := by
  obtain ⟨n, hn⟩ := t
  cases n with
  | zero => exact rfl
  | succ n => exfalso; have hN : n + 1 < 10 := lt_of_lt_of_eq hn tenPoints4; (try dsimp only at h0); omega

theorem after4_mid (c : Dev nD) (t : Fin cfg4.N) (h0 : ¬t.val % 10 = 0) (h1 : ¬t.val % 10 = 9) :
    after4 V c t.val t.isLt = mid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sumBuf4 (Memref.isWhole_whole _) sqBuf4 (Memref.isWhole_whole _) (fun h => h0 ((atFirst4_iff t).mp h)) (fun h => h1 ((atLast4_iff t).mp h)) (blk4 V c 0 t) (blk4 V c 1 t) (blk4 V c 2 t) (blk4 V c 3 t)
      (after4 V c (t.val - 1) (Nat.lt_of_le_of_lt (Nat.sub_le _ _) t.isLt)).sum (after4 V c (t.val - 1) (Nat.lt_of_le_of_lt (Nat.sub_le _ _) t.isLt)).sq := by
  obtain ⟨n, hn⟩ := t
  cases n with
  | zero => exact (by exfalso; (try dsimp only at h0); exact absurd (Nat.zero_mod _) h0)
  | succ n => exact (dif_neg h1).trans rfl

theorem after4_last (c : Dev nD) (t : Fin cfg4.N) (h0 : ¬t.val % 10 = 0) (h1 : t.val % 10 = 9) :
    after4 V c t.val t.isLt = last4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sumBuf4 (Memref.isWhole_whole _) sqBuf4 (Memref.isWhole_whole _) (fun h => h0 ((atFirst4_iff t).mp h)) ((atLast4_iff t).mpr h1) (blk4 V c 0 t) (blk4 V c 1 t) (blk4 V c 2 t) (blk4 V c 3 t)
      (after4 V c (t.val - 1) (Nat.lt_of_le_of_lt (Nat.sub_le _ _) t.isLt)).sum (after4 V c (t.val - 1) (Nat.lt_of_le_of_lt (Nat.sub_le _ _) t.isLt)).sq := by
  obtain ⟨n, hn⟩ := t
  cases n with
  | zero => exact (by exfalso; (try dsimp only at h0); exact absurd (Nat.zero_mod _) h0)
  | succ n => exact (dif_pos h1).trans rfl

/-- The call's invariant before position n: the resting one before the first point; afterwards the accumulators at
    the sums the point before left, every other scoped buffer unopened, the generator register at some state. -/
def carry4 (c : Dev nD) : (n : ℕ) → n ≤ cfg4.N → sProp 𝕄
  | 0, _ => Pipeline.ΦA spec4 c
  | n + 1, hn => iprop(iprop(iprop(owns (c : Thread nD τ) sumBuf4 fullShare (after4 V c n hn).sum ∗ owns (c : Thread nD τ) sqBuf4 fullShare (after4 V c n hn).sq)
      ∗ Pipeline.scopedRestBut (Ix := Unit) (Name := ℕ) (U := UR sig nD τ) (Lvl := ℕ) (Val := Elt F) spec4 c [cc4_scratch0, cc4_scratch1]) ∗ (∃ r, prngReg c r))

theorem carry4_zero (c : Dev nD) (n : ℕ) (h : n ≤ cfg4.N) (hz : n = 0) : carry4 V c n h = Pipeline.ΦA spec4 c := by
  subst hz; rfl

theorem carry4_succ (c : Dev nD) (n : ℕ) (hn : n < cfg4.N) :
    carry4 V c (n + 1) hn = iprop(iprop(iprop(owns (c : Thread nD τ) sumBuf4 fullShare (after4 V c n hn).sum ∗ owns (c : Thread nD τ) sqBuf4 fullShare (after4 V c n hn).sq)
      ∗ Pipeline.scopedRestBut (Ix := Unit) (Name := ℕ) (U := UR sig nD τ) (Lvl := ℕ) (Val := Elt F) spec4 c [cc4_scratch0, cc4_scratch1]) ∗ (∃ r, prngReg c r)) := rfl

theorem carry4_pos (c : Dev nD) (n : ℕ) (h : n ≤ cfg4.N) (hz : n ≠ 0) :
    carry4 V c n h = iprop(iprop(iprop(owns (c : Thread nD τ) sumBuf4 fullShare (after4 V c (n - 1) (by omega)).sum ∗ owns (c : Thread nD τ) sqBuf4 fullShare (after4 V c (n - 1) (by omega)).sq)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The proof data of the call: arrays as found; after the body each input buffer at its block, the three output
    buffers at the accumulation's components; the invariant the carried one; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => (after4 V c t.val t.isLt).pre
    | ⟨5, _⟩ => (after4 V c t.val t.isLt).mean
    | ⟨6, _⟩ => (after4 V c t.val t.isLt).var
  Φ t := carry4 V c t.val (Nat.le_of_lt_succ t.isLt)
  q _ := fullShare
  owed _ := 0

theorem dat4_A (c : Dev nD) (w : Fin cfg4.W) : (dat4 V c).A w = V c (Pipeline.arrRef spec4 w) := by
  dsimp only [dat4]

theorem dat4_carry (c : Dev nD) (t : Fin cfg4.N) :
    (dat4 V c).Φ t.castSucc = carry4 V c t.val (Nat.le_of_lt t.isLt) := by
  dsimp only [dat4]; simp only [Fin.coe_castSucc]

theorem dat4_after_0 (c : Dev nD) (t : Fin cfg4.N) : (dat4 V c).after 0 t = blk4 V c 0 t := by dsimp only [dat4]
theorem dat4_after_1 (c : Dev nD) (t : Fin cfg4.N) : (dat4 V c).after 1 t = blk4 V c 1 t := by dsimp only [dat4]
theorem dat4_after_2 (c : Dev nD) (t : Fin cfg4.N) : (dat4 V c).after 2 t = blk4 V c 2 t := by dsimp only [dat4]
theorem dat4_after_3 (c : Dev nD) (t : Fin cfg4.N) : (dat4 V c).after 3 t = blk4 V c 3 t := by dsimp only [dat4]
theorem dat4_after_4 (c : Dev nD) (t : Fin cfg4.N) : (dat4 V c).after 4 t = (after4 V c t.val t.isLt).pre := by dsimp only [dat4]
theorem dat4_after_5 (c : Dev nD) (t : Fin cfg4.N) : (dat4 V c).after 5 t = (after4 V c t.val t.isLt).mean := by dsimp only [dat4]
theorem dat4_after_6 (c : Dev nD) (t : Fin cfg4.N) : (dat4 V c).after 6 t = (after4 V c t.val t.isLt).var := by dsimp only [dat4]

theorem dat4_before_0 (c : Dev nD) (t : Fin cfg4.N) (d) : (dat4 V c).before 0 t d = blk4 V c 0 t :=
  before4_0_of V (dat4 V c) (dat4_A V c 0) (dat4_after_0 V c) t d
theorem dat4_before_1 (c : Dev nD) (t : Fin cfg4.N) (d) : (dat4 V c).before 1 t d = blk4 V c 1 t :=
  before4_1_of V (dat4 V c) (dat4_A V c 1) (dat4_after_1 V c) t d
theorem dat4_before_2 (c : Dev nD) (t : Fin cfg4.N) (d) : (dat4 V c).before 2 t d = blk4 V c 2 t :=
  before4_2_of V (dat4 V c) (dat4_A V c 2) (dat4_after_2 V c) t d
theorem dat4_before_3 (c : Dev nD) (t : Fin cfg4.N) (d) : (dat4 V c).before 3 t d = blk4 V c 3 t :=
  before4_3_of V (dat4 V c) (dat4_A V c 3) (dat4_after_3 V c) t d

end Cert.Kernel.Hand

end
-- ==== Proof.Bits.Stats4Body.lean ====
/-
  The combine-and-statistics call of layer two: the body obligation. At a generic grid point the body is entered
  with the carried invariant, nothing owed, and each window's current staging buffer (an input's at its block); it
  leaves the invariant of the next position — the accumulators at this point's sums —, each input buffer as it was,
  the combined block stored, and the mean and variance buffers stored at the last point and handed back untouched
  elsewhere. Three cases by the point's position: first, middle, last.
-/
import proofs.«169495_j53601191854606_1_alg».proof.Proof.Bits.Stats4Acc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def enter4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def leave4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
theorem sound_point4 (c : Dev nD) (t : Fin cfg4.N) :
    enter4 V c t ⊢ wp frame (wpE (defs₀ (F := F)) Variants.none c none) Set.univ (bodyAt4 t) (fun _ => leave4 V c t) := by
  unfold enter4 leave4 bodyAt4
  simp only [dat4_before_0, dat4_before_1, dat4_before_2, dat4_before_3]
  rw [show (dat4 V c).owesAt () t.succ = (dat4 V c).owesAt () t.castSucc from rfl]
  rw [show (dat4 V c).Φ t.succ = carry4 V c (t.val + 1) t.isLt from rfl, carry4_succ]
  have hN : t.val < 10 := lt_of_lt_of_eq t.isLt tenPoints4
  rw [show (dat4 V c).leavesExact 0 t = owns (c : Thread nD τ) (ms4_0 t) fullShare ((dat4 V c).after 0 t) from by
    unfold Dat.leavesExact; rw [live4_0 t], dat4_after_0]
  rw [show (dat4 V c).leavesExact 1 t = owns (c : Thread nD τ) (ms4_1 t) fullShare ((dat4 V c).after 1 t) from by
    unfold Dat.leavesExact; rw [live4_1 t], dat4_after_1]
  rw [show (dat4 V c).leavesExact 2 t = owns (c : Thread nD τ) (ms4_2 t) fullShare ((dat4 V c).after 2 t) from by
    unfold Dat.leavesExact; rw [live4_2 t], dat4_after_2]
  rw [show (dat4 V c).leavesExact 3 t = owns (c : Thread nD τ) (ms4_3 t) fullShare ((dat4 V c).after 3 t) from by
    unfold Dat.leavesExact; rw [live4_3 t], dat4_after_3]
  rw [show (dat4 V c).leavesExact 4 t = owns (c : Thread nD τ) (ms4_4 t) fullShare ((dat4 V c).after 4 t) from by
    unfold Dat.leavesExact; rw [live4_4 t], dat4_after_4]
  by_cases h0 : t.val % 10 = 0
  · -- the first point
    have h1 : ¬t.val % 10 = 9 := by omega
    have hz : t.val = 0 := by omega
    rw [Dat.leavesExact_idle (dat4 V c) 5 t (idle4_5 t (fun h => h1 ((atLast4_iff t).mp h))) (keep4_5 t (fun h => h1 ((atLast4_iff t).mp h)))]
    rw [Dat.leavesExact_idle (dat4 V c) 6 t (idle4_6 t (fun h => h1 ((atLast4_iff t).mp h))) (keep4_6 t (fun h => h1 ((atLast4_iff t).mp h)))]
    rw [after4_first V c t h0 h1]
    unfold first4; (try dsimp only)
    rw [dat4_carry V c t, carry4_zero V c _ _ hz, rest4_eq]
    iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runFirst4 c (grid4.coords t) _ _ _ _ _ _ _ _ _ _ _ _ _ _ _ _ _ _ ((atFirst4_iff t).mpr h0) (fun h => h1 ((atLast4_iff t).mp h)) (blk4 V c 0 t) (blk4 V c 1 t) (blk4 V c 2 t) (blk4 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, ⟨%e4, H4⟩, H5, H6, ⟨%e8, HS8⟩, ⟨%e9, HS9⟩⟩
    isplitl [HS8 HS9 HR Hg]
    · isplitl [HS8 HS9 HR]
      · isplitl [HS8 HS9]
        · isplitl [HS8]
          · unfold owns; iexists _; isplitr
            swap; · iexact HS8
            ipureintro; exact View.read_writes_of_cover _ _ _ _ _ (cover4_first_sum c _ _ _ _ _ _ _ _ _ _ _ _ _ _ _ _ _ _ _ _ _ _ _ _ _)
          · unfold owns; iexists _; isplitr
            swap; · iexact HS9
            ipureintro; exact View.read_writes_of_cover _ _ _ _ _ (cover4_first_sq c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_first_pre c _ _ _ _ _ _ _ _ _ _ _ _ _ _ _ _ _ _ _ _ _ _ _ _ _)
    isplitl [H5]; · iexists _; iexact H5
    iexists _; iexact H6
  · have hz : t.val ≠ 0 := by omega
    by_cases h1 : t.val % 10 = 9
    · -- the last point
      rw [show (dat4 V c).leavesExact 5 t = owns (c : Thread nD τ) (ms4_5 t) fullShare ((dat4 V c).after 5 t) from by
        unfold Dat.leavesExact; rw [last4_5 t ((atLast4_iff t).mpr h1)], dat4_after_5]
      rw [show (dat4 V c).leavesExact 6 t = owns (c : Thread nD τ) (ms4_6 t) fullShare ((dat4 V c).after 6 t) from by
        unfold Dat.leavesExact; rw [last4_6 t ((atLast4_iff t).mpr h1)], dat4_after_6]
      rw [after4_last V c t h0 h1]
      unfold last4; (try dsimp only)
      rw [dat4_carry V c t, carry4_pos V c _ _ hz]
      iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast4 c (grid4.coords t) _ _ _ _ _ _ _ _ _ _ _ _ _ _ _ _ _ _ (fun h => h0 ((atFirst4_iff t).mp h)) ((atLast4_iff t).mpr h1) (blk4 V c 0 t) (blk4 V c 1 t) (blk4 V c 2 t) (blk4 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, ⟨%e4, H4⟩, ⟨%e5, H5⟩, ⟨%e6, H6⟩, ⟨%e8, HS8⟩, ⟨%e9, HS9⟩⟩
      isplitl [HS8 HS9 HR Hg]
      · isplitl [HS8 HS9 HR]
        · isplitl [HS8 HS9]
          · isplitl [HS8]
            · unfold owns; iexists _; isplitr
              swap; · iexact HS8
              ipureintro; exact View.read_writes_of_cover _ _ _ _ _ (cover4_last_sum c _ _ _ _ _ _ _ _ _ _ _ _ _ _ _ _ _ _ _ _ _ _ _ _ _ _ _)
            · unfold owns; iexists _; isplitr
              swap; · iexact HS9
              ipureintro; exact View.read_writes_of_cover _ _ _ _ _ (cover4_last_sq c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_last_pre c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover4_last_mean c _ _ _ _ _ _ _ _ _ _ _ _ _ _ _ _ _ _ _ _ _ _ _ _ _ _ _)
      unfold owns; iexists _; isplitr
      swap; · iexact H6
      ipureintro; exact View.read_writes_of_cover _ _ _ _ _ (cover4_last_var c _ _ _ _ _ _ _ _ _ _ _ _ _ _ _ _ _ _ _ _ _ _ _ _ _ _ _)
    · -- a middle point
      rw [Dat.leavesExact_idle (dat4 V c) 5 t (idle4_5 t (fun h => h1 ((atLast4_iff t).mp h))) (keep4_5 t (fun h => h1 ((atLast4_iff t).mp h)))]
      rw [Dat.leavesExact_idle (dat4 V c) 6 t (idle4_6 t (fun h => h1 ((atLast4_iff t).mp h))) (keep4_6 t (fun h => h1 ((atLast4_iff t).mp h)))]
      rw [after4_mid V c t h0 h1]
      unfold mid4; (try dsimp only)
      rw [dat4_carry V c t, carry4_pos V c _ _ hz]
      iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid4 c (grid4.coords t) _ _ _ _ _ _ _ _ _ _ _ _ _ _ _ _ _ _ (fun h => h0 ((atFirst4_iff t).mp h)) (fun h => h1 ((atLast4_iff t).mp h)) (blk4 V c 0 t) (blk4 V c 1 t) (blk4 V c 2 t) (blk4 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, ⟨%e4, H4⟩, H5, H6, ⟨%e8, HS8⟩, ⟨%e9, HS9⟩⟩
      isplitl [HS8 HS9 HR Hg]
      · isplitl [HS8 HS9 HR]
        · isplitl [HS8 HS9]
          · isplitl [HS8]
            · unfold owns; iexists _; isplitr
              swap; · iexact HS8
              ipureintro; exact View.read_writes_of_cover _ _ _ _ _ (cover4_mid_sum c _ _ _ _ _ _ _ _ _ _ _ _ _ _ _ _ _ _ _ _ _ _ _ _ _ _ _)
            · unfold owns; iexists _; isplitr
              swap; · iexact HS9
              ipureintro; exact View.read_writes_of_cover _ _ _ _ _ (cover4_mid_sq c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_mid_pre c _ _ _ _ _ _ _ _ _ _ _ _ _ _ _ _ _ _ _ _ _ _ _ _ _ _ _)
      isplitl [H5]; · iexists _; iexact H5
      iexists _; iexact H6

theorem obligation4 (c : Dev nD) : BodyObligation (dat4 (F := F) V c) (defs₀ (F := F)) Variants.none () Set.univ := fun t => by
  rw [bigSep_W4, bigSep_W4]
  exact sound_point4 V c t

/-- What the launch hands the call is the invariant before the first point, -/
theorem carry4_in (c : Dev nD) : Pipeline.ΦA spec4 c ⊢ (dat4 V c).Φ 0 := by
  rw [show (dat4 V c).Φ 0 = carry4 V c 0 (Nat.zero_le _) from rfl, carry4_zero V c 0 _ rfl]
  try exact Idealize.SL.BI.Entails.refl _

/-- and after the last point the invariant gives the resting one back, the sums forgotten. -/
theorem carry4_out (c : Dev nD) : (dat4 V c).Φ (Fin.last cfg4.N) ⊢ Pipeline.ΦA spec4 c := by
  rw [show (dat4 V c).Φ (Fin.last cfg4.N) = carry4 V c (Fin.last cfg4.N).val (Nat.le_of_lt_succ (Fin.last cfg4.N).isLt) from rfl,
    carry4_pos V c _ _ (by rw [Fin.val_last]; have : cfg4.N = 10 := tenPoints4; omega), rest4_eq]
  iintro ⟨⟨⟨HS8, HS9⟩, HR⟩, Hg⟩
  isplitl [HS8 HS9 HR]
  · isplitl [HS8 HS9]
    · isplitl [HS8]
      · iexists _; iexact HS8
      iexists _; iexact HS9
    iexact HR
  iexact Hg

end Cert.Kernel.Hand

end
-- ==== Proof.Bits.Act5.lean ====
/-
  The normalisation and rectifier of layer two (pallas_call 5 of the kernel as printed) on ten blocks of 5000 rows of
  width 128: each grid point reads its block of pre (window 0) and the one-row mean, variance, scale and shift
  (windows 1 to 4, the same block at every point, fetched once) and stores g · ((pre − mean) · rsqrt(var + eps)) + be
  passed through the exponential linear unit into window 5. At a parameter V and any float instance: what the body
  leaves, its triple, the proof data and the body obligation at every point.
-/
import proofs.«169495_j53601191854606_1_alg».proof.Proof.Gen.Kernel.Launch
import proofs.«169495_j53601191854606_1_alg».proof.Proof.Gen.Kernel.Skeleton
import proofs.«169495_j53601191854606_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each input's block sits in its current staging buffer at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = blk5 V c 2 t) (t : Fin cfg5.N) (d) : dat.before 2 t d = blk5 V c 2 t :=
  (dat.before_in_eq_fetched 2 rfl (fun _ => rfl) (fun _ _ _ => rfl) (fun t => by rw [hafter]; unfold Dat.blockOf blk5; rw [hA]; try rfl) t d).trans
    (by unfold Dat.fetched Dat.blockOf blk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = blk5 V c 3 t) (t : Fin cfg5.N) (d) : dat.before 3 t d = blk5 V c 3 t :=
  (dat.before_in_eq_fetched 3 rfl (fun _ => rfl) (fun _ _ _ => rfl) (fun t => by rw [hafter]; unfold Dat.blockOf blk5; rw [hA]; try rfl) t d).trans
    (by unfold Dat.fetched Dat.blockOf blk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = blk5 V c 4 t) (t : Fin cfg5.N) (d) : dat.before 4 t d = blk5 V c 4 t :=
  (dat.before_in_eq_fetched 4 rfl (fun _ => rfl) (fun _ _ _ => rfl) (fun t => by rw [hafter]; unfold Dat.blockOf blk5; rw [hA]; try rfl) t d).trans
    (by unfold Dat.fetched Dat.blockOf blk5; rw [hA]; try rfl)

/-- The output buffer after the body, from the loaded input blocks: one store through the whole block. -/
def act5 (x0 : Vec F S5000x128 .f32) (x1 : Vec F S1x128 .f32) (x2 : Vec F S1x128 .f32) (x3 : Vec F S1x128 .f32) (x4 : Vec F S1x128 .f32) : Vec F S5000x128 .f32 :=
  View.canon [⟨Rect.unit (s := S5000x128) ![0, 0] S5000x128.size inb_S5000x128_S5000x128_0_0, k5_pay1 (View.ld x0 (Rect.unit (s := S5000x128) ![0, 0] S5000x128.size inb_S5000x128_S5000x128_0_0)) (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

theorem cover_act5 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 1000000 in
/-- The body on whole staging buffers: inputs kept, the output stored. -/
theorem sound_act5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (act5 x0 x1 x2 x3 x4)) -∗ K ⟨⟩))
      ⊢ wp frame (wpE (defs₀ (F := F)) Variants.none c none) E (cc5__norm_elu_kernel i arg1 harg1 arg2 harg2 arg3 harg3 arg4 harg4 arg5 harg5 arg6 harg6) K := by
  simp only [cc5__norm_elu_kernel_eq_skeleton]; unfold cc5__norm_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover_act5 _)

/-- The proof data of the call: arrays as found; after the body each input buffer still at its block, the output
    buffer at what the body stores; nothing carried, nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => blk5 V c 4 t
    | ⟨5, _⟩ => act5 (blk5 V c 0 t) (blk5 V c 1 t) (blk5 V c 2 t) (blk5 V c 3 t) (blk5 V c 4 t)
  Φ _ := Pipeline.ΦA spec5 c
  q _ := fullShare
  owed _ := 0

theorem dat5_A (c : Dev nD) (w : Fin cfg5.W) : (dat5 V c).A w = V c (Pipeline.arrRef spec5 w) := by
  dsimp only [dat5]

theorem dat5_after_0 (c : Dev nD) (t : Fin cfg5.N) : (dat5 V c).after 0 t = blk5 V c 0 t := by dsimp only [dat5]
theorem dat5_after_1 (c : Dev nD) (t : Fin cfg5.N) : (dat5 V c).after 1 t = blk5 V c 1 t := by dsimp only [dat5]
theorem dat5_after_2 (c : Dev nD) (t : Fin cfg5.N) : (dat5 V c).after 2 t = blk5 V c 2 t := by dsimp only [dat5]
theorem dat5_after_3 (c : Dev nD) (t : Fin cfg5.N) : (dat5 V c).after 3 t = blk5 V c 3 t := by dsimp only [dat5]
theorem dat5_after_4 (c : Dev nD) (t : Fin cfg5.N) : (dat5 V c).after 4 t = blk5 V c 4 t := by dsimp only [dat5]
theorem dat5_after_5 (c : Dev nD) (t : Fin cfg5.N) :
    (dat5 V c).after 5 t = act5 (blk5 V c 0 t) (blk5 V c 1 t) (blk5 V c 2 t) (blk5 V c 3 t) (blk5 V c 4 t) := by dsimp only [dat5]

theorem dat5_before_0 (c : Dev nD) (t : Fin cfg5.N) (d) : (dat5 V c).before 0 t d = blk5 V c 0 t :=
  before5_0_of V (dat5 V c) (dat5_A V c 0) (dat5_after_0 V c) t d
theorem dat5_before_1 (c : Dev nD) (t : Fin cfg5.N) (d) : (dat5 V c).before 1 t d = blk5 V c 1 t :=
  before5_1_of V (dat5 V c) (dat5_A V c 1) (dat5_after_1 V c) t d
theorem dat5_before_2 (c : Dev nD) (t : Fin cfg5.N) (d) : (dat5 V c).before 2 t d = blk5 V c 2 t :=
  before5_2_of V (dat5 V c) (dat5_A V c 2) (dat5_after_2 V c) t d
theorem dat5_before_3 (c : Dev nD) (t : Fin cfg5.N) (d) : (dat5 V c).before 3 t d = blk5 V c 3 t :=
  before5_3_of V (dat5 V c) (dat5_A V c 3) (dat5_after_3 V c) t d
theorem dat5_before_4 (c : Dev nD) (t : Fin cfg5.N) (d) : (dat5 V c).before 4 t d = blk5 V c 4 t :=
  before5_4_of V (dat5 V c) (dat5_A V c 4) (dat5_after_4 V c) t d

def enter5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def leave5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_point5 (c : Dev nD) (t : Fin cfg5.N) :
    enter5 V c t ⊢ wp frame (wpE (defs₀ (F := F)) Variants.none c none) Set.univ (bodyAt5 t) (fun _ => leave5 V c t) := by
  unfold enter5 leave5 bodyAt5
  simp only [dat5_before_0, dat5_before_1, dat5_before_2, dat5_before_3, dat5_before_4]
  rw [show (dat5 V c).Φ t.succ = (dat5 V c).Φ t.castSucc from rfl,
    show (dat5 V c).owesAt () t.succ = (dat5 V c).owesAt () t.castSucc from rfl,
    dat5_after_0, dat5_after_1, dat5_after_2, dat5_after_3, dat5_after_4, dat5_after_5]
  iintro ⟨HΦ, Ho, ⟨%d0, H0⟩, ⟨%d1, H1⟩, ⟨%d2, H2⟩, ⟨%d3, H3⟩, ⟨%d4, H4⟩, ⟨%d5, H5⟩⟩
  iapply (sound_act5 c Set.univ _ _ _ _ _ _ _ _ _ _ _ _ _ (blk5 V c 0 t) (blk5 V c 1 t) (blk5 V c 2 t) (blk5 V c 3 t) (blk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem obligation5 (c : Dev nD) : BodyObligation (dat5 (F := F) V c) (defs₀ (F := F)) Variants.none () Set.univ := fun t => by
  rw [bigSep_W5, bigSep_W5]
  exact sound_point5 V c t

end Cert.Kernel.Hand

end
-- ==== Proof.Bits.Product6.lean ====
/-
  The feature product of layer three (pallas_call 6 of the kernel as printed): h = x · W on ten blocks of 5000
  rows. Each grid point reads its block of x (window 0) and the whole weight matrix (window 1, 128 by 64, the same
  block at every point, fetched once) and stores the block's product into window 2. At a parameter V — the buffer
  contents when the call is entered — and any float instance: what the body leaves, its triple, the proof data and
  the body obligation at every point.
-/
import proofs.«169495_j53601191854606_1_alg».proof.Proof.Gen.Kernel.Launch
import proofs.«169495_j53601191854606_1_alg».proof.Proof.Gen.Kernel.Skeleton
import proofs.«169495_j53601191854606_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input's block sits in its current staging buffer at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- The output buffer after the body, from the loaded input blocks: one store through the whole block. -/
def prod6 (x0 : Vec F S5000x128 .f32) (x1 : Vec F S128x64 .f32) : Vec F S5000x64 .f32 :=
  View.canon [⟨Rect.unit (s := S5000x64) ![0, 0] S5000x64.size inb_S5000x64_S5000x64_0_0, k6_pay1 (View.ld x0 (Rect.unit (s := S5000x128) ![0, 0] S5000x128.size inb_S5000x128_S5000x128_0_0)) (View.ld x1 (Rect.unit (s := S128x64) ![0, 0] S128x64.size inb_S128x64_S128x64_0_0))⟩]

theorem cover_prod6 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 1000000 in
/-- The body on whole staging buffers: inputs kept, the output stored. -/
theorem sound_prod6 (c : Dev nD) (E : Set ℕ) (i : grid6.Coords) (arg1 : Memref sig .tc .vmem S5000x128 .f32) (harg1 : arg1.IsWhole) (arg2 : Memref sig .tc .vmem S128x64 .f32) (harg2 : arg2.IsWhole) (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod6 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover_prod6 _)

/-- The proof data of the call: arrays as found; after the body each input buffer still at its block, the output
    buffer at what the body stores; nothing carried, nothing owed. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => prod6 (blk6 V c 0 t) (blk6 V c 1 t)
  Φ _ := Pipeline.ΦA spec6 c
  q _ := fullShare
  owed _ := 0

theorem dat6_A (c : Dev nD) (w : Fin cfg6.W) : (dat6 V c).A w = V c (Pipeline.arrRef spec6 w) := by
  dsimp only [dat6]

theorem dat6_after_0 (c : Dev nD) (t : Fin cfg6.N) : (dat6 V c).after 0 t = blk6 V c 0 t := by dsimp only [dat6]
theorem dat6_after_1 (c : Dev nD) (t : Fin cfg6.N) : (dat6 V c).after 1 t = blk6 V c 1 t := by dsimp only [dat6]
theorem dat6_after_2 (c : Dev nD) (t : Fin cfg6.N) :
    (dat6 V c).after 2 t = prod6 (blk6 V c 0 t) (blk6 V c 1 t) := by dsimp only [dat6]

theorem dat6_before_0 (c : Dev nD) (t : Fin cfg6.N) (d) : (dat6 V c).before 0 t d = blk6 V c 0 t :=
  before6_0_of V (dat6 V c) (dat6_A V c 0) (dat6_after_0 V c) t d
theorem dat6_before_1 (c : Dev nD) (t : Fin cfg6.N) (d) : (dat6 V c).before 1 t d = blk6 V c 1 t :=
  before6_1_of V (dat6 V c) (dat6_A V c 1) (dat6_after_1 V c) t d

def enter6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def leave6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_point6 (c : Dev nD) (t : Fin cfg6.N) :
    enter6 V c t ⊢ wp frame (wpE (defs₀ (F := F)) Variants.none c none) Set.univ (bodyAt6 t) (fun _ => leave6 V c t) := by
  unfold enter6 leave6 bodyAt6
  simp only [dat6_before_0, dat6_before_1]
  rw [show (dat6 V c).Φ t.succ = (dat6 V c).Φ t.castSucc from rfl,
    show (dat6 V c).owesAt () t.succ = (dat6 V c).owesAt () t.castSucc from rfl,
    dat6_after_0, dat6_after_1, dat6_after_2]
  iintro ⟨HΦ, Ho, ⟨%d0, H0⟩, ⟨%d1, H1⟩, ⟨%d2, H2⟩⟩
  iapply (sound_prod6 c Set.univ _ _ _ _ _ _ _ (blk6 V c 0 t) (blk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation6 (c : Dev nD) : BodyObligation (dat6 (F := F) V c) (defs₀ (F := F)) Variants.none () Set.univ := fun t => by
  rw [bigSep_W6, bigSep_W6]
  exact sound_point6 V c t

end Cert.Kernel.Hand

end
-- ==== Proof.Bits.Stats7Base.lean ====
/-
  The eighth pallas_call of the kernel as printed, layer three: pre = agg + h · dis² + b on ten blocks of 5000 rows,
  with the column sums of pre and of pre² accumulated in two one-row scratch buffers that live across the grid
  points: zeroed at the first point, added to at every point, and turned into the batch mean and the one-pass
  variance (stored to windows 5 and 6) at the last point only.
  Here: the two branch conditions in closed form over the grid, where windows 5 and 6 are idle and not written
  back, the scratch buffers as memrefs, and the call's resting invariant opened at the two scratch buffers.
-/
import proofs.«169495_j53601191854606_1_alg».proof.Proof.Gen.Kernel.Launch
import proofs.«169495_j53601191854606_1_alg».proof.Proof.Gen.Kernel.Skeleton
import proofs.«169495_j53601191854606_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body zeroes the accumulators when the grid coordinate is 0, -/
abbrev atFirst7 (i : grid7.Coords) : Prop :=
  (Scalar.cmpi .ne (Scalar.extui (Scalar.cmpi .eq (BitVec.ofNat 32 (i 0).val) 0#32)) 0#32) = 1#1
theorem atFirst7_iff : ∀ t : Fin cfg7.N, atFirst7 (grid7.coords t) ↔ t.val % 10 = 0 :=
  (by decide +kernel : ∀ t : Fin grid7.N, atFirst7 (grid7.coords t) ↔ t.val % 10 = 0)

/-- and stores the statistics when it is 9. -/
abbrev atLast7 (i : grid7.Coords) : Prop := k7_cond2 i = 1#1
theorem atLast7_iff : ∀ t : Fin cfg7.N, atLast7 (grid7.coords t) ↔ t.val % 10 = 9 :=
  (by decide +kernel : ∀ t : Fin grid7.N, atLast7 (grid7.coords t) ↔ t.val % 10 = 9)

/-- The four inputs and the combined block are live at every point. -/
theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
theorem live7_3 : ∀ t : Fin cfg7.N, cfg7.idle 3 (grid7.coords t) = false := by decide +kernel
theorem live7_4 : ∀ t : Fin cfg7.N, cfg7.idle 4 (grid7.coords t) = false := by decide +kernel
/-- The mean and variance windows are idle, and not written back, away from the last point; live at it. -/
theorem idle7_5 : ∀ t : Fin cfg7.N, ¬atLast7 (grid7.coords t) → cfg7.idle 5 (grid7.coords t) = true := by decide +kernel
theorem idle7_6 : ∀ t : Fin cfg7.N, ¬atLast7 (grid7.coords t) → cfg7.idle 6 (grid7.coords t) = true := by decide +kernel
theorem keep7_5 : ∀ t : Fin cfg7.N, ¬atLast7 (grid7.coords t) → (cfg7.win 5).flush t = false := by decide +kernel
theorem keep7_6 : ∀ t : Fin cfg7.N, ¬atLast7 (grid7.coords t) → (cfg7.win 6).flush t = false := by decide +kernel
theorem last7_5 : ∀ t : Fin cfg7.N, atLast7 (grid7.coords t) → cfg7.idle 5 (grid7.coords t) = false := by decide +kernel
theorem last7_6 : ∀ t : Fin cfg7.N, atLast7 (grid7.coords t) → cfg7.idle 6 (grid7.coords t) = false := by decide +kernel

/-- The two accumulators: whole scoped buffers of the call's own. -/
abbrev sumBuf7 : Memref sig .tc .vmem S1x64 .f32 := Memref.whole cc7_scratch0
abbrev sqBuf7 : Memref sig .tc .vmem S1x64 .f32 := Memref.whole cc7_scratch1

/-- The resting invariant of the call, opened at the accumulators: each at some contents, every other scoped buffer
    unopened, the generator register at some state. -/
theorem rest7_eq (c : Dev nD) :
    (Pipeline.ΦA spec7 c : sProp 𝕄)
      = iprop(iprop(iprop((∃ d, owns (c : Thread nD τ) sumBuf7 fullShare d) ∗ (∃ d, owns (c : Thread nD τ) sqBuf7 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [sumBuf7, sqBuf7, owns_whole]; try rfl

end Cert.Kernel.Hand

end
-- ==== Proof.Bits.Stats7First.lean ====
/-
  The combine-and-statistics body of layer three at the first grid point: the zeroing branch is taken, the
  statistics branch is not. The accumulators are entered at arbitrary contents (they are stored over before
  they are read); everything else is as at a middle point. The stored pieces are found by the run.
-/
import proofs.«169495_j53601191854606_1_alg».proof.Proof.Bits.Stats7Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runFirst7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : atFirst7 i) (hc1 : ¬atLast7 i)
    (x1 : Vec F S5000x64 .f32) (x2 : Vec F S5000x64 .f32) (x3 : Vec F S5000x1 .f32) (x4 : Vec F S1x64 .f32) :
    Σ' (L5 : List (View.Piece (Elt F) S5000x64 .f32)), Σ' (L8 : List (View.Piece (Elt F) S1x64 .f32)), { L9 : List (View.Piece (Elt F) S1x64 .f32) //
      ∀ (k6 : Vec F S1x64 .f32) (k7 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ owns (c : Thread nD τ) arg6 fullShare k6 ∗ owns (c : Thread nD τ) arg7 fullShare k7
            ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare k6 ∗ owns (c : Thread nD τ) arg7 fullShare k7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc7__combine_stats_kernel i arg1 harg1 arg2 harg2 arg3 harg3 arg4 harg4 arg5 harg5 arg6 harg6 arg7 harg7 arg8 harg8 arg9 harg9) K } := by
  refine ⟨?_, ?_, ?_, fun k6 k7 E K => ?run⟩
  case run =>
    simp only [cc7__combine_stats_kernel_eq_skeleton]; unfold cc7__combine_stats_kernel_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

end Cert.Kernel.Hand

end
-- ==== Proof.Bits.Stats7Mid.lean ====
/-
  The combine-and-statistics body of layer three at a grid point that is neither the first nor the last: neither
  branch is taken. On whole staging buffers — the four inputs at their contents, the mean and variance buffers
  at contents handed back untouched, the accumulators at what the point before left — it runs to the end with
  the combined block stored and both accumulators stored over; the stored pieces are found by the run.
-/
import proofs.«169495_j53601191854606_1_alg».proof.Proof.Bits.Stats7Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runMid7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : ¬atLast7 i)
    (x1 : Vec F S5000x64 .f32) (x2 : Vec F S5000x64 .f32) (x3 : Vec F S5000x1 .f32) (x4 : Vec F S1x64 .f32)
    (s8 : Vec F S1x64 .f32) (s9 : Vec F S1x64 .f32) :
    Σ' (L5 : List (View.Piece (Elt F) S5000x64 .f32)), Σ' (L8 : List (View.Piece (Elt F) S1x64 .f32)), { L9 : List (View.Piece (Elt F) S1x64 .f32) //
      ∀ (k6 : Vec F S1x64 .f32) (k7 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ owns (c : Thread nD τ) arg6 fullShare k6 ∗ owns (c : Thread nD τ) arg7 fullShare k7
            ∗ owns (c : Thread nD τ) arg8 fullShare s8 ∗ owns (c : Thread nD τ) arg9 fullShare s9
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare k6 ∗ owns (c : Thread nD τ) arg7 fullShare k7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc7__combine_stats_kernel i arg1 harg1 arg2 harg2 arg3 harg3 arg4 harg4 arg5 harg5 arg6 harg6 arg7 harg7 arg8 harg8 arg9 harg9) K } := by
  refine ⟨?_, ?_, ?_, fun k6 k7 E K => ?run⟩
  case run =>
    simp only [cc7__combine_stats_kernel_eq_skeleton]; unfold cc7__combine_stats_kernel_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

end Cert.Kernel.Hand

end
-- ==== Proof.Bits.Stats7Last.lean ====
/-
  The combine-and-statistics body of layer three at the last grid point: the zeroing branch is not taken, the
  statistics branch is. The accumulators are entered at what the point before left; the mean and variance
  buffers at arbitrary contents, and are stored over. The stored pieces are found by the run.
-/
import proofs.«169495_j53601191854606_1_alg».proof.Proof.Bits.Stats7Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runLast7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : atLast7 i)
    (x1 : Vec F S5000x64 .f32) (x2 : Vec F S5000x64 .f32) (x3 : Vec F S5000x1 .f32) (x4 : Vec F S1x64 .f32)
    (s8 : Vec F S1x64 .f32) (s9 : Vec F S1x64 .f32) :
    Σ' (L5 : List (View.Piece (Elt F) S5000x64 .f32)), Σ' (L6 : List (View.Piece (Elt F) S1x64 .f32)), Σ' (L7 : List (View.Piece (Elt F) S1x64 .f32)),
      Σ' (L8 : List (View.Piece (Elt F) S1x64 .f32)), { L9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ (∃ d, owns (c : Thread nD τ) arg6 fullShare d) ∗ (∃ d, owns (c : Thread nD τ) arg7 fullShare d)
            ∗ owns (c : Thread nD τ) arg8 fullShare s8 ∗ owns (c : Thread nD τ) arg9 fullShare s9
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc7__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__combine_stats_kernel_eq_skeleton]; unfold cc7__combine_stats_kernel_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; iexact H7
    isplitl [H8]
    · iexists _; iexact H8
    iexists _; iexact H9

end Cert.Kernel.Hand

end
-- ==== Proof.Bits.Stats7Cases.lean ====
/-
  The combine-and-statistics call of layer three, case by case: each window's block at a grid point, the staging
  buffers the body is called on, and what each of the three runs (first point, middle point, last point) leaves
  in the combined-block buffer, the mean and variance buffers and the two accumulators — its stored pieces read
  back, with the fact that they cover the buffer. Stated at a parameter V (the buffer contents when the call is
  entered) and at any float instance.
-/
import proofs.«169495_j53601191854606_1_alg».proof.Proof.Bits.Stats7First
import proofs.«169495_j53601191854606_1_alg».proof.Proof.Bits.Stats7Mid
import proofs.«169495_j53601191854606_1_alg».proof.Proof.Bits.Stats7Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Each input's block sits in its current staging buffer at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = blk7 V c 0 t) (t : Fin cfg7.N) (d) : dat.before 0 t d = blk7 V c 0 t :=
  (dat.before_in_eq_fetched 0 rfl (fun _ => rfl) (fun _ _ _ => rfl) (fun t => by rw [hafter]; unfold Dat.blockOf blk7; rw [hA]; try rfl) t d).trans
    (by unfold Dat.fetched Dat.blockOf blk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = blk7 V c 1 t) (t : Fin cfg7.N) (d) : dat.before 1 t d = blk7 V c 1 t :=
  (dat.before_in_eq_fetched 1 rfl (fun _ => rfl) (fun _ _ _ => rfl) (fun t => by rw [hafter]; unfold Dat.blockOf blk7; rw [hA]; try rfl) t d).trans
    (by unfold Dat.fetched Dat.blockOf blk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = blk7 V c 2 t) (t : Fin cfg7.N) (d) : dat.before 2 t d = blk7 V c 2 t :=
  (dat.before_in_eq_fetched 2 rfl (fun _ => rfl) (fun _ _ _ => rfl) (fun t => by rw [hafter]; unfold Dat.blockOf blk7; rw [hA]; try rfl) t d).trans
    (by unfold Dat.fetched Dat.blockOf blk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = blk7 V c 3 t) (t : Fin cfg7.N) (d) : dat.before 3 t d = blk7 V c 3 t :=
  (dat.before_in_eq_fetched 3 rfl (fun _ => rfl) (fun _ _ _ => rfl) (fun t => by rw [hafter]; unfold Dat.blockOf blk7; rw [hA]; try rfl) t d).trans
    (by unfold Dat.fetched Dat.blockOf blk7; rw [hA]; try rfl)

/-- Each window's current staging memref at point t, as the pipeline passes it, and its wholeness. -/
abbrev ms7_0 (t : Fin cfg7.N) : Memref sig .tc .vmem S5000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S5000x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x64 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x64 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x64 .f32 := win7_6.stage (cfg7.slots t 6)
abbrev hs7_6 (t : Fin cfg7.N) : (ms7_6 t).IsWhole := hstage7_6 ((cfg7.slots t 6).cast nbuf7_6)

/-- One staging buffer of each output window, through which its contents are stated (which one does not matter
    once the stores cover the block). -/
abbrev viaPre7 : View sig .tc .vmem S5000x64 .f32 := (Memref.whole cc7_stg4_0 : Memref sig .tc .vmem S5000x64 .f32).view
abbrev viaMean7 : View sig .tc .vmem S1x64 .f32 := (Memref.whole cc7_stg5_0 : Memref sig .tc .vmem S1x64 .f32).view
abbrev viaVar7 : View sig .tc .vmem S1x64 .f32 := (Memref.whole cc7_stg6_0 : Memref sig .tc .vmem S1x64 .f32).view
abbrev viaSum7 : View sig .tc .vmem S1x64 .f32 := sumBuf7.view
abbrev viaSq7 : View sig .tc .vmem S1x64 .f32 := sqBuf7.view

/-- What the five buffers hold after a point: the combined block, the mean, the variance, the running column
    sums of pre and of pre². -/
structure After7 (F : FTy → Type) [FloatOps F] where
  pre : Vec F S5000x64 .f32
  mean : Vec F S1x64 .f32
  var : Vec F S1x64 .f32
  sum : Vec F S1x64 .f32
  sq : Vec F S1x64 .f32

theorem cover7_first_pre (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : atFirst7 i) (hc1 : ¬atLast7 i) (x1 : Vec F S5000x64 .f32) (x2 : Vec F S5000x64 .f32) (x3 : Vec F S5000x1 .f32) (x4 : Vec F S1x64 .f32) (y : S5000x64.Idx) :
    ∃ pc ∈ (runFirst7 c i arg1 harg1 arg2 harg2 arg3 harg3 arg4 harg4 arg5 harg5 arg6 harg6 arg7 harg7 arg8 harg8 arg9 harg9 hc0 hc1 x1 x2 x3 x4).1, y ∈ pc.1.set :=
  View.cover_of_tiledL (runFirst7 c i arg1 harg1 arg2 harg2 arg3 harg3 arg4 harg4 arg5 harg5 arg6 harg6 arg7 harg7 arg8 harg8 arg9 harg9 hc0 hc1 x1 x2 x3 x4).1 S5000x64.size (by sl_kernel_rfl) y
theorem cover7_first_sum (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : atFirst7 i) (hc1 : ¬atLast7 i) (x1 : Vec F S5000x64 .f32) (x2 : Vec F S5000x64 .f32) (x3 : Vec F S5000x1 .f32) (x4 : Vec F S1x64 .f32) (y : S1x64.Idx) :
    ∃ pc ∈ (runFirst7 c i arg1 harg1 arg2 harg2 arg3 harg3 arg4 harg4 arg5 harg5 arg6 harg6 arg7 harg7 arg8 harg8 arg9 harg9 hc0 hc1 x1 x2 x3 x4).2.1, y ∈ pc.1.set :=
  View.cover_of_tiledL (runFirst7 c i arg1 harg1 arg2 harg2 arg3 harg3 arg4 harg4 arg5 harg5 arg6 harg6 arg7 harg7 arg8 harg8 arg9 harg9 hc0 hc1 x1 x2 x3 x4).2.1 S1x64.size (by sl_kernel_rfl) y
theorem cover7_first_sq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : atFirst7 i) (hc1 : ¬atLast7 i) (x1 : Vec F S5000x64 .f32) (x2 : Vec F S5000x64 .f32) (x3 : Vec F S5000x1 .f32) (x4 : Vec F S1x64 .f32) (y : S1x64.Idx) :
    ∃ pc ∈ (runFirst7 c i arg1 harg1 arg2 harg2 arg3 harg3 arg4 harg4 arg5 harg5 arg6 harg6 arg7 harg7 arg8 harg8 arg9 harg9 hc0 hc1 x1 x2 x3 x4).2.2.1, y ∈ pc.1.set :=
  View.cover_of_tiledL (runFirst7 c i arg1 harg1 arg2 harg2 arg3 harg3 arg4 harg4 arg5 harg5 arg6 harg6 arg7 harg7 arg8 harg8 arg9 harg9 hc0 hc1 x1 x2 x3 x4).2.2.1 S1x64.size (by sl_kernel_rfl) y
/-- What the first point's run leaves: its stored pieces read back (the mean and variance buffers are not stored: placeholders nothing consults). -/
def first7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : atFirst7 i) (hc1 : ¬atLast7 i) (x1 : Vec F S5000x64 .f32) (x2 : Vec F S5000x64 .f32) (x3 : Vec F S5000x1 .f32) (x4 : Vec F S1x64 .f32) : After7 F where
  pre := viaPre7.read (Elt F) (viaPre7.writes (Elt F) viaPre7.junk (runFirst7 c i arg1 harg1 arg2 harg2 arg3 harg3 arg4 harg4 arg5 harg5 arg6 harg6 arg7 harg7 arg8 harg8 arg9 harg9 hc0 hc1 x1 x2 x3 x4).1)
  mean := viaMean7.read (Elt F) viaMean7.junk
  var := viaVar7.read (Elt F) viaVar7.junk
  sum := viaSum7.read (Elt F) (viaSum7.writes (Elt F) viaSum7.junk (runFirst7 c i arg1 harg1 arg2 harg2 arg3 harg3 arg4 harg4 arg5 harg5 arg6 harg6 arg7 harg7 arg8 harg8 arg9 harg9 hc0 hc1 x1 x2 x3 x4).2.1)
  sq := viaSq7.read (Elt F) (viaSq7.writes (Elt F) viaSq7.junk (runFirst7 c i arg1 harg1 arg2 harg2 arg3 harg3 arg4 harg4 arg5 harg5 arg6 harg6 arg7 harg7 arg8 harg8 arg9 harg9 hc0 hc1 x1 x2 x3 x4).2.2.1)

theorem cover7_mid_pre (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : ¬atLast7 i) (x1 : Vec F S5000x64 .f32) (x2 : Vec F S5000x64 .f32) (x3 : Vec F S5000x1 .f32) (x4 : Vec F S1x64 .f32) (s8 : Vec F S1x64 .f32) (s9 : Vec F S1x64 .f32) (y : S5000x64.Idx) :
    ∃ pc ∈ (runMid7 c i arg1 harg1 arg2 harg2 arg3 harg3 arg4 harg4 arg5 harg5 arg6 harg6 arg7 harg7 arg8 harg8 arg9 harg9 hc0 hc1 x1 x2 x3 x4 s8 s9).1, y ∈ pc.1.set :=
  View.cover_of_tiledL (runMid7 c i arg1 harg1 arg2 harg2 arg3 harg3 arg4 harg4 arg5 harg5 arg6 harg6 arg7 harg7 arg8 harg8 arg9 harg9 hc0 hc1 x1 x2 x3 x4 s8 s9).1 S5000x64.size (by sl_kernel_rfl) y
theorem cover7_mid_sum (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : ¬atLast7 i) (x1 : Vec F S5000x64 .f32) (x2 : Vec F S5000x64 .f32) (x3 : Vec F S5000x1 .f32) (x4 : Vec F S1x64 .f32) (s8 : Vec F S1x64 .f32) (s9 : Vec F S1x64 .f32) (y : S1x64.Idx) :
    ∃ pc ∈ (runMid7 c i arg1 harg1 arg2 harg2 arg3 harg3 arg4 harg4 arg5 harg5 arg6 harg6 arg7 harg7 arg8 harg8 arg9 harg9 hc0 hc1 x1 x2 x3 x4 s8 s9).2.1, y ∈ pc.1.set :=
  View.cover_of_tiledL (runMid7 c i arg1 harg1 arg2 harg2 arg3 harg3 arg4 harg4 arg5 harg5 arg6 harg6 arg7 harg7 arg8 harg8 arg9 harg9 hc0 hc1 x1 x2 x3 x4 s8 s9).2.1 S1x64.size (by sl_kernel_rfl) y
theorem cover7_mid_sq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : ¬atLast7 i) (x1 : Vec F S5000x64 .f32) (x2 : Vec F S5000x64 .f32) (x3 : Vec F S5000x1 .f32) (x4 : Vec F S1x64 .f32) (s8 : Vec F S1x64 .f32) (s9 : Vec F S1x64 .f32) (y : S1x64.Idx) :
    ∃ pc ∈ (runMid7 c i arg1 harg1 arg2 harg2 arg3 harg3 arg4 harg4 arg5 harg5 arg6 harg6 arg7 harg7 arg8 harg8 arg9 harg9 hc0 hc1 x1 x2 x3 x4 s8 s9).2.2.1, y ∈ pc.1.set :=
  View.cover_of_tiledL (runMid7 c i arg1 harg1 arg2 harg2 arg3 harg3 arg4 harg4 arg5 harg5 arg6 harg6 arg7 harg7 arg8 harg8 arg9 harg9 hc0 hc1 x1 x2 x3 x4 s8 s9).2.2.1 S1x64.size (by sl_kernel_rfl) y
/-- What the mid point's run leaves: its stored pieces read back (the mean and variance buffers are not stored: placeholders nothing consults). -/
def mid7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : ¬atLast7 i) (x1 : Vec F S5000x64 .f32) (x2 : Vec F S5000x64 .f32) (x3 : Vec F S5000x1 .f32) (x4 : Vec F S1x64 .f32) (s8 : Vec F S1x64 .f32) (s9 : Vec F S1x64 .f32) : After7 F where
  pre := viaPre7.read (Elt F) (viaPre7.writes (Elt F) viaPre7.junk (runMid7 c i arg1 harg1 arg2 harg2 arg3 harg3 arg4 harg4 arg5 harg5 arg6 harg6 arg7 harg7 arg8 harg8 arg9 harg9 hc0 hc1 x1 x2 x3 x4 s8 s9).1)
  mean := viaMean7.read (Elt F) viaMean7.junk
  var := viaVar7.read (Elt F) viaVar7.junk
  sum := viaSum7.read (Elt F) (viaSum7.writes (Elt F) viaSum7.junk (runMid7 c i arg1 harg1 arg2 harg2 arg3 harg3 arg4 harg4 arg5 harg5 arg6 harg6 arg7 harg7 arg8 harg8 arg9 harg9 hc0 hc1 x1 x2 x3 x4 s8 s9).2.1)
  sq := viaSq7.read (Elt F) (viaSq7.writes (Elt F) viaSq7.junk (runMid7 c i arg1 harg1 arg2 harg2 arg3 harg3 arg4 harg4 arg5 harg5 arg6 harg6 arg7 harg7 arg8 harg8 arg9 harg9 hc0 hc1 x1 x2 x3 x4 s8 s9).2.2.1)

theorem cover7_last_pre (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) (y : S5000x64.Idx) :
    ∃ pc ∈ (runLast7 c i arg1 harg1 arg2 harg2 arg3 harg3 arg4 harg4 arg5 harg5 arg6 harg6 arg7 harg7 arg8 harg8 arg9 harg9 hc0 hc1 x1 x2 x3 x4 s8 s9).1, y ∈ pc.1.set :=
  View.cover_of_tiledL (runLast7 c i arg1 harg1 arg2 harg2 arg3 harg3 arg4 harg4 arg5 harg5 arg6 harg6 arg7 harg7 arg8 harg8 arg9 harg9 hc0 hc1 x1 x2 x3 x4 s8 s9).1 S5000x64.size (by sl_kernel_rfl) y
theorem cover7_last_mean (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) (y : S1x64.Idx) :
    ∃ pc ∈ (runLast7 c i arg1 harg1 arg2 harg2 arg3 harg3 arg4 harg4 arg5 harg5 arg6 harg6 arg7 harg7 arg8 harg8 arg9 harg9 hc0 hc1 x1 x2 x3 x4 s8 s9).2.1, y ∈ pc.1.set :=
  View.cover_of_tiledL (runLast7 c i arg1 harg1 arg2 harg2 arg3 harg3 arg4 harg4 arg5 harg5 arg6 harg6 arg7 harg7 arg8 harg8 arg9 harg9 hc0 hc1 x1 x2 x3 x4 s8 s9).2.1 S1x64.size (by sl_kernel_rfl) y
theorem cover7_last_var (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) (y : S1x64.Idx) :
    ∃ pc ∈ (runLast7 c i arg1 harg1 arg2 harg2 arg3 harg3 arg4 harg4 arg5 harg5 arg6 harg6 arg7 harg7 arg8 harg8 arg9 harg9 hc0 hc1 x1 x2 x3 x4 s8 s9).2.2.1, y ∈ pc.1.set :=
  View.cover_of_tiledL (runLast7 c i arg1 harg1 arg2 harg2 arg3 harg3 arg4 harg4 arg5 harg5 arg6 harg6 arg7 harg7 arg8 harg8 arg9 harg9 hc0 hc1 x1 x2 x3 x4 s8 s9).2.2.1 S1x64.size (by sl_kernel_rfl) y
theorem cover7_last_sum (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) (y : S1x64.Idx) :
    ∃ pc ∈ (runLast7 c i arg1 harg1 arg2 harg2 arg3 harg3 arg4 harg4 arg5 harg5 arg6 harg6 arg7 harg7 arg8 harg8 arg9 harg9 hc0 hc1 x1 x2 x3 x4 s8 s9).2.2.2.1, y ∈ pc.1.set :=
  View.cover_of_tiledL (runLast7 c i arg1 harg1 arg2 harg2 arg3 harg3 arg4 harg4 arg5 harg5 arg6 harg6 arg7 harg7 arg8 harg8 arg9 harg9 hc0 hc1 x1 x2 x3 x4 s8 s9).2.2.2.1 S1x64.size (by sl_kernel_rfl) y
theorem cover7_last_sq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) (y : S1x64.Idx) :
    ∃ pc ∈ (runLast7 c i arg1 harg1 arg2 harg2 arg3 harg3 arg4 harg4 arg5 harg5 arg6 harg6 arg7 harg7 arg8 harg8 arg9 harg9 hc0 hc1 x1 x2 x3 x4 s8 s9).2.2.2.2.1, y ∈ pc.1.set :=
  View.cover_of_tiledL (runLast7 c i arg1 harg1 arg2 harg2 arg3 harg3 arg4 harg4 arg5 harg5 arg6 harg6 arg7 harg7 arg8 harg8 arg9 harg9 hc0 hc1 x1 x2 x3 x4 s8 s9).2.2.2.2.1 S1x64.size (by sl_kernel_rfl) y
/-- What the last point's run leaves: its stored pieces read back. -/
def last7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) : After7 F where
  pre := viaPre7.read (Elt F) (viaPre7.writes (Elt F) viaPre7.junk (runLast7 c i arg1 harg1 arg2 harg2 arg3 harg3 arg4 harg4 arg5 harg5 arg6 harg6 arg7 harg7 arg8 harg8 arg9 harg9 hc0 hc1 x1 x2 x3 x4 s8 s9).1)
  mean := viaMean7.read (Elt F) (viaMean7.writes (Elt F) viaMean7.junk (runLast7 c i arg1 harg1 arg2 harg2 arg3 harg3 arg4 harg4 arg5 harg5 arg6 harg6 arg7 harg7 arg8 harg8 arg9 harg9 hc0 hc1 x1 x2 x3 x4 s8 s9).2.1)
  var := viaVar7.read (Elt F) (viaVar7.writes (Elt F) viaVar7.junk (runLast7 c i arg1 harg1 arg2 harg2 arg3 harg3 arg4 harg4 arg5 harg5 arg6 harg6 arg7 harg7 arg8 harg8 arg9 harg9 hc0 hc1 x1 x2 x3 x4 s8 s9).2.2.1)
  sum := viaSum7.read (Elt F) (viaSum7.writes (Elt F) viaSum7.junk (runLast7 c i arg1 harg1 arg2 harg2 arg3 harg3 arg4 harg4 arg5 harg5 arg6 harg6 arg7 harg7 arg8 harg8 arg9 harg9 hc0 hc1 x1 x2 x3 x4 s8 s9).2.2.2.1)
  sq := viaSq7.read (Elt F) (viaSq7.writes (Elt F) viaSq7.junk (runLast7 c i arg1 harg1 arg2 harg2 arg3 harg3 arg4 harg4 arg5 harg5 arg6 harg6 arg7 harg7 arg8 harg8 arg9 harg9 hc0 hc1 x1 x2 x3 x4 s8 s9).2.2.2.2.1)

end Cert.Kernel.Hand

end
-- ==== Proof.Bits.Stats7Acc.lean ====
/-
  The combine-and-statistics call of layer three, point by point. What the five buffers hold after the body at
  each grid point: the first point's run from the point's input blocks; at a later point the middle or the last
  run from the input blocks and from the column sums the point before left. The call's invariant carries the
  two accumulators at those sums from one point to the next; the body obligation follows at every point.
-/
import proofs.«169495_j53601191854606_1_alg».proof.Proof.Bits.Stats7Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tenPoints7 : cfg7.N = 10 := N_7

/-- THE ACCUMULATION: the five buffers after the body at position n. -/
def after7 (c : Dev nD) : (n : ℕ) → n < cfg7.N → After7 F
  | 0, hn => first7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) sumBuf7 (Memref.isWhole_whole _) sqBuf7 (Memref.isWhole_whole _)
      ((atFirst7_iff ⟨0, hn⟩).mpr (Nat.zero_mod _))
      (fun h => by have h9 := (atLast7_iff ⟨0, hn⟩).mp h; (try dsimp only at h9); omega) (blk7 V c 0 ⟨0, hn⟩) (blk7 V c 1 ⟨0, hn⟩) (blk7 V c 2 ⟨0, hn⟩) (blk7 V c 3 ⟨0, hn⟩)
  | n + 1, hn =>
    if h1 : (n + 1) % 10 = 9 then
      last7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) sumBuf7 (Memref.isWhole_whole _) sqBuf7 (Memref.isWhole_whole _)
        (fun h => by have h0 := (atFirst7_iff ⟨n + 1, hn⟩).mp h; have hN : n + 1 < 10 := lt_of_lt_of_eq hn tenPoints7; (try dsimp only at h0); omega)
        ((atLast7_iff ⟨n + 1, hn⟩).mpr h1) (blk7 V c 0 ⟨n + 1, hn⟩) (blk7 V c 1 ⟨n + 1, hn⟩) (blk7 V c 2 ⟨n + 1, hn⟩) (blk7 V c 3 ⟨n + 1, hn⟩)
        (after7 c n (Nat.lt_of_succ_lt hn)).sum (after7 c n (Nat.lt_of_succ_lt hn)).sq
    else
      mid7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) sumBuf7 (Memref.isWhole_whole _) sqBuf7 (Memref.isWhole_whole _)
        (fun h => by have h0 := (atFirst7_iff ⟨n + 1, hn⟩).mp h; have hN : n + 1 < 10 := lt_of_lt_of_eq hn tenPoints7; (try dsimp only at h0); omega)
        (fun h => h1 ((atLast7_iff ⟨n + 1, hn⟩).mp h)) (blk7 V c 0 ⟨n + 1, hn⟩) (blk7 V c 1 ⟨n + 1, hn⟩) (blk7 V c 2 ⟨n + 1, hn⟩) (blk7 V c 3 ⟨n + 1, hn⟩)
        (after7 c n (Nat.lt_of_succ_lt hn)).sum (after7 c n (Nat.lt_of_succ_lt hn)).sq

theorem after7_first (c : Dev nD) (t : Fin cfg7.N) (h0 : t.val % 10 = 0) (h1 : ¬t.val % 10 = 9) :
    after7 V c t.val t.isLt = first7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) sumBuf7 (Memref.isWhole_whole _) sqBuf7 (Memref.isWhole_whole _) ((atFirst7_iff t).mpr h0) (fun h => h1 ((atLast7_iff t).mp h)) (blk7 V c 0 t) (blk7 V c 1 t) (blk7 V c 2 t) (blk7 V c 3 t) := by
  obtain ⟨n, hn⟩ := t
  cases n with
  | zero => exact rfl
  | succ n => exfalso; have hN : n + 1 < 10 := lt_of_lt_of_eq hn tenPoints7; (try dsimp only at h0); omega

theorem after7_mid (c : Dev nD) (t : Fin cfg7.N) (h0 : ¬t.val % 10 = 0) (h1 : ¬t.val % 10 = 9) :
    after7 V c t.val t.isLt = mid7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) sumBuf7 (Memref.isWhole_whole _) sqBuf7 (Memref.isWhole_whole _) (fun h => h0 ((atFirst7_iff t).mp h)) (fun h => h1 ((atLast7_iff t).mp h)) (blk7 V c 0 t) (blk7 V c 1 t) (blk7 V c 2 t) (blk7 V c 3 t)
      (after7 V c (t.val - 1) (Nat.lt_of_le_of_lt (Nat.sub_le _ _) t.isLt)).sum (after7 V c (t.val - 1) (Nat.lt_of_le_of_lt (Nat.sub_le _ _) t.isLt)).sq := by
  obtain ⟨n, hn⟩ := t
  cases n with
  | zero => exact (by exfalso; (try dsimp only at h0); exact absurd (Nat.zero_mod _) h0)
  | succ n => exact (dif_neg h1).trans rfl

theorem after7_last (c : Dev nD) (t : Fin cfg7.N) (h0 : ¬t.val % 10 = 0) (h1 : t.val % 10 = 9) :
    after7 V c t.val t.isLt = last7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) sumBuf7 (Memref.isWhole_whole _) sqBuf7 (Memref.isWhole_whole _) (fun h => h0 ((atFirst7_iff t).mp h)) ((atLast7_iff t).mpr h1) (blk7 V c 0 t) (blk7 V c 1 t) (blk7 V c 2 t) (blk7 V c 3 t)
      (after7 V c (t.val - 1) (Nat.lt_of_le_of_lt (Nat.sub_le _ _) t.isLt)).sum (after7 V c (t.val - 1) (Nat.lt_of_le_of_lt (Nat.sub_le _ _) t.isLt)).sq := by
  obtain ⟨n, hn⟩ := t
  cases n with
  | zero => exact (by exfalso; (try dsimp only at h0); exact absurd (Nat.zero_mod _) h0)
  | succ n => exact (dif_pos h1).trans rfl

/-- The call's invariant before position n: the resting one before the first point; afterwards the accumulators at
    the sums the point before left, every other scoped buffer unopened, the generator register at some state. -/
def carry7 (c : Dev nD) : (n : ℕ) → n ≤ cfg7.N → sProp 𝕄
  | 0, _ => Pipeline.ΦA spec7 c
  | n + 1, hn => iprop(iprop(iprop(owns (c : Thread nD τ) sumBuf7 fullShare (after7 V c n hn).sum ∗ owns (c : Thread nD τ) sqBuf7 fullShare (after7 V c n hn).sq)
      ∗ Pipeline.scopedRestBut (Ix := Unit) (Name := ℕ) (U := UR sig nD τ) (Lvl := ℕ) (Val := Elt F) spec7 c [cc7_scratch0, cc7_scratch1]) ∗ (∃ r, prngReg c r))

theorem carry7_zero (c : Dev nD) (n : ℕ) (h : n ≤ cfg7.N) (hz : n = 0) : carry7 V c n h = Pipeline.ΦA spec7 c := by
  subst hz; rfl

theorem carry7_succ (c : Dev nD) (n : ℕ) (hn : n < cfg7.N) :
    carry7 V c (n + 1) hn = iprop(iprop(iprop(owns (c : Thread nD τ) sumBuf7 fullShare (after7 V c n hn).sum ∗ owns (c : Thread nD τ) sqBuf7 fullShare (after7 V c n hn).sq)
      ∗ Pipeline.scopedRestBut (Ix := Unit) (Name := ℕ) (U := UR sig nD τ) (Lvl := ℕ) (Val := Elt F) spec7 c [cc7_scratch0, cc7_scratch1]) ∗ (∃ r, prngReg c r)) := rfl

theorem carry7_pos (c : Dev nD) (n : ℕ) (h : n ≤ cfg7.N) (hz : n ≠ 0) :
    carry7 V c n h = iprop(iprop(iprop(owns (c : Thread nD τ) sumBuf7 fullShare (after7 V c (n - 1) (by omega)).sum ∗ owns (c : Thread nD τ) sqBuf7 fullShare (after7 V c (n - 1) (by omega)).sq)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-- The proof data of the call: arrays as found; after the body each input buffer at its block, the three output
    buffers at the accumulation's components; the invariant the carried one; nothing owed. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => (after7 V c t.val t.isLt).pre
    | ⟨5, _⟩ => (after7 V c t.val t.isLt).mean
    | ⟨6, _⟩ => (after7 V c t.val t.isLt).var
  Φ t := carry7 V c t.val (Nat.le_of_lt_succ t.isLt)
  q _ := fullShare
  owed _ := 0

theorem dat7_A (c : Dev nD) (w : Fin cfg7.W) : (dat7 V c).A w = V c (Pipeline.arrRef spec7 w) := by
  dsimp only [dat7]

theorem dat7_carry (c : Dev nD) (t : Fin cfg7.N) :
    (dat7 V c).Φ t.castSucc = carry7 V c t.val (Nat.le_of_lt t.isLt) := by
  dsimp only [dat7]; simp only [Fin.coe_castSucc]

theorem dat7_after_0 (c : Dev nD) (t : Fin cfg7.N) : (dat7 V c).after 0 t = blk7 V c 0 t := by dsimp only [dat7]
theorem dat7_after_1 (c : Dev nD) (t : Fin cfg7.N) : (dat7 V c).after 1 t = blk7 V c 1 t := by dsimp only [dat7]
theorem dat7_after_2 (c : Dev nD) (t : Fin cfg7.N) : (dat7 V c).after 2 t = blk7 V c 2 t := by dsimp only [dat7]
theorem dat7_after_3 (c : Dev nD) (t : Fin cfg7.N) : (dat7 V c).after 3 t = blk7 V c 3 t := by dsimp only [dat7]
theorem dat7_after_4 (c : Dev nD) (t : Fin cfg7.N) : (dat7 V c).after 4 t = (after7 V c t.val t.isLt).pre := by dsimp only [dat7]
theorem dat7_after_5 (c : Dev nD) (t : Fin cfg7.N) : (dat7 V c).after 5 t = (after7 V c t.val t.isLt).mean := by dsimp only [dat7]
theorem dat7_after_6 (c : Dev nD) (t : Fin cfg7.N) : (dat7 V c).after 6 t = (after7 V c t.val t.isLt).var := by dsimp only [dat7]

theorem dat7_before_0 (c : Dev nD) (t : Fin cfg7.N) (d) : (dat7 V c).before 0 t d = blk7 V c 0 t :=
  before7_0_of V (dat7 V c) (dat7_A V c 0) (dat7_after_0 V c) t d
theorem dat7_before_1 (c : Dev nD) (t : Fin cfg7.N) (d) : (dat7 V c).before 1 t d = blk7 V c 1 t :=
  before7_1_of V (dat7 V c) (dat7_A V c 1) (dat7_after_1 V c) t d
theorem dat7_before_2 (c : Dev nD) (t : Fin cfg7.N) (d) : (dat7 V c).before 2 t d = blk7 V c 2 t :=
  before7_2_of V (dat7 V c) (dat7_A V c 2) (dat7_after_2 V c) t d
theorem dat7_before_3 (c : Dev nD) (t : Fin cfg7.N) (d) : (dat7 V c).before 3 t d = blk7 V c 3 t :=
  before7_3_of V (dat7 V c) (dat7_A V c 3) (dat7_after_3 V c) t d

end Cert.Kernel.Hand

end
-- ==== Proof.Bits.Stats7Body.lean ====
/-
  The combine-and-statistics call of layer three: the body obligation. At a generic grid point the body is entered
  with the carried invariant, nothing owed, and each window's current staging buffer (an input's at its block); it
  leaves the invariant of the next position — the accumulators at this point's sums —, each input buffer as it was,
  the combined block stored, and the mean and variance buffers stored at the last point and handed back untouched
  elsewhere. Three cases by the point's position: first, middle, last.
-/
import proofs.«169495_j53601191854606_1_alg».proof.Proof.Bits.Stats7Acc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def enter7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

def leave7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
theorem sound_point7 (c : Dev nD) (t : Fin cfg7.N) :
    enter7 V c t ⊢ wp frame (wpE (defs₀ (F := F)) Variants.none c none) Set.univ (bodyAt7 t) (fun _ => leave7 V c t) := by
  unfold enter7 leave7 bodyAt7
  simp only [dat7_before_0, dat7_before_1, dat7_before_2, dat7_before_3]
  rw [show (dat7 V c).owesAt () t.succ = (dat7 V c).owesAt () t.castSucc from rfl]
  rw [show (dat7 V c).Φ t.succ = carry7 V c (t.val + 1) t.isLt from rfl, carry7_succ]
  have hN : t.val < 10 := lt_of_lt_of_eq t.isLt tenPoints7
  rw [show (dat7 V c).leavesExact 0 t = owns (c : Thread nD τ) (ms7_0 t) fullShare ((dat7 V c).after 0 t) from by
    unfold Dat.leavesExact; rw [live7_0 t], dat7_after_0]
  rw [show (dat7 V c).leavesExact 1 t = owns (c : Thread nD τ) (ms7_1 t) fullShare ((dat7 V c).after 1 t) from by
    unfold Dat.leavesExact; rw [live7_1 t], dat7_after_1]
  rw [show (dat7 V c).leavesExact 2 t = owns (c : Thread nD τ) (ms7_2 t) fullShare ((dat7 V c).after 2 t) from by
    unfold Dat.leavesExact; rw [live7_2 t], dat7_after_2]
  rw [show (dat7 V c).leavesExact 3 t = owns (c : Thread nD τ) (ms7_3 t) fullShare ((dat7 V c).after 3 t) from by
    unfold Dat.leavesExact; rw [live7_3 t], dat7_after_3]
  rw [show (dat7 V c).leavesExact 4 t = owns (c : Thread nD τ) (ms7_4 t) fullShare ((dat7 V c).after 4 t) from by
    unfold Dat.leavesExact; rw [live7_4 t], dat7_after_4]
  by_cases h0 : t.val % 10 = 0
  · -- the first point
    have h1 : ¬t.val % 10 = 9 := by omega
    have hz : t.val = 0 := by omega
    rw [Dat.leavesExact_idle (dat7 V c) 5 t (idle7_5 t (fun h => h1 ((atLast7_iff t).mp h))) (keep7_5 t (fun h => h1 ((atLast7_iff t).mp h)))]
    rw [Dat.leavesExact_idle (dat7 V c) 6 t (idle7_6 t (fun h => h1 ((atLast7_iff t).mp h))) (keep7_6 t (fun h => h1 ((atLast7_iff t).mp h)))]
    rw [after7_first V c t h0 h1]
    unfold first7; (try dsimp only)
    rw [dat7_carry V c t, carry7_zero V c _ _ hz, rest7_eq]
    iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runFirst7 c (grid7.coords t) _ _ _ _ _ _ _ _ _ _ _ _ _ _ _ _ _ _ ((atFirst7_iff t).mpr h0) (fun h => h1 ((atLast7_iff t).mp h)) (blk7 V c 0 t) (blk7 V c 1 t) (blk7 V c 2 t) (blk7 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, ⟨%e4, H4⟩, H5, H6, ⟨%e8, HS8⟩, ⟨%e9, HS9⟩⟩
    isplitl [HS8 HS9 HR Hg]
    · isplitl [HS8 HS9 HR]
      · isplitl [HS8 HS9]
        · isplitl [HS8]
          · unfold owns; iexists _; isplitr
            swap; · iexact HS8
            ipureintro; exact View.read_writes_of_cover _ _ _ _ _ (cover7_first_sum c _ _ _ _ _ _ _ _ _ _ _ _ _ _ _ _ _ _ _ _ _ _ _ _ _)
          · unfold owns; iexists _; isplitr
            swap; · iexact HS9
            ipureintro; exact View.read_writes_of_cover _ _ _ _ _ (cover7_first_sq c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover7_first_pre c _ _ _ _ _ _ _ _ _ _ _ _ _ _ _ _ _ _ _ _ _ _ _ _ _)
    isplitl [H5]; · iexists _; iexact H5
    iexists _; iexact H6
  · have hz : t.val ≠ 0 := by omega
    by_cases h1 : t.val % 10 = 9
    · -- the last point
      rw [show (dat7 V c).leavesExact 5 t = owns (c : Thread nD τ) (ms7_5 t) fullShare ((dat7 V c).after 5 t) from by
        unfold Dat.leavesExact; rw [last7_5 t ((atLast7_iff t).mpr h1)], dat7_after_5]
      rw [show (dat7 V c).leavesExact 6 t = owns (c : Thread nD τ) (ms7_6 t) fullShare ((dat7 V c).after 6 t) from by
        unfold Dat.leavesExact; rw [last7_6 t ((atLast7_iff t).mpr h1)], dat7_after_6]
      rw [after7_last V c t h0 h1]
      unfold last7; (try dsimp only)
      rw [dat7_carry V c t, carry7_pos V c _ _ hz]
      iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast7 c (grid7.coords t) _ _ _ _ _ _ _ _ _ _ _ _ _ _ _ _ _ _ (fun h => h0 ((atFirst7_iff t).mp h)) ((atLast7_iff t).mpr h1) (blk7 V c 0 t) (blk7 V c 1 t) (blk7 V c 2 t) (blk7 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, ⟨%e4, H4⟩, ⟨%e5, H5⟩, ⟨%e6, H6⟩, ⟨%e8, HS8⟩, ⟨%e9, HS9⟩⟩
      isplitl [HS8 HS9 HR Hg]
      · isplitl [HS8 HS9 HR]
        · isplitl [HS8 HS9]
          · isplitl [HS8]
            · unfold owns; iexists _; isplitr
              swap; · iexact HS8
              ipureintro; exact View.read_writes_of_cover _ _ _ _ _ (cover7_last_sum c _ _ _ _ _ _ _ _ _ _ _ _ _ _ _ _ _ _ _ _ _ _ _ _ _ _ _)
            · unfold owns; iexists _; isplitr
              swap; · iexact HS9
              ipureintro; exact View.read_writes_of_cover _ _ _ _ _ (cover7_last_sq c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_last_pre c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover7_last_mean c _ _ _ _ _ _ _ _ _ _ _ _ _ _ _ _ _ _ _ _ _ _ _ _ _ _ _)
      unfold owns; iexists _; isplitr
      swap; · iexact H6
      ipureintro; exact View.read_writes_of_cover _ _ _ _ _ (cover7_last_var c _ _ _ _ _ _ _ _ _ _ _ _ _ _ _ _ _ _ _ _ _ _ _ _ _ _ _)
    · -- a middle point
      rw [Dat.leavesExact_idle (dat7 V c) 5 t (idle7_5 t (fun h => h1 ((atLast7_iff t).mp h))) (keep7_5 t (fun h => h1 ((atLast7_iff t).mp h)))]
      rw [Dat.leavesExact_idle (dat7 V c) 6 t (idle7_6 t (fun h => h1 ((atLast7_iff t).mp h))) (keep7_6 t (fun h => h1 ((atLast7_iff t).mp h)))]
      rw [after7_mid V c t h0 h1]
      unfold mid7; (try dsimp only)
      rw [dat7_carry V c t, carry7_pos V c _ _ hz]
      iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid7 c (grid7.coords t) _ _ _ _ _ _ _ _ _ _ _ _ _ _ _ _ _ _ (fun h => h0 ((atFirst7_iff t).mp h)) (fun h => h1 ((atLast7_iff t).mp h)) (blk7 V c 0 t) (blk7 V c 1 t) (blk7 V c 2 t) (blk7 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, ⟨%e4, H4⟩, H5, H6, ⟨%e8, HS8⟩, ⟨%e9, HS9⟩⟩
      isplitl [HS8 HS9 HR Hg]
      · isplitl [HS8 HS9 HR]
        · isplitl [HS8 HS9]
          · isplitl [HS8]
            · unfold owns; iexists _; isplitr
              swap; · iexact HS8
              ipureintro; exact View.read_writes_of_cover _ _ _ _ _ (cover7_mid_sum c _ _ _ _ _ _ _ _ _ _ _ _ _ _ _ _ _ _ _ _ _ _ _ _ _ _ _)
            · unfold owns; iexists _; isplitr
              swap; · iexact HS9
              ipureintro; exact View.read_writes_of_cover _ _ _ _ _ (cover7_mid_sq c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_mid_pre c _ _ _ _ _ _ _ _ _ _ _ _ _ _ _ _ _ _ _ _ _ _ _ _ _ _ _)
      isplitl [H5]; · iexists _; iexact H5
      iexists _; iexact H6

theorem obligation7 (c : Dev nD) : BodyObligation (dat7 (F := F) V c) (defs₀ (F := F)) Variants.none () Set.univ := fun t => by
  rw [bigSep_W7, bigSep_W7]
  exact sound_point7 V c t

/-- What the launch hands the call is the invariant before the first point, -/
theorem carry7_in (c : Dev nD) : Pipeline.ΦA spec7 c ⊢ (dat7 V c).Φ 0 := by
  rw [show (dat7 V c).Φ 0 = carry7 V c 0 (Nat.zero_le _) from rfl, carry7_zero V c 0 _ rfl]
  try exact Idealize.SL.BI.Entails.refl _

/-- and after the last point the invariant gives the resting one back, the sums forgotten. -/
theorem carry7_out (c : Dev nD) : (dat7 V c).Φ (Fin.last cfg7.N) ⊢ Pipeline.ΦA spec7 c := by
  rw [show (dat7 V c).Φ (Fin.last cfg7.N) = carry7 V c (Fin.last cfg7.N).val (Nat.le_of_lt_succ (Fin.last cfg7.N).isLt) from rfl,
    carry7_pos V c _ _ (by rw [Fin.val_last]; have : cfg7.N = 10 := tenPoints7; omega), rest7_eq]
  iintro ⟨⟨⟨HS8, HS9⟩, HR⟩, Hg⟩
  isplitl [HS8 HS9 HR]
  · isplitl [HS8 HS9]
    · isplitl [HS8]
      · iexists _; iexact HS8
      iexists _; iexact HS9
    iexact HR
  iexact Hg

end Cert.Kernel.Hand

end
-- ==== Proof.Bits.Act8.lean ====
/-
  The normalisation and rectifier of layer three (pallas_call 8 of the kernel as printed) on ten blocks of 5000 rows of
  width 64: each grid point reads its block of pre (window 0) and the one-row mean, variance, scale and shift
  (windows 1 to 4, the same block at every point, fetched once) and stores g · ((pre − mean) · rsqrt(var + eps)) + be
  passed through the exponential linear unit into window 5. At a parameter V and any float instance: what the body
  leaves, its triple, the proof data and the body obligation at every point.
-/
import proofs.«169495_j53601191854606_1_alg».proof.Proof.Gen.Kernel.Launch
import proofs.«169495_j53601191854606_1_alg».proof.Proof.Gen.Kernel.Skeleton
import proofs.«169495_j53601191854606_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Each input's block sits in its current staging buffer at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = blk8 V c 0 t) (t : Fin cfg8.N) (d) : dat.before 0 t d = blk8 V c 0 t :=
  (dat.before_in_eq_fetched 0 rfl (fun _ => rfl) (fun _ _ _ => rfl) (fun t => by rw [hafter]; unfold Dat.blockOf blk8; rw [hA]; try rfl) t d).trans
    (by unfold Dat.fetched Dat.blockOf blk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = blk8 V c 1 t) (t : Fin cfg8.N) (d) : dat.before 1 t d = blk8 V c 1 t :=
  (dat.before_in_eq_fetched 1 rfl (fun _ => rfl) (fun _ _ _ => rfl) (fun t => by rw [hafter]; unfold Dat.blockOf blk8; rw [hA]; try rfl) t d).trans
    (by unfold Dat.fetched Dat.blockOf blk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = blk8 V c 2 t) (t : Fin cfg8.N) (d) : dat.before 2 t d = blk8 V c 2 t :=
  (dat.before_in_eq_fetched 2 rfl (fun _ => rfl) (fun _ _ _ => rfl) (fun t => by rw [hafter]; unfold Dat.blockOf blk8; rw [hA]; try rfl) t d).trans
    (by unfold Dat.fetched Dat.blockOf blk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = blk8 V c 3 t) (t : Fin cfg8.N) (d) : dat.before 3 t d = blk8 V c 3 t :=
  (dat.before_in_eq_fetched 3 rfl (fun _ => rfl) (fun _ _ _ => rfl) (fun t => by rw [hafter]; unfold Dat.blockOf blk8; rw [hA]; try rfl) t d).trans
    (by unfold Dat.fetched Dat.blockOf blk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = blk8 V c 4 t) (t : Fin cfg8.N) (d) : dat.before 4 t d = blk8 V c 4 t :=
  (dat.before_in_eq_fetched 4 rfl (fun _ => rfl) (fun _ _ _ => rfl) (fun t => by rw [hafter]; unfold Dat.blockOf blk8; rw [hA]; try rfl) t d).trans
    (by unfold Dat.fetched Dat.blockOf blk8; rw [hA]; try rfl)

/-- The output buffer after the body, from the loaded input blocks: one store through the whole block. -/
def act8 (x0 : Vec F S5000x64 .f32) (x1 : Vec F S1x64 .f32) (x2 : Vec F S1x64 .f32) (x3 : Vec F S1x64 .f32) (x4 : Vec F S1x64 .f32) : Vec F S5000x64 .f32 :=
  View.canon [⟨Rect.unit (s := S5000x64) ![0, 0] S5000x64.size inb_S5000x64_S5000x64_0_0, k8_pay1 (View.ld x0 (Rect.unit (s := S5000x64) ![0, 0] S5000x64.size inb_S5000x64_S5000x64_0_0)) (View.ld x1 (Rect.unit (s := S1x64) ![0, 0] S1x64.size inb_S1x64_S1x64_0_0)) (View.ld x2 (Rect.unit (s := S1x64) ![0, 0] S1x64.size inb_S1x64_S1x64_0_0)) (View.ld x3 (Rect.unit (s := S1x64) ![0, 0] S1x64.size inb_S1x64_S1x64_0_0)) (View.ld x4 (Rect.unit (s := S1x64) ![0, 0] S1x64.size inb_S1x64_S1x64_0_0))⟩]

theorem cover_act8 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 1000000 in
/-- The body on whole staging buffers: inputs kept, the output stored. -/
theorem sound_act8 (c : Dev nD) (E : Set ℕ) (i : grid8.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (act8 x0 x1 x2 x3 x4)) -∗ K ⟨⟩))
      ⊢ wp frame (wpE (defs₀ (F := F)) Variants.none c none) E (cc8__norm_elu_kernel i arg1 harg1 arg2 harg2 arg3 harg3 arg4 harg4 arg5 harg5 arg6 harg6) K := by
  simp only [cc8__norm_elu_kernel_eq_skeleton]; unfold cc8__norm_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover_act8 _)

/-- The proof data of the call: arrays as found; after the body each input buffer still at its block, the output
    buffer at what the body stores; nothing carried, nothing owed. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => blk8 V c 2 t
    | ⟨3, _⟩ => blk8 V c 3 t
    | ⟨4, _⟩ => blk8 V c 4 t
    | ⟨5, _⟩ => act8 (blk8 V c 0 t) (blk8 V c 1 t) (blk8 V c 2 t) (blk8 V c 3 t) (blk8 V c 4 t)
  Φ _ := Pipeline.ΦA spec8 c
  q _ := fullShare
  owed _ := 0

theorem dat8_A (c : Dev nD) (w : Fin cfg8.W) : (dat8 V c).A w = V c (Pipeline.arrRef spec8 w) := by
  dsimp only [dat8]

theorem dat8_after_0 (c : Dev nD) (t : Fin cfg8.N) : (dat8 V c).after 0 t = blk8 V c 0 t := by dsimp only [dat8]
theorem dat8_after_1 (c : Dev nD) (t : Fin cfg8.N) : (dat8 V c).after 1 t = blk8 V c 1 t := by dsimp only [dat8]
theorem dat8_after_2 (c : Dev nD) (t : Fin cfg8.N) : (dat8 V c).after 2 t = blk8 V c 2 t := by dsimp only [dat8]
theorem dat8_after_3 (c : Dev nD) (t : Fin cfg8.N) : (dat8 V c).after 3 t = blk8 V c 3 t := by dsimp only [dat8]
theorem dat8_after_4 (c : Dev nD) (t : Fin cfg8.N) : (dat8 V c).after 4 t = blk8 V c 4 t := by dsimp only [dat8]
theorem dat8_after_5 (c : Dev nD) (t : Fin cfg8.N) :
    (dat8 V c).after 5 t = act8 (blk8 V c 0 t) (blk8 V c 1 t) (blk8 V c 2 t) (blk8 V c 3 t) (blk8 V c 4 t) := by dsimp only [dat8]

theorem dat8_before_0 (c : Dev nD) (t : Fin cfg8.N) (d) : (dat8 V c).before 0 t d = blk8 V c 0 t :=
  before8_0_of V (dat8 V c) (dat8_A V c 0) (dat8_after_0 V c) t d
theorem dat8_before_1 (c : Dev nD) (t : Fin cfg8.N) (d) : (dat8 V c).before 1 t d = blk8 V c 1 t :=
  before8_1_of V (dat8 V c) (dat8_A V c 1) (dat8_after_1 V c) t d
theorem dat8_before_2 (c : Dev nD) (t : Fin cfg8.N) (d) : (dat8 V c).before 2 t d = blk8 V c 2 t :=
  before8_2_of V (dat8 V c) (dat8_A V c 2) (dat8_after_2 V c) t d
theorem dat8_before_3 (c : Dev nD) (t : Fin cfg8.N) (d) : (dat8 V c).before 3 t d = blk8 V c 3 t :=
  before8_3_of V (dat8 V c) (dat8_A V c 3) (dat8_after_3 V c) t d
theorem dat8_before_4 (c : Dev nD) (t : Fin cfg8.N) (d) : (dat8 V c).before 4 t d = blk8 V c 4 t :=
  before8_4_of V (dat8 V c) (dat8_A V c 4) (dat8_after_4 V c) t d

def enter8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def leave8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_point8 (c : Dev nD) (t : Fin cfg8.N) :
    enter8 V c t ⊢ wp frame (wpE (defs₀ (F := F)) Variants.none c none) Set.univ (bodyAt8 t) (fun _ => leave8 V c t) := by
  unfold enter8 leave8 bodyAt8
  simp only [dat8_before_0, dat8_before_1, dat8_before_2, dat8_before_3, dat8_before_4]
  rw [show (dat8 V c).Φ t.succ = (dat8 V c).Φ t.castSucc from rfl,
    show (dat8 V c).owesAt () t.succ = (dat8 V c).owesAt () t.castSucc from rfl,
    dat8_after_0, dat8_after_1, dat8_after_2, dat8_after_3, dat8_after_4, dat8_after_5]
  iintro ⟨HΦ, Ho, ⟨%d0, H0⟩, ⟨%d1, H1⟩, ⟨%d2, H2⟩, ⟨%d3, H3⟩, ⟨%d4, H4⟩, ⟨%d5, H5⟩⟩
  iapply (sound_act8 c Set.univ _ _ _ _ _ _ _ _ _ _ _ _ _ (blk8 V c 0 t) (blk8 V c 1 t) (blk8 V c 2 t) (blk8 V c 3 t) (blk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem obligation8 (c : Dev nD) : BodyObligation (dat8 (F := F) V c) (defs₀ (F := F)) Variants.none () Set.univ := fun t => by
  rw [bigSep_W8, bigSep_W8]
  exact sound_point8 V c t

end Cert.Kernel.Hand

end
-- ==== Proof.Bits.RunData.lean ====
/-
  The printed kernel's @main as sixteen items — seven stretches of host operations and nine pallas_calls — and
  what every buffer holds between two items: the launch memory, then each host stretch's operations applied, then
  each call's window arrays at what its write-backs leave and every other buffer as the call found it. With it: per
  call the two exit facts (its arrays hold the proof data's final contents; nothing else moved), every call's proof
  data at its entry contents as one family, and the thread state that rides beside the buffers.
-/
import proofs.«169495_j53601191854606_1_alg».proof.Proof.Gen.Kernel.Regions
import proofs.«169495_j53601191854606_1_alg».proof.Proof.Bits.Product0
import proofs.«169495_j53601191854606_1_alg».proof.Proof.Bits.Stats1Body
import proofs.«169495_j53601191854606_1_alg».proof.Proof.Bits.Act2
import proofs.«169495_j53601191854606_1_alg».proof.Proof.Bits.Product3
import proofs.«169495_j53601191854606_1_alg».proof.Proof.Bits.Stats4Body
import proofs.«169495_j53601191854606_1_alg».proof.Proof.Bits.Act5
import proofs.«169495_j53601191854606_1_alg».proof.Proof.Bits.Product6
import proofs.«169495_j53601191854606_1_alg».proof.Proof.Bits.Stats7Body
import proofs.«169495_j53601191854606_1_alg».proof.Proof.Bits.Act8

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev B0 : Dev nD → Valuation τ sig (Elt F) := fun c b => (s₀ m ρ).mem ((c : Dev nD), b)
/-- After the host stretch hostOps0. -/
abbrev B1 : Dev nD → Valuation τ sig (Elt F) := fun c => StableHlo.after hostOps0 (B0 m ρ c)
/-- The contents pallas_call 0 is entered from, read at the TensorCore's references. -/
abbrev C1 : (c : Dev nD) → (b : Ref sig .tc) → Buf (Elt F) ((c : Thread nD τ).loc b) := fun c b => B1 m ρ c b
/-- After pallas_call 0: its windows' arrays at what the write-backs leave, every other buffer as entered. -/
def B2 (c : Dev nD) : Valuation τ sig (Elt F) :=
  Pipeline.withArrays spec0 c (B1 m ρ c) fun w => (dat0 (C1 m ρ) c).arrAt w cfg0.N
theorem B2_arr (c : Dev nD) (w : Fin cfg0.W) :
    B2 m ρ c (Proc.devRef .tc (Pipeline.arrRef spec0 w)) = (dat0 (C1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev X2 : (c : Dev nD) → (b : Ref sig .tc) → Buf (Elt F) ((c : Thread nD τ).loc b) := fun c b => B2 m ρ c b
theorem exit0_arr (c : Dev nD) (w : Fin cfg0.W) : (dat0 (C1 m ρ) c).arrAt w cfg0.N = X2 m ρ c (Pipeline.arrRef spec0 w) :=
  (B2_arr m ρ c w).symm
theorem exit0_rest (c : Dev nD) : ∀ b, b ∉ Finset.univ.image (Pipeline.arrRef spec0) → X2 m ρ c b = C1 m ρ c b :=
  fun b hb => B2_of_ne m ρ c b fun w e => hb (Finset.mem_image.mpr ⟨w, Finset.mem_univ _, e⟩)
/-- After the host stretch hostOps1. -/
abbrev B3 : Dev nD → Valuation τ sig (Elt F) := fun c => StableHlo.after hostOps1 (B2 m ρ c)
/-- The contents pallas_call 1 is entered from, read at the TensorCore's references. -/
abbrev C3 : (c : Dev nD) → (b : Ref sig .tc) → Buf (Elt F) ((c : Thread nD τ).loc b) := fun c b => B3 m ρ c b
/-- After pallas_call 1: its windows' arrays at what the write-backs leave, every other buffer as entered. -/
def B4 (c : Dev nD) : Valuation τ sig (Elt F) :=
  Pipeline.withArrays spec1 c (B3 m ρ c) fun w => (dat1 (C3 m ρ) c).arrAt w cfg1.N
theorem B4_arr (c : Dev nD) (w : Fin cfg1.W) :
    B4 m ρ c (Proc.devRef .tc (Pipeline.arrRef spec1 w)) = (dat1 (C3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev X4 : (c : Dev nD) → (b : Ref sig .tc) → Buf (Elt F) ((c : Thread nD τ).loc b) := fun c b => B4 m ρ c b
theorem exit1_arr (c : Dev nD) (w : Fin cfg1.W) : (dat1 (C3 m ρ) c).arrAt w cfg1.N = X4 m ρ c (Pipeline.arrRef spec1 w) :=
  (B4_arr m ρ c w).symm
theorem exit1_rest (c : Dev nD) : ∀ b, b ∉ Finset.univ.image (Pipeline.arrRef spec1) → X4 m ρ c b = C3 m ρ c b :=
  fun b hb => B4_of_ne m ρ c b fun w e => hb (Finset.mem_image.mpr ⟨w, Finset.mem_univ _, e⟩)
/-- After the host stretch hostOps2. -/
abbrev B5 : Dev nD → Valuation τ sig (Elt F) := fun c => StableHlo.after hostOps2 (B4 m ρ c)
/-- The contents pallas_call 2 is entered from, read at the TensorCore's references. -/
abbrev C5 : (c : Dev nD) → (b : Ref sig .tc) → Buf (Elt F) ((c : Thread nD τ).loc b) := fun c b => B5 m ρ c b
/-- After pallas_call 2: its windows' arrays at what the write-backs leave, every other buffer as entered. -/
def B6 (c : Dev nD) : Valuation τ sig (Elt F) :=
  Pipeline.withArrays spec2 c (B5 m ρ c) fun w => (dat2 (C5 m ρ) c).arrAt w cfg2.N
theorem B6_arr (c : Dev nD) (w : Fin cfg2.W) :
    B6 m ρ c (Proc.devRef .tc (Pipeline.arrRef spec2 w)) = (dat2 (C5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev X6 : (c : Dev nD) → (b : Ref sig .tc) → Buf (Elt F) ((c : Thread nD τ).loc b) := fun c b => B6 m ρ c b
theorem exit2_arr (c : Dev nD) (w : Fin cfg2.W) : (dat2 (C5 m ρ) c).arrAt w cfg2.N = X6 m ρ c (Pipeline.arrRef spec2 w) :=
  (B6_arr m ρ c w).symm
theorem exit2_rest (c : Dev nD) : ∀ b, b ∉ Finset.univ.image (Pipeline.arrRef spec2) → X6 m ρ c b = C5 m ρ c b :=
  fun b hb => B6_of_ne m ρ c b fun w e => hb (Finset.mem_image.mpr ⟨w, Finset.mem_univ _, e⟩)
/-- The contents pallas_call 3 is entered from, read at the TensorCore's references. -/
abbrev C6 : (c : Dev nD) → (b : Ref sig .tc) → Buf (Elt F) ((c : Thread nD τ).loc b) := fun c b => B6 m ρ c b
/-- After pallas_call 3: its windows' arrays at what the write-backs leave, every other buffer as entered. -/
def B7 (c : Dev nD) : Valuation τ sig (Elt F) :=
  Pipeline.withArrays spec3 c (B6 m ρ c) fun w => (dat3 (C6 m ρ) c).arrAt w cfg3.N
theorem B7_arr (c : Dev nD) (w : Fin cfg3.W) :
    B7 m ρ c (Proc.devRef .tc (Pipeline.arrRef spec3 w)) = (dat3 (C6 m ρ) c).arrAt w cfg3.N := by
  unfold B7; exact Pipeline.withArrays_arr spec3 launch3.win.arr_inj c _ _ w
theorem B7_of_ne (c : Dev nD) (b : Ref sig .tc) (hb : ∀ w, Pipeline.arrRef spec3 w ≠ b) :
    B7 m ρ c (Proc.devRef .tc b) = B6 m ρ c (Proc.devRef .tc b) := by
  unfold B7; exact Pipeline.withArrays_of_ne spec3 c _ _ b hb
abbrev X7 : (c : Dev nD) → (b : Ref sig .tc) → Buf (Elt F) ((c : Thread nD τ).loc b) := fun c b => B7 m ρ c b
theorem exit3_arr (c : Dev nD) (w : Fin cfg3.W) : (dat3 (C6 m ρ) c).arrAt w cfg3.N = X7 m ρ c (Pipeline.arrRef spec3 w) :=
  (B7_arr m ρ c w).symm
theorem exit3_rest (c : Dev nD) : ∀ b, b ∉ Finset.univ.image (Pipeline.arrRef spec3) → X7 m ρ c b = C6 m ρ c b :=
  fun b hb => B7_of_ne m ρ c b fun w e => hb (Finset.mem_image.mpr ⟨w, Finset.mem_univ _, e⟩)
/-- After the host stretch hostOps4. -/
abbrev B8 : Dev nD → Valuation τ sig (Elt F) := fun c => StableHlo.after hostOps4 (B7 m ρ c)
/-- The contents pallas_call 4 is entered from, read at the TensorCore's references. -/
abbrev C8 : (c : Dev nD) → (b : Ref sig .tc) → Buf (Elt F) ((c : Thread nD τ).loc b) := fun c b => B8 m ρ c b
/-- After pallas_call 4: its windows' arrays at what the write-backs leave, every other buffer as entered. -/
def B9 (c : Dev nD) : Valuation τ sig (Elt F) :=
  Pipeline.withArrays spec4 c (B8 m ρ c) fun w => (dat4 (C8 m ρ) c).arrAt w cfg4.N
theorem B9_arr (c : Dev nD) (w : Fin cfg4.W) :
    B9 m ρ c (Proc.devRef .tc (Pipeline.arrRef spec4 w)) = (dat4 (C8 m ρ) c).arrAt w cfg4.N := by
  unfold B9; exact Pipeline.withArrays_arr spec4 launch4.win.arr_inj c _ _ w
theorem B9_of_ne (c : Dev nD) (b : Ref sig .tc) (hb : ∀ w, Pipeline.arrRef spec4 w ≠ b) :
    B9 m ρ c (Proc.devRef .tc b) = B8 m ρ c (Proc.devRef .tc b) := by
  unfold B9; exact Pipeline.withArrays_of_ne spec4 c _ _ b hb
abbrev X9 : (c : Dev nD) → (b : Ref sig .tc) → Buf (Elt F) ((c : Thread nD τ).loc b) := fun c b => B9 m ρ c b
theorem exit4_arr (c : Dev nD) (w : Fin cfg4.W) : (dat4 (C8 m ρ) c).arrAt w cfg4.N = X9 m ρ c (Pipeline.arrRef spec4 w) :=
  (B9_arr m ρ c w).symm
theorem exit4_rest (c : Dev nD) : ∀ b, b ∉ Finset.univ.image (Pipeline.arrRef spec4) → X9 m ρ c b = C8 m ρ c b :=
  fun b hb => B9_of_ne m ρ c b fun w e => hb (Finset.mem_image.mpr ⟨w, Finset.mem_univ _, e⟩)
/-- After the host stretch hostOps5. -/
abbrev B10 : Dev nD → Valuation τ sig (Elt F) := fun c => StableHlo.after hostOps5 (B9 m ρ c)
/-- The contents pallas_call 5 is entered from, read at the TensorCore's references. -/
abbrev C10 : (c : Dev nD) → (b : Ref sig .tc) → Buf (Elt F) ((c : Thread nD τ).loc b) := fun c b => B10 m ρ c b
/-- After pallas_call 5: its windows' arrays at what the write-backs leave, every other buffer as entered. -/
def B11 (c : Dev nD) : Valuation τ sig (Elt F) :=
  Pipeline.withArrays spec5 c (B10 m ρ c) fun w => (dat5 (C10 m ρ) c).arrAt w cfg5.N
theorem B11_arr (c : Dev nD) (w : Fin cfg5.W) :
    B11 m ρ c (Proc.devRef .tc (Pipeline.arrRef spec5 w)) = (dat5 (C10 m ρ) c).arrAt w cfg5.N := by
  unfold B11; exact Pipeline.withArrays_arr spec5 launch5.win.arr_inj c _ _ w
theorem B11_of_ne (c : Dev nD) (b : Ref sig .tc) (hb : ∀ w, Pipeline.arrRef spec5 w ≠ b) :
    B11 m ρ c (Proc.devRef .tc b) = B10 m ρ c (Proc.devRef .tc b) := by
  unfold B11; exact Pipeline.withArrays_of_ne spec5 c _ _ b hb
abbrev X11 : (c : Dev nD) → (b : Ref sig .tc) → Buf (Elt F) ((c : Thread nD τ).loc b) := fun c b => B11 m ρ c b
theorem exit5_arr (c : Dev nD) (w : Fin cfg5.W) : (dat5 (C10 m ρ) c).arrAt w cfg5.N = X11 m ρ c (Pipeline.arrRef spec5 w) :=
  (B11_arr m ρ c w).symm
theorem exit5_rest (c : Dev nD) : ∀ b, b ∉ Finset.univ.image (Pipeline.arrRef spec5) → X11 m ρ c b = C10 m ρ c b :=
  fun b hb => B11_of_ne m ρ c b fun w e => hb (Finset.mem_image.mpr ⟨w, Finset.mem_univ _, e⟩)
/-- The contents pallas_call 6 is entered from, read at the TensorCore's references. -/
abbrev C11 : (c : Dev nD) → (b : Ref sig .tc) → Buf (Elt F) ((c : Thread nD τ).loc b) := fun c b => B11 m ρ c b
/-- After pallas_call 6: its windows' arrays at what the write-backs leave, every other buffer as entered. -/
def B12 (c : Dev nD) : Valuation τ sig (Elt F) :=
  Pipeline.withArrays spec6 c (B11 m ρ c) fun w => (dat6 (C11 m ρ) c).arrAt w cfg6.N
theorem B12_arr (c : Dev nD) (w : Fin cfg6.W) :
    B12 m ρ c (Proc.devRef .tc (Pipeline.arrRef spec6 w)) = (dat6 (C11 m ρ) c).arrAt w cfg6.N := by
  unfold B12; exact Pipeline.withArrays_arr spec6 launch6.win.arr_inj c _ _ w
theorem B12_of_ne (c : Dev nD) (b : Ref sig .tc) (hb : ∀ w, Pipeline.arrRef spec6 w ≠ b) :
    B12 m ρ c (Proc.devRef .tc b) = B11 m ρ c (Proc.devRef .tc b) := by
  unfold B12; exact Pipeline.withArrays_of_ne spec6 c _ _ b hb
abbrev X12 : (c : Dev nD) → (b : Ref sig .tc) → Buf (Elt F) ((c : Thread nD τ).loc b) := fun c b => B12 m ρ c b
theorem exit6_arr (c : Dev nD) (w : Fin cfg6.W) : (dat6 (C11 m ρ) c).arrAt w cfg6.N = X12 m ρ c (Pipeline.arrRef spec6 w) :=
  (B12_arr m ρ c w).symm
theorem exit6_rest (c : Dev nD) : ∀ b, b ∉ Finset.univ.image (Pipeline.arrRef spec6) → X12 m ρ c b = C11 m ρ c b :=
  fun b hb => B12_of_ne m ρ c b fun w e => hb (Finset.mem_image.mpr ⟨w, Finset.mem_univ _, e⟩)
/-- After the host stretch hostOps7. -/
abbrev B13 : Dev nD → Valuation τ sig (Elt F) := fun c => StableHlo.after hostOps7 (B12 m ρ c)
/-- The contents pallas_call 7 is entered from, read at the TensorCore's references. -/
abbrev C13 : (c : Dev nD) → (b : Ref sig .tc) → Buf (Elt F) ((c : Thread nD τ).loc b) := fun c b => B13 m ρ c b
/-- After pallas_call 7: its windows' arrays at what the write-backs leave, every other buffer as entered. -/
def B14 (c : Dev nD) : Valuation τ sig (Elt F) :=
  Pipeline.withArrays spec7 c (B13 m ρ c) fun w => (dat7 (C13 m ρ) c).arrAt w cfg7.N
theorem B14_arr (c : Dev nD) (w : Fin cfg7.W) :
    B14 m ρ c (Proc.devRef .tc (Pipeline.arrRef spec7 w)) = (dat7 (C13 m ρ) c).arrAt w cfg7.N := by
  unfold B14; exact Pipeline.withArrays_arr spec7 launch7.win.arr_inj c _ _ w
theorem B14_of_ne (c : Dev nD) (b : Ref sig .tc) (hb : ∀ w, Pipeline.arrRef spec7 w ≠ b) :
    B14 m ρ c (Proc.devRef .tc b) = B13 m ρ c (Proc.devRef .tc b) := by
  unfold B14; exact Pipeline.withArrays_of_ne spec7 c _ _ b hb
abbrev X14 : (c : Dev nD) → (b : Ref sig .tc) → Buf (Elt F) ((c : Thread nD τ).loc b) := fun c b => B14 m ρ c b
theorem exit7_arr (c : Dev nD) (w : Fin cfg7.W) : (dat7 (C13 m ρ) c).arrAt w cfg7.N = X14 m ρ c (Pipeline.arrRef spec7 w) :=
  (B14_arr m ρ c w).symm
theorem exit7_rest (c : Dev nD) : ∀ b, b ∉ Finset.univ.image (Pipeline.arrRef spec7) → X14 m ρ c b = C13 m ρ c b :=
  fun b hb => B14_of_ne m ρ c b fun w e => hb (Finset.mem_image.mpr ⟨w, Finset.mem_univ _, e⟩)
/-- After the host stretch hostOps8. -/
abbrev B15 : Dev nD → Valuation τ sig (Elt F) := fun c => StableHlo.after hostOps8 (B14 m ρ c)
/-- The contents pallas_call 8 is entered from, read at the TensorCore's references. -/
abbrev C15 : (c : Dev nD) → (b : Ref sig .tc) → Buf (Elt F) ((c : Thread nD τ).loc b) := fun c b => B15 m ρ c b
/-- After pallas_call 8: its windows' arrays at what the write-backs leave, every other buffer as entered. -/
def B16 (c : Dev nD) : Valuation τ sig (Elt F) :=
  Pipeline.withArrays spec8 c (B15 m ρ c) fun w => (dat8 (C15 m ρ) c).arrAt w cfg8.N
theorem B16_arr (c : Dev nD) (w : Fin cfg8.W) :
    B16 m ρ c (Proc.devRef .tc (Pipeline.arrRef spec8 w)) = (dat8 (C15 m ρ) c).arrAt w cfg8.N := by
  unfold B16; exact Pipeline.withArrays_arr spec8 launch8.win.arr_inj c _ _ w
theorem B16_of_ne (c : Dev nD) (b : Ref sig .tc) (hb : ∀ w, Pipeline.arrRef spec8 w ≠ b) :
    B16 m ρ c (Proc.devRef .tc b) = B15 m ρ c (Proc.devRef .tc b) := by
  unfold B16; exact Pipeline.withArrays_of_ne spec8 c _ _ b hb
abbrev X16 : (c : Dev nD) → (b : Ref sig .tc) → Buf (Elt F) ((c : Thread nD τ).loc b) := fun c b => B16 m ρ c b
theorem exit8_arr (c : Dev nD) (w : Fin cfg8.W) : (dat8 (C15 m ρ) c).arrAt w cfg8.N = X16 m ρ c (Pipeline.arrRef spec8 w) :=
  (B16_arr m ρ c w).symm
theorem exit8_rest (c : Dev nD) : ∀ b, b ∉ Finset.univ.image (Pipeline.arrRef spec8) → X16 m ρ c b = C15 m ρ c b :=
  fun b hb => B16_of_ne m ρ c b fun w e => hb (Finset.mem_image.mpr ⟨w, Finset.mem_univ _, e⟩)

/-- No pallas_call has a prefetched table. -/
abbrev noTables : (p : Fin 9) → (pcfgs (F := F) p).Adm := fun p => (cfgs p).toPCfg_adm

/-- Every call's proof data, each at its entry contents — a literal match, so that the pinned configuration at a
    numeral reduces to the printed one. -/
def pdats : (p : Fin 9) → (c : Dev nD) → Dat τ (Elt F) Unit ℕ (UR sig nD τ) ℕ (Pipeline.pin (pcfgs (F := F)) noTables p) c
  | ⟨0, _⟩ => fun c => dat0 (C1 m ρ) c
  | ⟨1, _⟩ => fun c => dat1 (C3 m ρ) c
  | ⟨2, _⟩ => fun c => dat2 (C5 m ρ) c
  | ⟨3, _⟩ => fun c => dat3 (C6 m ρ) c
  | ⟨4, _⟩ => fun c => dat4 (C8 m ρ) c
  | ⟨5, _⟩ => fun c => dat5 (C10 m ρ) c
  | ⟨6, _⟩ => fun c => dat6 (C11 m ρ) c
  | ⟨7, _⟩ => fun c => dat7 (C13 m ρ) c
  | ⟨8, _⟩ => fun c => dat8 (C15 m ρ) c

abbrev noVariants : Variants := Variants.none
/-- No core owes another anything. -/
abbrev noLevels : GSem nD τ sig → Finset Unit := fun _ => ∅
abbrev levelZero : GSem nD τ sig → Unit → ℕ := fun _ _ => 0
/-- What rides beside the buffers through every item: the generator register at some state, nothing owed. -/
abbrev beside (c : Dev nD) : sProp 𝕄 := iprop((∃ r, prngReg c r) ∗ ∃ W, owes (c : Thread nD τ) (0 : CellTallies nD τ sig Unit) W)

/-- A host stretch as an item, from the contents W. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes: every unscoped buffer at the last contents, the generator register. -/
abbrev atEnd (c : Dev nD) : sProp 𝕄 := iprop(StableHlo.held (c : Thread nD τ) (Pipeline.ucRefs τ sig) (B16 m ρ c) ∗ ∃ r, prngReg c r)

end Cert.Kernel.Hand

end
-- ==== Proof.Bits.Item0.lean ====
/-
  pallas_call 0 of the kernel as printed as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Bits.RunData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item0 : Pipeline.RegionSeg (pcfgs (F := F)) noTables (pdats m ρ) () defs₀ noVariants noLevels levelZero 0 where
  win := launch0.win.to₀
  block_pos := launch0.block_pos
  stage_whole := launch0.stage_whole
  K := PEmpty
  osem k := k.elim
  ho := Pipeline.OwnSemFacts.none _
  hbody c := (obligation0 (C1 m ρ) c).loose
  hwaits := Pipeline.hwaits_of_owed_zero _ _ _ _ noLevels levelZero 0 fun _ _ => rfl
  pre c := iprop(StableHlo.held (c : Thread nD τ) (Pipeline.ucRefs τ sig) (B1 m ρ c) ∗ beside c)
  post c := iprop(StableHlo.held (c : Thread nD τ) (Pipeline.ucRefs τ sig) (B2 m ρ c) ∗ beside c)
  X c := iprop(∃ r, prngReg c r)
  Y c := iprop(∃ r, prngReg c r)
  Z c := Pipeline.unscopedRest (Ix := Unit) (Name := ℕ) (U := UR sig nD τ) (Lvl := ℕ) spec0 c (C1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (C1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (C1 m ρ c) (X2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Item1.lean ====
/-
  pallas_call 1 of the kernel as printed as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Bits.RunData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item1 : Pipeline.RegionSeg (pcfgs (F := F)) noTables (pdats m ρ) () defs₀ noVariants noLevels levelZero 1 where
  win := launch1.win.to₀
  block_pos := launch1.block_pos
  stage_whole := launch1.stage_whole
  K := PEmpty
  osem k := k.elim
  ho := Pipeline.OwnSemFacts.none _
  hbody c := (obligation1 (C3 m ρ) c).loose
  hwaits := Pipeline.hwaits_of_owed_zero _ _ _ _ noLevels levelZero 1 fun _ _ => rfl
  pre c := iprop(StableHlo.held (c : Thread nD τ) (Pipeline.ucRefs τ sig) (B3 m ρ c) ∗ beside c)
  post c := iprop(StableHlo.held (c : Thread nD τ) (Pipeline.ucRefs τ sig) (B4 m ρ c) ∗ beside c)
  X c := iprop(∃ r, prngReg c r)
  Y c := iprop(∃ r, prngReg c r)
  Z c := Pipeline.unscopedRest (Ix := Unit) (Name := ℕ) (U := UR sig nD τ) (Lvl := ℕ) spec1 c (C3 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (C3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from carry1_in (C3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from carry1_out (C3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (C3 m ρ c) (X4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Item2.lean ====
/-
  pallas_call 2 of the kernel as printed as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Bits.RunData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item2 : Pipeline.RegionSeg (pcfgs (F := F)) noTables (pdats m ρ) () defs₀ noVariants noLevels levelZero 2 where
  win := launch2.win.to₀
  block_pos := launch2.block_pos
  stage_whole := launch2.stage_whole
  K := PEmpty
  osem k := k.elim
  ho := Pipeline.OwnSemFacts.none _
  hbody c := (obligation2 (C5 m ρ) c).loose
  hwaits := Pipeline.hwaits_of_owed_zero _ _ _ _ noLevels levelZero 2 fun _ _ => rfl
  pre c := iprop(StableHlo.held (c : Thread nD τ) (Pipeline.ucRefs τ sig) (B5 m ρ c) ∗ beside c)
  post c := iprop(StableHlo.held (c : Thread nD τ) (Pipeline.ucRefs τ sig) (B6 m ρ c) ∗ beside c)
  X c := iprop(∃ r, prngReg c r)
  Y c := iprop(∃ r, prngReg c r)
  Z c := Pipeline.unscopedRest (Ix := Unit) (Name := ℕ) (U := UR sig nD τ) (Lvl := ℕ) spec2 c (C5 m ρ c)
  hentry c := by
    rw [Pipeline.ownSems0_none]
    have hsplit := Pipeline.arrays_of_unscopedBufs (p := 2) (pcfgs (F := F)) noTables (pdats m ρ) launch2.win launch2.arr_whole c
      ((pdats m ρ 2 c).share_full fun _ => rfl) (C5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m ρ) ((pdats m ρ 2 c).share_full fun _ => rfl)
      (C5 m ρ c) (X6 m ρ c) ((pdats m ρ 2 c).arrAt · cfg2.N) (exit2_arr m ρ c) (exit2_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Item3.lean ====
/-
  pallas_call 3 of the kernel as printed as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Bits.RunData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item3 : Pipeline.RegionSeg (pcfgs (F := F)) noTables (pdats m ρ) () defs₀ noVariants noLevels levelZero 3 where
  win := launch3.win.to₀
  block_pos := launch3.block_pos
  stage_whole := launch3.stage_whole
  K := PEmpty
  osem k := k.elim
  ho := Pipeline.OwnSemFacts.none _
  hbody c := (obligation3 (C6 m ρ) c).loose
  hwaits := Pipeline.hwaits_of_owed_zero _ _ _ _ noLevels levelZero 3 fun _ _ => rfl
  pre c := iprop(StableHlo.held (c : Thread nD τ) (Pipeline.ucRefs τ sig) (B6 m ρ c) ∗ beside c)
  post c := iprop(StableHlo.held (c : Thread nD τ) (Pipeline.ucRefs τ sig) (B7 m ρ c) ∗ beside c)
  X c := iprop(∃ r, prngReg c r)
  Y c := iprop(∃ r, prngReg c r)
  Z c := Pipeline.unscopedRest (Ix := Unit) (Name := ℕ) (U := UR sig nD τ) (Lvl := ℕ) spec3 c (C6 m ρ c)
  hentry c := by
    rw [Pipeline.ownSems0_none]
    have hsplit := Pipeline.arrays_of_unscopedBufs (p := 3) (pcfgs (F := F)) noTables (pdats m ρ) launch3.win launch3.arr_whole c
      ((pdats m ρ 3 c).share_full fun _ => rfl) (C6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (pdats m ρ) ((pdats m ρ 3 c).share_full fun _ => rfl)
      (C6 m ρ c) (X7 m ρ c) ((pdats m ρ 3 c).arrAt · cfg3.N) (exit3_arr m ρ c) (exit3_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Item4.lean ====
/-
  pallas_call 4 of the kernel as printed as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Bits.RunData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item4 : Pipeline.RegionSeg (pcfgs (F := F)) noTables (pdats m ρ) () defs₀ noVariants noLevels levelZero 4 where
  win := launch4.win.to₀
  block_pos := launch4.block_pos
  stage_whole := launch4.stage_whole
  K := PEmpty
  osem k := k.elim
  ho := Pipeline.OwnSemFacts.none _
  hbody c := (obligation4 (C8 m ρ) c).loose
  hwaits := Pipeline.hwaits_of_owed_zero _ _ _ _ noLevels levelZero 4 fun _ _ => rfl
  pre c := iprop(StableHlo.held (c : Thread nD τ) (Pipeline.ucRefs τ sig) (B8 m ρ c) ∗ beside c)
  post c := iprop(StableHlo.held (c : Thread nD τ) (Pipeline.ucRefs τ sig) (B9 m ρ c) ∗ beside c)
  X c := iprop(∃ r, prngReg c r)
  Y c := iprop(∃ r, prngReg c r)
  Z c := Pipeline.unscopedRest (Ix := Unit) (Name := ℕ) (U := UR sig nD τ) (Lvl := ℕ) spec4 c (C8 m ρ c)
  hentry c := by
    rw [Pipeline.ownSems0_none]
    have hsplit := Pipeline.arrays_of_unscopedBufs (p := 4) (pcfgs (F := F)) noTables (pdats m ρ) launch4.win launch4.arr_whole c
      ((pdats m ρ 4 c).share_full fun _ => rfl) (C8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec4 c ⊢ (pdats m ρ 4 c).Φ 0 from carry4_in (C8 m ρ) c)
    unfold Pipeline.ΦA
    iintro ⟨Hp, -, Hr⟩
    isplitl [Hr]; · iexact Hr
    iexact Hp
  hout c := by
    rw [Pipeline.ownSems0_none]
    refine BIBase.Entails.trans (show (pdats m ρ 4 c).Φ (Fin.last _) ⊢ Pipeline.ΦA spec4 c from carry4_out (C8 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) noTables (Ix := Unit) (Name := ℕ) (U := UR sig nD τ) (Lvl := ℕ)
      launch4.win launch4.arr_whole c (pdats m ρ) ((pdats m ρ 4 c).share_full fun _ => rfl)
      (C8 m ρ c) (X9 m ρ c) ((pdats m ρ 4 c).arrAt · cfg4.N) (exit4_arr m ρ c) (exit4_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Item5.lean ====
/-
  pallas_call 5 of the kernel as printed as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Bits.RunData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item5 : Pipeline.RegionSeg (pcfgs (F := F)) noTables (pdats m ρ) () defs₀ noVariants noLevels levelZero 5 where
  win := launch5.win.to₀
  block_pos := launch5.block_pos
  stage_whole := launch5.stage_whole
  K := PEmpty
  osem k := k.elim
  ho := Pipeline.OwnSemFacts.none _
  hbody c := (obligation5 (C10 m ρ) c).loose
  hwaits := Pipeline.hwaits_of_owed_zero _ _ _ _ noLevels levelZero 5 fun _ _ => rfl
  pre c := iprop(StableHlo.held (c : Thread nD τ) (Pipeline.ucRefs τ sig) (B10 m ρ c) ∗ beside c)
  post c := iprop(StableHlo.held (c : Thread nD τ) (Pipeline.ucRefs τ sig) (B11 m ρ c) ∗ beside c)
  X c := iprop(∃ r, prngReg c r)
  Y c := iprop(∃ r, prngReg c r)
  Z c := Pipeline.unscopedRest (Ix := Unit) (Name := ℕ) (U := UR sig nD τ) (Lvl := ℕ) spec5 c (C10 m ρ c)
  hentry c := by
    rw [Pipeline.ownSems0_none]
    have hsplit := Pipeline.arrays_of_unscopedBufs (p := 5) (pcfgs (F := F)) noTables (pdats m ρ) launch5.win launch5.arr_whole c
      ((pdats m ρ 5 c).share_full fun _ => rfl) (C10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) noTables (Ix := Unit) (Name := ℕ) (U := UR sig nD τ) (Lvl := ℕ)
      launch5.win launch5.arr_whole c (pdats m ρ) ((pdats m ρ 5 c).share_full fun _ => rfl)
      (C10 m ρ c) (X11 m ρ c) ((pdats m ρ 5 c).arrAt · cfg5.N) (exit5_arr m ρ c) (exit5_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Item6.lean ====
/-
  pallas_call 6 of the kernel as printed as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Bits.RunData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item6 : Pipeline.RegionSeg (pcfgs (F := F)) noTables (pdats m ρ) () defs₀ noVariants noLevels levelZero 6 where
  win := launch6.win.to₀
  block_pos := launch6.block_pos
  stage_whole := launch6.stage_whole
  K := PEmpty
  osem k := k.elim
  ho := Pipeline.OwnSemFacts.none _
  hbody c := (obligation6 (C11 m ρ) c).loose
  hwaits := Pipeline.hwaits_of_owed_zero _ _ _ _ noLevels levelZero 6 fun _ _ => rfl
  pre c := iprop(StableHlo.held (c : Thread nD τ) (Pipeline.ucRefs τ sig) (B11 m ρ c) ∗ beside c)
  post c := iprop(StableHlo.held (c : Thread nD τ) (Pipeline.ucRefs τ sig) (B12 m ρ c) ∗ beside c)
  X c := iprop(∃ r, prngReg c r)
  Y c := iprop(∃ r, prngReg c r)
  Z c := Pipeline.unscopedRest (Ix := Unit) (Name := ℕ) (U := UR sig nD τ) (Lvl := ℕ) spec6 c (C11 m ρ c)
  hentry c := by
    rw [Pipeline.ownSems0_none]
    have hsplit := Pipeline.arrays_of_unscopedBufs (p := 6) (pcfgs (F := F)) noTables (pdats m ρ) launch6.win launch6.arr_whole c
      ((pdats m ρ 6 c).share_full fun _ => rfl) (C11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) noTables (Ix := Unit) (Name := ℕ) (U := UR sig nD τ) (Lvl := ℕ)
      launch6.win launch6.arr_whole c (pdats m ρ) ((pdats m ρ 6 c).share_full fun _ => rfl)
      (C11 m ρ c) (X12 m ρ c) ((pdats m ρ 6 c).arrAt · cfg6.N) (exit6_arr m ρ c) (exit6_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Item7.lean ====
/-
  pallas_call 7 of the kernel as printed as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Bits.RunData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item7 : Pipeline.RegionSeg (pcfgs (F := F)) noTables (pdats m ρ) () defs₀ noVariants noLevels levelZero 7 where
  win := launch7.win.to₀
  block_pos := launch7.block_pos
  stage_whole := launch7.stage_whole
  K := PEmpty
  osem k := k.elim
  ho := Pipeline.OwnSemFacts.none _
  hbody c := (obligation7 (C13 m ρ) c).loose
  hwaits := Pipeline.hwaits_of_owed_zero _ _ _ _ noLevels levelZero 7 fun _ _ => rfl
  pre c := iprop(StableHlo.held (c : Thread nD τ) (Pipeline.ucRefs τ sig) (B13 m ρ c) ∗ beside c)
  post c := iprop(StableHlo.held (c : Thread nD τ) (Pipeline.ucRefs τ sig) (B14 m ρ c) ∗ beside c)
  X c := iprop(∃ r, prngReg c r)
  Y c := iprop(∃ r, prngReg c r)
  Z c := Pipeline.unscopedRest (Ix := Unit) (Name := ℕ) (U := UR sig nD τ) (Lvl := ℕ) spec7 c (C13 m ρ c)
  hentry c := by
    rw [Pipeline.ownSems0_none]
    have hsplit := Pipeline.arrays_of_unscopedBufs (p := 7) (pcfgs (F := F)) noTables (pdats m ρ) launch7.win launch7.arr_whole c
      ((pdats m ρ 7 c).share_full fun _ => rfl) (C13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec7 c ⊢ (pdats m ρ 7 c).Φ 0 from carry7_in (C13 m ρ) c)
    unfold Pipeline.ΦA
    iintro ⟨Hp, -, Hr⟩
    isplitl [Hr]; · iexact Hr
    iexact Hp
  hout c := by
    rw [Pipeline.ownSems0_none]
    refine BIBase.Entails.trans (show (pdats m ρ 7 c).Φ (Fin.last _) ⊢ Pipeline.ΦA spec7 c from carry7_out (C13 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) noTables (Ix := Unit) (Name := ℕ) (U := UR sig nD τ) (Lvl := ℕ)
      launch7.win launch7.arr_whole c (pdats m ρ) ((pdats m ρ 7 c).share_full fun _ => rfl)
      (C13 m ρ c) (X14 m ρ c) ((pdats m ρ 7 c).arrAt · cfg7.N) (exit7_arr m ρ c) (exit7_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Item8.lean ====
/-
  pallas_call 8 of the kernel as printed as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Bits.RunData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item8 : Pipeline.RegionSeg (pcfgs (F := F)) noTables (pdats m ρ) () defs₀ noVariants noLevels levelZero 8 where
  win := launch8.win.to₀
  block_pos := launch8.block_pos
  stage_whole := launch8.stage_whole
  K := PEmpty
  osem k := k.elim
  ho := Pipeline.OwnSemFacts.none _
  hbody c := (obligation8 (C15 m ρ) c).loose
  hwaits := Pipeline.hwaits_of_owed_zero _ _ _ _ noLevels levelZero 8 fun _ _ => rfl
  pre c := iprop(StableHlo.held (c : Thread nD τ) (Pipeline.ucRefs τ sig) (B15 m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (C15 m ρ c)
  hentry c := by
    rw [Pipeline.ownSems0_none]
    have hsplit := Pipeline.arrays_of_unscopedBufs (p := 8) (pcfgs (F := F)) noTables (pdats m ρ) launch8.win launch8.arr_whole c
      ((pdats m ρ 8 c).share_full fun _ => rfl) (C15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) noTables (Ix := Unit) (Name := ℕ) (U := UR sig nD τ) (Lvl := ℕ)
      launch8.win launch8.arr_whole c (pdats m ρ) ((pdats m ρ 8 c).share_full fun _ => rfl)
      (C15 m ρ c) (X16 m ρ c) ((pdats m ρ 8 c).arrAt · cfg8.N) (exit8_arr m ρ c) (exit8_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.Bits.Run.lean ====
/-
  The printed kernel's run. @main is the run of its sixteen items; from any memory with zero counters every weakly
  fair execution terminates, nothing faulting, with every unscoped buffer at the fold's last contents. Read at the
  argument arrays — which no host operation writes and no call changes (four of them are read through an input window,
  the others bypass every call) — that is the frame claim; read at the result buffer it names the result.
-/
import proofs.«169495_j53601191854606_1_alg».proof.Proof.Bits.RunData
import proofs.«169495_j53601191854606_1_alg».proof.Proof.Bits.Item0
import proofs.«169495_j53601191854606_1_alg».proof.Proof.Bits.Item1
import proofs.«169495_j53601191854606_1_alg».proof.Proof.Bits.Item2
import proofs.«169495_j53601191854606_1_alg».proof.Proof.Bits.Item3
import proofs.«169495_j53601191854606_1_alg».proof.Proof.Bits.Item4
import proofs.«169495_j53601191854606_1_alg».proof.Proof.Bits.Item5
import proofs.«169495_j53601191854606_1_alg».proof.Proof.Bits.Item6
import proofs.«169495_j53601191854606_1_alg».proof.Proof.Bits.Item7
import proofs.«169495_j53601191854606_1_alg».proof.Proof.Bits.Item8
import Idealize.ShloMosaic.Adequacy
import Idealize.ShloMosaic.Init

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev items : List (Pipeline.Seg (pcfgs (F := F)) noTables (pdats m ρ) () defs₀ noVariants noLevels levelZero) :=
  [ .host (hostItem hostOps0 hostOps0_sub hostOps0_fresh (B0 m ρ)),
    .region (item0 m ρ),
    .host (hostItem hostOps1 hostOps1_sub hostOps1_fresh (B2 m ρ)),
    .region (item1 m ρ),
    .host (hostItem hostOps2 hostOps2_sub hostOps2_fresh (B4 m ρ)),
    .region (item2 m ρ),
    .region (item3 m ρ),
    .host (hostItem hostOps4 hostOps4_sub hostOps4_fresh (B7 m ρ)),
    .region (item4 m ρ),
    .host (hostItem hostOps5 hostOps5_sub hostOps5_fresh (B9 m ρ)),
    .region (item5 m ρ),
    .region (item6 m ρ),
    .host (hostItem hostOps7 hostOps7_sub hostOps7_fresh (B12 m ρ)),
    .region (item7 m ρ),
    .host (hostItem hostOps8 hostOps8_sub hostOps8_fresh (B14 m ρ)),
    .region (item8 m ρ) ]

theorem main_items (c : Dev nD) : main (F := F) c = Pipeline.Seg.run (items m ρ) := (main_chain c).trans (by chain_rfl)

theorem kept_arg0 (c : Dev nD) : B16 m ρ c (Proc.devRef .tc main_arg0) = m ((c : Thread nD τ).loc main_arg0) :=
  calc B16 m ρ c (Proc.devRef .tc main_arg0)
    _ = B15 m ρ c (Proc.devRef .tc main_arg0) := B16_of_ne m ρ c main_arg0 (by decide)
    _ = B14 m ρ c (Proc.devRef .tc main_arg0) := StableHlo.after_of_writes_sub hostOps8 _ hostOps8_writes (by decide : main_arg0 ∉ hostOps8_W)
    _ = B13 m ρ c (Proc.devRef .tc main_arg0) := B14_of_ne m ρ c main_arg0 (by decide)
    _ = B12 m ρ c (Proc.devRef .tc main_arg0) := StableHlo.after_of_writes_sub hostOps7 _ hostOps7_writes (by decide : main_arg0 ∉ hostOps7_W)
    _ = B11 m ρ c (Proc.devRef .tc main_arg0) := B12_of_ne m ρ c main_arg0 (by decide)
    _ = B10 m ρ c (Proc.devRef .tc main_arg0) := B11_of_ne m ρ c main_arg0 (by decide)
    _ = B9 m ρ c (Proc.devRef .tc main_arg0) := StableHlo.after_of_writes_sub hostOps5 _ hostOps5_writes (by decide : main_arg0 ∉ hostOps5_W)
    _ = B8 m ρ c (Proc.devRef .tc main_arg0) := B9_of_ne m ρ c main_arg0 (by decide)
    _ = B7 m ρ c (Proc.devRef .tc main_arg0) := StableHlo.after_of_writes_sub hostOps4 _ hostOps4_writes (by decide : main_arg0 ∉ hostOps4_W)
    _ = B6 m ρ c (Proc.devRef .tc main_arg0) := B7_of_ne m ρ c main_arg0 (by decide)
    _ = B5 m ρ c (Proc.devRef .tc main_arg0) := B6_of_ne m ρ c main_arg0 (by decide)
    _ = B4 m ρ c (Proc.devRef .tc main_arg0) := StableHlo.after_of_writes_sub hostOps2 _ hostOps2_writes (by decide : main_arg0 ∉ hostOps2_W)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := (B2_arr m ρ c 0).trans (((dat0 (C1 m ρ) c).arrAt_in 0 rfl _).trans (dat0_A (C1 m ρ) c 0))
    _ = B0 m ρ c (Proc.devRef .tc main_arg0) := StableHlo.after_of_writes_sub hostOps0 _ hostOps0_writes (by decide : main_arg0 ∉ hostOps0_W)
    _ = m ((c : Thread nD τ).loc main_arg0) := rfl

theorem kept_arg1 (c : Dev nD) : B16 m ρ c (Proc.devRef .tc main_arg1) = m ((c : Thread nD τ).loc main_arg1) :=
  calc B16 m ρ c (Proc.devRef .tc main_arg1)
    _ = B15 m ρ c (Proc.devRef .tc main_arg1) := B16_of_ne m ρ c main_arg1 (by decide)
    _ = B14 m ρ c (Proc.devRef .tc main_arg1) := StableHlo.after_of_writes_sub hostOps8 _ hostOps8_writes (by decide : main_arg1 ∉ hostOps8_W)
    _ = B13 m ρ c (Proc.devRef .tc main_arg1) := B14_of_ne m ρ c main_arg1 (by decide)
    _ = B12 m ρ c (Proc.devRef .tc main_arg1) := StableHlo.after_of_writes_sub hostOps7 _ hostOps7_writes (by decide : main_arg1 ∉ hostOps7_W)
    _ = B11 m ρ c (Proc.devRef .tc main_arg1) := B12_of_ne m ρ c main_arg1 (by decide)
    _ = B10 m ρ c (Proc.devRef .tc main_arg1) := B11_of_ne m ρ c main_arg1 (by decide)
    _ = B9 m ρ c (Proc.devRef .tc main_arg1) := StableHlo.after_of_writes_sub hostOps5 _ hostOps5_writes (by decide : main_arg1 ∉ hostOps5_W)
    _ = B8 m ρ c (Proc.devRef .tc main_arg1) := B9_of_ne m ρ c main_arg1 (by decide)
    _ = B7 m ρ c (Proc.devRef .tc main_arg1) := StableHlo.after_of_writes_sub hostOps4 _ hostOps4_writes (by decide : main_arg1 ∉ hostOps4_W)
    _ = B6 m ρ c (Proc.devRef .tc main_arg1) := B7_of_ne m ρ c main_arg1 (by decide)
    _ = B5 m ρ c (Proc.devRef .tc main_arg1) := B6_of_ne m ρ c main_arg1 (by decide)
    _ = B4 m ρ c (Proc.devRef .tc main_arg1) := StableHlo.after_of_writes_sub hostOps2 _ hostOps2_writes (by decide : main_arg1 ∉ hostOps2_W)
    _ = B3 m ρ c (Proc.devRef .tc main_arg1) := B4_of_ne m ρ c main_arg1 (by decide)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl

theorem kept_arg2 (c : Dev nD) : B16 m ρ c (Proc.devRef .tc main_arg2) = m ((c : Thread nD τ).loc main_arg2) :=
  calc B16 m ρ c (Proc.devRef .tc main_arg2)
    _ = B15 m ρ c (Proc.devRef .tc main_arg2) := B16_of_ne m ρ c main_arg2 (by decide)
    _ = B14 m ρ c (Proc.devRef .tc main_arg2) := StableHlo.after_of_writes_sub hostOps8 _ hostOps8_writes (by decide : main_arg2 ∉ hostOps8_W)
    _ = B13 m ρ c (Proc.devRef .tc main_arg2) := B14_of_ne m ρ c main_arg2 (by decide)
    _ = B12 m ρ c (Proc.devRef .tc main_arg2) := StableHlo.after_of_writes_sub hostOps7 _ hostOps7_writes (by decide : main_arg2 ∉ hostOps7_W)
    _ = B11 m ρ c (Proc.devRef .tc main_arg2) := B12_of_ne m ρ c main_arg2 (by decide)
    _ = B10 m ρ c (Proc.devRef .tc main_arg2) := B11_of_ne m ρ c main_arg2 (by decide)
    _ = B9 m ρ c (Proc.devRef .tc main_arg2) := StableHlo.after_of_writes_sub hostOps5 _ hostOps5_writes (by decide : main_arg2 ∉ hostOps5_W)
    _ = B8 m ρ c (Proc.devRef .tc main_arg2) := B9_of_ne m ρ c main_arg2 (by decide)
    _ = B7 m ρ c (Proc.devRef .tc main_arg2) := StableHlo.after_of_writes_sub hostOps4 _ hostOps4_writes (by decide : main_arg2 ∉ hostOps4_W)
    _ = B6 m ρ c (Proc.devRef .tc main_arg2) := B7_of_ne m ρ c main_arg2 (by decide)
    _ = B5 m ρ c (Proc.devRef .tc main_arg2) := B6_of_ne m ρ c main_arg2 (by decide)
    _ = B4 m ρ c (Proc.devRef .tc main_arg2) := StableHlo.after_of_writes_sub hostOps2 _ hostOps2_writes (by decide : main_arg2 ∉ hostOps2_W)
    _ = B3 m ρ c (Proc.devRef .tc main_arg2) := B4_of_ne m ρ c main_arg2 (by decide)
    _ = B2 m ρ c (Proc.devRef .tc main_arg2) := StableHlo.after_of_writes_sub hostOps1 _ hostOps1_writes (by decide : main_arg2 ∉ hostOps1_W)
    _ = B1 m ρ c (Proc.devRef .tc main_arg2) := (B2_arr m ρ c 1).trans (((dat0 (C1 m ρ) c).arrAt_in 1 rfl _).trans (dat0_A (C1 m ρ) c 1))
    _ = B0 m ρ c (Proc.devRef .tc main_arg2) := StableHlo.after_of_writes_sub hostOps0 _ hostOps0_writes (by decide : main_arg2 ∉ hostOps0_W)
    _ = m ((c : Thread nD τ).loc main_arg2) := rfl

theorem kept_arg3 (c : Dev nD) : B16 m ρ c (Proc.devRef .tc main_arg3) = m ((c : Thread nD τ).loc main_arg3) :=
  calc B16 m ρ c (Proc.devRef .tc main_arg3)
    _ = B15 m ρ c (Proc.devRef .tc main_arg3) := B16_of_ne m ρ c main_arg3 (by decide)
    _ = B14 m ρ c (Proc.devRef .tc main_arg3) := StableHlo.after_of_writes_sub hostOps8 _ hostOps8_writes (by decide : main_arg3 ∉ hostOps8_W)
    _ = B13 m ρ c (Proc.devRef .tc main_arg3) := B14_of_ne m ρ c main_arg3 (by decide)
    _ = B12 m ρ c (Proc.devRef .tc main_arg3) := StableHlo.after_of_writes_sub hostOps7 _ hostOps7_writes (by decide : main_arg3 ∉ hostOps7_W)
    _ = B11 m ρ c (Proc.devRef .tc main_arg3) := B12_of_ne m ρ c main_arg3 (by decide)
    _ = B10 m ρ c (Proc.devRef .tc main_arg3) := B11_of_ne m ρ c main_arg3 (by decide)
    _ = B9 m ρ c (Proc.devRef .tc main_arg3) := StableHlo.after_of_writes_sub hostOps5 _ hostOps5_writes (by decide : main_arg3 ∉ hostOps5_W)
    _ = B8 m ρ c (Proc.devRef .tc main_arg3) := B9_of_ne m ρ c main_arg3 (by decide)
    _ = B7 m ρ c (Proc.devRef .tc main_arg3) := StableHlo.after_of_writes_sub hostOps4 _ hostOps4_writes (by decide : main_arg3 ∉ hostOps4_W)
    _ = B6 m ρ c (Proc.devRef .tc main_arg3) := B7_of_ne m ρ c main_arg3 (by decide)
    _ = B5 m ρ c (Proc.devRef .tc main_arg3) := B6_of_ne m ρ c main_arg3 (by decide)
    _ = B4 m ρ c (Proc.devRef .tc main_arg3) := StableHlo.after_of_writes_sub hostOps2 _ hostOps2_writes (by decide : main_arg3 ∉ hostOps2_W)
    _ = B3 m ρ c (Proc.devRef .tc main_arg3) := B4_of_ne m ρ c main_arg3 (by decide)
    _ = B2 m ρ c (Proc.devRef .tc main_arg3) := StableHlo.after_of_writes_sub hostOps1 _ hostOps1_writes (by decide : main_arg3 ∉ hostOps1_W)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl

theorem kept_arg4 (c : Dev nD) : B16 m ρ c (Proc.devRef .tc main_arg4) = m ((c : Thread nD τ).loc main_arg4) :=
  calc B16 m ρ c (Proc.devRef .tc main_arg4)
    _ = B15 m ρ c (Proc.devRef .tc main_arg4) := B16_of_ne m ρ c main_arg4 (by decide)
    _ = B14 m ρ c (Proc.devRef .tc main_arg4) := StableHlo.after_of_writes_sub hostOps8 _ hostOps8_writes (by decide : main_arg4 ∉ hostOps8_W)
    _ = B13 m ρ c (Proc.devRef .tc main_arg4) := B14_of_ne m ρ c main_arg4 (by decide)
    _ = B12 m ρ c (Proc.devRef .tc main_arg4) := StableHlo.after_of_writes_sub hostOps7 _ hostOps7_writes (by decide : main_arg4 ∉ hostOps7_W)
    _ = B11 m ρ c (Proc.devRef .tc main_arg4) := B12_of_ne m ρ c main_arg4 (by decide)
    _ = B10 m ρ c (Proc.devRef .tc main_arg4) := B11_of_ne m ρ c main_arg4 (by decide)
    _ = B9 m ρ c (Proc.devRef .tc main_arg4) := StableHlo.after_of_writes_sub hostOps5 _ hostOps5_writes (by decide : main_arg4 ∉ hostOps5_W)
    _ = B8 m ρ c (Proc.devRef .tc main_arg4) := B9_of_ne m ρ c main_arg4 (by decide)
    _ = B7 m ρ c (Proc.devRef .tc main_arg4) := StableHlo.after_of_writes_sub hostOps4 _ hostOps4_writes (by decide : main_arg4 ∉ hostOps4_W)
    _ = B6 m ρ c (Proc.devRef .tc main_arg4) := B7_of_ne m ρ c main_arg4 (by decide)
    _ = B5 m ρ c (Proc.devRef .tc main_arg4) := B6_of_ne m ρ c main_arg4 (by decide)
    _ = B4 m ρ c (Proc.devRef .tc main_arg4) := StableHlo.after_of_writes_sub hostOps2 _ hostOps2_writes (by decide : main_arg4 ∉ hostOps2_W)
    _ = B3 m ρ c (Proc.devRef .tc main_arg4) := B4_of_ne m ρ c main_arg4 (by decide)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl

theorem kept_arg5 (c : Dev nD) : B16 m ρ c (Proc.devRef .tc main_arg5) = m ((c : Thread nD τ).loc main_arg5) :=
  calc B16 m ρ c (Proc.devRef .tc main_arg5)
    _ = B15 m ρ c (Proc.devRef .tc main_arg5) := B16_of_ne m ρ c main_arg5 (by decide)
    _ = B14 m ρ c (Proc.devRef .tc main_arg5) := StableHlo.after_of_writes_sub hostOps8 _ hostOps8_writes (by decide : main_arg5 ∉ hostOps8_W)
    _ = B13 m ρ c (Proc.devRef .tc main_arg5) := B14_of_ne m ρ c main_arg5 (by decide)
    _ = B12 m ρ c (Proc.devRef .tc main_arg5) := StableHlo.after_of_writes_sub hostOps7 _ hostOps7_writes (by decide : main_arg5 ∉ hostOps7_W)
    _ = B11 m ρ c (Proc.devRef .tc main_arg5) := B12_of_ne m ρ c main_arg5 (by decide)
    _ = B10 m ρ c (Proc.devRef .tc main_arg5) := B11_of_ne m ρ c main_arg5 (by decide)
    _ = B9 m ρ c (Proc.devRef .tc main_arg5) := StableHlo.after_of_writes_sub hostOps5 _ hostOps5_writes (by decide : main_arg5 ∉ hostOps5_W)
    _ = B8 m ρ c (Proc.devRef .tc main_arg5) := B9_of_ne m ρ c main_arg5 (by decide)
    _ = B7 m ρ c (Proc.devRef .tc main_arg5) := StableHlo.after_of_writes_sub hostOps4 _ hostOps4_writes (by decide : main_arg5 ∉ hostOps4_W)
    _ = B6 m ρ c (Proc.devRef .tc main_arg5) := B7_of_ne m ρ c main_arg5 (by decide)
    _ = B5 m ρ c (Proc.devRef .tc main_arg5) := B6_of_ne m ρ c main_arg5 (by decide)
    _ = B4 m ρ c (Proc.devRef .tc main_arg5) := StableHlo.after_of_writes_sub hostOps2 _ hostOps2_writes (by decide : main_arg5 ∉ hostOps2_W)
    _ = B3 m ρ c (Proc.devRef .tc main_arg5) := B4_of_ne m ρ c main_arg5 (by decide)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl

theorem kept_arg6 (c : Dev nD) : B16 m ρ c (Proc.devRef .tc main_arg6) = m ((c : Thread nD τ).loc main_arg6) :=
  calc B16 m ρ c (Proc.devRef .tc main_arg6)
    _ = B15 m ρ c (Proc.devRef .tc main_arg6) := B16_of_ne m ρ c main_arg6 (by decide)
    _ = B14 m ρ c (Proc.devRef .tc main_arg6) := StableHlo.after_of_writes_sub hostOps8 _ hostOps8_writes (by decide : main_arg6 ∉ hostOps8_W)
    _ = B13 m ρ c (Proc.devRef .tc main_arg6) := B14_of_ne m ρ c main_arg6 (by decide)
    _ = B12 m ρ c (Proc.devRef .tc main_arg6) := StableHlo.after_of_writes_sub hostOps7 _ hostOps7_writes (by decide : main_arg6 ∉ hostOps7_W)
    _ = B11 m ρ c (Proc.devRef .tc main_arg6) := B12_of_ne m ρ c main_arg6 (by decide)
    _ = B10 m ρ c (Proc.devRef .tc main_arg6) := B11_of_ne m ρ c main_arg6 (by decide)
    _ = B9 m ρ c (Proc.devRef .tc main_arg6) := StableHlo.after_of_writes_sub hostOps5 _ hostOps5_writes (by decide : main_arg6 ∉ hostOps5_W)
    _ = B8 m ρ c (Proc.devRef .tc main_arg6) := B9_of_ne m ρ c main_arg6 (by decide)
    _ = B7 m ρ c (Proc.devRef .tc main_arg6) := StableHlo.after_of_writes_sub hostOps4 _ hostOps4_writes (by decide : main_arg6 ∉ hostOps4_W)
    _ = B6 m ρ c (Proc.devRef .tc main_arg6) := (B7_arr m ρ c 1).trans (((dat3 (C6 m ρ) c).arrAt_in 1 rfl _).trans (dat3_A (C6 m ρ) c 1))
    _ = B5 m ρ c (Proc.devRef .tc main_arg6) := B6_of_ne m ρ c main_arg6 (by decide)
    _ = B4 m ρ c (Proc.devRef .tc main_arg6) := StableHlo.after_of_writes_sub hostOps2 _ hostOps2_writes (by decide : main_arg6 ∉ hostOps2_W)
    _ = B3 m ρ c (Proc.devRef .tc main_arg6) := B4_of_ne m ρ c main_arg6 (by decide)
    _ = B2 m ρ c (Proc.devRef .tc main_arg6) := StableHlo.after_of_writes_sub hostOps1 _ hostOps1_writes (by decide : main_arg6 ∉ hostOps1_W)
    _ = B1 m ρ c (Proc.devRef .tc main_arg6) := B2_of_ne m ρ c main_arg6 (by decide)
    _ = B0 m ρ c (Proc.devRef .tc main_arg6) := StableHlo.after_of_writes_sub hostOps0 _ hostOps0_writes (by decide : main_arg6 ∉ hostOps0_W)
    _ = m ((c : Thread nD τ).loc main_arg6) := rfl

theorem kept_arg7 (c : Dev nD) : B16 m ρ c (Proc.devRef .tc main_arg7) = m ((c : Thread nD τ).loc main_arg7) :=
  calc B16 m ρ c (Proc.devRef .tc main_arg7)
    _ = B15 m ρ c (Proc.devRef .tc main_arg7) := B16_of_ne m ρ c main_arg7 (by decide)
    _ = B14 m ρ c (Proc.devRef .tc main_arg7) := StableHlo.after_of_writes_sub hostOps8 _ hostOps8_writes (by decide : main_arg7 ∉ hostOps8_W)
    _ = B13 m ρ c (Proc.devRef .tc main_arg7) := B14_of_ne m ρ c main_arg7 (by decide)
    _ = B12 m ρ c (Proc.devRef .tc main_arg7) := StableHlo.after_of_writes_sub hostOps7 _ hostOps7_writes (by decide : main_arg7 ∉ hostOps7_W)
    _ = B11 m ρ c (Proc.devRef .tc main_arg7) := B12_of_ne m ρ c main_arg7 (by decide)
    _ = B10 m ρ c (Proc.devRef .tc main_arg7) := B11_of_ne m ρ c main_arg7 (by decide)
    _ = B9 m ρ c (Proc.devRef .tc main_arg7) := StableHlo.after_of_writes_sub hostOps5 _ hostOps5_writes (by decide : main_arg7 ∉ hostOps5_W)
    _ = B8 m ρ c (Proc.devRef .tc main_arg7) := B9_of_ne m ρ c main_arg7 (by decide)
    _ = B7 m ρ c (Proc.devRef .tc main_arg7) := StableHlo.after_of_writes_sub hostOps4 _ hostOps4_writes (by decide : main_arg7 ∉ hostOps4_W)
    _ = B6 m ρ c (Proc.devRef .tc main_arg7) := B7_of_ne m ρ c main_arg7 (by decide)
    _ = B5 m ρ c (Proc.devRef .tc main_arg7) := B6_of_ne m ρ c main_arg7 (by decide)
    _ = B4 m ρ c (Proc.devRef .tc main_arg7) := StableHlo.after_of_writes_sub hostOps2 _ hostOps2_writes (by decide : main_arg7 ∉ hostOps2_W)
    _ = B3 m ρ c (Proc.devRef .tc main_arg7) := B4_of_ne m ρ c main_arg7 (by decide)
    _ = B2 m ρ c (Proc.devRef .tc main_arg7) := StableHlo.after_of_writes_sub hostOps1 _ hostOps1_writes (by decide : main_arg7 ∉ hostOps1_W)
    _ = B1 m ρ c (Proc.devRef .tc main_arg7) := B2_of_ne m ρ c main_arg7 (by decide)
    _ = B0 m ρ c (Proc.devRef .tc main_arg7) := StableHlo.after_of_writes_sub hostOps0 _ hostOps0_writes (by decide : main_arg7 ∉ hostOps0_W)
    _ = m ((c : Thread nD τ).loc main_arg7) := rfl

theorem kept_arg8 (c : Dev nD) : B16 m ρ c (Proc.devRef .tc main_arg8) = m ((c : Thread nD τ).loc main_arg8) :=
  calc B16 m ρ c (Proc.devRef .tc main_arg8)
    _ = B15 m ρ c (Proc.devRef .tc main_arg8) := B16_of_ne m ρ c main_arg8 (by decide)
    _ = B14 m ρ c (Proc.devRef .tc main_arg8) := StableHlo.after_of_writes_sub hostOps8 _ hostOps8_writes (by decide : main_arg8 ∉ hostOps8_W)
    _ = B13 m ρ c (Proc.devRef .tc main_arg8) := B14_of_ne m ρ c main_arg8 (by decide)
    _ = B12 m ρ c (Proc.devRef .tc main_arg8) := StableHlo.after_of_writes_sub hostOps7 _ hostOps7_writes (by decide : main_arg8 ∉ hostOps7_W)
    _ = B11 m ρ c (Proc.devRef .tc main_arg8) := B12_of_ne m ρ c main_arg8 (by decide)
    _ = B10 m ρ c (Proc.devRef .tc main_arg8) := B11_of_ne m ρ c main_arg8 (by decide)
    _ = B9 m ρ c (Proc.devRef .tc main_arg8) := StableHlo.after_of_writes_sub hostOps5 _ hostOps5_writes (by decide : main_arg8 ∉ hostOps5_W)
    _ = B8 m ρ c (Proc.devRef .tc main_arg8) := B9_of_ne m ρ c main_arg8 (by decide)
    _ = B7 m ρ c (Proc.devRef .tc main_arg8) := StableHlo.after_of_writes_sub hostOps4 _ hostOps4_writes (by decide : main_arg8 ∉ hostOps4_W)
    _ = B6 m ρ c (Proc.devRef .tc main_arg8) := B7_of_ne m ρ c main_arg8 (by decide)
    _ = B5 m ρ c (Proc.devRef .tc main_arg8) := B6_of_ne m ρ c main_arg8 (by decide)
    _ = B4 m ρ c (Proc.devRef .tc main_arg8) := StableHlo.after_of_writes_sub hostOps2 _ hostOps2_writes (by decide : main_arg8 ∉ hostOps2_W)
    _ = B3 m ρ c (Proc.devRef .tc main_arg8) := B4_of_ne m ρ c main_arg8 (by decide)
    _ = B2 m ρ c (Proc.devRef .tc main_arg8) := StableHlo.after_of_writes_sub hostOps1 _ hostOps1_writes (by decide : main_arg8 ∉ hostOps1_W)
    _ = B1 m ρ c (Proc.devRef .tc main_arg8) := B2_of_ne m ρ c main_arg8 (by decide)
    _ = B0 m ρ c (Proc.devRef .tc main_arg8) := StableHlo.after_of_writes_sub hostOps0 _ hostOps0_writes (by decide : main_arg8 ∉ hostOps0_W)
    _ = m ((c : Thread nD τ).loc main_arg8) := rfl

theorem kept_arg9 (c : Dev nD) : B16 m ρ c (Proc.devRef .tc main_arg9) = m ((c : Thread nD τ).loc main_arg9) :=
  calc B16 m ρ c (Proc.devRef .tc main_arg9)
    _ = B15 m ρ c (Proc.devRef .tc main_arg9) := B16_of_ne m ρ c main_arg9 (by decide)
    _ = B14 m ρ c (Proc.devRef .tc main_arg9) := StableHlo.after_of_writes_sub hostOps8 _ hostOps8_writes (by decide : main_arg9 ∉ hostOps8_W)
    _ = B13 m ρ c (Proc.devRef .tc main_arg9) := B14_of_ne m ρ c main_arg9 (by decide)
    _ = B12 m ρ c (Proc.devRef .tc main_arg9) := StableHlo.after_of_writes_sub hostOps7 _ hostOps7_writes (by decide : main_arg9 ∉ hostOps7_W)
    _ = B11 m ρ c (Proc.devRef .tc main_arg9) := B12_of_ne m ρ c main_arg9 (by decide)
    _ = B10 m ρ c (Proc.devRef .tc main_arg9) := B11_of_ne m ρ c main_arg9 (by decide)
    _ = B9 m ρ c (Proc.devRef .tc main_arg9) := StableHlo.after_of_writes_sub hostOps5 _ hostOps5_writes (by decide : main_arg9 ∉ hostOps5_W)
    _ = B8 m ρ c (Proc.devRef .tc main_arg9) := B9_of_ne m ρ c main_arg9 (by decide)
    _ = B7 m ρ c (Proc.devRef .tc main_arg9) := StableHlo.after_of_writes_sub hostOps4 _ hostOps4_writes (by decide : main_arg9 ∉ hostOps4_W)
    _ = B6 m ρ c (Proc.devRef .tc main_arg9) := B7_of_ne m ρ c main_arg9 (by decide)
    _ = B5 m ρ c (Proc.devRef .tc main_arg9) := B6_of_ne m ρ c main_arg9 (by decide)
    _ = B4 m ρ c (Proc.devRef .tc main_arg9) := StableHlo.after_of_writes_sub hostOps2 _ hostOps2_writes (by decide : main_arg9 ∉ hostOps2_W)
    _ = B3 m ρ c (Proc.devRef .tc main_arg9) := B4_of_ne m ρ c main_arg9 (by decide)
    _ = B2 m ρ c (Proc.devRef .tc main_arg9) := StableHlo.after_of_writes_sub hostOps1 _ hostOps1_writes (by decide : main_arg9 ∉ hostOps1_W)
    _ = B1 m ρ c (Proc.devRef .tc main_arg9) := B2_of_ne m ρ c main_arg9 (by decide)
    _ = B0 m ρ c (Proc.devRef .tc main_arg9) := StableHlo.after_of_writes_sub hostOps0 _ hostOps0_writes (by decide : main_arg9 ∉ hostOps0_W)
    _ = m ((c : Thread nD τ).loc main_arg9) := rfl

theorem kept_arg10 (c : Dev nD) : B16 m ρ c (Proc.devRef .tc main_arg10) = m ((c : Thread nD τ).loc main_arg10) :=
  calc B16 m ρ c (Proc.devRef .tc main_arg10)
    _ = B15 m ρ c (Proc.devRef .tc main_arg10) := B16_of_ne m ρ c main_arg10 (by decide)
    _ = B14 m ρ c (Proc.devRef .tc main_arg10) := StableHlo.after_of_writes_sub hostOps8 _ hostOps8_writes (by decide : main_arg10 ∉ hostOps8_W)
    _ = B13 m ρ c (Proc.devRef .tc main_arg10) := B14_of_ne m ρ c main_arg10 (by decide)
    _ = B12 m ρ c (Proc.devRef .tc main_arg10) := StableHlo.after_of_writes_sub hostOps7 _ hostOps7_writes (by decide : main_arg10 ∉ hostOps7_W)
    _ = B11 m ρ c (Proc.devRef .tc main_arg10) := (B12_arr m ρ c 1).trans (((dat6 (C11 m ρ) c).arrAt_in 1 rfl _).trans (dat6_A (C11 m ρ) c 1))
    _ = B10 m ρ c (Proc.devRef .tc main_arg10) := B11_of_ne m ρ c main_arg10 (by decide)
    _ = B9 m ρ c (Proc.devRef .tc main_arg10) := StableHlo.after_of_writes_sub hostOps5 _ hostOps5_writes (by decide : main_arg10 ∉ hostOps5_W)
    _ = B8 m ρ c (Proc.devRef .tc main_arg10) := B9_of_ne m ρ c main_arg10 (by decide)
    _ = B7 m ρ c (Proc.devRef .tc main_arg10) := StableHlo.after_of_writes_sub hostOps4 _ hostOps4_writes (by decide : main_arg10 ∉ hostOps4_W)
    _ = B6 m ρ c (Proc.devRef .tc main_arg10) := B7_of_ne m ρ c main_arg10 (by decide)
    _ = B5 m ρ c (Proc.devRef .tc main_arg10) := B6_of_ne m ρ c main_arg10 (by decide)
    _ = B4 m ρ c (Proc.devRef .tc main_arg10) := StableHlo.after_of_writes_sub hostOps2 _ hostOps2_writes (by decide : main_arg10 ∉ hostOps2_W)
    _ = B3 m ρ c (Proc.devRef .tc main_arg10) := B4_of_ne m ρ c main_arg10 (by decide)
    _ = B2 m ρ c (Proc.devRef .tc main_arg10) := StableHlo.after_of_writes_sub hostOps1 _ hostOps1_writes (by decide : main_arg10 ∉ hostOps1_W)
    _ = B1 m ρ c (Proc.devRef .tc main_arg10) := B2_of_ne m ρ c main_arg10 (by decide)
    _ = B0 m ρ c (Proc.devRef .tc main_arg10) := StableHlo.after_of_writes_sub hostOps0 _ hostOps0_writes (by decide : main_arg10 ∉ hostOps0_W)
    _ = m ((c : Thread nD τ).loc main_arg10) := rfl

theorem kept_arg11 (c : Dev nD) : B16 m ρ c (Proc.devRef .tc main_arg11) = m ((c : Thread nD τ).loc main_arg11) :=
  calc B16 m ρ c (Proc.devRef .tc main_arg11)
    _ = B15 m ρ c (Proc.devRef .tc main_arg11) := B16_of_ne m ρ c main_arg11 (by decide)
    _ = B14 m ρ c (Proc.devRef .tc main_arg11) := StableHlo.after_of_writes_sub hostOps8 _ hostOps8_writes (by decide : main_arg11 ∉ hostOps8_W)
    _ = B13 m ρ c (Proc.devRef .tc main_arg11) := B14_of_ne m ρ c main_arg11 (by decide)
    _ = B12 m ρ c (Proc.devRef .tc main_arg11) := StableHlo.after_of_writes_sub hostOps7 _ hostOps7_writes (by decide : main_arg11 ∉ hostOps7_W)
    _ = B11 m ρ c (Proc.devRef .tc main_arg11) := B12_of_ne m ρ c main_arg11 (by decide)
    _ = B10 m ρ c (Proc.devRef .tc main_arg11) := B11_of_ne m ρ c main_arg11 (by decide)
    _ = B9 m ρ c (Proc.devRef .tc main_arg11) := StableHlo.after_of_writes_sub hostOps5 _ hostOps5_writes (by decide : main_arg11 ∉ hostOps5_W)
    _ = B8 m ρ c (Proc.devRef .tc main_arg11) := B9_of_ne m ρ c main_arg11 (by decide)
    _ = B7 m ρ c (Proc.devRef .tc main_arg11) := StableHlo.after_of_writes_sub hostOps4 _ hostOps4_writes (by decide : main_arg11 ∉ hostOps4_W)
    _ = B6 m ρ c (Proc.devRef .tc main_arg11) := B7_of_ne m ρ c main_arg11 (by decide)
    _ = B5 m ρ c (Proc.devRef .tc main_arg11) := B6_of_ne m ρ c main_arg11 (by decide)
    _ = B4 m ρ c (Proc.devRef .tc main_arg11) := StableHlo.after_of_writes_sub hostOps2 _ hostOps2_writes (by decide : main_arg11 ∉ hostOps2_W)
    _ = B3 m ρ c (Proc.devRef .tc main_arg11) := B4_of_ne m ρ c main_arg11 (by decide)
    _ = B2 m ρ c (Proc.devRef .tc main_arg11) := StableHlo.after_of_writes_sub hostOps1 _ hostOps1_writes (by decide : main_arg11 ∉ hostOps1_W)
    _ = B1 m ρ c (Proc.devRef .tc main_arg11) := B2_of_ne m ρ c main_arg11 (by decide)
    _ = B0 m ρ c (Proc.devRef .tc main_arg11) := StableHlo.after_of_writes_sub hostOps0 _ hostOps0_writes (by decide : main_arg11 ∉ hostOps0_W)
    _ = m ((c : Thread nD τ).loc main_arg11) := rfl

theorem kept_arg12 (c : Dev nD) : B16 m ρ c (Proc.devRef .tc main_arg12) = m ((c : Thread nD τ).loc main_arg12) :=
  calc B16 m ρ c (Proc.devRef .tc main_arg12)
    _ = B15 m ρ c (Proc.devRef .tc main_arg12) := B16_of_ne m ρ c main_arg12 (by decide)
    _ = B14 m ρ c (Proc.devRef .tc main_arg12) := StableHlo.after_of_writes_sub hostOps8 _ hostOps8_writes (by decide : main_arg12 ∉ hostOps8_W)
    _ = B13 m ρ c (Proc.devRef .tc main_arg12) := B14_of_ne m ρ c main_arg12 (by decide)
    _ = B12 m ρ c (Proc.devRef .tc main_arg12) := StableHlo.after_of_writes_sub hostOps7 _ hostOps7_writes (by decide : main_arg12 ∉ hostOps7_W)
    _ = B11 m ρ c (Proc.devRef .tc main_arg12) := B12_of_ne m ρ c main_arg12 (by decide)
    _ = B10 m ρ c (Proc.devRef .tc main_arg12) := B11_of_ne m ρ c main_arg12 (by decide)
    _ = B9 m ρ c (Proc.devRef .tc main_arg12) := StableHlo.after_of_writes_sub hostOps5 _ hostOps5_writes (by decide : main_arg12 ∉ hostOps5_W)
    _ = B8 m ρ c (Proc.devRef .tc main_arg12) := B9_of_ne m ρ c main_arg12 (by decide)
    _ = B7 m ρ c (Proc.devRef .tc main_arg12) := StableHlo.after_of_writes_sub hostOps4 _ hostOps4_writes (by decide : main_arg12 ∉ hostOps4_W)
    _ = B6 m ρ c (Proc.devRef .tc main_arg12) := B7_of_ne m ρ c main_arg12 (by decide)
    _ = B5 m ρ c (Proc.devRef .tc main_arg12) := B6_of_ne m ρ c main_arg12 (by decide)
    _ = B4 m ρ c (Proc.devRef .tc main_arg12) := StableHlo.after_of_writes_sub hostOps2 _ hostOps2_writes (by decide : main_arg12 ∉ hostOps2_W)
    _ = B3 m ρ c (Proc.devRef .tc main_arg12) := B4_of_ne m ρ c main_arg12 (by decide)
    _ = B2 m ρ c (Proc.devRef .tc main_arg12) := StableHlo.after_of_writes_sub hostOps1 _ hostOps1_writes (by decide : main_arg12 ∉ hostOps1_W)
    _ = B1 m ρ c (Proc.devRef .tc main_arg12) := B2_of_ne m ρ c main_arg12 (by decide)
    _ = B0 m ρ c (Proc.devRef .tc main_arg12) := StableHlo.after_of_writes_sub hostOps0 _ hostOps0_writes (by decide : main_arg12 ∉ hostOps0_W)
    _ = m ((c : Thread nD τ).loc main_arg12) := rfl

theorem kept_arg13 (c : Dev nD) : B16 m ρ c (Proc.devRef .tc main_arg13) = m ((c : Thread nD τ).loc main_arg13) :=
  calc B16 m ρ c (Proc.devRef .tc main_arg13)
    _ = B15 m ρ c (Proc.devRef .tc main_arg13) := B16_of_ne m ρ c main_arg13 (by decide)
    _ = B14 m ρ c (Proc.devRef .tc main_arg13) := StableHlo.after_of_writes_sub hostOps8 _ hostOps8_writes (by decide : main_arg13 ∉ hostOps8_W)
    _ = B13 m ρ c (Proc.devRef .tc main_arg13) := B14_of_ne m ρ c main_arg13 (by decide)
    _ = B12 m ρ c (Proc.devRef .tc main_arg13) := StableHlo.after_of_writes_sub hostOps7 _ hostOps7_writes (by decide : main_arg13 ∉ hostOps7_W)
    _ = B11 m ρ c (Proc.devRef .tc main_arg13) := B12_of_ne m ρ c main_arg13 (by decide)
    _ = B10 m ρ c (Proc.devRef .tc main_arg13) := B11_of_ne m ρ c main_arg13 (by decide)
    _ = B9 m ρ c (Proc.devRef .tc main_arg13) := StableHlo.after_of_writes_sub hostOps5 _ hostOps5_writes (by decide : main_arg13 ∉ hostOps5_W)
    _ = B8 m ρ c (Proc.devRef .tc main_arg13) := B9_of_ne m ρ c main_arg13 (by decide)
    _ = B7 m ρ c (Proc.devRef .tc main_arg13) := StableHlo.after_of_writes_sub hostOps4 _ hostOps4_writes (by decide : main_arg13 ∉ hostOps4_W)
    _ = B6 m ρ c (Proc.devRef .tc main_arg13) := B7_of_ne m ρ c main_arg13 (by decide)
    _ = B5 m ρ c (Proc.devRef .tc main_arg13) := B6_of_ne m ρ c main_arg13 (by decide)
    _ = B4 m ρ c (Proc.devRef .tc main_arg13) := StableHlo.after_of_writes_sub hostOps2 _ hostOps2_writes (by decide : main_arg13 ∉ hostOps2_W)
    _ = B3 m ρ c (Proc.devRef .tc main_arg13) := B4_of_ne m ρ c main_arg13 (by decide)
    _ = B2 m ρ c (Proc.devRef .tc main_arg13) := StableHlo.after_of_writes_sub hostOps1 _ hostOps1_writes (by decide : main_arg13 ∉ hostOps1_W)
    _ = B1 m ρ c (Proc.devRef .tc main_arg13) := B2_of_ne m ρ c main_arg13 (by decide)
    _ = B0 m ρ c (Proc.devRef .tc main_arg13) := StableHlo.after_of_writes_sub hostOps0 _ hostOps0_writes (by decide : main_arg13 ∉ hostOps0_W)
    _ = m ((c : Thread nD τ).loc main_arg13) := rfl

set_option backward.isDefEq.respectTransparency.types false in
/-- THE RUN: every unscoped buffer ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B16 m ρ c b) :=
  Pipeline.θ_run_regions_kit (pcfgs (F := F)) noTables (pdats m ρ) () cellOf_inj emb₁ defs₀ noVariants noLevels levelZero m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := atEnd m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m ρ c b)
    (hfin := fun c s' => by
      iintro ⟨⟨Hh, -⟩, HSI⟩
      unfold StableHlo.held
      imodintro
      iapply (pointsTo_read_all (Pipeline.ucRefs τ sig) (fun b => (((c : Thread nD τ)).1, b)) (B16 m ρ c) s')
      isplitl [Hh] <;> iassumption)
    (hQ := fun s h c => h c)

/-- The frame claim's post at any float instance: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_unscoped main_arg0 (by decide))).trans (kept_arg0 m ρ c),
    (h c _ (mem_unscoped main_arg1 (by decide))).trans (kept_arg1 m ρ c),
    (h c _ (mem_unscoped main_arg2 (by decide))).trans (kept_arg2 m ρ c),
    (h c _ (mem_unscoped main_arg3 (by decide))).trans (kept_arg3 m ρ c),
    (h c _ (mem_unscoped main_arg4 (by decide))).trans (kept_arg4 m ρ c),
    (h c _ (mem_unscoped main_arg5 (by decide))).trans (kept_arg5 m ρ c),
    (h c _ (mem_unscoped main_arg6 (by decide))).trans (kept_arg6 m ρ c),
    (h c _ (mem_unscoped main_arg7 (by decide))).trans (kept_arg7 m ρ c),
    (h c _ (mem_unscoped main_arg8 (by decide))).trans (kept_arg8 m ρ c),
    (h c _ (mem_unscoped main_arg9 (by decide))).trans (kept_arg9 m ρ c),
    (h c _ (mem_unscoped main_arg10 (by decide))).trans (kept_arg10 m ρ c),
    (h c _ (mem_unscoped main_arg11 (by decide))).trans (kept_arg11 m ρ c),
    (h c _ (mem_unscoped main_arg12 (by decide))).trans (kept_arg12 m ρ c),
    (h c _ (mem_unscoped main_arg13 (by decide))).trans (kept_arg13 m ρ c)⟩) (run_all m ρ)

end Cert.Kernel.Hand

end
-- ==== Proof.Ideal.Product0.lean ====
/-
  The first pallas_call of the idealized kernel: the feature product h = x · W of layer one, tiled over ten
  blocks of 5000 rows. Each grid point reads its block of x (window 0) and the whole weight matrix (window 1,
  the same block at every point, fetched once) and stores the block's product into window 2.
  Stated at a parameter V — the buffer contents when the call is entered — and at any float instance F:
  what the body leaves in the output buffer, the body's triple, the proof data, and the body obligation at
  every point.
-/
import proofs.«169495_j53601191854606_1_alg».proof.Proof.Gen.KernelIdeal.Launch
import proofs.«169495_j53601191854606_1_alg».proof.Proof.Gen.KernelIdeal.Skeleton
import proofs.«169495_j53601191854606_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows block of x sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight matrix sits in its staging buffer at every point: fetched at the first, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The one rectangle the body stores through: the whole output block. -/
abbrev whole0 : Rect S5000x128 := Rect.unit (s := S5000x128) ![0, 0] S5000x128.size inb_S5000x128_S5000x128_0_0
abbrev wholeW0 : Rect S128x128 := Rect.unit (s := S128x128) ![0, 0] S128x128.size inb_S128x128_S128x128_0_0

/-- The output buffer after the body: the product of the loaded block and the loaded weights. -/
def prod0 (x : Vec F S5000x128 .f32) (w : Vec F S128x128 .f32) : Vec F S5000x128 .f32 :=
  View.canon [⟨whole0, k0_pay1 (View.ld x whole0) (View.ld w wholeW0)⟩]

theorem cover_prod0 (p0 : Vec F S5000x128 .f32) (y : S5000x128.Idx) :
    ∃ pc ∈ ([⟨whole0, p0⟩] : List (View.Piece (Elt F) S5000x128 .f32)), y ∈ pc.1.set :=
  View.cover_of_tiled [⟨whole0, p0⟩] S5000x128.size (by rfl) y

set_option maxHeartbeats 1000000 in
/-- The body on whole staging buffers: inputs kept, the output at the product. -/
theorem sound_product0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod0 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_prod0 _)

/-- The proof data of the call: arrays as found; after the body each input buffer still holds its block and the
    output buffer the block's product; nothing carried, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) :
    (dat0 V c).after 2 t = prod0 (blk0 V c 0 t) (blk0 V c 1 t) := by dsimp only [dat0]

theorem dat0_before_0 (c : Dev nD) (t : Fin cfg0.N) (d) : (dat0 V c).before 0 t d = blk0 V c 0 t :=
  before0_0_of V (dat0 V c) (dat0_A V c 0) (dat0_after_0 V c) t d
theorem dat0_before_1 (c : Dev nD) (t : Fin cfg0.N) (d) : (dat0 V c).before 1 t d = blk0 V c 1 t :=
  before0_1_of V (dat0 V c) (dat0_A V c 1) (dat0_after_1 V c) t d

/-- What the body is entered with at point t, window by window, -/
def enter0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it leaves. -/
def leave0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_point0 (c : Dev nD) (t : Fin cfg0.N) :
    enter0 V c t ⊢ wp frame (wpE (defs₀ (F := F)) Variants.none c none) Set.univ (bodyAt0 t) (fun _ => leave0 V c t) := by
  unfold enter0 leave0 bodyAt0
  simp only [dat0_before_0, dat0_before_1]
  rw [show (dat0 V c).Φ t.succ = (dat0 V c).Φ t.castSucc from rfl,
    show (dat0 V c).owesAt () t.succ = (dat0 V c).owesAt () t.castSucc from rfl,
    dat0_after_0, dat0_after_1, dat0_after_2]
  iintro ⟨HΦ, Ho, ⟨%d0, H0⟩, ⟨%d1, H1⟩, ⟨%d2, H2⟩⟩
  iapply (sound_product0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation0 (c : Dev nD) : BodyObligation (dat0 (F := F) V c) (defs₀ (F := F)) Variants.none () Set.univ := fun t => by
  rw [bigSep_W0, bigSep_W0]
  exact sound_point0 V c t

end Cert.KernelIdeal.Hand

end
-- ==== Proof.Ideal.Stats1Base.lean ====
/-
  The second pallas_call of the idealized kernel, layer one: pre = agg + h · dis² + b on ten blocks of 5000 rows,
  with the column sums of pre and of pre² accumulated in two one-row scratch buffers that live across the grid
  points: zeroed at the first point, added to at every point, and turned into the batch mean and the one-pass
  variance (stored to windows 5 and 6) at the last point only.
  Here: the two branch conditions in closed form over the grid, where windows 5 and 6 are idle and not written
  back, the scratch buffers as memrefs, and the call's resting invariant opened at the two scratch buffers.
-/
import proofs.«169495_j53601191854606_1_alg».proof.Proof.Gen.KernelIdeal.Launch
import proofs.«169495_j53601191854606_1_alg».proof.Proof.Gen.KernelIdeal.Skeleton
import proofs.«169495_j53601191854606_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body zeroes the accumulators when the grid coordinate is 0, -/
abbrev atFirst1 (i : grid1.Coords) : Prop :=
  (Scalar.cmpi .ne (Scalar.extui (Scalar.cmpi .eq (BitVec.ofNat 32 (i 0).val) 0#32)) 0#32) = 1#1
theorem atFirst1_iff : ∀ t : Fin cfg1.N, atFirst1 (grid1.coords t) ↔ t.val % 10 = 0 :=
  (by decide +kernel : ∀ t : Fin grid1.N, atFirst1 (grid1.coords t) ↔ t.val % 10 = 0)

/-- and stores the statistics when it is 9. -/
abbrev atLast1 (i : grid1.Coords) : Prop := k1_cond2 i = 1#1
theorem atLast1_iff : ∀ t : Fin cfg1.N, atLast1 (grid1.coords t) ↔ t.val % 10 = 9 :=
  (by decide +kernel : ∀ t : Fin grid1.N, atLast1 (grid1.coords t) ↔ t.val % 10 = 9)

/-- The four inputs and the combined block are live at every point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- The mean and variance windows are idle, and not written back, away from the last point; live at it. -/
theorem idle1_5 : ∀ t : Fin cfg1.N, ¬atLast1 (grid1.coords t) → cfg1.idle 5 (grid1.coords t) = true := by decide +kernel
theorem idle1_6 : ∀ t : Fin cfg1.N, ¬atLast1 (grid1.coords t) → cfg1.idle 6 (grid1.coords t) = true := by decide +kernel
theorem keep1_5 : ∀ t : Fin cfg1.N, ¬atLast1 (grid1.coords t) → (cfg1.win 5).flush t = false := by decide +kernel
theorem keep1_6 : ∀ t : Fin cfg1.N, ¬atLast1 (grid1.coords t) → (cfg1.win 6).flush t = false := by decide +kernel
theorem last1_5 : ∀ t : Fin cfg1.N, atLast1 (grid1.coords t) → cfg1.idle 5 (grid1.coords t) = false := by decide +kernel
theorem last1_6 : ∀ t : Fin cfg1.N, atLast1 (grid1.coords t) → cfg1.idle 6 (grid1.coords t) = false := by decide +kernel

/-- The two accumulators: whole scoped buffers of the call's own. -/
abbrev sumBuf1 : Memref sig .tc .vmem S1x128 .f32 := Memref.whole cc1_scratch0
abbrev sqBuf1 : Memref sig .tc .vmem S1x128 .f32 := Memref.whole cc1_scratch1

/-- The resting invariant of the call, opened at the accumulators: each at some contents, every other scoped buffer
    unopened, the generator register at some state. -/
theorem rest1_eq (c : Dev nD) :
    (Pipeline.ΦA spec1 c : sProp 𝕄)
      = iprop(iprop(iprop((∃ d, owns (c : Thread nD τ) sumBuf1 fullShare d) ∗ (∃ d, owns (c : Thread nD τ) sqBuf1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [sumBuf1, sqBuf1, owns_whole]; try rfl

end Cert.KernelIdeal.Hand

end
-- ==== Proof.Ideal.Stats1First.lean ====
/-
  The combine-and-statistics body of layer one at the first grid point: the zeroing branch is taken, the
  statistics branch is not. The accumulators are entered at arbitrary contents (they are stored over before
  they are read); everything else is as at a middle point. The stored pieces are found by the run.
-/
import proofs.«169495_j53601191854606_1_alg».proof.Proof.Ideal.Stats1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runFirst1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : atFirst1 i) (hc1 : ¬atLast1 i)
    (x1 : Vec F S5000x128 .f32) (x2 : Vec F S5000x128 .f32) (x3 : Vec F S5000x1 .f32) (x4 : Vec F S1x128 .f32) :
    Σ' (L5 : List (View.Piece (Elt F) S5000x128 .f32)), Σ' (L8 : List (View.Piece (Elt F) S1x128 .f32)), { L9 : List (View.Piece (Elt F) S1x128 .f32) //
      ∀ (k6 : Vec F S1x128 .f32) (k7 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ owns (c : Thread nD τ) arg6 fullShare k6 ∗ owns (c : Thread nD τ) arg7 fullShare k7
            ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare k6 ∗ owns (c : Thread nD τ) arg7 fullShare k7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, fun k6 k7 E K => ?run⟩
  case run =>
    simp only [cc1__combine_stats_kernel_eq_skeleton]; unfold cc1__combine_stats_kernel_skel
    simp only [k1_part1_eq_skeleton]; unfold k1_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

end Cert.KernelIdeal.Hand

end
-- ==== Proof.Ideal.Stats1Mid.lean ====
/-
  The combine-and-statistics body of layer one at a grid point that is neither the first nor the last: neither
  branch is taken. On whole staging buffers — the four inputs at their contents, the mean and variance buffers
  at contents handed back untouched, the accumulators at what the point before left — it runs to the end with
  the combined block stored and both accumulators stored over; the stored pieces are found by the run.
-/
import proofs.«169495_j53601191854606_1_alg».proof.Proof.Ideal.Stats1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runMid1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬atFirst1 i) (hc1 : ¬atLast1 i)
    (x1 : Vec F S5000x128 .f32) (x2 : Vec F S5000x128 .f32) (x3 : Vec F S5000x1 .f32) (x4 : Vec F S1x128 .f32)
    (s8 : Vec F S1x128 .f32) (s9 : Vec F S1x128 .f32) :
    Σ' (L5 : List (View.Piece (Elt F) S5000x128 .f32)), Σ' (L8 : List (View.Piece (Elt F) S1x128 .f32)), { L9 : List (View.Piece (Elt F) S1x128 .f32) //
      ∀ (k6 : Vec F S1x128 .f32) (k7 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ owns (c : Thread nD τ) arg6 fullShare k6 ∗ owns (c : Thread nD τ) arg7 fullShare k7
            ∗ owns (c : Thread nD τ) arg8 fullShare s8 ∗ owns (c : Thread nD τ) arg9 fullShare s9
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare k6 ∗ owns (c : Thread nD τ) arg7 fullShare k7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, fun k6 k7 E K => ?run⟩
  case run =>
    simp only [cc1__combine_stats_kernel_eq_skeleton]; unfold cc1__combine_stats_kernel_skel
    simp only [k1_part1_eq_skeleton]; unfold k1_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

end Cert.KernelIdeal.Hand

end
-- ==== Proof.Ideal.Stats1Last.lean ====
/-
  The combine-and-statistics body of layer one at the last grid point: the zeroing branch is not taken, the
  statistics branch is. The accumulators are entered at what the point before left; the mean and variance
  buffers at arbitrary contents, and are stored over. The stored pieces are found by the run.
-/
import proofs.«169495_j53601191854606_1_alg».proof.Proof.Ideal.Stats1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runLast1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬atFirst1 i) (hc1 : atLast1 i)
    (x1 : Vec F S5000x128 .f32) (x2 : Vec F S5000x128 .f32) (x3 : Vec F S5000x1 .f32) (x4 : Vec F S1x128 .f32)
    (s8 : Vec F S1x128 .f32) (s9 : Vec F S1x128 .f32) :
    Σ' (L5 : List (View.Piece (Elt F) S5000x128 .f32)), Σ' (L6 : List (View.Piece (Elt F) S1x128 .f32)), Σ' (L7 : List (View.Piece (Elt F) S1x128 .f32)),
      Σ' (L8 : List (View.Piece (Elt F) S1x128 .f32)), { L9 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ (∃ d, owns (c : Thread nD τ) arg6 fullShare d) ∗ (∃ d, owns (c : Thread nD τ) arg7 fullShare d)
            ∗ owns (c : Thread nD τ) arg8 fullShare s8 ∗ owns (c : Thread nD τ) arg9 fullShare s9
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__combine_stats_kernel_eq_skeleton]; unfold cc1__combine_stats_kernel_skel
    simp only [k1_part1_eq_skeleton]; unfold k1_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; iexact H7
    isplitl [H8]
    · iexists _; iexact H8
    iexists _; iexact H9

end Cert.KernelIdeal.Hand

end
-- ==== Proof.Ideal.Stats1Cases.lean ====
/-
  The combine-and-statistics call of layer one, case by case: each window's block at a grid point, the staging
  buffers the body is called on, and what each of the three runs (first point, middle point, last point) leaves
  in the combined-block buffer, the mean and variance buffers and the two accumulators — its stored pieces read
  back, with the fact that they cover the buffer. Stated at a parameter V (the buffer contents when the call is
  entered) and at any float instance.
-/
import proofs.«169495_j53601191854606_1_alg».proof.Proof.Ideal.Stats1First
import proofs.«169495_j53601191854606_1_alg».proof.Proof.Ideal.Stats1Mid
import proofs.«169495_j53601191854606_1_alg».proof.Proof.Ideal.Stats1Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's block sits in its current staging buffer at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Each window's current staging memref at point t, as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)

/-- One staging buffer of each output window, through which its contents are stated (which one does not matter
    once the stores cover the block). -/
abbrev viaPre1 : View sig .tc .vmem S5000x128 .f32 := (Memref.whole cc1_stg4_0 : Memref sig .tc .vmem S5000x128 .f32).view
abbrev viaMean1 : View sig .tc .vmem S1x128 .f32 := (Memref.whole cc1_stg5_0 : Memref sig .tc .vmem S1x128 .f32).view
abbrev viaVar1 : View sig .tc .vmem S1x128 .f32 := (Memref.whole cc1_stg6_0 : Memref sig .tc .vmem S1x128 .f32).view
abbrev viaSum1 : View sig .tc .vmem S1x128 .f32 := sumBuf1.view
abbrev viaSq1 : View sig .tc .vmem S1x128 .f32 := sqBuf1.view

/-- What the five buffers hold after a point: the combined block, the mean, the variance, the running column
    sums of pre and of pre². -/
structure After1 (F : FTy → Type) [FloatOps F] where
  pre : Vec F S5000x128 .f32
  mean : Vec F S1x128 .f32
  var : Vec F S1x128 .f32
  sum : Vec F S1x128 .f32
  sq : Vec F S1x128 .f32

theorem cover_first_pre (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst1 i) (hc1 : ¬atLast1 i) (x1 : Vec F S5000x128 .f32) (x2 : Vec F S5000x128 .f32) (x3 : Vec F S5000x1 .f32) (x4 : Vec F S1x128 .f32) (y : S5000x128.Idx) :
    ∃ pc ∈ (runFirst1 c i arg1 harg1 arg2 harg2 arg3 harg3 arg4 harg4 arg5 harg5 arg6 harg6 arg7 harg7 arg8 harg8 arg9 harg9 hc0 hc1 x1 x2 x3 x4).1, y ∈ pc.1.set :=
  View.cover_of_tiledL (runFirst1 c i arg1 harg1 arg2 harg2 arg3 harg3 arg4 harg4 arg5 harg5 arg6 harg6 arg7 harg7 arg8 harg8 arg9 harg9 hc0 hc1 x1 x2 x3 x4).1 S5000x128.size (by sl_kernel_rfl) y
theorem cover_first_sum (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst1 i) (hc1 : ¬atLast1 i) (x1 : Vec F S5000x128 .f32) (x2 : Vec F S5000x128 .f32) (x3 : Vec F S5000x1 .f32) (x4 : Vec F S1x128 .f32) (y : S1x128.Idx) :
    ∃ pc ∈ (runFirst1 c i arg1 harg1 arg2 harg2 arg3 harg3 arg4 harg4 arg5 harg5 arg6 harg6 arg7 harg7 arg8 harg8 arg9 harg9 hc0 hc1 x1 x2 x3 x4).2.1, y ∈ pc.1.set :=
  View.cover_of_tiledL (runFirst1 c i arg1 harg1 arg2 harg2 arg3 harg3 arg4 harg4 arg5 harg5 arg6 harg6 arg7 harg7 arg8 harg8 arg9 harg9 hc0 hc1 x1 x2 x3 x4).2.1 S1x128.size (by sl_kernel_rfl) y
theorem cover_first_sq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst1 i) (hc1 : ¬atLast1 i) (x1 : Vec F S5000x128 .f32) (x2 : Vec F S5000x128 .f32) (x3 : Vec F S5000x1 .f32) (x4 : Vec F S1x128 .f32) (y : S1x128.Idx) :
    ∃ pc ∈ (runFirst1 c i arg1 harg1 arg2 harg2 arg3 harg3 arg4 harg4 arg5 harg5 arg6 harg6 arg7 harg7 arg8 harg8 arg9 harg9 hc0 hc1 x1 x2 x3 x4).2.2.1, y ∈ pc.1.set :=
  View.cover_of_tiledL (runFirst1 c i arg1 harg1 arg2 harg2 arg3 harg3 arg4 harg4 arg5 harg5 arg6 harg6 arg7 harg7 arg8 harg8 arg9 harg9 hc0 hc1 x1 x2 x3 x4).2.2.1 S1x128.size (by sl_kernel_rfl) y
/-- What the first point's run leaves: its stored pieces read back (the mean and variance buffers are not stored: placeholders nothing consults). -/
def first1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst1 i) (hc1 : ¬atLast1 i) (x1 : Vec F S5000x128 .f32) (x2 : Vec F S5000x128 .f32) (x3 : Vec F S5000x1 .f32) (x4 : Vec F S1x128 .f32) : After1 F where
  pre := viaPre1.read (Elt F) (viaPre1.writes (Elt F) viaPre1.junk (runFirst1 c i arg1 harg1 arg2 harg2 arg3 harg3 arg4 harg4 arg5 harg5 arg6 harg6 arg7 harg7 arg8 harg8 arg9 harg9 hc0 hc1 x1 x2 x3 x4).1)
  mean := viaMean1.read (Elt F) viaMean1.junk
  var := viaVar1.read (Elt F) viaVar1.junk
  sum := viaSum1.read (Elt F) (viaSum1.writes (Elt F) viaSum1.junk (runFirst1 c i arg1 harg1 arg2 harg2 arg3 harg3 arg4 harg4 arg5 harg5 arg6 harg6 arg7 harg7 arg8 harg8 arg9 harg9 hc0 hc1 x1 x2 x3 x4).2.1)
  sq := viaSq1.read (Elt F) (viaSq1.writes (Elt F) viaSq1.junk (runFirst1 c i arg1 harg1 arg2 harg2 arg3 harg3 arg4 harg4 arg5 harg5 arg6 harg6 arg7 harg7 arg8 harg8 arg9 harg9 hc0 hc1 x1 x2 x3 x4).2.2.1)

theorem cover_mid_pre (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : ¬atLast1 i) (x1 : Vec F S5000x128 .f32) (x2 : Vec F S5000x128 .f32) (x3 : Vec F S5000x1 .f32) (x4 : Vec F S1x128 .f32) (s8 : Vec F S1x128 .f32) (s9 : Vec F S1x128 .f32) (y : S5000x128.Idx) :
    ∃ pc ∈ (runMid1 c i arg1 harg1 arg2 harg2 arg3 harg3 arg4 harg4 arg5 harg5 arg6 harg6 arg7 harg7 arg8 harg8 arg9 harg9 hc0 hc1 x1 x2 x3 x4 s8 s9).1, y ∈ pc.1.set :=
  View.cover_of_tiledL (runMid1 c i arg1 harg1 arg2 harg2 arg3 harg3 arg4 harg4 arg5 harg5 arg6 harg6 arg7 harg7 arg8 harg8 arg9 harg9 hc0 hc1 x1 x2 x3 x4 s8 s9).1 S5000x128.size (by sl_kernel_rfl) y
theorem cover_mid_sum (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : ¬atLast1 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runMid1 c i arg1 harg1 arg2 harg2 arg3 harg3 arg4 harg4 arg5 harg5 arg6 harg6 arg7 harg7 arg8 harg8 arg9 harg9 hc0 hc1 x1 x2 x3 x4 s8 s9).2.1, y ∈ pc.1.set :=
  View.cover_of_tiledL (runMid1 c i arg1 harg1 arg2 harg2 arg3 harg3 arg4 harg4 arg5 harg5 arg6 harg6 arg7 harg7 arg8 harg8 arg9 harg9 hc0 hc1 x1 x2 x3 x4 s8 s9).2.1 S1x128.size (by sl_kernel_rfl) y
theorem cover_mid_sq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : ¬atLast1 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runMid1 c i arg1 harg1 arg2 harg2 arg3 harg3 arg4 harg4 arg5 harg5 arg6 harg6 arg7 harg7 arg8 harg8 arg9 harg9 hc0 hc1 x1 x2 x3 x4 s8 s9).2.2.1, y ∈ pc.1.set :=
  View.cover_of_tiledL (runMid1 c i arg1 harg1 arg2 harg2 arg3 harg3 arg4 harg4 arg5 harg5 arg6 harg6 arg7 harg7 arg8 harg8 arg9 harg9 hc0 hc1 x1 x2 x3 x4 s8 s9).2.2.1 S1x128.size (by sl_kernel_rfl) y
/-- What the mid point's run leaves: its stored pieces read back (the mean and variance buffers are not stored: placeholders nothing consults). -/
def mid1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : ¬atLast1 i) (x1 : Vec F S5000x128 .f32) (x2 : Vec F S5000x128 .f32) (x3 : Vec F S5000x1 .f32) (x4 : Vec F S1x128 .f32) (s8 : Vec F S1x128 .f32) (s9 : Vec F S1x128 .f32) : After1 F where
  pre := viaPre1.read (Elt F) (viaPre1.writes (Elt F) viaPre1.junk (runMid1 c i arg1 harg1 arg2 harg2 arg3 harg3 arg4 harg4 arg5 harg5 arg6 harg6 arg7 harg7 arg8 harg8 arg9 harg9 hc0 hc1 x1 x2 x3 x4 s8 s9).1)
  mean := viaMean1.read (Elt F) viaMean1.junk
  var := viaVar1.read (Elt F) viaVar1.junk
  sum := viaSum1.read (Elt F) (viaSum1.writes (Elt F) viaSum1.junk (runMid1 c i arg1 harg1 arg2 harg2 arg3 harg3 arg4 harg4 arg5 harg5 arg6 harg6 arg7 harg7 arg8 harg8 arg9 harg9 hc0 hc1 x1 x2 x3 x4 s8 s9).2.1)
  sq := viaSq1.read (Elt F) (viaSq1.writes (Elt F) viaSq1.junk (runMid1 c i arg1 harg1 arg2 harg2 arg3 harg3 arg4 harg4 arg5 harg5 arg6 harg6 arg7 harg7 arg8 harg8 arg9 harg9 hc0 hc1 x1 x2 x3 x4 s8 s9).2.2.1)

theorem cover_last_pre (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) (y : S5000x128.Idx) :
    ∃ pc ∈ (runLast1 c i arg1 harg1 arg2 harg2 arg3 harg3 arg4 harg4 arg5 harg5 arg6 harg6 arg7 harg7 arg8 harg8 arg9 harg9 hc0 hc1 x1 x2 x3 x4 s8 s9).1, y ∈ pc.1.set :=
  View.cover_of_tiledL (runLast1 c i arg1 harg1 arg2 harg2 arg3 harg3 arg4 harg4 arg5 harg5 arg6 harg6 arg7 harg7 arg8 harg8 arg9 harg9 hc0 hc1 x1 x2 x3 x4 s8 s9).1 S5000x128.size (by sl_kernel_rfl) y
theorem cover_last_mean (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast1 c i arg1 harg1 arg2 harg2 arg3 harg3 arg4 harg4 arg5 harg5 arg6 harg6 arg7 harg7 arg8 harg8 arg9 harg9 hc0 hc1 x1 x2 x3 x4 s8 s9).2.1, y ∈ pc.1.set :=
  View.cover_of_tiledL (runLast1 c i arg1 harg1 arg2 harg2 arg3 harg3 arg4 harg4 arg5 harg5 arg6 harg6 arg7 harg7 arg8 harg8 arg9 harg9 hc0 hc1 x1 x2 x3 x4 s8 s9).2.1 S1x128.size (by sl_kernel_rfl) y
theorem cover_last_var (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast1 c i arg1 harg1 arg2 harg2 arg3 harg3 arg4 harg4 arg5 harg5 arg6 harg6 arg7 harg7 arg8 harg8 arg9 harg9 hc0 hc1 x1 x2 x3 x4 s8 s9).2.2.1, y ∈ pc.1.set :=
  View.cover_of_tiledL (runLast1 c i arg1 harg1 arg2 harg2 arg3 harg3 arg4 harg4 arg5 harg5 arg6 harg6 arg7 harg7 arg8 harg8 arg9 harg9 hc0 hc1 x1 x2 x3 x4 s8 s9).2.2.1 S1x128.size (by sl_kernel_rfl) y
theorem cover_last_sum (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast1 c i arg1 harg1 arg2 harg2 arg3 harg3 arg4 harg4 arg5 harg5 arg6 harg6 arg7 harg7 arg8 harg8 arg9 harg9 hc0 hc1 x1 x2 x3 x4 s8 s9).2.2.2.1, y ∈ pc.1.set :=
  View.cover_of_tiledL (runLast1 c i arg1 harg1 arg2 harg2 arg3 harg3 arg4 harg4 arg5 harg5 arg6 harg6 arg7 harg7 arg8 harg8 arg9 harg9 hc0 hc1 x1 x2 x3 x4 s8 s9).2.2.2.1 S1x128.size (by sl_kernel_rfl) y
theorem cover_last_sq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast1 c i arg1 harg1 arg2 harg2 arg3 harg3 arg4 harg4 arg5 harg5 arg6 harg6 arg7 harg7 arg8 harg8 arg9 harg9 hc0 hc1 x1 x2 x3 x4 s8 s9).2.2.2.2.1, y ∈ pc.1.set :=
  View.cover_of_tiledL (runLast1 c i arg1 harg1 arg2 harg2 arg3 harg3 arg4 harg4 arg5 harg5 arg6 harg6 arg7 harg7 arg8 harg8 arg9 harg9 hc0 hc1 x1 x2 x3 x4 s8 s9).2.2.2.2.1 S1x128.size (by sl_kernel_rfl) y
/-- What the last point's run leaves: its stored pieces read back. -/
def last1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) : After1 F where
  pre := viaPre1.read (Elt F) (viaPre1.writes (Elt F) viaPre1.junk (runLast1 c i arg1 harg1 arg2 harg2 arg3 harg3 arg4 harg4 arg5 harg5 arg6 harg6 arg7 harg7 arg8 harg8 arg9 harg9 hc0 hc1 x1 x2 x3 x4 s8 s9).1)
  mean := viaMean1.read (Elt F) (viaMean1.writes (Elt F) viaMean1.junk (runLast1 c i arg1 harg1 arg2 harg2 arg3 harg3 arg4 harg4 arg5 harg5 arg6 harg6 arg7 harg7 arg8 harg8 arg9 harg9 hc0 hc1 x1 x2 x3 x4 s8 s9).2.1)
  var := viaVar1.read (Elt F) (viaVar1.writes (Elt F) viaVar1.junk (runLast1 c i arg1 harg1 arg2 harg2 arg3 harg3 arg4 harg4 arg5 harg5 arg6 harg6 arg7 harg7 arg8 harg8 arg9 harg9 hc0 hc1 x1 x2 x3 x4 s8 s9).2.2.1)
  sum := viaSum1.read (Elt F) (viaSum1.writes (Elt F) viaSum1.junk (runLast1 c i arg1 harg1 arg2 harg2 arg3 harg3 arg4 harg4 arg5 harg5 arg6 harg6 arg7 harg7 arg8 harg8 arg9 harg9 hc0 hc1 x1 x2 x3 x4 s8 s9).2.2.2.1)
  sq := viaSq1.read (Elt F) (viaSq1.writes (Elt F) viaSq1.junk (runLast1 c i arg1 harg1 arg2 harg2 arg3 harg3 arg4 harg4 arg5 harg5 arg6 harg6 arg7 harg7 arg8 harg8 arg9 harg9 hc0 hc1 x1 x2 x3 x4 s8 s9).2.2.2.2.1)

end Cert.KernelIdeal.Hand

end
-- ==== Proof.Ideal.Stats1Acc.lean ====
/-
  The combine-and-statistics call of layer one, point by point. What the five buffers hold after the body at
  each grid point: the first point's run from the point's input blocks; at a later point the middle or the last
  run from the input blocks and from the column sums the point before left. The call's invariant carries the
  two accumulators at those sums from one point to the next; the body obligation follows at every point.
-/
import proofs.«169495_j53601191854606_1_alg».proof.Proof.Ideal.Stats1Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tenPoints1 : cfg1.N = 10 := N_1

/-- THE ACCUMULATION: the five buffers after the body at position n. -/
def after1 (c : Dev nD) : (n : ℕ) → n < cfg1.N → After1 F
  | 0, hn => first1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) sumBuf1 (Memref.isWhole_whole _) sqBuf1 (Memref.isWhole_whole _)
      ((atFirst1_iff ⟨0, hn⟩).mpr (Nat.zero_mod _))
      (fun h => by have h9 := (atLast1_iff ⟨0, hn⟩).mp h; (try dsimp only at h9); omega) (blk1 V c 0 ⟨0, hn⟩) (blk1 V c 1 ⟨0, hn⟩) (blk1 V c 2 ⟨0, hn⟩) (blk1 V c 3 ⟨0, hn⟩)
  | n + 1, hn =>
    if h1 : (n + 1) % 10 = 9 then
      last1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) sumBuf1 (Memref.isWhole_whole _) sqBuf1 (Memref.isWhole_whole _)
        (fun h => by have h0 := (atFirst1_iff ⟨n + 1, hn⟩).mp h; have hN : n + 1 < 10 := lt_of_lt_of_eq hn tenPoints1; (try dsimp only at h0); omega)
        ((atLast1_iff ⟨n + 1, hn⟩).mpr h1) (blk1 V c 0 ⟨n + 1, hn⟩) (blk1 V c 1 ⟨n + 1, hn⟩) (blk1 V c 2 ⟨n + 1, hn⟩) (blk1 V c 3 ⟨n + 1, hn⟩)
        (after1 c n (Nat.lt_of_succ_lt hn)).sum (after1 c n (Nat.lt_of_succ_lt hn)).sq
    else
      mid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) sumBuf1 (Memref.isWhole_whole _) sqBuf1 (Memref.isWhole_whole _)
        (fun h => by have h0 := (atFirst1_iff ⟨n + 1, hn⟩).mp h; have hN : n + 1 < 10 := lt_of_lt_of_eq hn tenPoints1; (try dsimp only at h0); omega)
        (fun h => h1 ((atLast1_iff ⟨n + 1, hn⟩).mp h)) (blk1 V c 0 ⟨n + 1, hn⟩) (blk1 V c 1 ⟨n + 1, hn⟩) (blk1 V c 2 ⟨n + 1, hn⟩) (blk1 V c 3 ⟨n + 1, hn⟩)
        (after1 c n (Nat.lt_of_succ_lt hn)).sum (after1 c n (Nat.lt_of_succ_lt hn)).sq

theorem after1_first (c : Dev nD) (t : Fin cfg1.N) (h0 : t.val % 10 = 0) (h1 : ¬t.val % 10 = 9) :
    after1 V c t.val t.isLt = first1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sumBuf1 (Memref.isWhole_whole _) sqBuf1 (Memref.isWhole_whole _) ((atFirst1_iff t).mpr h0) (fun h => h1 ((atLast1_iff t).mp h)) (blk1 V c 0 t) (blk1 V c 1 t) (blk1 V c 2 t) (blk1 V c 3 t) := by
  obtain ⟨n, hn⟩ := t
  cases n with
  | zero => exact rfl
  | succ n => exfalso; have hN : n + 1 < 10 := lt_of_lt_of_eq hn tenPoints1; (try dsimp only at h0); omega

theorem after1_mid (c : Dev nD) (t : Fin cfg1.N) (h0 : ¬t.val % 10 = 0) (h1 : ¬t.val % 10 = 9) :
    after1 V c t.val t.isLt = mid1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sumBuf1 (Memref.isWhole_whole _) sqBuf1 (Memref.isWhole_whole _) (fun h => h0 ((atFirst1_iff t).mp h)) (fun h => h1 ((atLast1_iff t).mp h)) (blk1 V c 0 t) (blk1 V c 1 t) (blk1 V c 2 t) (blk1 V c 3 t)
      (after1 V c (t.val - 1) (Nat.lt_of_le_of_lt (Nat.sub_le _ _) t.isLt)).sum (after1 V c (t.val - 1) (Nat.lt_of_le_of_lt (Nat.sub_le _ _) t.isLt)).sq := by
  obtain ⟨n, hn⟩ := t
  cases n with
  | zero => exact (by exfalso; (try dsimp only at h0); exact absurd (Nat.zero_mod _) h0)
  | succ n => exact (dif_neg h1).trans rfl

theorem after1_last (c : Dev nD) (t : Fin cfg1.N) (h0 : ¬t.val % 10 = 0) (h1 : t.val % 10 = 9) :
    after1 V c t.val t.isLt = last1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sumBuf1 (Memref.isWhole_whole _) sqBuf1 (Memref.isWhole_whole _) (fun h => h0 ((atFirst1_iff t).mp h)) ((atLast1_iff t).mpr h1) (blk1 V c 0 t) (blk1 V c 1 t) (blk1 V c 2 t) (blk1 V c 3 t)
      (after1 V c (t.val - 1) (Nat.lt_of_le_of_lt (Nat.sub_le _ _) t.isLt)).sum (after1 V c (t.val - 1) (Nat.lt_of_le_of_lt (Nat.sub_le _ _) t.isLt)).sq := by
  obtain ⟨n, hn⟩ := t
  cases n with
  | zero => exact (by exfalso; (try dsimp only at h0); exact absurd (Nat.zero_mod _) h0)
  | succ n => exact (dif_pos h1).trans rfl

/-- The call's invariant before position n: the resting one before the first point; afterwards the accumulators at
    the sums the point before left, every other scoped buffer unopened, the generator register at some state. -/
def carry1 (c : Dev nD) : (n : ℕ) → n ≤ cfg1.N → sProp 𝕄
  | 0, _ => Pipeline.ΦA spec1 c
  | n + 1, hn => iprop(iprop(iprop(owns (c : Thread nD τ) sumBuf1 fullShare (after1 V c n hn).sum ∗ owns (c : Thread nD τ) sqBuf1 fullShare (after1 V c n hn).sq)
      ∗ Pipeline.scopedRestBut (Ix := Unit) (Name := ℕ) (U := UR sig nD τ) (Lvl := ℕ) (Val := Elt F) spec1 c [cc1_scratch0, cc1_scratch1]) ∗ (∃ r, prngReg c r))

theorem carry1_zero (c : Dev nD) (n : ℕ) (h : n ≤ cfg1.N) (hz : n = 0) : carry1 V c n h = Pipeline.ΦA spec1 c := by
  subst hz; rfl

theorem carry1_succ (c : Dev nD) (n : ℕ) (hn : n < cfg1.N) :
    carry1 V c (n + 1) hn = iprop(iprop(iprop(owns (c : Thread nD τ) sumBuf1 fullShare (after1 V c n hn).sum ∗ owns (c : Thread nD τ) sqBuf1 fullShare (after1 V c n hn).sq)
      ∗ Pipeline.scopedRestBut (Ix := Unit) (Name := ℕ) (U := UR sig nD τ) (Lvl := ℕ) (Val := Elt F) spec1 c [cc1_scratch0, cc1_scratch1]) ∗ (∃ r, prngReg c r)) := rfl

theorem carry1_pos (c : Dev nD) (n : ℕ) (h : n ≤ cfg1.N) (hz : n ≠ 0) :
    carry1 V c n h = iprop(iprop(iprop(owns (c : Thread nD τ) sumBuf1 fullShare (after1 V c (n - 1) (by omega)).sum ∗ owns (c : Thread nD τ) sqBuf1 fullShare (after1 V c (n - 1) (by omega)).sq)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-- The proof data of the call: arrays as found; after the body each input buffer at its block, the three output
    buffers at the accumulation's components; the invariant the carried one; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => (after1 V c t.val t.isLt).pre
    | ⟨5, _⟩ => (after1 V c t.val t.isLt).mean
    | ⟨6, _⟩ => (after1 V c t.val t.isLt).var
  Φ t := carry1 V c t.val (Nat.le_of_lt_succ t.isLt)
  q _ := fullShare
  owed _ := 0

theorem dat1_A (c : Dev nD) (w : Fin cfg1.W) : (dat1 V c).A w = V c (Pipeline.arrRef spec1 w) := by
  dsimp only [dat1]

theorem dat1_carry (c : Dev nD) (t : Fin cfg1.N) :
    (dat1 V c).Φ t.castSucc = carry1 V c t.val (Nat.le_of_lt t.isLt) := by
  dsimp only [dat1]; simp only [Fin.coe_castSucc]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = blk1 V c 3 t := by dsimp only [dat1]
theorem dat1_after_4 (c : Dev nD) (t : Fin cfg1.N) : (dat1 V c).after 4 t = (after1 V c t.val t.isLt).pre := by dsimp only [dat1]
theorem dat1_after_5 (c : Dev nD) (t : Fin cfg1.N) : (dat1 V c).after 5 t = (after1 V c t.val t.isLt).mean := by dsimp only [dat1]
theorem dat1_after_6 (c : Dev nD) (t : Fin cfg1.N) : (dat1 V c).after 6 t = (after1 V c t.val t.isLt).var := by dsimp only [dat1]

theorem dat1_before_0 (c : Dev nD) (t : Fin cfg1.N) (d) : (dat1 V c).before 0 t d = blk1 V c 0 t :=
  before1_0_of V (dat1 V c) (dat1_A V c 0) (dat1_after_0 V c) t d
theorem dat1_before_1 (c : Dev nD) (t : Fin cfg1.N) (d) : (dat1 V c).before 1 t d = blk1 V c 1 t :=
  before1_1_of V (dat1 V c) (dat1_A V c 1) (dat1_after_1 V c) t d
theorem dat1_before_2 (c : Dev nD) (t : Fin cfg1.N) (d) : (dat1 V c).before 2 t d = blk1 V c 2 t :=
  before1_2_of V (dat1 V c) (dat1_A V c 2) (dat1_after_2 V c) t d
theorem dat1_before_3 (c : Dev nD) (t : Fin cfg1.N) (d) : (dat1 V c).before 3 t d = blk1 V c 3 t :=
  before1_3_of V (dat1 V c) (dat1_A V c 3) (dat1_after_3 V c) t d

end Cert.KernelIdeal.Hand

end
-- ==== Proof.Ideal.Stats1Body.lean ====
/-
  The combine-and-statistics call of layer one: the body obligation. At a generic grid point the body is entered
  with the carried invariant, nothing owed, and each window's current staging buffer (an input's at its block); it
  leaves the invariant of the next position — the accumulators at this point's sums —, each input buffer as it was,
  the combined block stored, and the mean and variance buffers stored at the last point and handed back untouched
  elsewhere. Three cases by the point's position: first, middle, last.
-/
import proofs.«169495_j53601191854606_1_alg».proof.Proof.Ideal.Stats1Acc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def enter1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def leave1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
theorem sound_point1 (c : Dev nD) (t : Fin cfg1.N) :
    enter1 V c t ⊢ wp frame (wpE (defs₀ (F := F)) Variants.none c none) Set.univ (bodyAt1 t) (fun _ => leave1 V c t) := by
  unfold enter1 leave1 bodyAt1
  simp only [dat1_before_0, dat1_before_1, dat1_before_2, dat1_before_3]
  rw [show (dat1 V c).owesAt () t.succ = (dat1 V c).owesAt () t.castSucc from rfl]
  rw [show (dat1 V c).Φ t.succ = carry1 V c (t.val + 1) t.isLt from rfl, carry1_succ]
  have hN : t.val < 10 := lt_of_lt_of_eq t.isLt tenPoints1
  rw [show (dat1 V c).leavesExact 0 t = owns (c : Thread nD τ) (ms1_0 t) fullShare ((dat1 V c).after 0 t) from by
    unfold Dat.leavesExact; rw [live1_0 t], dat1_after_0]
  rw [show (dat1 V c).leavesExact 1 t = owns (c : Thread nD τ) (ms1_1 t) fullShare ((dat1 V c).after 1 t) from by
    unfold Dat.leavesExact; rw [live1_1 t], dat1_after_1]
  rw [show (dat1 V c).leavesExact 2 t = owns (c : Thread nD τ) (ms1_2 t) fullShare ((dat1 V c).after 2 t) from by
    unfold Dat.leavesExact; rw [live1_2 t], dat1_after_2]
  rw [show (dat1 V c).leavesExact 3 t = owns (c : Thread nD τ) (ms1_3 t) fullShare ((dat1 V c).after 3 t) from by
    unfold Dat.leavesExact; rw [live1_3 t], dat1_after_3]
  rw [show (dat1 V c).leavesExact 4 t = owns (c : Thread nD τ) (ms1_4 t) fullShare ((dat1 V c).after 4 t) from by
    unfold Dat.leavesExact; rw [live1_4 t], dat1_after_4]
  by_cases h0 : t.val % 10 = 0
  · -- the first point
    have h1 : ¬t.val % 10 = 9 := by omega
    have hz : t.val = 0 := by omega
    rw [Dat.leavesExact_idle (dat1 V c) 5 t (idle1_5 t (fun h => h1 ((atLast1_iff t).mp h))) (keep1_5 t (fun h => h1 ((atLast1_iff t).mp h)))]
    rw [Dat.leavesExact_idle (dat1 V c) 6 t (idle1_6 t (fun h => h1 ((atLast1_iff t).mp h))) (keep1_6 t (fun h => h1 ((atLast1_iff t).mp h)))]
    rw [after1_first V c t h0 h1]
    unfold first1; (try dsimp only)
    rw [dat1_carry V c t, carry1_zero V c _ _ hz, rest1_eq]
    iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runFirst1 c (grid1.coords t) _ _ _ _ _ _ _ _ _ _ _ _ _ _ _ _ _ _ ((atFirst1_iff t).mpr h0) (fun h => h1 ((atLast1_iff t).mp h)) (blk1 V c 0 t) (blk1 V c 1 t) (blk1 V c 2 t) (blk1 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, ⟨%e4, H4⟩, H5, H6, ⟨%e8, HS8⟩, ⟨%e9, HS9⟩⟩
    isplitl [HS8 HS9 HR Hg]
    · isplitl [HS8 HS9 HR]
      · isplitl [HS8 HS9]
        · isplitl [HS8]
          · unfold owns; iexists _; isplitr
            swap; · iexact HS8
            ipureintro; exact View.read_writes_of_cover _ _ _ _ _ (cover_first_sum c _ _ _ _ _ _ _ _ _ _ _ _ _ _ _ _ _ _ _ _ _ _ _ _ _)
          · unfold owns; iexists _; isplitr
            swap; · iexact HS9
            ipureintro; exact View.read_writes_of_cover _ _ _ _ _ (cover_first_sq c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_first_pre c _ _ _ _ _ _ _ _ _ _ _ _ _ _ _ _ _ _ _ _ _ _ _ _ _)
    isplitl [H5]; · iexists _; iexact H5
    iexists _; iexact H6
  · have hz : t.val ≠ 0 := by omega
    by_cases h1 : t.val % 10 = 9
    · -- the last point
      rw [show (dat1 V c).leavesExact 5 t = owns (c : Thread nD τ) (ms1_5 t) fullShare ((dat1 V c).after 5 t) from by
        unfold Dat.leavesExact; rw [last1_5 t ((atLast1_iff t).mpr h1)], dat1_after_5]
      rw [show (dat1 V c).leavesExact 6 t = owns (c : Thread nD τ) (ms1_6 t) fullShare ((dat1 V c).after 6 t) from by
        unfold Dat.leavesExact; rw [last1_6 t ((atLast1_iff t).mpr h1)], dat1_after_6]
      rw [after1_last V c t h0 h1]
      unfold last1; (try dsimp only)
      rw [dat1_carry V c t, carry1_pos V c _ _ hz]
      iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast1 c (grid1.coords t) _ _ _ _ _ _ _ _ _ _ _ _ _ _ _ _ _ _ (fun h => h0 ((atFirst1_iff t).mp h)) ((atLast1_iff t).mpr h1) (blk1 V c 0 t) (blk1 V c 1 t) (blk1 V c 2 t) (blk1 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, ⟨%e4, H4⟩, ⟨%e5, H5⟩, ⟨%e6, H6⟩, ⟨%e8, HS8⟩, ⟨%e9, HS9⟩⟩
      isplitl [HS8 HS9 HR Hg]
      · isplitl [HS8 HS9 HR]
        · isplitl [HS8 HS9]
          · isplitl [HS8]
            · unfold owns; iexists _; isplitr
              swap; · iexact HS8
              ipureintro; exact View.read_writes_of_cover _ _ _ _ _ (cover_last_sum c _ _ _ _ _ _ _ _ _ _ _ _ _ _ _ _ _ _ _ _ _ _ _ _ _ _ _)
            · unfold owns; iexists _; isplitr
              swap; · iexact HS9
              ipureintro; exact View.read_writes_of_cover _ _ _ _ _ (cover_last_sq c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_last_pre c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover_last_mean c _ _ _ _ _ _ _ _ _ _ _ _ _ _ _ _ _ _ _ _ _ _ _ _ _ _ _)
      unfold owns; iexists _; isplitr
      swap; · iexact H6
      ipureintro; exact View.read_writes_of_cover _ _ _ _ _ (cover_last_var c _ _ _ _ _ _ _ _ _ _ _ _ _ _ _ _ _ _ _ _ _ _ _ _ _ _ _)
    · -- a middle point
      rw [Dat.leavesExact_idle (dat1 V c) 5 t (idle1_5 t (fun h => h1 ((atLast1_iff t).mp h))) (keep1_5 t (fun h => h1 ((atLast1_iff t).mp h)))]
      rw [Dat.leavesExact_idle (dat1 V c) 6 t (idle1_6 t (fun h => h1 ((atLast1_iff t).mp h))) (keep1_6 t (fun h => h1 ((atLast1_iff t).mp h)))]
      rw [after1_mid V c t h0 h1]
      unfold mid1; (try dsimp only)
      rw [dat1_carry V c t, carry1_pos V c _ _ hz]
      iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid1 c (grid1.coords t) _ _ _ _ _ _ _ _ _ _ _ _ _ _ _ _ _ _ (fun h => h0 ((atFirst1_iff t).mp h)) (fun h => h1 ((atLast1_iff t).mp h)) (blk1 V c 0 t) (blk1 V c 1 t) (blk1 V c 2 t) (blk1 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, ⟨%e4, H4⟩, H5, H6, ⟨%e8, HS8⟩, ⟨%e9, HS9⟩⟩
      isplitl [HS8 HS9 HR Hg]
      · isplitl [HS8 HS9 HR]
        · isplitl [HS8 HS9]
          · isplitl [HS8]
            · unfold owns; iexists _; isplitr
              swap; · iexact HS8
              ipureintro; exact View.read_writes_of_cover _ _ _ _ _ (cover_mid_sum c _ _ _ _ _ _ _ _ _ _ _ _ _ _ _ _ _ _ _ _ _ _ _ _ _ _ _)
            · unfold owns; iexists _; isplitr
              swap; · iexact HS9
              ipureintro; exact View.read_writes_of_cover _ _ _ _ _ (cover_mid_sq c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_mid_pre c _ _ _ _ _ _ _ _ _ _ _ _ _ _ _ _ _ _ _ _ _ _ _ _ _ _ _)
      isplitl [H5]; · iexists _; iexact H5
      iexists _; iexact H6

theorem obligation1 (c : Dev nD) : BodyObligation (dat1 (F := F) V c) (defs₀ (F := F)) Variants.none () Set.univ := fun t => by
  rw [bigSep_W1, bigSep_W1]
  exact sound_point1 V c t

/-- What the launch hands the call is the invariant before the first point, -/
theorem carry1_in (c : Dev nD) : Pipeline.ΦA spec1 c ⊢ (dat1 V c).Φ 0 := by
  rw [show (dat1 V c).Φ 0 = carry1 V c 0 (Nat.zero_le _) from rfl, carry1_zero V c 0 _ rfl]
  try exact Idealize.SL.BI.Entails.refl _

/-- and after the last point the invariant gives the resting one back, the sums forgotten. -/
theorem carry1_out (c : Dev nD) : (dat1 V c).Φ (Fin.last cfg1.N) ⊢ Pipeline.ΦA spec1 c := by
  rw [show (dat1 V c).Φ (Fin.last cfg1.N) = carry1 V c (Fin.last cfg1.N).val (Nat.le_of_lt_succ (Fin.last cfg1.N).isLt) from rfl,
    carry1_pos V c _ _ (by rw [Fin.val_last]; have : cfg1.N = 10 := tenPoints1; omega), rest1_eq]
  iintro ⟨⟨⟨HS8, HS9⟩, HR⟩, Hg⟩
  isplitl [HS8 HS9 HR]
  · isplitl [HS8 HS9]
    · isplitl [HS8]
      · iexists _; iexact HS8
      iexists _; iexact HS9
    iexact HR
  iexact Hg

end Cert.KernelIdeal.Hand

end
-- ==== Proof.Ideal.Act2.lean ====
/-
  The normalisation and rectifier of layer one (pallas_call 2 of the idealized kernel) on ten blocks of 5000 rows of
  width 128: each grid point reads its block of pre (window 0) and the one-row mean, variance, scale and shift
  (windows 1 to 4, the same block at every point, fetched once) and stores g · ((pre − mean) · rsqrt(var + eps)) + be
  passed through the exponential linear unit into window 5. At a parameter V and any float instance: what the body
  leaves, its triple, the proof data and the body obligation at every point.
-/
import proofs.«169495_j53601191854606_1_alg».proof.Proof.Gen.KernelIdeal.Launch
import proofs.«169495_j53601191854606_1_alg».proof.Proof.Gen.KernelIdeal.Skeleton
import proofs.«169495_j53601191854606_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's block sits in its current staging buffer at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-- The output buffer after the body, from the loaded input blocks: one store through the whole block. -/
def act2 (x0 : Vec F S5000x128 .f32) (x1 : Vec F S1x128 .f32) (x2 : Vec F S1x128 .f32) (x3 : Vec F S1x128 .f32) (x4 : Vec F S1x128 .f32) : Vec F S5000x128 .f32 :=
  View.canon [⟨Rect.unit (s := S5000x128) ![0, 0] S5000x128.size inb_S5000x128_S5000x128_0_0, k2_pay1 (View.ld x0 (Rect.unit (s := S5000x128) ![0, 0] S5000x128.size inb_S5000x128_S5000x128_0_0)) (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

theorem cover_act2 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 1000000 in
/-- The body on whole staging buffers: inputs kept, the output stored. -/
theorem sound_act2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (act2 x0 x1 x2 x3 x4)) -∗ K ⟨⟩))
      ⊢ wp frame (wpE (defs₀ (F := F)) Variants.none c none) E (cc2__norm_elu_kernel i arg1 harg1 arg2 harg2 arg3 harg3 arg4 harg4 arg5 harg5 arg6 harg6) K := by
  simp only [cc2__norm_elu_kernel_eq_skeleton]; unfold cc2__norm_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover_act2 _)

/-- The proof data of the call: arrays as found; after the body each input buffer still at its block, the output
    buffer at what the body stores; nothing carried, nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => act2 (blk2 V c 0 t) (blk2 V c 1 t) (blk2 V c 2 t) (blk2 V c 3 t) (blk2 V c 4 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) : (dat2 V c).after 3 t = blk2 V c 3 t := by dsimp only [dat2]
theorem dat2_after_4 (c : Dev nD) (t : Fin cfg2.N) : (dat2 V c).after 4 t = blk2 V c 4 t := by dsimp only [dat2]
theorem dat2_after_5 (c : Dev nD) (t : Fin cfg2.N) :
    (dat2 V c).after 5 t = act2 (blk2 V c 0 t) (blk2 V c 1 t) (blk2 V c 2 t) (blk2 V c 3 t) (blk2 V c 4 t) := by dsimp only [dat2]

theorem dat2_before_0 (c : Dev nD) (t : Fin cfg2.N) (d) : (dat2 V c).before 0 t d = blk2 V c 0 t :=
  before2_0_of V (dat2 V c) (dat2_A V c 0) (dat2_after_0 V c) t d
theorem dat2_before_1 (c : Dev nD) (t : Fin cfg2.N) (d) : (dat2 V c).before 1 t d = blk2 V c 1 t :=
  before2_1_of V (dat2 V c) (dat2_A V c 1) (dat2_after_1 V c) t d
theorem dat2_before_2 (c : Dev nD) (t : Fin cfg2.N) (d) : (dat2 V c).before 2 t d = blk2 V c 2 t :=
  before2_2_of V (dat2 V c) (dat2_A V c 2) (dat2_after_2 V c) t d
theorem dat2_before_3 (c : Dev nD) (t : Fin cfg2.N) (d) : (dat2 V c).before 3 t d = blk2 V c 3 t :=
  before2_3_of V (dat2 V c) (dat2_A V c 3) (dat2_after_3 V c) t d
theorem dat2_before_4 (c : Dev nD) (t : Fin cfg2.N) (d) : (dat2 V c).before 4 t d = blk2 V c 4 t :=
  before2_4_of V (dat2 V c) (dat2_A V c 4) (dat2_after_4 V c) t d

def enter2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def leave2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_point2 (c : Dev nD) (t : Fin cfg2.N) :
    enter2 V c t ⊢ wp frame (wpE (defs₀ (F := F)) Variants.none c none) Set.univ (bodyAt2 t) (fun _ => leave2 V c t) := by
  unfold enter2 leave2 bodyAt2
  simp only [dat2_before_0, dat2_before_1, dat2_before_2, dat2_before_3, dat2_before_4]
  rw [show (dat2 V c).Φ t.succ = (dat2 V c).Φ t.castSucc from rfl,
    show (dat2 V c).owesAt () t.succ = (dat2 V c).owesAt () t.castSucc from rfl,
    dat2_after_0, dat2_after_1, dat2_after_2, dat2_after_3, dat2_after_4, dat2_after_5]
  iintro ⟨HΦ, Ho, ⟨%d0, H0⟩, ⟨%d1, H1⟩, ⟨%d2, H2⟩, ⟨%d3, H3⟩, ⟨%d4, H4⟩, ⟨%d5, H5⟩⟩
  iapply (sound_act2 c Set.univ _ _ _ _ _ _ _ _ _ _ _ _ _ (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem obligation2 (c : Dev nD) : BodyObligation (dat2 (F := F) V c) (defs₀ (F := F)) Variants.none () Set.univ := fun t => by
  rw [bigSep_W2, bigSep_W2]
  exact sound_point2 V c t

end Cert.KernelIdeal.Hand

end
-- ==== Proof.Ideal.Product3.lean ====
/-
  The feature product of layer two (pallas_call 3 of the idealized kernel): h = x · W on ten blocks of 5000
  rows. Each grid point reads its block of x (window 0) and the whole weight matrix (window 1, 128 by 128, the same
  block at every point, fetched once) and stores the block's product into window 2. At a parameter V — the buffer
  contents when the call is entered — and any float instance: what the body leaves, its triple, the proof data and
  the body obligation at every point.
-/
import proofs.«169495_j53601191854606_1_alg».proof.Proof.Gen.KernelIdeal.Launch
import proofs.«169495_j53601191854606_1_alg».proof.Proof.Gen.KernelIdeal.Skeleton
import proofs.«169495_j53601191854606_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input's block sits in its current staging buffer at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The output buffer after the body, from the loaded input blocks: one store through the whole block. -/
def prod3 (x0 : Vec F S5000x128 .f32) (x1 : Vec F S128x128 .f32) : Vec F S5000x128 .f32 :=
  View.canon [⟨Rect.unit (s := S5000x128) ![0, 0] S5000x128.size inb_S5000x128_S5000x128_0_0, k3_pay1 (View.ld x0 (Rect.unit (s := S5000x128) ![0, 0] S5000x128.size inb_S5000x128_S5000x128_0_0)) (View.ld x1 (Rect.unit (s := S128x128) ![0, 0] S128x128.size inb_S128x128_S128x128_0_0))⟩]

theorem cover_prod3 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 1000000 in
/-- The body on whole staging buffers: inputs kept, the output stored. -/
theorem sound_prod3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod3 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover_prod3 _)

/-- The proof data of the call: arrays as found; after the body each input buffer still at its block, the output
    buffer at what the body stores; nothing carried, nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => prod3 (blk3 V c 0 t) (blk3 V c 1 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after_0 (c : Dev nD) (t : Fin cfg3.N) : (dat3 V c).after 0 t = blk3 V c 0 t := by dsimp only [dat3]
theorem dat3_after_1 (c : Dev nD) (t : Fin cfg3.N) : (dat3 V c).after 1 t = blk3 V c 1 t := by dsimp only [dat3]
theorem dat3_after_2 (c : Dev nD) (t : Fin cfg3.N) :
    (dat3 V c).after 2 t = prod3 (blk3 V c 0 t) (blk3 V c 1 t) := by dsimp only [dat3]

theorem dat3_before_0 (c : Dev nD) (t : Fin cfg3.N) (d) : (dat3 V c).before 0 t d = blk3 V c 0 t :=
  before3_0_of V (dat3 V c) (dat3_A V c 0) (dat3_after_0 V c) t d
theorem dat3_before_1 (c : Dev nD) (t : Fin cfg3.N) (d) : (dat3 V c).before 1 t d = blk3 V c 1 t :=
  before3_1_of V (dat3 V c) (dat3_A V c 1) (dat3_after_1 V c) t d

def enter3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def leave3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_point3 (c : Dev nD) (t : Fin cfg3.N) :
    enter3 V c t ⊢ wp frame (wpE (defs₀ (F := F)) Variants.none c none) Set.univ (bodyAt3 t) (fun _ => leave3 V c t) := by
  unfold enter3 leave3 bodyAt3
  simp only [dat3_before_0, dat3_before_1]
  rw [show (dat3 V c).Φ t.succ = (dat3 V c).Φ t.castSucc from rfl,
    show (dat3 V c).owesAt () t.succ = (dat3 V c).owesAt () t.castSucc from rfl,
    dat3_after_0, dat3_after_1, dat3_after_2]
  iintro ⟨HΦ, Ho, ⟨%d0, H0⟩, ⟨%d1, H1⟩, ⟨%d2, H2⟩⟩
  iapply (sound_prod3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation3 (c : Dev nD) : BodyObligation (dat3 (F := F) V c) (defs₀ (F := F)) Variants.none () Set.univ := fun t => by
  rw [bigSep_W3, bigSep_W3]
  exact sound_point3 V c t

end Cert.KernelIdeal.Hand

end
-- ==== Proof.Ideal.Stats4Base.lean ====
/-
  The fifth pallas_call of the idealized kernel, layer two: pre = agg + h · dis² + b on ten blocks of 5000 rows,
  with the column sums of pre and of pre² accumulated in two one-row scratch buffers that live across the grid
  points: zeroed at the first point, added to at every point, and turned into the batch mean and the one-pass
  variance (stored to windows 5 and 6) at the last point only.
  Here: the two branch conditions in closed form over the grid, where windows 5 and 6 are idle and not written
  back, the scratch buffers as memrefs, and the call's resting invariant opened at the two scratch buffers.
-/
import proofs.«169495_j53601191854606_1_alg».proof.Proof.Gen.KernelIdeal.Launch
import proofs.«169495_j53601191854606_1_alg».proof.Proof.Gen.KernelIdeal.Skeleton
import proofs.«169495_j53601191854606_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body zeroes the accumulators when the grid coordinate is 0, -/
abbrev atFirst4 (i : grid4.Coords) : Prop :=
  (Scalar.cmpi .ne (Scalar.extui (Scalar.cmpi .eq (BitVec.ofNat 32 (i 0).val) 0#32)) 0#32) = 1#1
theorem atFirst4_iff : ∀ t : Fin cfg4.N, atFirst4 (grid4.coords t) ↔ t.val % 10 = 0 :=
  (by decide +kernel : ∀ t : Fin grid4.N, atFirst4 (grid4.coords t) ↔ t.val % 10 = 0)

/-- and stores the statistics when it is 9. -/
abbrev atLast4 (i : grid4.Coords) : Prop := k4_cond2 i = 1#1
theorem atLast4_iff : ∀ t : Fin cfg4.N, atLast4 (grid4.coords t) ↔ t.val % 10 = 9 :=
  (by decide +kernel : ∀ t : Fin grid4.N, atLast4 (grid4.coords t) ↔ t.val % 10 = 9)

/-- The four inputs and the combined block are live at every point. -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
/-- The mean and variance windows are idle, and not written back, away from the last point; live at it. -/
theorem idle4_5 : ∀ t : Fin cfg4.N, ¬atLast4 (grid4.coords t) → cfg4.idle 5 (grid4.coords t) = true := by decide +kernel
theorem idle4_6 : ∀ t : Fin cfg4.N, ¬atLast4 (grid4.coords t) → cfg4.idle 6 (grid4.coords t) = true := by decide +kernel
theorem keep4_5 : ∀ t : Fin cfg4.N, ¬atLast4 (grid4.coords t) → (cfg4.win 5).flush t = false := by decide +kernel
theorem keep4_6 : ∀ t : Fin cfg4.N, ¬atLast4 (grid4.coords t) → (cfg4.win 6).flush t = false := by decide +kernel
theorem last4_5 : ∀ t : Fin cfg4.N, atLast4 (grid4.coords t) → cfg4.idle 5 (grid4.coords t) = false := by decide +kernel
theorem last4_6 : ∀ t : Fin cfg4.N, atLast4 (grid4.coords t) → cfg4.idle 6 (grid4.coords t) = false := by decide +kernel

/-- The two accumulators: whole scoped buffers of the call's own. -/
abbrev sumBuf4 : Memref sig .tc .vmem S1x128 .f32 := Memref.whole cc4_scratch0
abbrev sqBuf4 : Memref sig .tc .vmem S1x128 .f32 := Memref.whole cc4_scratch1

/-- The resting invariant of the call, opened at the accumulators: each at some contents, every other scoped buffer
    unopened, the generator register at some state. -/
theorem rest4_eq (c : Dev nD) :
    (Pipeline.ΦA spec4 c : sProp 𝕄)
      = iprop(iprop(iprop((∃ d, owns (c : Thread nD τ) sumBuf4 fullShare d) ∗ (∃ d, owns (c : Thread nD τ) sqBuf4 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [sumBuf4, sqBuf4, owns_whole]; try rfl

end Cert.KernelIdeal.Hand

end
-- ==== Proof.Ideal.Stats4First.lean ====
/-
  The combine-and-statistics body of layer two at the first grid point: the zeroing branch is taken, the
  statistics branch is not. The accumulators are entered at arbitrary contents (they are stored over before
  they are read); everything else is as at a middle point. The stored pieces are found by the run.
-/
import proofs.«169495_j53601191854606_1_alg».proof.Proof.Ideal.Stats4Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runFirst4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : atFirst4 i) (hc1 : ¬atLast4 i)
    (x1 : Vec F S5000x128 .f32) (x2 : Vec F S5000x128 .f32) (x3 : Vec F S5000x1 .f32) (x4 : Vec F S1x128 .f32) :
    Σ' (L5 : List (View.Piece (Elt F) S5000x128 .f32)), Σ' (L8 : List (View.Piece (Elt F) S1x128 .f32)), { L9 : List (View.Piece (Elt F) S1x128 .f32) //
      ∀ (k6 : Vec F S1x128 .f32) (k7 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ owns (c : Thread nD τ) arg6 fullShare k6 ∗ owns (c : Thread nD τ) arg7 fullShare k7
            ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare k6 ∗ owns (c : Thread nD τ) arg7 fullShare k7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, fun k6 k7 E K => ?run⟩
  case run =>
    simp only [cc4__combine_stats_kernel_eq_skeleton]; unfold cc4__combine_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

end Cert.KernelIdeal.Hand

end
-- ==== Proof.Ideal.Stats4Mid.lean ====
/-
  The combine-and-statistics body of layer two at a grid point that is neither the first nor the last: neither
  branch is taken. On whole staging buffers — the four inputs at their contents, the mean and variance buffers
  at contents handed back untouched, the accumulators at what the point before left — it runs to the end with
  the combined block stored and both accumulators stored over; the stored pieces are found by the run.
-/
import proofs.«169495_j53601191854606_1_alg».proof.Proof.Ideal.Stats4Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runMid4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬atFirst4 i) (hc1 : ¬atLast4 i)
    (x1 : Vec F S5000x128 .f32) (x2 : Vec F S5000x128 .f32) (x3 : Vec F S5000x1 .f32) (x4 : Vec F S1x128 .f32)
    (s8 : Vec F S1x128 .f32) (s9 : Vec F S1x128 .f32) :
    Σ' (L5 : List (View.Piece (Elt F) S5000x128 .f32)), Σ' (L8 : List (View.Piece (Elt F) S1x128 .f32)), { L9 : List (View.Piece (Elt F) S1x128 .f32) //
      ∀ (k6 : Vec F S1x128 .f32) (k7 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ owns (c : Thread nD τ) arg6 fullShare k6 ∗ owns (c : Thread nD τ) arg7 fullShare k7
            ∗ owns (c : Thread nD τ) arg8 fullShare s8 ∗ owns (c : Thread nD τ) arg9 fullShare s9
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare k6 ∗ owns (c : Thread nD τ) arg7 fullShare k7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, fun k6 k7 E K => ?run⟩
  case run =>
    simp only [cc4__combine_stats_kernel_eq_skeleton]; unfold cc4__combine_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

end Cert.KernelIdeal.Hand

end
-- ==== Proof.Ideal.Stats4Last.lean ====
/-
  The combine-and-statistics body of layer two at the last grid point: the zeroing branch is not taken, the
  statistics branch is. The accumulators are entered at what the point before left; the mean and variance
  buffers at arbitrary contents, and are stored over. The stored pieces are found by the run.
-/
import proofs.«169495_j53601191854606_1_alg».proof.Proof.Ideal.Stats4Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runLast4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬atFirst4 i) (hc1 : atLast4 i)
    (x1 : Vec F S5000x128 .f32) (x2 : Vec F S5000x128 .f32) (x3 : Vec F S5000x1 .f32) (x4 : Vec F S1x128 .f32)
    (s8 : Vec F S1x128 .f32) (s9 : Vec F S1x128 .f32) :
    Σ' (L5 : List (View.Piece (Elt F) S5000x128 .f32)), Σ' (L6 : List (View.Piece (Elt F) S1x128 .f32)), Σ' (L7 : List (View.Piece (Elt F) S1x128 .f32)),
      Σ' (L8 : List (View.Piece (Elt F) S1x128 .f32)), { L9 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ (∃ d, owns (c : Thread nD τ) arg6 fullShare d) ∗ (∃ d, owns (c : Thread nD τ) arg7 fullShare d)
            ∗ owns (c : Thread nD τ) arg8 fullShare s8 ∗ owns (c : Thread nD τ) arg9 fullShare s9
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__combine_stats_kernel_eq_skeleton]; unfold cc4__combine_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; iexact H7
    isplitl [H8]
    · iexists _; iexact H8
    iexists _; iexact H9

end Cert.KernelIdeal.Hand

end
-- ==== Proof.Ideal.Stats4Cases.lean ====
/-
  The combine-and-statistics call of layer two, case by case: each window's block at a grid point, the staging
  buffers the body is called on, and what each of the three runs (first point, middle point, last point) leaves
  in the combined-block buffer, the mean and variance buffers and the two accumulators — its stored pieces read
  back, with the fact that they cover the buffer. Stated at a parameter V (the buffer contents when the call is
  entered) and at any float instance.
-/
import proofs.«169495_j53601191854606_1_alg».proof.Proof.Ideal.Stats4First
import proofs.«169495_j53601191854606_1_alg».proof.Proof.Ideal.Stats4Mid
import proofs.«169495_j53601191854606_1_alg».proof.Proof.Ideal.Stats4Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input's block sits in its current staging buffer at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)

/-- Each window's current staging memref at point t, as the pipeline passes it, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S5000x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)

/-- One staging buffer of each output window, through which its contents are stated (which one does not matter
    once the stores cover the block). -/
abbrev viaPre4 : View sig .tc .vmem S5000x128 .f32 := (Memref.whole cc4_stg4_0 : Memref sig .tc .vmem S5000x128 .f32).view
abbrev viaMean4 : View sig .tc .vmem S1x128 .f32 := (Memref.whole cc4_stg5_0 : Memref sig .tc .vmem S1x128 .f32).view
abbrev viaVar4 : View sig .tc .vmem S1x128 .f32 := (Memref.whole cc4_stg6_0 : Memref sig .tc .vmem S1x128 .f32).view
abbrev viaSum4 : View sig .tc .vmem S1x128 .f32 := sumBuf4.view
abbrev viaSq4 : View sig .tc .vmem S1x128 .f32 := sqBuf4.view

/-- What the five buffers hold after a point: the combined block, the mean, the variance, the running column
    sums of pre and of pre². -/
structure After4 (F : FTy → Type) [FloatOps F] where
  pre : Vec F S5000x128 .f32
  mean : Vec F S1x128 .f32
  var : Vec F S1x128 .f32
  sum : Vec F S1x128 .f32
  sq : Vec F S1x128 .f32

theorem cover4_first_pre (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst4 i) (hc1 : ¬atLast4 i) (x1 : Vec F S5000x128 .f32) (x2 : Vec F S5000x128 .f32) (x3 : Vec F S5000x1 .f32) (x4 : Vec F S1x128 .f32) (y : S5000x128.Idx) :
    ∃ pc ∈ (runFirst4 c i arg1 harg1 arg2 harg2 arg3 harg3 arg4 harg4 arg5 harg5 arg6 harg6 arg7 harg7 arg8 harg8 arg9 harg9 hc0 hc1 x1 x2 x3 x4).1, y ∈ pc.1.set :=
  View.cover_of_tiledL (runFirst4 c i arg1 harg1 arg2 harg2 arg3 harg3 arg4 harg4 arg5 harg5 arg6 harg6 arg7 harg7 arg8 harg8 arg9 harg9 hc0 hc1 x1 x2 x3 x4).1 S5000x128.size (by sl_kernel_rfl) y
theorem cover4_first_sum (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst4 i) (hc1 : ¬atLast4 i) (x1 : Vec F S5000x128 .f32) (x2 : Vec F S5000x128 .f32) (x3 : Vec F S5000x1 .f32) (x4 : Vec F S1x128 .f32) (y : S1x128.Idx) :
    ∃ pc ∈ (runFirst4 c i arg1 harg1 arg2 harg2 arg3 harg3 arg4 harg4 arg5 harg5 arg6 harg6 arg7 harg7 arg8 harg8 arg9 harg9 hc0 hc1 x1 x2 x3 x4).2.1, y ∈ pc.1.set :=
  View.cover_of_tiledL (runFirst4 c i arg1 harg1 arg2 harg2 arg3 harg3 arg4 harg4 arg5 harg5 arg6 harg6 arg7 harg7 arg8 harg8 arg9 harg9 hc0 hc1 x1 x2 x3 x4).2.1 S1x128.size (by sl_kernel_rfl) y
theorem cover4_first_sq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst4 i) (hc1 : ¬atLast4 i) (x1 : Vec F S5000x128 .f32) (x2 : Vec F S5000x128 .f32) (x3 : Vec F S5000x1 .f32) (x4 : Vec F S1x128 .f32) (y : S1x128.Idx) :
    ∃ pc ∈ (runFirst4 c i arg1 harg1 arg2 harg2 arg3 harg3 arg4 harg4 arg5 harg5 arg6 harg6 arg7 harg7 arg8 harg8 arg9 harg9 hc0 hc1 x1 x2 x3 x4).2.2.1, y ∈ pc.1.set :=
  View.cover_of_tiledL (runFirst4 c i arg1 harg1 arg2 harg2 arg3 harg3 arg4 harg4 arg5 harg5 arg6 harg6 arg7 harg7 arg8 harg8 arg9 harg9 hc0 hc1 x1 x2 x3 x4).2.2.1 S1x128.size (by sl_kernel_rfl) y
/-- What the first point's run leaves: its stored pieces read back (the mean and variance buffers are not stored: placeholders nothing consults). -/
def first4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst4 i) (hc1 : ¬atLast4 i) (x1 : Vec F S5000x128 .f32) (x2 : Vec F S5000x128 .f32) (x3 : Vec F S5000x1 .f32) (x4 : Vec F S1x128 .f32) : After4 F where
  pre := viaPre4.read (Elt F) (viaPre4.writes (Elt F) viaPre4.junk (runFirst4 c i arg1 harg1 arg2 harg2 arg3 harg3 arg4 harg4 arg5 harg5 arg6 harg6 arg7 harg7 arg8 harg8 arg9 harg9 hc0 hc1 x1 x2 x3 x4).1)
  mean := viaMean4.read (Elt F) viaMean4.junk
  var := viaVar4.read (Elt F) viaVar4.junk
  sum := viaSum4.read (Elt F) (viaSum4.writes (Elt F) viaSum4.junk (runFirst4 c i arg1 harg1 arg2 harg2 arg3 harg3 arg4 harg4 arg5 harg5 arg6 harg6 arg7 harg7 arg8 harg8 arg9 harg9 hc0 hc1 x1 x2 x3 x4).2.1)
  sq := viaSq4.read (Elt F) (viaSq4.writes (Elt F) viaSq4.junk (runFirst4 c i arg1 harg1 arg2 harg2 arg3 harg3 arg4 harg4 arg5 harg5 arg6 harg6 arg7 harg7 arg8 harg8 arg9 harg9 hc0 hc1 x1 x2 x3 x4).2.2.1)

theorem cover4_mid_pre (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : ¬atLast4 i) (x1 : Vec F S5000x128 .f32) (x2 : Vec F S5000x128 .f32) (x3 : Vec F S5000x1 .f32) (x4 : Vec F S1x128 .f32) (s8 : Vec F S1x128 .f32) (s9 : Vec F S1x128 .f32) (y : S5000x128.Idx) :
    ∃ pc ∈ (runMid4 c i arg1 harg1 arg2 harg2 arg3 harg3 arg4 harg4 arg5 harg5 arg6 harg6 arg7 harg7 arg8 harg8 arg9 harg9 hc0 hc1 x1 x2 x3 x4 s8 s9).1, y ∈ pc.1.set :=
  View.cover_of_tiledL (runMid4 c i arg1 harg1 arg2 harg2 arg3 harg3 arg4 harg4 arg5 harg5 arg6 harg6 arg7 harg7 arg8 harg8 arg9 harg9 hc0 hc1 x1 x2 x3 x4 s8 s9).1 S5000x128.size (by sl_kernel_rfl) y
theorem cover4_mid_sum (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : ¬atLast4 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runMid4 c i arg1 harg1 arg2 harg2 arg3 harg3 arg4 harg4 arg5 harg5 arg6 harg6 arg7 harg7 arg8 harg8 arg9 harg9 hc0 hc1 x1 x2 x3 x4 s8 s9).2.1, y ∈ pc.1.set :=
  View.cover_of_tiledL (runMid4 c i arg1 harg1 arg2 harg2 arg3 harg3 arg4 harg4 arg5 harg5 arg6 harg6 arg7 harg7 arg8 harg8 arg9 harg9 hc0 hc1 x1 x2 x3 x4 s8 s9).2.1 S1x128.size (by sl_kernel_rfl) y
theorem cover4_mid_sq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : ¬atLast4 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runMid4 c i arg1 harg1 arg2 harg2 arg3 harg3 arg4 harg4 arg5 harg5 arg6 harg6 arg7 harg7 arg8 harg8 arg9 harg9 hc0 hc1 x1 x2 x3 x4 s8 s9).2.2.1, y ∈ pc.1.set :=
  View.cover_of_tiledL (runMid4 c i arg1 harg1 arg2 harg2 arg3 harg3 arg4 harg4 arg5 harg5 arg6 harg6 arg7 harg7 arg8 harg8 arg9 harg9 hc0 hc1 x1 x2 x3 x4 s8 s9).2.2.1 S1x128.size (by sl_kernel_rfl) y
/-- What the mid point's run leaves: its stored pieces read back (the mean and variance buffers are not stored: placeholders nothing consults). -/
def mid4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : ¬atLast4 i) (x1 : Vec F S5000x128 .f32) (x2 : Vec F S5000x128 .f32) (x3 : Vec F S5000x1 .f32) (x4 : Vec F S1x128 .f32) (s8 : Vec F S1x128 .f32) (s9 : Vec F S1x128 .f32) : After4 F where
  pre := viaPre4.read (Elt F) (viaPre4.writes (Elt F) viaPre4.junk (runMid4 c i arg1 harg1 arg2 harg2 arg3 harg3 arg4 harg4 arg5 harg5 arg6 harg6 arg7 harg7 arg8 harg8 arg9 harg9 hc0 hc1 x1 x2 x3 x4 s8 s9).1)
  mean := viaMean4.read (Elt F) viaMean4.junk
  var := viaVar4.read (Elt F) viaVar4.junk
  sum := viaSum4.read (Elt F) (viaSum4.writes (Elt F) viaSum4.junk (runMid4 c i arg1 harg1 arg2 harg2 arg3 harg3 arg4 harg4 arg5 harg5 arg6 harg6 arg7 harg7 arg8 harg8 arg9 harg9 hc0 hc1 x1 x2 x3 x4 s8 s9).2.1)
  sq := viaSq4.read (Elt F) (viaSq4.writes (Elt F) viaSq4.junk (runMid4 c i arg1 harg1 arg2 harg2 arg3 harg3 arg4 harg4 arg5 harg5 arg6 harg6 arg7 harg7 arg8 harg8 arg9 harg9 hc0 hc1 x1 x2 x3 x4 s8 s9).2.2.1)

theorem cover4_last_pre (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) (y : S5000x128.Idx) :
    ∃ pc ∈ (runLast4 c i arg1 harg1 arg2 harg2 arg3 harg3 arg4 harg4 arg5 harg5 arg6 harg6 arg7 harg7 arg8 harg8 arg9 harg9 hc0 hc1 x1 x2 x3 x4 s8 s9).1, y ∈ pc.1.set :=
  View.cover_of_tiledL (runLast4 c i arg1 harg1 arg2 harg2 arg3 harg3 arg4 harg4 arg5 harg5 arg6 harg6 arg7 harg7 arg8 harg8 arg9 harg9 hc0 hc1 x1 x2 x3 x4 s8 s9).1 S5000x128.size (by sl_kernel_rfl) y
theorem cover4_last_mean (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast4 c i arg1 harg1 arg2 harg2 arg3 harg3 arg4 harg4 arg5 harg5 arg6 harg6 arg7 harg7 arg8 harg8 arg9 harg9 hc0 hc1 x1 x2 x3 x4 s8 s9).2.1, y ∈ pc.1.set :=
  View.cover_of_tiledL (runLast4 c i arg1 harg1 arg2 harg2 arg3 harg3 arg4 harg4 arg5 harg5 arg6 harg6 arg7 harg7 arg8 harg8 arg9 harg9 hc0 hc1 x1 x2 x3 x4 s8 s9).2.1 S1x128.size (by sl_kernel_rfl) y
theorem cover4_last_var (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast4 c i arg1 harg1 arg2 harg2 arg3 harg3 arg4 harg4 arg5 harg5 arg6 harg6 arg7 harg7 arg8 harg8 arg9 harg9 hc0 hc1 x1 x2 x3 x4 s8 s9).2.2.1, y ∈ pc.1.set :=
  View.cover_of_tiledL (runLast4 c i arg1 harg1 arg2 harg2 arg3 harg3 arg4 harg4 arg5 harg5 arg6 harg6 arg7 harg7 arg8 harg8 arg9 harg9 hc0 hc1 x1 x2 x3 x4 s8 s9).2.2.1 S1x128.size (by sl_kernel_rfl) y
theorem cover4_last_sum (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast4 c i arg1 harg1 arg2 harg2 arg3 harg3 arg4 harg4 arg5 harg5 arg6 harg6 arg7 harg7 arg8 harg8 arg9 harg9 hc0 hc1 x1 x2 x3 x4 s8 s9).2.2.2.1, y ∈ pc.1.set :=
  View.cover_of_tiledL (runLast4 c i arg1 harg1 arg2 harg2 arg3 harg3 arg4 harg4 arg5 harg5 arg6 harg6 arg7 harg7 arg8 harg8 arg9 harg9 hc0 hc1 x1 x2 x3 x4 s8 s9).2.2.2.1 S1x128.size (by sl_kernel_rfl) y
theorem cover4_last_sq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) (y : S1x128.Idx) :
    ∃ pc ∈ (runLast4 c i arg1 harg1 arg2 harg2 arg3 harg3 arg4 harg4 arg5 harg5 arg6 harg6 arg7 harg7 arg8 harg8 arg9 harg9 hc0 hc1 x1 x2 x3 x4 s8 s9).2.2.2.2.1, y ∈ pc.1.set :=
  View.cover_of_tiledL (runLast4 c i arg1 harg1 arg2 harg2 arg3 harg3 arg4 harg4 arg5 harg5 arg6 harg6 arg7 harg7 arg8 harg8 arg9 harg9 hc0 hc1 x1 x2 x3 x4 s8 s9).2.2.2.2.1 S1x128.size (by sl_kernel_rfl) y
/-- What the last point's run leaves: its stored pieces read back. -/
def last4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) : After4 F where
  pre := viaPre4.read (Elt F) (viaPre4.writes (Elt F) viaPre4.junk (runLast4 c i arg1 harg1 arg2 harg2 arg3 harg3 arg4 harg4 arg5 harg5 arg6 harg6 arg7 harg7 arg8 harg8 arg9 harg9 hc0 hc1 x1 x2 x3 x4 s8 s9).1)
  mean := viaMean4.read (Elt F) (viaMean4.writes (Elt F) viaMean4.junk (runLast4 c i arg1 harg1 arg2 harg2 arg3 harg3 arg4 harg4 arg5 harg5 arg6 harg6 arg7 harg7 arg8 harg8 arg9 harg9 hc0 hc1 x1 x2 x3 x4 s8 s9).2.1)
  var := viaVar4.read (Elt F) (viaVar4.writes (Elt F) viaVar4.junk (runLast4 c i arg1 harg1 arg2 harg2 arg3 harg3 arg4 harg4 arg5 harg5 arg6 harg6 arg7 harg7 arg8 harg8 arg9 harg9 hc0 hc1 x1 x2 x3 x4 s8 s9).2.2.1)
  sum := viaSum4.read (Elt F) (viaSum4.writes (Elt F) viaSum4.junk (runLast4 c i arg1 harg1 arg2 harg2 arg3 harg3 arg4 harg4 arg5 harg5 arg6 harg6 arg7 harg7 arg8 harg8 arg9 harg9 hc0 hc1 x1 x2 x3 x4 s8 s9).2.2.2.1)
  sq := viaSq4.read (Elt F) (viaSq4.writes (Elt F) viaSq4.junk (runLast4 c i arg1 harg1 arg2 harg2 arg3 harg3 arg4 harg4 arg5 harg5 arg6 harg6 arg7 harg7 arg8 harg8 arg9 harg9 hc0 hc1 x1 x2 x3 x4 s8 s9).2.2.2.2.1)

end Cert.KernelIdeal.Hand

end
-- ==== Proof.Ideal.Stats4Acc.lean ====
/-
  The combine-and-statistics call of layer two, point by point. What the five buffers hold after the body at
  each grid point: the first point's run from the point's input blocks; at a later point the middle or the last
  run from the input blocks and from the column sums the point before left. The call's invariant carries the
  two accumulators at those sums from one point to the next; the body obligation follows at every point.
-/
import proofs.«169495_j53601191854606_1_alg».proof.Proof.Ideal.Stats4Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tenPoints4 : cfg4.N = 10 := N_4

/-- THE ACCUMULATION: the five buffers after the body at position n. -/
def after4 (c : Dev nD) : (n : ℕ) → n < cfg4.N → After4 F
  | 0, hn => first4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) sumBuf4 (Memref.isWhole_whole _) sqBuf4 (Memref.isWhole_whole _)
      ((atFirst4_iff ⟨0, hn⟩).mpr (Nat.zero_mod _))
      (fun h => by have h9 := (atLast4_iff ⟨0, hn⟩).mp h; (try dsimp only at h9); omega) (blk4 V c 0 ⟨0, hn⟩) (blk4 V c 1 ⟨0, hn⟩) (blk4 V c 2 ⟨0, hn⟩) (blk4 V c 3 ⟨0, hn⟩)
  | n + 1, hn =>
    if h1 : (n + 1) % 10 = 9 then
      last4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) sumBuf4 (Memref.isWhole_whole _) sqBuf4 (Memref.isWhole_whole _)
        (fun h => by have h0 := (atFirst4_iff ⟨n + 1, hn⟩).mp h; have hN : n + 1 < 10 := lt_of_lt_of_eq hn tenPoints4; (try dsimp only at h0); omega)
        ((atLast4_iff ⟨n + 1, hn⟩).mpr h1) (blk4 V c 0 ⟨n + 1, hn⟩) (blk4 V c 1 ⟨n + 1, hn⟩) (blk4 V c 2 ⟨n + 1, hn⟩) (blk4 V c 3 ⟨n + 1, hn⟩)
        (after4 c n (Nat.lt_of_succ_lt hn)).sum (after4 c n (Nat.lt_of_succ_lt hn)).sq
    else
      mid4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) sumBuf4 (Memref.isWhole_whole _) sqBuf4 (Memref.isWhole_whole _)
        (fun h => by have h0 := (atFirst4_iff ⟨n + 1, hn⟩).mp h; have hN : n + 1 < 10 := lt_of_lt_of_eq hn tenPoints4; (try dsimp only at h0); omega)
        (fun h => h1 ((atLast4_iff ⟨n + 1, hn⟩).mp h)) (blk4 V c 0 ⟨n + 1, hn⟩) (blk4 V c 1 ⟨n + 1, hn⟩) (blk4 V c 2 ⟨n + 1, hn⟩) (blk4 V c 3 ⟨n + 1, hn⟩)
        (after4 c n (Nat.lt_of_succ_lt hn)).sum (after4 c n (Nat.lt_of_succ_lt hn)).sq

theorem after4_first (c : Dev nD) (t : Fin cfg4.N) (h0 : t.val % 10 = 0) (h1 : ¬t.val % 10 = 9) :
    after4 V c t.val t.isLt = first4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sumBuf4 (Memref.isWhole_whole _) sqBuf4 (Memref.isWhole_whole _) ((atFirst4_iff t).mpr h0) (fun h => h1 ((atLast4_iff t).mp h)) (blk4 V c 0 t) (blk4 V c 1 t) (blk4 V c 2 t) (blk4 V c 3 t) := by
  obtain ⟨n, hn⟩ := t
  cases n with
  | zero => exact rfl
  | succ n => exfalso; have hN : n + 1 < 10 := lt_of_lt_of_eq hn tenPoints4; (try dsimp only at h0); omega

theorem after4_mid (c : Dev nD) (t : Fin cfg4.N) (h0 : ¬t.val % 10 = 0) (h1 : ¬t.val % 10 = 9) :
    after4 V c t.val t.isLt = mid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sumBuf4 (Memref.isWhole_whole _) sqBuf4 (Memref.isWhole_whole _) (fun h => h0 ((atFirst4_iff t).mp h)) (fun h => h1 ((atLast4_iff t).mp h)) (blk4 V c 0 t) (blk4 V c 1 t) (blk4 V c 2 t) (blk4 V c 3 t)
      (after4 V c (t.val - 1) (Nat.lt_of_le_of_lt (Nat.sub_le _ _) t.isLt)).sum (after4 V c (t.val - 1) (Nat.lt_of_le_of_lt (Nat.sub_le _ _) t.isLt)).sq := by
  obtain ⟨n, hn⟩ := t
  cases n with
  | zero => exact (by exfalso; (try dsimp only at h0); exact absurd (Nat.zero_mod _) h0)
  | succ n => exact (dif_neg h1).trans rfl

theorem after4_last (c : Dev nD) (t : Fin cfg4.N) (h0 : ¬t.val % 10 = 0) (h1 : t.val % 10 = 9) :
    after4 V c t.val t.isLt = last4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sumBuf4 (Memref.isWhole_whole _) sqBuf4 (Memref.isWhole_whole _) (fun h => h0 ((atFirst4_iff t).mp h)) ((atLast4_iff t).mpr h1) (blk4 V c 0 t) (blk4 V c 1 t) (blk4 V c 2 t) (blk4 V c 3 t)
      (after4 V c (t.val - 1) (Nat.lt_of_le_of_lt (Nat.sub_le _ _) t.isLt)).sum (after4 V c (t.val - 1) (Nat.lt_of_le_of_lt (Nat.sub_le _ _) t.isLt)).sq := by
  obtain ⟨n, hn⟩ := t
  cases n with
  | zero => exact (by exfalso; (try dsimp only at h0); exact absurd (Nat.zero_mod _) h0)
  | succ n => exact (dif_pos h1).trans rfl

/-- The call's invariant before position n: the resting one before the first point; afterwards the accumulators at
    the sums the point before left, every other scoped buffer unopened, the generator register at some state. -/
def carry4 (c : Dev nD) : (n : ℕ) → n ≤ cfg4.N → sProp 𝕄
  | 0, _ => Pipeline.ΦA spec4 c
  | n + 1, hn => iprop(iprop(iprop(owns (c : Thread nD τ) sumBuf4 fullShare (after4 V c n hn).sum ∗ owns (c : Thread nD τ) sqBuf4 fullShare (after4 V c n hn).sq)
      ∗ Pipeline.scopedRestBut (Ix := Unit) (Name := ℕ) (U := UR sig nD τ) (Lvl := ℕ) (Val := Elt F) spec4 c [cc4_scratch0, cc4_scratch1]) ∗ (∃ r, prngReg c r))

theorem carry4_zero (c : Dev nD) (n : ℕ) (h : n ≤ cfg4.N) (hz : n = 0) : carry4 V c n h = Pipeline.ΦA spec4 c := by
  subst hz; rfl

theorem carry4_succ (c : Dev nD) (n : ℕ) (hn : n < cfg4.N) :
    carry4 V c (n + 1) hn = iprop(iprop(iprop(owns (c : Thread nD τ) sumBuf4 fullShare (after4 V c n hn).sum ∗ owns (c : Thread nD τ) sqBuf4 fullShare (after4 V c n hn).sq)
      ∗ Pipeline.scopedRestBut (Ix := Unit) (Name := ℕ) (U := UR sig nD τ) (Lvl := ℕ) (Val := Elt F) spec4 c [cc4_scratch0, cc4_scratch1]) ∗ (∃ r, prngReg c r)) := rfl

theorem carry4_pos (c : Dev nD) (n : ℕ) (h : n ≤ cfg4.N) (hz : n ≠ 0) :
    carry4 V c n h = iprop(iprop(iprop(owns (c : Thread nD τ) sumBuf4 fullShare (after4 V c (n - 1) (by omega)).sum ∗ owns (c : Thread nD τ) sqBuf4 fullShare (after4 V c (n - 1) (by omega)).sq)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The proof data of the call: arrays as found; after the body each input buffer at its block, the three output
    buffers at the accumulation's components; the invariant the carried one; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => (after4 V c t.val t.isLt).pre
    | ⟨5, _⟩ => (after4 V c t.val t.isLt).mean
    | ⟨6, _⟩ => (after4 V c t.val t.isLt).var
  Φ t := carry4 V c t.val (Nat.le_of_lt_succ t.isLt)
  q _ := fullShare
  owed _ := 0

theorem dat4_A (c : Dev nD) (w : Fin cfg4.W) : (dat4 V c).A w = V c (Pipeline.arrRef spec4 w) := by
  dsimp only [dat4]

theorem dat4_carry (c : Dev nD) (t : Fin cfg4.N) :
    (dat4 V c).Φ t.castSucc = carry4 V c t.val (Nat.le_of_lt t.isLt) := by
  dsimp only [dat4]; simp only [Fin.coe_castSucc]

theorem dat4_after_0 (c : Dev nD) (t : Fin cfg4.N) : (dat4 V c).after 0 t = blk4 V c 0 t := by dsimp only [dat4]
theorem dat4_after_1 (c : Dev nD) (t : Fin cfg4.N) : (dat4 V c).after 1 t = blk4 V c 1 t := by dsimp only [dat4]
theorem dat4_after_2 (c : Dev nD) (t : Fin cfg4.N) : (dat4 V c).after 2 t = blk4 V c 2 t := by dsimp only [dat4]
theorem dat4_after_3 (c : Dev nD) (t : Fin cfg4.N) : (dat4 V c).after 3 t = blk4 V c 3 t := by dsimp only [dat4]
theorem dat4_after_4 (c : Dev nD) (t : Fin cfg4.N) : (dat4 V c).after 4 t = (after4 V c t.val t.isLt).pre := by dsimp only [dat4]
theorem dat4_after_5 (c : Dev nD) (t : Fin cfg4.N) : (dat4 V c).after 5 t = (after4 V c t.val t.isLt).mean := by dsimp only [dat4]
theorem dat4_after_6 (c : Dev nD) (t : Fin cfg4.N) : (dat4 V c).after 6 t = (after4 V c t.val t.isLt).var := by dsimp only [dat4]

theorem dat4_before_0 (c : Dev nD) (t : Fin cfg4.N) (d) : (dat4 V c).before 0 t d = blk4 V c 0 t :=
  before4_0_of V (dat4 V c) (dat4_A V c 0) (dat4_after_0 V c) t d
theorem dat4_before_1 (c : Dev nD) (t : Fin cfg4.N) (d) : (dat4 V c).before 1 t d = blk4 V c 1 t :=
  before4_1_of V (dat4 V c) (dat4_A V c 1) (dat4_after_1 V c) t d
theorem dat4_before_2 (c : Dev nD) (t : Fin cfg4.N) (d) : (dat4 V c).before 2 t d = blk4 V c 2 t :=
  before4_2_of V (dat4 V c) (dat4_A V c 2) (dat4_after_2 V c) t d
theorem dat4_before_3 (c : Dev nD) (t : Fin cfg4.N) (d) : (dat4 V c).before 3 t d = blk4 V c 3 t :=
  before4_3_of V (dat4 V c) (dat4_A V c 3) (dat4_after_3 V c) t d

end Cert.KernelIdeal.Hand

end
-- ==== Proof.Ideal.Stats4Body.lean ====
/-
  The combine-and-statistics call of layer two: the body obligation. At a generic grid point the body is entered
  with the carried invariant, nothing owed, and each window's current staging buffer (an input's at its block); it
  leaves the invariant of the next position — the accumulators at this point's sums —, each input buffer as it was,
  the combined block stored, and the mean and variance buffers stored at the last point and handed back untouched
  elsewhere. Three cases by the point's position: first, middle, last.
-/
import proofs.«169495_j53601191854606_1_alg».proof.Proof.Ideal.Stats4Acc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def enter4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def leave4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
theorem sound_point4 (c : Dev nD) (t : Fin cfg4.N) :
    enter4 V c t ⊢ wp frame (wpE (defs₀ (F := F)) Variants.none c none) Set.univ (bodyAt4 t) (fun _ => leave4 V c t) := by
  unfold enter4 leave4 bodyAt4
  simp only [dat4_before_0, dat4_before_1, dat4_before_2, dat4_before_3]
  rw [show (dat4 V c).owesAt () t.succ = (dat4 V c).owesAt () t.castSucc from rfl]
  rw [show (dat4 V c).Φ t.succ = carry4 V c (t.val + 1) t.isLt from rfl, carry4_succ]
  have hN : t.val < 10 := lt_of_lt_of_eq t.isLt tenPoints4
  rw [show (dat4 V c).leavesExact 0 t = owns (c : Thread nD τ) (ms4_0 t) fullShare ((dat4 V c).after 0 t) from by
    unfold Dat.leavesExact; rw [live4_0 t], dat4_after_0]
  rw [show (dat4 V c).leavesExact 1 t = owns (c : Thread nD τ) (ms4_1 t) fullShare ((dat4 V c).after 1 t) from by
    unfold Dat.leavesExact; rw [live4_1 t], dat4_after_1]
  rw [show (dat4 V c).leavesExact 2 t = owns (c : Thread nD τ) (ms4_2 t) fullShare ((dat4 V c).after 2 t) from by
    unfold Dat.leavesExact; rw [live4_2 t], dat4_after_2]
  rw [show (dat4 V c).leavesExact 3 t = owns (c : Thread nD τ) (ms4_3 t) fullShare ((dat4 V c).after 3 t) from by
    unfold Dat.leavesExact; rw [live4_3 t], dat4_after_3]
  rw [show (dat4 V c).leavesExact 4 t = owns (c : Thread nD τ) (ms4_4 t) fullShare ((dat4 V c).after 4 t) from by
    unfold Dat.leavesExact; rw [live4_4 t], dat4_after_4]
  by_cases h0 : t.val % 10 = 0
  · -- the first point
    have h1 : ¬t.val % 10 = 9 := by omega
    have hz : t.val = 0 := by omega
    rw [Dat.leavesExact_idle (dat4 V c) 5 t (idle4_5 t (fun h => h1 ((atLast4_iff t).mp h))) (keep4_5 t (fun h => h1 ((atLast4_iff t).mp h)))]
    rw [Dat.leavesExact_idle (dat4 V c) 6 t (idle4_6 t (fun h => h1 ((atLast4_iff t).mp h))) (keep4_6 t (fun h => h1 ((atLast4_iff t).mp h)))]
    rw [after4_first V c t h0 h1]
    unfold first4; (try dsimp only)
    rw [dat4_carry V c t, carry4_zero V c _ _ hz, rest4_eq]
    iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runFirst4 c (grid4.coords t) _ _ _ _ _ _ _ _ _ _ _ _ _ _ _ _ _ _ ((atFirst4_iff t).mpr h0) (fun h => h1 ((atLast4_iff t).mp h)) (blk4 V c 0 t) (blk4 V c 1 t) (blk4 V c 2 t) (blk4 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, ⟨%e4, H4⟩, H5, H6, ⟨%e8, HS8⟩, ⟨%e9, HS9⟩⟩
    isplitl [HS8 HS9 HR Hg]
    · isplitl [HS8 HS9 HR]
      · isplitl [HS8 HS9]
        · isplitl [HS8]
          · unfold owns; iexists _; isplitr
            swap; · iexact HS8
            ipureintro; exact View.read_writes_of_cover _ _ _ _ _ (cover4_first_sum c _ _ _ _ _ _ _ _ _ _ _ _ _ _ _ _ _ _ _ _ _ _ _ _ _)
          · unfold owns; iexists _; isplitr
            swap; · iexact HS9
            ipureintro; exact View.read_writes_of_cover _ _ _ _ _ (cover4_first_sq c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_first_pre c _ _ _ _ _ _ _ _ _ _ _ _ _ _ _ _ _ _ _ _ _ _ _ _ _)
    isplitl [H5]; · iexists _; iexact H5
    iexists _; iexact H6
  · have hz : t.val ≠ 0 := by omega
    by_cases h1 : t.val % 10 = 9
    · -- the last point
      rw [show (dat4 V c).leavesExact 5 t = owns (c : Thread nD τ) (ms4_5 t) fullShare ((dat4 V c).after 5 t) from by
        unfold Dat.leavesExact; rw [last4_5 t ((atLast4_iff t).mpr h1)], dat4_after_5]
      rw [show (dat4 V c).leavesExact 6 t = owns (c : Thread nD τ) (ms4_6 t) fullShare ((dat4 V c).after 6 t) from by
        unfold Dat.leavesExact; rw [last4_6 t ((atLast4_iff t).mpr h1)], dat4_after_6]
      rw [after4_last V c t h0 h1]
      unfold last4; (try dsimp only)
      rw [dat4_carry V c t, carry4_pos V c _ _ hz]
      iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast4 c (grid4.coords t) _ _ _ _ _ _ _ _ _ _ _ _ _ _ _ _ _ _ (fun h => h0 ((atFirst4_iff t).mp h)) ((atLast4_iff t).mpr h1) (blk4 V c 0 t) (blk4 V c 1 t) (blk4 V c 2 t) (blk4 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, ⟨%e4, H4⟩, ⟨%e5, H5⟩, ⟨%e6, H6⟩, ⟨%e8, HS8⟩, ⟨%e9, HS9⟩⟩
      isplitl [HS8 HS9 HR Hg]
      · isplitl [HS8 HS9 HR]
        · isplitl [HS8 HS9]
          · isplitl [HS8]
            · unfold owns; iexists _; isplitr
              swap; · iexact HS8
              ipureintro; exact View.read_writes_of_cover _ _ _ _ _ (cover4_last_sum c _ _ _ _ _ _ _ _ _ _ _ _ _ _ _ _ _ _ _ _ _ _ _ _ _ _ _)
            · unfold owns; iexists _; isplitr
              swap; · iexact HS9
              ipureintro; exact View.read_writes_of_cover _ _ _ _ _ (cover4_last_sq c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_last_pre c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover4_last_mean c _ _ _ _ _ _ _ _ _ _ _ _ _ _ _ _ _ _ _ _ _ _ _ _ _ _ _)
      unfold owns; iexists _; isplitr
      swap; · iexact H6
      ipureintro; exact View.read_writes_of_cover _ _ _ _ _ (cover4_last_var c _ _ _ _ _ _ _ _ _ _ _ _ _ _ _ _ _ _ _ _ _ _ _ _ _ _ _)
    · -- a middle point
      rw [Dat.leavesExact_idle (dat4 V c) 5 t (idle4_5 t (fun h => h1 ((atLast4_iff t).mp h))) (keep4_5 t (fun h => h1 ((atLast4_iff t).mp h)))]
      rw [Dat.leavesExact_idle (dat4 V c) 6 t (idle4_6 t (fun h => h1 ((atLast4_iff t).mp h))) (keep4_6 t (fun h => h1 ((atLast4_iff t).mp h)))]
      rw [after4_mid V c t h0 h1]
      unfold mid4; (try dsimp only)
      rw [dat4_carry V c t, carry4_pos V c _ _ hz]
      iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid4 c (grid4.coords t) _ _ _ _ _ _ _ _ _ _ _ _ _ _ _ _ _ _ (fun h => h0 ((atFirst4_iff t).mp h)) (fun h => h1 ((atLast4_iff t).mp h)) (blk4 V c 0 t) (blk4 V c 1 t) (blk4 V c 2 t) (blk4 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, ⟨%e4, H4⟩, H5, H6, ⟨%e8, HS8⟩, ⟨%e9, HS9⟩⟩
      isplitl [HS8 HS9 HR Hg]
      · isplitl [HS8 HS9 HR]
        · isplitl [HS8 HS9]
          · isplitl [HS8]
            · unfold owns; iexists _; isplitr
              swap; · iexact HS8
              ipureintro; exact View.read_writes_of_cover _ _ _ _ _ (cover4_mid_sum c _ _ _ _ _ _ _ _ _ _ _ _ _ _ _ _ _ _ _ _ _ _ _ _ _ _ _)
            · unfold owns; iexists _; isplitr
              swap; · iexact HS9
              ipureintro; exact View.read_writes_of_cover _ _ _ _ _ (cover4_mid_sq c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_mid_pre c _ _ _ _ _ _ _ _ _ _ _ _ _ _ _ _ _ _ _ _ _ _ _ _ _ _ _)
      isplitl [H5]; · iexists _; iexact H5
      iexists _; iexact H6

theorem obligation4 (c : Dev nD) : BodyObligation (dat4 (F := F) V c) (defs₀ (F := F)) Variants.none () Set.univ := fun t => by
  rw [bigSep_W4, bigSep_W4]
  exact sound_point4 V c t

/-- What the launch hands the call is the invariant before the first point, -/
theorem carry4_in (c : Dev nD) : Pipeline.ΦA spec4 c ⊢ (dat4 V c).Φ 0 := by
  rw [show (dat4 V c).Φ 0 = carry4 V c 0 (Nat.zero_le _) from rfl, carry4_zero V c 0 _ rfl]
  try exact Idealize.SL.BI.Entails.refl _

/-- and after the last point the invariant gives the resting one back, the sums forgotten. -/
theorem carry4_out (c : Dev nD) : (dat4 V c).Φ (Fin.last cfg4.N) ⊢ Pipeline.ΦA spec4 c := by
  rw [show (dat4 V c).Φ (Fin.last cfg4.N) = carry4 V c (Fin.last cfg4.N).val (Nat.le_of_lt_succ (Fin.last cfg4.N).isLt) from rfl,
    carry4_pos V c _ _ (by rw [Fin.val_last]; have : cfg4.N = 10 := tenPoints4; omega), rest4_eq]
  iintro ⟨⟨⟨HS8, HS9⟩, HR⟩, Hg⟩
  isplitl [HS8 HS9 HR]
  · isplitl [HS8 HS9]
    · isplitl [HS8]
      · iexists _; iexact HS8
      iexists _; iexact HS9
    iexact HR
  iexact Hg

end Cert.KernelIdeal.Hand

end
-- ==== Proof.Ideal.Act5.lean ====
/-
  The normalisation and rectifier of layer two (pallas_call 5 of the idealized kernel) on ten blocks of 5000 rows of
  width 128: each grid point reads its block of pre (window 0) and the one-row mean, variance, scale and shift
  (windows 1 to 4, the same block at every point, fetched once) and stores g · ((pre − mean) · rsqrt(var + eps)) + be
  passed through the exponential linear unit into window 5. At a parameter V and any float instance: what the body
  leaves, its triple, the proof data and the body obligation at every point.
-/
import proofs.«169495_j53601191854606_1_alg».proof.Proof.Gen.KernelIdeal.Launch
import proofs.«169495_j53601191854606_1_alg».proof.Proof.Gen.KernelIdeal.Skeleton
import proofs.«169495_j53601191854606_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each input's block sits in its current staging buffer at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = blk5 V c 2 t) (t : Fin cfg5.N) (d) : dat.before 2 t d = blk5 V c 2 t :=
  (dat.before_in_eq_fetched 2 rfl (fun _ => rfl) (fun _ _ _ => rfl) (fun t => by rw [hafter]; unfold Dat.blockOf blk5; rw [hA]; try rfl) t d).trans
    (by unfold Dat.fetched Dat.blockOf blk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = blk5 V c 3 t) (t : Fin cfg5.N) (d) : dat.before 3 t d = blk5 V c 3 t :=
  (dat.before_in_eq_fetched 3 rfl (fun _ => rfl) (fun _ _ _ => rfl) (fun t => by rw [hafter]; unfold Dat.blockOf blk5; rw [hA]; try rfl) t d).trans
    (by unfold Dat.fetched Dat.blockOf blk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = blk5 V c 4 t) (t : Fin cfg5.N) (d) : dat.before 4 t d = blk5 V c 4 t :=
  (dat.before_in_eq_fetched 4 rfl (fun _ => rfl) (fun _ _ _ => rfl) (fun t => by rw [hafter]; unfold Dat.blockOf blk5; rw [hA]; try rfl) t d).trans
    (by unfold Dat.fetched Dat.blockOf blk5; rw [hA]; try rfl)

/-- The output buffer after the body, from the loaded input blocks: one store through the whole block. -/
def act5 (x0 : Vec F S5000x128 .f32) (x1 : Vec F S1x128 .f32) (x2 : Vec F S1x128 .f32) (x3 : Vec F S1x128 .f32) (x4 : Vec F S1x128 .f32) : Vec F S5000x128 .f32 :=
  View.canon [⟨Rect.unit (s := S5000x128) ![0, 0] S5000x128.size inb_S5000x128_S5000x128_0_0, k5_pay1 (View.ld x0 (Rect.unit (s := S5000x128) ![0, 0] S5000x128.size inb_S5000x128_S5000x128_0_0)) (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

theorem cover_act5 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 1000000 in
/-- The body on whole staging buffers: inputs kept, the output stored. -/
theorem sound_act5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (act5 x0 x1 x2 x3 x4)) -∗ K ⟨⟩))
      ⊢ wp frame (wpE (defs₀ (F := F)) Variants.none c none) E (cc5__norm_elu_kernel i arg1 harg1 arg2 harg2 arg3 harg3 arg4 harg4 arg5 harg5 arg6 harg6) K := by
  simp only [cc5__norm_elu_kernel_eq_skeleton]; unfold cc5__norm_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover_act5 _)

/-- The proof data of the call: arrays as found; after the body each input buffer still at its block, the output
    buffer at what the body stores; nothing carried, nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => blk5 V c 4 t
    | ⟨5, _⟩ => act5 (blk5 V c 0 t) (blk5 V c 1 t) (blk5 V c 2 t) (blk5 V c 3 t) (blk5 V c 4 t)
  Φ _ := Pipeline.ΦA spec5 c
  q _ := fullShare
  owed _ := 0

theorem dat5_A (c : Dev nD) (w : Fin cfg5.W) : (dat5 V c).A w = V c (Pipeline.arrRef spec5 w) := by
  dsimp only [dat5]

theorem dat5_after_0 (c : Dev nD) (t : Fin cfg5.N) : (dat5 V c).after 0 t = blk5 V c 0 t := by dsimp only [dat5]
theorem dat5_after_1 (c : Dev nD) (t : Fin cfg5.N) : (dat5 V c).after 1 t = blk5 V c 1 t := by dsimp only [dat5]
theorem dat5_after_2 (c : Dev nD) (t : Fin cfg5.N) : (dat5 V c).after 2 t = blk5 V c 2 t := by dsimp only [dat5]
theorem dat5_after_3 (c : Dev nD) (t : Fin cfg5.N) : (dat5 V c).after 3 t = blk5 V c 3 t := by dsimp only [dat5]
theorem dat5_after_4 (c : Dev nD) (t : Fin cfg5.N) : (dat5 V c).after 4 t = blk5 V c 4 t := by dsimp only [dat5]
theorem dat5_after_5 (c : Dev nD) (t : Fin cfg5.N) :
    (dat5 V c).after 5 t = act5 (blk5 V c 0 t) (blk5 V c 1 t) (blk5 V c 2 t) (blk5 V c 3 t) (blk5 V c 4 t) := by dsimp only [dat5]

theorem dat5_before_0 (c : Dev nD) (t : Fin cfg5.N) (d) : (dat5 V c).before 0 t d = blk5 V c 0 t :=
  before5_0_of V (dat5 V c) (dat5_A V c 0) (dat5_after_0 V c) t d
theorem dat5_before_1 (c : Dev nD) (t : Fin cfg5.N) (d) : (dat5 V c).before 1 t d = blk5 V c 1 t :=
  before5_1_of V (dat5 V c) (dat5_A V c 1) (dat5_after_1 V c) t d
theorem dat5_before_2 (c : Dev nD) (t : Fin cfg5.N) (d) : (dat5 V c).before 2 t d = blk5 V c 2 t :=
  before5_2_of V (dat5 V c) (dat5_A V c 2) (dat5_after_2 V c) t d
theorem dat5_before_3 (c : Dev nD) (t : Fin cfg5.N) (d) : (dat5 V c).before 3 t d = blk5 V c 3 t :=
  before5_3_of V (dat5 V c) (dat5_A V c 3) (dat5_after_3 V c) t d
theorem dat5_before_4 (c : Dev nD) (t : Fin cfg5.N) (d) : (dat5 V c).before 4 t d = blk5 V c 4 t :=
  before5_4_of V (dat5 V c) (dat5_A V c 4) (dat5_after_4 V c) t d

def enter5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def leave5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_point5 (c : Dev nD) (t : Fin cfg5.N) :
    enter5 V c t ⊢ wp frame (wpE (defs₀ (F := F)) Variants.none c none) Set.univ (bodyAt5 t) (fun _ => leave5 V c t) := by
  unfold enter5 leave5 bodyAt5
  simp only [dat5_before_0, dat5_before_1, dat5_before_2, dat5_before_3, dat5_before_4]
  rw [show (dat5 V c).Φ t.succ = (dat5 V c).Φ t.castSucc from rfl,
    show (dat5 V c).owesAt () t.succ = (dat5 V c).owesAt () t.castSucc from rfl,
    dat5_after_0, dat5_after_1, dat5_after_2, dat5_after_3, dat5_after_4, dat5_after_5]
  iintro ⟨HΦ, Ho, ⟨%d0, H0⟩, ⟨%d1, H1⟩, ⟨%d2, H2⟩, ⟨%d3, H3⟩, ⟨%d4, H4⟩, ⟨%d5, H5⟩⟩
  iapply (sound_act5 c Set.univ _ _ _ _ _ _ _ _ _ _ _ _ _ (blk5 V c 0 t) (blk5 V c 1 t) (blk5 V c 2 t) (blk5 V c 3 t) (blk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem obligation5 (c : Dev nD) : BodyObligation (dat5 (F := F) V c) (defs₀ (F := F)) Variants.none () Set.univ := fun t => by
  rw [bigSep_W5, bigSep_W5]
  exact sound_point5 V c t

end Cert.KernelIdeal.Hand

end
-- ==== Proof.Ideal.Product6.lean ====
/-
  The feature product of layer three (pallas_call 6 of the idealized kernel): h = x · W on ten blocks of 5000
  rows. Each grid point reads its block of x (window 0) and the whole weight matrix (window 1, 128 by 64, the same
  block at every point, fetched once) and stores the block's product into window 2. At a parameter V — the buffer
  contents when the call is entered — and any float instance: what the body leaves, its triple, the proof data and
  the body obligation at every point.
-/
import proofs.«169495_j53601191854606_1_alg».proof.Proof.Gen.KernelIdeal.Launch
import proofs.«169495_j53601191854606_1_alg».proof.Proof.Gen.KernelIdeal.Skeleton
import proofs.«169495_j53601191854606_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input's block sits in its current staging buffer at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- The output buffer after the body, from the loaded input blocks: one store through the whole block. -/
def prod6 (x0 : Vec F S5000x128 .f32) (x1 : Vec F S128x64 .f32) : Vec F S5000x64 .f32 :=
  View.canon [⟨Rect.unit (s := S5000x64) ![0, 0] S5000x64.size inb_S5000x64_S5000x64_0_0, k6_pay1 (View.ld x0 (Rect.unit (s := S5000x128) ![0, 0] S5000x128.size inb_S5000x128_S5000x128_0_0)) (View.ld x1 (Rect.unit (s := S128x64) ![0, 0] S128x64.size inb_S128x64_S128x64_0_0))⟩]

theorem cover_prod6 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 1000000 in
/-- The body on whole staging buffers: inputs kept, the output stored. -/
theorem sound_prod6 (c : Dev nD) (E : Set ℕ) (i : grid6.Coords) (arg1 : Memref sig .tc .vmem S5000x128 .f32) (harg1 : arg1.IsWhole) (arg2 : Memref sig .tc .vmem S128x64 .f32) (harg2 : arg2.IsWhole) (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod6 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover_prod6 _)

/-- The proof data of the call: arrays as found; after the body each input buffer still at its block, the output
    buffer at what the body stores; nothing carried, nothing owed. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => prod6 (blk6 V c 0 t) (blk6 V c 1 t)
  Φ _ := Pipeline.ΦA spec6 c
  q _ := fullShare
  owed _ := 0

theorem dat6_A (c : Dev nD) (w : Fin cfg6.W) : (dat6 V c).A w = V c (Pipeline.arrRef spec6 w) := by
  dsimp only [dat6]

theorem dat6_after_0 (c : Dev nD) (t : Fin cfg6.N) : (dat6 V c).after 0 t = blk6 V c 0 t := by dsimp only [dat6]
theorem dat6_after_1 (c : Dev nD) (t : Fin cfg6.N) : (dat6 V c).after 1 t = blk6 V c 1 t := by dsimp only [dat6]
theorem dat6_after_2 (c : Dev nD) (t : Fin cfg6.N) :
    (dat6 V c).after 2 t = prod6 (blk6 V c 0 t) (blk6 V c 1 t) := by dsimp only [dat6]

theorem dat6_before_0 (c : Dev nD) (t : Fin cfg6.N) (d) : (dat6 V c).before 0 t d = blk6 V c 0 t :=
  before6_0_of V (dat6 V c) (dat6_A V c 0) (dat6_after_0 V c) t d
theorem dat6_before_1 (c : Dev nD) (t : Fin cfg6.N) (d) : (dat6 V c).before 1 t d = blk6 V c 1 t :=
  before6_1_of V (dat6 V c) (dat6_A V c 1) (dat6_after_1 V c) t d

def enter6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def leave6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_point6 (c : Dev nD) (t : Fin cfg6.N) :
    enter6 V c t ⊢ wp frame (wpE (defs₀ (F := F)) Variants.none c none) Set.univ (bodyAt6 t) (fun _ => leave6 V c t) := by
  unfold enter6 leave6 bodyAt6
  simp only [dat6_before_0, dat6_before_1]
  rw [show (dat6 V c).Φ t.succ = (dat6 V c).Φ t.castSucc from rfl,
    show (dat6 V c).owesAt () t.succ = (dat6 V c).owesAt () t.castSucc from rfl,
    dat6_after_0, dat6_after_1, dat6_after_2]
  iintro ⟨HΦ, Ho, ⟨%d0, H0⟩, ⟨%d1, H1⟩, ⟨%d2, H2⟩⟩
  iapply (sound_prod6 c Set.univ _ _ _ _ _ _ _ (blk6 V c 0 t) (blk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation6 (c : Dev nD) : BodyObligation (dat6 (F := F) V c) (defs₀ (F := F)) Variants.none () Set.univ := fun t => by
  rw [bigSep_W6, bigSep_W6]
  exact sound_point6 V c t

end Cert.KernelIdeal.Hand

end
-- ==== Proof.Ideal.Stats7Base.lean ====
/-
  The eighth pallas_call of the idealized kernel, layer three: pre = agg + h · dis² + b on ten blocks of 5000 rows,
  with the column sums of pre and of pre² accumulated in two one-row scratch buffers that live across the grid
  points: zeroed at the first point, added to at every point, and turned into the batch mean and the one-pass
  variance (stored to windows 5 and 6) at the last point only.
  Here: the two branch conditions in closed form over the grid, where windows 5 and 6 are idle and not written
  back, the scratch buffers as memrefs, and the call's resting invariant opened at the two scratch buffers.
-/
import proofs.«169495_j53601191854606_1_alg».proof.Proof.Gen.KernelIdeal.Launch
import proofs.«169495_j53601191854606_1_alg».proof.Proof.Gen.KernelIdeal.Skeleton
import proofs.«169495_j53601191854606_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body zeroes the accumulators when the grid coordinate is 0, -/
abbrev atFirst7 (i : grid7.Coords) : Prop :=
  (Scalar.cmpi .ne (Scalar.extui (Scalar.cmpi .eq (BitVec.ofNat 32 (i 0).val) 0#32)) 0#32) = 1#1
theorem atFirst7_iff : ∀ t : Fin cfg7.N, atFirst7 (grid7.coords t) ↔ t.val % 10 = 0 :=
  (by decide +kernel : ∀ t : Fin grid7.N, atFirst7 (grid7.coords t) ↔ t.val % 10 = 0)

/-- and stores the statistics when it is 9. -/
abbrev atLast7 (i : grid7.Coords) : Prop := k7_cond2 i = 1#1
theorem atLast7_iff : ∀ t : Fin cfg7.N, atLast7 (grid7.coords t) ↔ t.val % 10 = 9 :=
  (by decide +kernel : ∀ t : Fin grid7.N, atLast7 (grid7.coords t) ↔ t.val % 10 = 9)

/-- The four inputs and the combined block are live at every point. -/
theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
theorem live7_3 : ∀ t : Fin cfg7.N, cfg7.idle 3 (grid7.coords t) = false := by decide +kernel
theorem live7_4 : ∀ t : Fin cfg7.N, cfg7.idle 4 (grid7.coords t) = false := by decide +kernel
/-- The mean and variance windows are idle, and not written back, away from the last point; live at it. -/
theorem idle7_5 : ∀ t : Fin cfg7.N, ¬atLast7 (grid7.coords t) → cfg7.idle 5 (grid7.coords t) = true := by decide +kernel
theorem idle7_6 : ∀ t : Fin cfg7.N, ¬atLast7 (grid7.coords t) → cfg7.idle 6 (grid7.coords t) = true := by decide +kernel
theorem keep7_5 : ∀ t : Fin cfg7.N, ¬atLast7 (grid7.coords t) → (cfg7.win 5).flush t = false := by decide +kernel
theorem keep7_6 : ∀ t : Fin cfg7.N, ¬atLast7 (grid7.coords t) → (cfg7.win 6).flush t = false := by decide +kernel
theorem last7_5 : ∀ t : Fin cfg7.N, atLast7 (grid7.coords t) → cfg7.idle 5 (grid7.coords t) = false := by decide +kernel
theorem last7_6 : ∀ t : Fin cfg7.N, atLast7 (grid7.coords t) → cfg7.idle 6 (grid7.coords t) = false := by decide +kernel

/-- The two accumulators: whole scoped buffers of the call's own. -/
abbrev sumBuf7 : Memref sig .tc .vmem S1x64 .f32 := Memref.whole cc7_scratch0
abbrev sqBuf7 : Memref sig .tc .vmem S1x64 .f32 := Memref.whole cc7_scratch1

/-- The resting invariant of the call, opened at the accumulators: each at some contents, every other scoped buffer
    unopened, the generator register at some state. -/
theorem rest7_eq (c : Dev nD) :
    (Pipeline.ΦA spec7 c : sProp 𝕄)
      = iprop(iprop(iprop((∃ d, owns (c : Thread nD τ) sumBuf7 fullShare d) ∗ (∃ d, owns (c : Thread nD τ) sqBuf7 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [sumBuf7, sqBuf7, owns_whole]; try rfl

end Cert.KernelIdeal.Hand

end
-- ==== Proof.Ideal.Stats7First.lean ====
/-
  The combine-and-statistics body of layer three at the first grid point: the zeroing branch is taken, the
  statistics branch is not. The accumulators are entered at arbitrary contents (they are stored over before
  they are read); everything else is as at a middle point. The stored pieces are found by the run.
-/
import proofs.«169495_j53601191854606_1_alg».proof.Proof.Ideal.Stats7Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runFirst7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : atFirst7 i) (hc1 : ¬atLast7 i)
    (x1 : Vec F S5000x64 .f32) (x2 : Vec F S5000x64 .f32) (x3 : Vec F S5000x1 .f32) (x4 : Vec F S1x64 .f32) :
    Σ' (L5 : List (View.Piece (Elt F) S5000x64 .f32)), Σ' (L8 : List (View.Piece (Elt F) S1x64 .f32)), { L9 : List (View.Piece (Elt F) S1x64 .f32) //
      ∀ (k6 : Vec F S1x64 .f32) (k7 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ owns (c : Thread nD τ) arg6 fullShare k6 ∗ owns (c : Thread nD τ) arg7 fullShare k7
            ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare k6 ∗ owns (c : Thread nD τ) arg7 fullShare k7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc7__combine_stats_kernel i arg1 harg1 arg2 harg2 arg3 harg3 arg4 harg4 arg5 harg5 arg6 harg6 arg7 harg7 arg8 harg8 arg9 harg9) K } := by
  refine ⟨?_, ?_, ?_, fun k6 k7 E K => ?run⟩
  case run =>
    simp only [cc7__combine_stats_kernel_eq_skeleton]; unfold cc7__combine_stats_kernel_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

end Cert.KernelIdeal.Hand

end
-- ==== Proof.Ideal.Stats7Mid.lean ====
/-
  The combine-and-statistics body of layer three at a grid point that is neither the first nor the last: neither
  branch is taken. On whole staging buffers — the four inputs at their contents, the mean and variance buffers
  at contents handed back untouched, the accumulators at what the point before left — it runs to the end with
  the combined block stored and both accumulators stored over; the stored pieces are found by the run.
-/
import proofs.«169495_j53601191854606_1_alg».proof.Proof.Ideal.Stats7Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runMid7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : ¬atLast7 i)
    (x1 : Vec F S5000x64 .f32) (x2 : Vec F S5000x64 .f32) (x3 : Vec F S5000x1 .f32) (x4 : Vec F S1x64 .f32)
    (s8 : Vec F S1x64 .f32) (s9 : Vec F S1x64 .f32) :
    Σ' (L5 : List (View.Piece (Elt F) S5000x64 .f32)), Σ' (L8 : List (View.Piece (Elt F) S1x64 .f32)), { L9 : List (View.Piece (Elt F) S1x64 .f32) //
      ∀ (k6 : Vec F S1x64 .f32) (k7 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ owns (c : Thread nD τ) arg6 fullShare k6 ∗ owns (c : Thread nD τ) arg7 fullShare k7
            ∗ owns (c : Thread nD τ) arg8 fullShare s8 ∗ owns (c : Thread nD τ) arg9 fullShare s9
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare k6 ∗ owns (c : Thread nD τ) arg7 fullShare k7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc7__combine_stats_kernel i arg1 harg1 arg2 harg2 arg3 harg3 arg4 harg4 arg5 harg5 arg6 harg6 arg7 harg7 arg8 harg8 arg9 harg9) K } := by
  refine ⟨?_, ?_, ?_, fun k6 k7 E K => ?run⟩
  case run =>
    simp only [cc7__combine_stats_kernel_eq_skeleton]; unfold cc7__combine_stats_kernel_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

end Cert.KernelIdeal.Hand

end
-- ==== Proof.Ideal.Stats7Last.lean ====
/-
  The combine-and-statistics body of layer three at the last grid point: the zeroing branch is not taken, the
  statistics branch is. The accumulators are entered at what the point before left; the mean and variance
  buffers at arbitrary contents, and are stored over. The stored pieces are found by the run.
-/
import proofs.«169495_j53601191854606_1_alg».proof.Proof.Ideal.Stats7Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runLast7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : atLast7 i)
    (x1 : Vec F S5000x64 .f32) (x2 : Vec F S5000x64 .f32) (x3 : Vec F S5000x1 .f32) (x4 : Vec F S1x64 .f32)
    (s8 : Vec F S1x64 .f32) (s9 : Vec F S1x64 .f32) :
    Σ' (L5 : List (View.Piece (Elt F) S5000x64 .f32)), Σ' (L6 : List (View.Piece (Elt F) S1x64 .f32)), Σ' (L7 : List (View.Piece (Elt F) S1x64 .f32)),
      Σ' (L8 : List (View.Piece (Elt F) S1x64 .f32)), { L9 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ (∃ d, owns (c : Thread nD τ) arg6 fullShare d) ∗ (∃ d, owns (c : Thread nD τ) arg7 fullShare d)
            ∗ owns (c : Thread nD τ) arg8 fullShare s8 ∗ owns (c : Thread nD τ) arg9 fullShare s9
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc7__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__combine_stats_kernel_eq_skeleton]; unfold cc7__combine_stats_kernel_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; iexact H7
    isplitl [H8]
    · iexists _; iexact H8
    iexists _; iexact H9

end Cert.KernelIdeal.Hand

end
-- ==== Proof.Ideal.Stats7Cases.lean ====
/-
  The combine-and-statistics call of layer three, case by case: each window's block at a grid point, the staging
  buffers the body is called on, and what each of the three runs (first point, middle point, last point) leaves
  in the combined-block buffer, the mean and variance buffers and the two accumulators — its stored pieces read
  back, with the fact that they cover the buffer. Stated at a parameter V (the buffer contents when the call is
  entered) and at any float instance.
-/
import proofs.«169495_j53601191854606_1_alg».proof.Proof.Ideal.Stats7First
import proofs.«169495_j53601191854606_1_alg».proof.Proof.Ideal.Stats7Mid
import proofs.«169495_j53601191854606_1_alg».proof.Proof.Ideal.Stats7Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Each input's block sits in its current staging buffer at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = blk7 V c 0 t) (t : Fin cfg7.N) (d) : dat.before 0 t d = blk7 V c 0 t :=
  (dat.before_in_eq_fetched 0 rfl (fun _ => rfl) (fun _ _ _ => rfl) (fun t => by rw [hafter]; unfold Dat.blockOf blk7; rw [hA]; try rfl) t d).trans
    (by unfold Dat.fetched Dat.blockOf blk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = blk7 V c 1 t) (t : Fin cfg7.N) (d) : dat.before 1 t d = blk7 V c 1 t :=
  (dat.before_in_eq_fetched 1 rfl (fun _ => rfl) (fun _ _ _ => rfl) (fun t => by rw [hafter]; unfold Dat.blockOf blk7; rw [hA]; try rfl) t d).trans
    (by unfold Dat.fetched Dat.blockOf blk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = blk7 V c 2 t) (t : Fin cfg7.N) (d) : dat.before 2 t d = blk7 V c 2 t :=
  (dat.before_in_eq_fetched 2 rfl (fun _ => rfl) (fun _ _ _ => rfl) (fun t => by rw [hafter]; unfold Dat.blockOf blk7; rw [hA]; try rfl) t d).trans
    (by unfold Dat.fetched Dat.blockOf blk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = blk7 V c 3 t) (t : Fin cfg7.N) (d) : dat.before 3 t d = blk7 V c 3 t :=
  (dat.before_in_eq_fetched 3 rfl (fun _ => rfl) (fun _ _ _ => rfl) (fun t => by rw [hafter]; unfold Dat.blockOf blk7; rw [hA]; try rfl) t d).trans
    (by unfold Dat.fetched Dat.blockOf blk7; rw [hA]; try rfl)

/-- Each window's current staging memref at point t, as the pipeline passes it, and its wholeness. -/
abbrev ms7_0 (t : Fin cfg7.N) : Memref sig .tc .vmem S5000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S5000x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x64 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x64 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x64 .f32 := win7_6.stage (cfg7.slots t 6)
abbrev hs7_6 (t : Fin cfg7.N) : (ms7_6 t).IsWhole := hstage7_6 ((cfg7.slots t 6).cast nbuf7_6)

/-- One staging buffer of each output window, through which its contents are stated (which one does not matter
    once the stores cover the block). -/
abbrev viaPre7 : View sig .tc .vmem S5000x64 .f32 := (Memref.whole cc7_stg4_0 : Memref sig .tc .vmem S5000x64 .f32).view
abbrev viaMean7 : View sig .tc .vmem S1x64 .f32 := (Memref.whole cc7_stg5_0 : Memref sig .tc .vmem S1x64 .f32).view
abbrev viaVar7 : View sig .tc .vmem S1x64 .f32 := (Memref.whole cc7_stg6_0 : Memref sig .tc .vmem S1x64 .f32).view
abbrev viaSum7 : View sig .tc .vmem S1x64 .f32 := sumBuf7.view
abbrev viaSq7 : View sig .tc .vmem S1x64 .f32 := sqBuf7.view

/-- What the five buffers hold after a point: the combined block, the mean, the variance, the running column
    sums of pre and of pre². -/
structure After7 (F : FTy → Type) [FloatOps F] where
  pre : Vec F S5000x64 .f32
  mean : Vec F S1x64 .f32
  var : Vec F S1x64 .f32
  sum : Vec F S1x64 .f32
  sq : Vec F S1x64 .f32

theorem cover7_first_pre (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : atFirst7 i) (hc1 : ¬atLast7 i) (x1 : Vec F S5000x64 .f32) (x2 : Vec F S5000x64 .f32) (x3 : Vec F S5000x1 .f32) (x4 : Vec F S1x64 .f32) (y : S5000x64.Idx) :
    ∃ pc ∈ (runFirst7 c i arg1 harg1 arg2 harg2 arg3 harg3 arg4 harg4 arg5 harg5 arg6 harg6 arg7 harg7 arg8 harg8 arg9 harg9 hc0 hc1 x1 x2 x3 x4).1, y ∈ pc.1.set :=
  View.cover_of_tiledL (runFirst7 c i arg1 harg1 arg2 harg2 arg3 harg3 arg4 harg4 arg5 harg5 arg6 harg6 arg7 harg7 arg8 harg8 arg9 harg9 hc0 hc1 x1 x2 x3 x4).1 S5000x64.size (by sl_kernel_rfl) y
theorem cover7_first_sum (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : atFirst7 i) (hc1 : ¬atLast7 i) (x1 : Vec F S5000x64 .f32) (x2 : Vec F S5000x64 .f32) (x3 : Vec F S5000x1 .f32) (x4 : Vec F S1x64 .f32) (y : S1x64.Idx) :
    ∃ pc ∈ (runFirst7 c i arg1 harg1 arg2 harg2 arg3 harg3 arg4 harg4 arg5 harg5 arg6 harg6 arg7 harg7 arg8 harg8 arg9 harg9 hc0 hc1 x1 x2 x3 x4).2.1, y ∈ pc.1.set :=
  View.cover_of_tiledL (runFirst7 c i arg1 harg1 arg2 harg2 arg3 harg3 arg4 harg4 arg5 harg5 arg6 harg6 arg7 harg7 arg8 harg8 arg9 harg9 hc0 hc1 x1 x2 x3 x4).2.1 S1x64.size (by sl_kernel_rfl) y
theorem cover7_first_sq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : atFirst7 i) (hc1 : ¬atLast7 i) (x1 : Vec F S5000x64 .f32) (x2 : Vec F S5000x64 .f32) (x3 : Vec F S5000x1 .f32) (x4 : Vec F S1x64 .f32) (y : S1x64.Idx) :
    ∃ pc ∈ (runFirst7 c i arg1 harg1 arg2 harg2 arg3 harg3 arg4 harg4 arg5 harg5 arg6 harg6 arg7 harg7 arg8 harg8 arg9 harg9 hc0 hc1 x1 x2 x3 x4).2.2.1, y ∈ pc.1.set :=
  View.cover_of_tiledL (runFirst7 c i arg1 harg1 arg2 harg2 arg3 harg3 arg4 harg4 arg5 harg5 arg6 harg6 arg7 harg7 arg8 harg8 arg9 harg9 hc0 hc1 x1 x2 x3 x4).2.2.1 S1x64.size (by sl_kernel_rfl) y
/-- What the first point's run leaves: its stored pieces read back (the mean and variance buffers are not stored: placeholders nothing consults). -/
def first7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : atFirst7 i) (hc1 : ¬atLast7 i) (x1 : Vec F S5000x64 .f32) (x2 : Vec F S5000x64 .f32) (x3 : Vec F S5000x1 .f32) (x4 : Vec F S1x64 .f32) : After7 F where
  pre := viaPre7.read (Elt F) (viaPre7.writes (Elt F) viaPre7.junk (runFirst7 c i arg1 harg1 arg2 harg2 arg3 harg3 arg4 harg4 arg5 harg5 arg6 harg6 arg7 harg7 arg8 harg8 arg9 harg9 hc0 hc1 x1 x2 x3 x4).1)
  mean := viaMean7.read (Elt F) viaMean7.junk
  var := viaVar7.read (Elt F) viaVar7.junk
  sum := viaSum7.read (Elt F) (viaSum7.writes (Elt F) viaSum7.junk (runFirst7 c i arg1 harg1 arg2 harg2 arg3 harg3 arg4 harg4 arg5 harg5 arg6 harg6 arg7 harg7 arg8 harg8 arg9 harg9 hc0 hc1 x1 x2 x3 x4).2.1)
  sq := viaSq7.read (Elt F) (viaSq7.writes (Elt F) viaSq7.junk (runFirst7 c i arg1 harg1 arg2 harg2 arg3 harg3 arg4 harg4 arg5 harg5 arg6 harg6 arg7 harg7 arg8 harg8 arg9 harg9 hc0 hc1 x1 x2 x3 x4).2.2.1)

theorem cover7_mid_pre (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : ¬atLast7 i) (x1 : Vec F S5000x64 .f32) (x2 : Vec F S5000x64 .f32) (x3 : Vec F S5000x1 .f32) (x4 : Vec F S1x64 .f32) (s8 : Vec F S1x64 .f32) (s9 : Vec F S1x64 .f32) (y : S5000x64.Idx) :
    ∃ pc ∈ (runMid7 c i arg1 harg1 arg2 harg2 arg3 harg3 arg4 harg4 arg5 harg5 arg6 harg6 arg7 harg7 arg8 harg8 arg9 harg9 hc0 hc1 x1 x2 x3 x4 s8 s9).1, y ∈ pc.1.set :=
  View.cover_of_tiledL (runMid7 c i arg1 harg1 arg2 harg2 arg3 harg3 arg4 harg4 arg5 harg5 arg6 harg6 arg7 harg7 arg8 harg8 arg9 harg9 hc0 hc1 x1 x2 x3 x4 s8 s9).1 S5000x64.size (by sl_kernel_rfl) y
theorem cover7_mid_sum (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : ¬atLast7 i) (x1 : Vec F S5000x64 .f32) (x2 : Vec F S5000x64 .f32) (x3 : Vec F S5000x1 .f32) (x4 : Vec F S1x64 .f32) (s8 : Vec F S1x64 .f32) (s9 : Vec F S1x64 .f32) (y : S1x64.Idx) :
    ∃ pc ∈ (runMid7 c i arg1 harg1 arg2 harg2 arg3 harg3 arg4 harg4 arg5 harg5 arg6 harg6 arg7 harg7 arg8 harg8 arg9 harg9 hc0 hc1 x1 x2 x3 x4 s8 s9).2.1, y ∈ pc.1.set :=
  View.cover_of_tiledL (runMid7 c i arg1 harg1 arg2 harg2 arg3 harg3 arg4 harg4 arg5 harg5 arg6 harg6 arg7 harg7 arg8 harg8 arg9 harg9 hc0 hc1 x1 x2 x3 x4 s8 s9).2.1 S1x64.size (by sl_kernel_rfl) y
theorem cover7_mid_sq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : ¬atLast7 i) (x1 : Vec F S5000x64 .f32) (x2 : Vec F S5000x64 .f32) (x3 : Vec F S5000x1 .f32) (x4 : Vec F S1x64 .f32) (s8 : Vec F S1x64 .f32) (s9 : Vec F S1x64 .f32) (y : S1x64.Idx) :
    ∃ pc ∈ (runMid7 c i arg1 harg1 arg2 harg2 arg3 harg3 arg4 harg4 arg5 harg5 arg6 harg6 arg7 harg7 arg8 harg8 arg9 harg9 hc0 hc1 x1 x2 x3 x4 s8 s9).2.2.1, y ∈ pc.1.set :=
  View.cover_of_tiledL (runMid7 c i arg1 harg1 arg2 harg2 arg3 harg3 arg4 harg4 arg5 harg5 arg6 harg6 arg7 harg7 arg8 harg8 arg9 harg9 hc0 hc1 x1 x2 x3 x4 s8 s9).2.2.1 S1x64.size (by sl_kernel_rfl) y
/-- What the mid point's run leaves: its stored pieces read back (the mean and variance buffers are not stored: placeholders nothing consults). -/
def mid7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : ¬atLast7 i) (x1 : Vec F S5000x64 .f32) (x2 : Vec F S5000x64 .f32) (x3 : Vec F S5000x1 .f32) (x4 : Vec F S1x64 .f32) (s8 : Vec F S1x64 .f32) (s9 : Vec F S1x64 .f32) : After7 F where
  pre := viaPre7.read (Elt F) (viaPre7.writes (Elt F) viaPre7.junk (runMid7 c i arg1 harg1 arg2 harg2 arg3 harg3 arg4 harg4 arg5 harg5 arg6 harg6 arg7 harg7 arg8 harg8 arg9 harg9 hc0 hc1 x1 x2 x3 x4 s8 s9).1)
  mean := viaMean7.read (Elt F) viaMean7.junk
  var := viaVar7.read (Elt F) viaVar7.junk
  sum := viaSum7.read (Elt F) (viaSum7.writes (Elt F) viaSum7.junk (runMid7 c i arg1 harg1 arg2 harg2 arg3 harg3 arg4 harg4 arg5 harg5 arg6 harg6 arg7 harg7 arg8 harg8 arg9 harg9 hc0 hc1 x1 x2 x3 x4 s8 s9).2.1)
  sq := viaSq7.read (Elt F) (viaSq7.writes (Elt F) viaSq7.junk (runMid7 c i arg1 harg1 arg2 harg2 arg3 harg3 arg4 harg4 arg5 harg5 arg6 harg6 arg7 harg7 arg8 harg8 arg9 harg9 hc0 hc1 x1 x2 x3 x4 s8 s9).2.2.1)

theorem cover7_last_pre (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) (y : S5000x64.Idx) :
    ∃ pc ∈ (runLast7 c i arg1 harg1 arg2 harg2 arg3 harg3 arg4 harg4 arg5 harg5 arg6 harg6 arg7 harg7 arg8 harg8 arg9 harg9 hc0 hc1 x1 x2 x3 x4 s8 s9).1, y ∈ pc.1.set :=
  View.cover_of_tiledL (runLast7 c i arg1 harg1 arg2 harg2 arg3 harg3 arg4 harg4 arg5 harg5 arg6 harg6 arg7 harg7 arg8 harg8 arg9 harg9 hc0 hc1 x1 x2 x3 x4 s8 s9).1 S5000x64.size (by sl_kernel_rfl) y
theorem cover7_last_mean (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) (y : S1x64.Idx) :
    ∃ pc ∈ (runLast7 c i arg1 harg1 arg2 harg2 arg3 harg3 arg4 harg4 arg5 harg5 arg6 harg6 arg7 harg7 arg8 harg8 arg9 harg9 hc0 hc1 x1 x2 x3 x4 s8 s9).2.1, y ∈ pc.1.set :=
  View.cover_of_tiledL (runLast7 c i arg1 harg1 arg2 harg2 arg3 harg3 arg4 harg4 arg5 harg5 arg6 harg6 arg7 harg7 arg8 harg8 arg9 harg9 hc0 hc1 x1 x2 x3 x4 s8 s9).2.1 S1x64.size (by sl_kernel_rfl) y
theorem cover7_last_var (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) (y : S1x64.Idx) :
    ∃ pc ∈ (runLast7 c i arg1 harg1 arg2 harg2 arg3 harg3 arg4 harg4 arg5 harg5 arg6 harg6 arg7 harg7 arg8 harg8 arg9 harg9 hc0 hc1 x1 x2 x3 x4 s8 s9).2.2.1, y ∈ pc.1.set :=
  View.cover_of_tiledL (runLast7 c i arg1 harg1 arg2 harg2 arg3 harg3 arg4 harg4 arg5 harg5 arg6 harg6 arg7 harg7 arg8 harg8 arg9 harg9 hc0 hc1 x1 x2 x3 x4 s8 s9).2.2.1 S1x64.size (by sl_kernel_rfl) y
theorem cover7_last_sum (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) (y : S1x64.Idx) :
    ∃ pc ∈ (runLast7 c i arg1 harg1 arg2 harg2 arg3 harg3 arg4 harg4 arg5 harg5 arg6 harg6 arg7 harg7 arg8 harg8 arg9 harg9 hc0 hc1 x1 x2 x3 x4 s8 s9).2.2.2.1, y ∈ pc.1.set :=
  View.cover_of_tiledL (runLast7 c i arg1 harg1 arg2 harg2 arg3 harg3 arg4 harg4 arg5 harg5 arg6 harg6 arg7 harg7 arg8 harg8 arg9 harg9 hc0 hc1 x1 x2 x3 x4 s8 s9).2.2.2.1 S1x64.size (by sl_kernel_rfl) y
theorem cover7_last_sq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) (y : S1x64.Idx) :
    ∃ pc ∈ (runLast7 c i arg1 harg1 arg2 harg2 arg3 harg3 arg4 harg4 arg5 harg5 arg6 harg6 arg7 harg7 arg8 harg8 arg9 harg9 hc0 hc1 x1 x2 x3 x4 s8 s9).2.2.2.2.1, y ∈ pc.1.set :=
  View.cover_of_tiledL (runLast7 c i arg1 harg1 arg2 harg2 arg3 harg3 arg4 harg4 arg5 harg5 arg6 harg6 arg7 harg7 arg8 harg8 arg9 harg9 hc0 hc1 x1 x2 x3 x4 s8 s9).2.2.2.2.1 S1x64.size (by sl_kernel_rfl) y
/-- What the last point's run leaves: its stored pieces read back. -/
def last7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) : After7 F where
  pre := viaPre7.read (Elt F) (viaPre7.writes (Elt F) viaPre7.junk (runLast7 c i arg1 harg1 arg2 harg2 arg3 harg3 arg4 harg4 arg5 harg5 arg6 harg6 arg7 harg7 arg8 harg8 arg9 harg9 hc0 hc1 x1 x2 x3 x4 s8 s9).1)
  mean := viaMean7.read (Elt F) (viaMean7.writes (Elt F) viaMean7.junk (runLast7 c i arg1 harg1 arg2 harg2 arg3 harg3 arg4 harg4 arg5 harg5 arg6 harg6 arg7 harg7 arg8 harg8 arg9 harg9 hc0 hc1 x1 x2 x3 x4 s8 s9).2.1)
  var := viaVar7.read (Elt F) (viaVar7.writes (Elt F) viaVar7.junk (runLast7 c i arg1 harg1 arg2 harg2 arg3 harg3 arg4 harg4 arg5 harg5 arg6 harg6 arg7 harg7 arg8 harg8 arg9 harg9 hc0 hc1 x1 x2 x3 x4 s8 s9).2.2.1)
  sum := viaSum7.read (Elt F) (viaSum7.writes (Elt F) viaSum7.junk (runLast7 c i arg1 harg1 arg2 harg2 arg3 harg3 arg4 harg4 arg5 harg5 arg6 harg6 arg7 harg7 arg8 harg8 arg9 harg9 hc0 hc1 x1 x2 x3 x4 s8 s9).2.2.2.1)
  sq := viaSq7.read (Elt F) (viaSq7.writes (Elt F) viaSq7.junk (runLast7 c i arg1 harg1 arg2 harg2 arg3 harg3 arg4 harg4 arg5 harg5 arg6 harg6 arg7 harg7 arg8 harg8 arg9 harg9 hc0 hc1 x1 x2 x3 x4 s8 s9).2.2.2.2.1)

end Cert.KernelIdeal.Hand

end
-- ==== Proof.Ideal.Stats7Acc.lean ====
/-
  The combine-and-statistics call of layer three, point by point. What the five buffers hold after the body at
  each grid point: the first point's run from the point's input blocks; at a later point the middle or the last
  run from the input blocks and from the column sums the point before left. The call's invariant carries the
  two accumulators at those sums from one point to the next; the body obligation follows at every point.
-/
import proofs.«169495_j53601191854606_1_alg».proof.Proof.Ideal.Stats7Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tenPoints7 : cfg7.N = 10 := N_7

/-- THE ACCUMULATION: the five buffers after the body at position n. -/
def after7 (c : Dev nD) : (n : ℕ) → n < cfg7.N → After7 F
  | 0, hn => first7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) sumBuf7 (Memref.isWhole_whole _) sqBuf7 (Memref.isWhole_whole _)
      ((atFirst7_iff ⟨0, hn⟩).mpr (Nat.zero_mod _))
      (fun h => by have h9 := (atLast7_iff ⟨0, hn⟩).mp h; (try dsimp only at h9); omega) (blk7 V c 0 ⟨0, hn⟩) (blk7 V c 1 ⟨0, hn⟩) (blk7 V c 2 ⟨0, hn⟩) (blk7 V c 3 ⟨0, hn⟩)
  | n + 1, hn =>
    if h1 : (n + 1) % 10 = 9 then
      last7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) sumBuf7 (Memref.isWhole_whole _) sqBuf7 (Memref.isWhole_whole _)
        (fun h => by have h0 := (atFirst7_iff ⟨n + 1, hn⟩).mp h; have hN : n + 1 < 10 := lt_of_lt_of_eq hn tenPoints7; (try dsimp only at h0); omega)
        ((atLast7_iff ⟨n + 1, hn⟩).mpr h1) (blk7 V c 0 ⟨n + 1, hn⟩) (blk7 V c 1 ⟨n + 1, hn⟩) (blk7 V c 2 ⟨n + 1, hn⟩) (blk7 V c 3 ⟨n + 1, hn⟩)
        (after7 c n (Nat.lt_of_succ_lt hn)).sum (after7 c n (Nat.lt_of_succ_lt hn)).sq
    else
      mid7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) sumBuf7 (Memref.isWhole_whole _) sqBuf7 (Memref.isWhole_whole _)
        (fun h => by have h0 := (atFirst7_iff ⟨n + 1, hn⟩).mp h; have hN : n + 1 < 10 := lt_of_lt_of_eq hn tenPoints7; (try dsimp only at h0); omega)
        (fun h => h1 ((atLast7_iff ⟨n + 1, hn⟩).mp h)) (blk7 V c 0 ⟨n + 1, hn⟩) (blk7 V c 1 ⟨n + 1, hn⟩) (blk7 V c 2 ⟨n + 1, hn⟩) (blk7 V c 3 ⟨n + 1, hn⟩)
        (after7 c n (Nat.lt_of_succ_lt hn)).sum (after7 c n (Nat.lt_of_succ_lt hn)).sq

theorem after7_first (c : Dev nD) (t : Fin cfg7.N) (h0 : t.val % 10 = 0) (h1 : ¬t.val % 10 = 9) :
    after7 V c t.val t.isLt = first7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) sumBuf7 (Memref.isWhole_whole _) sqBuf7 (Memref.isWhole_whole _) ((atFirst7_iff t).mpr h0) (fun h => h1 ((atLast7_iff t).mp h)) (blk7 V c 0 t) (blk7 V c 1 t) (blk7 V c 2 t) (blk7 V c 3 t) := by
  obtain ⟨n, hn⟩ := t
  cases n with
  | zero => exact rfl
  | succ n => exfalso; have hN : n + 1 < 10 := lt_of_lt_of_eq hn tenPoints7; (try dsimp only at h0); omega

theorem after7_mid (c : Dev nD) (t : Fin cfg7.N) (h0 : ¬t.val % 10 = 0) (h1 : ¬t.val % 10 = 9) :
    after7 V c t.val t.isLt = mid7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) sumBuf7 (Memref.isWhole_whole _) sqBuf7 (Memref.isWhole_whole _) (fun h => h0 ((atFirst7_iff t).mp h)) (fun h => h1 ((atLast7_iff t).mp h)) (blk7 V c 0 t) (blk7 V c 1 t) (blk7 V c 2 t) (blk7 V c 3 t)
      (after7 V c (t.val - 1) (Nat.lt_of_le_of_lt (Nat.sub_le _ _) t.isLt)).sum (after7 V c (t.val - 1) (Nat.lt_of_le_of_lt (Nat.sub_le _ _) t.isLt)).sq := by
  obtain ⟨n, hn⟩ := t
  cases n with
  | zero => exact (by exfalso; (try dsimp only at h0); exact absurd (Nat.zero_mod _) h0)
  | succ n => exact (dif_neg h1).trans rfl

theorem after7_last (c : Dev nD) (t : Fin cfg7.N) (h0 : ¬t.val % 10 = 0) (h1 : t.val % 10 = 9) :
    after7 V c t.val t.isLt = last7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) sumBuf7 (Memref.isWhole_whole _) sqBuf7 (Memref.isWhole_whole _) (fun h => h0 ((atFirst7_iff t).mp h)) ((atLast7_iff t).mpr h1) (blk7 V c 0 t) (blk7 V c 1 t) (blk7 V c 2 t) (blk7 V c 3 t)
      (after7 V c (t.val - 1) (Nat.lt_of_le_of_lt (Nat.sub_le _ _) t.isLt)).sum (after7 V c (t.val - 1) (Nat.lt_of_le_of_lt (Nat.sub_le _ _) t.isLt)).sq := by
  obtain ⟨n, hn⟩ := t
  cases n with
  | zero => exact (by exfalso; (try dsimp only at h0); exact absurd (Nat.zero_mod _) h0)
  | succ n => exact (dif_pos h1).trans rfl

/-- The call's invariant before position n: the resting one before the first point; afterwards the accumulators at
    the sums the point before left, every other scoped buffer unopened, the generator register at some state. -/
def carry7 (c : Dev nD) : (n : ℕ) → n ≤ cfg7.N → sProp 𝕄
  | 0, _ => Pipeline.ΦA spec7 c
  | n + 1, hn => iprop(iprop(iprop(owns (c : Thread nD τ) sumBuf7 fullShare (after7 V c n hn).sum ∗ owns (c : Thread nD τ) sqBuf7 fullShare (after7 V c n hn).sq)
      ∗ Pipeline.scopedRestBut (Ix := Unit) (Name := ℕ) (U := UR sig nD τ) (Lvl := ℕ) (Val := Elt F) spec7 c [cc7_scratch0, cc7_scratch1]) ∗ (∃ r, prngReg c r))

theorem carry7_zero (c : Dev nD) (n : ℕ) (h : n ≤ cfg7.N) (hz : n = 0) : carry7 V c n h = Pipeline.ΦA spec7 c := by
  subst hz; rfl

theorem carry7_succ (c : Dev nD) (n : ℕ) (hn : n < cfg7.N) :
    carry7 V c (n + 1) hn = iprop(iprop(iprop(owns (c : Thread nD τ) sumBuf7 fullShare (after7 V c n hn).sum ∗ owns (c : Thread nD τ) sqBuf7 fullShare (after7 V c n hn).sq)
      ∗ Pipeline.scopedRestBut (Ix := Unit) (Name := ℕ) (U := UR sig nD τ) (Lvl := ℕ) (Val := Elt F) spec7 c [cc7_scratch0, cc7_scratch1]) ∗ (∃ r, prngReg c r)) := rfl

theorem carry7_pos (c : Dev nD) (n : ℕ) (h : n ≤ cfg7.N) (hz : n ≠ 0) :
    carry7 V c n h = iprop(iprop(iprop(owns (c : Thread nD τ) sumBuf7 fullShare (after7 V c (n - 1) (by omega)).sum ∗ owns (c : Thread nD τ) sqBuf7 fullShare (after7 V c (n - 1) (by omega)).sq)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-- The proof data of the call: arrays as found; after the body each input buffer at its block, the three output
    buffers at the accumulation's components; the invariant the carried one; nothing owed. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => (after7 V c t.val t.isLt).pre
    | ⟨5, _⟩ => (after7 V c t.val t.isLt).mean
    | ⟨6, _⟩ => (after7 V c t.val t.isLt).var
  Φ t := carry7 V c t.val (Nat.le_of_lt_succ t.isLt)
  q _ := fullShare
  owed _ := 0

theorem dat7_A (c : Dev nD) (w : Fin cfg7.W) : (dat7 V c).A w = V c (Pipeline.arrRef spec7 w) := by
  dsimp only [dat7]

theorem dat7_carry (c : Dev nD) (t : Fin cfg7.N) :
    (dat7 V c).Φ t.castSucc = carry7 V c t.val (Nat.le_of_lt t.isLt) := by
  dsimp only [dat7]; simp only [Fin.coe_castSucc]

theorem dat7_after_0 (c : Dev nD) (t : Fin cfg7.N) : (dat7 V c).after 0 t = blk7 V c 0 t := by dsimp only [dat7]
theorem dat7_after_1 (c : Dev nD) (t : Fin cfg7.N) : (dat7 V c).after 1 t = blk7 V c 1 t := by dsimp only [dat7]
theorem dat7_after_2 (c : Dev nD) (t : Fin cfg7.N) : (dat7 V c).after 2 t = blk7 V c 2 t := by dsimp only [dat7]
theorem dat7_after_3 (c : Dev nD) (t : Fin cfg7.N) : (dat7 V c).after 3 t = blk7 V c 3 t := by dsimp only [dat7]
theorem dat7_after_4 (c : Dev nD) (t : Fin cfg7.N) : (dat7 V c).after 4 t = (after7 V c t.val t.isLt).pre := by dsimp only [dat7]
theorem dat7_after_5 (c : Dev nD) (t : Fin cfg7.N) : (dat7 V c).after 5 t = (after7 V c t.val t.isLt).mean := by dsimp only [dat7]
theorem dat7_after_6 (c : Dev nD) (t : Fin cfg7.N) : (dat7 V c).after 6 t = (after7 V c t.val t.isLt).var := by dsimp only [dat7]

theorem dat7_before_0 (c : Dev nD) (t : Fin cfg7.N) (d) : (dat7 V c).before 0 t d = blk7 V c 0 t :=
  before7_0_of V (dat7 V c) (dat7_A V c 0) (dat7_after_0 V c) t d
theorem dat7_before_1 (c : Dev nD) (t : Fin cfg7.N) (d) : (dat7 V c).before 1 t d = blk7 V c 1 t :=
  before7_1_of V (dat7 V c) (dat7_A V c 1) (dat7_after_1 V c) t d
theorem dat7_before_2 (c : Dev nD) (t : Fin cfg7.N) (d) : (dat7 V c).before 2 t d = blk7 V c 2 t :=
  before7_2_of V (dat7 V c) (dat7_A V c 2) (dat7_after_2 V c) t d
theorem dat7_before_3 (c : Dev nD) (t : Fin cfg7.N) (d) : (dat7 V c).before 3 t d = blk7 V c 3 t :=
  before7_3_of V (dat7 V c) (dat7_A V c 3) (dat7_after_3 V c) t d

end Cert.KernelIdeal.Hand

end
-- ==== Proof.Ideal.Stats7Body.lean ====
/-
  The combine-and-statistics call of layer three: the body obligation. At a generic grid point the body is entered
  with the carried invariant, nothing owed, and each window's current staging buffer (an input's at its block); it
  leaves the invariant of the next position — the accumulators at this point's sums —, each input buffer as it was,
  the combined block stored, and the mean and variance buffers stored at the last point and handed back untouched
  elsewhere. Three cases by the point's position: first, middle, last.
-/
import proofs.«169495_j53601191854606_1_alg».proof.Proof.Ideal.Stats7Acc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def enter7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

def leave7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
theorem sound_point7 (c : Dev nD) (t : Fin cfg7.N) :
    enter7 V c t ⊢ wp frame (wpE (defs₀ (F := F)) Variants.none c none) Set.univ (bodyAt7 t) (fun _ => leave7 V c t) := by
  unfold enter7 leave7 bodyAt7
  simp only [dat7_before_0, dat7_before_1, dat7_before_2, dat7_before_3]
  rw [show (dat7 V c).owesAt () t.succ = (dat7 V c).owesAt () t.castSucc from rfl]
  rw [show (dat7 V c).Φ t.succ = carry7 V c (t.val + 1) t.isLt from rfl, carry7_succ]
  have hN : t.val < 10 := lt_of_lt_of_eq t.isLt tenPoints7
  rw [show (dat7 V c).leavesExact 0 t = owns (c : Thread nD τ) (ms7_0 t) fullShare ((dat7 V c).after 0 t) from by
    unfold Dat.leavesExact; rw [live7_0 t], dat7_after_0]
  rw [show (dat7 V c).leavesExact 1 t = owns (c : Thread nD τ) (ms7_1 t) fullShare ((dat7 V c).after 1 t) from by
    unfold Dat.leavesExact; rw [live7_1 t], dat7_after_1]
  rw [show (dat7 V c).leavesExact 2 t = owns (c : Thread nD τ) (ms7_2 t) fullShare ((dat7 V c).after 2 t) from by
    unfold Dat.leavesExact; rw [live7_2 t], dat7_after_2]
  rw [show (dat7 V c).leavesExact 3 t = owns (c : Thread nD τ) (ms7_3 t) fullShare ((dat7 V c).after 3 t) from by
    unfold Dat.leavesExact; rw [live7_3 t], dat7_after_3]
  rw [show (dat7 V c).leavesExact 4 t = owns (c : Thread nD τ) (ms7_4 t) fullShare ((dat7 V c).after 4 t) from by
    unfold Dat.leavesExact; rw [live7_4 t], dat7_after_4]
  by_cases h0 : t.val % 10 = 0
  · -- the first point
    have h1 : ¬t.val % 10 = 9 := by omega
    have hz : t.val = 0 := by omega
    rw [Dat.leavesExact_idle (dat7 V c) 5 t (idle7_5 t (fun h => h1 ((atLast7_iff t).mp h))) (keep7_5 t (fun h => h1 ((atLast7_iff t).mp h)))]
    rw [Dat.leavesExact_idle (dat7 V c) 6 t (idle7_6 t (fun h => h1 ((atLast7_iff t).mp h))) (keep7_6 t (fun h => h1 ((atLast7_iff t).mp h)))]
    rw [after7_first V c t h0 h1]
    unfold first7; (try dsimp only)
    rw [dat7_carry V c t, carry7_zero V c _ _ hz, rest7_eq]
    iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runFirst7 c (grid7.coords t) _ _ _ _ _ _ _ _ _ _ _ _ _ _ _ _ _ _ ((atFirst7_iff t).mpr h0) (fun h => h1 ((atLast7_iff t).mp h)) (blk7 V c 0 t) (blk7 V c 1 t) (blk7 V c 2 t) (blk7 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, ⟨%e4, H4⟩, H5, H6, ⟨%e8, HS8⟩, ⟨%e9, HS9⟩⟩
    isplitl [HS8 HS9 HR Hg]
    · isplitl [HS8 HS9 HR]
      · isplitl [HS8 HS9]
        · isplitl [HS8]
          · unfold owns; iexists _; isplitr
            swap; · iexact HS8
            ipureintro; exact View.read_writes_of_cover _ _ _ _ _ (cover7_first_sum c _ _ _ _ _ _ _ _ _ _ _ _ _ _ _ _ _ _ _ _ _ _ _ _ _)
          · unfold owns; iexists _; isplitr
            swap; · iexact HS9
            ipureintro; exact View.read_writes_of_cover _ _ _ _ _ (cover7_first_sq c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover7_first_pre c _ _ _ _ _ _ _ _ _ _ _ _ _ _ _ _ _ _ _ _ _ _ _ _ _)
    isplitl [H5]; · iexists _; iexact H5
    iexists _; iexact H6
  · have hz : t.val ≠ 0 := by omega
    by_cases h1 : t.val % 10 = 9
    · -- the last point
      rw [show (dat7 V c).leavesExact 5 t = owns (c : Thread nD τ) (ms7_5 t) fullShare ((dat7 V c).after 5 t) from by
        unfold Dat.leavesExact; rw [last7_5 t ((atLast7_iff t).mpr h1)], dat7_after_5]
      rw [show (dat7 V c).leavesExact 6 t = owns (c : Thread nD τ) (ms7_6 t) fullShare ((dat7 V c).after 6 t) from by
        unfold Dat.leavesExact; rw [last7_6 t ((atLast7_iff t).mpr h1)], dat7_after_6]
      rw [after7_last V c t h0 h1]
      unfold last7; (try dsimp only)
      rw [dat7_carry V c t, carry7_pos V c _ _ hz]
      iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast7 c (grid7.coords t) _ _ _ _ _ _ _ _ _ _ _ _ _ _ _ _ _ _ (fun h => h0 ((atFirst7_iff t).mp h)) ((atLast7_iff t).mpr h1) (blk7 V c 0 t) (blk7 V c 1 t) (blk7 V c 2 t) (blk7 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, ⟨%e4, H4⟩, ⟨%e5, H5⟩, ⟨%e6, H6⟩, ⟨%e8, HS8⟩, ⟨%e9, HS9⟩⟩
      isplitl [HS8 HS9 HR Hg]
      · isplitl [HS8 HS9 HR]
        · isplitl [HS8 HS9]
          · isplitl [HS8]
            · unfold owns; iexists _; isplitr
              swap; · iexact HS8
              ipureintro; exact View.read_writes_of_cover _ _ _ _ _ (cover7_last_sum c _ _ _ _ _ _ _ _ _ _ _ _ _ _ _ _ _ _ _ _ _ _ _ _ _ _ _)
            · unfold owns; iexists _; isplitr
              swap; · iexact HS9
              ipureintro; exact View.read_writes_of_cover _ _ _ _ _ (cover7_last_sq c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_last_pre c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover7_last_mean c _ _ _ _ _ _ _ _ _ _ _ _ _ _ _ _ _ _ _ _ _ _ _ _ _ _ _)
      unfold owns; iexists _; isplitr
      swap; · iexact H6
      ipureintro; exact View.read_writes_of_cover _ _ _ _ _ (cover7_last_var c _ _ _ _ _ _ _ _ _ _ _ _ _ _ _ _ _ _ _ _ _ _ _ _ _ _ _)
    · -- a middle point
      rw [Dat.leavesExact_idle (dat7 V c) 5 t (idle7_5 t (fun h => h1 ((atLast7_iff t).mp h))) (keep7_5 t (fun h => h1 ((atLast7_iff t).mp h)))]
      rw [Dat.leavesExact_idle (dat7 V c) 6 t (idle7_6 t (fun h => h1 ((atLast7_iff t).mp h))) (keep7_6 t (fun h => h1 ((atLast7_iff t).mp h)))]
      rw [after7_mid V c t h0 h1]
      unfold mid7; (try dsimp only)
      rw [dat7_carry V c t, carry7_pos V c _ _ hz]
      iintro ⟨⟨⟨⟨HS8, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid7 c (grid7.coords t) _ _ _ _ _ _ _ _ _ _ _ _ _ _ _ _ _ _ (fun h => h0 ((atFirst7_iff t).mp h)) (fun h => h1 ((atLast7_iff t).mp h)) (blk7 V c 0 t) (blk7 V c 1 t) (blk7 V c 2 t) (blk7 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, ⟨%e4, H4⟩, H5, H6, ⟨%e8, HS8⟩, ⟨%e9, HS9⟩⟩
      isplitl [HS8 HS9 HR Hg]
      · isplitl [HS8 HS9 HR]
        · isplitl [HS8 HS9]
          · isplitl [HS8]
            · unfold owns; iexists _; isplitr
              swap; · iexact HS8
              ipureintro; exact View.read_writes_of_cover _ _ _ _ _ (cover7_mid_sum c _ _ _ _ _ _ _ _ _ _ _ _ _ _ _ _ _ _ _ _ _ _ _ _ _ _ _)
            · unfold owns; iexists _; isplitr
              swap; · iexact HS9
              ipureintro; exact View.read_writes_of_cover _ _ _ _ _ (cover7_mid_sq c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_mid_pre c _ _ _ _ _ _ _ _ _ _ _ _ _ _ _ _ _ _ _ _ _ _ _ _ _ _ _)
      isplitl [H5]; · iexists _; iexact H5
      iexists _; iexact H6

theorem obligation7 (c : Dev nD) : BodyObligation (dat7 (F := F) V c) (defs₀ (F := F)) Variants.none () Set.univ := fun t => by
  rw [bigSep_W7, bigSep_W7]
  exact sound_point7 V c t

/-- What the launch hands the call is the invariant before the first point, -/
theorem carry7_in (c : Dev nD) : Pipeline.ΦA spec7 c ⊢ (dat7 V c).Φ 0 := by
  rw [show (dat7 V c).Φ 0 = carry7 V c 0 (Nat.zero_le _) from rfl, carry7_zero V c 0 _ rfl]
  try exact Idealize.SL.BI.Entails.refl _

/-- and after the last point the invariant gives the resting one back, the sums forgotten. -/
theorem carry7_out (c : Dev nD) : (dat7 V c).Φ (Fin.last cfg7.N) ⊢ Pipeline.ΦA spec7 c := by
  rw [show (dat7 V c).Φ (Fin.last cfg7.N) = carry7 V c (Fin.last cfg7.N).val (Nat.le_of_lt_succ (Fin.last cfg7.N).isLt) from rfl,
    carry7_pos V c _ _ (by rw [Fin.val_last]; have : cfg7.N = 10 := tenPoints7; omega), rest7_eq]
  iintro ⟨⟨⟨HS8, HS9⟩, HR⟩, Hg⟩
  isplitl [HS8 HS9 HR]
  · isplitl [HS8 HS9]
    · isplitl [HS8]
      · iexists _; iexact HS8
      iexists _; iexact HS9
    iexact HR
  iexact Hg

end Cert.KernelIdeal.Hand

end
-- ==== Proof.Ideal.Act8.lean ====
/-
  The normalisation and rectifier of layer three (pallas_call 8 of the idealized kernel) on ten blocks of 5000 rows of
  width 64: each grid point reads its block of pre (window 0) and the one-row mean, variance, scale and shift
  (windows 1 to 4, the same block at every point, fetched once) and stores g · ((pre − mean) · rsqrt(var + eps)) + be
  passed through the exponential linear unit into window 5. At a parameter V and any float instance: what the body
  leaves, its triple, the proof data and the body obligation at every point.
-/
import proofs.«169495_j53601191854606_1_alg».proof.Proof.Gen.KernelIdeal.Launch
import proofs.«169495_j53601191854606_1_alg».proof.Proof.Gen.KernelIdeal.Skeleton
import proofs.«169495_j53601191854606_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the call finds it. -/
def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Each input's block sits in its current staging buffer at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = blk8 V c 0 t) (t : Fin cfg8.N) (d) : dat.before 0 t d = blk8 V c 0 t :=
  (dat.before_in_eq_fetched 0 rfl (fun _ => rfl) (fun _ _ _ => rfl) (fun t => by rw [hafter]; unfold Dat.blockOf blk8; rw [hA]; try rfl) t d).trans
    (by unfold Dat.fetched Dat.blockOf blk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = blk8 V c 1 t) (t : Fin cfg8.N) (d) : dat.before 1 t d = blk8 V c 1 t :=
  (dat.before_in_eq_fetched 1 rfl (fun _ => rfl) (fun _ _ _ => rfl) (fun t => by rw [hafter]; unfold Dat.blockOf blk8; rw [hA]; try rfl) t d).trans
    (by unfold Dat.fetched Dat.blockOf blk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = blk8 V c 2 t) (t : Fin cfg8.N) (d) : dat.before 2 t d = blk8 V c 2 t :=
  (dat.before_in_eq_fetched 2 rfl (fun _ => rfl) (fun _ _ _ => rfl) (fun t => by rw [hafter]; unfold Dat.blockOf blk8; rw [hA]; try rfl) t d).trans
    (by unfold Dat.fetched Dat.blockOf blk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = blk8 V c 3 t) (t : Fin cfg8.N) (d) : dat.before 3 t d = blk8 V c 3 t :=
  (dat.before_in_eq_fetched 3 rfl (fun _ => rfl) (fun _ _ _ => rfl) (fun t => by rw [hafter]; unfold Dat.blockOf blk8; rw [hA]; try rfl) t d).trans
    (by unfold Dat.fetched Dat.blockOf blk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = blk8 V c 4 t) (t : Fin cfg8.N) (d) : dat.before 4 t d = blk8 V c 4 t :=
  (dat.before_in_eq_fetched 4 rfl (fun _ => rfl) (fun _ _ _ => rfl) (fun t => by rw [hafter]; unfold Dat.blockOf blk8; rw [hA]; try rfl) t d).trans
    (by unfold Dat.fetched Dat.blockOf blk8; rw [hA]; try rfl)

/-- The output buffer after the body, from the loaded input blocks: one store through the whole block. -/
def act8 (x0 : Vec F S5000x64 .f32) (x1 : Vec F S1x64 .f32) (x2 : Vec F S1x64 .f32) (x3 : Vec F S1x64 .f32) (x4 : Vec F S1x64 .f32) : Vec F S5000x64 .f32 :=
  View.canon [⟨Rect.unit (s := S5000x64) ![0, 0] S5000x64.size inb_S5000x64_S5000x64_0_0, k8_pay1 (View.ld x0 (Rect.unit (s := S5000x64) ![0, 0] S5000x64.size inb_S5000x64_S5000x64_0_0)) (View.ld x1 (Rect.unit (s := S1x64) ![0, 0] S1x64.size inb_S1x64_S1x64_0_0)) (View.ld x2 (Rect.unit (s := S1x64) ![0, 0] S1x64.size inb_S1x64_S1x64_0_0)) (View.ld x3 (Rect.unit (s := S1x64) ![0, 0] S1x64.size inb_S1x64_S1x64_0_0)) (View.ld x4 (Rect.unit (s := S1x64) ![0, 0] S1x64.size inb_S1x64_S1x64_0_0))⟩]

theorem cover_act8 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 1000000 in
/-- The body on whole staging buffers: inputs kept, the output stored. -/
theorem sound_act8 (c : Dev nD) (E : Set ℕ) (i : grid8.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (act8 x0 x1 x2 x3 x4)) -∗ K ⟨⟩))
      ⊢ wp frame (wpE (defs₀ (F := F)) Variants.none c none) E (cc8__norm_elu_kernel i arg1 harg1 arg2 harg2 arg3 harg3 arg4 harg4 arg5 harg5 arg6 harg6) K := by
  simp only [cc8__norm_elu_kernel_eq_skeleton]; unfold cc8__norm_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover_act8 _)

/-- The proof data of the call: arrays as found; after the body each input buffer still at its block, the output
    buffer at what the body stores; nothing carried, nothing owed. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => blk8 V c 2 t
    | ⟨3, _⟩ => blk8 V c 3 t
    | ⟨4, _⟩ => blk8 V c 4 t
    | ⟨5, _⟩ => act8 (blk8 V c 0 t) (blk8 V c 1 t) (blk8 V c 2 t) (blk8 V c 3 t) (blk8 V c 4 t)
  Φ _ := Pipeline.ΦA spec8 c
  q _ := fullShare
  owed _ := 0

theorem dat8_A (c : Dev nD) (w : Fin cfg8.W) : (dat8 V c).A w = V c (Pipeline.arrRef spec8 w) := by
  dsimp only [dat8]

theorem dat8_after_0 (c : Dev nD) (t : Fin cfg8.N) : (dat8 V c).after 0 t = blk8 V c 0 t := by dsimp only [dat8]
theorem dat8_after_1 (c : Dev nD) (t : Fin cfg8.N) : (dat8 V c).after 1 t = blk8 V c 1 t := by dsimp only [dat8]
theorem dat8_after_2 (c : Dev nD) (t : Fin cfg8.N) : (dat8 V c).after 2 t = blk8 V c 2 t := by dsimp only [dat8]
theorem dat8_after_3 (c : Dev nD) (t : Fin cfg8.N) : (dat8 V c).after 3 t = blk8 V c 3 t := by dsimp only [dat8]
theorem dat8_after_4 (c : Dev nD) (t : Fin cfg8.N) : (dat8 V c).after 4 t = blk8 V c 4 t := by dsimp only [dat8]
theorem dat8_after_5 (c : Dev nD) (t : Fin cfg8.N) :
    (dat8 V c).after 5 t = act8 (blk8 V c 0 t) (blk8 V c 1 t) (blk8 V c 2 t) (blk8 V c 3 t) (blk8 V c 4 t) := by dsimp only [dat8]

theorem dat8_before_0 (c : Dev nD) (t : Fin cfg8.N) (d) : (dat8 V c).before 0 t d = blk8 V c 0 t :=
  before8_0_of V (dat8 V c) (dat8_A V c 0) (dat8_after_0 V c) t d
theorem dat8_before_1 (c : Dev nD) (t : Fin cfg8.N) (d) : (dat8 V c).before 1 t d = blk8 V c 1 t :=
  before8_1_of V (dat8 V c) (dat8_A V c 1) (dat8_after_1 V c) t d
theorem dat8_before_2 (c : Dev nD) (t : Fin cfg8.N) (d) : (dat8 V c).before 2 t d = blk8 V c 2 t :=
  before8_2_of V (dat8 V c) (dat8_A V c 2) (dat8_after_2 V c) t d
theorem dat8_before_3 (c : Dev nD) (t : Fin cfg8.N) (d) : (dat8 V c).before 3 t d = blk8 V c 3 t :=
  before8_3_of V (dat8 V c) (dat8_A V c 3) (dat8_after_3 V c) t d
theorem dat8_before_4 (c : Dev nD) (t : Fin cfg8.N) (d) : (dat8 V c).before 4 t d = blk8 V c 4 t :=
  before8_4_of V (dat8 V c) (dat8_A V c 4) (dat8_after_4 V c) t d

def enter8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def leave8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_point8 (c : Dev nD) (t : Fin cfg8.N) :
    enter8 V c t ⊢ wp frame (wpE (defs₀ (F := F)) Variants.none c none) Set.univ (bodyAt8 t) (fun _ => leave8 V c t) := by
  unfold enter8 leave8 bodyAt8
  simp only [dat8_before_0, dat8_before_1, dat8_before_2, dat8_before_3, dat8_before_4]
  rw [show (dat8 V c).Φ t.succ = (dat8 V c).Φ t.castSucc from rfl,
    show (dat8 V c).owesAt () t.succ = (dat8 V c).owesAt () t.castSucc from rfl,
    dat8_after_0, dat8_after_1, dat8_after_2, dat8_after_3, dat8_after_4, dat8_after_5]
  iintro ⟨HΦ, Ho, ⟨%d0, H0⟩, ⟨%d1, H1⟩, ⟨%d2, H2⟩, ⟨%d3, H3⟩, ⟨%d4, H4⟩, ⟨%d5, H5⟩⟩
  iapply (sound_act8 c Set.univ _ _ _ _ _ _ _ _ _ _ _ _ _ (blk8 V c 0 t) (blk8 V c 1 t) (blk8 V c 2 t) (blk8 V c 3 t) (blk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem obligation8 (c : Dev nD) : BodyObligation (dat8 (F := F) V c) (defs₀ (F := F)) Variants.none () Set.univ := fun t => by
  rw [bigSep_W8, bigSep_W8]
  exact sound_point8 V c t

end Cert.KernelIdeal.Hand

end
-- ==== Proof.Ideal.RunData.lean ====
/-
  The idealized kernel's @main as sixteen items — seven stretches of host operations and nine pallas_calls — and
  what every buffer holds between two items: the launch memory, then each host stretch's operations applied, then
  each call's window arrays at what its write-backs leave and every other buffer as the call found it. With it: per
  call the two exit facts (its arrays hold the proof data's final contents; nothing else moved), every call's proof
  data at its entry contents as one family, and the thread state that rides beside the buffers.
-/
import proofs.«169495_j53601191854606_1_alg».proof.Proof.Gen.KernelIdeal.Regions
import proofs.«169495_j53601191854606_1_alg».proof.Proof.Ideal.Product0
import proofs.«169495_j53601191854606_1_alg».proof.Proof.Ideal.Stats1Body
import proofs.«169495_j53601191854606_1_alg».proof.Proof.Ideal.Act2
import proofs.«169495_j53601191854606_1_alg».proof.Proof.Ideal.Product3
import proofs.«169495_j53601191854606_1_alg».proof.Proof.Ideal.Stats4Body
import proofs.«169495_j53601191854606_1_alg».proof.Proof.Ideal.Act5
import proofs.«169495_j53601191854606_1_alg».proof.Proof.Ideal.Product6
import proofs.«169495_j53601191854606_1_alg».proof.Proof.Ideal.Stats7Body
import proofs.«169495_j53601191854606_1_alg».proof.Proof.Ideal.Act8

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev B0 : Dev nD → Valuation τ sig (Elt F) := fun c b => (s₀ m ρ).mem ((c : Dev nD), b)
/-- After the host stretch hostOps0. -/
abbrev B1 : Dev nD → Valuation τ sig (Elt F) := fun c => StableHlo.after hostOps0 (B0 m ρ c)
/-- The contents pallas_call 0 is entered from, read at the TensorCore's references. -/
abbrev C1 : (c : Dev nD) → (b : Ref sig .tc) → Buf (Elt F) ((c : Thread nD τ).loc b) := fun c b => B1 m ρ c b
/-- After pallas_call 0: its windows' arrays at what the write-backs leave, every other buffer as entered. -/
def B2 (c : Dev nD) : Valuation τ sig (Elt F) :=
  Pipeline.withArrays spec0 c (B1 m ρ c) fun w => (dat0 (C1 m ρ) c).arrAt w cfg0.N
theorem B2_arr (c : Dev nD) (w : Fin cfg0.W) :
    B2 m ρ c (Proc.devRef .tc (Pipeline.arrRef spec0 w)) = (dat0 (C1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev X2 : (c : Dev nD) → (b : Ref sig .tc) → Buf (Elt F) ((c : Thread nD τ).loc b) := fun c b => B2 m ρ c b
theorem exit0_arr (c : Dev nD) (w : Fin cfg0.W) : (dat0 (C1 m ρ) c).arrAt w cfg0.N = X2 m ρ c (Pipeline.arrRef spec0 w) :=
  (B2_arr m ρ c w).symm
theorem exit0_rest (c : Dev nD) : ∀ b, b ∉ Finset.univ.image (Pipeline.arrRef spec0) → X2 m ρ c b = C1 m ρ c b :=
  fun b hb => B2_of_ne m ρ c b fun w e => hb (Finset.mem_image.mpr ⟨w, Finset.mem_univ _, e⟩)
/-- After the host stretch hostOps1. -/
abbrev B3 : Dev nD → Valuation τ sig (Elt F) := fun c => StableHlo.after hostOps1 (B2 m ρ c)
/-- The contents pallas_call 1 is entered from, read at the TensorCore's references. -/
abbrev C3 : (c : Dev nD) → (b : Ref sig .tc) → Buf (Elt F) ((c : Thread nD τ).loc b) := fun c b => B3 m ρ c b
/-- After pallas_call 1: its windows' arrays at what the write-backs leave, every other buffer as entered. -/
def B4 (c : Dev nD) : Valuation τ sig (Elt F) :=
  Pipeline.withArrays spec1 c (B3 m ρ c) fun w => (dat1 (C3 m ρ) c).arrAt w cfg1.N
theorem B4_arr (c : Dev nD) (w : Fin cfg1.W) :
    B4 m ρ c (Proc.devRef .tc (Pipeline.arrRef spec1 w)) = (dat1 (C3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev X4 : (c : Dev nD) → (b : Ref sig .tc) → Buf (Elt F) ((c : Thread nD τ).loc b) := fun c b => B4 m ρ c b
theorem exit1_arr (c : Dev nD) (w : Fin cfg1.W) : (dat1 (C3 m ρ) c).arrAt w cfg1.N = X4 m ρ c (Pipeline.arrRef spec1 w) :=
  (B4_arr m ρ c w).symm
theorem exit1_rest (c : Dev nD) : ∀ b, b ∉ Finset.univ.image (Pipeline.arrRef spec1) → X4 m ρ c b = C3 m ρ c b :=
  fun b hb => B4_of_ne m ρ c b fun w e => hb (Finset.mem_image.mpr ⟨w, Finset.mem_univ _, e⟩)
/-- After the host stretch hostOps2. -/
abbrev B5 : Dev nD → Valuation τ sig (Elt F) := fun c => StableHlo.after hostOps2 (B4 m ρ c)
/-- The contents pallas_call 2 is entered from, read at the TensorCore's references. -/
abbrev C5 : (c : Dev nD) → (b : Ref sig .tc) → Buf (Elt F) ((c : Thread nD τ).loc b) := fun c b => B5 m ρ c b
/-- After pallas_call 2: its windows' arrays at what the write-backs leave, every other buffer as entered. -/
def B6 (c : Dev nD) : Valuation τ sig (Elt F) :=
  Pipeline.withArrays spec2 c (B5 m ρ c) fun w => (dat2 (C5 m ρ) c).arrAt w cfg2.N
theorem B6_arr (c : Dev nD) (w : Fin cfg2.W) :
    B6 m ρ c (Proc.devRef .tc (Pipeline.arrRef spec2 w)) = (dat2 (C5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev X6 : (c : Dev nD) → (b : Ref sig .tc) → Buf (Elt F) ((c : Thread nD τ).loc b) := fun c b => B6 m ρ c b
theorem exit2_arr (c : Dev nD) (w : Fin cfg2.W) : (dat2 (C5 m ρ) c).arrAt w cfg2.N = X6 m ρ c (Pipeline.arrRef spec2 w) :=
  (B6_arr m ρ c w).symm
theorem exit2_rest (c : Dev nD) : ∀ b, b ∉ Finset.univ.image (Pipeline.arrRef spec2) → X6 m ρ c b = C5 m ρ c b :=
  fun b hb => B6_of_ne m ρ c b fun w e => hb (Finset.mem_image.mpr ⟨w, Finset.mem_univ _, e⟩)
/-- The contents pallas_call 3 is entered from, read at the TensorCore's references. -/
abbrev C6 : (c : Dev nD) → (b : Ref sig .tc) → Buf (Elt F) ((c : Thread nD τ).loc b) := fun c b => B6 m ρ c b
/-- After pallas_call 3: its windows' arrays at what the write-backs leave, every other buffer as entered. -/
def B7 (c : Dev nD) : Valuation τ sig (Elt F) :=
  Pipeline.withArrays spec3 c (B6 m ρ c) fun w => (dat3 (C6 m ρ) c).arrAt w cfg3.N
theorem B7_arr (c : Dev nD) (w : Fin cfg3.W) :
    B7 m ρ c (Proc.devRef .tc (Pipeline.arrRef spec3 w)) = (dat3 (C6 m ρ) c).arrAt w cfg3.N := by
  unfold B7; exact Pipeline.withArrays_arr spec3 launch3.win.arr_inj c _ _ w
theorem B7_of_ne (c : Dev nD) (b : Ref sig .tc) (hb : ∀ w, Pipeline.arrRef spec3 w ≠ b) :
    B7 m ρ c (Proc.devRef .tc b) = B6 m ρ c (Proc.devRef .tc b) := by
  unfold B7; exact Pipeline.withArrays_of_ne spec3 c _ _ b hb
abbrev X7 : (c : Dev nD) → (b : Ref sig .tc) → Buf (Elt F) ((c : Thread nD τ).loc b) := fun c b => B7 m ρ c b
theorem exit3_arr (c : Dev nD) (w : Fin cfg3.W) : (dat3 (C6 m ρ) c).arrAt w cfg3.N = X7 m ρ c (Pipeline.arrRef spec3 w) :=
  (B7_arr m ρ c w).symm
theorem exit3_rest (c : Dev nD) : ∀ b, b ∉ Finset.univ.image (Pipeline.arrRef spec3) → X7 m ρ c b = C6 m ρ c b :=
  fun b hb => B7_of_ne m ρ c b fun w e => hb (Finset.mem_image.mpr ⟨w, Finset.mem_univ _, e⟩)
/-- After the host stretch hostOps4. -/
abbrev B8 : Dev nD → Valuation τ sig (Elt F) := fun c => StableHlo.after hostOps4 (B7 m ρ c)
/-- The contents pallas_call 4 is entered from, read at the TensorCore's references. -/
abbrev C8 : (c : Dev nD) → (b : Ref sig .tc) → Buf (Elt F) ((c : Thread nD τ).loc b) := fun c b => B8 m ρ c b
/-- After pallas_call 4: its windows' arrays at what the write-backs leave, every other buffer as entered. -/
def B9 (c : Dev nD) : Valuation τ sig (Elt F) :=
  Pipeline.withArrays spec4 c (B8 m ρ c) fun w => (dat4 (C8 m ρ) c).arrAt w cfg4.N
theorem B9_arr (c : Dev nD) (w : Fin cfg4.W) :
    B9 m ρ c (Proc.devRef .tc (Pipeline.arrRef spec4 w)) = (dat4 (C8 m ρ) c).arrAt w cfg4.N := by
  unfold B9; exact Pipeline.withArrays_arr spec4 launch4.win.arr_inj c _ _ w
theorem B9_of_ne (c : Dev nD) (b : Ref sig .tc) (hb : ∀ w, Pipeline.arrRef spec4 w ≠ b) :
    B9 m ρ c (Proc.devRef .tc b) = B8 m ρ c (Proc.devRef .tc b) := by
  unfold B9; exact Pipeline.withArrays_of_ne spec4 c _ _ b hb
abbrev X9 : (c : Dev nD) → (b : Ref sig .tc) → Buf (Elt F) ((c : Thread nD τ).loc b) := fun c b => B9 m ρ c b
theorem exit4_arr (c : Dev nD) (w : Fin cfg4.W) : (dat4 (C8 m ρ) c).arrAt w cfg4.N = X9 m ρ c (Pipeline.arrRef spec4 w) :=
  (B9_arr m ρ c w).symm
theorem exit4_rest (c : Dev nD) : ∀ b, b ∉ Finset.univ.image (Pipeline.arrRef spec4) → X9 m ρ c b = C8 m ρ c b :=
  fun b hb => B9_of_ne m ρ c b fun w e => hb (Finset.mem_image.mpr ⟨w, Finset.mem_univ _, e⟩)
/-- After the host stretch hostOps5. -/
abbrev B10 : Dev nD → Valuation τ sig (Elt F) := fun c => StableHlo.after hostOps5 (B9 m ρ c)
/-- The contents pallas_call 5 is entered from, read at the TensorCore's references. -/
abbrev C10 : (c : Dev nD) → (b : Ref sig .tc) → Buf (Elt F) ((c : Thread nD τ).loc b) := fun c b => B10 m ρ c b
/-- After pallas_call 5: its windows' arrays at what the write-backs leave, every other buffer as entered. -/
def B11 (c : Dev nD) : Valuation τ sig (Elt F) :=
  Pipeline.withArrays spec5 c (B10 m ρ c) fun w => (dat5 (C10 m ρ) c).arrAt w cfg5.N
theorem B11_arr (c : Dev nD) (w : Fin cfg5.W) :
    B11 m ρ c (Proc.devRef .tc (Pipeline.arrRef spec5 w)) = (dat5 (C10 m ρ) c).arrAt w cfg5.N := by
  unfold B11; exact Pipeline.withArrays_arr spec5 launch5.win.arr_inj c _ _ w
theorem B11_of_ne (c : Dev nD) (b : Ref sig .tc) (hb : ∀ w, Pipeline.arrRef spec5 w ≠ b) :
    B11 m ρ c (Proc.devRef .tc b) = B10 m ρ c (Proc.devRef .tc b) := by
  unfold B11; exact Pipeline.withArrays_of_ne spec5 c _ _ b hb
abbrev X11 : (c : Dev nD) → (b : Ref sig .tc) → Buf (Elt F) ((c : Thread nD τ).loc b) := fun c b => B11 m ρ c b
theorem exit5_arr (c : Dev nD) (w : Fin cfg5.W) : (dat5 (C10 m ρ) c).arrAt w cfg5.N = X11 m ρ c (Pipeline.arrRef spec5 w) :=
  (B11_arr m ρ c w).symm
theorem exit5_rest (c : Dev nD) : ∀ b, b ∉ Finset.univ.image (Pipeline.arrRef spec5) → X11 m ρ c b = C10 m ρ c b :=
  fun b hb => B11_of_ne m ρ c b fun w e => hb (Finset.mem_image.mpr ⟨w, Finset.mem_univ _, e⟩)
/-- The contents pallas_call 6 is entered from, read at the TensorCore's references. -/
abbrev C11 : (c : Dev nD) → (b : Ref sig .tc) → Buf (Elt F) ((c : Thread nD τ).loc b) := fun c b => B11 m ρ c b
/-- After pallas_call 6: its windows' arrays at what the write-backs leave, every other buffer as entered. -/
def B12 (c : Dev nD) : Valuation τ sig (Elt F) :=
  Pipeline.withArrays spec6 c (B11 m ρ c) fun w => (dat6 (C11 m ρ) c).arrAt w cfg6.N
theorem B12_arr (c : Dev nD) (w : Fin cfg6.W) :
    B12 m ρ c (Proc.devRef .tc (Pipeline.arrRef spec6 w)) = (dat6 (C11 m ρ) c).arrAt w cfg6.N := by
  unfold B12; exact Pipeline.withArrays_arr spec6 launch6.win.arr_inj c _ _ w
theorem B12_of_ne (c : Dev nD) (b : Ref sig .tc) (hb : ∀ w, Pipeline.arrRef spec6 w ≠ b) :
    B12 m ρ c (Proc.devRef .tc b) = B11 m ρ c (Proc.devRef .tc b) := by
  unfold B12; exact Pipeline.withArrays_of_ne spec6 c _ _ b hb
abbrev X12 : (c : Dev nD) → (b : Ref sig .tc) → Buf (Elt F) ((c : Thread nD τ).loc b) := fun c b => B12 m ρ c b
theorem exit6_arr (c : Dev nD) (w : Fin cfg6.W) : (dat6 (C11 m ρ) c).arrAt w cfg6.N = X12 m ρ c (Pipeline.arrRef spec6 w) :=
  (B12_arr m ρ c w).symm
theorem exit6_rest (c : Dev nD) : ∀ b, b ∉ Finset.univ.image (Pipeline.arrRef spec6) → X12 m ρ c b = C11 m ρ c b :=
  fun b hb => B12_of_ne m ρ c b fun w e => hb (Finset.mem_image.mpr ⟨w, Finset.mem_univ _, e⟩)
/-- After the host stretch hostOps7. -/
abbrev B13 : Dev nD → Valuation τ sig (Elt F) := fun c => StableHlo.after hostOps7 (B12 m ρ c)
/-- The contents pallas_call 7 is entered from, read at the TensorCore's references. -/
abbrev C13 : (c : Dev nD) → (b : Ref sig .tc) → Buf (Elt F) ((c : Thread nD τ).loc b) := fun c b => B13 m ρ c b
/-- After pallas_call 7: its windows' arrays at what the write-backs leave, every other buffer as entered. -/
def B14 (c : Dev nD) : Valuation τ sig (Elt F) :=
  Pipeline.withArrays spec7 c (B13 m ρ c) fun w => (dat7 (C13 m ρ) c).arrAt w cfg7.N
theorem B14_arr (c : Dev nD) (w : Fin cfg7.W) :
    B14 m ρ c (Proc.devRef .tc (Pipeline.arrRef spec7 w)) = (dat7 (C13 m ρ) c).arrAt w cfg7.N := by
  unfold B14; exact Pipeline.withArrays_arr spec7 launch7.win.arr_inj c _ _ w
theorem B14_of_ne (c : Dev nD) (b : Ref sig .tc) (hb : ∀ w, Pipeline.arrRef spec7 w ≠ b) :
    B14 m ρ c (Proc.devRef .tc b) = B13 m ρ c (Proc.devRef .tc b) := by
  unfold B14; exact Pipeline.withArrays_of_ne spec7 c _ _ b hb
abbrev X14 : (c : Dev nD) → (b : Ref sig .tc) → Buf (Elt F) ((c : Thread nD τ).loc b) := fun c b => B14 m ρ c b
theorem exit7_arr (c : Dev nD) (w : Fin cfg7.W) : (dat7 (C13 m ρ) c).arrAt w cfg7.N = X14 m ρ c (Pipeline.arrRef spec7 w) :=
  (B14_arr m ρ c w).symm
theorem exit7_rest (c : Dev nD) : ∀ b, b ∉ Finset.univ.image (Pipeline.arrRef spec7) → X14 m ρ c b = C13 m ρ c b :=
  fun b hb => B14_of_ne m ρ c b fun w e => hb (Finset.mem_image.mpr ⟨w, Finset.mem_univ _, e⟩)
/-- After the host stretch hostOps8. -/
abbrev B15 : Dev nD → Valuation τ sig (Elt F) := fun c => StableHlo.after hostOps8 (B14 m ρ c)
/-- The contents pallas_call 8 is entered from, read at the TensorCore's references. -/
abbrev C15 : (c : Dev nD) → (b : Ref sig .tc) → Buf (Elt F) ((c : Thread nD τ).loc b) := fun c b => B15 m ρ c b
/-- After pallas_call 8: its windows' arrays at what the write-backs leave, every other buffer as entered. -/
def B16 (c : Dev nD) : Valuation τ sig (Elt F) :=
  Pipeline.withArrays spec8 c (B15 m ρ c) fun w => (dat8 (C15 m ρ) c).arrAt w cfg8.N
theorem B16_arr (c : Dev nD) (w : Fin cfg8.W) :
    B16 m ρ c (Proc.devRef .tc (Pipeline.arrRef spec8 w)) = (dat8 (C15 m ρ) c).arrAt w cfg8.N := by
  unfold B16; exact Pipeline.withArrays_arr spec8 launch8.win.arr_inj c _ _ w
theorem B16_of_ne (c : Dev nD) (b : Ref sig .tc) (hb : ∀ w, Pipeline.arrRef spec8 w ≠ b) :
    B16 m ρ c (Proc.devRef .tc b) = B15 m ρ c (Proc.devRef .tc b) := by
  unfold B16; exact Pipeline.withArrays_of_ne spec8 c _ _ b hb
abbrev X16 : (c : Dev nD) → (b : Ref sig .tc) → Buf (Elt F) ((c : Thread nD τ).loc b) := fun c b => B16 m ρ c b
theorem exit8_arr (c : Dev nD) (w : Fin cfg8.W) : (dat8 (C15 m ρ) c).arrAt w cfg8.N = X16 m ρ c (Pipeline.arrRef spec8 w) :=
  (B16_arr m ρ c w).symm
theorem exit8_rest (c : Dev nD) : ∀ b, b ∉ Finset.univ.image (Pipeline.arrRef spec8) → X16 m ρ c b = C15 m ρ c b :=
  fun b hb => B16_of_ne m ρ c b fun w e => hb (Finset.mem_image.mpr ⟨w, Finset.mem_univ _, e⟩)

/-- No pallas_call has a prefetched table. -/
abbrev noTables : (p : Fin 9) → (pcfgs (F := F) p).Adm := fun p => (cfgs p).toPCfg_adm

/-- Every call's proof data, each at its entry contents — a literal match, so that the pinned configuration at a
    numeral reduces to the printed one. -/
def pdats : (p : Fin 9) → (c : Dev nD) → Dat τ (Elt F) Unit ℕ (UR sig nD τ) ℕ (Pipeline.pin (pcfgs (F := F)) noTables p) c
  | ⟨0, _⟩ => fun c => dat0 (C1 m ρ) c
  | ⟨1, _⟩ => fun c => dat1 (C3 m ρ) c
  | ⟨2, _⟩ => fun c => dat2 (C5 m ρ) c
  | ⟨3, _⟩ => fun c => dat3 (C6 m ρ) c
  | ⟨4, _⟩ => fun c => dat4 (C8 m ρ) c
  | ⟨5, _⟩ => fun c => dat5 (C10 m ρ) c
  | ⟨6, _⟩ => fun c => dat6 (C11 m ρ) c
  | ⟨7, _⟩ => fun c => dat7 (C13 m ρ) c
  | ⟨8, _⟩ => fun c => dat8 (C15 m ρ) c

abbrev noVariants : Variants := Variants.none
/-- No core owes another anything. -/
abbrev noLevels : GSem nD τ sig → Finset Unit := fun _ => ∅
abbrev levelZero : GSem nD τ sig → Unit → ℕ := fun _ _ => 0
/-- What rides beside the buffers through every item: the generator register at some state, nothing owed. -/
abbrev beside (c : Dev nD) : sProp 𝕄 := iprop((∃ r, prngReg c r) ∗ ∃ W, owes (c : Thread nD τ) (0 : CellTallies nD τ sig Unit) W)

/-- A host stretch as an item, from the contents W. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes: every unscoped buffer at the last contents, the generator register. -/
abbrev atEnd (c : Dev nD) : sProp 𝕄 := iprop(StableHlo.held (c : Thread nD τ) (Pipeline.ucRefs τ sig) (B16 m ρ c) ∗ ∃ r, prngReg c r)

end Cert.KernelIdeal.Hand

end
-- ==== Proof.Ideal.Item0.lean ====
/-
  pallas_call 0 of the idealized kernel as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Ideal.RunData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item0 : Pipeline.RegionSeg (pcfgs (F := F)) noTables (pdats m ρ) () defs₀ noVariants noLevels levelZero 0 where
  win := launch0.win.to₀
  block_pos := launch0.block_pos
  stage_whole := launch0.stage_whole
  K := PEmpty
  osem k := k.elim
  ho := Pipeline.OwnSemFacts.none _
  hbody c := (obligation0 (C1 m ρ) c).loose
  hwaits := Pipeline.hwaits_of_owed_zero _ _ _ _ noLevels levelZero 0 fun _ _ => rfl
  pre c := iprop(StableHlo.held (c : Thread nD τ) (Pipeline.ucRefs τ sig) (B1 m ρ c) ∗ beside c)
  post c := iprop(StableHlo.held (c : Thread nD τ) (Pipeline.ucRefs τ sig) (B2 m ρ c) ∗ beside c)
  X c := iprop(∃ r, prngReg c r)
  Y c := iprop(∃ r, prngReg c r)
  Z c := Pipeline.unscopedRest (Ix := Unit) (Name := ℕ) (U := UR sig nD τ) (Lvl := ℕ) spec0 c (C1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (C1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (C1 m ρ c) (X2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Ideal.Item1.lean ====
/-
  pallas_call 1 of the idealized kernel as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Ideal.RunData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item1 : Pipeline.RegionSeg (pcfgs (F := F)) noTables (pdats m ρ) () defs₀ noVariants noLevels levelZero 1 where
  win := launch1.win.to₀
  block_pos := launch1.block_pos
  stage_whole := launch1.stage_whole
  K := PEmpty
  osem k := k.elim
  ho := Pipeline.OwnSemFacts.none _
  hbody c := (obligation1 (C3 m ρ) c).loose
  hwaits := Pipeline.hwaits_of_owed_zero _ _ _ _ noLevels levelZero 1 fun _ _ => rfl
  pre c := iprop(StableHlo.held (c : Thread nD τ) (Pipeline.ucRefs τ sig) (B3 m ρ c) ∗ beside c)
  post c := iprop(StableHlo.held (c : Thread nD τ) (Pipeline.ucRefs τ sig) (B4 m ρ c) ∗ beside c)
  X c := iprop(∃ r, prngReg c r)
  Y c := iprop(∃ r, prngReg c r)
  Z c := Pipeline.unscopedRest (Ix := Unit) (Name := ℕ) (U := UR sig nD τ) (Lvl := ℕ) spec1 c (C3 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (C3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from carry1_in (C3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from carry1_out (C3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (C3 m ρ c) (X4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Ideal.Item2.lean ====
/-
  pallas_call 2 of the idealized kernel as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Ideal.RunData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item2 : Pipeline.RegionSeg (pcfgs (F := F)) noTables (pdats m ρ) () defs₀ noVariants noLevels levelZero 2 where
  win := launch2.win.to₀
  block_pos := launch2.block_pos
  stage_whole := launch2.stage_whole
  K := PEmpty
  osem k := k.elim
  ho := Pipeline.OwnSemFacts.none _
  hbody c := (obligation2 (C5 m ρ) c).loose
  hwaits := Pipeline.hwaits_of_owed_zero _ _ _ _ noLevels levelZero 2 fun _ _ => rfl
  pre c := iprop(StableHlo.held (c : Thread nD τ) (Pipeline.ucRefs τ sig) (B5 m ρ c) ∗ beside c)
  post c := iprop(StableHlo.held (c : Thread nD τ) (Pipeline.ucRefs τ sig) (B6 m ρ c) ∗ beside c)
  X c := iprop(∃ r, prngReg c r)
  Y c := iprop(∃ r, prngReg c r)
  Z c := Pipeline.unscopedRest (Ix := Unit) (Name := ℕ) (U := UR sig nD τ) (Lvl := ℕ) spec2 c (C5 m ρ c)
  hentry c := by
    rw [Pipeline.ownSems0_none]
    have hsplit := Pipeline.arrays_of_unscopedBufs (p := 2) (pcfgs (F := F)) noTables (pdats m ρ) launch2.win launch2.arr_whole c
      ((pdats m ρ 2 c).share_full fun _ => rfl) (C5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m ρ) ((pdats m ρ 2 c).share_full fun _ => rfl)
      (C5 m ρ c) (X6 m ρ c) ((pdats m ρ 2 c).arrAt · cfg2.N) (exit2_arr m ρ c) (exit2_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Ideal.Item3.lean ====
/-
  pallas_call 3 of the idealized kernel as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Ideal.RunData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item3 : Pipeline.RegionSeg (pcfgs (F := F)) noTables (pdats m ρ) () defs₀ noVariants noLevels levelZero 3 where
  win := launch3.win.to₀
  block_pos := launch3.block_pos
  stage_whole := launch3.stage_whole
  K := PEmpty
  osem k := k.elim
  ho := Pipeline.OwnSemFacts.none _
  hbody c := (obligation3 (C6 m ρ) c).loose
  hwaits := Pipeline.hwaits_of_owed_zero _ _ _ _ noLevels levelZero 3 fun _ _ => rfl
  pre c := iprop(StableHlo.held (c : Thread nD τ) (Pipeline.ucRefs τ sig) (B6 m ρ c) ∗ beside c)
  post c := iprop(StableHlo.held (c : Thread nD τ) (Pipeline.ucRefs τ sig) (B7 m ρ c) ∗ beside c)
  X c := iprop(∃ r, prngReg c r)
  Y c := iprop(∃ r, prngReg c r)
  Z c := Pipeline.unscopedRest (Ix := Unit) (Name := ℕ) (U := UR sig nD τ) (Lvl := ℕ) spec3 c (C6 m ρ c)
  hentry c := by
    rw [Pipeline.ownSems0_none]
    have hsplit := Pipeline.arrays_of_unscopedBufs (p := 3) (pcfgs (F := F)) noTables (pdats m ρ) launch3.win launch3.arr_whole c
      ((pdats m ρ 3 c).share_full fun _ => rfl) (C6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (pdats m ρ) ((pdats m ρ 3 c).share_full fun _ => rfl)
      (C6 m ρ c) (X7 m ρ c) ((pdats m ρ 3 c).arrAt · cfg3.N) (exit3_arr m ρ c) (exit3_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Ideal.Item4.lean ====
/-
  pallas_call 4 of the idealized kernel as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Ideal.RunData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item4 : Pipeline.RegionSeg (pcfgs (F := F)) noTables (pdats m ρ) () defs₀ noVariants noLevels levelZero 4 where
  win := launch4.win.to₀
  block_pos := launch4.block_pos
  stage_whole := launch4.stage_whole
  K := PEmpty
  osem k := k.elim
  ho := Pipeline.OwnSemFacts.none _
  hbody c := (obligation4 (C8 m ρ) c).loose
  hwaits := Pipeline.hwaits_of_owed_zero _ _ _ _ noLevels levelZero 4 fun _ _ => rfl
  pre c := iprop(StableHlo.held (c : Thread nD τ) (Pipeline.ucRefs τ sig) (B8 m ρ c) ∗ beside c)
  post c := iprop(StableHlo.held (c : Thread nD τ) (Pipeline.ucRefs τ sig) (B9 m ρ c) ∗ beside c)
  X c := iprop(∃ r, prngReg c r)
  Y c := iprop(∃ r, prngReg c r)
  Z c := Pipeline.unscopedRest (Ix := Unit) (Name := ℕ) (U := UR sig nD τ) (Lvl := ℕ) spec4 c (C8 m ρ c)
  hentry c := by
    rw [Pipeline.ownSems0_none]
    have hsplit := Pipeline.arrays_of_unscopedBufs (p := 4) (pcfgs (F := F)) noTables (pdats m ρ) launch4.win launch4.arr_whole c
      ((pdats m ρ 4 c).share_full fun _ => rfl) (C8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec4 c ⊢ (pdats m ρ 4 c).Φ 0 from carry4_in (C8 m ρ) c)
    unfold Pipeline.ΦA
    iintro ⟨Hp, -, Hr⟩
    isplitl [Hr]; · iexact Hr
    iexact Hp
  hout c := by
    rw [Pipeline.ownSems0_none]
    refine BIBase.Entails.trans (show (pdats m ρ 4 c).Φ (Fin.last _) ⊢ Pipeline.ΦA spec4 c from carry4_out (C8 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) noTables (Ix := Unit) (Name := ℕ) (U := UR sig nD τ) (Lvl := ℕ)
      launch4.win launch4.arr_whole c (pdats m ρ) ((pdats m ρ 4 c).share_full fun _ => rfl)
      (C8 m ρ c) (X9 m ρ c) ((pdats m ρ 4 c).arrAt · cfg4.N) (exit4_arr m ρ c) (exit4_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Ideal.Item5.lean ====
/-
  pallas_call 5 of the idealized kernel as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Ideal.RunData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item5 : Pipeline.RegionSeg (pcfgs (F := F)) noTables (pdats m ρ) () defs₀ noVariants noLevels levelZero 5 where
  win := launch5.win.to₀
  block_pos := launch5.block_pos
  stage_whole := launch5.stage_whole
  K := PEmpty
  osem k := k.elim
  ho := Pipeline.OwnSemFacts.none _
  hbody c := (obligation5 (C10 m ρ) c).loose
  hwaits := Pipeline.hwaits_of_owed_zero _ _ _ _ noLevels levelZero 5 fun _ _ => rfl
  pre c := iprop(StableHlo.held (c : Thread nD τ) (Pipeline.ucRefs τ sig) (B10 m ρ c) ∗ beside c)
  post c := iprop(StableHlo.held (c : Thread nD τ) (Pipeline.ucRefs τ sig) (B11 m ρ c) ∗ beside c)
  X c := iprop(∃ r, prngReg c r)
  Y c := iprop(∃ r, prngReg c r)
  Z c := Pipeline.unscopedRest (Ix := Unit) (Name := ℕ) (U := UR sig nD τ) (Lvl := ℕ) spec5 c (C10 m ρ c)
  hentry c := by
    rw [Pipeline.ownSems0_none]
    have hsplit := Pipeline.arrays_of_unscopedBufs (p := 5) (pcfgs (F := F)) noTables (pdats m ρ) launch5.win launch5.arr_whole c
      ((pdats m ρ 5 c).share_full fun _ => rfl) (C10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) noTables (Ix := Unit) (Name := ℕ) (U := UR sig nD τ) (Lvl := ℕ)
      launch5.win launch5.arr_whole c (pdats m ρ) ((pdats m ρ 5 c).share_full fun _ => rfl)
      (C10 m ρ c) (X11 m ρ c) ((pdats m ρ 5 c).arrAt · cfg5.N) (exit5_arr m ρ c) (exit5_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Ideal.Item6.lean ====
/-
  pallas_call 6 of the idealized kernel as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Ideal.RunData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item6 : Pipeline.RegionSeg (pcfgs (F := F)) noTables (pdats m ρ) () defs₀ noVariants noLevels levelZero 6 where
  win := launch6.win.to₀
  block_pos := launch6.block_pos
  stage_whole := launch6.stage_whole
  K := PEmpty
  osem k := k.elim
  ho := Pipeline.OwnSemFacts.none _
  hbody c := (obligation6 (C11 m ρ) c).loose
  hwaits := Pipeline.hwaits_of_owed_zero _ _ _ _ noLevels levelZero 6 fun _ _ => rfl
  pre c := iprop(StableHlo.held (c : Thread nD τ) (Pipeline.ucRefs τ sig) (B11 m ρ c) ∗ beside c)
  post c := iprop(StableHlo.held (c : Thread nD τ) (Pipeline.ucRefs τ sig) (B12 m ρ c) ∗ beside c)
  X c := iprop(∃ r, prngReg c r)
  Y c := iprop(∃ r, prngReg c r)
  Z c := Pipeline.unscopedRest (Ix := Unit) (Name := ℕ) (U := UR sig nD τ) (Lvl := ℕ) spec6 c (C11 m ρ c)
  hentry c := by
    rw [Pipeline.ownSems0_none]
    have hsplit := Pipeline.arrays_of_unscopedBufs (p := 6) (pcfgs (F := F)) noTables (pdats m ρ) launch6.win launch6.arr_whole c
      ((pdats m ρ 6 c).share_full fun _ => rfl) (C11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) noTables (Ix := Unit) (Name := ℕ) (U := UR sig nD τ) (Lvl := ℕ)
      launch6.win launch6.arr_whole c (pdats m ρ) ((pdats m ρ 6 c).share_full fun _ => rfl)
      (C11 m ρ c) (X12 m ρ c) ((pdats m ρ 6 c).arrAt · cfg6.N) (exit6_arr m ρ c) (exit6_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Ideal.Item7.lean ====
/-
  pallas_call 7 of the idealized kernel as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Ideal.RunData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item7 : Pipeline.RegionSeg (pcfgs (F := F)) noTables (pdats m ρ) () defs₀ noVariants noLevels levelZero 7 where
  win := launch7.win.to₀
  block_pos := launch7.block_pos
  stage_whole := launch7.stage_whole
  K := PEmpty
  osem k := k.elim
  ho := Pipeline.OwnSemFacts.none _
  hbody c := (obligation7 (C13 m ρ) c).loose
  hwaits := Pipeline.hwaits_of_owed_zero _ _ _ _ noLevels levelZero 7 fun _ _ => rfl
  pre c := iprop(StableHlo.held (c : Thread nD τ) (Pipeline.ucRefs τ sig) (B13 m ρ c) ∗ beside c)
  post c := iprop(StableHlo.held (c : Thread nD τ) (Pipeline.ucRefs τ sig) (B14 m ρ c) ∗ beside c)
  X c := iprop(∃ r, prngReg c r)
  Y c := iprop(∃ r, prngReg c r)
  Z c := Pipeline.unscopedRest (Ix := Unit) (Name := ℕ) (U := UR sig nD τ) (Lvl := ℕ) spec7 c (C13 m ρ c)
  hentry c := by
    rw [Pipeline.ownSems0_none]
    have hsplit := Pipeline.arrays_of_unscopedBufs (p := 7) (pcfgs (F := F)) noTables (pdats m ρ) launch7.win launch7.arr_whole c
      ((pdats m ρ 7 c).share_full fun _ => rfl) (C13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec7 c ⊢ (pdats m ρ 7 c).Φ 0 from carry7_in (C13 m ρ) c)
    unfold Pipeline.ΦA
    iintro ⟨Hp, -, Hr⟩
    isplitl [Hr]; · iexact Hr
    iexact Hp
  hout c := by
    rw [Pipeline.ownSems0_none]
    refine BIBase.Entails.trans (show (pdats m ρ 7 c).Φ (Fin.last _) ⊢ Pipeline.ΦA spec7 c from carry7_out (C13 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) noTables (Ix := Unit) (Name := ℕ) (U := UR sig nD τ) (Lvl := ℕ)
      launch7.win launch7.arr_whole c (pdats m ρ) ((pdats m ρ 7 c).share_full fun _ => rfl)
      (C13 m ρ c) (X14 m ρ c) ((pdats m ρ 7 c).arrAt · cfg7.N) (exit7_arr m ρ c) (exit7_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Ideal.Item8.lean ====
/-
  pallas_call 8 of the idealized kernel as an item of @main: entered from every unscoped buffer at the contents
  before it, left at the contents after it. Its windows' arrays are split out of the unscoped buffers on entry and
  put back at their final contents on exit; the generator register goes into the call's invariant and comes back;
  nothing is owed; the call has no semaphore of its own.
-/
import proofs.«169495_j53601191854606_1_alg».proof.Proof.Ideal.RunData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def item8 : Pipeline.RegionSeg (pcfgs (F := F)) noTables (pdats m ρ) () defs₀ noVariants noLevels levelZero 8 where
  win := launch8.win.to₀
  block_pos := launch8.block_pos
  stage_whole := launch8.stage_whole
  K := PEmpty
  osem k := k.elim
  ho := Pipeline.OwnSemFacts.none _
  hbody c := (obligation8 (C15 m ρ) c).loose
  hwaits := Pipeline.hwaits_of_owed_zero _ _ _ _ noLevels levelZero 8 fun _ _ => rfl
  pre c := iprop(StableHlo.held (c : Thread nD τ) (Pipeline.ucRefs τ sig) (B15 m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (C15 m ρ c)
  hentry c := by
    rw [Pipeline.ownSems0_none]
    have hsplit := Pipeline.arrays_of_unscopedBufs (p := 8) (pcfgs (F := F)) noTables (pdats m ρ) launch8.win launch8.arr_whole c
      ((pdats m ρ 8 c).share_full fun _ => rfl) (C15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) noTables (Ix := Unit) (Name := ℕ) (U := UR sig nD τ) (Lvl := ℕ)
      launch8.win launch8.arr_whole c (pdats m ρ) ((pdats m ρ 8 c).share_full fun _ => rfl)
      (C15 m ρ c) (X16 m ρ c) ((pdats m ρ 8 c).arrAt · cfg8.N) (exit8_arr m ρ c) (exit8_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.Ideal.Run.lean ====
/-
  The idealized kernel's run. @main is the run of its sixteen items; from any memory with zero counters every weakly
  fair execution terminates, nothing faulting, with every unscoped buffer at the fold's last contents. Read at the
  argument arrays — which no host operation writes and no call changes (four of them are read through an input window,
  the others bypass every call) — that is the frame claim; read at the result buffer it names the result.
-/
import proofs.«169495_j53601191854606_1_alg».proof.Proof.Ideal.RunData
import proofs.«169495_j53601191854606_1_alg».proof.Proof.Ideal.Item0
import proofs.«169495_j53601191854606_1_alg».proof.Proof.Ideal.Item1
import proofs.«169495_j53601191854606_1_alg».proof.Proof.Ideal.Item2
import proofs.«169495_j53601191854606_1_alg».proof.Proof.Ideal.Item3
import proofs.«169495_j53601191854606_1_alg».proof.Proof.Ideal.Item4
import proofs.«169495_j53601191854606_1_alg».proof.Proof.Ideal.Item5
import proofs.«169495_j53601191854606_1_alg».proof.Proof.Ideal.Item6
import proofs.«169495_j53601191854606_1_alg».proof.Proof.Ideal.Item7
import proofs.«169495_j53601191854606_1_alg».proof.Proof.Ideal.Item8
import Idealize.ShloMosaic.Adequacy
import Idealize.ShloMosaic.Init

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev items : List (Pipeline.Seg (pcfgs (F := F)) noTables (pdats m ρ) () defs₀ noVariants noLevels levelZero) :=
  [ .host (hostItem hostOps0 hostOps0_sub hostOps0_fresh (B0 m ρ)),
    .region (item0 m ρ),
    .host (hostItem hostOps1 hostOps1_sub hostOps1_fresh (B2 m ρ)),
    .region (item1 m ρ),
    .host (hostItem hostOps2 hostOps2_sub hostOps2_fresh (B4 m ρ)),
    .region (item2 m ρ),
    .region (item3 m ρ),
    .host (hostItem hostOps4 hostOps4_sub hostOps4_fresh (B7 m ρ)),
    .region (item4 m ρ),
    .host (hostItem hostOps5 hostOps5_sub hostOps5_fresh (B9 m ρ)),
    .region (item5 m ρ),
    .region (item6 m ρ),
    .host (hostItem hostOps7 hostOps7_sub hostOps7_fresh (B12 m ρ)),
    .region (item7 m ρ),
    .host (hostItem hostOps8 hostOps8_sub hostOps8_fresh (B14 m ρ)),
    .region (item8 m ρ) ]

theorem main_items (c : Dev nD) : main (F := F) c = Pipeline.Seg.run (items m ρ) := (main_chain c).trans (by chain_rfl)

theorem kept_arg0 (c : Dev nD) : B16 m ρ c (Proc.devRef .tc main_arg0) = m ((c : Thread nD τ).loc main_arg0) :=
  calc B16 m ρ c (Proc.devRef .tc main_arg0)
    _ = B15 m ρ c (Proc.devRef .tc main_arg0) := B16_of_ne m ρ c main_arg0 (by decide)
    _ = B14 m ρ c (Proc.devRef .tc main_arg0) := StableHlo.after_of_writes_sub hostOps8 _ hostOps8_writes (by decide : main_arg0 ∉ hostOps8_W)
    _ = B13 m ρ c (Proc.devRef .tc main_arg0) := B14_of_ne m ρ c main_arg0 (by decide)
    _ = B12 m ρ c (Proc.devRef .tc main_arg0) := StableHlo.after_of_writes_sub hostOps7 _ hostOps7_writes (by decide : main_arg0 ∉ hostOps7_W)
    _ = B11 m ρ c (Proc.devRef .tc main_arg0) := B12_of_ne m ρ c main_arg0 (by decide)
    _ = B10 m ρ c (Proc.devRef .tc main_arg0) := B11_of_ne m ρ c main_arg0 (by decide)
    _ = B9 m ρ c (Proc.devRef .tc main_arg0) := StableHlo.after_of_writes_sub hostOps5 _ hostOps5_writes (by decide : main_arg0 ∉ hostOps5_W)
    _ = B8 m ρ c (Proc.devRef .tc main_arg0) := B9_of_ne m ρ c main_arg0 (by decide)
    _ = B7 m ρ c (Proc.devRef .tc main_arg0) := StableHlo.after_of_writes_sub hostOps4 _ hostOps4_writes (by decide : main_arg0 ∉ hostOps4_W)
    _ = B6 m ρ c (Proc.devRef .tc main_arg0) := B7_of_ne m ρ c main_arg0 (by decide)
    _ = B5 m ρ c (Proc.devRef .tc main_arg0) := B6_of_ne m ρ c main_arg0 (by decide)
    _ = B4 m ρ c (Proc.devRef .tc main_arg0) := StableHlo.after_of_writes_sub hostOps2 _ hostOps2_writes (by decide : main_arg0 ∉ hostOps2_W)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := (B2_arr m ρ c 0).trans (((dat0 (C1 m ρ) c).arrAt_in 0 rfl _).trans (dat0_A (C1 m ρ) c 0))
    _ = B0 m ρ c (Proc.devRef .tc main_arg0) := StableHlo.after_of_writes_sub hostOps0 _ hostOps0_writes (by decide : main_arg0 ∉ hostOps0_W)
    _ = m ((c : Thread nD τ).loc main_arg0) := rfl

theorem kept_arg1 (c : Dev nD) : B16 m ρ c (Proc.devRef .tc main_arg1) = m ((c : Thread nD τ).loc main_arg1) :=
  calc B16 m ρ c (Proc.devRef .tc main_arg1)
    _ = B15 m ρ c (Proc.devRef .tc main_arg1) := B16_of_ne m ρ c main_arg1 (by decide)
    _ = B14 m ρ c (Proc.devRef .tc main_arg1) := StableHlo.after_of_writes_sub hostOps8 _ hostOps8_writes (by decide : main_arg1 ∉ hostOps8_W)
    _ = B13 m ρ c (Proc.devRef .tc main_arg1) := B14_of_ne m ρ c main_arg1 (by decide)
    _ = B12 m ρ c (Proc.devRef .tc main_arg1) := StableHlo.after_of_writes_sub hostOps7 _ hostOps7_writes (by decide : main_arg1 ∉ hostOps7_W)
    _ = B11 m ρ c (Proc.devRef .tc main_arg1) := B12_of_ne m ρ c main_arg1 (by decide)
    _ = B10 m ρ c (Proc.devRef .tc main_arg1) := B11_of_ne m ρ c main_arg1 (by decide)
    _ = B9 m ρ c (Proc.devRef .tc main_arg1) := StableHlo.after_of_writes_sub hostOps5 _ hostOps5_writes (by decide : main_arg1 ∉ hostOps5_W)
    _ = B8 m ρ c (Proc.devRef .tc main_arg1) := B9_of_ne m ρ c main_arg1 (by decide)
    _ = B7 m ρ c (Proc.devRef .tc main_arg1) := StableHlo.after_of_writes_sub hostOps4 _ hostOps4_writes (by decide : main_arg1 ∉ hostOps4_W)
    _ = B6 m ρ c (Proc.devRef .tc main_arg1) := B7_of_ne m ρ c main_arg1 (by decide)
    _ = B5 m ρ c (Proc.devRef .tc main_arg1) := B6_of_ne m ρ c main_arg1 (by decide)
    _ = B4 m ρ c (Proc.devRef .tc main_arg1) := StableHlo.after_of_writes_sub hostOps2 _ hostOps2_writes (by decide : main_arg1 ∉ hostOps2_W)
    _ = B3 m ρ c (Proc.devRef .tc main_arg1) := B4_of_ne m ρ c main_arg1 (by decide)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl

theorem kept_arg2 (c : Dev nD) : B16 m ρ c (Proc.devRef .tc main_arg2) = m ((c : Thread nD τ).loc main_arg2) :=
  calc B16 m ρ c (Proc.devRef .tc main_arg2)
    _ = B15 m ρ c (Proc.devRef .tc main_arg2) := B16_of_ne m ρ c main_arg2 (by decide)
    _ = B14 m ρ c (Proc.devRef .tc main_arg2) := StableHlo.after_of_writes_sub hostOps8 _ hostOps8_writes (by decide : main_arg2 ∉ hostOps8_W)
    _ = B13 m ρ c (Proc.devRef .tc main_arg2) := B14_of_ne m ρ c main_arg2 (by decide)
    _ = B12 m ρ c (Proc.devRef .tc main_arg2) := StableHlo.after_of_writes_sub hostOps7 _ hostOps7_writes (by decide : main_arg2 ∉ hostOps7_W)
    _ = B11 m ρ c (Proc.devRef .tc main_arg2) := B12_of_ne m ρ c main_arg2 (by decide)
    _ = B10 m ρ c (Proc.devRef .tc main_arg2) := B11_of_ne m ρ c main_arg2 (by decide)
    _ = B9 m ρ c (Proc.devRef .tc main_arg2) := StableHlo.after_of_writes_sub hostOps5 _ hostOps5_writes (by decide : main_arg2 ∉ hostOps5_W)
    _ = B8 m ρ c (Proc.devRef .tc main_arg2) := B9_of_ne m ρ c main_arg2 (by decide)
    _ = B7 m ρ c (Proc.devRef .tc main_arg2) := StableHlo.after_of_writes_sub hostOps4 _ hostOps4_writes (by decide : main_arg2 ∉ hostOps4_W)
    _ = B6 m ρ c (Proc.devRef .tc main_arg2) := B7_of_ne m ρ c main_arg2 (by decide)
    _ = B5 m ρ c (Proc.devRef .tc main_arg2) := B6_of_ne m ρ c main_arg2 (by decide)
    _ = B4 m ρ c (Proc.devRef .tc main_arg2) := StableHlo.after_of_writes_sub hostOps2 _ hostOps2_writes (by decide : main_arg2 ∉ hostOps2_W)
    _ = B3 m ρ c (Proc.devRef .tc main_arg2) := B4_of_ne m ρ c main_arg2 (by decide)
    _ = B2 m ρ c (Proc.devRef .tc main_arg2) := StableHlo.after_of_writes_sub hostOps1 _ hostOps1_writes (by decide : main_arg2 ∉ hostOps1_W)
    _ = B1 m ρ c (Proc.devRef .tc main_arg2) := (B2_arr m ρ c 1).trans (((dat0 (C1 m ρ) c).arrAt_in 1 rfl _).trans (dat0_A (C1 m ρ) c 1))
    _ = B0 m ρ c (Proc.devRef .tc main_arg2) := StableHlo.after_of_writes_sub hostOps0 _ hostOps0_writes (by decide : main_arg2 ∉ hostOps0_W)
    _ = m ((c : Thread nD τ).loc main_arg2) := rfl

theorem kept_arg3 (c : Dev nD) : B16 m ρ c (Proc.devRef .tc main_arg3) = m ((c : Thread nD τ).loc main_arg3) :=
  calc B16 m ρ c (Proc.devRef .tc main_arg3)
    _ = B15 m ρ c (Proc.devRef .tc main_arg3) := B16_of_ne m ρ c main_arg3 (by decide)
    _ = B14 m ρ c (Proc.devRef .tc main_arg3) := StableHlo.after_of_writes_sub hostOps8 _ hostOps8_writes (by decide : main_arg3 ∉ hostOps8_W)
    _ = B13 m ρ c (Proc.devRef .tc main_arg3) := B14_of_ne m ρ c main_arg3 (by decide)
    _ = B12 m ρ c (Proc.devRef .tc main_arg3) := StableHlo.after_of_writes_sub hostOps7 _ hostOps7_writes (by decide : main_arg3 ∉ hostOps7_W)
    _ = B11 m ρ c (Proc.devRef .tc main_arg3) := B12_of_ne m ρ c main_arg3 (by decide)
    _ = B10 m ρ c (Proc.devRef .tc main_arg3) := B11_of_ne m ρ c main_arg3 (by decide)
    _ = B9 m ρ c (Proc.devRef .tc main_arg3) := StableHlo.after_of_writes_sub hostOps5 _ hostOps5_writes (by decide : main_arg3 ∉ hostOps5_W)
    _ = B8 m ρ c (Proc.devRef .tc main_arg3) := B9_of_ne m ρ c main_arg3 (by decide)
    _ = B7 m ρ c (Proc.devRef .tc main_arg3) := StableHlo.after_of_writes_sub hostOps4 _ hostOps4_writes (by decide : main_arg3 ∉ hostOps4_W)
    _ = B6 m ρ c (Proc.devRef .tc main_arg3) := B7_of_ne m ρ c main_arg3 (by decide)
    _ = B5 m ρ c (Proc.devRef .tc main_arg3) := B6_of_ne m ρ c main_arg3 (by decide)
    _ = B4 m ρ c (Proc.devRef .tc main_arg3) := StableHlo.after_of_writes_sub hostOps2 _ hostOps2_writes (by decide : main_arg3 ∉ hostOps2_W)
    _ = B3 m ρ c (Proc.devRef .tc main_arg3) := B4_of_ne m ρ c main_arg3 (by decide)
    _ = B2 m ρ c (Proc.devRef .tc main_arg3) := StableHlo.after_of_writes_sub hostOps1 _ hostOps1_writes (by decide : main_arg3 ∉ hostOps1_W)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl

theorem kept_arg4 (c : Dev nD) : B16 m ρ c (Proc.devRef .tc main_arg4) = m ((c : Thread nD τ).loc main_arg4) :=
  calc B16 m ρ c (Proc.devRef .tc main_arg4)
    _ = B15 m ρ c (Proc.devRef .tc main_arg4) := B16_of_ne m ρ c main_arg4 (by decide)
    _ = B14 m ρ c (Proc.devRef .tc main_arg4) := StableHlo.after_of_writes_sub hostOps8 _ hostOps8_writes (by decide : main_arg4 ∉ hostOps8_W)
    _ = B13 m ρ c (Proc.devRef .tc main_arg4) := B14_of_ne m ρ c main_arg4 (by decide)
    _ = B12 m ρ c (Proc.devRef .tc main_arg4) := StableHlo.after_of_writes_sub hostOps7 _ hostOps7_writes (by decide : main_arg4 ∉ hostOps7_W)
    _ = B11 m ρ c (Proc.devRef .tc main_arg4) := B12_of_ne m ρ c main_arg4 (by decide)
    _ = B10 m ρ c (Proc.devRef .tc main_arg4) := B11_of_ne m ρ c main_arg4 (by decide)
    _ = B9 m ρ c (Proc.devRef .tc main_arg4) := StableHlo.after_of_writes_sub hostOps5 _ hostOps5_writes (by decide : main_arg4 ∉ hostOps5_W)
    _ = B8 m ρ c (Proc.devRef .tc main_arg4) := B9_of_ne m ρ c main_arg4 (by decide)
    _ = B7 m ρ c (Proc.devRef .tc main_arg4) := StableHlo.after_of_writes_sub hostOps4 _ hostOps4_writes (by decide : main_arg4 ∉ hostOps4_W)
    _ = B6 m ρ c (Proc.devRef .tc main_arg4) := B7_of_ne m ρ c main_arg4 (by decide)
    _ = B5 m ρ c (Proc.devRef .tc main_arg4) := B6_of_ne m ρ c main_arg4 (by decide)
    _ = B4 m ρ c (Proc.devRef .tc main_arg4) := StableHlo.after_of_writes_sub hostOps2 _ hostOps2_writes (by decide : main_arg4 ∉ hostOps2_W)
    _ = B3 m ρ c (Proc.devRef .tc main_arg4) := B4_of_ne m ρ c main_arg4 (by decide)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl

theorem kept_arg5 (c : Dev nD) : B16 m ρ c (Proc.devRef .tc main_arg5) = m ((c : Thread nD τ).loc main_arg5) :=
  calc B16 m ρ c (Proc.devRef .tc main_arg5)
    _ = B15 m ρ c (Proc.devRef .tc main_arg5) := B16_of_ne m ρ c main_arg5 (by decide)
    _ = B14 m ρ c (Proc.devRef .tc main_arg5) := StableHlo.after_of_writes_sub hostOps8 _ hostOps8_writes (by decide : main_arg5 ∉ hostOps8_W)
    _ = B13 m ρ c (Proc.devRef .tc main_arg5) := B14_of_ne m ρ c main_arg5 (by decide)
    _ = B12 m ρ c (Proc.devRef .tc main_arg5) := StableHlo.after_of_writes_sub hostOps7 _ hostOps7_writes (by decide : main_arg5 ∉ hostOps7_W)
    _ = B11 m ρ c (Proc.devRef .tc main_arg5) := B12_of_ne m ρ c main_arg5 (by decide)
    _ = B10 m ρ c (Proc.devRef .tc main_arg5) := B11_of_ne m ρ c main_arg5 (by decide)
    _ = B9 m ρ c (Proc.devRef .tc main_arg5) := StableHlo.after_of_writes_sub hostOps5 _ hostOps5_writes (by decide : main_arg5 ∉ hostOps5_W)
    _ = B8 m ρ c (Proc.devRef .tc main_arg5) := B9_of_ne m ρ c main_arg5 (by decide)
    _ = B7 m ρ c (Proc.devRef .tc main_arg5) := StableHlo.after_of_writes_sub hostOps4 _ hostOps4_writes (by decide : main_arg5 ∉ hostOps4_W)
    _ = B6 m ρ c (Proc.devRef .tc main_arg5) := B7_of_ne m ρ c main_arg5 (by decide)
    _ = B5 m ρ c (Proc.devRef .tc main_arg5) := B6_of_ne m ρ c main_arg5 (by decide)
    _ = B4 m ρ c (Proc.devRef .tc main_arg5) := StableHlo.after_of_writes_sub hostOps2 _ hostOps2_writes (by decide : main_arg5 ∉ hostOps2_W)
    _ = B3 m ρ c (Proc.devRef .tc main_arg5) := B4_of_ne m ρ c main_arg5 (by decide)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl

theorem kept_arg6 (c : Dev nD) : B16 m ρ c (Proc.devRef .tc main_arg6) = m ((c : Thread nD τ).loc main_arg6) :=
  calc B16 m ρ c (Proc.devRef .tc main_arg6)
    _ = B15 m ρ c (Proc.devRef .tc main_arg6) := B16_of_ne m ρ c main_arg6 (by decide)
    _ = B14 m ρ c (Proc.devRef .tc main_arg6) := StableHlo.after_of_writes_sub hostOps8 _ hostOps8_writes (by decide : main_arg6 ∉ hostOps8_W)
    _ = B13 m ρ c (Proc.devRef .tc main_arg6) := B14_of_ne m ρ c main_arg6 (by decide)
    _ = B12 m ρ c (Proc.devRef .tc main_arg6) := StableHlo.after_of_writes_sub hostOps7 _ hostOps7_writes (by decide : main_arg6 ∉ hostOps7_W)
    _ = B11 m ρ c (Proc.devRef .tc main_arg6) := B12_of_ne m ρ c main_arg6 (by decide)
    _ = B10 m ρ c (Proc.devRef .tc main_arg6) := B11_of_ne m ρ c main_arg6 (by decide)
    _ = B9 m ρ c (Proc.devRef .tc main_arg6) := StableHlo.after_of_writes_sub hostOps5 _ hostOps5_writes (by decide : main_arg6 ∉ hostOps5_W)
    _ = B8 m ρ c (Proc.devRef .tc main_arg6) := B9_of_ne m ρ c main_arg6 (by decide)
    _ = B7 m ρ c (Proc.devRef .tc main_arg6) := StableHlo.after_of_writes_sub hostOps4 _ hostOps4_writes (by decide : main_arg6 ∉ hostOps4_W)
    _ = B6 m ρ c (Proc.devRef .tc main_arg6) := (B7_arr m ρ c 1).trans (((dat3 (C6 m ρ) c).arrAt_in 1 rfl _).trans (dat3_A (C6 m ρ) c 1))
    _ = B5 m ρ c (Proc.devRef .tc main_arg6) := B6_of_ne m ρ c main_arg6 (by decide)
    _ = B4 m ρ c (Proc.devRef .tc main_arg6) := StableHlo.after_of_writes_sub hostOps2 _ hostOps2_writes (by decide : main_arg6 ∉ hostOps2_W)
    _ = B3 m ρ c (Proc.devRef .tc main_arg6) := B4_of_ne m ρ c main_arg6 (by decide)
    _ = B2 m ρ c (Proc.devRef .tc main_arg6) := StableHlo.after_of_writes_sub hostOps1 _ hostOps1_writes (by decide : main_arg6 ∉ hostOps1_W)
    _ = B1 m ρ c (Proc.devRef .tc main_arg6) := B2_of_ne m ρ c main_arg6 (by decide)
    _ = B0 m ρ c (Proc.devRef .tc main_arg6) := StableHlo.after_of_writes_sub hostOps0 _ hostOps0_writes (by decide : main_arg6 ∉ hostOps0_W)
    _ = m ((c : Thread nD τ).loc main_arg6) := rfl

theorem kept_arg7 (c : Dev nD) : B16 m ρ c (Proc.devRef .tc main_arg7) = m ((c : Thread nD τ).loc main_arg7) :=
  calc B16 m ρ c (Proc.devRef .tc main_arg7)
    _ = B15 m ρ c (Proc.devRef .tc main_arg7) := B16_of_ne m ρ c main_arg7 (by decide)
    _ = B14 m ρ c (Proc.devRef .tc main_arg7) := StableHlo.after_of_writes_sub hostOps8 _ hostOps8_writes (by decide : main_arg7 ∉ hostOps8_W)
    _ = B13 m ρ c (Proc.devRef .tc main_arg7) := B14_of_ne m ρ c main_arg7 (by decide)
    _ = B12 m ρ c (Proc.devRef .tc main_arg7) := StableHlo.after_of_writes_sub hostOps7 _ hostOps7_writes (by decide : main_arg7 ∉ hostOps7_W)
    _ = B11 m ρ c (Proc.devRef .tc main_arg7) := B12_of_ne m ρ c main_arg7 (by decide)
    _ = B10 m ρ c (Proc.devRef .tc main_arg7) := B11_of_ne m ρ c main_arg7 (by decide)
    _ = B9 m ρ c (Proc.devRef .tc main_arg7) := StableHlo.after_of_writes_sub hostOps5 _ hostOps5_writes (by decide : main_arg7 ∉ hostOps5_W)
    _ = B8 m ρ c (Proc.devRef .tc main_arg7) := B9_of_ne m ρ c main_arg7 (by decide)
    _ = B7 m ρ c (Proc.devRef .tc main_arg7) := StableHlo.after_of_writes_sub hostOps4 _ hostOps4_writes (by decide : main_arg7 ∉ hostOps4_W)
    _ = B6 m ρ c (Proc.devRef .tc main_arg7) := B7_of_ne m ρ c main_arg7 (by decide)
    _ = B5 m ρ c (Proc.devRef .tc main_arg7) := B6_of_ne m ρ c main_arg7 (by decide)
    _ = B4 m ρ c (Proc.devRef .tc main_arg7) := StableHlo.after_of_writes_sub hostOps2 _ hostOps2_writes (by decide : main_arg7 ∉ hostOps2_W)
    _ = B3 m ρ c (Proc.devRef .tc main_arg7) := B4_of_ne m ρ c main_arg7 (by decide)
    _ = B2 m ρ c (Proc.devRef .tc main_arg7) := StableHlo.after_of_writes_sub hostOps1 _ hostOps1_writes (by decide : main_arg7 ∉ hostOps1_W)
    _ = B1 m ρ c (Proc.devRef .tc main_arg7) := B2_of_ne m ρ c main_arg7 (by decide)
    _ = B0 m ρ c (Proc.devRef .tc main_arg7) := StableHlo.after_of_writes_sub hostOps0 _ hostOps0_writes (by decide : main_arg7 ∉ hostOps0_W)
    _ = m ((c : Thread nD τ).loc main_arg7) := rfl

theorem kept_arg8 (c : Dev nD) : B16 m ρ c (Proc.devRef .tc main_arg8) = m ((c : Thread nD τ).loc main_arg8) :=
  calc B16 m ρ c (Proc.devRef .tc main_arg8)
    _ = B15 m ρ c (Proc.devRef .tc main_arg8) := B16_of_ne m ρ c main_arg8 (by decide)
    _ = B14 m ρ c (Proc.devRef .tc main_arg8) := StableHlo.after_of_writes_sub hostOps8 _ hostOps8_writes (by decide : main_arg8 ∉ hostOps8_W)
    _ = B13 m ρ c (Proc.devRef .tc main_arg8) := B14_of_ne m ρ c main_arg8 (by decide)
    _ = B12 m ρ c (Proc.devRef .tc main_arg8) := StableHlo.after_of_writes_sub hostOps7 _ hostOps7_writes (by decide : main_arg8 ∉ hostOps7_W)
    _ = B11 m ρ c (Proc.devRef .tc main_arg8) := B12_of_ne m ρ c main_arg8 (by decide)
    _ = B10 m ρ c (Proc.devRef .tc main_arg8) := B11_of_ne m ρ c main_arg8 (by decide)
    _ = B9 m ρ c (Proc.devRef .tc main_arg8) := StableHlo.after_of_writes_sub hostOps5 _ hostOps5_writes (by decide : main_arg8 ∉ hostOps5_W)
    _ = B8 m ρ c (Proc.devRef .tc main_arg8) := B9_of_ne m ρ c main_arg8 (by decide)
    _ = B7 m ρ c (Proc.devRef .tc main_arg8) := StableHlo.after_of_writes_sub hostOps4 _ hostOps4_writes (by decide : main_arg8 ∉ hostOps4_W)
    _ = B6 m ρ c (Proc.devRef .tc main_arg8) := B7_of_ne m ρ c main_arg8 (by decide)
    _ = B5 m ρ c (Proc.devRef .tc main_arg8) := B6_of_ne m ρ c main_arg8 (by decide)
    _ = B4 m ρ c (Proc.devRef .tc main_arg8) := StableHlo.after_of_writes_sub hostOps2 _ hostOps2_writes (by decide : main_arg8 ∉ hostOps2_W)
    _ = B3 m ρ c (Proc.devRef .tc main_arg8) := B4_of_ne m ρ c main_arg8 (by decide)
    _ = B2 m ρ c (Proc.devRef .tc main_arg8) := StableHlo.after_of_writes_sub hostOps1 _ hostOps1_writes (by decide : main_arg8 ∉ hostOps1_W)
    _ = B1 m ρ c (Proc.devRef .tc main_arg8) := B2_of_ne m ρ c main_arg8 (by decide)
    _ = B0 m ρ c (Proc.devRef .tc main_arg8) := StableHlo.after_of_writes_sub hostOps0 _ hostOps0_writes (by decide : main_arg8 ∉ hostOps0_W)
    _ = m ((c : Thread nD τ).loc main_arg8) := rfl

theorem kept_arg9 (c : Dev nD) : B16 m ρ c (Proc.devRef .tc main_arg9) = m ((c : Thread nD τ).loc main_arg9) :=
  calc B16 m ρ c (Proc.devRef .tc main_arg9)
    _ = B15 m ρ c (Proc.devRef .tc main_arg9) := B16_of_ne m ρ c main_arg9 (by decide)
    _ = B14 m ρ c (Proc.devRef .tc main_arg9) := StableHlo.after_of_writes_sub hostOps8 _ hostOps8_writes (by decide : main_arg9 ∉ hostOps8_W)
    _ = B13 m ρ c (Proc.devRef .tc main_arg9) := B14_of_ne m ρ c main_arg9 (by decide)
    _ = B12 m ρ c (Proc.devRef .tc main_arg9) := StableHlo.after_of_writes_sub hostOps7 _ hostOps7_writes (by decide : main_arg9 ∉ hostOps7_W)
    _ = B11 m ρ c (Proc.devRef .tc main_arg9) := B12_of_ne m ρ c main_arg9 (by decide)
    _ = B10 m ρ c (Proc.devRef .tc main_arg9) := B11_of_ne m ρ c main_arg9 (by decide)
    _ = B9 m ρ c (Proc.devRef .tc main_arg9) := StableHlo.after_of_writes_sub hostOps5 _ hostOps5_writes (by decide : main_arg9 ∉ hostOps5_W)
    _ = B8 m ρ c (Proc.devRef .tc main_arg9) := B9_of_ne m ρ c main_arg9 (by decide)
    _ = B7 m ρ c (Proc.devRef .tc main_arg9) := StableHlo.after_of_writes_sub hostOps4 _ hostOps4_writes (by decide : main_arg9 ∉ hostOps4_W)
    _ = B6 m ρ c (Proc.devRef .tc main_arg9) := B7_of_ne m ρ c main_arg9 (by decide)
    _ = B5 m ρ c (Proc.devRef .tc main_arg9) := B6_of_ne m ρ c main_arg9 (by decide)
    _ = B4 m ρ c (Proc.devRef .tc main_arg9) := StableHlo.after_of_writes_sub hostOps2 _ hostOps2_writes (by decide : main_arg9 ∉ hostOps2_W)
    _ = B3 m ρ c (Proc.devRef .tc main_arg9) := B4_of_ne m ρ c main_arg9 (by decide)
    _ = B2 m ρ c (Proc.devRef .tc main_arg9) := StableHlo.after_of_writes_sub hostOps1 _ hostOps1_writes (by decide : main_arg9 ∉ hostOps1_W)
    _ = B1 m ρ c (Proc.devRef .tc main_arg9) := B2_of_ne m ρ c main_arg9 (by decide)
    _ = B0 m ρ c (Proc.devRef .tc main_arg9) := StableHlo.after_of_writes_sub hostOps0 _ hostOps0_writes (by decide : main_arg9 ∉ hostOps0_W)
    _ = m ((c : Thread nD τ).loc main_arg9) := rfl

theorem kept_arg10 (c : Dev nD) : B16 m ρ c (Proc.devRef .tc main_arg10) = m ((c : Thread nD τ).loc main_arg10) :=
  calc B16 m ρ c (Proc.devRef .tc main_arg10)
    _ = B15 m ρ c (Proc.devRef .tc main_arg10) := B16_of_ne m ρ c main_arg10 (by decide)
    _ = B14 m ρ c (Proc.devRef .tc main_arg10) := StableHlo.after_of_writes_sub hostOps8 _ hostOps8_writes (by decide : main_arg10 ∉ hostOps8_W)
    _ = B13 m ρ c (Proc.devRef .tc main_arg10) := B14_of_ne m ρ c main_arg10 (by decide)
    _ = B12 m ρ c (Proc.devRef .tc main_arg10) := StableHlo.after_of_writes_sub hostOps7 _ hostOps7_writes (by decide : main_arg10 ∉ hostOps7_W)
    _ = B11 m ρ c (Proc.devRef .tc main_arg10) := (B12_arr m ρ c 1).trans (((dat6 (C11 m ρ) c).arrAt_in 1 rfl _).trans (dat6_A (C11 m ρ) c 1))
    _ = B10 m ρ c (Proc.devRef .tc main_arg10) := B11_of_ne m ρ c main_arg10 (by decide)
    _ = B9 m ρ c (Proc.devRef .tc main_arg10) := StableHlo.after_of_writes_sub hostOps5 _ hostOps5_writes (by decide : main_arg10 ∉ hostOps5_W)
    _ = B8 m ρ c (Proc.devRef .tc main_arg10) := B9_of_ne m ρ c main_arg10 (by decide)
    _ = B7 m ρ c (Proc.devRef .tc main_arg10) := StableHlo.after_of_writes_sub hostOps4 _ hostOps4_writes (by decide : main_arg10 ∉ hostOps4_W)
    _ = B6 m ρ c (Proc.devRef .tc main_arg10) := B7_of_ne m ρ c main_arg10 (by decide)
    _ = B5 m ρ c (Proc.devRef .tc main_arg10) := B6_of_ne m ρ c main_arg10 (by decide)
    _ = B4 m ρ c (Proc.devRef .tc main_arg10) := StableHlo.after_of_writes_sub hostOps2 _ hostOps2_writes (by decide : main_arg10 ∉ hostOps2_W)
    _ = B3 m ρ c (Proc.devRef .tc main_arg10) := B4_of_ne m ρ c main_arg10 (by decide)
    _ = B2 m ρ c (Proc.devRef .tc main_arg10) := StableHlo.after_of_writes_sub hostOps1 _ hostOps1_writes (by decide : main_arg10 ∉ hostOps1_W)
    _ = B1 m ρ c (Proc.devRef .tc main_arg10) := B2_of_ne m ρ c main_arg10 (by decide)
    _ = B0 m ρ c (Proc.devRef .tc main_arg10) := StableHlo.after_of_writes_sub hostOps0 _ hostOps0_writes (by decide : main_arg10 ∉ hostOps0_W)
    _ = m ((c : Thread nD τ).loc main_arg10) := rfl

theorem kept_arg11 (c : Dev nD) : B16 m ρ c (Proc.devRef .tc main_arg11) = m ((c : Thread nD τ).loc main_arg11) :=
  calc B16 m ρ c (Proc.devRef .tc main_arg11)
    _ = B15 m ρ c (Proc.devRef .tc main_arg11) := B16_of_ne m ρ c main_arg11 (by decide)
    _ = B14 m ρ c (Proc.devRef .tc main_arg11) := StableHlo.after_of_writes_sub hostOps8 _ hostOps8_writes (by decide : main_arg11 ∉ hostOps8_W)
    _ = B13 m ρ c (Proc.devRef .tc main_arg11) := B14_of_ne m ρ c main_arg11 (by decide)
    _ = B12 m ρ c (Proc.devRef .tc main_arg11) := StableHlo.after_of_writes_sub hostOps7 _ hostOps7_writes (by decide : main_arg11 ∉ hostOps7_W)
    _ = B11 m ρ c (Proc.devRef .tc main_arg11) := B12_of_ne m ρ c main_arg11 (by decide)
    _ = B10 m ρ c (Proc.devRef .tc main_arg11) := B11_of_ne m ρ c main_arg11 (by decide)
    _ = B9 m ρ c (Proc.devRef .tc main_arg11) := StableHlo.after_of_writes_sub hostOps5 _ hostOps5_writes (by decide : main_arg11 ∉ hostOps5_W)
    _ = B8 m ρ c (Proc.devRef .tc main_arg11) := B9_of_ne m ρ c main_arg11 (by decide)
    _ = B7 m ρ c (Proc.devRef .tc main_arg11) := StableHlo.after_of_writes_sub hostOps4 _ hostOps4_writes (by decide : main_arg11 ∉ hostOps4_W)
    _ = B6 m ρ c (Proc.devRef .tc main_arg11) := B7_of_ne m ρ c main_arg11 (by decide)
    _ = B5 m ρ c (Proc.devRef .tc main_arg11) := B6_of_ne m ρ c main_arg11 (by decide)
    _ = B4 m ρ c (Proc.devRef .tc main_arg11) := StableHlo.after_of_writes_sub hostOps2 _ hostOps2_writes (by decide : main_arg11 ∉ hostOps2_W)
    _ = B3 m ρ c (Proc.devRef .tc main_arg11) := B4_of_ne m ρ c main_arg11 (by decide)
    _ = B2 m ρ c (Proc.devRef .tc main_arg11) := StableHlo.after_of_writes_sub hostOps1 _ hostOps1_writes (by decide : main_arg11 ∉ hostOps1_W)
    _ = B1 m ρ c (Proc.devRef .tc main_arg11) := B2_of_ne m ρ c main_arg11 (by decide)
    _ = B0 m ρ c (Proc.devRef .tc main_arg11) := StableHlo.after_of_writes_sub hostOps0 _ hostOps0_writes (by decide : main_arg11 ∉ hostOps0_W)
    _ = m ((c : Thread nD τ).loc main_arg11) := rfl

theorem kept_arg12 (c : Dev nD) : B16 m ρ c (Proc.devRef .tc main_arg12) = m ((c : Thread nD τ).loc main_arg12) :=
  calc B16 m ρ c (Proc.devRef .tc main_arg12)
    _ = B15 m ρ c (Proc.devRef .tc main_arg12) := B16_of_ne m ρ c main_arg12 (by decide)
    _ = B14 m ρ c (Proc.devRef .tc main_arg12) := StableHlo.after_of_writes_sub hostOps8 _ hostOps8_writes (by decide : main_arg12 ∉ hostOps8_W)
    _ = B13 m ρ c (Proc.devRef .tc main_arg12) := B14_of_ne m ρ c main_arg12 (by decide)
    _ = B12 m ρ c (Proc.devRef .tc main_arg12) := StableHlo.after_of_writes_sub hostOps7 _ hostOps7_writes (by decide : main_arg12 ∉ hostOps7_W)
    _ = B11 m ρ c (Proc.devRef .tc main_arg12) := B12_of_ne m ρ c main_arg12 (by decide)
    _ = B10 m ρ c (Proc.devRef .tc main_arg12) := B11_of_ne m ρ c main_arg12 (by decide)
    _ = B9 m ρ c (Proc.devRef .tc main_arg12) := StableHlo.after_of_writes_sub hostOps5 _ hostOps5_writes (by decide : main_arg12 ∉ hostOps5_W)
    _ = B8 m ρ c (Proc.devRef .tc main_arg12) := B9_of_ne m ρ c main_arg12 (by decide)
    _ = B7 m ρ c (Proc.devRef .tc main_arg12) := StableHlo.after_of_writes_sub hostOps4 _ hostOps4_writes (by decide : main_arg12 ∉ hostOps4_W)
    _ = B6 m ρ c (Proc.devRef .tc main_arg12) := B7_of_ne m ρ c main_arg12 (by decide)
    _ = B5 m ρ c (Proc.devRef .tc main_arg12) := B6_of_ne m ρ c main_arg12 (by decide)
    _ = B4 m ρ c (Proc.devRef .tc main_arg12) := StableHlo.after_of_writes_sub hostOps2 _ hostOps2_writes (by decide : main_arg12 ∉ hostOps2_W)
    _ = B3 m ρ c (Proc.devRef .tc main_arg12) := B4_of_ne m ρ c main_arg12 (by decide)
    _ = B2 m ρ c (Proc.devRef .tc main_arg12) := StableHlo.after_of_writes_sub hostOps1 _ hostOps1_writes (by decide : main_arg12 ∉ hostOps1_W)
    _ = B1 m ρ c (Proc.devRef .tc main_arg12) := B2_of_ne m ρ c main_arg12 (by decide)
    _ = B0 m ρ c (Proc.devRef .tc main_arg12) := StableHlo.after_of_writes_sub hostOps0 _ hostOps0_writes (by decide : main_arg12 ∉ hostOps0_W)
    _ = m ((c : Thread nD τ).loc main_arg12) := rfl

theorem kept_arg13 (c : Dev nD) : B16 m ρ c (Proc.devRef .tc main_arg13) = m ((c : Thread nD τ).loc main_arg13) :=
  calc B16 m ρ c (Proc.devRef .tc main_arg13)
    _ = B15 m ρ c (Proc.devRef .tc main_arg13) := B16_of_ne m ρ c main_arg13 (by decide)
    _ = B14 m ρ c (Proc.devRef .tc main_arg13) := StableHlo.after_of_writes_sub hostOps8 _ hostOps8_writes (by decide : main_arg13 ∉ hostOps8_W)
    _ = B13 m ρ c (Proc.devRef .tc main_arg13) := B14_of_ne m ρ c main_arg13 (by decide)
    _ = B12 m ρ c (Proc.devRef .tc main_arg13) := StableHlo.after_of_writes_sub hostOps7 _ hostOps7_writes (by decide : main_arg13 ∉ hostOps7_W)
    _ = B11 m ρ c (Proc.devRef .tc main_arg13) := B12_of_ne m ρ c main_arg13 (by decide)
    _ = B10 m ρ c (Proc.devRef .tc main_arg13) := B11_of_ne m ρ c main_arg13 (by decide)
    _ = B9 m ρ c (Proc.devRef .tc main_arg13) := StableHlo.after_of_writes_sub hostOps5 _ hostOps5_writes (by decide : main_arg13 ∉ hostOps5_W)
    _ = B8 m ρ c (Proc.devRef .tc main_arg13) := B9_of_ne m ρ c main_arg13 (by decide)
    _ = B7 m ρ c (Proc.devRef .tc main_arg13) := StableHlo.after_of_writes_sub hostOps4 _ hostOps4_writes (by decide : main_arg13 ∉ hostOps4_W)
    _ = B6 m ρ c (Proc.devRef .tc main_arg13) := B7_of_ne m ρ c main_arg13 (by decide)
    _ = B5 m ρ c (Proc.devRef .tc main_arg13) := B6_of_ne m ρ c main_arg13 (by decide)
    _ = B4 m ρ c (Proc.devRef .tc main_arg13) := StableHlo.after_of_writes_sub hostOps2 _ hostOps2_writes (by decide : main_arg13 ∉ hostOps2_W)
    _ = B3 m ρ c (Proc.devRef .tc main_arg13) := B4_of_ne m ρ c main_arg13 (by decide)
    _ = B2 m ρ c (Proc.devRef .tc main_arg13) := StableHlo.after_of_writes_sub hostOps1 _ hostOps1_writes (by decide : main_arg13 ∉ hostOps1_W)
    _ = B1 m ρ c (Proc.devRef .tc main_arg13) := B2_of_ne m ρ c main_arg13 (by decide)
    _ = B0 m ρ c (Proc.devRef .tc main_arg13) := StableHlo.after_of_writes_sub hostOps0 _ hostOps0_writes (by decide : main_arg13 ∉ hostOps0_W)
    _ = m ((c : Thread nD τ).loc main_arg13) := rfl

set_option backward.isDefEq.respectTransparency.types false in
/-- THE RUN: every unscoped buffer ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B16 m ρ c b) :=
  Pipeline.θ_run_regions_kit (pcfgs (F := F)) noTables (pdats m ρ) () cellOf_inj emb₁ defs₀ noVariants noLevels levelZero m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := atEnd m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m ρ c b)
    (hfin := fun c s' => by
      iintro ⟨⟨Hh, -⟩, HSI⟩
      unfold StableHlo.held
      imodintro
      iapply (pointsTo_read_all (Pipeline.ucRefs τ sig) (fun b => (((c : Thread nD τ)).1, b)) (B16 m ρ c) s')
      isplitl [Hh] <;> iassumption)
    (hQ := fun s h c => h c)

/-- The frame claim's post at any float instance: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_unscoped main_arg0 (by decide))).trans (kept_arg0 m ρ c),
    (h c _ (mem_unscoped main_arg1 (by decide))).trans (kept_arg1 m ρ c),
    (h c _ (mem_unscoped main_arg2 (by decide))).trans (kept_arg2 m ρ c),
    (h c _ (mem_unscoped main_arg3 (by decide))).trans (kept_arg3 m ρ c),
    (h c _ (mem_unscoped main_arg4 (by decide))).trans (kept_arg4 m ρ c),
    (h c _ (mem_unscoped main_arg5 (by decide))).trans (kept_arg5 m ρ c),
    (h c _ (mem_unscoped main_arg6 (by decide))).trans (kept_arg6 m ρ c),
    (h c _ (mem_unscoped main_arg7 (by decide))).trans (kept_arg7 m ρ c),
    (h c _ (mem_unscoped main_arg8 (by decide))).trans (kept_arg8 m ρ c),
    (h c _ (mem_unscoped main_arg9 (by decide))).trans (kept_arg9 m ρ c),
    (h c _ (mem_unscoped main_arg10 (by decide))).trans (kept_arg10 m ρ c),
    (h c _ (mem_unscoped main_arg11 (by decide))).trans (kept_arg11 m ρ c),
    (h c _ (mem_unscoped main_arg12 (by decide))).trans (kept_arg12 m ρ c),
    (h c _ (mem_unscoped main_arg13 (by decide))).trans (kept_arg13 m ρ c)⟩) (run_all m ρ)

end Cert.KernelIdeal.Hand

end
-- ==== Proof.Ref.Pure.lean ====
/- The reference program's result as a pure term of its fourteen arguments, named in layers: the edge table's two
   rows, the normalised degrees, and per layer the convolution, the batch normalisation and the exponential linear
   unit, each written with the program's own pure operations, constants and operand order. -/
import proofs.«169495_j53601191854606_1_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-! ### The edges and the degrees -/

/-- Row 0 of the edge table: each edge's source node. -/
def srcOf (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1 of the edge table: each edge's destination node. -/
def dstOf (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- `dis = rsqrt (1 + deg)`, `deg` the number of edges arriving at each node (ones summed at the destinations). -/
def disOf (dst : (⟨S1600000, .i32⟩ : BufTy).Contents (Elt F)) : (⟨S50000, .f32⟩ : BufTy).Contents (Elt F) :=
  Host.rsqrt (addf (broadcastInDim S50000 ![] bcast_S_S50000 (constant S_ .f32 0x3F800000#32))
    (Host.scatterAdd scatter_S50000_S1600000x1_S1600000_n_0_0_1 (broadcastInDim S50000 ![] bcast_S_S50000 (constant S_ .f32 0x00000000#32))
      (broadcastInDim S1600000x1 ![0] bcast_S1600000_S1600000x1_0 dst)
      (broadcastInDim S1600000 ![] bcast_S_S1600000 (constant S_ .f32 0x3F800000#32))))

/-- A node index per edge as the one-column index table a gather takes, a negative index first moved up by the
    node count 50000. -/
def wrapCol (i : (⟨S1600000, .i32⟩ : BufTy).Contents (Elt F)) : (⟨S1600000x1, .i32⟩ : BufTy).Contents (Elt F) :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 50000#32))) i)

/-- Per edge, `dis` at its source times `dis` at its destination. -/
def edgeW (dis : (⟨S50000, .f32⟩ : BufTy).Contents (Elt F)) (src dst : (⟨S1600000, .i32⟩ : BufTy).Contents (Elt F)) : (⟨S1600000, .f32⟩ : BufTy).Contents (Elt F) :=
  mulf (Host.gather gather_S50000_S1600000x1_S1600000_n_0_n_n_0_1_1 dis (wrapCol src)) (Host.gather gather_S50000_S1600000x1_S1600000_n_0_n_n_0_1_1 dis (wrapCol dst))

/-! ### Width 128 -/

/-- The node features times the layer's weight matrix. -/
def xw128 (h : (⟨S50000x128, .f32⟩ : BufTy).Contents (Elt F)) (W : (⟨S128x128, .f32⟩ : BufTy).Contents (Elt F)) : (⟨S50000x128, .f32⟩ : BufTy).Contents (Elt F) :=
  Host.dotGeneral dot_S50000x128_S128x128_S50000x128_1_0_0_1_n_n none h W

/-- A vector over the 128 features, repeated on every node's row. -/
def rows128 (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- Per edge, the source node's row of `xw` scaled by the edge's weight. -/
def msgs128 (xw : (⟨S50000x128, .f32⟩ : BufTy).Contents (Elt F)) (dis : (⟨S50000, .f32⟩ : BufTy).Contents (Elt F)) (src dst : (⟨S1600000, .i32⟩ : BufTy).Contents (Elt F)) : (⟨S1600000x128, .f32⟩ : BufTy).Contents (Elt F) :=
  mulf (Host.gather gather_S50000x128_S1600000x1_S1600000x128_1_0_n_n_0_1_1128 xw (wrapCol src))
    (broadcastInDim S1600000x128 ![0, 1] bcast_S1600000x1_S1600000x128_0_1 (broadcastInDim S1600000x1 ![0] bcast_S1600000_S1600000x1_0 (edgeW dis src dst)))

/-- The graph convolution: the messages summed at their destination nodes, plus each node's own row scaled by
    `dis²`, plus the bias on every row. -/
def conv128 (xw : (⟨S50000x128, .f32⟩ : BufTy).Contents (Elt F)) (dis : (⟨S50000, .f32⟩ : BufTy).Contents (Elt F)) (src dst : (⟨S1600000, .i32⟩ : BufTy).Contents (Elt F)) (b : (⟨S128, .f32⟩ : BufTy).Contents (Elt F)) : (⟨S50000x128, .f32⟩ : BufTy).Contents (Elt F) :=
  addf (addf (Host.scatterAdd scatter_S50000x128_S1600000x1_S1600000x128_1_0_0_1 (broadcastInDim S50000x128 ![] bcast_S_S50000x128 (constant S_ .f32 0x00000000#32))
        (broadcastInDim S1600000x1 ![0] bcast_S1600000_S1600000x1_0 dst) (msgs128 xw dis src dst))
      (mulf xw (broadcastInDim S50000x128 ![0, 1] bcast_S50000x1_S50000x128_0_1 (broadcastInDim S50000x1 ![0] bcast_S50000_S50000x1_0 (mulf dis dis)))))
    (rows128 b)

/-- The sum over the nodes, per feature. -/
def sum128 (y : (⟨S50000x128, .f32⟩ : BufTy).Contents (Elt F)) : (⟨S128, .f32⟩ : BufTy).Contents (Elt F) :=
  Host.reduceAdd y (constant S_ .f32 0x00000000#32) reducesTo_S50000x128_S128_d0 h_S_

/-- The mean over the 50000 nodes, per feature. -/
def mean128 (y : (⟨S50000x128, .f32⟩ : BufTy).Contents (Elt F)) : (⟨S128, .f32⟩ : BufTy).Contents (Elt F) :=
  Host.divf (sum128 y) (broadcastInDim S128 ![] bcast_S_S128 (constant S_ .f32 0x47435000#32))

/-- The rows less the per-feature mean. -/
def centred128 (y : (⟨S50000x128, .f32⟩ : BufTy).Contents (Elt F)) : (⟨S50000x128, .f32⟩ : BufTy).Contents (Elt F) :=
  subf y (rows128 (mean128 y))

/-- The (biased) variance over the nodes, per feature. -/
def var128 (y : (⟨S50000x128, .f32⟩ : BufTy).Contents (Elt F)) : (⟨S128, .f32⟩ : BufTy).Contents (Elt F) :=
  Host.divf (sum128 (mulf (centred128 y) (centred128 y))) (broadcastInDim S128 ![] bcast_S_S128 (constant S_ .f32 0x47435000#32))

/-- Batch normalisation over the nodes with scale `g` and shift `be`. -/
def bn128 (y : (⟨S50000x128, .f32⟩ : BufTy).Contents (Elt F)) (g be : (⟨S128, .f32⟩ : BufTy).Contents (Elt F)) : (⟨S50000x128, .f32⟩ : BufTy).Contents (Elt F) :=
  addf (mulf (mulf (rows128 g) (centred128 y))
      (rows128 (Host.rsqrt (addf (var128 y) (broadcastInDim S128 ![] bcast_S_S128 (constant S_ .f32 0x3727C5AC#32))))))
    (rows128 be)

/-- The exponential linear unit, elementwise: `x` where `x > 0`, else `1 · expm1 x` (the exponential taken of `0`
    where `x > 0`, as the program does). -/
def elu128 (x : (⟨S50000x128, .f32⟩ : BufTy).Contents (Elt F)) : (⟨S50000x128, .f32⟩ : BufTy).Contents (Elt F) :=
  select (cmpf .ogt x (broadcastInDim S50000x128 ![] bcast_S_S50000x128 (constant S_ .f32 0x00000000#32))) x
    (mulf (broadcastInDim S50000x128 ![] bcast_S_S50000x128 (constant S_ .f32 0x3F800000#32))
      (Host.expm1 (select (cmpf .ogt x (broadcastInDim S50000x128 ![] bcast_S_S50000x128 (constant S_ .f32 0x00000000#32)))
        (broadcastInDim S50000x128 ![] bcast_S_S50000x128 (constant S_ .f32 0x00000000#32)) x)))

/-- One layer at output width 128: convolution, batch normalisation, exponential linear unit. -/
def layer128 (h : (⟨S50000x128, .f32⟩ : BufTy).Contents (Elt F)) (src dst : (⟨S1600000, .i32⟩ : BufTy).Contents (Elt F)) (dis : (⟨S50000, .f32⟩ : BufTy).Contents (Elt F))
    (W : (⟨S128x128, .f32⟩ : BufTy).Contents (Elt F)) (b g be : (⟨S128, .f32⟩ : BufTy).Contents (Elt F)) : (⟨S50000x128, .f32⟩ : BufTy).Contents (Elt F) :=
  elu128 (bn128 (conv128 (xw128 h W) dis src dst b) g be)

/-! ### Width 64 -/

/-- The node features times the layer's weight matrix. -/
def xw64 (h : (⟨S50000x128, .f32⟩ : BufTy).Contents (Elt F)) (W : (⟨S128x64, .f32⟩ : BufTy).Contents (Elt F)) : (⟨S50000x64, .f32⟩ : BufTy).Contents (Elt F) :=
  Host.dotGeneral dot_S50000x128_S128x64_S50000x64_1_0_0_1_n_n none h W

/-- A vector over the 64 features, repeated on every node's row. -/
def rows64 (v : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 v)

/-- Per edge, the source node's row of `xw` scaled by the edge's weight. -/
def msgs64 (xw : (⟨S50000x64, .f32⟩ : BufTy).Contents (Elt F)) (dis : (⟨S50000, .f32⟩ : BufTy).Contents (Elt F)) (src dst : (⟨S1600000, .i32⟩ : BufTy).Contents (Elt F)) : (⟨S1600000x64, .f32⟩ : BufTy).Contents (Elt F) :=
  mulf (Host.gather gather_S50000x64_S1600000x1_S1600000x64_1_0_n_n_0_1_164 xw (wrapCol src))
    (broadcastInDim S1600000x64 ![0, 1] bcast_S1600000x1_S1600000x64_0_1 (broadcastInDim S1600000x1 ![0] bcast_S1600000_S1600000x1_0 (edgeW dis src dst)))

/-- The graph convolution: the messages summed at their destination nodes, plus each node's own row scaled by
    `dis²`, plus the bias on every row. -/
def conv64 (xw : (⟨S50000x64, .f32⟩ : BufTy).Contents (Elt F)) (dis : (⟨S50000, .f32⟩ : BufTy).Contents (Elt F)) (src dst : (⟨S1600000, .i32⟩ : BufTy).Contents (Elt F)) (b : (⟨S64, .f32⟩ : BufTy).Contents (Elt F)) : (⟨S50000x64, .f32⟩ : BufTy).Contents (Elt F) :=
  addf (addf (Host.scatterAdd scatter_S50000x64_S1600000x1_S1600000x64_1_0_0_1 (broadcastInDim S50000x64 ![] bcast_S_S50000x64 (constant S_ .f32 0x00000000#32))
        (broadcastInDim S1600000x1 ![0] bcast_S1600000_S1600000x1_0 dst) (msgs64 xw dis src dst))
      (mulf xw (broadcastInDim S50000x64 ![0, 1] bcast_S50000x1_S50000x64_0_1 (broadcastInDim S50000x1 ![0] bcast_S50000_S50000x1_0 (mulf dis dis)))))
    (rows64 b)

/-- The sum over the nodes, per feature. -/
def sum64 (y : (⟨S50000x64, .f32⟩ : BufTy).Contents (Elt F)) : (⟨S64, .f32⟩ : BufTy).Contents (Elt F) :=
  Host.reduceAdd y (constant S_ .f32 0x00000000#32) reducesTo_S50000x64_S64_d0 h_S_

/-- The mean over the 50000 nodes, per feature. -/
def mean64 (y : (⟨S50000x64, .f32⟩ : BufTy).Contents (Elt F)) : (⟨S64, .f32⟩ : BufTy).Contents (Elt F) :=
  Host.divf (sum64 y) (broadcastInDim S64 ![] bcast_S_S64 (constant S_ .f32 0x47435000#32))

/-- The rows less the per-feature mean. -/
def centred64 (y : (⟨S50000x64, .f32⟩ : BufTy).Contents (Elt F)) : (⟨S50000x64, .f32⟩ : BufTy).Contents (Elt F) :=
  subf y (rows64 (mean64 y))

/-- The (biased) variance over the nodes, per feature. -/
def var64 (y : (⟨S50000x64, .f32⟩ : BufTy).Contents (Elt F)) : (⟨S64, .f32⟩ : BufTy).Contents (Elt F) :=
  Host.divf (sum64 (mulf (centred64 y) (centred64 y))) (broadcastInDim S64 ![] bcast_S_S64 (constant S_ .f32 0x47435000#32))

/-- Batch normalisation over the nodes with scale `g` and shift `be`. -/
def bn64 (y : (⟨S50000x64, .f32⟩ : BufTy).Contents (Elt F)) (g be : (⟨S64, .f32⟩ : BufTy).Contents (Elt F)) : (⟨S50000x64, .f32⟩ : BufTy).Contents (Elt F) :=
  addf (mulf (mulf (rows64 g) (centred64 y))
      (rows64 (Host.rsqrt (addf (var64 y) (broadcastInDim S64 ![] bcast_S_S64 (constant S_ .f32 0x3727C5AC#32))))))
    (rows64 be)

/-- The exponential linear unit, elementwise: `x` where `x > 0`, else `1 · expm1 x` (the exponential taken of `0`
    where `x > 0`, as the program does). -/
def elu64 (x : (⟨S50000x64, .f32⟩ : BufTy).Contents (Elt F)) : (⟨S50000x64, .f32⟩ : BufTy).Contents (Elt F) :=
  select (cmpf .ogt x (broadcastInDim S50000x64 ![] bcast_S_S50000x64 (constant S_ .f32 0x00000000#32))) x
    (mulf (broadcastInDim S50000x64 ![] bcast_S_S50000x64 (constant S_ .f32 0x3F800000#32))
      (Host.expm1 (select (cmpf .ogt x (broadcastInDim S50000x64 ![] bcast_S_S50000x64 (constant S_ .f32 0x00000000#32)))
        (broadcastInDim S50000x64 ![] bcast_S_S50000x64 (constant S_ .f32 0x00000000#32)) x)))

/-- One layer at output width 64: convolution, batch normalisation, exponential linear unit. -/
def layer64 (h : (⟨S50000x128, .f32⟩ : BufTy).Contents (Elt F)) (src dst : (⟨S1600000, .i32⟩ : BufTy).Contents (Elt F)) (dis : (⟨S50000, .f32⟩ : BufTy).Contents (Elt F))
    (W : (⟨S128x64, .f32⟩ : BufTy).Contents (Elt F)) (b g be : (⟨S64, .f32⟩ : BufTy).Contents (Elt F)) : (⟨S50000x64, .f32⟩ : BufTy).Contents (Elt F) :=
  elu64 (bn64 (conv64 (xw64 h W) dis src dst b) g be)

/-! ### The whole network -/

/-- The reference's result of its fourteen arguments: three layers over the same edges and degrees, the first two at
    width 128 and the last at width 64. -/
def refOut (a0 : (⟨S50000x128, .f32⟩ : BufTy).Contents (Elt F)) (a1 : (⟨S2x1600000, .i32⟩ : BufTy).Contents (Elt F))
    (a2 : (⟨S128x128, .f32⟩ : BufTy).Contents (Elt F)) (a3 a4 a5 : (⟨S128, .f32⟩ : BufTy).Contents (Elt F))
    (a6 : (⟨S128x128, .f32⟩ : BufTy).Contents (Elt F)) (a7 a8 a9 : (⟨S128, .f32⟩ : BufTy).Contents (Elt F))
    (a10 : (⟨S128x64, .f32⟩ : BufTy).Contents (Elt F)) (a11 a12 a13 : (⟨S64, .f32⟩ : BufTy).Contents (Elt F)) : (⟨S50000x64, .f32⟩ : BufTy).Contents (Elt F) :=
  layer64 (layer128 (layer128 a0 (srcOf a1) (dstOf a1) (disOf (dstOf a1)) a2 a3 a4 a5)
      (srcOf a1) (dstOf a1) (disOf (dstOf a1)) a6 a7 a8 a9)
    (srcOf a1) (dstOf a1) (disOf (dstOf a1)) a10 a11 a12 a13

end Cert.ReferenceIdeal.Hand

end
-- ==== Proof.Ref.Agg.lean ====
/- The messages of one graph convolution summed at their destination nodes, with the edge weights given per edge; the
   reference's convolution is that sum at its own edge weights, plus each node's own row scaled by dis², plus the bias. -/
import proofs.«169495_j53601191854606_1_alg».proof.Proof.Ref.Pure

noncomputable section

namespace Cert.ReferenceIdeal.Hand

open Cert.ReferenceIdeal Cert.ReferenceIdeal.Gen Idealize.ShloMosaic Idealize.SL.Sem

variable {F : FTy → Type} [FloatOps F]

/-- The messages summed at their destination nodes, the edge weights given per edge: the source rows of `xw`, each
    scaled by its edge's weight, accumulated into zeros at the destinations (width 128). -/
def aggW128 (xw : (⟨S50000x128, .f32⟩ : BufTy).Contents (Elt F)) (w : (⟨S1600000, .f32⟩ : BufTy).Contents (Elt F)) (src dst : (⟨S1600000, .i32⟩ : BufTy).Contents (Elt F)) : (⟨S50000x128, .f32⟩ : BufTy).Contents (Elt F) :=
  Host.scatterAdd scatter_S50000x128_S1600000x1_S1600000x128_1_0_0_1 (broadcastInDim S50000x128 ![] bcast_S_S50000x128 (constant S_ .f32 0x00000000#32))
    (broadcastInDim S1600000x1 ![0] bcast_S1600000_S1600000x1_0 dst)
    (mulf (Host.gather gather_S50000x128_S1600000x1_S1600000x128_1_0_n_n_0_1_1128 xw (wrapCol src))
      (broadcastInDim S1600000x128 ![0, 1] bcast_S1600000x1_S1600000x128_0_1 (broadcastInDim S1600000x1 ![0] bcast_S1600000_S1600000x1_0 w)))

/-- The convolution is that sum at the edge weights `edgeW dis src dst`, plus the self term, plus the bias. -/
theorem conv128_eq_agg (xw : (⟨S50000x128, .f32⟩ : BufTy).Contents (Elt F)) (dis : (⟨S50000, .f32⟩ : BufTy).Contents (Elt F)) (src dst : (⟨S1600000, .i32⟩ : BufTy).Contents (Elt F)) (b : (⟨S128, .f32⟩ : BufTy).Contents (Elt F)) :
    conv128 xw dis src dst b
      = addf (addf (aggW128 xw (edgeW dis src dst) src dst)
          (mulf xw (broadcastInDim S50000x128 ![0, 1] bcast_S50000x1_S50000x128_0_1 (broadcastInDim S50000x1 ![0] bcast_S50000_S50000x1_0 (mulf dis dis)))))
        (rows128 b) := rfl

/-- The messages summed at their destination nodes, the edge weights given per edge: the source rows of `xw`, each
    scaled by its edge's weight, accumulated into zeros at the destinations (width 64). -/
def aggW64 (xw : (⟨S50000x64, .f32⟩ : BufTy).Contents (Elt F)) (w : (⟨S1600000, .f32⟩ : BufTy).Contents (Elt F)) (src dst : (⟨S1600000, .i32⟩ : BufTy).Contents (Elt F)) : (⟨S50000x64, .f32⟩ : BufTy).Contents (Elt F) :=
  Host.scatterAdd scatter_S50000x64_S1600000x1_S1600000x64_1_0_0_1 (broadcastInDim S50000x64 ![] bcast_S_S50000x64 (constant S_ .f32 0x00000000#32))
    (broadcastInDim S1600000x1 ![0] bcast_S1600000_S1600000x1_0 dst)
    (mulf (Host.gather gather_S50000x64_S1600000x1_S1600000x64_1_0_n_n_0_1_164 xw (wrapCol src))
      (broadcastInDim S1600000x64 ![0, 1] bcast_S1600000x1_S1600000x64_0_1 (broadcastInDim S1600000x1 ![0] bcast_S1600000_S1600000x1_0 w)))

/-- The convolution is that sum at the edge weights `edgeW dis src dst`, plus the self term, plus the bias. -/
theorem conv64_eq_agg (xw : (⟨S50000x64, .f32⟩ : BufTy).Contents (Elt F)) (dis : (⟨S50000, .f32⟩ : BufTy).Contents (Elt F)) (src dst : (⟨S1600000, .i32⟩ : BufTy).Contents (Elt F)) (b : (⟨S64, .f32⟩ : BufTy).Contents (Elt F)) :
    conv64 xw dis src dst b
      = addf (addf (aggW64 xw (edgeW dis src dst) src dst)
          (mulf xw (broadcastInDim S50000x64 ![0, 1] bcast_S50000x1_S50000x64_0_1 (broadcastInDim S50000x1 ![0] bcast_S50000_S50000x1_0 (mulf dis dis)))))
        (rows64 b) := rfl

end Cert.ReferenceIdeal.Hand

end
-- ==== Proof.Ideal.HostRead.lean ====
/- The idealized kernel's seven host stretches read back: what each leaves in the buffers the calls and the later
   stretches read, as a pure term of the contents the stretch starts from. The stretches' operations are, line for
   line, those of the reference's layers (Ref/Pure.lean): the edge rows, the normalised degrees, the edge weights, and
   per layer the messages summed at their destinations. The kernel's program prints its own copies of the gather and
   scatter dimension records; they are the reference's (the same literal fields), so the reference's names serve here. -/
import proofs.«169495_j53601191854606_1_alg».proof.Proof.Ideal.RunData
import proofs.«169495_j53601191854606_1_alg».proof.Proof.Ref.Agg

set_option maxRecDepth 16384

noncomputable section

namespace Cert.KernelIdeal.Hand

open Cert.KernelIdeal Cert.KernelIdeal.Gen
open Idealize.ShloMosaic Idealize.ShloMosaic.TcCoe Idealize.SL.Sem
open Cert.ReferenceIdeal.Hand (srcOf dstOf disOf wrapCol edgeW aggW128 aggW64)

variable {F : FTy → Type} [FloatOps F]

/-! ### The kernel's dimension records are the reference's -/

theorem scatter1_eq : (scatter_S50000_S1600000x1_S1600000_n_0_0_1 : ScatterDims S50000 S1600000x1 S1600000) = Cert.ReferenceIdeal.scatter_S50000_S1600000x1_S1600000_n_0_0_1 := rfl
theorem gather1_eq : (gather_S50000_S1600000x1_S1600000_n_0_n_n_0_1_1 : GatherDims S50000 S1600000x1 S1600000) = Cert.ReferenceIdeal.gather_S50000_S1600000x1_S1600000_n_0_n_n_0_1_1 := rfl
theorem gather128_eq : (gather_S50000x128_S1600000x1_S1600000x128_1_0_n_n_0_1_1128 : GatherDims S50000x128 S1600000x1 S1600000x128) = Cert.ReferenceIdeal.gather_S50000x128_S1600000x1_S1600000x128_1_0_n_n_0_1_1128 := rfl
theorem scatter128_eq : (scatter_S50000x128_S1600000x1_S1600000x128_1_0_0_1 : ScatterDims S50000x128 S1600000x1 S1600000x128) = Cert.ReferenceIdeal.scatter_S50000x128_S1600000x1_S1600000x128_1_0_0_1 := rfl
theorem gather64_eq : (gather_S50000x64_S1600000x1_S1600000x64_1_0_n_n_0_1_164 : GatherDims S50000x64 S1600000x1 S1600000x64) = Cert.ReferenceIdeal.gather_S50000x64_S1600000x1_S1600000x64_1_0_n_n_0_1_164 := rfl
theorem scatter64_eq : (scatter_S50000x64_S1600000x1_S1600000x64_1_0_0_1 : ScatterDims S50000x64 S1600000x1 S1600000x64) = Cert.ReferenceIdeal.scatter_S50000x64_S1600000x1_S1600000x64_1_0_0_1 := rfl

/-! ### Each stretch from any contents `V` -/

theorem h0_v1 (V : Valuation τ sig (Elt F)) :
    StableHlo.after hostOps0 V (Proc.devRef .tc main_v1) = srcOf (V (Proc.devRef .tc main_arg1)) := by
  simp only [hostOps0]
  after_results_simp
  all_goals rfl

theorem h0_v3 (V : Valuation τ sig (Elt F)) :
    StableHlo.after hostOps0 V (Proc.devRef .tc main_v3) = dstOf (V (Proc.devRef .tc main_arg1)) := by
  simp only [hostOps0]
  after_results_simp
  all_goals rfl

theorem h0_v10 (V : Valuation τ sig (Elt F)) :
    StableHlo.after hostOps0 V (Proc.devRef .tc main_v10) = disOf (dstOf (V (Proc.devRef .tc main_arg1))) := by
  simp only [hostOps0]
  after_results_simp
  all_goals rfl

theorem h0_v11 (V : Valuation τ sig (Elt F)) :
    StableHlo.after hostOps0 V (Proc.devRef .tc main_v11) = shapeCast S50000x1 (disOf (dstOf (V (Proc.devRef .tc main_arg1)))) shapeCasts_S50000_S50000x1 := by
  simp only [hostOps0]
  after_results_simp
  all_goals rfl

theorem h0_v26 (V : Valuation τ sig (Elt F)) :
    StableHlo.after hostOps0 V (Proc.devRef .tc main_v26) = edgeW (disOf (dstOf (V (Proc.devRef .tc main_arg1)))) (srcOf (V (Proc.devRef .tc main_arg1))) (dstOf (V (Proc.devRef .tc main_arg1))) := by
  simp only [hostOps0]
  after_results_simp
  all_goals rfl

theorem h1_v40 (V : Valuation τ sig (Elt F)) :
    StableHlo.after hostOps1 V (Proc.devRef .tc main_v40) = aggW128 (V (Proc.devRef .tc main_v27)) (V (Proc.devRef .tc main_v26)) (V (Proc.devRef .tc main_v1)) (V (Proc.devRef .tc main_v3)) := by
  simp only [hostOps1]
  after_results_simp
  all_goals rfl

theorem h1_v41 (V : Valuation τ sig (Elt F)) :
    StableHlo.after hostOps1 V (Proc.devRef .tc main_v41) = shapeCast S1x128 (V (Proc.devRef .tc main_arg3)) shapeCasts_S128_S1x128 := by
  simp only [hostOps1]
  after_results_simp
  all_goals rfl

theorem h2_v43 (V : Valuation τ sig (Elt F)) :
    StableHlo.after hostOps2 V (Proc.devRef .tc main_v43) = shapeCast S1x128 (V (Proc.devRef .tc main_arg4)) shapeCasts_S128_S1x128 := by
  simp only [hostOps2]
  after_results_simp
  all_goals rfl

theorem h2_v44 (V : Valuation τ sig (Elt F)) :
    StableHlo.after hostOps2 V (Proc.devRef .tc main_v44) = shapeCast S1x128 (V (Proc.devRef .tc main_arg5)) shapeCasts_S128_S1x128 := by
  simp only [hostOps2]
  after_results_simp
  all_goals rfl

theorem h4_v59 (V : Valuation τ sig (Elt F)) :
    StableHlo.after hostOps4 V (Proc.devRef .tc main_v59) = aggW128 (V (Proc.devRef .tc main_v46)) (V (Proc.devRef .tc main_v26)) (V (Proc.devRef .tc main_v1)) (V (Proc.devRef .tc main_v3)) := by
  simp only [hostOps4]
  after_results_simp
  all_goals rfl

theorem h4_v60 (V : Valuation τ sig (Elt F)) :
    StableHlo.after hostOps4 V (Proc.devRef .tc main_v60) = shapeCast S1x128 (V (Proc.devRef .tc main_arg7)) shapeCasts_S128_S1x128 := by
  simp only [hostOps4]
  after_results_simp
  all_goals rfl

theorem h5_v62 (V : Valuation τ sig (Elt F)) :
    StableHlo.after hostOps5 V (Proc.devRef .tc main_v62) = shapeCast S1x128 (V (Proc.devRef .tc main_arg8)) shapeCasts_S128_S1x128 := by
  simp only [hostOps5]
  after_results_simp
  all_goals rfl

theorem h5_v63 (V : Valuation τ sig (Elt F)) :
    StableHlo.after hostOps5 V (Proc.devRef .tc main_v63) = shapeCast S1x128 (V (Proc.devRef .tc main_arg9)) shapeCasts_S128_S1x128 := by
  simp only [hostOps5]
  after_results_simp
  all_goals rfl

theorem h7_v78 (V : Valuation τ sig (Elt F)) :
    StableHlo.after hostOps7 V (Proc.devRef .tc main_v78) = aggW64 (V (Proc.devRef .tc main_v65)) (V (Proc.devRef .tc main_v26)) (V (Proc.devRef .tc main_v1)) (V (Proc.devRef .tc main_v3)) := by
  simp only [hostOps7]
  after_results_simp
  all_goals rfl

theorem h7_v79 (V : Valuation τ sig (Elt F)) :
    StableHlo.after hostOps7 V (Proc.devRef .tc main_v79) = shapeCast S1x64 (V (Proc.devRef .tc main_arg11)) shapeCasts_S64_S1x64 := by
  simp only [hostOps7]
  after_results_simp
  all_goals rfl

theorem h8_v81 (V : Valuation τ sig (Elt F)) :
    StableHlo.after hostOps8 V (Proc.devRef .tc main_v81) = shapeCast S1x64 (V (Proc.devRef .tc main_arg12)) shapeCasts_S64_S1x64 := by
  simp only [hostOps8]
  after_results_simp
  all_goals rfl

theorem h8_v82 (V : Valuation τ sig (Elt F)) :
    StableHlo.after hostOps8 V (Proc.devRef .tc main_v82) = shapeCast S1x64 (V (Proc.devRef .tc main_arg13)) shapeCasts_S64_S1x64 := by
  simp only [hostOps8]
  after_results_simp
  all_goals rfl

/-! ### The same between the items of @main -/

variable (m : (ℓ : Loc nD τ sig) → Buf (Elt F) ℓ) (ρ : Dev nD → PrngReg)
theorem B1_v1 (c : Dev nD) : B1 m ρ c (Proc.devRef .tc main_v1) = srcOf (B0 m ρ c (Proc.devRef .tc main_arg1)) := h0_v1 (B0 m ρ c)
theorem B1_v3 (c : Dev nD) : B1 m ρ c (Proc.devRef .tc main_v3) = dstOf (B0 m ρ c (Proc.devRef .tc main_arg1)) := h0_v3 (B0 m ρ c)
theorem B1_v10 (c : Dev nD) : B1 m ρ c (Proc.devRef .tc main_v10) = disOf (dstOf (B0 m ρ c (Proc.devRef .tc main_arg1))) := h0_v10 (B0 m ρ c)
theorem B1_v11 (c : Dev nD) : B1 m ρ c (Proc.devRef .tc main_v11) = shapeCast S50000x1 (disOf (dstOf (B0 m ρ c (Proc.devRef .tc main_arg1)))) shapeCasts_S50000_S50000x1 := h0_v11 (B0 m ρ c)
theorem B1_v26 (c : Dev nD) : B1 m ρ c (Proc.devRef .tc main_v26) = edgeW (disOf (dstOf (B0 m ρ c (Proc.devRef .tc main_arg1)))) (srcOf (B0 m ρ c (Proc.devRef .tc main_arg1))) (dstOf (B0 m ρ c (Proc.devRef .tc main_arg1))) := h0_v26 (B0 m ρ c)
theorem B3_v40 (c : Dev nD) : B3 m ρ c (Proc.devRef .tc main_v40) = aggW128 (B2 m ρ c (Proc.devRef .tc main_v27)) (B2 m ρ c (Proc.devRef .tc main_v26)) (B2 m ρ c (Proc.devRef .tc main_v1)) (B2 m ρ c (Proc.devRef .tc main_v3)) := h1_v40 (B2 m ρ c)
theorem B3_v41 (c : Dev nD) : B3 m ρ c (Proc.devRef .tc main_v41) = shapeCast S1x128 (B2 m ρ c (Proc.devRef .tc main_arg3)) shapeCasts_S128_S1x128 := h1_v41 (B2 m ρ c)
theorem B5_v43 (c : Dev nD) : B5 m ρ c (Proc.devRef .tc main_v43) = shapeCast S1x128 (B4 m ρ c (Proc.devRef .tc main_arg4)) shapeCasts_S128_S1x128 := h2_v43 (B4 m ρ c)
theorem B5_v44 (c : Dev nD) : B5 m ρ c (Proc.devRef .tc main_v44) = shapeCast S1x128 (B4 m ρ c (Proc.devRef .tc main_arg5)) shapeCasts_S128_S1x128 := h2_v44 (B4 m ρ c)
theorem B8_v59 (c : Dev nD) : B8 m ρ c (Proc.devRef .tc main_v59) = aggW128 (B7 m ρ c (Proc.devRef .tc main_v46)) (B7 m ρ c (Proc.devRef .tc main_v26)) (B7 m ρ c (Proc.devRef .tc main_v1)) (B7 m ρ c (Proc.devRef .tc main_v3)) := h4_v59 (B7 m ρ c)
theorem B8_v60 (c : Dev nD) : B8 m ρ c (Proc.devRef .tc main_v60) = shapeCast S1x128 (B7 m ρ c (Proc.devRef .tc main_arg7)) shapeCasts_S128_S1x128 := h4_v60 (B7 m ρ c)
theorem B10_v62 (c : Dev nD) : B10 m ρ c (Proc.devRef .tc main_v62) = shapeCast S1x128 (B9 m ρ c (Proc.devRef .tc main_arg8)) shapeCasts_S128_S1x128 := h5_v62 (B9 m ρ c)
theorem B10_v63 (c : Dev nD) : B10 m ρ c (Proc.devRef .tc main_v63) = shapeCast S1x128 (B9 m ρ c (Proc.devRef .tc main_arg9)) shapeCasts_S128_S1x128 := h5_v63 (B9 m ρ c)
theorem B13_v78 (c : Dev nD) : B13 m ρ c (Proc.devRef .tc main_v78) = aggW64 (B12 m ρ c (Proc.devRef .tc main_v65)) (B12 m ρ c (Proc.devRef .tc main_v26)) (B12 m ρ c (Proc.devRef .tc main_v1)) (B12 m ρ c (Proc.devRef .tc main_v3)) := h7_v78 (B12 m ρ c)
theorem B13_v79 (c : Dev nD) : B13 m ρ c (Proc.devRef .tc main_v79) = shapeCast S1x64 (B12 m ρ c (Proc.devRef .tc main_arg11)) shapeCasts_S64_S1x64 := h7_v79 (B12 m ρ c)
theorem B15_v81 (c : Dev nD) : B15 m ρ c (Proc.devRef .tc main_v81) = shapeCast S1x64 (B14 m ρ c (Proc.devRef .tc main_arg12)) shapeCasts_S64_S1x64 := h8_v81 (B14 m ρ c)
theorem B15_v82 (c : Dev nD) : B15 m ρ c (Proc.devRef .tc main_v82) = shapeCast S1x64 (B14 m ρ c (Proc.devRef .tc main_arg13)) shapeCasts_S64_S1x64 := h8_v82 (B14 m ρ c)

end Cert.KernelIdeal.Hand

end
-- ==== Proof.Ideal.HostCarry.lean ====
/- Buffers carried through the idealized kernel's run: a buffer that the items between two positions do not write
   holds at the later position what it held at the earlier one — a host stretch leaves what it does not write, a call
   leaves every buffer that is none of its window arrays, and an input window's array ends a call as it entered it.
   `Bj_<buffer>` says what the buffer holds at position j, in terms of the position where it was produced; for an
   argument array, the launch memory. -/
import proofs.«169495_j53601191854606_1_alg».proof.Proof.Ideal.RunData

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ### The edge rows and the edge weights, to the three stretches that read them -/

theorem B2_v1 (c : Dev nD) : B2 m ρ c (Proc.devRef .tc main_v1) = B1 m ρ c (Proc.devRef .tc main_v1) :=
  calc B2 m ρ c (Proc.devRef .tc main_v1)
    _ = B1 m ρ c (Proc.devRef .tc main_v1) := B2_of_ne m ρ c main_v1 (by decide)

theorem B7_v1 (c : Dev nD) : B7 m ρ c (Proc.devRef .tc main_v1) = B1 m ρ c (Proc.devRef .tc main_v1) :=
  calc B7 m ρ c (Proc.devRef .tc main_v1)
    _ = B6 m ρ c (Proc.devRef .tc main_v1) := B7_of_ne m ρ c main_v1 (by decide)
    _ = B5 m ρ c (Proc.devRef .tc main_v1) := B6_of_ne m ρ c main_v1 (by decide)
    _ = B4 m ρ c (Proc.devRef .tc main_v1) := StableHlo.after_of_writes_sub hostOps2 _ hostOps2_writes (by decide : main_v1 ∉ hostOps2_W)
    _ = B3 m ρ c (Proc.devRef .tc main_v1) := B4_of_ne m ρ c main_v1 (by decide)
    _ = B2 m ρ c (Proc.devRef .tc main_v1) := StableHlo.after_of_writes_sub hostOps1 _ hostOps1_writes (by decide : main_v1 ∉ hostOps1_W)
    _ = B1 m ρ c (Proc.devRef .tc main_v1) := B2_of_ne m ρ c main_v1 (by decide)

theorem B12_v1 (c : Dev nD) : B12 m ρ c (Proc.devRef .tc main_v1) = B1 m ρ c (Proc.devRef .tc main_v1) :=
  calc B12 m ρ c (Proc.devRef .tc main_v1)
    _ = B11 m ρ c (Proc.devRef .tc main_v1) := B12_of_ne m ρ c main_v1 (by decide)
    _ = B10 m ρ c (Proc.devRef .tc main_v1) := B11_of_ne m ρ c main_v1 (by decide)
    _ = B9 m ρ c (Proc.devRef .tc main_v1) := StableHlo.after_of_writes_sub hostOps5 _ hostOps5_writes (by decide : main_v1 ∉ hostOps5_W)
    _ = B8 m ρ c (Proc.devRef .tc main_v1) := B9_of_ne m ρ c main_v1 (by decide)
    _ = B7 m ρ c (Proc.devRef .tc main_v1) := StableHlo.after_of_writes_sub hostOps4 _ hostOps4_writes (by decide : main_v1 ∉ hostOps4_W)
    _ = B6 m ρ c (Proc.devRef .tc main_v1) := B7_of_ne m ρ c main_v1 (by decide)
    _ = B5 m ρ c (Proc.devRef .tc main_v1) := B6_of_ne m ρ c main_v1 (by decide)
    _ = B4 m ρ c (Proc.devRef .tc main_v1) := StableHlo.after_of_writes_sub hostOps2 _ hostOps2_writes (by decide : main_v1 ∉ hostOps2_W)
    _ = B3 m ρ c (Proc.devRef .tc main_v1) := B4_of_ne m ρ c main_v1 (by decide)
    _ = B2 m ρ c (Proc.devRef .tc main_v1) := StableHlo.after_of_writes_sub hostOps1 _ hostOps1_writes (by decide : main_v1 ∉ hostOps1_W)
    _ = B1 m ρ c (Proc.devRef .tc main_v1) := B2_of_ne m ρ c main_v1 (by decide)

theorem B2_v3 (c : Dev nD) : B2 m ρ c (Proc.devRef .tc main_v3) = B1 m ρ c (Proc.devRef .tc main_v3) :=
  calc B2 m ρ c (Proc.devRef .tc main_v3)
    _ = B1 m ρ c (Proc.devRef .tc main_v3) := B2_of_ne m ρ c main_v3 (by decide)

theorem B7_v3 (c : Dev nD) : B7 m ρ c (Proc.devRef .tc main_v3) = B1 m ρ c (Proc.devRef .tc main_v3) :=
  calc B7 m ρ c (Proc.devRef .tc main_v3)
    _ = B6 m ρ c (Proc.devRef .tc main_v3) := B7_of_ne m ρ c main_v3 (by decide)
    _ = B5 m ρ c (Proc.devRef .tc main_v3) := B6_of_ne m ρ c main_v3 (by decide)
    _ = B4 m ρ c (Proc.devRef .tc main_v3) := StableHlo.after_of_writes_sub hostOps2 _ hostOps2_writes (by decide : main_v3 ∉ hostOps2_W)
    _ = B3 m ρ c (Proc.devRef .tc main_v3) := B4_of_ne m ρ c main_v3 (by decide)
    _ = B2 m ρ c (Proc.devRef .tc main_v3) := StableHlo.after_of_writes_sub hostOps1 _ hostOps1_writes (by decide : main_v3 ∉ hostOps1_W)
    _ = B1 m ρ c (Proc.devRef .tc main_v3) := B2_of_ne m ρ c main_v3 (by decide)

theorem B12_v3 (c : Dev nD) : B12 m ρ c (Proc.devRef .tc main_v3) = B1 m ρ c (Proc.devRef .tc main_v3) :=
  calc B12 m ρ c (Proc.devRef .tc main_v3)
    _ = B11 m ρ c (Proc.devRef .tc main_v3) := B12_of_ne m ρ c main_v3 (by decide)
    _ = B10 m ρ c (Proc.devRef .tc main_v3) := B11_of_ne m ρ c main_v3 (by decide)
    _ = B9 m ρ c (Proc.devRef .tc main_v3) := StableHlo.after_of_writes_sub hostOps5 _ hostOps5_writes (by decide : main_v3 ∉ hostOps5_W)
    _ = B8 m ρ c (Proc.devRef .tc main_v3) := B9_of_ne m ρ c main_v3 (by decide)
    _ = B7 m ρ c (Proc.devRef .tc main_v3) := StableHlo.after_of_writes_sub hostOps4 _ hostOps4_writes (by decide : main_v3 ∉ hostOps4_W)
    _ = B6 m ρ c (Proc.devRef .tc main_v3) := B7_of_ne m ρ c main_v3 (by decide)
    _ = B5 m ρ c (Proc.devRef .tc main_v3) := B6_of_ne m ρ c main_v3 (by decide)
    _ = B4 m ρ c (Proc.devRef .tc main_v3) := StableHlo.after_of_writes_sub hostOps2 _ hostOps2_writes (by decide : main_v3 ∉ hostOps2_W)
    _ = B3 m ρ c (Proc.devRef .tc main_v3) := B4_of_ne m ρ c main_v3 (by decide)
    _ = B2 m ρ c (Proc.devRef .tc main_v3) := StableHlo.after_of_writes_sub hostOps1 _ hostOps1_writes (by decide : main_v3 ∉ hostOps1_W)
    _ = B1 m ρ c (Proc.devRef .tc main_v3) := B2_of_ne m ρ c main_v3 (by decide)

theorem B2_v26 (c : Dev nD) : B2 m ρ c (Proc.devRef .tc main_v26) = B1 m ρ c (Proc.devRef .tc main_v26) :=
  calc B2 m ρ c (Proc.devRef .tc main_v26)
    _ = B1 m ρ c (Proc.devRef .tc main_v26) := B2_of_ne m ρ c main_v26 (by decide)

theorem B7_v26 (c : Dev nD) : B7 m ρ c (Proc.devRef .tc main_v26) = B1 m ρ c (Proc.devRef .tc main_v26) :=
  calc B7 m ρ c (Proc.devRef .tc main_v26)
    _ = B6 m ρ c (Proc.devRef .tc main_v26) := B7_of_ne m ρ c main_v26 (by decide)
    _ = B5 m ρ c (Proc.devRef .tc main_v26) := B6_of_ne m ρ c main_v26 (by decide)
    _ = B4 m ρ c (Proc.devRef .tc main_v26) := StableHlo.after_of_writes_sub hostOps2 _ hostOps2_writes (by decide : main_v26 ∉ hostOps2_W)
    _ = B3 m ρ c (Proc.devRef .tc main_v26) := B4_of_ne m ρ c main_v26 (by decide)
    _ = B2 m ρ c (Proc.devRef .tc main_v26) := StableHlo.after_of_writes_sub hostOps1 _ hostOps1_writes (by decide : main_v26 ∉ hostOps1_W)
    _ = B1 m ρ c (Proc.devRef .tc main_v26) := B2_of_ne m ρ c main_v26 (by decide)

theorem B12_v26 (c : Dev nD) : B12 m ρ c (Proc.devRef .tc main_v26) = B1 m ρ c (Proc.devRef .tc main_v26) :=
  calc B12 m ρ c (Proc.devRef .tc main_v26)
    _ = B11 m ρ c (Proc.devRef .tc main_v26) := B12_of_ne m ρ c main_v26 (by decide)
    _ = B10 m ρ c (Proc.devRef .tc main_v26) := B11_of_ne m ρ c main_v26 (by decide)
    _ = B9 m ρ c (Proc.devRef .tc main_v26) := StableHlo.after_of_writes_sub hostOps5 _ hostOps5_writes (by decide : main_v26 ∉ hostOps5_W)
    _ = B8 m ρ c (Proc.devRef .tc main_v26) := B9_of_ne m ρ c main_v26 (by decide)
    _ = B7 m ρ c (Proc.devRef .tc main_v26) := StableHlo.after_of_writes_sub hostOps4 _ hostOps4_writes (by decide : main_v26 ∉ hostOps4_W)
    _ = B6 m ρ c (Proc.devRef .tc main_v26) := B7_of_ne m ρ c main_v26 (by decide)
    _ = B5 m ρ c (Proc.devRef .tc main_v26) := B6_of_ne m ρ c main_v26 (by decide)
    _ = B4 m ρ c (Proc.devRef .tc main_v26) := StableHlo.after_of_writes_sub hostOps2 _ hostOps2_writes (by decide : main_v26 ∉ hostOps2_W)
    _ = B3 m ρ c (Proc.devRef .tc main_v26) := B4_of_ne m ρ c main_v26 (by decide)
    _ = B2 m ρ c (Proc.devRef .tc main_v26) := StableHlo.after_of_writes_sub hostOps1 _ hostOps1_writes (by decide : main_v26 ∉ hostOps1_W)
    _ = B1 m ρ c (Proc.devRef .tc main_v26) := B2_of_ne m ρ c main_v26 (by decide)

/-! ### The normalised degrees as a column, to the three calls that read them -/

theorem B3_v11 (c : Dev nD) : B3 m ρ c (Proc.devRef .tc main_v11) = B1 m ρ c (Proc.devRef .tc main_v11) :=
  calc B3 m ρ c (Proc.devRef .tc main_v11)
    _ = B2 m ρ c (Proc.devRef .tc main_v11) := StableHlo.after_of_writes_sub hostOps1 _ hostOps1_writes (by decide : main_v11 ∉ hostOps1_W)
    _ = B1 m ρ c (Proc.devRef .tc main_v11) := B2_of_ne m ρ c main_v11 (by decide)

theorem B8_v11 (c : Dev nD) : B8 m ρ c (Proc.devRef .tc main_v11) = B1 m ρ c (Proc.devRef .tc main_v11) :=
  calc B8 m ρ c (Proc.devRef .tc main_v11)
    _ = B7 m ρ c (Proc.devRef .tc main_v11) := StableHlo.after_of_writes_sub hostOps4 _ hostOps4_writes (by decide : main_v11 ∉ hostOps4_W)
    _ = B6 m ρ c (Proc.devRef .tc main_v11) := B7_of_ne m ρ c main_v11 (by decide)
    _ = B5 m ρ c (Proc.devRef .tc main_v11) := B6_of_ne m ρ c main_v11 (by decide)
    _ = B4 m ρ c (Proc.devRef .tc main_v11) := StableHlo.after_of_writes_sub hostOps2 _ hostOps2_writes (by decide : main_v11 ∉ hostOps2_W)
    _ = B3 m ρ c (Proc.devRef .tc main_v11) := (B4_arr m ρ c 2).trans (((dat1 (C3 m ρ) c).arrAt_in 2 rfl _).trans (dat1_A (C3 m ρ) c 2))
    _ = B2 m ρ c (Proc.devRef .tc main_v11) := StableHlo.after_of_writes_sub hostOps1 _ hostOps1_writes (by decide : main_v11 ∉ hostOps1_W)
    _ = B1 m ρ c (Proc.devRef .tc main_v11) := B2_of_ne m ρ c main_v11 (by decide)

theorem B13_v11 (c : Dev nD) : B13 m ρ c (Proc.devRef .tc main_v11) = B1 m ρ c (Proc.devRef .tc main_v11) :=
  calc B13 m ρ c (Proc.devRef .tc main_v11)
    _ = B12 m ρ c (Proc.devRef .tc main_v11) := StableHlo.after_of_writes_sub hostOps7 _ hostOps7_writes (by decide : main_v11 ∉ hostOps7_W)
    _ = B11 m ρ c (Proc.devRef .tc main_v11) := B12_of_ne m ρ c main_v11 (by decide)
    _ = B10 m ρ c (Proc.devRef .tc main_v11) := B11_of_ne m ρ c main_v11 (by decide)
    _ = B9 m ρ c (Proc.devRef .tc main_v11) := StableHlo.after_of_writes_sub hostOps5 _ hostOps5_writes (by decide : main_v11 ∉ hostOps5_W)
    _ = B8 m ρ c (Proc.devRef .tc main_v11) := (B9_arr m ρ c 2).trans (((dat4 (C8 m ρ) c).arrAt_in 2 rfl _).trans (dat4_A (C8 m ρ) c 2))
    _ = B7 m ρ c (Proc.devRef .tc main_v11) := StableHlo.after_of_writes_sub hostOps4 _ hostOps4_writes (by decide : main_v11 ∉ hostOps4_W)
    _ = B6 m ρ c (Proc.devRef .tc main_v11) := B7_of_ne m ρ c main_v11 (by decide)
    _ = B5 m ρ c (Proc.devRef .tc main_v11) := B6_of_ne m ρ c main_v11 (by decide)
    _ = B4 m ρ c (Proc.devRef .tc main_v11) := StableHlo.after_of_writes_sub hostOps2 _ hostOps2_writes (by decide : main_v11 ∉ hostOps2_W)
    _ = B3 m ρ c (Proc.devRef .tc main_v11) := (B4_arr m ρ c 2).trans (((dat1 (C3 m ρ) c).arrAt_in 2 rfl _).trans (dat1_A (C3 m ρ) c 2))
    _ = B2 m ρ c (Proc.devRef .tc main_v11) := StableHlo.after_of_writes_sub hostOps1 _ hostOps1_writes (by decide : main_v11 ∉ hostOps1_W)
    _ = B1 m ρ c (Proc.devRef .tc main_v11) := B2_of_ne m ρ c main_v11 (by decide)

/-! ### A call's results through the stretch before the next call -/

theorem B3_v27 (c : Dev nD) : B3 m ρ c (Proc.devRef .tc main_v27) = B2 m ρ c (Proc.devRef .tc main_v27) :=
  calc B3 m ρ c (Proc.devRef .tc main_v27)
    _ = B2 m ρ c (Proc.devRef .tc main_v27) := StableHlo.after_of_writes_sub hostOps1 _ hostOps1_writes (by decide : main_v27 ∉ hostOps1_W)

theorem B5_v42_0 (c : Dev nD) : B5 m ρ c (Proc.devRef .tc main_v42_0) = B4 m ρ c (Proc.devRef .tc main_v42_0) :=
  calc B5 m ρ c (Proc.devRef .tc main_v42_0)
    _ = B4 m ρ c (Proc.devRef .tc main_v42_0) := StableHlo.after_of_writes_sub hostOps2 _ hostOps2_writes (by decide : main_v42_0 ∉ hostOps2_W)

theorem B5_v42_1 (c : Dev nD) : B5 m ρ c (Proc.devRef .tc main_v42_1) = B4 m ρ c (Proc.devRef .tc main_v42_1) :=
  calc B5 m ρ c (Proc.devRef .tc main_v42_1)
    _ = B4 m ρ c (Proc.devRef .tc main_v42_1) := StableHlo.after_of_writes_sub hostOps2 _ hostOps2_writes (by decide : main_v42_1 ∉ hostOps2_W)

theorem B5_v42_2 (c : Dev nD) : B5 m ρ c (Proc.devRef .tc main_v42_2) = B4 m ρ c (Proc.devRef .tc main_v42_2) :=
  calc B5 m ρ c (Proc.devRef .tc main_v42_2)
    _ = B4 m ρ c (Proc.devRef .tc main_v42_2) := StableHlo.after_of_writes_sub hostOps2 _ hostOps2_writes (by decide : main_v42_2 ∉ hostOps2_W)

theorem B8_v46 (c : Dev nD) : B8 m ρ c (Proc.devRef .tc main_v46) = B7 m ρ c (Proc.devRef .tc main_v46) :=
  calc B8 m ρ c (Proc.devRef .tc main_v46)
    _ = B7 m ρ c (Proc.devRef .tc main_v46) := StableHlo.after_of_writes_sub hostOps4 _ hostOps4_writes (by decide : main_v46 ∉ hostOps4_W)

theorem B10_v61_0 (c : Dev nD) : B10 m ρ c (Proc.devRef .tc main_v61_0) = B9 m ρ c (Proc.devRef .tc main_v61_0) :=
  calc B10 m ρ c (Proc.devRef .tc main_v61_0)
    _ = B9 m ρ c (Proc.devRef .tc main_v61_0) := StableHlo.after_of_writes_sub hostOps5 _ hostOps5_writes (by decide : main_v61_0 ∉ hostOps5_W)

theorem B10_v61_1 (c : Dev nD) : B10 m ρ c (Proc.devRef .tc main_v61_1) = B9 m ρ c (Proc.devRef .tc main_v61_1) :=
  calc B10 m ρ c (Proc.devRef .tc main_v61_1)
    _ = B9 m ρ c (Proc.devRef .tc main_v61_1) := StableHlo.after_of_writes_sub hostOps5 _ hostOps5_writes (by decide : main_v61_1 ∉ hostOps5_W)

theorem B10_v61_2 (c : Dev nD) : B10 m ρ c (Proc.devRef .tc main_v61_2) = B9 m ρ c (Proc.devRef .tc main_v61_2) :=
  calc B10 m ρ c (Proc.devRef .tc main_v61_2)
    _ = B9 m ρ c (Proc.devRef .tc main_v61_2) := StableHlo.after_of_writes_sub hostOps5 _ hostOps5_writes (by decide : main_v61_2 ∉ hostOps5_W)

theorem B13_v65 (c : Dev nD) : B13 m ρ c (Proc.devRef .tc main_v65) = B12 m ρ c (Proc.devRef .tc main_v65) :=
  calc B13 m ρ c (Proc.devRef .tc main_v65)
    _ = B12 m ρ c (Proc.devRef .tc main_v65) := StableHlo.after_of_writes_sub hostOps7 _ hostOps7_writes (by decide : main_v65 ∉ hostOps7_W)

theorem B15_v80_0 (c : Dev nD) : B15 m ρ c (Proc.devRef .tc main_v80_0) = B14 m ρ c (Proc.devRef .tc main_v80_0) :=
  calc B15 m ρ c (Proc.devRef .tc main_v80_0)
    _ = B14 m ρ c (Proc.devRef .tc main_v80_0) := StableHlo.after_of_writes_sub hostOps8 _ hostOps8_writes (by decide : main_v80_0 ∉ hostOps8_W)

theorem B15_v80_1 (c : Dev nD) : B15 m ρ c (Proc.devRef .tc main_v80_1) = B14 m ρ c (Proc.devRef .tc main_v80_1) :=
  calc B15 m ρ c (Proc.devRef .tc main_v80_1)
    _ = B14 m ρ c (Proc.devRef .tc main_v80_1) := StableHlo.after_of_writes_sub hostOps8 _ hostOps8_writes (by decide : main_v80_1 ∉ hostOps8_W)

theorem B15_v80_2 (c : Dev nD) : B15 m ρ c (Proc.devRef .tc main_v80_2) = B14 m ρ c (Proc.devRef .tc main_v80_2) :=
  calc B15 m ρ c (Proc.devRef .tc main_v80_2)
    _ = B14 m ρ c (Proc.devRef .tc main_v80_2) := StableHlo.after_of_writes_sub hostOps8 _ hostOps8_writes (by decide : main_v80_2 ∉ hostOps8_W)

/-! ### The argument arrays where they are read -/

theorem B0_arg1 (c : Dev nD) : B0 m ρ c (Proc.devRef .tc main_arg1) = m ((c : Thread nD τ).loc main_arg1) := rfl

theorem B1_arg0 (c : Dev nD) : B1 m ρ c (Proc.devRef .tc main_arg0) = m ((c : Thread nD τ).loc main_arg0) :=
  calc B1 m ρ c (Proc.devRef .tc main_arg0)
    _ = B0 m ρ c (Proc.devRef .tc main_arg0) := StableHlo.after_of_writes_sub hostOps0 _ hostOps0_writes (by decide : main_arg0 ∉ hostOps0_W)
    _ = m ((c : Thread nD τ).loc main_arg0) := rfl

theorem B1_arg2 (c : Dev nD) : B1 m ρ c (Proc.devRef .tc main_arg2) = m ((c : Thread nD τ).loc main_arg2) :=
  calc B1 m ρ c (Proc.devRef .tc main_arg2)
    _ = B0 m ρ c (Proc.devRef .tc main_arg2) := StableHlo.after_of_writes_sub hostOps0 _ hostOps0_writes (by decide : main_arg2 ∉ hostOps0_W)
    _ = m ((c : Thread nD τ).loc main_arg2) := rfl

theorem B2_arg3 (c : Dev nD) : B2 m ρ c (Proc.devRef .tc main_arg3) = m ((c : Thread nD τ).loc main_arg3) :=
  calc B2 m ρ c (Proc.devRef .tc main_arg3)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl

theorem B4_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl

theorem B4_arg5 (c : Dev nD) : B4 m ρ c (Proc.devRef .tc main_arg5) = m ((c : Thread nD τ).loc main_arg5) :=
  calc B4 m ρ c (Proc.devRef .tc main_arg5)
    _ = B3 m ρ c (Proc.devRef .tc main_arg5) := B4_of_ne m ρ c main_arg5 (by decide)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl

theorem B6_arg6 (c : Dev nD) : B6 m ρ c (Proc.devRef .tc main_arg6) = m ((c : Thread nD τ).loc main_arg6) :=
  calc B6 m ρ c (Proc.devRef .tc main_arg6)
    _ = B5 m ρ c (Proc.devRef .tc main_arg6) := B6_of_ne m ρ c main_arg6 (by decide)
    _ = B4 m ρ c (Proc.devRef .tc main_arg6) := StableHlo.after_of_writes_sub hostOps2 _ hostOps2_writes (by decide : main_arg6 ∉ hostOps2_W)
    _ = B3 m ρ c (Proc.devRef .tc main_arg6) := B4_of_ne m ρ c main_arg6 (by decide)
    _ = B2 m ρ c (Proc.devRef .tc main_arg6) := StableHlo.after_of_writes_sub hostOps1 _ hostOps1_writes (by decide : main_arg6 ∉ hostOps1_W)
    _ = B1 m ρ c (Proc.devRef .tc main_arg6) := B2_of_ne m ρ c main_arg6 (by decide)
    _ = B0 m ρ c (Proc.devRef .tc main_arg6) := StableHlo.after_of_writes_sub hostOps0 _ hostOps0_writes (by decide : main_arg6 ∉ hostOps0_W)
    _ = m ((c : Thread nD τ).loc main_arg6) := rfl

theorem B7_arg7 (c : Dev nD) : B7 m ρ c (Proc.devRef .tc main_arg7) = m ((c : Thread nD τ).loc main_arg7) :=
  calc B7 m ρ c (Proc.devRef .tc main_arg7)
    _ = B6 m ρ c (Proc.devRef .tc main_arg7) := B7_of_ne m ρ c main_arg7 (by decide)
    _ = B5 m ρ c (Proc.devRef .tc main_arg7) := B6_of_ne m ρ c main_arg7 (by decide)
    _ = B4 m ρ c (Proc.devRef .tc main_arg7) := StableHlo.after_of_writes_sub hostOps2 _ hostOps2_writes (by decide : main_arg7 ∉ hostOps2_W)
    _ = B3 m ρ c (Proc.devRef .tc main_arg7) := B4_of_ne m ρ c main_arg7 (by decide)
    _ = B2 m ρ c (Proc.devRef .tc main_arg7) := StableHlo.after_of_writes_sub hostOps1 _ hostOps1_writes (by decide : main_arg7 ∉ hostOps1_W)
    _ = B1 m ρ c (Proc.devRef .tc main_arg7) := B2_of_ne m ρ c main_arg7 (by decide)
    _ = B0 m ρ c (Proc.devRef .tc main_arg7) := StableHlo.after_of_writes_sub hostOps0 _ hostOps0_writes (by decide : main_arg7 ∉ hostOps0_W)
    _ = m ((c : Thread nD τ).loc main_arg7) := rfl

theorem B9_arg8 (c : Dev nD) : B9 m ρ c (Proc.devRef .tc main_arg8) = m ((c : Thread nD τ).loc main_arg8) :=
  calc B9 m ρ c (Proc.devRef .tc main_arg8)
    _ = B8 m ρ c (Proc.devRef .tc main_arg8) := B9_of_ne m ρ c main_arg8 (by decide)
    _ = B7 m ρ c (Proc.devRef .tc main_arg8) := StableHlo.after_of_writes_sub hostOps4 _ hostOps4_writes (by decide : main_arg8 ∉ hostOps4_W)
    _ = B6 m ρ c (Proc.devRef .tc main_arg8) := B7_of_ne m ρ c main_arg8 (by decide)
    _ = B5 m ρ c (Proc.devRef .tc main_arg8) := B6_of_ne m ρ c main_arg8 (by decide)
    _ = B4 m ρ c (Proc.devRef .tc main_arg8) := StableHlo.after_of_writes_sub hostOps2 _ hostOps2_writes (by decide : main_arg8 ∉ hostOps2_W)
    _ = B3 m ρ c (Proc.devRef .tc main_arg8) := B4_of_ne m ρ c main_arg8 (by decide)
    _ = B2 m ρ c (Proc.devRef .tc main_arg8) := StableHlo.after_of_writes_sub hostOps1 _ hostOps1_writes (by decide : main_arg8 ∉ hostOps1_W)
    _ = B1 m ρ c (Proc.devRef .tc main_arg8) := B2_of_ne m ρ c main_arg8 (by decide)
    _ = B0 m ρ c (Proc.devRef .tc main_arg8) := StableHlo.after_of_writes_sub hostOps0 _ hostOps0_writes (by decide : main_arg8 ∉ hostOps0_W)
    _ = m ((c : Thread nD τ).loc main_arg8) := rfl

theorem B9_arg9 (c : Dev nD) : B9 m ρ c (Proc.devRef .tc main_arg9) = m ((c : Thread nD τ).loc main_arg9) :=
  calc B9 m ρ c (Proc.devRef .tc main_arg9)
    _ = B8 m ρ c (Proc.devRef .tc main_arg9) := B9_of_ne m ρ c main_arg9 (by decide)
    _ = B7 m ρ c (Proc.devRef .tc main_arg9) := StableHlo.after_of_writes_sub hostOps4 _ hostOps4_writes (by decide : main_arg9 ∉ hostOps4_W)
    _ = B6 m ρ c (Proc.devRef .tc main_arg9) := B7_of_ne m ρ c main_arg9 (by decide)
    _ = B5 m ρ c (Proc.devRef .tc main_arg9) := B6_of_ne m ρ c main_arg9 (by decide)
    _ = B4 m ρ c (Proc.devRef .tc main_arg9) := StableHlo.after_of_writes_sub hostOps2 _ hostOps2_writes (by decide : main_arg9 ∉ hostOps2_W)
    _ = B3 m ρ c (Proc.devRef .tc main_arg9) := B4_of_ne m ρ c main_arg9 (by decide)
    _ = B2 m ρ c (Proc.devRef .tc main_arg9) := StableHlo.after_of_writes_sub hostOps1 _ hostOps1_writes (by decide : main_arg9 ∉ hostOps1_W)
    _ = B1 m ρ c (Proc.devRef .tc main_arg9) := B2_of_ne m ρ c main_arg9 (by decide)
    _ = B0 m ρ c (Proc.devRef .tc main_arg9) := StableHlo.after_of_writes_sub hostOps0 _ hostOps0_writes (by decide : main_arg9 ∉ hostOps0_W)
    _ = m ((c : Thread nD τ).loc main_arg9) := rfl

theorem B11_arg10 (c : Dev nD) : B11 m ρ c (Proc.devRef .tc main_arg10) = m ((c : Thread nD τ).loc main_arg10) :=
  calc B11 m ρ c (Proc.devRef .tc main_arg10)
    _ = B10 m ρ c (Proc.devRef .tc main_arg10) := B11_of_ne m ρ c main_arg10 (by decide)
    _ = B9 m ρ c (Proc.devRef .tc main_arg10) := StableHlo.after_of_writes_sub hostOps5 _ hostOps5_writes (by decide : main_arg10 ∉ hostOps5_W)
    _ = B8 m ρ c (Proc.devRef .tc main_arg10) := B9_of_ne m ρ c main_arg10 (by decide)
    _ = B7 m ρ c (Proc.devRef .tc main_arg10) := StableHlo.after_of_writes_sub hostOps4 _ hostOps4_writes (by decide : main_arg10 ∉ hostOps4_W)
    _ = B6 m ρ c (Proc.devRef .tc main_arg10) := B7_of_ne m ρ c main_arg10 (by decide)
    _ = B5 m ρ c (Proc.devRef .tc main_arg10) := B6_of_ne m ρ c main_arg10 (by decide)
    _ = B4 m ρ c (Proc.devRef .tc main_arg10) := StableHlo.after_of_writes_sub hostOps2 _ hostOps2_writes (by decide : main_arg10 ∉ hostOps2_W)
    _ = B3 m ρ c (Proc.devRef .tc main_arg10) := B4_of_ne m ρ c main_arg10 (by decide)
    _ = B2 m ρ c (Proc.devRef .tc main_arg10) := StableHlo.after_of_writes_sub hostOps1 _ hostOps1_writes (by decide : main_arg10 ∉ hostOps1_W)
    _ = B1 m ρ c (Proc.devRef .tc main_arg10) := B2_of_ne m ρ c main_arg10 (by decide)
    _ = B0 m ρ c (Proc.devRef .tc main_arg10) := StableHlo.after_of_writes_sub hostOps0 _ hostOps0_writes (by decide : main_arg10 ∉ hostOps0_W)
    _ = m ((c : Thread nD τ).loc main_arg10) := rfl

theorem B12_arg11 (c : Dev nD) : B12 m ρ c (Proc.devRef .tc main_arg11) = m ((c : Thread nD τ).loc main_arg11) :=
  calc B12 m ρ c (Proc.devRef .tc main_arg11)
    _ = B11 m ρ c (Proc.devRef .tc main_arg11) := B12_of_ne m ρ c main_arg11 (by decide)
    _ = B10 m ρ c (Proc.devRef .tc main_arg11) := B11_of_ne m ρ c main_arg11 (by decide)
    _ = B9 m ρ c (Proc.devRef .tc main_arg11) := StableHlo.after_of_writes_sub hostOps5 _ hostOps5_writes (by decide : main_arg11 ∉ hostOps5_W)
    _ = B8 m ρ c (Proc.devRef .tc main_arg11) := B9_of_ne m ρ c main_arg11 (by decide)
    _ = B7 m ρ c (Proc.devRef .tc main_arg11) := StableHlo.after_of_writes_sub hostOps4 _ hostOps4_writes (by decide : main_arg11 ∉ hostOps4_W)
    _ = B6 m ρ c (Proc.devRef .tc main_arg11) := B7_of_ne m ρ c main_arg11 (by decide)
    _ = B5 m ρ c (Proc.devRef .tc main_arg11) := B6_of_ne m ρ c main_arg11 (by decide)
    _ = B4 m ρ c (Proc.devRef .tc main_arg11) := StableHlo.after_of_writes_sub hostOps2 _ hostOps2_writes (by decide : main_arg11 ∉ hostOps2_W)
    _ = B3 m ρ c (Proc.devRef .tc main_arg11) := B4_of_ne m ρ c main_arg11 (by decide)
    _ = B2 m ρ c (Proc.devRef .tc main_arg11) := StableHlo.after_of_writes_sub hostOps1 _ hostOps1_writes (by decide : main_arg11 ∉ hostOps1_W)
    _ = B1 m ρ c (Proc.devRef .tc main_arg11) := B2_of_ne m ρ c main_arg11 (by decide)
    _ = B0 m ρ c (Proc.devRef .tc main_arg11) := StableHlo.after_of_writes_sub hostOps0 _ hostOps0_writes (by decide : main_arg11 ∉ hostOps0_W)
    _ = m ((c : Thread nD τ).loc main_arg11) := rfl

theorem B14_arg12 (c : Dev nD) : B14 m ρ c (Proc.devRef .tc main_arg12) = m ((c : Thread nD τ).loc main_arg12) :=
  calc B14 m ρ c (Proc.devRef .tc main_arg12)
    _ = B13 m ρ c (Proc.devRef .tc main_arg12) := B14_of_ne m ρ c main_arg12 (by decide)
    _ = B12 m ρ c (Proc.devRef .tc main_arg12) := StableHlo.after_of_writes_sub hostOps7 _ hostOps7_writes (by decide : main_arg12 ∉ hostOps7_W)
    _ = B11 m ρ c (Proc.devRef .tc main_arg12) := B12_of_ne m ρ c main_arg12 (by decide)
    _ = B10 m ρ c (Proc.devRef .tc main_arg12) := B11_of_ne m ρ c main_arg12 (by decide)
    _ = B9 m ρ c (Proc.devRef .tc main_arg12) := StableHlo.after_of_writes_sub hostOps5 _ hostOps5_writes (by decide : main_arg12 ∉ hostOps5_W)
    _ = B8 m ρ c (Proc.devRef .tc main_arg12) := B9_of_ne m ρ c main_arg12 (by decide)
    _ = B7 m ρ c (Proc.devRef .tc main_arg12) := StableHlo.after_of_writes_sub hostOps4 _ hostOps4_writes (by decide : main_arg12 ∉ hostOps4_W)
    _ = B6 m ρ c (Proc.devRef .tc main_arg12) := B7_of_ne m ρ c main_arg12 (by decide)
    _ = B5 m ρ c (Proc.devRef .tc main_arg12) := B6_of_ne m ρ c main_arg12 (by decide)
    _ = B4 m ρ c (Proc.devRef .tc main_arg12) := StableHlo.after_of_writes_sub hostOps2 _ hostOps2_writes (by decide : main_arg12 ∉ hostOps2_W)
    _ = B3 m ρ c (Proc.devRef .tc main_arg12) := B4_of_ne m ρ c main_arg12 (by decide)
    _ = B2 m ρ c (Proc.devRef .tc main_arg12) := StableHlo.after_of_writes_sub hostOps1 _ hostOps1_writes (by decide : main_arg12 ∉ hostOps1_W)
    _ = B1 m ρ c (Proc.devRef .tc main_arg12) := B2_of_ne m ρ c main_arg12 (by decide)
    _ = B0 m ρ c (Proc.devRef .tc main_arg12) := StableHlo.after_of_writes_sub hostOps0 _ hostOps0_writes (by decide : main_arg12 ∉ hostOps0_W)
    _ = m ((c : Thread nD τ).loc main_arg12) := rfl

theorem B14_arg13 (c : Dev nD) : B14 m ρ c (Proc.devRef .tc main_arg13) = m ((c : Thread nD τ).loc main_arg13) :=
  calc B14 m ρ c (Proc.devRef .tc main_arg13)
    _ = B13 m ρ c (Proc.devRef .tc main_arg13) := B14_of_ne m ρ c main_arg13 (by decide)
    _ = B12 m ρ c (Proc.devRef .tc main_arg13) := StableHlo.after_of_writes_sub hostOps7 _ hostOps7_writes (by decide : main_arg13 ∉ hostOps7_W)
    _ = B11 m ρ c (Proc.devRef .tc main_arg13) := B12_of_ne m ρ c main_arg13 (by decide)
    _ = B10 m ρ c (Proc.devRef .tc main_arg13) := B11_of_ne m ρ c main_arg13 (by decide)
    _ = B9 m ρ c (Proc.devRef .tc main_arg13) := StableHlo.after_of_writes_sub hostOps5 _ hostOps5_writes (by decide : main_arg13 ∉ hostOps5_W)
    _ = B8 m ρ c (Proc.devRef .tc main_arg13) := B9_of_ne m ρ c main_arg13 (by decide)
    _ = B7 m ρ c (Proc.devRef .tc main_arg13) := StableHlo.after_of_writes_sub hostOps4 _ hostOps4_writes (by decide : main_arg13 ∉ hostOps4_W)
    _ = B6 m ρ c (Proc.devRef .tc main_arg13) := B7_of_ne m ρ c main_arg13 (by decide)
    _ = B5 m ρ c (Proc.devRef .tc main_arg13) := B6_of_ne m ρ c main_arg13 (by decide)
    _ = B4 m ρ c (Proc.devRef .tc main_arg13) := StableHlo.after_of_writes_sub hostOps2 _ hostOps2_writes (by decide : main_arg13 ∉ hostOps2_W)
    _ = B3 m ρ c (Proc.devRef .tc main_arg13) := B4_of_ne m ρ c main_arg13 (by decide)
    _ = B2 m ρ c (Proc.devRef .tc main_arg13) := StableHlo.after_of_writes_sub hostOps1 _ hostOps1_writes (by decide : main_arg13 ∉ hostOps1_W)
    _ = B1 m ρ c (Proc.devRef .tc main_arg13) := B2_of_ne m ρ c main_arg13 (by decide)
    _ = B0 m ρ c (Proc.devRef .tc main_arg13) := StableHlo.after_of_writes_sub hostOps0 _ hostOps0_writes (by decide : main_arg13 ∉ hostOps0_W)
    _ = m ((c : Thread nD τ).loc main_arg13) := rfl

end Cert.KernelIdeal.Hand

end
-- ==== Proof.LibDot2.lean ====
/-
  Two matrix products read at an index, at the ideal values, for any extents and any well-formedness witness of the
  dimension numbers: an accelerator matrix product into a zero accumulator of an [M,K] by a [K,N] array, and a host
  `dot_general` of an [M,K] by an [N,K] array contracted on both last axes, are both the plain sum over the contracted
  coordinate of the products of the entries.
-/
import Idealize.ShloMosaic.PureOps.Ideal.Laws
import Idealize.ShloMosaic.Lib.ValueIdx

noncomputable section

open scoped BigOperators

namespace Cert.LibDot2

open Idealize.ShloMosaic Idealize.ShloMosaic.ValueIdx

variable {M K N : Nat} {φ₁ φ₂ : FTy}

/-- An [M,K] by [K,N] matrix product accumulated into zeros: entry (a, b) is `∑ c, A (a, c) · B (c, b)`. -/
theorem matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A host `dot_general` of an [M,K] by an [N,K] array, both contracted on their last axis: entry (a, b) is
    `∑ c, A (a, c) · B (b, c)`. -/
theorem dotGeneral_nt_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims ⟨2, ![M, K]⟩ ⟨2, ![N, K]⟩ ⟨2, ![M, N]⟩) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibDot2

end
-- ==== Proof.LibDotNN.lean ====
/-
  The host's plain matrix product read at an index, and its agreement with the accelerator's at the ideal values.
  For an [M,K] array A and a [K,N] array B (any extents, any well-formedness witness of the dimension numbers):
  the host `dot_general` contracting A's second axis with B's first has entry (a, b) = ∑ c, A (a, c) · B (c, b);
  the accelerator product of the two operands, each first rounded to a narrower float format, accumulated into
  zeros, is the same array — a change of float format is the identity on the extended reals, a zero accumulator
  adds nothing, and both products are the one finite sum over the contracted coordinate.
-/
import Idealize.ShloMosaic.PureOps.Ideal.Laws
import Idealize.ShloMosaic.Lib.ValueIdx
import proofs.«169495_j53601191854606_1_alg».proof.Proof.LibDot2

noncomputable section

open scoped BigOperators

namespace Cert.LibDotNN

open Idealize.ShloMosaic Idealize.ShloMosaic.ValueIdx

variable {M K N : Nat} {φ₁ φ₂ : FTy}

/-- A host `dot_general` of an [M,K] by a [K,N] array, the first contracted on its last axis and the second on its
    first: entry (a, b) is `∑ c, A (a, c) · B (c, b)`. -/
theorem dotGeneral_nn_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (⟨[1], [0], [0], [1], [], [], w⟩ : DotDims ⟨2, ![M, K]⟩ ⟨2, ![K, N]⟩ ⟨2, ![M, N]⟩) prec A B (ix2 a b)
      = ∑ c : Fin K, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The same at any index `j` of the result: the row is `j`'s first coordinate, the column its second. -/
theorem dotGeneral_nn_apply_idx (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (j : (⟨2, ![M, N]⟩ : Shape).Idx) :
    Host.dotGeneral (⟨[1], [0], [0], [1], [], [], w⟩ : DotDims ⟨2, ![M, K]⟩ ⟨2, ![K, N]⟩ ⟨2, ![M, N]⟩) prec A B j
      = ∑ c : Fin K, A (ix2 (j 0) c) * B (ix2 c (j 1)) := by
  have h := dotGeneral_nn_apply w prec A B (j 0) (j 1)
  have e : j = ix2 (j 0) (j 1) := eq_ix2 j
  conv_lhs => rw [e]
  exact h

/-- The accelerator product of the two operands rounded to a narrower format, into a zero accumulator, read at
    (a, b): the sum of the products of the UNROUNDED entries. -/
theorem matmul_rounded_apply (w : DotDims.WF ⟨2, ![M, K]⟩ ⟨2, ![K, N]⟩ ⟨2, ![M, N]⟩ [1] [0] [0] [1] [] [])
    (prec : Option ContractPrecision) (ψ : FTy) (h₁ : ψ.bits < φ₁.bits) (h₂ : ψ.bits < φ₂.bits)
    (A : FVec Ideal ⟨2, ![M, K]⟩ φ₁) (B : FVec Ideal ⟨2, ![K, N]⟩ φ₂) (a : Fin M) (b : Fin N) :
    matmul (⟨[1], [0], [0], [1], [], [], w⟩ : DotDims ⟨2, ![M, K]⟩ ⟨2, ![K, N]⟩ ⟨2, ![M, N]⟩) prec
        (truncf ψ A h₁) (truncf ψ B h₂) (constant ⟨2, ![M, N]⟩ .f32 0x00000000#32) (ix2 a b)
      = ∑ c : Fin K, A (ix2 a c) * B (ix2 c b) :=
  Cert.LibDot2.matmul_zero_apply w prec (truncf ψ A h₁) (truncf ψ B h₂) a b

end Cert.LibDotNN

end
-- ==== Proof.Ideal.ProductValue0.lean ====
/-
  The feature product of layer one, read as a value at the ideal float instance. The body's stored block at row a
  and column b is the sum over c of x(a,c) · W(c,b) of the loaded blocks (rounding to a narrower format is the
  identity there); each grid point writes back rows 5000·t … 5000·t+4999 of the one array G(i) = Σ_c x(i₀,c) · W(c,i₁);
  the ten blocks cover the array, so after the call the output array is G of the arrays the call found.
-/
import proofs.«169495_j53601191854606_1_alg».proof.Proof.Ideal.Product0
import proofs.«169495_j53601191854606_1_alg».proof.Proof.LibDotNN
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem origin2 : (![0, 0] : Fin 2 → Nat) = fun _ => 0 := funext fun a => by fin_cases a <;> rfl

/-- The stored block at (a, b): the sum of the products of the loaded entries. -/
theorem prodPay0_apply (X : Vec Ideal S5000x128 .f32) (Wt : Vec Ideal S128x128 .f32) (a : Fin 5000) (b : Fin 128) :
    k0_pay1 (F := Ideal) X Wt (ix2 a b) = ∑ c : Fin 128, X (ix2 a c) * Wt (ix2 c b) :=
  Cert.LibDotNN.matmul_rounded_apply _ none .bf16 bitsLt_bf16_f32 bitsLt_bf16_f32 X Wt a b

/-- The whole product. -/
def prodAll0 (x : S50000x128.Idx → EReal) (w : S128x128.Idx → EReal) : S50000x128.Idx → EReal :=
  fun i => ∑ c : Fin 128, x (ix2 (i 0) c) * w (ix2 c (i 1))

/-- The printed index maps over the grid: x's and the output's blocks move together down the rows, the weights'
    block stays. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem prodPay0_at (X : Vec Ideal S5000x128 .f32) (Wt : Vec Ideal S128x128 .f32) (j : S5000x128.Idx) :
    k0_pay1 (F := Ideal) X Wt j = ∑ c : Fin 128, X (ix2 (j 0) c) * Wt (ix2 c (j 1)) := by
  have e : j = ix2 (j 0) (j 1) := eq_ix2 j
  conv_lhs => rw [e]
  exact prodPay0_apply X Wt (j 0) (j 1)

/-- WHAT POINT t WRITES BACK is block t of the whole product of the arrays the call found. -/
theorem prodFlushed0 (c : Dev nD) (t : Fin cfg0.N) :
    (dat0 V c).flushed 2 t = ((cfg0.win 2).blk t).view.read (Elt Ideal) (prodAll0 (V c main_arg0) (V c main_arg2)) := by
  show (cfg0.win 2).cut (grid0.coords t) ((dat0 V c).after 2 t) = _
  rw [dat0_after_2]
  unfold prod0
  rw [View.canon_unit_zero origin2]
  simp only [View.ld_unit_zero (S := S5000x128) origin2, View.ld_unit_zero (S := S128x128) origin2]
  obtain ⟨e00, e01, e10, e11, e20, e21⟩ := where0 t
  funext j
  show k0_pay1 (F := Ideal) (blk0 V c 0 t) (blk0 V c 1 t) j = prodAll0 (V c main_arg0) (V c main_arg2) (((cfg0.win 2).blk t).view.emb j)
  refine (prodPay0_at _ _ j).trans ?_
  unfold prodAll0
  refine Finset.sum_congr rfl fun k _ => ?_
  have hx : blk0 V c 0 t (ix2 (j 0) k) = V c main_arg0 (ix2 ((((cfg0.win 2).blk t).view.emb j) 0) k) := by
    show V c main_arg0 (((cfg0.win 0).blk t).view.emb (ix2 (j 0) k)) = _
    refine congrArg _ ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : blk0 V c 1 t (ix2 k (j 1)) = V c main_arg2 (ix2 k ((((cfg0.win 2).blk t).view.emb j) 1)) := by
    show V c main_arg2 (((cfg0.win 1).blk t).view.emb (ix2 k (j 1))) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An index of the array is in point t's block iff each coordinate is in the block's range on its axis. -/
theorem inBlock0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- The ten blocks cover the array: row r is in the block of point r / 5000. -/
theorem covered0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 5000, by rw [show cfg0.N = 10 from N_0]; omega⟩, flush0_2 _, ?_⟩
  rw [inBlock0]
  obtain ⟨e00, e01, e10, e11, e20, e21⟩ := where0 ⟨(i 0).val / 5000, by rw [show cfg0.N = 10 from N_0]; omega⟩
  intro a
  match a with
  | ⟨0, _⟩ => show win0_2.index _ (0 : Fin 2) * 5000 ≤ (i 0).val ∧ (i 0).val < win0_2.index _ (0 : Fin 2) * 5000 + 5000; (try dsimp only at e20); omega
  | ⟨1, _⟩ => show win0_2.index _ (1 : Fin 2) * 128 ≤ (i 1).val ∧ (i 1).val < win0_2.index _ (1 : Fin 2) * 128 + 128; omega

/-- THE ARRAY after the call: the whole product of the arrays the call found. -/
theorem prodFinal0 (c : Dev nD) : (dat0 V c).arrAt 2 cfg0.N = prodAll0 (V c main_arg0) (V c main_arg2) :=
  (dat0 V c).arrAt_eq_of_cover 2 _ (fun t _ => prodFlushed0 V c t) covered0

end Cert.KernelIdeal.Hand

end
-- ==== Proof.Ideal.ProductValue3.lean ====
/-
  The feature product of layer two, read as a value at the ideal float instance. The body's stored block at row a
  and column b is the sum over c of x(a,c) · W(c,b) of the loaded blocks (rounding to a narrower format is the
  identity there); each grid point writes back rows 5000·t … 5000·t+4999 of the one array G(i) = Σ_c x(i₀,c) · W(c,i₁);
  the ten blocks cover the array, so after the call the output array is G of the arrays the call found.
-/
import proofs.«169495_j53601191854606_1_alg».proof.Proof.Ideal.Product3
import proofs.«169495_j53601191854606_1_alg».proof.Proof.LibDotNN
import proofs.«169495_j53601191854606_1_alg».proof.Proof.Ideal.ProductValue0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The stored block at (a, b): the sum of the products of the loaded entries. -/
theorem prodPay3_apply (X : Vec Ideal S5000x128 .f32) (Wt : Vec Ideal S128x128 .f32) (a : Fin 5000) (b : Fin 128) :
    k3_pay1 (F := Ideal) X Wt (ix2 a b) = ∑ c : Fin 128, X (ix2 a c) * Wt (ix2 c b) :=
  by
  unfold k3_pay1
  simp only [shapeCast_self]
  exact Cert.LibDotNN.matmul_rounded_apply _ none .bf16 bitsLt_bf16_f32 bitsLt_bf16_f32 X Wt a b

/-- The whole product. -/
def prodAll3 (x : S50000x128.Idx → EReal) (w : S128x128.Idx → EReal) : S50000x128.Idx → EReal :=
  fun i => ∑ c : Fin 128, x (ix2 (i 0) c) * w (ix2 c (i 1))

/-- The printed index maps over the grid: x's and the output's blocks move together down the rows, the weights'
    block stays. -/
theorem where3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem prodPay3_at (X : Vec Ideal S5000x128 .f32) (Wt : Vec Ideal S128x128 .f32) (j : S5000x128.Idx) :
    k3_pay1 (F := Ideal) X Wt j = ∑ c : Fin 128, X (ix2 (j 0) c) * Wt (ix2 c (j 1)) := by
  have e : j = ix2 (j 0) (j 1) := eq_ix2 j
  conv_lhs => rw [e]
  exact prodPay3_apply X Wt (j 0) (j 1)

/-- WHAT POINT t WRITES BACK is block t of the whole product of the arrays the call found. -/
theorem prodFlushed3 (c : Dev nD) (t : Fin cfg3.N) :
    (dat3 V c).flushed 2 t = ((cfg3.win 2).blk t).view.read (Elt Ideal) (prodAll3 (V c main_v45) (V c main_arg6)) := by
  show (cfg3.win 2).cut (grid3.coords t) ((dat3 V c).after 2 t) = _
  rw [dat3_after_2]
  unfold prod3
  rw [View.canon_unit_zero origin2]
  simp only [View.ld_unit_zero (S := S5000x128) origin2, View.ld_unit_zero (S := S128x128) origin2]
  obtain ⟨e00, e01, e10, e11, e20, e21⟩ := where3 t
  funext j
  show k3_pay1 (F := Ideal) (blk3 V c 0 t) (blk3 V c 1 t) j = prodAll3 (V c main_v45) (V c main_arg6) (((cfg3.win 2).blk t).view.emb j)
  refine (prodPay3_at _ _ j).trans ?_
  unfold prodAll3
  refine Finset.sum_congr rfl fun k _ => ?_
  have hx : blk3 V c 0 t (ix2 (j 0) k) = V c main_v45 (ix2 ((((cfg3.win 2).blk t).view.emb j) 0) k) := by
    show V c main_v45 (((cfg3.win 0).blk t).view.emb (ix2 (j 0) k)) = _
    refine congrArg _ ?_
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  have hw : blk3 V c 1 t (ix2 k (j 1)) = V c main_arg6 (ix2 k ((((cfg3.win 2).blk t).view.emb j) 1)) := by
    show V c main_arg6 (((cfg3.win 1).blk t).view.emb (ix2 k (j 1))) = _
    refine congrArg _ ?_
    funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  rw [hx, hw]

/-- An index of the array is in point t's block iff each coordinate is in the block's range on its axis. -/
theorem inBlock3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v46).slice (win3_2.rect t)).set ↔ _
  rw [View.set_slice_whole, Rect.mem_set_unit]
  exact Iff.rfl

/-- The ten blocks cover the array: row r is in the block of point r / 5000. -/
theorem covered3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  refine ⟨⟨(i 0).val / 5000, by rw [show cfg3.N = 10 from N_3]; omega⟩, flush3_2 _, ?_⟩
  rw [inBlock3]
  obtain ⟨e00, e01, e10, e11, e20, e21⟩ := where3 ⟨(i 0).val / 5000, by rw [show cfg3.N = 10 from N_3]; omega⟩
  intro a
  match a with
  | ⟨0, _⟩ => show win3_2.index _ (0 : Fin 2) * 5000 ≤ (i 0).val ∧ (i 0).val < win3_2.index _ (0 : Fin 2) * 5000 + 5000; (try dsimp only at e20); omega
  | ⟨1, _⟩ => show win3_2.index _ (1 : Fin 2) * 128 ≤ (i 1).val ∧ (i 1).val < win3_2.index _ (1 : Fin 2) * 128 + 128; omega

/-- THE ARRAY after the call: the whole product of the arrays the call found. -/
theorem prodFinal3 (c : Dev nD) : (dat3 V c).arrAt 2 cfg3.N = prodAll3 (V c main_v45) (V c main_arg6) :=
  (dat3 V c).arrAt_eq_of_cover 2 _ (fun t _ => prodFlushed3 V c t) covered3

end Cert.KernelIdeal.Hand

end
-- ==== Proof.Ideal.ProductValue6.lean ====
/-
  The feature product of layer three, read as a value at the ideal float instance. The body's stored block at row a
  and column b is the sum over c of x(a,c) · W(c,b) of the loaded blocks (rounding to a narrower format is the
  identity there); each grid point writes back rows 5000·t … 5000·t+4999 of the one array G(i) = Σ_c x(i₀,c) · W(c,i₁);
  the ten blocks cover the array, so after the call the output array is G of the arrays the call found.
-/
import proofs.«169495_j53601191854606_1_alg».proof.Proof.Ideal.Product6
import proofs.«169495_j53601191854606_1_alg».proof.Proof.LibDotNN
import proofs.«169495_j53601191854606_1_alg».proof.Proof.Ideal.ProductValue0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The stored block at (a, b): the sum of the products of the loaded entries. -/
theorem prodPay6_apply (X : Vec Ideal S5000x128 .f32) (Wt : Vec Ideal S128x64 .f32) (a : Fin 5000) (b : Fin 64) :
    k6_pay1 (F := Ideal) X Wt (ix2 a b) = ∑ c : Fin 128, X (ix2 a c) * Wt (ix2 c b) :=
  by
  unfold k6_pay1
  simp only [shapeCast_self]
  exact Cert.LibDotNN.matmul_rounded_apply _ none .bf16 bitsLt_bf16_f32 bitsLt_bf16_f32 X Wt a b

/-- The whole product. -/
def prodAll6 (x : S50000x128.Idx → EReal) (w : S128x64.Idx → EReal) : S50000x64.Idx → EReal :=
  fun i => ∑ c : Fin 128, x (ix2 (i 0) c) * w (ix2 c (i 1))

/-- The printed index maps over the grid: x's and the output's blocks move together down the rows, the weights'
    block stays. -/
theorem where6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem prodPay6_at (X : Vec Ideal S5000x128 .f32) (Wt : Vec Ideal S128x64 .f32) (j : S5000x64.Idx) :
    k6_pay1 (F := Ideal) X Wt j = ∑ c : Fin 128, X (ix2 (j 0) c) * Wt (ix2 c (j 1)) := by
  have e : j = ix2 (j 0) (j 1) := eq_ix2 j
  conv_lhs => rw [e]
  exact prodPay6_apply X Wt (j 0) (j 1)

/-- WHAT POINT t WRITES BACK is block t of the whole product of the arrays the call found. -/
theorem prodFlushed6 (c : Dev nD) (t : Fin cfg6.N) :
    (dat6 V c).flushed 2 t = ((cfg6.win 2).blk t).view.read (Elt Ideal) (prodAll6 (V c main_v64) (V c main_arg10)) := by
  show (cfg6.win 2).cut (grid6.coords t) ((dat6 V c).after 2 t) = _
  rw [dat6_after_2]
  unfold prod6
  rw [View.canon_unit_zero origin2]
  simp only [View.ld_unit_zero (S := S5000x128) origin2, View.ld_unit_zero (S := S128x64) origin2, View.ld_unit_zero (S := S5000x64) origin2]
  obtain ⟨e00, e01, e10, e11, e20, e21⟩ := where6 t
  funext j
  show k6_pay1 (F := Ideal) (blk6 V c 0 t) (blk6 V c 1 t) j = prodAll6 (V c main_v64) (V c main_arg10) (((cfg6.win 2).blk t).view.emb j)
  refine (prodPay6_at _ _ j).trans ?_
  unfold prodAll6
  refine Finset.sum_congr rfl fun k _ => ?_
  have hx : blk6 V c 0 t (ix2 (j 0) k) = V c main_v64 (ix2 ((((cfg6.win 2).blk t).view.emb j) 0) k) := by
    show V c main_v64 (((cfg6.win 0).blk t).view.emb (ix2 (j 0) k)) = _
    refine congrArg _ ?_
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  have hw : blk6 V c 1 t (ix2 k (j 1)) = V c main_arg10 (ix2 k ((((cfg6.win 2).blk t).view.emb j) 1)) := by
    show V c main_arg10 (((cfg6.win 1).blk t).view.emb (ix2 k (j 1))) = _
    refine congrArg _ ?_
    funext a; apply Fin.ext
    match a with
    | ⟨0, _⟩ => show win6_1.index t (0 : Fin 2) * 128 + 1 * k.val = k.val; omega
    | ⟨1, _⟩ => show win6_1.index t (1 : Fin 2) * 64 + 1 * (j 1).val = win6_2.index t (1 : Fin 2) * 64 + 1 * (j 1).val; omega
  rw [hx, hw]

/-- An index of the array is in point t's block iff each coordinate is in the block's range on its axis. -/
theorem inBlock6 (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v65).slice (win6_2.rect t)).set ↔ _
  rw [View.set_slice_whole, Rect.mem_set_unit]
  exact Iff.rfl

/-- The ten blocks cover the array: row r is in the block of point r / 5000. -/
theorem covered6 (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  refine ⟨⟨(i 0).val / 5000, by rw [show cfg6.N = 10 from N_6]; omega⟩, flush6_2 _, ?_⟩
  rw [inBlock6]
  obtain ⟨e00, e01, e10, e11, e20, e21⟩ := where6 ⟨(i 0).val / 5000, by rw [show cfg6.N = 10 from N_6]; omega⟩
  intro a
  match a with
  | ⟨0, _⟩ => show win6_2.index _ (0 : Fin 2) * 5000 ≤ (i 0).val ∧ (i 0).val < win6_2.index _ (0 : Fin 2) * 5000 + 5000; (try dsimp only at e20); omega
  | ⟨1, _⟩ => show win6_2.index _ (1 : Fin 2) * 64 ≤ (i 1).val ∧ (i 1).val < win6_2.index _ (1 : Fin 2) * 64 + 64; omega

/-- THE ARRAY after the call: the whole product of the arrays the call found. -/
theorem prodFinal6 (c : Dev nD) : (dat6 V c).arrAt 2 cfg6.N = prodAll6 (V c main_v64) (V c main_arg10) :=
  (dat6 V c).arrAt_eq_of_cover 2 _ (fun t _ => prodFlushed6 V c t) covered6

end Cert.KernelIdeal.Hand

end
-- ==== Proof.Ideal.Stats1PiecesFirst.lean ====
/-
  The combine-and-statistics call of layer one, the first grid point: what its run stores, named. The combined block is the
  payload of the loaded input blocks; each accumulator is the payload adding the block's column sums to what it held
  (zero at the first point); at the last point the mean and the variance buffers are the payloads of the two
  accumulators as just updated.
-/
import proofs.«169495_j53601191854606_1_alg».proof.Proof.Ideal.Stats1Cases
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
theorem origin2s : (![0, 0] : Fin 2 → Nat) = fun _ => 0 := funext fun a => by fin_cases a <;> rfl

set_option maxHeartbeats 1600000 in
theorem first1_pre (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst1 i) (hc1 : ¬atLast1 i) (x1 : Vec F S5000x128 .f32) (x2 : Vec F S5000x128 .f32) (x3 : Vec F S5000x1 .f32) (x4 : Vec F S1x128 .f32) :
    (first1 c i arg1 harg1 arg2 harg2 arg3 harg3 arg4 harg4 arg5 harg5 arg6 harg6 arg7 harg7 arg8 harg8 arg9 harg9 hc0 hc1 x1 x2 x3 x4).pre = k1_pay5 x3 x1 x2 x4 := by
  unfold first1; dsimp only
  rw [View.read_writes_eq_canon _ _ _ (cover_first_pre c i arg1 harg1 arg2 harg2 arg3 harg3 arg4 harg4 arg5 harg5 arg6 harg6 arg7 harg7 arg8 harg8 arg9 harg9 hc0 hc1 x1 x2 x3 x4)]
  unfold runFirst1; dsimp only
  sl_unfold_words
  first | rw [View.canon_unit_zero origin2s] | rw [View.canon_cons_unit_zero origin2s]
  simp only [View.readCov_unit_zero (S := S1x128) _ origin2s, View.readAt_eq_ld, harg1.read_unread, harg2.read_unread, harg3.read_unread, harg4.read_unread, harg8.read_unread, harg9.read_unread,
    View.ld_unit_zero (S := S5000x128) origin2s, View.ld_unit_zero (S := S5000x1) origin2s, View.ld_unit_zero (S := S1x128) origin2s]
set_option maxHeartbeats 1600000 in
theorem first1_sum (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst1 i) (hc1 : ¬atLast1 i) (x1 : Vec F S5000x128 .f32) (x2 : Vec F S5000x128 .f32) (x3 : Vec F S5000x1 .f32) (x4 : Vec F S1x128 .f32) :
    (first1 c i arg1 harg1 arg2 harg2 arg3 harg3 arg4 harg4 arg5 harg5 arg6 harg6 arg7 harg7 arg8 harg8 arg9 harg9 hc0 hc1 x1 x2 x3 x4).sum = k1_pay6 x3 x1 x2 x4 (k1_pay3 (F := F)) := by
  unfold first1; dsimp only
  rw [View.read_writes_eq_canon _ _ _ (cover_first_sum c i arg1 harg1 arg2 harg2 arg3 harg3 arg4 harg4 arg5 harg5 arg6 harg6 arg7 harg7 arg8 harg8 arg9 harg9 hc0 hc1 x1 x2 x3 x4)]
  unfold runFirst1; dsimp only
  sl_unfold_words
  first | rw [View.canon_unit_zero origin2s] | rw [View.canon_cons_unit_zero origin2s]
  simp only [View.readCov_unit_zero (S := S1x128) _ origin2s, View.readAt_eq_ld, harg1.read_unread, harg2.read_unread, harg3.read_unread, harg4.read_unread, harg8.read_unread, harg9.read_unread,
    View.ld_unit_zero (S := S5000x128) origin2s, View.ld_unit_zero (S := S5000x1) origin2s, View.ld_unit_zero (S := S1x128) origin2s]
set_option maxHeartbeats 1600000 in
theorem first1_sq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst1 i) (hc1 : ¬atLast1 i) (x1 : Vec F S5000x128 .f32) (x2 : Vec F S5000x128 .f32) (x3 : Vec F S5000x1 .f32) (x4 : Vec F S1x128 .f32) :
    (first1 c i arg1 harg1 arg2 harg2 arg3 harg3 arg4 harg4 arg5 harg5 arg6 harg6 arg7 harg7 arg8 harg8 arg9 harg9 hc0 hc1 x1 x2 x3 x4).sq = k1_pay7 x3 x1 x2 x4 (k1_pay4 (F := F)) := by
  unfold first1; dsimp only
  rw [View.read_writes_eq_canon _ _ _ (cover_first_sq c i arg1 harg1 arg2 harg2 arg3 harg3 arg4 harg4 arg5 harg5 arg6 harg6 arg7 harg7 arg8 harg8 arg9 harg9 hc0 hc1 x1 x2 x3 x4)]
  unfold runFirst1; dsimp only
  sl_unfold_words
  first | rw [View.canon_unit_zero origin2s] | rw [View.canon_cons_unit_zero origin2s]
  simp only [View.readCov_unit_zero (S := S1x128) _ origin2s, View.readAt_eq_ld, harg1.read_unread, harg2.read_unread, harg3.read_unread, harg4.read_unread, harg8.read_unread, harg9.read_unread,
    View.ld_unit_zero (S := S5000x128) origin2s, View.ld_unit_zero (S := S5000x1) origin2s, View.ld_unit_zero (S := S1x128) origin2s]

end Cert.KernelIdeal.Hand

end
-- ==== Proof.Ideal.Stats1PiecesMid.lean ====
/-
  The combine-and-statistics call of layer one, a middle grid point: what its run stores, named. The combined block is the
  payload of the loaded input blocks; each accumulator is the payload adding the block's column sums to what it held
  (zero at the first point); at the last point the mean and the variance buffers are the payloads of the two
  accumulators as just updated.
-/
import proofs.«169495_j53601191854606_1_alg».proof.Proof.Ideal.Stats1Cases
import proofs.«169495_j53601191854606_1_alg».proof.Proof.Ideal.Stats1PiecesFirst
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 1600000 in
theorem mid1_pre (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : ¬atLast1 i) (x1 : Vec F S5000x128 .f32) (x2 : Vec F S5000x128 .f32) (x3 : Vec F S5000x1 .f32) (x4 : Vec F S1x128 .f32) (s8 : Vec F S1x128 .f32) (s9 : Vec F S1x128 .f32) :
    (mid1 c i arg1 harg1 arg2 harg2 arg3 harg3 arg4 harg4 arg5 harg5 arg6 harg6 arg7 harg7 arg8 harg8 arg9 harg9 hc0 hc1 x1 x2 x3 x4 s8 s9).pre = k1_pay5 x3 x1 x2 x4 := by
  unfold mid1; dsimp only
  rw [View.read_writes_eq_canon _ _ _ (cover_mid_pre c i arg1 harg1 arg2 harg2 arg3 harg3 arg4 harg4 arg5 harg5 arg6 harg6 arg7 harg7 arg8 harg8 arg9 harg9 hc0 hc1 x1 x2 x3 x4 s8 s9)]
  unfold runMid1; dsimp only
  sl_unfold_words
  first | rw [View.canon_unit_zero origin2s] | rw [View.canon_cons_unit_zero origin2s]
  simp only [View.readCov_unit_zero (S := S1x128) _ origin2s, View.readAt_eq_ld, harg1.read_unread, harg2.read_unread, harg3.read_unread, harg4.read_unread, harg8.read_unread, harg9.read_unread,
    View.ld_unit_zero (S := S5000x128) origin2s, View.ld_unit_zero (S := S5000x1) origin2s, View.ld_unit_zero (S := S1x128) origin2s]
set_option maxHeartbeats 1600000 in
theorem mid1_sum (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : ¬atLast1 i) (x1 : Vec F S5000x128 .f32) (x2 : Vec F S5000x128 .f32) (x3 : Vec F S5000x1 .f32) (x4 : Vec F S1x128 .f32) (s8 : Vec F S1x128 .f32) (s9 : Vec F S1x128 .f32) :
    (mid1 c i arg1 harg1 arg2 harg2 arg3 harg3 arg4 harg4 arg5 harg5 arg6 harg6 arg7 harg7 arg8 harg8 arg9 harg9 hc0 hc1 x1 x2 x3 x4 s8 s9).sum = k1_pay6 x3 x1 x2 x4 s8 := by
  unfold mid1; dsimp only
  rw [View.read_writes_eq_canon _ _ _ (cover_mid_sum c i arg1 harg1 arg2 harg2 arg3 harg3 arg4 harg4 arg5 harg5 arg6 harg6 arg7 harg7 arg8 harg8 arg9 harg9 hc0 hc1 x1 x2 x3 x4 s8 s9)]
  unfold runMid1; dsimp only
  sl_unfold_words
  first | rw [View.canon_unit_zero origin2s] | rw [View.canon_cons_unit_zero origin2s]
  simp only [View.readCov_unit_zero (S := S1x128) _ origin2s, View.readAt_eq_ld, harg1.read_unread, harg2.read_unread, harg3.read_unread, harg4.read_unread, harg8.read_unread, harg9.read_unread,
    View.ld_unit_zero (S := S5000x128) origin2s, View.ld_unit_zero (S := S5000x1) origin2s, View.ld_unit_zero (S := S1x128) origin2s]
set_option maxHeartbeats 1600000 in
theorem mid1_sq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : ¬atLast1 i) (x1 : Vec F S5000x128 .f32) (x2 : Vec F S5000x128 .f32) (x3 : Vec F S5000x1 .f32) (x4 : Vec F S1x128 .f32) (s8 : Vec F S1x128 .f32) (s9 : Vec F S1x128 .f32) :
    (mid1 c i arg1 harg1 arg2 harg2 arg3 harg3 arg4 harg4 arg5 harg5 arg6 harg6 arg7 harg7 arg8 harg8 arg9 harg9 hc0 hc1 x1 x2 x3 x4 s8 s9).sq = k1_pay7 x3 x1 x2 x4 s9 := by
  unfold mid1; dsimp only
  rw [View.read_writes_eq_canon _ _ _ (cover_mid_sq c i arg1 harg1 arg2 harg2 arg3 harg3 arg4 harg4 arg5 harg5 arg6 harg6 arg7 harg7 arg8 harg8 arg9 harg9 hc0 hc1 x1 x2 x3 x4 s8 s9)]
  unfold runMid1; dsimp only
  sl_unfold_words
  first | rw [View.canon_unit_zero origin2s] | rw [View.canon_cons_unit_zero origin2s]
  simp only [View.readCov_unit_zero (S := S1x128) _ origin2s, View.readAt_eq_ld, harg1.read_unread, harg2.read_unread, harg3.read_unread, harg4.read_unread, harg8.read_unread, harg9.read_unread,
    View.ld_unit_zero (S := S5000x128) origin2s, View.ld_unit_zero (S := S5000x1) origin2s, View.ld_unit_zero (S := S1x128) origin2s]

end Cert.KernelIdeal.Hand

end
-- ==== Proof.Ideal.Stats1PiecesLast.lean ====
/-
  The combine-and-statistics call of layer one, the last grid point: what its run stores, named. The combined block is the
  payload of the loaded input blocks; each accumulator is the payload adding the block's column sums to what it held
  (zero at the first point); at the last point the mean and the variance buffers are the payloads of the two
  accumulators as just updated.
-/
import proofs.«169495_j53601191854606_1_alg».proof.Proof.Ideal.Stats1Cases
import proofs.«169495_j53601191854606_1_alg».proof.Proof.Ideal.Stats1PiecesFirst
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 1600000 in
theorem last1_pre (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) :
    (last1 c i arg1 harg1 arg2 harg2 arg3 harg3 arg4 harg4 arg5 harg5 arg6 harg6 arg7 harg7 arg8 harg8 arg9 harg9 hc0 hc1 x1 x2 x3 x4 s8 s9).pre = k1_pay5 x3 x1 x2 x4 := by
  unfold last1; dsimp only
  rw [View.read_writes_eq_canon _ _ _ (cover_last_pre c i arg1 harg1 arg2 harg2 arg3 harg3 arg4 harg4 arg5 harg5 arg6 harg6 arg7 harg7 arg8 harg8 arg9 harg9 hc0 hc1 x1 x2 x3 x4 s8 s9)]
  unfold runLast1; dsimp only
  sl_unfold_words
  first | rw [View.canon_unit_zero origin2s] | rw [View.canon_cons_unit_zero origin2s]
  simp only [View.readCov_unit_zero (S := S1x128) _ origin2s, View.readAt_eq_ld, harg1.read_unread, harg2.read_unread, harg3.read_unread, harg4.read_unread, harg8.read_unread, harg9.read_unread,
    View.ld_unit_zero (S := S5000x128) origin2s, View.ld_unit_zero (S := S5000x1) origin2s, View.ld_unit_zero (S := S1x128) origin2s]
set_option maxHeartbeats 1600000 in
theorem last1_sum (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) :
    (last1 c i arg1 harg1 arg2 harg2 arg3 harg3 arg4 harg4 arg5 harg5 arg6 harg6 arg7 harg7 arg8 harg8 arg9 harg9 hc0 hc1 x1 x2 x3 x4 s8 s9).sum = k1_pay6 x3 x1 x2 x4 s8 := by
  unfold last1; dsimp only
  rw [View.read_writes_eq_canon _ _ _ (cover_last_sum c i arg1 harg1 arg2 harg2 arg3 harg3 arg4 harg4 arg5 harg5 arg6 harg6 arg7 harg7 arg8 harg8 arg9 harg9 hc0 hc1 x1 x2 x3 x4 s8 s9)]
  unfold runLast1; dsimp only
  sl_unfold_words
  first | rw [View.canon_unit_zero origin2s] | rw [View.canon_cons_unit_zero origin2s]
  simp only [View.readCov_unit_zero (S := S1x128) _ origin2s, View.readAt_eq_ld, harg1.read_unread, harg2.read_unread, harg3.read_unread, harg4.read_unread, harg8.read_unread, harg9.read_unread,
    View.ld_unit_zero (S := S5000x128) origin2s, View.ld_unit_zero (S := S5000x1) origin2s, View.ld_unit_zero (S := S1x128) origin2s]
set_option maxHeartbeats 1600000 in
theorem last1_sq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) :
    (last1 c i arg1 harg1 arg2 harg2 arg3 harg3 arg4 harg4 arg5 harg5 arg6 harg6 arg7 harg7 arg8 harg8 arg9 harg9 hc0 hc1 x1 x2 x3 x4 s8 s9).sq = k1_pay7 x3 x1 x2 x4 s9 := by
  unfold last1; dsimp only
  rw [View.read_writes_eq_canon _ _ _ (cover_last_sq c i arg1 harg1 arg2 harg2 arg3 harg3 arg4 harg4 arg5 harg5 arg6 harg6 arg7 harg7 arg8 harg8 arg9 harg9 hc0 hc1 x1 x2 x3 x4 s8 s9)]
  unfold runLast1; dsimp only
  sl_unfold_words
  first | rw [View.canon_unit_zero origin2s] | rw [View.canon_cons_unit_zero origin2s]
  simp only [View.readCov_unit_zero (S := S1x128) _ origin2s, View.readAt_eq_ld, harg1.read_unread, harg2.read_unread, harg3.read_unread, harg4.read_unread, harg8.read_unread, harg9.read_unread,
    View.ld_unit_zero (S := S5000x128) origin2s, View.ld_unit_zero (S := S5000x1) origin2s, View.ld_unit_zero (S := S1x128) origin2s]
set_option maxHeartbeats 1600000 in
theorem last1_mean (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) :
    (last1 c i arg1 harg1 arg2 harg2 arg3 harg3 arg4 harg4 arg5 harg5 arg6 harg6 arg7 harg7 arg8 harg8 arg9 harg9 hc0 hc1 x1 x2 x3 x4 s8 s9).mean = k1_pay1 (k1_pay6 x3 x1 x2 x4 s8) := by
  unfold last1; dsimp only
  rw [View.read_writes_eq_canon _ _ _ (cover_last_mean c i arg1 harg1 arg2 harg2 arg3 harg3 arg4 harg4 arg5 harg5 arg6 harg6 arg7 harg7 arg8 harg8 arg9 harg9 hc0 hc1 x1 x2 x3 x4 s8 s9)]
  unfold runLast1; dsimp only
  sl_unfold_words
  first | rw [View.canon_unit_zero origin2s] | rw [View.canon_cons_unit_zero origin2s]
  simp only [View.readCov_unit_zero (S := S1x128) _ origin2s, View.readAt_eq_ld, harg1.read_unread, harg2.read_unread, harg3.read_unread, harg4.read_unread, harg8.read_unread, harg9.read_unread,
    View.ld_unit_zero (S := S5000x128) origin2s, View.ld_unit_zero (S := S5000x1) origin2s, View.ld_unit_zero (S := S1x128) origin2s]
set_option maxHeartbeats 1600000 in
theorem last1_var (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst1 i) (hc1 : atLast1 i) (x1 : Vec F S5000x128 .f32) (x2 : Vec F S5000x128 .f32) (x3 : Vec F S5000x1 .f32) (x4 : Vec F S1x128 .f32) (s8 : Vec F S1x128 .f32) (s9 : Vec F S1x128 .f32) :
    (last1 c i arg1 harg1 arg2 harg2 arg3 harg3 arg4 harg4 arg5 harg5 arg6 harg6 arg7 harg7 arg8 harg8 arg9 harg9 hc0 hc1 x1 x2 x3 x4 s8 s9).var = k1_pay2 (k1_pay6 x3 x1 x2 x4 s8) (k1_pay7 x3 x1 x2 x4 s9) := by
  unfold last1; dsimp only
  rw [View.read_writes_eq_canon _ _ _ (cover_last_var c i arg1 harg1 arg2 harg2 arg3 harg3 arg4 harg4 arg5 harg5 arg6 harg6 arg7 harg7 arg8 harg8 arg9 harg9 hc0 hc1 x1 x2 x3 x4 s8 s9)]
  unfold runLast1; dsimp only
  sl_unfold_words
  first | rw [View.canon_unit_zero origin2s] | rw [View.canon_cons_unit_zero origin2s]
  simp only [View.readCov_unit_zero (S := S1x128) _ origin2s, View.readAt_eq_ld, harg1.read_unread, harg2.read_unread, harg3.read_unread, harg4.read_unread, harg8.read_unread, harg9.read_unread,
    View.ld_unit_zero (S := S5000x128) origin2s, View.ld_unit_zero (S := S5000x1) origin2s, View.ld_unit_zero (S := S1x128) origin2s]

end Cert.KernelIdeal.Hand

end
-- ==== Proof.Ideal.Stats1Payloads.lean ====
/-
  The combine-and-statistics body of layer one, its payloads read at an index at the ideal float instance: the
  combined entry (agg + h · d²) + b; an accumulator's entry after a point, what it held plus the block's column sum
  (of the combined entries, or of their squares); the mean, the accumulated sum over 50000; the variance, the
  accumulated sum of squares over 50000 less the squared mean; and the zeroed accumulator, 0.
-/
import proofs.«169495_j53601191854606_1_alg».proof.Proof.Ideal.Stats1Cases
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- A one-column array repeated along 128 columns, read at (a, b): the column's entry at row a. -/
theorem colBcast1 {α : Type} (v : S5000x1.Idx → α) (a : Fin 5000) (b : Fin 128) :
    broadcastTo S5000x128 v broadcasts_S5000x1_S5000x128 (ix2 a b) = v (ix2 a 0) :=
  broadcastTo_apply v _ (ix2 a b) (ix2 a 0) (fun d => by
    match d with
    | ⟨0, _⟩ => rfl
    | ⟨1, _⟩ => rfl)

/-- A one-row array repeated down 5000 rows, read at (a, b): the row's entry at column b. -/
theorem rowBcast1 {α : Type} (v : S1x128.Idx → α) (a : Fin 5000) (b : Fin 128) :
    broadcastTo S5000x128 v broadcasts_S1x128_S5000x128 (ix2 a b) = v (ix2 0 b) :=
  broadcastTo_apply v _ (ix2 a b) (ix2 0 b) (fun d => by
    match d with
    | ⟨0, _⟩ => rfl
    | ⟨1, _⟩ => rfl)

/-- The index over column t whose coordinate on the summed row axis is k is (k, t). -/
theorem rowLift {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Row 0, column b of a one-row array is entry b of the vector it was cast from. -/
theorem vecRow (b : Fin 128) : (fun a : Fin 1 => (ix2 (0 : Fin 1) b) a.succ) = ix1 b := by
  funext a; apply Fin.ext
  fin_cases a; rfl

theorem combine1_apply (v3 : Vec Ideal S5000x1 .f32) (v5 v7 : Vec Ideal S5000x128 .f32) (v13 : Vec Ideal S1x128 .f32) (a : Fin 5000) (b : Fin 128) :
    k1_pay5 (F := Ideal) v3 v5 v7 v13 (ix2 a b) = (v5 (ix2 a b) + v7 (ix2 a b) * (v3 (ix2 a 0) * v3 (ix2 a 0))) + v13 (ix2 0 b) := by
  unfold k1_pay5
  simp only [addf_apply, mulf_apply, shapeCast_self, colBcast1, rowBcast1]

/-- The column sum of a 5000-row block, cast to one row, read at column b. -/
theorem colSum_apply (X : FVec Ideal S5000x128 .f32) (hφ : FKind.Formats .f32) (hacc : (0x00000000#32 : BitVec 32) = FKind.add.neutral .f32 hφ) (b : Fin 128) :
    shapeCast S1x128 (multiReduction .add [0] S128 X 0x00000000#32 reduces_S5000x128_S128 hφ hacc) shapeCasts_S128_S1x128 (ix2 0 b)
      = ∑ a : Fin 5000, X (ix2 a b) := by
  rw [shapeCast_addUnit_apply, vecRow]
  refine (Ideal.multiReduction_add_single X _ reduces_S5000x128_S128 hφ hacc (ix1 b)).trans ?_
  exact Finset.sum_congr rfl fun k _ => congrArg X (rowLift reduces_S5000x128_S128 b k)

theorem sums1_apply (v3 : Vec Ideal S5000x1 .f32) (v5 v7 : Vec Ideal S5000x128 .f32) (v13 v18 : Vec Ideal S1x128 .f32) (b : Fin 128) :
    k1_pay6 (F := Ideal) v3 v5 v7 v13 v18 (ix2 0 b) = v18 (ix2 0 b) + ∑ a : Fin 5000, k1_pay5 (F := Ideal) v3 v5 v7 v13 (ix2 a b) := by
  unfold k1_pay6
  simp only [addf_apply, shapeCast_self]
  exact congrArg (fun z => v18 (ix2 0 b) + z) (colSum_apply _ _ _ b)

theorem squares1_apply (v3 : Vec Ideal S5000x1 .f32) (v5 v7 : Vec Ideal S5000x128 .f32) (v13 v25 : Vec Ideal S1x128 .f32) (b : Fin 128) :
    k1_pay7 (F := Ideal) v3 v5 v7 v13 v25 (ix2 0 b)
      = v25 (ix2 0 b) + ∑ a : Fin 5000, k1_pay5 (F := Ideal) v3 v5 v7 v13 (ix2 a b) * k1_pay5 (F := Ideal) v3 v5 v7 v13 (ix2 a b) := by
  unfold k1_pay7
  simp only [addf_apply, shapeCast_self]
  refine congrArg (fun z => v25 (ix2 0 b) + z) ((colSum_apply _ _ _ b).trans ?_)
  exact Finset.sum_congr rfl fun a _ => mulf_apply _ _ _

theorem mean1_apply (v36 : Vec Ideal S1x128 .f32) (b : Fin 128) :
    k1_pay1 (F := Ideal) v36 (ix2 0 b) = Ideal.div (v36 (ix2 0 b)) (Ideal.ofBits .f32 0x47435000#32) := by
  unfold k1_pay1
  simp only [divf_apply, broadcast_apply]
  rfl

theorem var1_apply (v36 v39 : Vec Ideal S1x128 .f32) (b : Fin 128) :
    k1_pay2 (F := Ideal) v36 v39 (ix2 0 b)
      = Ideal.div (v39 (ix2 0 b)) (Ideal.ofBits .f32 0x47435000#32) - k1_pay1 (F := Ideal) v36 (ix2 0 b) * k1_pay1 (F := Ideal) v36 (ix2 0 b) := by
  unfold k1_pay2
  simp only [subf_apply, mulf_apply, divf_apply, broadcast_apply]
  rfl

theorem zeroSum1_apply (j : S1x128.Idx) : k1_pay3 (F := Ideal) j = Ideal.ofBits .f32 0x00000000#32 := by
  unfold k1_pay3
  simp only [shapeCast_self, broadcast_apply]
  rfl

theorem zeroSq1_apply (j : S1x128.Idx) : k1_pay4 (F := Ideal) j = Ideal.ofBits .f32 0x00000000#32 := by
  unfold k1_pay4
  simp only [shapeCast_self, broadcast_apply]
  rfl

end Cert.KernelIdeal.Hand

end
-- ==== Proof.LibBlockSums.lean ====
/-
  Two facts about finite sums over initial segments of the naturals, in any commutative additive
  monoid (no subtraction, no order, no finiteness of the values is involved):

  * `sum_blocks`: summing `a` consecutive blocks of `b` consecutive naturals, block `p` being
    `b·p, …, b·p + b − 1`, is summing the first `a·b` naturals;
  * `sum_pad`: terms that vanish from `n` on may be dropped from a sum over the first `N ≥ n`
    naturals.

  Together they turn a sum accumulated block by block over a zero-padded range into the sum over
  the unpadded range.
-/
import Mathlib.Algebra.BigOperators.Fin
import Mathlib.Algebra.BigOperators.Intervals
import Mathlib.Logic.Equiv.Fin.Basic

open scoped BigOperators

namespace Cert.Lib.BlockSums

/-- A sum over `a` blocks of `b` consecutive naturals is the sum over all `a * b` of them. -/
theorem sum_blocks {M : Type*} [AddCommMonoid M] (a b : ℕ) (f : ℕ → M) :
    ∑ p ∈ Finset.range a, ∑ l : Fin b, f (b * p + l.val) = ∑ k : Fin (a * b), f k.val := by
  rw [← Fin.sum_univ_eq_sum_range (fun p => ∑ l : Fin b, f (b * p + l.val)) a,
    ← Equiv.sum_comp finProdFinEquiv (fun k : Fin (a * b) => f k.val), Fintype.sum_prod_type]
  refine Finset.sum_congr rfl fun p _ => Finset.sum_congr rfl fun l _ => ?_
  show f (b * p.val + l.val) = f (l.val + b * p.val)
  rw [Nat.add_comm]

/-- Terms that vanish from `n` on may be dropped from a sum over the first `N ≥ n` naturals. -/
theorem sum_pad {M : Type*} [AddCommMonoid M] (n N : ℕ) (hnN : n ≤ N) (f : ℕ → M)
    (hz : ∀ k, n ≤ k → k < N → f k = 0) : ∑ k : Fin N, f k.val = ∑ k : Fin n, f k.val := by
  rw [Fin.sum_univ_eq_sum_range f N, Fin.sum_univ_eq_sum_range f n]
  refine (Finset.sum_subset (Finset.range_mono hnN) fun k hk hk' => hz k ?_ ?_).symm
  · simpa using hk'
  · simpa using hk

end Cert.Lib.BlockSums
-- ==== Proof.Ideal.StatsValue1.lean ====
/-
  The combine-and-statistics call of layer one, read as values at the ideal float instance. Each grid point's
  combined block is rows 5000·t … 5000·t+4999 of one whole array pre = (agg + h · d²) + b of the arrays the call found.
  After point n each accumulator holds zero plus the column sums (of pre, of pre²) over the rows of points 0 … n; after
  the last point that is the sum over all 50000 rows, regrouping ten blocks of 5000. So the call leaves the whole pre
  array, and in the one-row windows the mean (Σ pre)/50000 and the variance (Σ pre²)/50000 − mean².
-/
import proofs.«169495_j53601191854606_1_alg».proof.Proof.Ideal.Stats1Body
import proofs.«169495_j53601191854606_1_alg».proof.Proof.Ideal.Stats1PiecesFirst
import proofs.«169495_j53601191854606_1_alg».proof.Proof.Ideal.Stats1PiecesMid
import proofs.«169495_j53601191854606_1_alg».proof.Proof.Ideal.Stats1PiecesLast
import proofs.«169495_j53601191854606_1_alg».proof.Proof.Ideal.Stats1Payloads
import proofs.«169495_j53601191854606_1_alg».proof.Proof.LibBlockSums
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The whole combined array. -/
def preAll1 (agg h : S50000x128.Idx → EReal) (d : S50000x1.Idx → EReal) (b : S1x128.Idx → EReal) : S50000x128.Idx → EReal :=
  fun i => (agg i + h i * (d (ix2 (i 0) 0) * d (ix2 (i 0) 0))) + b (ix2 0 (i 1))

/-- The batch mean per column, as one row. -/
def meanAll1 (pre : S50000x128.Idx → EReal) : S1x128.Idx → EReal :=
  fun j => Ideal.div ((Ideal.ofBits .f32 0x00000000#32) + ∑ p : Fin 50000, pre (ix2 p (j 1))) (Ideal.ofBits .f32 0x47435000#32)

/-- The one-pass variance per column, as one row. -/
def varAll1 (pre : S50000x128.Idx → EReal) : S1x128.Idx → EReal :=
  fun j => Ideal.div ((Ideal.ofBits .f32 0x00000000#32) + ∑ p : Fin 50000, pre (ix2 p (j 1)) * pre (ix2 p (j 1))) (Ideal.ofBits .f32 0x47435000#32) - meanAll1 pre j * meanAll1 pre j

theorem whereStats1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem rowIn1 (t : Fin cfg1.N) (a : Fin 5000) : 5000 * t.val + a.val < 50000 := by
  have hN : t.val < 10 := lt_of_lt_of_eq t.isLt tenPoints1
  have ha : a.val < 5000 := a.isLt
  omega

/-- The input blocks at point t read where the arrays hold them. -/
theorem aggBlock1 (c : Dev nD) (t : Fin cfg1.N) (a : Fin 5000) (b : Fin 128) :
    blk1 V c 0 t (ix2 a b) = V c main_v40 (ix2 ⟨5000 * t.val + a.val, rowIn1 t a⟩ b) := by
  obtain ⟨e00, e01, -⟩ := whereStats1 t
  show V c main_v40 (((cfg1.win 0).blk t).view.emb (ix2 a b)) = _
  refine congrArg _ ?_
  funext d; apply Fin.ext
  match d with
  | ⟨0, _⟩ => show win1_0.index t (0 : Fin 2) * 5000 + 1 * a.val = 5000 * t.val + a.val; omega
  | ⟨1, _⟩ => show win1_0.index t (1 : Fin 2) * 128 + 1 * b.val = b.val; omega

theorem hBlock1 (c : Dev nD) (t : Fin cfg1.N) (a : Fin 5000) (b : Fin 128) :
    blk1 V c 1 t (ix2 a b) = V c main_v27 (ix2 ⟨5000 * t.val + a.val, rowIn1 t a⟩ b) := by
  obtain ⟨-, -, e10, e11, -⟩ := whereStats1 t
  show V c main_v27 (((cfg1.win 1).blk t).view.emb (ix2 a b)) = _
  refine congrArg _ ?_
  funext d; apply Fin.ext
  match d with
  | ⟨0, _⟩ => show win1_1.index t (0 : Fin 2) * 5000 + 1 * a.val = 5000 * t.val + a.val; omega
  | ⟨1, _⟩ => show win1_1.index t (1 : Fin 2) * 128 + 1 * b.val = b.val; omega

theorem dBlock1 (c : Dev nD) (t : Fin cfg1.N) (a : Fin 5000) :
    blk1 V c 2 t (ix2 a 0) = V c main_v11 (ix2 ⟨5000 * t.val + a.val, rowIn1 t a⟩ 0) := by
  obtain ⟨-, -, -, -, e20, e21, -⟩ := whereStats1 t
  show V c main_v11 (((cfg1.win 2).blk t).view.emb (ix2 a 0)) = _
  refine congrArg _ ?_
  funext d; apply Fin.ext
  match d with
  | ⟨0, _⟩ => show win1_2.index t (0 : Fin 2) * 5000 + 1 * a.val = 5000 * t.val + a.val; omega
  | ⟨1, _⟩ => show win1_2.index t (1 : Fin 2) * 1 + 1 * 0 = 0; omega

theorem bBlock1 (c : Dev nD) (t : Fin cfg1.N) (b : Fin 128) :
    blk1 V c 3 t (ix2 0 b) = V c main_v41 (ix2 0 b) := by
  obtain ⟨-, -, -, -, -, -, e30, e31, -⟩ := whereStats1 t
  show V c main_v41 (((cfg1.win 3).blk t).view.emb (ix2 0 b)) = _
  refine congrArg _ ?_
  funext d; apply Fin.ext
  match d with
  | ⟨0, _⟩ => show win1_3.index t (0 : Fin 2) * 1 + 1 * 0 = 0; omega
  | ⟨1, _⟩ => show win1_3.index t (1 : Fin 2) * 128 + 1 * b.val = b.val; omega

/-- The combined block of point t at (a, b) is the whole combined array at row 5000·t + a. -/
theorem combineBlock1 (c : Dev nD) (t : Fin cfg1.N) (a : Fin 5000) (b : Fin 128) :
    k1_pay5 (F := Ideal) (blk1 V c 2 t) (blk1 V c 0 t) (blk1 V c 1 t) (blk1 V c 3 t) (ix2 a b)
      = preAll1 (V c main_v40) (V c main_v27) (V c main_v11) (V c main_v41) (ix2 ⟨5000 * t.val + a.val, rowIn1 t a⟩ b) := by
  rw [combine1_apply, aggBlock1, hBlock1, dBlock1, bBlock1]
  rfl

/-- What each point stores, named by its payload (whichever of the three cases the point is). -/
theorem preAt1 (c : Dev nD) (t : Fin cfg1.N) :
    (after1 V c t.val t.isLt).pre = k1_pay5 (F := Ideal) (blk1 V c 2 t) (blk1 V c 0 t) (blk1 V c 1 t) (blk1 V c 3 t) := by
  have hN : t.val < 10 := lt_of_lt_of_eq t.isLt tenPoints1
  by_cases h0 : t.val % 10 = 0
  · have h1 : ¬t.val % 10 = 9 := by omega
    rw [after1_first V c t h0 h1]
    exact first1_pre c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sumBuf1 (Memref.isWhole_whole _) sqBuf1 (Memref.isWhole_whole _) ((atFirst1_iff t).mpr h0) (fun h => h1 ((atLast1_iff t).mp h)) (blk1 V c 0 t) (blk1 V c 1 t) (blk1 V c 2 t) (blk1 V c 3 t)
  · by_cases h1 : t.val % 10 = 9
    · rw [after1_last V c t h0 h1]
      exact last1_pre c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sumBuf1 (Memref.isWhole_whole _) sqBuf1 (Memref.isWhole_whole _) (fun h => h0 ((atFirst1_iff t).mp h)) ((atLast1_iff t).mpr h1) (blk1 V c 0 t) (blk1 V c 1 t) (blk1 V c 2 t) (blk1 V c 3 t) _ _
    · rw [after1_mid V c t h0 h1]
      exact mid1_pre c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sumBuf1 (Memref.isWhole_whole _) sqBuf1 (Memref.isWhole_whole _) (fun h => h0 ((atFirst1_iff t).mp h)) (fun h => h1 ((atLast1_iff t).mp h)) (blk1 V c 0 t) (blk1 V c 1 t) (blk1 V c 2 t) (blk1 V c 3 t) _ _

/-- The accumulation's step equations, by position. -/
theorem after1_zero (c : Dev nD) (hn : 0 < cfg1.N) :
    after1 V c 0 hn = first1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) sumBuf1 (Memref.isWhole_whole _) sqBuf1 (Memref.isWhole_whole _)
      ((atFirst1_iff ⟨0, hn⟩).mpr (Nat.zero_mod _))
      (fun h => by have h9 := (atLast1_iff ⟨0, hn⟩).mp h; (try dsimp only at h9); omega) (blk1 V c 0 ⟨0, hn⟩) (blk1 V c 1 ⟨0, hn⟩) (blk1 V c 2 ⟨0, hn⟩) (blk1 V c 3 ⟨0, hn⟩) := rfl

theorem after1_succ_last (c : Dev nD) (n : ℕ) (hn : n + 1 < cfg1.N) (h1 : (n + 1) % 10 = 9) :
    after1 V c (n + 1) hn = last1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) sumBuf1 (Memref.isWhole_whole _) sqBuf1 (Memref.isWhole_whole _)
      (fun h => by have h0 := (atFirst1_iff ⟨n + 1, hn⟩).mp h; have hN : n + 1 < 10 := lt_of_lt_of_eq hn tenPoints1; (try dsimp only at h0); omega)
      ((atLast1_iff ⟨n + 1, hn⟩).mpr h1) (blk1 V c 0 ⟨n + 1, hn⟩) (blk1 V c 1 ⟨n + 1, hn⟩) (blk1 V c 2 ⟨n + 1, hn⟩) (blk1 V c 3 ⟨n + 1, hn⟩)
      (after1 V c n (Nat.lt_of_succ_lt hn)).sum (after1 V c n (Nat.lt_of_succ_lt hn)).sq := dif_pos h1

theorem after1_succ_mid (c : Dev nD) (n : ℕ) (hn : n + 1 < cfg1.N) (h1 : ¬(n + 1) % 10 = 9) :
    after1 V c (n + 1) hn = mid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) sumBuf1 (Memref.isWhole_whole _) sqBuf1 (Memref.isWhole_whole _)
      (fun h => by have h0 := (atFirst1_iff ⟨n + 1, hn⟩).mp h; have hN : n + 1 < 10 := lt_of_lt_of_eq hn tenPoints1; (try dsimp only at h0); omega)
      (fun h => h1 ((atLast1_iff ⟨n + 1, hn⟩).mp h)) (blk1 V c 0 ⟨n + 1, hn⟩) (blk1 V c 1 ⟨n + 1, hn⟩) (blk1 V c 2 ⟨n + 1, hn⟩) (blk1 V c 3 ⟨n + 1, hn⟩)
      (after1 V c n (Nat.lt_of_succ_lt hn)).sum (after1 V c n (Nat.lt_of_succ_lt hn)).sq := dif_neg h1

/-- Column b of an array over the 50000 rows, as a function of the row number (zero past the array). -/
def colAt1 (pre : S50000x128.Idx → EReal) (b : Fin 128) : ℕ → EReal :=
  fun k => if h : k < 50000 then pre (ix2 ⟨k, h⟩ b) else 0

/-- After point n the sum accumulator holds zero plus the column's entries over the rows of points 0 … n. -/
theorem sumAfter1 (c : Dev nD) (b : Fin 128) : ∀ (n : ℕ) (hn : n < cfg1.N),
    (after1 V c n hn).sum (ix2 0 b) = (Ideal.ofBits .f32 0x00000000#32) + ∑ p ∈ Finset.range (n + 1), ∑ l : Fin 5000, (colAt1 (preAll1 (V c main_v40) (V c main_v27) (V c main_v11) (V c main_v41)) b (5000 * p + l.val))
  | 0, hn => by
    refine (congrFun (first1_sum c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) sumBuf1 (Memref.isWhole_whole _) sqBuf1 (Memref.isWhole_whole _) _ _ (blk1 V c 0 ⟨0, hn⟩) (blk1 V c 1 ⟨0, hn⟩) (blk1 V c 2 ⟨0, hn⟩) (blk1 V c 3 ⟨0, hn⟩)) (ix2 0 b)).trans ?_
    rw [sums1_apply, zeroSum1_apply, Finset.sum_range_one]
    refine congrArg (fun z => (Ideal.ofBits .f32 0x00000000#32) + z) (Finset.sum_congr rfl fun a _ => ?_)
    rw [combineBlock1 V c ⟨0, hn⟩ a b]
    unfold colAt1; rw [dif_pos (rowIn1 ⟨0, hn⟩ a)]
  | n + 1, hn => by
    have ih := sumAfter1 c b n (Nat.lt_of_succ_lt hn)
    have hblock : (∑ a : Fin 5000, (k1_pay5 (F := Ideal) (blk1 V c 2 ⟨n + 1, hn⟩) (blk1 V c 0 ⟨n + 1, hn⟩) (blk1 V c 1 ⟨n + 1, hn⟩) (blk1 V c 3 ⟨n + 1, hn⟩) (ix2 a b)))
        = ∑ l : Fin 5000, (colAt1 (preAll1 (V c main_v40) (V c main_v27) (V c main_v11) (V c main_v41)) b (5000 * (n + 1) + l.val)) :=
      Finset.sum_congr rfl fun a _ => by
        rw [combineBlock1 V c ⟨n + 1, hn⟩ a b]
        unfold colAt1; rw [dif_pos (rowIn1 ⟨n + 1, hn⟩ a)]
    by_cases h1 : (n + 1) % 10 = 9
    · refine (congrFun ((congrArg After1.sum (after1_succ_last V c n hn h1)).trans (last1_sum c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) sumBuf1 (Memref.isWhole_whole _) sqBuf1 (Memref.isWhole_whole _) _ _ (blk1 V c 0 ⟨n + 1, hn⟩) (blk1 V c 1 ⟨n + 1, hn⟩) (blk1 V c 2 ⟨n + 1, hn⟩) (blk1 V c 3 ⟨n + 1, hn⟩) _ _)) (ix2 0 b)).trans ?_
      rw [sums1_apply, ih, hblock, Finset.sum_range_succ _ (n + 1), add_assoc]
    · refine (congrFun ((congrArg After1.sum (after1_succ_mid V c n hn h1)).trans (mid1_sum c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) sumBuf1 (Memref.isWhole_whole _) sqBuf1 (Memref.isWhole_whole _) _ _ (blk1 V c 0 ⟨n + 1, hn⟩) (blk1 V c 1 ⟨n + 1, hn⟩) (blk1 V c 2 ⟨n + 1, hn⟩) (blk1 V c 3 ⟨n + 1, hn⟩) _ _)) (ix2 0 b)).trans ?_
      rw [sums1_apply, ih, hblock, Finset.sum_range_succ _ (n + 1), add_assoc]

/-- After point n the squares accumulator holds zero plus the column's squared entries over the rows of points 0 … n. -/
theorem sqAfter1 (c : Dev nD) (b : Fin 128) : ∀ (n : ℕ) (hn : n < cfg1.N),
    (after1 V c n hn).sq (ix2 0 b) = (Ideal.ofBits .f32 0x00000000#32) + ∑ p ∈ Finset.range (n + 1), ∑ l : Fin 5000, ((colAt1 (preAll1 (V c main_v40) (V c main_v27) (V c main_v11) (V c main_v41)) b (5000 * p + l.val)) * (colAt1 (preAll1 (V c main_v40) (V c main_v27) (V c main_v11) (V c main_v41)) b (5000 * p + l.val)))
  | 0, hn => by
    refine (congrFun (first1_sq c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) sumBuf1 (Memref.isWhole_whole _) sqBuf1 (Memref.isWhole_whole _) _ _ (blk1 V c 0 ⟨0, hn⟩) (blk1 V c 1 ⟨0, hn⟩) (blk1 V c 2 ⟨0, hn⟩) (blk1 V c 3 ⟨0, hn⟩)) (ix2 0 b)).trans ?_
    rw [squares1_apply, zeroSq1_apply, Finset.sum_range_one]
    refine congrArg (fun z => (Ideal.ofBits .f32 0x00000000#32) + z) (Finset.sum_congr rfl fun a _ => ?_)
    rw [combineBlock1 V c ⟨0, hn⟩ a b]
    unfold colAt1; rw [dif_pos (rowIn1 ⟨0, hn⟩ a)]
  | n + 1, hn => by
    have ih := sqAfter1 c b n (Nat.lt_of_succ_lt hn)
    have hblock : (∑ a : Fin 5000, ((k1_pay5 (F := Ideal) (blk1 V c 2 ⟨n + 1, hn⟩) (blk1 V c 0 ⟨n + 1, hn⟩) (blk1 V c 1 ⟨n + 1, hn⟩) (blk1 V c 3 ⟨n + 1, hn⟩) (ix2 a b)) * (k1_pay5 (F := Ideal) (blk1 V c 2 ⟨n + 1, hn⟩) (blk1 V c 0 ⟨n + 1, hn⟩) (blk1 V c 1 ⟨n + 1, hn⟩) (blk1 V c 3 ⟨n + 1, hn⟩) (ix2 a b))))
        = ∑ l : Fin 5000, ((colAt1 (preAll1 (V c main_v40) (V c main_v27) (V c main_v11) (V c main_v41)) b (5000 * (n + 1) + l.val)) * (colAt1 (preAll1 (V c main_v40) (V c main_v27) (V c main_v11) (V c main_v41)) b (5000 * (n + 1) + l.val))) :=
      Finset.sum_congr rfl fun a _ => by
        rw [combineBlock1 V c ⟨n + 1, hn⟩ a b]
        unfold colAt1; rw [dif_pos (rowIn1 ⟨n + 1, hn⟩ a)]
    by_cases h1 : (n + 1) % 10 = 9
    · refine (congrFun ((congrArg After1.sq (after1_succ_last V c n hn h1)).trans (last1_sq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) sumBuf1 (Memref.isWhole_whole _) sqBuf1 (Memref.isWhole_whole _) _ _ (blk1 V c 0 ⟨n + 1, hn⟩) (blk1 V c 1 ⟨n + 1, hn⟩) (blk1 V c 2 ⟨n + 1, hn⟩) (blk1 V c 3 ⟨n + 1, hn⟩) _ _)) (ix2 0 b)).trans ?_
      rw [squares1_apply, ih, hblock, Finset.sum_range_succ _ (n + 1), add_assoc]
    · refine (congrFun ((congrArg After1.sq (after1_succ_mid V c n hn h1)).trans (mid1_sq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) sumBuf1 (Memref.isWhole_whole _) sqBuf1 (Memref.isWhole_whole _) _ _ (blk1 V c 0 ⟨n + 1, hn⟩) (blk1 V c 1 ⟨n + 1, hn⟩) (blk1 V c 2 ⟨n + 1, hn⟩) (blk1 V c 3 ⟨n + 1, hn⟩) _ _)) (ix2 0 b)).trans ?_
      rw [squares1_apply, ih, hblock, Finset.sum_range_succ _ (n + 1), add_assoc]

/-- Ten blocks of 5000 rows are the 50000 rows. -/
theorem allRows1 (f : ℕ → EReal) : (∑ p ∈ Finset.range 10, ∑ l : Fin 5000, f (5000 * p + l.val)) = ∑ k : Fin 50000, f k.val :=
  Cert.Lib.BlockSums.sum_blocks 10 5000 f

theorem colAt1_row (pre : S50000x128.Idx → EReal) (b : Fin 128) (k : Fin 50000) : colAt1 pre b k.val = pre (ix2 k b) := by
  unfold colAt1; rw [dif_pos k.isLt]

/-- After the last point: the sums over all 50000 rows. -/
theorem sumLast1 (c : Dev nD) (b : Fin 128) (h9 : 9 < cfg1.N) :
    (after1 V c 9 h9).sum (ix2 0 b) = (Ideal.ofBits .f32 0x00000000#32) + ∑ p : Fin 50000, (preAll1 (V c main_v40) (V c main_v27) (V c main_v11) (V c main_v41)) (ix2 p b) := by
  rw [sumAfter1 V c b 9 h9, allRows1]
  exact congrArg (fun z => (Ideal.ofBits .f32 0x00000000#32) + z) (Finset.sum_congr rfl fun k _ => colAt1_row _ b k)

theorem sqLast1 (c : Dev nD) (b : Fin 128) (h9 : 9 < cfg1.N) :
    (after1 V c 9 h9).sq (ix2 0 b) = (Ideal.ofBits .f32 0x00000000#32) + ∑ p : Fin 50000, (preAll1 (V c main_v40) (V c main_v27) (V c main_v11) (V c main_v41)) (ix2 p b) * (preAll1 (V c main_v40) (V c main_v27) (V c main_v11) (V c main_v41)) (ix2 p b) := by
  rw [sqAfter1 V c b 9 h9, allRows1 (fun k => colAt1 (preAll1 (V c main_v40) (V c main_v27) (V c main_v11) (V c main_v41)) b k * colAt1 (preAll1 (V c main_v40) (V c main_v27) (V c main_v11) (V c main_v41)) b k)]
  exact congrArg (fun z => (Ideal.ofBits .f32 0x00000000#32) + z) (Finset.sum_congr rfl fun k _ => by rw [colAt1_row])

/-- At the last point the mean and the variance buffers are the payloads of the accumulators as just updated. -/
theorem meanLast1 (c : Dev nD) (h9 : 9 < cfg1.N) :
    (after1 V c 9 h9).mean = k1_pay1 (F := Ideal) (after1 V c 9 h9).sum := by
  have e := after1_succ_last V c 8 h9 (by decide)
  rw [e]
  exact (last1_mean c (grid1.coords ⟨8 + 1, h9⟩) (ms1_0 ⟨8 + 1, h9⟩) (hs1_0 ⟨8 + 1, h9⟩) (ms1_1 ⟨8 + 1, h9⟩) (hs1_1 ⟨8 + 1, h9⟩) (ms1_2 ⟨8 + 1, h9⟩) (hs1_2 ⟨8 + 1, h9⟩) (ms1_3 ⟨8 + 1, h9⟩) (hs1_3 ⟨8 + 1, h9⟩) (ms1_4 ⟨8 + 1, h9⟩) (hs1_4 ⟨8 + 1, h9⟩) (ms1_5 ⟨8 + 1, h9⟩) (hs1_5 ⟨8 + 1, h9⟩) (ms1_6 ⟨8 + 1, h9⟩) (hs1_6 ⟨8 + 1, h9⟩) sumBuf1 (Memref.isWhole_whole _) sqBuf1 (Memref.isWhole_whole _) _ _ (blk1 V c 0 ⟨8 + 1, h9⟩) (blk1 V c 1 ⟨8 + 1, h9⟩) (blk1 V c 2 ⟨8 + 1, h9⟩) (blk1 V c 3 ⟨8 + 1, h9⟩) _ _).trans (congrArg _ (last1_sum c (grid1.coords ⟨8 + 1, h9⟩) (ms1_0 ⟨8 + 1, h9⟩) (hs1_0 ⟨8 + 1, h9⟩) (ms1_1 ⟨8 + 1, h9⟩) (hs1_1 ⟨8 + 1, h9⟩) (ms1_2 ⟨8 + 1, h9⟩) (hs1_2 ⟨8 + 1, h9⟩) (ms1_3 ⟨8 + 1, h9⟩) (hs1_3 ⟨8 + 1, h9⟩) (ms1_4 ⟨8 + 1, h9⟩) (hs1_4 ⟨8 + 1, h9⟩) (ms1_5 ⟨8 + 1, h9⟩) (hs1_5 ⟨8 + 1, h9⟩) (ms1_6 ⟨8 + 1, h9⟩) (hs1_6 ⟨8 + 1, h9⟩) sumBuf1 (Memref.isWhole_whole _) sqBuf1 (Memref.isWhole_whole _) _ _ (blk1 V c 0 ⟨8 + 1, h9⟩) (blk1 V c 1 ⟨8 + 1, h9⟩) (blk1 V c 2 ⟨8 + 1, h9⟩) (blk1 V c 3 ⟨8 + 1, h9⟩) _ _).symm)

theorem varLast1 (c : Dev nD) (h9 : 9 < cfg1.N) :
    (after1 V c 9 h9).var = k1_pay2 (F := Ideal) (after1 V c 9 h9).sum (after1 V c 9 h9).sq := by
  have e := after1_succ_last V c 8 h9 (by decide)
  rw [e]
  refine (last1_var c (grid1.coords ⟨8 + 1, h9⟩) (ms1_0 ⟨8 + 1, h9⟩) (hs1_0 ⟨8 + 1, h9⟩) (ms1_1 ⟨8 + 1, h9⟩) (hs1_1 ⟨8 + 1, h9⟩) (ms1_2 ⟨8 + 1, h9⟩) (hs1_2 ⟨8 + 1, h9⟩) (ms1_3 ⟨8 + 1, h9⟩) (hs1_3 ⟨8 + 1, h9⟩) (ms1_4 ⟨8 + 1, h9⟩) (hs1_4 ⟨8 + 1, h9⟩) (ms1_5 ⟨8 + 1, h9⟩) (hs1_5 ⟨8 + 1, h9⟩) (ms1_6 ⟨8 + 1, h9⟩) (hs1_6 ⟨8 + 1, h9⟩) sumBuf1 (Memref.isWhole_whole _) sqBuf1 (Memref.isWhole_whole _) _ _ (blk1 V c 0 ⟨8 + 1, h9⟩) (blk1 V c 1 ⟨8 + 1, h9⟩) (blk1 V c 2 ⟨8 + 1, h9⟩) (blk1 V c 3 ⟨8 + 1, h9⟩) _ _).trans ?_
  rw [last1_sum c (grid1.coords ⟨8 + 1, h9⟩) (ms1_0 ⟨8 + 1, h9⟩) (hs1_0 ⟨8 + 1, h9⟩) (ms1_1 ⟨8 + 1, h9⟩) (hs1_1 ⟨8 + 1, h9⟩) (ms1_2 ⟨8 + 1, h9⟩) (hs1_2 ⟨8 + 1, h9⟩) (ms1_3 ⟨8 + 1, h9⟩) (hs1_3 ⟨8 + 1, h9⟩) (ms1_4 ⟨8 + 1, h9⟩) (hs1_4 ⟨8 + 1, h9⟩) (ms1_5 ⟨8 + 1, h9⟩) (hs1_5 ⟨8 + 1, h9⟩) (ms1_6 ⟨8 + 1, h9⟩) (hs1_6 ⟨8 + 1, h9⟩) sumBuf1 (Memref.isWhole_whole _) sqBuf1 (Memref.isWhole_whole _) _ _ (blk1 V c 0 ⟨8 + 1, h9⟩) (blk1 V c 1 ⟨8 + 1, h9⟩) (blk1 V c 2 ⟨8 + 1, h9⟩) (blk1 V c 3 ⟨8 + 1, h9⟩) _ _, last1_sq c (grid1.coords ⟨8 + 1, h9⟩) (ms1_0 ⟨8 + 1, h9⟩) (hs1_0 ⟨8 + 1, h9⟩) (ms1_1 ⟨8 + 1, h9⟩) (hs1_1 ⟨8 + 1, h9⟩) (ms1_2 ⟨8 + 1, h9⟩) (hs1_2 ⟨8 + 1, h9⟩) (ms1_3 ⟨8 + 1, h9⟩) (hs1_3 ⟨8 + 1, h9⟩) (ms1_4 ⟨8 + 1, h9⟩) (hs1_4 ⟨8 + 1, h9⟩) (ms1_5 ⟨8 + 1, h9⟩) (hs1_5 ⟨8 + 1, h9⟩) (ms1_6 ⟨8 + 1, h9⟩) (hs1_6 ⟨8 + 1, h9⟩) sumBuf1 (Memref.isWhole_whole _) sqBuf1 (Memref.isWhole_whole _) _ _ (blk1 V c 0 ⟨8 + 1, h9⟩) (blk1 V c 1 ⟨8 + 1, h9⟩) (blk1 V c 2 ⟨8 + 1, h9⟩) (blk1 V c 3 ⟨8 + 1, h9⟩) _ _]

/-- Any index of a one-row array is (0, its column). -/
theorem rowIdx1 (j : S1x128.Idx) : j = ix2 0 (j 1) := by
  funext d; apply Fin.ext
  match d with
  | ⟨0, _⟩ => show (j 0).val = 0; have := (j 0).isLt; simp at this; omega
  | ⟨1, _⟩ => rfl

theorem mean1_at (v36 : Vec Ideal S1x128 .f32) (j : S1x128.Idx) :
    k1_pay1 (F := Ideal) v36 j = Ideal.div (v36 (ix2 0 (j 1))) (Ideal.ofBits .f32 0x47435000#32) := by
  have e := rowIdx1 j
  conv_lhs => rw [e]
  exact mean1_apply v36 (j 1)

theorem var1_at (v36 v39 : Vec Ideal S1x128 .f32) (j : S1x128.Idx) :
    k1_pay2 (F := Ideal) v36 v39 j
      = Ideal.div (v39 (ix2 0 (j 1))) (Ideal.ofBits .f32 0x47435000#32) - Ideal.div (v36 (ix2 0 (j 1))) (Ideal.ofBits .f32 0x47435000#32) * Ideal.div (v36 (ix2 0 (j 1))) (Ideal.ofBits .f32 0x47435000#32) := by
  have e := rowIdx1 j
  conv_lhs => rw [e]
  exact (var1_apply v36 v39 (j 1)).trans
    (congrArg₂ (fun x y => Ideal.div (v39 (ix2 0 (j 1))) (Ideal.ofBits .f32 0x47435000#32) - x * y) (mean1_apply v36 (j 1)) (mean1_apply v36 (j 1)))

/-- WHAT POINT t WRITES BACK into the combined-block window is block t of the whole combined array. -/
theorem preFlushed1 (c : Dev nD) (t : Fin cfg1.N) :
    (dat1 V c).flushed 4 t = ((cfg1.win 4).blk t).view.read (Elt Ideal) (preAll1 (V c main_v40) (V c main_v27) (V c main_v11) (V c main_v41)) := by
  show (cfg1.win 4).cut (grid1.coords t) ((dat1 V c).after 4 t) = _
  rw [dat1_after_4, preAt1]
  obtain ⟨-, -, -, -, -, -, -, -, e40, e41, -⟩ := whereStats1 t
  funext j
  show k1_pay5 (F := Ideal) (blk1 V c 2 t) (blk1 V c 0 t) (blk1 V c 1 t) (blk1 V c 3 t) j = (preAll1 (V c main_v40) (V c main_v27) (V c main_v11) (V c main_v41)) (((cfg1.win 4).blk t).view.emb j)
  have e : j = ix2 (j 0) (j 1) := eq_ix2 j
  refine ((congrArg (k1_pay5 (F := Ideal) (blk1 V c 2 t) (blk1 V c 0 t) (blk1 V c 1 t) (blk1 V c 3 t)) e).trans (combineBlock1 V c t (j 0) (j 1))).trans ?_
  refine congrArg _ ?_
  funext d; apply Fin.ext
  match d with
  | ⟨0, _⟩ => show 5000 * t.val + (j 0).val = win1_4.index t (0 : Fin 2) * 5000 + 1 * (j 0).val; omega
  | ⟨1, _⟩ => show (j 1).val = win1_4.index t (1 : Fin 2) * 128 + 1 * (j 1).val; omega

theorem inBlockPre1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v42_0).slice (win1_4.rect t)).set ↔ _
  rw [View.set_slice_whole, Rect.mem_set_unit]
  exact Iff.rfl

theorem coveredPre1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  refine ⟨⟨(i 0).val / 5000, by rw [tenPoints1]; omega⟩, flush1_4 _, ?_⟩
  rw [inBlockPre1]
  obtain ⟨-, -, -, -, -, -, -, -, e40, e41, -⟩ := whereStats1 ⟨(i 0).val / 5000, by rw [tenPoints1]; omega⟩
  intro a
  match a with
  | ⟨0, _⟩ => show win1_4.index _ (0 : Fin 2) * 5000 ≤ (i 0).val ∧ (i 0).val < win1_4.index _ (0 : Fin 2) * 5000 + 5000; (try dsimp only at e40); omega
  | ⟨1, _⟩ => show win1_4.index _ (1 : Fin 2) * 128 ≤ (i 1).val ∧ (i 1).val < win1_4.index _ (1 : Fin 2) * 128 + 128; omega

/-- THE COMBINED ARRAY after the call. -/
theorem statsFinal1_pre (c : Dev nD) : (dat1 V c).arrAt 4 cfg1.N = (preAll1 (V c main_v40) (V c main_v27) (V c main_v11) (V c main_v41)) :=
  (dat1 V c).arrAt_eq_of_cover 4 _ (fun t _ => preFlushed1 V c t) coveredPre1

theorem lastPoint1 (t : Fin cfg1.N) (h : t.val % 10 = 9) : t.val = 9 := by
  have hN : t.val < 10 := lt_of_lt_of_eq t.isLt tenPoints1
  omega

/-- The mean row is written back at the last point only, and there it is the batch mean of the combined array. -/
theorem meanFlushed1 (c : Dev nD) (t : Fin cfg1.N) (hf : (cfg1.win 5).flush t = true) :
    (dat1 V c).flushed 5 t = ((cfg1.win 5).blk t).view.read (Elt Ideal) (meanAll1 (preAll1 (V c main_v40) (V c main_v27) (V c main_v11) (V c main_v41))) := by
  have ht : t.val = 9 := lastPoint1 t ((flush1_5 t).mp hf)
  obtain ⟨n, hn⟩ := t
  (try dsimp only at ht); subst ht
  show (cfg1.win 5).cut (grid1.coords ⟨9, hn⟩) ((dat1 V c).after 5 ⟨9, hn⟩) = _
  rw [dat1_after_5]
  (try dsimp only)
  rw [meanLast1 V c hn]
  obtain ⟨-, -, -, -, -, -, -, -, -, -, e50, e51, -⟩ := whereStats1 ⟨9, hn⟩
  funext j
  show k1_pay1 (F := Ideal) (after1 V c 9 hn).sum j = meanAll1 (preAll1 (V c main_v40) (V c main_v27) (V c main_v11) (V c main_v41)) (((cfg1.win 5).blk ⟨9, hn⟩).view.emb j)
  have he : (((cfg1.win 5).blk ⟨9, hn⟩).view.emb j) 1 = j 1 :=
    Fin.ext (show win1_5.index ⟨9, hn⟩ (1 : Fin 2) * 128 + 1 * (j 1).val = (j 1).val by omega)
  refine (mean1_at _ j).trans ?_
  rw [sumLast1 V c (j 1) hn]
  unfold meanAll1
  rw [he]

theorem varFlushed1 (c : Dev nD) (t : Fin cfg1.N) (hf : (cfg1.win 6).flush t = true) :
    (dat1 V c).flushed 6 t = ((cfg1.win 6).blk t).view.read (Elt Ideal) (varAll1 (preAll1 (V c main_v40) (V c main_v27) (V c main_v11) (V c main_v41))) := by
  have ht : t.val = 9 := lastPoint1 t ((flush1_6 t).mp hf)
  obtain ⟨n, hn⟩ := t
  (try dsimp only at ht); subst ht
  show (cfg1.win 6).cut (grid1.coords ⟨9, hn⟩) ((dat1 V c).after 6 ⟨9, hn⟩) = _
  rw [dat1_after_6]
  (try dsimp only)
  rw [varLast1 V c hn]
  obtain ⟨-, -, -, -, -, -, -, -, -, -, -, -, e60, e61⟩ := whereStats1 ⟨9, hn⟩
  funext j
  show k1_pay2 (F := Ideal) (after1 V c 9 hn).sum (after1 V c 9 hn).sq j = varAll1 (preAll1 (V c main_v40) (V c main_v27) (V c main_v11) (V c main_v41)) (((cfg1.win 6).blk ⟨9, hn⟩).view.emb j)
  have he : (((cfg1.win 6).blk ⟨9, hn⟩).view.emb j) 1 = j 1 :=
    Fin.ext (show win1_6.index ⟨9, hn⟩ (1 : Fin 2) * 128 + 1 * (j 1).val = (j 1).val by omega)
  refine (var1_at _ _ j).trans ?_
  rw [sumLast1 V c (j 1) hn, sqLast1 V c (j 1) hn]
  unfold varAll1 meanAll1
  rw [he]

theorem inBlockMean1 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v42_1).slice (win1_5.rect t)).set ↔ _
  rw [View.set_slice_whole, Rect.mem_set_unit]
  exact Iff.rfl

theorem inBlockVar1 (t : Fin cfg1.N) (i : S1x128.Idx) :
    i ∈ ((cfg1.win 6).blk t).view.set ↔ ∀ a : Fin 2, win1_6.index t a * S1x128.size a ≤ (i a).val ∧ (i a).val < win1_6.index t a * S1x128.size a + S1x128.size a := by
  show i ∈ ((View.whole main_v42_2).slice (win1_6.rect t)).set ↔ _
  rw [View.set_slice_whole, Rect.mem_set_unit]
  exact Iff.rfl

theorem ninth1 : 9 < cfg1.N := by rw [tenPoints1]; decide

theorem coveredMean1 (i : S1x128.Idx) : ∃ t : Fin cfg1.N, (cfg1.win 5).flush t = true ∧ i ∈ ((cfg1.win 5).blk t).view.set := by
  have hi0 : (i 0).val < 1 := (i 0).isLt
  have hi1 : (i 1).val < 128 := (i 1).isLt
  refine ⟨⟨9, ninth1⟩, (flush1_5 _).mpr (by decide), ?_⟩
  rw [inBlockMean1]
  obtain ⟨-, -, -, -, -, -, -, -, -, -, e50, e51, -⟩ := whereStats1 ⟨9, ninth1⟩
  intro a
  match a with
  | ⟨0, _⟩ => show win1_5.index _ (0 : Fin 2) * 1 ≤ (i 0).val ∧ (i 0).val < win1_5.index _ (0 : Fin 2) * 1 + 1; omega
  | ⟨1, _⟩ => show win1_5.index _ (1 : Fin 2) * 128 ≤ (i 1).val ∧ (i 1).val < win1_5.index _ (1 : Fin 2) * 128 + 128; omega

theorem coveredVar1 (i : S1x128.Idx) : ∃ t : Fin cfg1.N, (cfg1.win 6).flush t = true ∧ i ∈ ((cfg1.win 6).blk t).view.set := by
  have hi0 : (i 0).val < 1 := (i 0).isLt
  have hi1 : (i 1).val < 128 := (i 1).isLt
  refine ⟨⟨9, ninth1⟩, (flush1_6 _).mpr (by decide), ?_⟩
  rw [inBlockVar1]
  obtain ⟨-, -, -, -, -, -, -, -, -, -, -, -, e60, e61⟩ := whereStats1 ⟨9, ninth1⟩
  intro a
  match a with
  | ⟨0, _⟩ => show win1_6.index _ (0 : Fin 2) * 1 ≤ (i 0).val ∧ (i 0).val < win1_6.index _ (0 : Fin 2) * 1 + 1; omega
  | ⟨1, _⟩ => show win1_6.index _ (1 : Fin 2) * 128 ≤ (i 1).val ∧ (i 1).val < win1_6.index _ (1 : Fin 2) * 128 + 128; omega

/-- THE MEAN ROW and THE VARIANCE ROW after the call. -/
theorem statsFinal1_mean (c : Dev nD) : (dat1 V c).arrAt 5 cfg1.N = meanAll1 (preAll1 (V c main_v40) (V c main_v27) (V c main_v11) (V c main_v41)) :=
  (dat1 V c).arrAt_eq_of_cover 5 _ (fun t hf => meanFlushed1 V c t hf) coveredMean1

theorem statsFinal1_var (c : Dev nD) : (dat1 V c).arrAt 6 cfg1.N = varAll1 (preAll1 (V c main_v40) (V c main_v27) (V c main_v11) (V c main_v41)) :=
  (dat1 V c).arrAt_eq_of_cover 6 _ (fun t hf => varFlushed1 V c t hf) coveredVar1

end Cert.KernelIdeal.Hand

end
-- ==== Proof.Ideal.Stats4PiecesFirst.lean ====
/-
  The combine-and-statistics call of layer two, the first grid point: what its run stores, named. The combined block is the
  payload of the loaded input blocks; each accumulator is the payload adding the block's column sums to what it held
  (zero at the first point); at the last point the mean and the variance buffers are the payloads of the two
  accumulators as just updated.
-/
import proofs.«169495_j53601191854606_1_alg».proof.Proof.Ideal.Stats4Cases
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
theorem origin2s4 : (![0, 0] : Fin 2 → Nat) = fun _ => 0 := funext fun a => by fin_cases a <;> rfl

set_option maxHeartbeats 1600000 in
theorem first4_pre (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst4 i) (hc1 : ¬atLast4 i) (x1 : Vec F S5000x128 .f32) (x2 : Vec F S5000x128 .f32) (x3 : Vec F S5000x1 .f32) (x4 : Vec F S1x128 .f32) :
    (first4 c i arg1 harg1 arg2 harg2 arg3 harg3 arg4 harg4 arg5 harg5 arg6 harg6 arg7 harg7 arg8 harg8 arg9 harg9 hc0 hc1 x1 x2 x3 x4).pre = k4_pay5 x3 x1 x2 x4 := by
  unfold first4; dsimp only
  rw [View.read_writes_eq_canon _ _ _ (cover4_first_pre c i arg1 harg1 arg2 harg2 arg3 harg3 arg4 harg4 arg5 harg5 arg6 harg6 arg7 harg7 arg8 harg8 arg9 harg9 hc0 hc1 x1 x2 x3 x4)]
  unfold runFirst4; dsimp only
  sl_unfold_words
  first | rw [View.canon_unit_zero origin2s4] | rw [View.canon_cons_unit_zero origin2s4]
  simp only [View.readCov_unit_zero (S := S1x128) _ origin2s4, View.readAt_eq_ld, harg1.read_unread, harg2.read_unread, harg3.read_unread, harg4.read_unread, harg8.read_unread, harg9.read_unread,
    View.ld_unit_zero (S := S5000x128) origin2s4, View.ld_unit_zero (S := S5000x1) origin2s4, View.ld_unit_zero (S := S1x128) origin2s4]
set_option maxHeartbeats 1600000 in
theorem first4_sum (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst4 i) (hc1 : ¬atLast4 i) (x1 : Vec F S5000x128 .f32) (x2 : Vec F S5000x128 .f32) (x3 : Vec F S5000x1 .f32) (x4 : Vec F S1x128 .f32) :
    (first4 c i arg1 harg1 arg2 harg2 arg3 harg3 arg4 harg4 arg5 harg5 arg6 harg6 arg7 harg7 arg8 harg8 arg9 harg9 hc0 hc1 x1 x2 x3 x4).sum = k4_pay6 x3 x1 x2 x4 (k4_pay3 (F := F)) := by
  unfold first4; dsimp only
  rw [View.read_writes_eq_canon _ _ _ (cover4_first_sum c i arg1 harg1 arg2 harg2 arg3 harg3 arg4 harg4 arg5 harg5 arg6 harg6 arg7 harg7 arg8 harg8 arg9 harg9 hc0 hc1 x1 x2 x3 x4)]
  unfold runFirst4; dsimp only
  sl_unfold_words
  first | rw [View.canon_unit_zero origin2s4] | rw [View.canon_cons_unit_zero origin2s4]
  simp only [View.readCov_unit_zero (S := S1x128) _ origin2s4, View.readAt_eq_ld, harg1.read_unread, harg2.read_unread, harg3.read_unread, harg4.read_unread, harg8.read_unread, harg9.read_unread,
    View.ld_unit_zero (S := S5000x128) origin2s4, View.ld_unit_zero (S := S5000x1) origin2s4, View.ld_unit_zero (S := S1x128) origin2s4]
set_option maxHeartbeats 1600000 in
theorem first4_sq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : atFirst4 i) (hc1 : ¬atLast4 i) (x1 : Vec F S5000x128 .f32) (x2 : Vec F S5000x128 .f32) (x3 : Vec F S5000x1 .f32) (x4 : Vec F S1x128 .f32) :
    (first4 c i arg1 harg1 arg2 harg2 arg3 harg3 arg4 harg4 arg5 harg5 arg6 harg6 arg7 harg7 arg8 harg8 arg9 harg9 hc0 hc1 x1 x2 x3 x4).sq = k4_pay7 x3 x1 x2 x4 (k4_pay4 (F := F)) := by
  unfold first4; dsimp only
  rw [View.read_writes_eq_canon _ _ _ (cover4_first_sq c i arg1 harg1 arg2 harg2 arg3 harg3 arg4 harg4 arg5 harg5 arg6 harg6 arg7 harg7 arg8 harg8 arg9 harg9 hc0 hc1 x1 x2 x3 x4)]
  unfold runFirst4; dsimp only
  sl_unfold_words
  first | rw [View.canon_unit_zero origin2s4] | rw [View.canon_cons_unit_zero origin2s4]
  simp only [View.readCov_unit_zero (S := S1x128) _ origin2s4, View.readAt_eq_ld, harg1.read_unread, harg2.read_unread, harg3.read_unread, harg4.read_unread, harg8.read_unread, harg9.read_unread,
    View.ld_unit_zero (S := S5000x128) origin2s4, View.ld_unit_zero (S := S5000x1) origin2s4, View.ld_unit_zero (S := S1x128) origin2s4]

end Cert.KernelIdeal.Hand

end
-- ==== Proof.Ideal.Stats4PiecesMid.lean ====
/-
  The combine-and-statistics call of layer two, a middle grid point: what its run stores, named. The combined block is the
  payload of the loaded input blocks; each accumulator is the payload adding the block's column sums to what it held
  (zero at the first point); at the last point the mean and the variance buffers are the payloads of the two
  accumulators as just updated.
-/
import proofs.«169495_j53601191854606_1_alg».proof.Proof.Ideal.Stats4Cases
import proofs.«169495_j53601191854606_1_alg».proof.Proof.Ideal.Stats4PiecesFirst
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 1600000 in
theorem mid4_pre (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : ¬atLast4 i) (x1 : Vec F S5000x128 .f32) (x2 : Vec F S5000x128 .f32) (x3 : Vec F S5000x1 .f32) (x4 : Vec F S1x128 .f32) (s8 : Vec F S1x128 .f32) (s9 : Vec F S1x128 .f32) :
    (mid4 c i arg1 harg1 arg2 harg2 arg3 harg3 arg4 harg4 arg5 harg5 arg6 harg6 arg7 harg7 arg8 harg8 arg9 harg9 hc0 hc1 x1 x2 x3 x4 s8 s9).pre = k4_pay5 x3 x1 x2 x4 := by
  unfold mid4; dsimp only
  rw [View.read_writes_eq_canon _ _ _ (cover4_mid_pre c i arg1 harg1 arg2 harg2 arg3 harg3 arg4 harg4 arg5 harg5 arg6 harg6 arg7 harg7 arg8 harg8 arg9 harg9 hc0 hc1 x1 x2 x3 x4 s8 s9)]
  unfold runMid4; dsimp only
  sl_unfold_words
  first | rw [View.canon_unit_zero origin2s4] | rw [View.canon_cons_unit_zero origin2s4]
  simp only [View.readCov_unit_zero (S := S1x128) _ origin2s4, View.readAt_eq_ld, harg1.read_unread, harg2.read_unread, harg3.read_unread, harg4.read_unread, harg8.read_unread, harg9.read_unread,
    View.ld_unit_zero (S := S5000x128) origin2s4, View.ld_unit_zero (S := S5000x1) origin2s4, View.ld_unit_zero (S := S1x128) origin2s4]
set_option maxHeartbeats 1600000 in
theorem mid4_sum (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : ¬atLast4 i) (x1 : Vec F S5000x128 .f32) (x2 : Vec F S5000x128 .f32) (x3 : Vec F S5000x1 .f32) (x4 : Vec F S1x128 .f32) (s8 : Vec F S1x128 .f32) (s9 : Vec F S1x128 .f32) :
    (mid4 c i arg1 harg1 arg2 harg2 arg3 harg3 arg4 harg4 arg5 harg5 arg6 harg6 arg7 harg7 arg8 harg8 arg9 harg9 hc0 hc1 x1 x2 x3 x4 s8 s9).sum = k4_pay6 x3 x1 x2 x4 s8 := by
  unfold mid4; dsimp only
  rw [View.read_writes_eq_canon _ _ _ (cover4_mid_sum c i arg1 harg1 arg2 harg2 arg3 harg3 arg4 harg4 arg5 harg5 arg6 harg6 arg7 harg7 arg8 harg8 arg9 harg9 hc0 hc1 x1 x2 x3 x4 s8 s9)]
  unfold runMid4; dsimp only
  sl_unfold_words
  first | rw [View.canon_unit_zero origin2s4] | rw [View.canon_cons_unit_zero origin2s4]
  simp only [View.readCov_unit_zero (S := S1x128) _ origin2s4, View.readAt_eq_ld, harg1.read_unread, harg2.read_unread, harg3.read_unread, harg4.read_unread, harg8.read_unread, harg9.read_unread,
    View.ld_unit_zero (S := S5000x128) origin2s4, View.ld_unit_zero (S := S5000x1) origin2s4, View.ld_unit_zero (S := S1x128) origin2s4]
set_option maxHeartbeats 1600000 in
theorem mid4_sq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : ¬atLast4 i) (x1 : Vec F S5000x128 .f32) (x2 : Vec F S5000x128 .f32) (x3 : Vec F S5000x1 .f32) (x4 : Vec F S1x128 .f32) (s8 : Vec F S1x128 .f32) (s9 : Vec F S1x128 .f32) :
    (mid4 c i arg1 harg1 arg2 harg2 arg3 harg3 arg4 harg4 arg5 harg5 arg6 harg6 arg7 harg7 arg8 harg8 arg9 harg9 hc0 hc1 x1 x2 x3 x4 s8 s9).sq = k4_pay7 x3 x1 x2 x4 s9 := by
  unfold mid4; dsimp only
  rw [View.read_writes_eq_canon _ _ _ (cover4_mid_sq c i arg1 harg1 arg2 harg2 arg3 harg3 arg4 harg4 arg5 harg5 arg6 harg6 arg7 harg7 arg8 harg8 arg9 harg9 hc0 hc1 x1 x2 x3 x4 s8 s9)]
  unfold runMid4; dsimp only
  sl_unfold_words
  first | rw [View.canon_unit_zero origin2s4] | rw [View.canon_cons_unit_zero origin2s4]
  simp only [View.readCov_unit_zero (S := S1x128) _ origin2s4, View.readAt_eq_ld, harg1.read_unread, harg2.read_unread, harg3.read_unread, harg4.read_unread, harg8.read_unread, harg9.read_unread,
    View.ld_unit_zero (S := S5000x128) origin2s4, View.ld_unit_zero (S := S5000x1) origin2s4, View.ld_unit_zero (S := S1x128) origin2s4]

end Cert.KernelIdeal.Hand

end
-- ==== Proof.Ideal.Stats4PiecesLast.lean ====
/-
  The combine-and-statistics call of layer two, the last grid point: what its run stores, named. The combined block is the
  payload of the loaded input blocks; each accumulator is the payload adding the block's column sums to what it held
  (zero at the first point); at the last point the mean and the variance buffers are the payloads of the two
  accumulators as just updated.
-/
import proofs.«169495_j53601191854606_1_alg».proof.Proof.Ideal.Stats4Cases
import proofs.«169495_j53601191854606_1_alg».proof.Proof.Ideal.Stats4PiecesFirst
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 1600000 in
theorem last4_pre (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) :
    (last4 c i arg1 harg1 arg2 harg2 arg3 harg3 arg4 harg4 arg5 harg5 arg6 harg6 arg7 harg7 arg8 harg8 arg9 harg9 hc0 hc1 x1 x2 x3 x4 s8 s9).pre = k4_pay5 x3 x1 x2 x4 := by
  unfold last4; dsimp only
  rw [View.read_writes_eq_canon _ _ _ (cover4_last_pre c i arg1 harg1 arg2 harg2 arg3 harg3 arg4 harg4 arg5 harg5 arg6 harg6 arg7 harg7 arg8 harg8 arg9 harg9 hc0 hc1 x1 x2 x3 x4 s8 s9)]
  unfold runLast4; dsimp only
  sl_unfold_words
  first | rw [View.canon_unit_zero origin2s4] | rw [View.canon_cons_unit_zero origin2s4]
  simp only [View.readCov_unit_zero (S := S1x128) _ origin2s4, View.readAt_eq_ld, harg1.read_unread, harg2.read_unread, harg3.read_unread, harg4.read_unread, harg8.read_unread, harg9.read_unread,
    View.ld_unit_zero (S := S5000x128) origin2s4, View.ld_unit_zero (S := S5000x1) origin2s4, View.ld_unit_zero (S := S1x128) origin2s4]
set_option maxHeartbeats 1600000 in
theorem last4_sum (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) :
    (last4 c i arg1 harg1 arg2 harg2 arg3 harg3 arg4 harg4 arg5 harg5 arg6 harg6 arg7 harg7 arg8 harg8 arg9 harg9 hc0 hc1 x1 x2 x3 x4 s8 s9).sum = k4_pay6 x3 x1 x2 x4 s8 := by
  unfold last4; dsimp only
  rw [View.read_writes_eq_canon _ _ _ (cover4_last_sum c i arg1 harg1 arg2 harg2 arg3 harg3 arg4 harg4 arg5 harg5 arg6 harg6 arg7 harg7 arg8 harg8 arg9 harg9 hc0 hc1 x1 x2 x3 x4 s8 s9)]
  unfold runLast4; dsimp only
  sl_unfold_words
  first | rw [View.canon_unit_zero origin2s4] | rw [View.canon_cons_unit_zero origin2s4]
  simp only [View.readCov_unit_zero (S := S1x128) _ origin2s4, View.readAt_eq_ld, harg1.read_unread, harg2.read_unread, harg3.read_unread, harg4.read_unread, harg8.read_unread, harg9.read_unread,
    View.ld_unit_zero (S := S5000x128) origin2s4, View.ld_unit_zero (S := S5000x1) origin2s4, View.ld_unit_zero (S := S1x128) origin2s4]
set_option maxHeartbeats 1600000 in
theorem last4_sq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) :
    (last4 c i arg1 harg1 arg2 harg2 arg3 harg3 arg4 harg4 arg5 harg5 arg6 harg6 arg7 harg7 arg8 harg8 arg9 harg9 hc0 hc1 x1 x2 x3 x4 s8 s9).sq = k4_pay7 x3 x1 x2 x4 s9 := by
  unfold last4; dsimp only
  rw [View.read_writes_eq_canon _ _ _ (cover4_last_sq c i arg1 harg1 arg2 harg2 arg3 harg3 arg4 harg4 arg5 harg5 arg6 harg6 arg7 harg7 arg8 harg8 arg9 harg9 hc0 hc1 x1 x2 x3 x4 s8 s9)]
  unfold runLast4; dsimp only
  sl_unfold_words
  first | rw [View.canon_unit_zero origin2s4] | rw [View.canon_cons_unit_zero origin2s4]
  simp only [View.readCov_unit_zero (S := S1x128) _ origin2s4, View.readAt_eq_ld, harg1.read_unread, harg2.read_unread, harg3.read_unread, harg4.read_unread, harg8.read_unread, harg9.read_unread,
    View.ld_unit_zero (S := S5000x128) origin2s4, View.ld_unit_zero (S := S5000x1) origin2s4, View.ld_unit_zero (S := S1x128) origin2s4]
set_option maxHeartbeats 1600000 in
theorem last4_mean (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) :
    (last4 c i arg1 harg1 arg2 harg2 arg3 harg3 arg4 harg4 arg5 harg5 arg6 harg6 arg7 harg7 arg8 harg8 arg9 harg9 hc0 hc1 x1 x2 x3 x4 s8 s9).mean = k4_pay1 (k4_pay6 x3 x1 x2 x4 s8) := by
  unfold last4; dsimp only
  rw [View.read_writes_eq_canon _ _ _ (cover4_last_mean c i arg1 harg1 arg2 harg2 arg3 harg3 arg4 harg4 arg5 harg5 arg6 harg6 arg7 harg7 arg8 harg8 arg9 harg9 hc0 hc1 x1 x2 x3 x4 s8 s9)]
  unfold runLast4; dsimp only
  sl_unfold_words
  first | rw [View.canon_unit_zero origin2s4] | rw [View.canon_cons_unit_zero origin2s4]
  simp only [View.readCov_unit_zero (S := S1x128) _ origin2s4, View.readAt_eq_ld, harg1.read_unread, harg2.read_unread, harg3.read_unread, harg4.read_unread, harg8.read_unread, harg9.read_unread,
    View.ld_unit_zero (S := S5000x128) origin2s4, View.ld_unit_zero (S := S5000x1) origin2s4, View.ld_unit_zero (S := S1x128) origin2s4]
set_option maxHeartbeats 1600000 in
theorem last4_var (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬atFirst4 i) (hc1 : atLast4 i) (x1 : Vec F S5000x128 .f32) (x2 : Vec F S5000x128 .f32) (x3 : Vec F S5000x1 .f32) (x4 : Vec F S1x128 .f32) (s8 : Vec F S1x128 .f32) (s9 : Vec F S1x128 .f32) :
    (last4 c i arg1 harg1 arg2 harg2 arg3 harg3 arg4 harg4 arg5 harg5 arg6 harg6 arg7 harg7 arg8 harg8 arg9 harg9 hc0 hc1 x1 x2 x3 x4 s8 s9).var = k4_pay2 (k4_pay6 x3 x1 x2 x4 s8) (k4_pay7 x3 x1 x2 x4 s9) := by
  unfold last4; dsimp only
  rw [View.read_writes_eq_canon _ _ _ (cover4_last_var c i arg1 harg1 arg2 harg2 arg3 harg3 arg4 harg4 arg5 harg5 arg6 harg6 arg7 harg7 arg8 harg8 arg9 harg9 hc0 hc1 x1 x2 x3 x4 s8 s9)]
  unfold runLast4; dsimp only
  sl_unfold_words
  first | rw [View.canon_unit_zero origin2s4] | rw [View.canon_cons_unit_zero origin2s4]
  simp only [View.readCov_unit_zero (S := S1x128) _ origin2s4, View.readAt_eq_ld, harg1.read_unread, harg2.read_unread, harg3.read_unread, harg4.read_unread, harg8.read_unread, harg9.read_unread,
    View.ld_unit_zero (S := S5000x128) origin2s4, View.ld_unit_zero (S := S5000x1) origin2s4, View.ld_unit_zero (S := S1x128) origin2s4]

end Cert.KernelIdeal.Hand

end
-- ==== Proof.Ideal.Stats4Payloads.lean ====
/-
  The combine-and-statistics body of layer two, its payloads read at an index at the ideal float instance: the
  combined entry (agg + h · d²) + b; an accumulator's entry after a point, what it held plus the block's column sum
  (of the combined entries, or of their squares); the mean, the accumulated sum over 50000; the variance, the
  accumulated sum of squares over 50000 less the squared mean; and the zeroed accumulator, 0.
-/
import proofs.«169495_j53601191854606_1_alg».proof.Proof.Ideal.Stats4Cases
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- A one-column array repeated along 128 columns, read at (a, b): the column's entry at row a. -/
theorem colBcast4 {α : Type} (v : S5000x1.Idx → α) (a : Fin 5000) (b : Fin 128) :
    broadcastTo S5000x128 v broadcasts_S5000x1_S5000x128 (ix2 a b) = v (ix2 a 0) :=
  broadcastTo_apply v _ (ix2 a b) (ix2 a 0) (fun d => by
    match d with
    | ⟨0, _⟩ => rfl
    | ⟨1, _⟩ => rfl)

/-- A one-row array repeated down 5000 rows, read at (a, b): the row's entry at column b. -/
theorem rowBcast4 {α : Type} (v : S1x128.Idx → α) (a : Fin 5000) (b : Fin 128) :
    broadcastTo S5000x128 v broadcasts_S1x128_S5000x128 (ix2 a b) = v (ix2 0 b) :=
  broadcastTo_apply v _ (ix2 a b) (ix2 0 b) (fun d => by
    match d with
    | ⟨0, _⟩ => rfl
    | ⟨1, _⟩ => rfl)

/-- The index over column t whose coordinate on the summed row axis is k is (k, t). -/
theorem rowLift4 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Row 0, column b of a one-row array is entry b of the vector it was cast from. -/
theorem vecRow4 (b : Fin 128) : (fun a : Fin 1 => (ix2 (0 : Fin 1) b) a.succ) = ix1 b := by
  funext a; apply Fin.ext
  fin_cases a; rfl

theorem combine4_apply (v3 : Vec Ideal S5000x1 .f32) (v5 v7 : Vec Ideal S5000x128 .f32) (v13 : Vec Ideal S1x128 .f32) (a : Fin 5000) (b : Fin 128) :
    k4_pay5 (F := Ideal) v3 v5 v7 v13 (ix2 a b) = (v5 (ix2 a b) + v7 (ix2 a b) * (v3 (ix2 a 0) * v3 (ix2 a 0))) + v13 (ix2 0 b) := by
  unfold k4_pay5
  simp only [addf_apply, mulf_apply, shapeCast_self, colBcast4, rowBcast4]

/-- The column sum of a 5000-row block, cast to one row, read at column b. -/
theorem colSum_apply4 (X : FVec Ideal S5000x128 .f32) (hφ : FKind.Formats .f32) (hacc : (0x00000000#32 : BitVec 32) = FKind.add.neutral .f32 hφ) (b : Fin 128) :
    shapeCast S1x128 (multiReduction .add [0] S128 X 0x00000000#32 reduces_S5000x128_S128 hφ hacc) shapeCasts_S128_S1x128 (ix2 0 b)
      = ∑ a : Fin 5000, X (ix2 a b) := by
  rw [shapeCast_addUnit_apply, vecRow4]
  refine (Ideal.multiReduction_add_single X _ reduces_S5000x128_S128 hφ hacc (ix1 b)).trans ?_
  exact Finset.sum_congr rfl fun k _ => congrArg X (rowLift4 reduces_S5000x128_S128 b k)

theorem sums4_apply (v3 : Vec Ideal S5000x1 .f32) (v5 v7 : Vec Ideal S5000x128 .f32) (v13 v18 : Vec Ideal S1x128 .f32) (b : Fin 128) :
    k4_pay6 (F := Ideal) v3 v5 v7 v13 v18 (ix2 0 b) = v18 (ix2 0 b) + ∑ a : Fin 5000, k4_pay5 (F := Ideal) v3 v5 v7 v13 (ix2 a b) := by
  unfold k4_pay6
  simp only [addf_apply, shapeCast_self]
  exact congrArg (fun z => v18 (ix2 0 b) + z) (colSum_apply4 _ _ _ b)

theorem squares4_apply (v3 : Vec Ideal S5000x1 .f32) (v5 v7 : Vec Ideal S5000x128 .f32) (v13 v25 : Vec Ideal S1x128 .f32) (b : Fin 128) :
    k4_pay7 (F := Ideal) v3 v5 v7 v13 v25 (ix2 0 b)
      = v25 (ix2 0 b) + ∑ a : Fin 5000, k4_pay5 (F := Ideal) v3 v5 v7 v13 (ix2 a b) * k4_pay5 (F := Ideal) v3 v5 v7 v13 (ix2 a b) := by
  unfold k4_pay7
  simp only [addf_apply, shapeCast_self]
  refine congrArg (fun z => v25 (ix2 0 b) + z) ((colSum_apply4 _ _ _ b).trans ?_)
  exact Finset.sum_congr rfl fun a _ => mulf_apply _ _ _

theorem mean4_apply (v36 : Vec Ideal S1x128 .f32) (b : Fin 128) :
    k4_pay1 (F := Ideal) v36 (ix2 0 b) = Ideal.div (v36 (ix2 0 b)) (Ideal.ofBits .f32 0x47435000#32) := by
  unfold k4_pay1
  simp only [divf_apply, broadcast_apply]
  rfl

theorem var4_apply (v36 v39 : Vec Ideal S1x128 .f32) (b : Fin 128) :
    k4_pay2 (F := Ideal) v36 v39 (ix2 0 b)
      = Ideal.div (v39 (ix2 0 b)) (Ideal.ofBits .f32 0x47435000#32) - k4_pay1 (F := Ideal) v36 (ix2 0 b) * k4_pay1 (F := Ideal) v36 (ix2 0 b) := by
  unfold k4_pay2
  simp only [subf_apply, mulf_apply, divf_apply, broadcast_apply]
  rfl

theorem zeroSum4_apply (j : S1x128.Idx) : k4_pay3 (F := Ideal) j = Ideal.ofBits .f32 0x00000000#32 := by
  unfold k4_pay3
  simp only [shapeCast_self, broadcast_apply]
  rfl

theorem zeroSq4_apply (j : S1x128.Idx) : k4_pay4 (F := Ideal) j = Ideal.ofBits .f32 0x00000000#32 := by
  unfold k4_pay4
  simp only [shapeCast_self, broadcast_apply]
  rfl

end Cert.KernelIdeal.Hand

end
-- ==== Proof.Ideal.StatsValue4.lean ====
/-
  The combine-and-statistics call of layer two, read as values at the ideal float instance. Each grid point's
  combined block is rows 5000·t … 5000·t+4999 of one whole array pre = (agg + h · d²) + b of the arrays the call found.
  After point n each accumulator holds zero plus the column sums (of pre, of pre²) over the rows of points 0 … n; after
  the last point that is the sum over all 50000 rows, regrouping ten blocks of 5000. So the call leaves the whole pre
  array, and in the one-row windows the mean (Σ pre)/50000 and the variance (Σ pre²)/50000 − mean².
-/
import proofs.«169495_j53601191854606_1_alg».proof.Proof.Ideal.Stats4Body
import proofs.«169495_j53601191854606_1_alg».proof.Proof.Ideal.Stats4PiecesFirst
import proofs.«169495_j53601191854606_1_alg».proof.Proof.Ideal.Stats4PiecesMid
import proofs.«169495_j53601191854606_1_alg».proof.Proof.Ideal.Stats4PiecesLast
import proofs.«169495_j53601191854606_1_alg».proof.Proof.Ideal.Stats4Payloads
import proofs.«169495_j53601191854606_1_alg».proof.Proof.LibBlockSums
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The whole combined array. -/
def preAll4 (agg h : S50000x128.Idx → EReal) (d : S50000x1.Idx → EReal) (b : S1x128.Idx → EReal) : S50000x128.Idx → EReal :=
  fun i => (agg i + h i * (d (ix2 (i 0) 0) * d (ix2 (i 0) 0))) + b (ix2 0 (i 1))

/-- The batch mean per column, as one row. -/
def meanAll4 (pre : S50000x128.Idx → EReal) : S1x128.Idx → EReal :=
  fun j => Ideal.div ((Ideal.ofBits .f32 0x00000000#32) + ∑ p : Fin 50000, pre (ix2 p (j 1))) (Ideal.ofBits .f32 0x47435000#32)

/-- The one-pass variance per column, as one row. -/
def varAll4 (pre : S50000x128.Idx → EReal) : S1x128.Idx → EReal :=
  fun j => Ideal.div ((Ideal.ofBits .f32 0x00000000#32) + ∑ p : Fin 50000, pre (ix2 p (j 1)) * pre (ix2 p (j 1))) (Ideal.ofBits .f32 0x47435000#32) - meanAll4 pre j * meanAll4 pre j

theorem whereStats4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

theorem rowIn4 (t : Fin cfg4.N) (a : Fin 5000) : 5000 * t.val + a.val < 50000 := by
  have hN : t.val < 10 := lt_of_lt_of_eq t.isLt tenPoints4
  have ha : a.val < 5000 := a.isLt
  omega

/-- The input blocks at point t read where the arrays hold them. -/
theorem aggBlock4 (c : Dev nD) (t : Fin cfg4.N) (a : Fin 5000) (b : Fin 128) :
    blk4 V c 0 t (ix2 a b) = V c main_v59 (ix2 ⟨5000 * t.val + a.val, rowIn4 t a⟩ b) := by
  obtain ⟨e00, e01, -⟩ := whereStats4 t
  show V c main_v59 (((cfg4.win 0).blk t).view.emb (ix2 a b)) = _
  refine congrArg _ ?_
  funext d; apply Fin.ext
  match d with
  | ⟨0, _⟩ => show win4_0.index t (0 : Fin 2) * 5000 + 1 * a.val = 5000 * t.val + a.val; omega
  | ⟨1, _⟩ => show win4_0.index t (1 : Fin 2) * 128 + 1 * b.val = b.val; omega

theorem hBlock4 (c : Dev nD) (t : Fin cfg4.N) (a : Fin 5000) (b : Fin 128) :
    blk4 V c 1 t (ix2 a b) = V c main_v46 (ix2 ⟨5000 * t.val + a.val, rowIn4 t a⟩ b) := by
  obtain ⟨-, -, e10, e11, -⟩ := whereStats4 t
  show V c main_v46 (((cfg4.win 1).blk t).view.emb (ix2 a b)) = _
  refine congrArg _ ?_
  funext d; apply Fin.ext
  match d with
  | ⟨0, _⟩ => show win4_1.index t (0 : Fin 2) * 5000 + 1 * a.val = 5000 * t.val + a.val; omega
  | ⟨1, _⟩ => show win4_1.index t (1 : Fin 2) * 128 + 1 * b.val = b.val; omega

theorem dBlock4 (c : Dev nD) (t : Fin cfg4.N) (a : Fin 5000) :
    blk4 V c 2 t (ix2 a 0) = V c main_v11 (ix2 ⟨5000 * t.val + a.val, rowIn4 t a⟩ 0) := by
  obtain ⟨-, -, -, -, e20, e21, -⟩ := whereStats4 t
  show V c main_v11 (((cfg4.win 2).blk t).view.emb (ix2 a 0)) = _
  refine congrArg _ ?_
  funext d; apply Fin.ext
  match d with
  | ⟨0, _⟩ => show win4_2.index t (0 : Fin 2) * 5000 + 1 * a.val = 5000 * t.val + a.val; omega
  | ⟨1, _⟩ => show win4_2.index t (1 : Fin 2) * 1 + 1 * 0 = 0; omega

theorem bBlock4 (c : Dev nD) (t : Fin cfg4.N) (b : Fin 128) :
    blk4 V c 3 t (ix2 0 b) = V c main_v60 (ix2 0 b) := by
  obtain ⟨-, -, -, -, -, -, e30, e31, -⟩ := whereStats4 t
  show V c main_v60 (((cfg4.win 3).blk t).view.emb (ix2 0 b)) = _
  refine congrArg _ ?_
  funext d; apply Fin.ext
  match d with
  | ⟨0, _⟩ => show win4_3.index t (0 : Fin 2) * 1 + 1 * 0 = 0; omega
  | ⟨1, _⟩ => show win4_3.index t (1 : Fin 2) * 128 + 1 * b.val = b.val; omega

/-- The combined block of point t at (a, b) is the whole combined array at row 5000·t + a. -/
theorem combineBlock4 (c : Dev nD) (t : Fin cfg4.N) (a : Fin 5000) (b : Fin 128) :
    k4_pay5 (F := Ideal) (blk4 V c 2 t) (blk4 V c 0 t) (blk4 V c 1 t) (blk4 V c 3 t) (ix2 a b)
      = preAll4 (V c main_v59) (V c main_v46) (V c main_v11) (V c main_v60) (ix2 ⟨5000 * t.val + a.val, rowIn4 t a⟩ b) := by
  rw [combine4_apply, aggBlock4, hBlock4, dBlock4, bBlock4]
  rfl

/-- What each point stores, named by its payload (whichever of the three cases the point is). -/
theorem preAt4 (c : Dev nD) (t : Fin cfg4.N) :
    (after4 V c t.val t.isLt).pre = k4_pay5 (F := Ideal) (blk4 V c 2 t) (blk4 V c 0 t) (blk4 V c 1 t) (blk4 V c 3 t) := by
  have hN : t.val < 10 := lt_of_lt_of_eq t.isLt tenPoints4
  by_cases h0 : t.val % 10 = 0
  · have h1 : ¬t.val % 10 = 9 := by omega
    rw [after4_first V c t h0 h1]
    exact first4_pre c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sumBuf4 (Memref.isWhole_whole _) sqBuf4 (Memref.isWhole_whole _) ((atFirst4_iff t).mpr h0) (fun h => h1 ((atLast4_iff t).mp h)) (blk4 V c 0 t) (blk4 V c 1 t) (blk4 V c 2 t) (blk4 V c 3 t)
  · by_cases h1 : t.val % 10 = 9
    · rw [after4_last V c t h0 h1]
      exact last4_pre c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sumBuf4 (Memref.isWhole_whole _) sqBuf4 (Memref.isWhole_whole _) (fun h => h0 ((atFirst4_iff t).mp h)) ((atLast4_iff t).mpr h1) (blk4 V c 0 t) (blk4 V c 1 t) (blk4 V c 2 t) (blk4 V c 3 t) _ _
    · rw [after4_mid V c t h0 h1]
      exact mid4_pre c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sumBuf4 (Memref.isWhole_whole _) sqBuf4 (Memref.isWhole_whole _) (fun h => h0 ((atFirst4_iff t).mp h)) (fun h => h1 ((atLast4_iff t).mp h)) (blk4 V c 0 t) (blk4 V c 1 t) (blk4 V c 2 t) (blk4 V c 3 t) _ _

/-- The accumulation's step equations, by position. -/
theorem after4_zero (c : Dev nD) (hn : 0 < cfg4.N) :
    after4 V c 0 hn = first4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) sumBuf4 (Memref.isWhole_whole _) sqBuf4 (Memref.isWhole_whole _)
      ((atFirst4_iff ⟨0, hn⟩).mpr (Nat.zero_mod _))
      (fun h => by have h9 := (atLast4_iff ⟨0, hn⟩).mp h; (try dsimp only at h9); omega) (blk4 V c 0 ⟨0, hn⟩) (blk4 V c 1 ⟨0, hn⟩) (blk4 V c 2 ⟨0, hn⟩) (blk4 V c 3 ⟨0, hn⟩) := rfl

theorem after4_succ_last (c : Dev nD) (n : ℕ) (hn : n + 1 < cfg4.N) (h1 : (n + 1) % 10 = 9) :
    after4 V c (n + 1) hn = last4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) sumBuf4 (Memref.isWhole_whole _) sqBuf4 (Memref.isWhole_whole _)
      (fun h => by have h0 := (atFirst4_iff ⟨n + 1, hn⟩).mp h; have hN : n + 1 < 10 := lt_of_lt_of_eq hn tenPoints4; (try dsimp only at h0); omega)
      ((atLast4_iff ⟨n + 1, hn⟩).mpr h1) (blk4 V c 0 ⟨n + 1, hn⟩) (blk4 V c 1 ⟨n + 1, hn⟩) (blk4 V c 2 ⟨n + 1, hn⟩) (blk4 V c 3 ⟨n + 1, hn⟩)
      (after4 V c n (Nat.lt_of_succ_lt hn)).sum (after4 V c n (Nat.lt_of_succ_lt hn)).sq := dif_pos h1

theorem after4_succ_mid (c : Dev nD) (n : ℕ) (hn : n + 1 < cfg4.N) (h1 : ¬(n + 1) % 10 = 9) :
    after4 V c (n + 1) hn = mid4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) sumBuf4 (Memref.isWhole_whole _) sqBuf4 (Memref.isWhole_whole _)
      (fun h => by have h0 := (atFirst4_iff ⟨n + 1, hn⟩).mp h; have hN : n + 1 < 10 := lt_of_lt_of_eq hn tenPoints4; (try dsimp only at h0); omega)
      (fun h => h1 ((atLast4_iff ⟨n + 1, hn⟩).mp h)) (blk4 V c 0 ⟨n + 1, hn⟩) (blk4 V c 1 ⟨n + 1, hn⟩) (blk4 V c 2 ⟨n + 1, hn⟩) (blk4 V c 3 ⟨n + 1, hn⟩)
      (after4 V c n (Nat.lt_of_succ_lt hn)).sum (after4 V c n (Nat.lt_of_succ_lt hn)).sq := dif_neg h1

/-- Column b of an array over the 50000 rows, as a function of the row number (zero past the array). -/
def colAt4 (pre : S50000x128.Idx → EReal) (b : Fin 128) : ℕ → EReal :=
  fun k => if h : k < 50000 then pre (ix2 ⟨k, h⟩ b) else 0

/-- After point n the sum accumulator holds zero plus the column's entries over the rows of points 0 … n. -/
theorem sumAfter4 (c : Dev nD) (b : Fin 128) : ∀ (n : ℕ) (hn : n < cfg4.N),
    (after4 V c n hn).sum (ix2 0 b) = (Ideal.ofBits .f32 0x00000000#32) + ∑ p ∈ Finset.range (n + 1), ∑ l : Fin 5000, (colAt4 (preAll4 (V c main_v59) (V c main_v46) (V c main_v11) (V c main_v60)) b (5000 * p + l.val))
  | 0, hn => by
    refine (congrFun (first4_sum c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) sumBuf4 (Memref.isWhole_whole _) sqBuf4 (Memref.isWhole_whole _) _ _ (blk4 V c 0 ⟨0, hn⟩) (blk4 V c 1 ⟨0, hn⟩) (blk4 V c 2 ⟨0, hn⟩) (blk4 V c 3 ⟨0, hn⟩)) (ix2 0 b)).trans ?_
    rw [sums4_apply, zeroSum4_apply, Finset.sum_range_one]
    refine congrArg (fun z => (Ideal.ofBits .f32 0x00000000#32) + z) (Finset.sum_congr rfl fun a _ => ?_)
    rw [combineBlock4 V c ⟨0, hn⟩ a b]
    unfold colAt4; rw [dif_pos (rowIn4 ⟨0, hn⟩ a)]
  | n + 1, hn => by
    have ih := sumAfter4 c b n (Nat.lt_of_succ_lt hn)
    have hblock : (∑ a : Fin 5000, (k4_pay5 (F := Ideal) (blk4 V c 2 ⟨n + 1, hn⟩) (blk4 V c 0 ⟨n + 1, hn⟩) (blk4 V c 1 ⟨n + 1, hn⟩) (blk4 V c 3 ⟨n + 1, hn⟩) (ix2 a b)))
        = ∑ l : Fin 5000, (colAt4 (preAll4 (V c main_v59) (V c main_v46) (V c main_v11) (V c main_v60)) b (5000 * (n + 1) + l.val)) :=
      Finset.sum_congr rfl fun a _ => by
        rw [combineBlock4 V c ⟨n + 1, hn⟩ a b]
        unfold colAt4; rw [dif_pos (rowIn4 ⟨n + 1, hn⟩ a)]
    by_cases h1 : (n + 1) % 10 = 9
    · refine (congrFun ((congrArg After4.sum (after4_succ_last V c n hn h1)).trans (last4_sum c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) sumBuf4 (Memref.isWhole_whole _) sqBuf4 (Memref.isWhole_whole _) _ _ (blk4 V c 0 ⟨n + 1, hn⟩) (blk4 V c 1 ⟨n + 1, hn⟩) (blk4 V c 2 ⟨n + 1, hn⟩) (blk4 V c 3 ⟨n + 1, hn⟩) _ _)) (ix2 0 b)).trans ?_
      rw [sums4_apply, ih, hblock, Finset.sum_range_succ _ (n + 1), add_assoc]
    · refine (congrFun ((congrArg After4.sum (after4_succ_mid V c n hn h1)).trans (mid4_sum c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) sumBuf4 (Memref.isWhole_whole _) sqBuf4 (Memref.isWhole_whole _) _ _ (blk4 V c 0 ⟨n + 1, hn⟩) (blk4 V c 1 ⟨n + 1, hn⟩) (blk4 V c 2 ⟨n + 1, hn⟩) (blk4 V c 3 ⟨n + 1, hn⟩) _ _)) (ix2 0 b)).trans ?_
      rw [sums4_apply, ih, hblock, Finset.sum_range_succ _ (n + 1), add_assoc]

/-- After point n the squares accumulator holds zero plus the column's squared entries over the rows of points 0 … n. -/
theorem sqAfter4 (c : Dev nD) (b : Fin 128) : ∀ (n : ℕ) (hn : n < cfg4.N),
    (after4 V c n hn).sq (ix2 0 b) = (Ideal.ofBits .f32 0x00000000#32) + ∑ p ∈ Finset.range (n + 1), ∑ l : Fin 5000, ((colAt4 (preAll4 (V c main_v59) (V c main_v46) (V c main_v11) (V c main_v60)) b (5000 * p + l.val)) * (colAt4 (preAll4 (V c main_v59) (V c main_v46) (V c main_v11) (V c main_v60)) b (5000 * p + l.val)))
  | 0, hn => by
    refine (congrFun (first4_sq c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) sumBuf4 (Memref.isWhole_whole _) sqBuf4 (Memref.isWhole_whole _) _ _ (blk4 V c 0 ⟨0, hn⟩) (blk4 V c 1 ⟨0, hn⟩) (blk4 V c 2 ⟨0, hn⟩) (blk4 V c 3 ⟨0, hn⟩)) (ix2 0 b)).trans ?_
    rw [squares4_apply, zeroSq4_apply, Finset.sum_range_one]
    refine congrArg (fun z => (Ideal.ofBits .f32 0x00000000#32) + z) (Finset.sum_congr rfl fun a _ => ?_)
    rw [combineBlock4 V c ⟨0, hn⟩ a b]
    unfold colAt4; rw [dif_pos (rowIn4 ⟨0, hn⟩ a)]
  | n + 1, hn => by
    have ih := sqAfter4 c b n (Nat.lt_of_succ_lt hn)
    have hblock : (∑ a : Fin 5000, ((k4_pay5 (F := Ideal) (blk4 V c 2 ⟨n + 1, hn⟩) (blk4 V c 0 ⟨n + 1, hn⟩) (blk4 V c 1 ⟨n + 1, hn⟩) (blk4 V c 3 ⟨n + 1, hn⟩) (ix2 a b)) * (k4_pay5 (F := Ideal) (blk4 V c 2 ⟨n + 1, hn⟩) (blk4 V c 0 ⟨n + 1, hn⟩) (blk4 V c 1 ⟨n + 1, hn⟩) (blk4 V c 3 ⟨n + 1, hn⟩) (ix2 a b))))
        = ∑ l : Fin 5000, ((colAt4 (preAll4 (V c main_v59) (V c main_v46) (V c main_v11) (V c main_v60)) b (5000 * (n + 1) + l.val)) * (colAt4 (preAll4 (V c main_v59) (V c main_v46) (V c main_v11) (V c main_v60)) b (5000 * (n + 1) + l.val))) :=
      Finset.sum_congr rfl fun a _ => by
        rw [combineBlock4 V c ⟨n + 1, hn⟩ a b]
        unfold colAt4; rw [dif_pos (rowIn4 ⟨n + 1, hn⟩ a)]
    by_cases h1 : (n + 1) % 10 = 9
    · refine (congrFun ((congrArg After4.sq (after4_succ_last V c n hn h1)).trans (last4_sq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) sumBuf4 (Memref.isWhole_whole _) sqBuf4 (Memref.isWhole_whole _) _ _ (blk4 V c 0 ⟨n + 1, hn⟩) (blk4 V c 1 ⟨n + 1, hn⟩) (blk4 V c 2 ⟨n + 1, hn⟩) (blk4 V c 3 ⟨n + 1, hn⟩) _ _)) (ix2 0 b)).trans ?_
      rw [squares4_apply, ih, hblock, Finset.sum_range_succ _ (n + 1), add_assoc]
    · refine (congrFun ((congrArg After4.sq (after4_succ_mid V c n hn h1)).trans (mid4_sq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) sumBuf4 (Memref.isWhole_whole _) sqBuf4 (Memref.isWhole_whole _) _ _ (blk4 V c 0 ⟨n + 1, hn⟩) (blk4 V c 1 ⟨n + 1, hn⟩) (blk4 V c 2 ⟨n + 1, hn⟩) (blk4 V c 3 ⟨n + 1, hn⟩) _ _)) (ix2 0 b)).trans ?_
      rw [squares4_apply, ih, hblock, Finset.sum_range_succ _ (n + 1), add_assoc]

/-- Ten blocks of 5000 rows are the 50000 rows. -/
theorem allRows4 (f : ℕ → EReal) : (∑ p ∈ Finset.range 10, ∑ l : Fin 5000, f (5000 * p + l.val)) = ∑ k : Fin 50000, f k.val :=
  Cert.Lib.BlockSums.sum_blocks 10 5000 f

theorem colAt4_row (pre : S50000x128.Idx → EReal) (b : Fin 128) (k : Fin 50000) : colAt4 pre b k.val = pre (ix2 k b) := by
  unfold colAt4; rw [dif_pos k.isLt]

/-- After the last point: the sums over all 50000 rows. -/
theorem sumLast4 (c : Dev nD) (b : Fin 128) (h9 : 9 < cfg4.N) :
    (after4 V c 9 h9).sum (ix2 0 b) = (Ideal.ofBits .f32 0x00000000#32) + ∑ p : Fin 50000, (preAll4 (V c main_v59) (V c main_v46) (V c main_v11) (V c main_v60)) (ix2 p b) := by
  rw [sumAfter4 V c b 9 h9, allRows4]
  exact congrArg (fun z => (Ideal.ofBits .f32 0x00000000#32) + z) (Finset.sum_congr rfl fun k _ => colAt4_row _ b k)

theorem sqLast4 (c : Dev nD) (b : Fin 128) (h9 : 9 < cfg4.N) :
    (after4 V c 9 h9).sq (ix2 0 b) = (Ideal.ofBits .f32 0x00000000#32) + ∑ p : Fin 50000, (preAll4 (V c main_v59) (V c main_v46) (V c main_v11) (V c main_v60)) (ix2 p b) * (preAll4 (V c main_v59) (V c main_v46) (V c main_v11) (V c main_v60)) (ix2 p b) := by
  rw [sqAfter4 V c b 9 h9, allRows4 (fun k => colAt4 (preAll4 (V c main_v59) (V c main_v46) (V c main_v11) (V c main_v60)) b k * colAt4 (preAll4 (V c main_v59) (V c main_v46) (V c main_v11) (V c main_v60)) b k)]
  exact congrArg (fun z => (Ideal.ofBits .f32 0x00000000#32) + z) (Finset.sum_congr rfl fun k _ => by rw [colAt4_row])

/-- At the last point the mean and the variance buffers are the payloads of the accumulators as just updated. -/
theorem meanLast4 (c : Dev nD) (h9 : 9 < cfg4.N) :
    (after4 V c 9 h9).mean = k4_pay1 (F := Ideal) (after4 V c 9 h9).sum := by
  have e := after4_succ_last V c 8 h9 (by decide)
  rw [e]
  exact (last4_mean c (grid4.coords ⟨8 + 1, h9⟩) (ms4_0 ⟨8 + 1, h9⟩) (hs4_0 ⟨8 + 1, h9⟩) (ms4_1 ⟨8 + 1, h9⟩) (hs4_1 ⟨8 + 1, h9⟩) (ms4_2 ⟨8 + 1, h9⟩) (hs4_2 ⟨8 + 1, h9⟩) (ms4_3 ⟨8 + 1, h9⟩) (hs4_3 ⟨8 + 1, h9⟩) (ms4_4 ⟨8 + 1, h9⟩) (hs4_4 ⟨8 + 1, h9⟩) (ms4_5 ⟨8 + 1, h9⟩) (hs4_5 ⟨8 + 1, h9⟩) (ms4_6 ⟨8 + 1, h9⟩) (hs4_6 ⟨8 + 1, h9⟩) sumBuf4 (Memref.isWhole_whole _) sqBuf4 (Memref.isWhole_whole _) _ _ (blk4 V c 0 ⟨8 + 1, h9⟩) (blk4 V c 1 ⟨8 + 1, h9⟩) (blk4 V c 2 ⟨8 + 1, h9⟩) (blk4 V c 3 ⟨8 + 1, h9⟩) _ _).trans (congrArg _ (last4_sum c (grid4.coords ⟨8 + 1, h9⟩) (ms4_0 ⟨8 + 1, h9⟩) (hs4_0 ⟨8 + 1, h9⟩) (ms4_1 ⟨8 + 1, h9⟩) (hs4_1 ⟨8 + 1, h9⟩) (ms4_2 ⟨8 + 1, h9⟩) (hs4_2 ⟨8 + 1, h9⟩) (ms4_3 ⟨8 + 1, h9⟩) (hs4_3 ⟨8 + 1, h9⟩) (ms4_4 ⟨8 + 1, h9⟩) (hs4_4 ⟨8 + 1, h9⟩) (ms4_5 ⟨8 + 1, h9⟩) (hs4_5 ⟨8 + 1, h9⟩) (ms4_6 ⟨8 + 1, h9⟩) (hs4_6 ⟨8 + 1, h9⟩) sumBuf4 (Memref.isWhole_whole _) sqBuf4 (Memref.isWhole_whole _) _ _ (blk4 V c 0 ⟨8 + 1, h9⟩) (blk4 V c 1 ⟨8 + 1, h9⟩) (blk4 V c 2 ⟨8 + 1, h9⟩) (blk4 V c 3 ⟨8 + 1, h9⟩) _ _).symm)

theorem varLast4 (c : Dev nD) (h9 : 9 < cfg4.N) :
    (after4 V c 9 h9).var = k4_pay2 (F := Ideal) (after4 V c 9 h9).sum (after4 V c 9 h9).sq := by
  have e := after4_succ_last V c 8 h9 (by decide)
  rw [e]
  refine (last4_var c (grid4.coords ⟨8 + 1, h9⟩) (ms4_0 ⟨8 + 1, h9⟩) (hs4_0 ⟨8 + 1, h9⟩) (ms4_1 ⟨8 + 1, h9⟩) (hs4_1 ⟨8 + 1, h9⟩) (ms4_2 ⟨8 + 1, h9⟩) (hs4_2 ⟨8 + 1, h9⟩) (ms4_3 ⟨8 + 1, h9⟩) (hs4_3 ⟨8 + 1, h9⟩) (ms4_4 ⟨8 + 1, h9⟩) (hs4_4 ⟨8 + 1, h9⟩) (ms4_5 ⟨8 + 1, h9⟩) (hs4_5 ⟨8 + 1, h9⟩) (ms4_6 ⟨8 + 1, h9⟩) (hs4_6 ⟨8 + 1, h9⟩) sumBuf4 (Memref.isWhole_whole _) sqBuf4 (Memref.isWhole_whole _) _ _ (blk4 V c 0 ⟨8 + 1, h9⟩) (blk4 V c 1 ⟨8 + 1, h9⟩) (blk4 V c 2 ⟨8 + 1, h9⟩) (blk4 V c 3 ⟨8 + 1, h9⟩) _ _).trans ?_
  rw [last4_sum c (grid4.coords ⟨8 + 1, h9⟩) (ms4_0 ⟨8 + 1, h9⟩) (hs4_0 ⟨8 + 1, h9⟩) (ms4_1 ⟨8 + 1, h9⟩) (hs4_1 ⟨8 + 1, h9⟩) (ms4_2 ⟨8 + 1, h9⟩) (hs4_2 ⟨8 + 1, h9⟩) (ms4_3 ⟨8 + 1, h9⟩) (hs4_3 ⟨8 + 1, h9⟩) (ms4_4 ⟨8 + 1, h9⟩) (hs4_4 ⟨8 + 1, h9⟩) (ms4_5 ⟨8 + 1, h9⟩) (hs4_5 ⟨8 + 1, h9⟩) (ms4_6 ⟨8 + 1, h9⟩) (hs4_6 ⟨8 + 1, h9⟩) sumBuf4 (Memref.isWhole_whole _) sqBuf4 (Memref.isWhole_whole _) _ _ (blk4 V c 0 ⟨8 + 1, h9⟩) (blk4 V c 1 ⟨8 + 1, h9⟩) (blk4 V c 2 ⟨8 + 1, h9⟩) (blk4 V c 3 ⟨8 + 1, h9⟩) _ _, last4_sq c (grid4.coords ⟨8 + 1, h9⟩) (ms4_0 ⟨8 + 1, h9⟩) (hs4_0 ⟨8 + 1, h9⟩) (ms4_1 ⟨8 + 1, h9⟩) (hs4_1 ⟨8 + 1, h9⟩) (ms4_2 ⟨8 + 1, h9⟩) (hs4_2 ⟨8 + 1, h9⟩) (ms4_3 ⟨8 + 1, h9⟩) (hs4_3 ⟨8 + 1, h9⟩) (ms4_4 ⟨8 + 1, h9⟩) (hs4_4 ⟨8 + 1, h9⟩) (ms4_5 ⟨8 + 1, h9⟩) (hs4_5 ⟨8 + 1, h9⟩) (ms4_6 ⟨8 + 1, h9⟩) (hs4_6 ⟨8 + 1, h9⟩) sumBuf4 (Memref.isWhole_whole _) sqBuf4 (Memref.isWhole_whole _) _ _ (blk4 V c 0 ⟨8 + 1, h9⟩) (blk4 V c 1 ⟨8 + 1, h9⟩) (blk4 V c 2 ⟨8 + 1, h9⟩) (blk4 V c 3 ⟨8 + 1, h9⟩) _ _]

/-- Any index of a one-row array is (0, its column). -/
theorem rowIdx4 (j : S1x128.Idx) : j = ix2 0 (j 1) := by
  funext d; apply Fin.ext
  match d with
  | ⟨0, _⟩ => show (j 0).val = 0; have := (j 0).isLt; simp at this; omega
  | ⟨1, _⟩ => rfl

theorem mean4_at (v36 : Vec Ideal S1x128 .f32) (j : S1x128.Idx) :
    k4_pay1 (F := Ideal) v36 j = Ideal.div (v36 (ix2 0 (j 1))) (Ideal.ofBits .f32 0x47435000#32) := by
  have e := rowIdx4 j
  conv_lhs => rw [e]
  exact mean4_apply v36 (j 1)

theorem var4_at (v36 v39 : Vec Ideal S1x128 .f32) (j : S1x128.Idx) :
    k4_pay2 (F := Ideal) v36 v39 j
      = Ideal.div (v39 (ix2 0 (j 1))) (Ideal.ofBits .f32 0x47435000#32) - Ideal.div (v36 (ix2 0 (j 1))) (Ideal.ofBits .f32 0x47435000#32) * Ideal.div (v36 (ix2 0 (j 1))) (Ideal.ofBits .f32 0x47435000#32) := by
  have e := rowIdx4 j
  conv_lhs => rw [e]
  exact (var4_apply v36 v39 (j 1)).trans
    (congrArg₂ (fun x y => Ideal.div (v39 (ix2 0 (j 1))) (Ideal.ofBits .f32 0x47435000#32) - x * y) (mean4_apply v36 (j 1)) (mean4_apply v36 (j 1)))

/-- WHAT POINT t WRITES BACK into the combined-block window is block t of the whole combined array. -/
theorem preFlushed4 (c : Dev nD) (t : Fin cfg4.N) :
    (dat4 V c).flushed 4 t = ((cfg4.win 4).blk t).view.read (Elt Ideal) (preAll4 (V c main_v59) (V c main_v46) (V c main_v11) (V c main_v60)) := by
  show (cfg4.win 4).cut (grid4.coords t) ((dat4 V c).after 4 t) = _
  rw [dat4_after_4, preAt4]
  obtain ⟨-, -, -, -, -, -, -, -, e40, e41, -⟩ := whereStats4 t
  funext j
  show k4_pay5 (F := Ideal) (blk4 V c 2 t) (blk4 V c 0 t) (blk4 V c 1 t) (blk4 V c 3 t) j = (preAll4 (V c main_v59) (V c main_v46) (V c main_v11) (V c main_v60)) (((cfg4.win 4).blk t).view.emb j)
  have e : j = ix2 (j 0) (j 1) := eq_ix2 j
  refine ((congrArg (k4_pay5 (F := Ideal) (blk4 V c 2 t) (blk4 V c 0 t) (blk4 V c 1 t) (blk4 V c 3 t)) e).trans (combineBlock4 V c t (j 0) (j 1))).trans ?_
  refine congrArg _ ?_
  funext d; apply Fin.ext
  match d with
  | ⟨0, _⟩ => show 5000 * t.val + (j 0).val = win4_4.index t (0 : Fin 2) * 5000 + 1 * (j 0).val; omega
  | ⟨1, _⟩ => show (j 1).val = win4_4.index t (1 : Fin 2) * 128 + 1 * (j 1).val; omega

theorem inBlockPre4 (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v61_0).slice (win4_4.rect t)).set ↔ _
  rw [View.set_slice_whole, Rect.mem_set_unit]
  exact Iff.rfl

theorem coveredPre4 (i : S50000x128.Idx) : ∃ t : Fin cfg4.N, (cfg4.win 4).flush t = true ∧ i ∈ ((cfg4.win 4).blk t).view.set := by
  have hi0 : (i 0).val < 50000 := (i 0).isLt
  have hi1 : (i 1).val < 128 := (i 1).isLt
  refine ⟨⟨(i 0).val / 5000, by rw [tenPoints4]; omega⟩, flush4_4 _, ?_⟩
  rw [inBlockPre4]
  obtain ⟨-, -, -, -, -, -, -, -, e40, e41, -⟩ := whereStats4 ⟨(i 0).val / 5000, by rw [tenPoints4]; omega⟩
  intro a
  match a with
  | ⟨0, _⟩ => show win4_4.index _ (0 : Fin 2) * 5000 ≤ (i 0).val ∧ (i 0).val < win4_4.index _ (0 : Fin 2) * 5000 + 5000; (try dsimp only at e40); omega
  | ⟨1, _⟩ => show win4_4.index _ (1 : Fin 2) * 128 ≤ (i 1).val ∧ (i 1).val < win4_4.index _ (1 : Fin 2) * 128 + 128; omega

/-- THE COMBINED ARRAY after the call. -/
theorem statsFinal4_pre (c : Dev nD) : (dat4 V c).arrAt 4 cfg4.N = (preAll4 (V c main_v59) (V c main_v46) (V c main_v11) (V c main_v60)) :=
  (dat4 V c).arrAt_eq_of_cover 4 _ (fun t _ => preFlushed4 V c t) coveredPre4

theorem lastPoint4 (t : Fin cfg4.N) (h : t.val % 10 = 9) : t.val = 9 := by
  have hN : t.val < 10 := lt_of_lt_of_eq t.isLt tenPoints4
  omega

/-- The mean row is written back at the last point only, and there it is the batch mean of the combined array. -/
theorem meanFlushed4 (c : Dev nD) (t : Fin cfg4.N) (hf : (cfg4.win 5).flush t = true) :
    (dat4 V c).flushed 5 t = ((cfg4.win 5).blk t).view.read (Elt Ideal) (meanAll4 (preAll4 (V c main_v59) (V c main_v46) (V c main_v11) (V c main_v60))) := by
  have ht : t.val = 9 := lastPoint4 t ((flush4_5 t).mp hf)
  obtain ⟨n, hn⟩ := t
  (try dsimp only at ht); subst ht
  show (cfg4.win 5).cut (grid4.coords ⟨9, hn⟩) ((dat4 V c).after 5 ⟨9, hn⟩) = _
  rw [dat4_after_5]
  (try dsimp only)
  rw [meanLast4 V c hn]
  obtain ⟨-, -, -, -, -, -, -, -, -, -, e50, e51, -⟩ := whereStats4 ⟨9, hn⟩
  funext j
  show k4_pay1 (F := Ideal) (after4 V c 9 hn).sum j = meanAll4 (preAll4 (V c main_v59) (V c main_v46) (V c main_v11) (V c main_v60)) (((cfg4.win 5).blk ⟨9, hn⟩).view.emb j)
  have he : (((cfg4.win 5).blk ⟨9, hn⟩).view.emb j) 1 = j 1 :=
    Fin.ext (show win4_5.index ⟨9, hn⟩ (1 : Fin 2) * 128 + 1 * (j 1).val = (j 1).val by omega)
  refine (mean4_at _ j).trans ?_
  rw [sumLast4 V c (j 1) hn]
  unfold meanAll4
  rw [he]

theorem varFlushed4 (c : Dev nD) (t : Fin cfg4.N) (hf : (cfg4.win 6).flush t = true) :
    (dat4 V c).flushed 6 t = ((cfg4.win 6).blk t).view.read (Elt Ideal) (varAll4 (preAll4 (V c main_v59) (V c main_v46) (V c main_v11) (V c main_v60))) := by
  have ht : t.val = 9 := lastPoint4 t ((flush4_6 t).mp hf)
  obtain ⟨n, hn⟩ := t
  (try dsimp only at ht); subst ht
  show (cfg4.win 6).cut (grid4.coords ⟨9, hn⟩) ((dat4 V c).after 6 ⟨9, hn⟩) = _
  rw [dat4_after_6]
  (try dsimp only)
  rw [varLast4 V c hn]
  obtain ⟨-, -, -, -, -, -, -, -, -, -, -, -, e60, e61⟩ := whereStats4 ⟨9, hn⟩
  funext j
  show k4_pay2 (F := Ideal) (after4 V c 9 hn).sum (after4 V c 9 hn).sq j = varAll4 (preAll4 (V c main_v59) (V c main_v46) (V c main_v11) (V c main_v60)) (((cfg4.win 6).blk ⟨9, hn⟩).view.emb j)
  have he : (((cfg4.win 6).blk ⟨9, hn⟩).view.emb j) 1 = j 1 :=
    Fin.ext (show win4_6.index ⟨9, hn⟩ (1 : Fin 2) * 128 + 1 * (j 1).val = (j 1).val by omega)
  refine (var4_at _ _ j).trans ?_
  rw [sumLast4 V c (j 1) hn, sqLast4 V c (j 1) hn]
  unfold varAll4 meanAll4
  rw [he]

theorem inBlockMean4 (t : Fin cfg4.N) (i : S1x128.Idx) :
    i ∈ ((cfg4.win 5).blk t).view.set ↔ ∀ a : Fin 2, win4_5.index t a * S1x128.size a ≤ (i a).val ∧ (i a).val < win4_5.index t a * S1x128.size a + S1x128.size a := by
  show i ∈ ((View.whole main_v61_1).slice (win4_5.rect t)).set ↔ _
  rw [View.set_slice_whole, Rect.mem_set_unit]
  exact Iff.rfl

theorem inBlockVar4 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v61_2).slice (win4_6.rect t)).set ↔ _
  rw [View.set_slice_whole, Rect.mem_set_unit]
  exact Iff.rfl

theorem ninth4 : 9 < cfg4.N := by rw [tenPoints4]; decide

theorem coveredMean4 (i : S1x128.Idx) : ∃ t : Fin cfg4.N, (cfg4.win 5).flush t = true ∧ i ∈ ((cfg4.win 5).blk t).view.set := by
  have hi0 : (i 0).val < 1 := (i 0).isLt
  have hi1 : (i 1).val < 128 := (i 1).isLt
  refine ⟨⟨9, ninth4⟩, (flush4_5 _).mpr (by decide), ?_⟩
  rw [inBlockMean4]
  obtain ⟨-, -, -, -, -, -, -, -, -, -, e50, e51, -⟩ := whereStats4 ⟨9, ninth4⟩
  intro a
  match a with
  | ⟨0, _⟩ => show win4_5.index _ (0 : Fin 2) * 1 ≤ (i 0).val ∧ (i 0).val < win4_5.index _ (0 : Fin 2) * 1 + 1; omega
  | ⟨1, _⟩ => show win4_5.index _ (1 : Fin 2) * 128 ≤ (i 1).val ∧ (i 1).val < win4_5.index _ (1 : Fin 2) * 128 + 128; omega

theorem coveredVar4 (i : S1x128.Idx) : ∃ t : Fin cfg4.N, (cfg4.win 6).flush t = true ∧ i ∈ ((cfg4.win 6).blk t).view.set := by
  have hi0 : (i 0).val < 1 := (i 0).isLt
  have hi1 : (i 1).val < 128 := (i 1).isLt
  refine ⟨⟨9, ninth4⟩, (flush4_6 _).mpr (by decide), ?_⟩
  rw [inBlockVar4]
  obtain ⟨-, -, -, -, -, -, -, -, -, -, -, -, e60, e61⟩ := whereStats4 ⟨9, ninth4⟩
  intro a
  match a with
  | ⟨0, _⟩ => show win4_6.index _ (0 : Fin 2) * 1 ≤ (i 0).val ∧ (i 0).val < win4_6.index _ (0 : Fin 2) * 1 + 1; omega
  | ⟨1, _⟩ => show win4_6.index _ (1 : Fin 2) * 128 ≤ (i 1).val ∧ (i 1).val < win4_6.index _ (1 : Fin 2) * 128 + 128; omega

/-- THE MEAN ROW and THE VARIANCE ROW after the call. -/
theorem statsFinal4_mean (c : Dev nD) : (dat4 V c).arrAt 5 cfg4.N = meanAll4 (preAll4 (V c main_v59) (V c main_v46) (V c main_v11) (V c main_v60)) :=
  (dat4 V c).arrAt_eq_of_cover 5 _ (fun t hf => meanFlushed4 V c t hf) coveredMean4

theorem statsFinal4_var (c : Dev nD) : (dat4 V c).arrAt 6 cfg4.N = varAll4 (preAll4 (V c main_v59) (V c main_v46) (V c main_v11) (V c main_v60)) :=
  (dat4 V c).arrAt_eq_of_cover 6 _ (fun t hf => varFlushed4 V c t hf) coveredVar4

end Cert.KernelIdeal.Hand

end
-- ==== Proof.Ideal.Stats7PiecesFirst.lean ====
/-
  The combine-and-statistics call of layer three, the first grid point: what its run stores, named. The combined block is the
  payload of the loaded input blocks; each accumulator is the payload adding the block's column sums to what it held
  (zero at the first point); at the last point the mean and the variance buffers are the payloads of the two
  accumulators as just updated.
-/
import proofs.«169495_j53601191854606_1_alg».proof.Proof.Ideal.Stats7Cases
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
theorem origin2s7 : (![0, 0] : Fin 2 → Nat) = fun _ => 0 := funext fun a => by fin_cases a <;> rfl

set_option maxHeartbeats 1600000 in
theorem first7_pre (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : atFirst7 i) (hc1 : ¬atLast7 i) (x1 : Vec F S5000x64 .f32) (x2 : Vec F S5000x64 .f32) (x3 : Vec F S5000x1 .f32) (x4 : Vec F S1x64 .f32) :
    (first7 c i arg1 harg1 arg2 harg2 arg3 harg3 arg4 harg4 arg5 harg5 arg6 harg6 arg7 harg7 arg8 harg8 arg9 harg9 hc0 hc1 x1 x2 x3 x4).pre = k7_pay5 x3 x1 x2 x4 := by
  unfold first7; dsimp only
  rw [View.read_writes_eq_canon _ _ _ (cover7_first_pre c i arg1 harg1 arg2 harg2 arg3 harg3 arg4 harg4 arg5 harg5 arg6 harg6 arg7 harg7 arg8 harg8 arg9 harg9 hc0 hc1 x1 x2 x3 x4)]
  unfold runFirst7; dsimp only
  sl_unfold_words
  first | rw [View.canon_unit_zero origin2s7] | rw [View.canon_cons_unit_zero origin2s7]
  simp only [View.readCov_unit_zero (S := S1x64) _ origin2s7, View.readAt_eq_ld, harg1.read_unread, harg2.read_unread, harg3.read_unread, harg4.read_unread, harg8.read_unread, harg9.read_unread,
    View.ld_unit_zero (S := S5000x64) origin2s7, View.ld_unit_zero (S := S5000x1) origin2s7, View.ld_unit_zero (S := S1x64) origin2s7]
set_option maxHeartbeats 1600000 in
theorem first7_sum (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : atFirst7 i) (hc1 : ¬atLast7 i) (x1 : Vec F S5000x64 .f32) (x2 : Vec F S5000x64 .f32) (x3 : Vec F S5000x1 .f32) (x4 : Vec F S1x64 .f32) :
    (first7 c i arg1 harg1 arg2 harg2 arg3 harg3 arg4 harg4 arg5 harg5 arg6 harg6 arg7 harg7 arg8 harg8 arg9 harg9 hc0 hc1 x1 x2 x3 x4).sum = k7_pay6 x3 x1 x2 x4 (k7_pay3 (F := F)) := by
  unfold first7; dsimp only
  rw [View.read_writes_eq_canon _ _ _ (cover7_first_sum c i arg1 harg1 arg2 harg2 arg3 harg3 arg4 harg4 arg5 harg5 arg6 harg6 arg7 harg7 arg8 harg8 arg9 harg9 hc0 hc1 x1 x2 x3 x4)]
  unfold runFirst7; dsimp only
  sl_unfold_words
  first | rw [View.canon_unit_zero origin2s7] | rw [View.canon_cons_unit_zero origin2s7]
  simp only [View.readCov_unit_zero (S := S1x64) _ origin2s7, View.readAt_eq_ld, harg1.read_unread, harg2.read_unread, harg3.read_unread, harg4.read_unread, harg8.read_unread, harg9.read_unread,
    View.ld_unit_zero (S := S5000x64) origin2s7, View.ld_unit_zero (S := S5000x1) origin2s7, View.ld_unit_zero (S := S1x64) origin2s7]
set_option maxHeartbeats 1600000 in
theorem first7_sq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : atFirst7 i) (hc1 : ¬atLast7 i) (x1 : Vec F S5000x64 .f32) (x2 : Vec F S5000x64 .f32) (x3 : Vec F S5000x1 .f32) (x4 : Vec F S1x64 .f32) :
    (first7 c i arg1 harg1 arg2 harg2 arg3 harg3 arg4 harg4 arg5 harg5 arg6 harg6 arg7 harg7 arg8 harg8 arg9 harg9 hc0 hc1 x1 x2 x3 x4).sq = k7_pay7 x3 x1 x2 x4 (k7_pay4 (F := F)) := by
  unfold first7; dsimp only
  rw [View.read_writes_eq_canon _ _ _ (cover7_first_sq c i arg1 harg1 arg2 harg2 arg3 harg3 arg4 harg4 arg5 harg5 arg6 harg6 arg7 harg7 arg8 harg8 arg9 harg9 hc0 hc1 x1 x2 x3 x4)]
  unfold runFirst7; dsimp only
  sl_unfold_words
  first | rw [View.canon_unit_zero origin2s7] | rw [View.canon_cons_unit_zero origin2s7]
  simp only [View.readCov_unit_zero (S := S1x64) _ origin2s7, View.readAt_eq_ld, harg1.read_unread, harg2.read_unread, harg3.read_unread, harg4.read_unread, harg8.read_unread, harg9.read_unread,
    View.ld_unit_zero (S := S5000x64) origin2s7, View.ld_unit_zero (S := S5000x1) origin2s7, View.ld_unit_zero (S := S1x64) origin2s7]

end Cert.KernelIdeal.Hand

end
-- ==== Proof.Ideal.Stats7PiecesMid.lean ====
/-
  The combine-and-statistics call of layer three, a middle grid point: what its run stores, named. The combined block is the
  payload of the loaded input blocks; each accumulator is the payload adding the block's column sums to what it held
  (zero at the first point); at the last point the mean and the variance buffers are the payloads of the two
  accumulators as just updated.
-/
import proofs.«169495_j53601191854606_1_alg».proof.Proof.Ideal.Stats7Cases
import proofs.«169495_j53601191854606_1_alg».proof.Proof.Ideal.Stats7PiecesFirst
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 1600000 in
theorem mid7_pre (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : ¬atLast7 i) (x1 : Vec F S5000x64 .f32) (x2 : Vec F S5000x64 .f32) (x3 : Vec F S5000x1 .f32) (x4 : Vec F S1x64 .f32) (s8 : Vec F S1x64 .f32) (s9 : Vec F S1x64 .f32) :
    (mid7 c i arg1 harg1 arg2 harg2 arg3 harg3 arg4 harg4 arg5 harg5 arg6 harg6 arg7 harg7 arg8 harg8 arg9 harg9 hc0 hc1 x1 x2 x3 x4 s8 s9).pre = k7_pay5 x3 x1 x2 x4 := by
  unfold mid7; dsimp only
  rw [View.read_writes_eq_canon _ _ _ (cover7_mid_pre c i arg1 harg1 arg2 harg2 arg3 harg3 arg4 harg4 arg5 harg5 arg6 harg6 arg7 harg7 arg8 harg8 arg9 harg9 hc0 hc1 x1 x2 x3 x4 s8 s9)]
  unfold runMid7; dsimp only
  sl_unfold_words
  first | rw [View.canon_unit_zero origin2s7] | rw [View.canon_cons_unit_zero origin2s7]
  simp only [View.readCov_unit_zero (S := S1x64) _ origin2s7, View.readAt_eq_ld, harg1.read_unread, harg2.read_unread, harg3.read_unread, harg4.read_unread, harg8.read_unread, harg9.read_unread,
    View.ld_unit_zero (S := S5000x64) origin2s7, View.ld_unit_zero (S := S5000x1) origin2s7, View.ld_unit_zero (S := S1x64) origin2s7]
set_option maxHeartbeats 1600000 in
theorem mid7_sum (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : ¬atLast7 i) (x1 : Vec F S5000x64 .f32) (x2 : Vec F S5000x64 .f32) (x3 : Vec F S5000x1 .f32) (x4 : Vec F S1x64 .f32) (s8 : Vec F S1x64 .f32) (s9 : Vec F S1x64 .f32) :
    (mid7 c i arg1 harg1 arg2 harg2 arg3 harg3 arg4 harg4 arg5 harg5 arg6 harg6 arg7 harg7 arg8 harg8 arg9 harg9 hc0 hc1 x1 x2 x3 x4 s8 s9).sum = k7_pay6 x3 x1 x2 x4 s8 := by
  unfold mid7; dsimp only
  rw [View.read_writes_eq_canon _ _ _ (cover7_mid_sum c i arg1 harg1 arg2 harg2 arg3 harg3 arg4 harg4 arg5 harg5 arg6 harg6 arg7 harg7 arg8 harg8 arg9 harg9 hc0 hc1 x1 x2 x3 x4 s8 s9)]
  unfold runMid7; dsimp only
  sl_unfold_words
  first | rw [View.canon_unit_zero origin2s7] | rw [View.canon_cons_unit_zero origin2s7]
  simp only [View.readCov_unit_zero (S := S1x64) _ origin2s7, View.readAt_eq_ld, harg1.read_unread, harg2.read_unread, harg3.read_unread, harg4.read_unread, harg8.read_unread, harg9.read_unread,
    View.ld_unit_zero (S := S5000x64) origin2s7, View.ld_unit_zero (S := S5000x1) origin2s7, View.ld_unit_zero (S := S1x64) origin2s7]
set_option maxHeartbeats 1600000 in
theorem mid7_sq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : ¬atLast7 i) (x1 : Vec F S5000x64 .f32) (x2 : Vec F S5000x64 .f32) (x3 : Vec F S5000x1 .f32) (x4 : Vec F S1x64 .f32) (s8 : Vec F S1x64 .f32) (s9 : Vec F S1x64 .f32) :
    (mid7 c i arg1 harg1 arg2 harg2 arg3 harg3 arg4 harg4 arg5 harg5 arg6 harg6 arg7 harg7 arg8 harg8 arg9 harg9 hc0 hc1 x1 x2 x3 x4 s8 s9).sq = k7_pay7 x3 x1 x2 x4 s9 := by
  unfold mid7; dsimp only
  rw [View.read_writes_eq_canon _ _ _ (cover7_mid_sq c i arg1 harg1 arg2 harg2 arg3 harg3 arg4 harg4 arg5 harg5 arg6 harg6 arg7 harg7 arg8 harg8 arg9 harg9 hc0 hc1 x1 x2 x3 x4 s8 s9)]
  unfold runMid7; dsimp only
  sl_unfold_words
  first | rw [View.canon_unit_zero origin2s7] | rw [View.canon_cons_unit_zero origin2s7]
  simp only [View.readCov_unit_zero (S := S1x64) _ origin2s7, View.readAt_eq_ld, harg1.read_unread, harg2.read_unread, harg3.read_unread, harg4.read_unread, harg8.read_unread, harg9.read_unread,
    View.ld_unit_zero (S := S5000x64) origin2s7, View.ld_unit_zero (S := S5000x1) origin2s7, View.ld_unit_zero (S := S1x64) origin2s7]

end Cert.KernelIdeal.Hand

end
-- ==== Proof.Ideal.Stats7PiecesLast.lean ====
/-
  The combine-and-statistics call of layer three, the last grid point: what its run stores, named. The combined block is the
  payload of the loaded input blocks; each accumulator is the payload adding the block's column sums to what it held
  (zero at the first point); at the last point the mean and the variance buffers are the payloads of the two
  accumulators as just updated.
-/
import proofs.«169495_j53601191854606_1_alg».proof.Proof.Ideal.Stats7Cases
import proofs.«169495_j53601191854606_1_alg».proof.Proof.Ideal.Stats7PiecesFirst
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 1600000 in
theorem last7_pre (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) :
    (last7 c i arg1 harg1 arg2 harg2 arg3 harg3 arg4 harg4 arg5 harg5 arg6 harg6 arg7 harg7 arg8 harg8 arg9 harg9 hc0 hc1 x1 x2 x3 x4 s8 s9).pre = k7_pay5 x3 x1 x2 x4 := by
  unfold last7; dsimp only
  rw [View.read_writes_eq_canon _ _ _ (cover7_last_pre c i arg1 harg1 arg2 harg2 arg3 harg3 arg4 harg4 arg5 harg5 arg6 harg6 arg7 harg7 arg8 harg8 arg9 harg9 hc0 hc1 x1 x2 x3 x4 s8 s9)]
  unfold runLast7; dsimp only
  sl_unfold_words
  first | rw [View.canon_unit_zero origin2s7] | rw [View.canon_cons_unit_zero origin2s7]
  simp only [View.readCov_unit_zero (S := S1x64) _ origin2s7, View.readAt_eq_ld, harg1.read_unread, harg2.read_unread, harg3.read_unread, harg4.read_unread, harg8.read_unread, harg9.read_unread,
    View.ld_unit_zero (S := S5000x64) origin2s7, View.ld_unit_zero (S := S5000x1) origin2s7, View.ld_unit_zero (S := S1x64) origin2s7]
set_option maxHeartbeats 1600000 in
theorem last7_sum (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) :
    (last7 c i arg1 harg1 arg2 harg2 arg3 harg3 arg4 harg4 arg5 harg5 arg6 harg6 arg7 harg7 arg8 harg8 arg9 harg9 hc0 hc1 x1 x2 x3 x4 s8 s9).sum = k7_pay6 x3 x1 x2 x4 s8 := by
  unfold last7; dsimp only
  rw [View.read_writes_eq_canon _ _ _ (cover7_last_sum c i arg1 harg1 arg2 harg2 arg3 harg3 arg4 harg4 arg5 harg5 arg6 harg6 arg7 harg7 arg8 harg8 arg9 harg9 hc0 hc1 x1 x2 x3 x4 s8 s9)]
  unfold runLast7; dsimp only
  sl_unfold_words
  first | rw [View.canon_unit_zero origin2s7] | rw [View.canon_cons_unit_zero origin2s7]
  simp only [View.readCov_unit_zero (S := S1x64) _ origin2s7, View.readAt_eq_ld, harg1.read_unread, harg2.read_unread, harg3.read_unread, harg4.read_unread, harg8.read_unread, harg9.read_unread,
    View.ld_unit_zero (S := S5000x64) origin2s7, View.ld_unit_zero (S := S5000x1) origin2s7, View.ld_unit_zero (S := S1x64) origin2s7]
set_option maxHeartbeats 1600000 in
theorem last7_sq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) :
    (last7 c i arg1 harg1 arg2 harg2 arg3 harg3 arg4 harg4 arg5 harg5 arg6 harg6 arg7 harg7 arg8 harg8 arg9 harg9 hc0 hc1 x1 x2 x3 x4 s8 s9).sq = k7_pay7 x3 x1 x2 x4 s9 := by
  unfold last7; dsimp only
  rw [View.read_writes_eq_canon _ _ _ (cover7_last_sq c i arg1 harg1 arg2 harg2 arg3 harg3 arg4 harg4 arg5 harg5 arg6 harg6 arg7 harg7 arg8 harg8 arg9 harg9 hc0 hc1 x1 x2 x3 x4 s8 s9)]
  unfold runLast7; dsimp only
  sl_unfold_words
  first | rw [View.canon_unit_zero origin2s7] | rw [View.canon_cons_unit_zero origin2s7]
  simp only [View.readCov_unit_zero (S := S1x64) _ origin2s7, View.readAt_eq_ld, harg1.read_unread, harg2.read_unread, harg3.read_unread, harg4.read_unread, harg8.read_unread, harg9.read_unread,
    View.ld_unit_zero (S := S5000x64) origin2s7, View.ld_unit_zero (S := S5000x1) origin2s7, View.ld_unit_zero (S := S1x64) origin2s7]
set_option maxHeartbeats 1600000 in
theorem last7_mean (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) :
    (last7 c i arg1 harg1 arg2 harg2 arg3 harg3 arg4 harg4 arg5 harg5 arg6 harg6 arg7 harg7 arg8 harg8 arg9 harg9 hc0 hc1 x1 x2 x3 x4 s8 s9).mean = k7_pay1 (k7_pay6 x3 x1 x2 x4 s8) := by
  unfold last7; dsimp only
  rw [View.read_writes_eq_canon _ _ _ (cover7_last_mean c i arg1 harg1 arg2 harg2 arg3 harg3 arg4 harg4 arg5 harg5 arg6 harg6 arg7 harg7 arg8 harg8 arg9 harg9 hc0 hc1 x1 x2 x3 x4 s8 s9)]
  unfold runLast7; dsimp only
  sl_unfold_words
  first | rw [View.canon_unit_zero origin2s7] | rw [View.canon_cons_unit_zero origin2s7]
  simp only [View.readCov_unit_zero (S := S1x64) _ origin2s7, View.readAt_eq_ld, harg1.read_unread, harg2.read_unread, harg3.read_unread, harg4.read_unread, harg8.read_unread, harg9.read_unread,
    View.ld_unit_zero (S := S5000x64) origin2s7, View.ld_unit_zero (S := S5000x1) origin2s7, View.ld_unit_zero (S := S1x64) origin2s7]
set_option maxHeartbeats 1600000 in
theorem last7_var (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬atFirst7 i) (hc1 : atLast7 i) (x1 : Vec F S5000x64 .f32) (x2 : Vec F S5000x64 .f32) (x3 : Vec F S5000x1 .f32) (x4 : Vec F S1x64 .f32) (s8 : Vec F S1x64 .f32) (s9 : Vec F S1x64 .f32) :
    (last7 c i arg1 harg1 arg2 harg2 arg3 harg3 arg4 harg4 arg5 harg5 arg6 harg6 arg7 harg7 arg8 harg8 arg9 harg9 hc0 hc1 x1 x2 x3 x4 s8 s9).var = k7_pay2 (k7_pay6 x3 x1 x2 x4 s8) (k7_pay7 x3 x1 x2 x4 s9) := by
  unfold last7; dsimp only
  rw [View.read_writes_eq_canon _ _ _ (cover7_last_var c i arg1 harg1 arg2 harg2 arg3 harg3 arg4 harg4 arg5 harg5 arg6 harg6 arg7 harg7 arg8 harg8 arg9 harg9 hc0 hc1 x1 x2 x3 x4 s8 s9)]
  unfold runLast7; dsimp only
  sl_unfold_words
  first | rw [View.canon_unit_zero origin2s7] | rw [View.canon_cons_unit_zero origin2s7]
  simp only [View.readCov_unit_zero (S := S1x64) _ origin2s7, View.readAt_eq_ld, harg1.read_unread, harg2.read_unread, harg3.read_unread, harg4.read_unread, harg8.read_unread, harg9.read_unread,
    View.ld_unit_zero (S := S5000x64) origin2s7, View.ld_unit_zero (S := S5000x1) origin2s7, View.ld_unit_zero (S := S1x64) origin2s7]

end Cert.KernelIdeal.Hand

end
-- ==== Proof.Ideal.Stats7Payloads.lean ====
/-
  The combine-and-statistics body of layer three, its payloads read at an index at the ideal float instance: the
  combined entry (agg + h · d²) + b; an accumulator's entry after a point, what it held plus the block's column sum
  (of the combined entries, or of their squares); the mean, the accumulated sum over 50000; the variance, the
  accumulated sum of squares over 50000 less the squared mean; and the zeroed accumulator, 0.
-/
import proofs.«169495_j53601191854606_1_alg».proof.Proof.Ideal.Stats7Cases
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- A one-column array repeated along 64 columns, read at (a, b): the column's entry at row a. -/
theorem colBcast7 {α : Type} (v : S5000x1.Idx → α) (a : Fin 5000) (b : Fin 64) :
    broadcastTo S5000x64 v broadcasts_S5000x1_S5000x64 (ix2 a b) = v (ix2 a 0) :=
  broadcastTo_apply v _ (ix2 a b) (ix2 a 0) (fun d => by
    match d with
    | ⟨0, _⟩ => rfl
    | ⟨1, _⟩ => rfl)

/-- A one-row array repeated down 5000 rows, read at (a, b): the row's entry at column b. -/
theorem rowBcast7 {α : Type} (v : S1x64.Idx → α) (a : Fin 5000) (b : Fin 64) :
    broadcastTo S5000x64 v broadcasts_S1x64_S5000x64 (ix2 a b) = v (ix2 0 b) :=
  broadcastTo_apply v _ (ix2 a b) (ix2 0 b) (fun d => by
    match d with
    | ⟨0, _⟩ => rfl
    | ⟨1, _⟩ => rfl)

/-- The index over column t whose coordinate on the summed row axis is k is (k, t). -/
theorem rowLift7 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Row 0, column b of a one-row array is entry b of the vector it was cast from. -/
theorem vecRow7 (b : Fin 64) : (fun a : Fin 1 => (ix2 (0 : Fin 1) b) a.succ) = ix1 b := by
  funext a; apply Fin.ext
  fin_cases a; rfl

theorem combine7_apply (v3 : Vec Ideal S5000x1 .f32) (v5 v7 : Vec Ideal S5000x64 .f32) (v13 : Vec Ideal S1x64 .f32) (a : Fin 5000) (b : Fin 64) :
    k7_pay5 (F := Ideal) v3 v5 v7 v13 (ix2 a b) = (v5 (ix2 a b) + v7 (ix2 a b) * (v3 (ix2 a 0) * v3 (ix2 a 0))) + v13 (ix2 0 b) := by
  unfold k7_pay5
  simp only [addf_apply, mulf_apply, shapeCast_self, colBcast7, rowBcast7]

/-- The column sum of a 5000-row block, cast to one row, read at column b. -/
theorem colSum_apply7 (X : FVec Ideal S5000x64 .f32) (hφ : FKind.Formats .f32) (hacc : (0x00000000#32 : BitVec 32) = FKind.add.neutral .f32 hφ) (b : Fin 64) :
    shapeCast S1x64 (multiReduction .add [0] S64 X 0x00000000#32 reduces_S5000x64_S64 hφ hacc) shapeCasts_S64_S1x64 (ix2 0 b)
      = ∑ a : Fin 5000, X (ix2 a b) := by
  rw [shapeCast_addUnit_apply, vecRow7]
  refine (Ideal.multiReduction_add_single X _ reduces_S5000x64_S64 hφ hacc (ix1 b)).trans ?_
  exact Finset.sum_congr rfl fun k _ => congrArg X (rowLift7 reduces_S5000x64_S64 b k)

theorem sums7_apply (v3 : Vec Ideal S5000x1 .f32) (v5 v7 : Vec Ideal S5000x64 .f32) (v13 v18 : Vec Ideal S1x64 .f32) (b : Fin 64) :
    k7_pay6 (F := Ideal) v3 v5 v7 v13 v18 (ix2 0 b) = v18 (ix2 0 b) + ∑ a : Fin 5000, k7_pay5 (F := Ideal) v3 v5 v7 v13 (ix2 a b) := by
  unfold k7_pay6
  simp only [addf_apply, shapeCast_self]
  exact congrArg (fun z => v18 (ix2 0 b) + z) (colSum_apply7 _ _ _ b)

theorem squares7_apply (v3 : Vec Ideal S5000x1 .f32) (v5 v7 : Vec Ideal S5000x64 .f32) (v13 v25 : Vec Ideal S1x64 .f32) (b : Fin 64) :
    k7_pay7 (F := Ideal) v3 v5 v7 v13 v25 (ix2 0 b)
      = v25 (ix2 0 b) + ∑ a : Fin 5000, k7_pay5 (F := Ideal) v3 v5 v7 v13 (ix2 a b) * k7_pay5 (F := Ideal) v3 v5 v7 v13 (ix2 a b) := by
  unfold k7_pay7
  simp only [addf_apply, shapeCast_self]
  refine congrArg (fun z => v25 (ix2 0 b) + z) ((colSum_apply7 _ _ _ b).trans ?_)
  exact Finset.sum_congr rfl fun a _ => mulf_apply _ _ _

theorem mean7_apply (v36 : Vec Ideal S1x64 .f32) (b : Fin 64) :
    k7_pay1 (F := Ideal) v36 (ix2 0 b) = Ideal.div (v36 (ix2 0 b)) (Ideal.ofBits .f32 0x47435000#32) := by
  unfold k7_pay1
  simp only [divf_apply, broadcast_apply]
  rfl

theorem var7_apply (v36 v39 : Vec Ideal S1x64 .f32) (b : Fin 64) :
    k7_pay2 (F := Ideal) v36 v39 (ix2 0 b)
      = Ideal.div (v39 (ix2 0 b)) (Ideal.ofBits .f32 0x47435000#32) - k7_pay1 (F := Ideal) v36 (ix2 0 b) * k7_pay1 (F := Ideal) v36 (ix2 0 b) := by
  unfold k7_pay2
  simp only [subf_apply, mulf_apply, divf_apply, broadcast_apply]
  rfl

theorem zeroSum7_apply (j : S1x64.Idx) : k7_pay3 (F := Ideal) j = Ideal.ofBits .f32 0x00000000#32 := by
  unfold k7_pay3
  simp only [shapeCast_self, broadcast_apply]
  rfl

theorem zeroSq7_apply (j : S1x64.Idx) : k7_pay4 (F := Ideal) j = Ideal.ofBits .f32 0x00000000#32 := by
  unfold k7_pay4
  simp only [shapeCast_self, broadcast_apply]
  rfl

end Cert.KernelIdeal.Hand

end
-- ==== Proof.Ideal.StatsValue7.lean ====
/-
  The combine-and-statistics call of layer three, read as values at the ideal float instance. Each grid point's
  combined block is rows 5000·t … 5000·t+4999 of one whole array pre = (agg + h · d²) + b of the arrays the call found.
  After point n each accumulator holds zero plus the column sums (of pre, of pre²) over the rows of points 0 … n; after
  the last point that is the sum over all 50000 rows, regrouping ten blocks of 5000. So the call leaves the whole pre
  array, and in the one-row windows the mean (Σ pre)/50000 and the variance (Σ pre²)/50000 − mean².
-/
import proofs.«169495_j53601191854606_1_alg».proof.Proof.Ideal.Stats7Body
import proofs.«169495_j53601191854606_1_alg».proof.Proof.Ideal.Stats7PiecesFirst
import proofs.«169495_j53601191854606_1_alg».proof.Proof.Ideal.Stats7PiecesMid
import proofs.«169495_j53601191854606_1_alg».proof.Proof.Ideal.Stats7PiecesLast
import proofs.«169495_j53601191854606_1_alg».proof.Proof.Ideal.Stats7Payloads
import proofs.«169495_j53601191854606_1_alg».proof.Proof.LibBlockSums
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The whole combined array. -/
def preAll7 (agg h : S50000x64.Idx → EReal) (d : S50000x1.Idx → EReal) (b : S1x64.Idx → EReal) : S50000x64.Idx → EReal :=
  fun i => (agg i + h i * (d (ix2 (i 0) 0) * d (ix2 (i 0) 0))) + b (ix2 0 (i 1))

/-- The batch mean per column, as one row. -/
def meanAll7 (pre : S50000x64.Idx → EReal) : S1x64.Idx → EReal :=
  fun j => Ideal.div ((Ideal.ofBits .f32 0x00000000#32) + ∑ p : Fin 50000, pre (ix2 p (j 1))) (Ideal.ofBits .f32 0x47435000#32)

/-- The one-pass variance per column, as one row. -/
def varAll7 (pre : S50000x64.Idx → EReal) : S1x64.Idx → EReal :=
  fun j => Ideal.div ((Ideal.ofBits .f32 0x00000000#32) + ∑ p : Fin 50000, pre (ix2 p (j 1)) * pre (ix2 p (j 1))) (Ideal.ofBits .f32 0x47435000#32) - meanAll7 pre j * meanAll7 pre j

theorem whereStats7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

theorem rowIn7 (t : Fin cfg7.N) (a : Fin 5000) : 5000 * t.val + a.val < 50000 := by
  have hN : t.val < 10 := lt_of_lt_of_eq t.isLt tenPoints7
  have ha : a.val < 5000 := a.isLt
  omega

/-- The input blocks at point t read where the arrays hold them. -/
theorem aggBlock7 (c : Dev nD) (t : Fin cfg7.N) (a : Fin 5000) (b : Fin 64) :
    blk7 V c 0 t (ix2 a b) = V c main_v78 (ix2 ⟨5000 * t.val + a.val, rowIn7 t a⟩ b) := by
  obtain ⟨e00, e01, -⟩ := whereStats7 t
  show V c main_v78 (((cfg7.win 0).blk t).view.emb (ix2 a b)) = _
  refine congrArg _ ?_
  funext d; apply Fin.ext
  match d with
  | ⟨0, _⟩ => show win7_0.index t (0 : Fin 2) * 5000 + 1 * a.val = 5000 * t.val + a.val; omega
  | ⟨1, _⟩ => show win7_0.index t (1 : Fin 2) * 64 + 1 * b.val = b.val; omega

theorem hBlock7 (c : Dev nD) (t : Fin cfg7.N) (a : Fin 5000) (b : Fin 64) :
    blk7 V c 1 t (ix2 a b) = V c main_v65 (ix2 ⟨5000 * t.val + a.val, rowIn7 t a⟩ b) := by
  obtain ⟨-, -, e10, e11, -⟩ := whereStats7 t
  show V c main_v65 (((cfg7.win 1).blk t).view.emb (ix2 a b)) = _
  refine congrArg _ ?_
  funext d; apply Fin.ext
  match d with
  | ⟨0, _⟩ => show win7_1.index t (0 : Fin 2) * 5000 + 1 * a.val = 5000 * t.val + a.val; omega
  | ⟨1, _⟩ => show win7_1.index t (1 : Fin 2) * 64 + 1 * b.val = b.val; omega

theorem dBlock7 (c : Dev nD) (t : Fin cfg7.N) (a : Fin 5000) :
    blk7 V c 2 t (ix2 a 0) = V c main_v11 (ix2 ⟨5000 * t.val + a.val, rowIn7 t a⟩ 0) := by
  obtain ⟨-, -, -, -, e20, e21, -⟩ := whereStats7 t
  show V c main_v11 (((cfg7.win 2).blk t).view.emb (ix2 a 0)) = _
  refine congrArg _ ?_
  funext d; apply Fin.ext
  match d with
  | ⟨0, _⟩ => show win7_2.index t (0 : Fin 2) * 5000 + 1 * a.val = 5000 * t.val + a.val; omega
  | ⟨1, _⟩ => show win7_2.index t (1 : Fin 2) * 1 + 1 * 0 = 0; omega

theorem bBlock7 (c : Dev nD) (t : Fin cfg7.N) (b : Fin 64) :
    blk7 V c 3 t (ix2 0 b) = V c main_v79 (ix2 0 b) := by
  obtain ⟨-, -, -, -, -, -, e30, e31, -⟩ := whereStats7 t
  show V c main_v79 (((cfg7.win 3).blk t).view.emb (ix2 0 b)) = _
  refine congrArg _ ?_
  funext d; apply Fin.ext
  match d with
  | ⟨0, _⟩ => show win7_3.index t (0 : Fin 2) * 1 + 1 * 0 = 0; omega
  | ⟨1, _⟩ => show win7_3.index t (1 : Fin 2) * 64 + 1 * b.val = b.val; omega

/-- The combined block of point t at (a, b) is the whole combined array at row 5000·t + a. -/
theorem combineBlock7 (c : Dev nD) (t : Fin cfg7.N) (a : Fin 5000) (b : Fin 64) :
    k7_pay5 (F := Ideal) (blk7 V c 2 t) (blk7 V c 0 t) (blk7 V c 1 t) (blk7 V c 3 t) (ix2 a b)
      = preAll7 (V c main_v78) (V c main_v65) (V c main_v11) (V c main_v79) (ix2 ⟨5000 * t.val + a.val, rowIn7 t a⟩ b) := by
  rw [combine7_apply, aggBlock7, hBlock7, dBlock7, bBlock7]
  rfl

/-- What each point stores, named by its payload (whichever of the three cases the point is). -/
theorem preAt7 (c : Dev nD) (t : Fin cfg7.N) :
    (after7 V c t.val t.isLt).pre = k7_pay5 (F := Ideal) (blk7 V c 2 t) (blk7 V c 0 t) (blk7 V c 1 t) (blk7 V c 3 t) := by
  have hN : t.val < 10 := lt_of_lt_of_eq t.isLt tenPoints7
  by_cases h0 : t.val % 10 = 0
  · have h1 : ¬t.val % 10 = 9 := by omega
    rw [after7_first V c t h0 h1]
    exact first7_pre c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) sumBuf7 (Memref.isWhole_whole _) sqBuf7 (Memref.isWhole_whole _) ((atFirst7_iff t).mpr h0) (fun h => h1 ((atLast7_iff t).mp h)) (blk7 V c 0 t) (blk7 V c 1 t) (blk7 V c 2 t) (blk7 V c 3 t)
  · by_cases h1 : t.val % 10 = 9
    · rw [after7_last V c t h0 h1]
      exact last7_pre c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) sumBuf7 (Memref.isWhole_whole _) sqBuf7 (Memref.isWhole_whole _) (fun h => h0 ((atFirst7_iff t).mp h)) ((atLast7_iff t).mpr h1) (blk7 V c 0 t) (blk7 V c 1 t) (blk7 V c 2 t) (blk7 V c 3 t) _ _
    · rw [after7_mid V c t h0 h1]
      exact mid7_pre c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) sumBuf7 (Memref.isWhole_whole _) sqBuf7 (Memref.isWhole_whole _) (fun h => h0 ((atFirst7_iff t).mp h)) (fun h => h1 ((atLast7_iff t).mp h)) (blk7 V c 0 t) (blk7 V c 1 t) (blk7 V c 2 t) (blk7 V c 3 t) _ _

/-- The accumulation's step equations, by position. -/
theorem after7_zero (c : Dev nD) (hn : 0 < cfg7.N) :
    after7 V c 0 hn = first7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) sumBuf7 (Memref.isWhole_whole _) sqBuf7 (Memref.isWhole_whole _)
      ((atFirst7_iff ⟨0, hn⟩).mpr (Nat.zero_mod _))
      (fun h => by have h9 := (atLast7_iff ⟨0, hn⟩).mp h; (try dsimp only at h9); omega) (blk7 V c 0 ⟨0, hn⟩) (blk7 V c 1 ⟨0, hn⟩) (blk7 V c 2 ⟨0, hn⟩) (blk7 V c 3 ⟨0, hn⟩) := rfl

theorem after7_succ_last (c : Dev nD) (n : ℕ) (hn : n + 1 < cfg7.N) (h1 : (n + 1) % 10 = 9) :
    after7 V c (n + 1) hn = last7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) sumBuf7 (Memref.isWhole_whole _) sqBuf7 (Memref.isWhole_whole _)
      (fun h => by have h0 := (atFirst7_iff ⟨n + 1, hn⟩).mp h; have hN : n + 1 < 10 := lt_of_lt_of_eq hn tenPoints7; (try dsimp only at h0); omega)
      ((atLast7_iff ⟨n + 1, hn⟩).mpr h1) (blk7 V c 0 ⟨n + 1, hn⟩) (blk7 V c 1 ⟨n + 1, hn⟩) (blk7 V c 2 ⟨n + 1, hn⟩) (blk7 V c 3 ⟨n + 1, hn⟩)
      (after7 V c n (Nat.lt_of_succ_lt hn)).sum (after7 V c n (Nat.lt_of_succ_lt hn)).sq := dif_pos h1

theorem after7_succ_mid (c : Dev nD) (n : ℕ) (hn : n + 1 < cfg7.N) (h1 : ¬(n + 1) % 10 = 9) :
    after7 V c (n + 1) hn = mid7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) sumBuf7 (Memref.isWhole_whole _) sqBuf7 (Memref.isWhole_whole _)
      (fun h => by have h0 := (atFirst7_iff ⟨n + 1, hn⟩).mp h; have hN : n + 1 < 10 := lt_of_lt_of_eq hn tenPoints7; (try dsimp only at h0); omega)
      (fun h => h1 ((atLast7_iff ⟨n + 1, hn⟩).mp h)) (blk7 V c 0 ⟨n + 1, hn⟩) (blk7 V c 1 ⟨n + 1, hn⟩) (blk7 V c 2 ⟨n + 1, hn⟩) (blk7 V c 3 ⟨n + 1, hn⟩)
      (after7 V c n (Nat.lt_of_succ_lt hn)).sum (after7 V c n (Nat.lt_of_succ_lt hn)).sq := dif_neg h1

/-- Column b of an array over the 50000 rows, as a function of the row number (zero past the array). -/
def colAt7 (pre : S50000x64.Idx → EReal) (b : Fin 64) : ℕ → EReal :=
  fun k => if h : k < 50000 then pre (ix2 ⟨k, h⟩ b) else 0

/-- After point n the sum accumulator holds zero plus the column's entries over the rows of points 0 … n. -/
theorem sumAfter7 (c : Dev nD) (b : Fin 64) : ∀ (n : ℕ) (hn : n < cfg7.N),
    (after7 V c n hn).sum (ix2 0 b) = (Ideal.ofBits .f32 0x00000000#32) + ∑ p ∈ Finset.range (n + 1), ∑ l : Fin 5000, (colAt7 (preAll7 (V c main_v78) (V c main_v65) (V c main_v11) (V c main_v79)) b (5000 * p + l.val))
  | 0, hn => by
    refine (congrFun (first7_sum c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) sumBuf7 (Memref.isWhole_whole _) sqBuf7 (Memref.isWhole_whole _) _ _ (blk7 V c 0 ⟨0, hn⟩) (blk7 V c 1 ⟨0, hn⟩) (blk7 V c 2 ⟨0, hn⟩) (blk7 V c 3 ⟨0, hn⟩)) (ix2 0 b)).trans ?_
    rw [sums7_apply, zeroSum7_apply, Finset.sum_range_one]
    refine congrArg (fun z => (Ideal.ofBits .f32 0x00000000#32) + z) (Finset.sum_congr rfl fun a _ => ?_)
    rw [combineBlock7 V c ⟨0, hn⟩ a b]
    unfold colAt7; rw [dif_pos (rowIn7 ⟨0, hn⟩ a)]
  | n + 1, hn => by
    have ih := sumAfter7 c b n (Nat.lt_of_succ_lt hn)
    have hblock : (∑ a : Fin 5000, (k7_pay5 (F := Ideal) (blk7 V c 2 ⟨n + 1, hn⟩) (blk7 V c 0 ⟨n + 1, hn⟩) (blk7 V c 1 ⟨n + 1, hn⟩) (blk7 V c 3 ⟨n + 1, hn⟩) (ix2 a b)))
        = ∑ l : Fin 5000, (colAt7 (preAll7 (V c main_v78) (V c main_v65) (V c main_v11) (V c main_v79)) b (5000 * (n + 1) + l.val)) :=
      Finset.sum_congr rfl fun a _ => by
        rw [combineBlock7 V c ⟨n + 1, hn⟩ a b]
        unfold colAt7; rw [dif_pos (rowIn7 ⟨n + 1, hn⟩ a)]
    by_cases h1 : (n + 1) % 10 = 9
    · refine (congrFun ((congrArg After7.sum (after7_succ_last V c n hn h1)).trans (last7_sum c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) sumBuf7 (Memref.isWhole_whole _) sqBuf7 (Memref.isWhole_whole _) _ _ (blk7 V c 0 ⟨n + 1, hn⟩) (blk7 V c 1 ⟨n + 1, hn⟩) (blk7 V c 2 ⟨n + 1, hn⟩) (blk7 V c 3 ⟨n + 1, hn⟩) _ _)) (ix2 0 b)).trans ?_
      rw [sums7_apply, ih, hblock, Finset.sum_range_succ _ (n + 1), add_assoc]
    · refine (congrFun ((congrArg After7.sum (after7_succ_mid V c n hn h1)).trans (mid7_sum c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) sumBuf7 (Memref.isWhole_whole _) sqBuf7 (Memref.isWhole_whole _) _ _ (blk7 V c 0 ⟨n + 1, hn⟩) (blk7 V c 1 ⟨n + 1, hn⟩) (blk7 V c 2 ⟨n + 1, hn⟩) (blk7 V c 3 ⟨n + 1, hn⟩) _ _)) (ix2 0 b)).trans ?_
      rw [sums7_apply, ih, hblock, Finset.sum_range_succ _ (n + 1), add_assoc]

/-- After point n the squares accumulator holds zero plus the column's squared entries over the rows of points 0 … n. -/
theorem sqAfter7 (c : Dev nD) (b : Fin 64) : ∀ (n : ℕ) (hn : n < cfg7.N),
    (after7 V c n hn).sq (ix2 0 b) = (Ideal.ofBits .f32 0x00000000#32) + ∑ p ∈ Finset.range (n + 1), ∑ l : Fin 5000, ((colAt7 (preAll7 (V c main_v78) (V c main_v65) (V c main_v11) (V c main_v79)) b (5000 * p + l.val)) * (colAt7 (preAll7 (V c main_v78) (V c main_v65) (V c main_v11) (V c main_v79)) b (5000 * p + l.val)))
  | 0, hn => by
    refine (congrFun (first7_sq c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) sumBuf7 (Memref.isWhole_whole _) sqBuf7 (Memref.isWhole_whole _) _ _ (blk7 V c 0 ⟨0, hn⟩) (blk7 V c 1 ⟨0, hn⟩) (blk7 V c 2 ⟨0, hn⟩) (blk7 V c 3 ⟨0, hn⟩)) (ix2 0 b)).trans ?_
    rw [squares7_apply, zeroSq7_apply, Finset.sum_range_one]
    refine congrArg (fun z => (Ideal.ofBits .f32 0x00000000#32) + z) (Finset.sum_congr rfl fun a _ => ?_)
    rw [combineBlock7 V c ⟨0, hn⟩ a b]
    unfold colAt7; rw [dif_pos (rowIn7 ⟨0, hn⟩ a)]
  | n + 1, hn => by
    have ih := sqAfter7 c b n (Nat.lt_of_succ_lt hn)
    have hblock : (∑ a : Fin 5000, ((k7_pay5 (F := Ideal) (blk7 V c 2 ⟨n + 1, hn⟩) (blk7 V c 0 ⟨n + 1, hn⟩) (blk7 V c 1 ⟨n + 1, hn⟩) (blk7 V c 3 ⟨n + 1, hn⟩) (ix2 a b)) * (k7_pay5 (F := Ideal) (blk7 V c 2 ⟨n + 1, hn⟩) (blk7 V c 0 ⟨n + 1, hn⟩) (blk7 V c 1 ⟨n + 1, hn⟩) (blk7 V c 3 ⟨n + 1, hn⟩) (ix2 a b))))
        = ∑ l : Fin 5000, ((colAt7 (preAll7 (V c main_v78) (V c main_v65) (V c main_v11) (V c main_v79)) b (5000 * (n + 1) + l.val)) * (colAt7 (preAll7 (V c main_v78) (V c main_v65) (V c main_v11) (V c main_v79)) b (5000 * (n + 1) + l.val))) :=
      Finset.sum_congr rfl fun a _ => by
        rw [combineBlock7 V c ⟨n + 1, hn⟩ a b]
        unfold colAt7; rw [dif_pos (rowIn7 ⟨n + 1, hn⟩ a)]
    by_cases h1 : (n + 1) % 10 = 9
    · refine (congrFun ((congrArg After7.sq (after7_succ_last V c n hn h1)).trans (last7_sq c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) sumBuf7 (Memref.isWhole_whole _) sqBuf7 (Memref.isWhole_whole _) _ _ (blk7 V c 0 ⟨n + 1, hn⟩) (blk7 V c 1 ⟨n + 1, hn⟩) (blk7 V c 2 ⟨n + 1, hn⟩) (blk7 V c 3 ⟨n + 1, hn⟩) _ _)) (ix2 0 b)).trans ?_
      rw [squares7_apply, ih, hblock, Finset.sum_range_succ _ (n + 1), add_assoc]
    · refine (congrFun ((congrArg After7.sq (after7_succ_mid V c n hn h1)).trans (mid7_sq c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) sumBuf7 (Memref.isWhole_whole _) sqBuf7 (Memref.isWhole_whole _) _ _ (blk7 V c 0 ⟨n + 1, hn⟩) (blk7 V c 1 ⟨n + 1, hn⟩) (blk7 V c 2 ⟨n + 1, hn⟩) (blk7 V c 3 ⟨n + 1, hn⟩) _ _)) (ix2 0 b)).trans ?_
      rw [squares7_apply, ih, hblock, Finset.sum_range_succ _ (n + 1), add_assoc]

/-- Ten blocks of 5000 rows are the 50000 rows. -/
theorem allRows7 (f : ℕ → EReal) : (∑ p ∈ Finset.range 10, ∑ l : Fin 5000, f (5000 * p + l.val)) = ∑ k : Fin 50000, f k.val :=
  Cert.Lib.BlockSums.sum_blocks 10 5000 f

theorem colAt7_row (pre : S50000x64.Idx → EReal) (b : Fin 64) (k : Fin 50000) : colAt7 pre b k.val = pre (ix2 k b) := by
  unfold colAt7; rw [dif_pos k.isLt]

/-- After the last point: the sums over all 50000 rows. -/
theorem sumLast7 (c : Dev nD) (b : Fin 64) (h9 : 9 < cfg7.N) :
    (after7 V c 9 h9).sum (ix2 0 b) = (Ideal.ofBits .f32 0x00000000#32) + ∑ p : Fin 50000, (preAll7 (V c main_v78) (V c main_v65) (V c main_v11) (V c main_v79)) (ix2 p b) := by
  rw [sumAfter7 V c b 9 h9, allRows7]
  exact congrArg (fun z => (Ideal.ofBits .f32 0x00000000#32) + z) (Finset.sum_congr rfl fun k _ => colAt7_row _ b k)

theorem sqLast7 (c : Dev nD) (b : Fin 64) (h9 : 9 < cfg7.N) :
    (after7 V c 9 h9).sq (ix2 0 b) = (Ideal.ofBits .f32 0x00000000#32) + ∑ p : Fin 50000, (preAll7 (V c main_v78) (V c main_v65) (V c main_v11) (V c main_v79)) (ix2 p b) * (preAll7 (V c main_v78) (V c main_v65) (V c main_v11) (V c main_v79)) (ix2 p b) := by
  rw [sqAfter7 V c b 9 h9, allRows7 (fun k => colAt7 (preAll7 (V c main_v78) (V c main_v65) (V c main_v11) (V c main_v79)) b k * colAt7 (preAll7 (V c main_v78) (V c main_v65) (V c main_v11) (V c main_v79)) b k)]
  exact congrArg (fun z => (Ideal.ofBits .f32 0x00000000#32) + z) (Finset.sum_congr rfl fun k _ => by rw [colAt7_row])

/-- At the last point the mean and the variance buffers are the payloads of the accumulators as just updated. -/
theorem meanLast7 (c : Dev nD) (h9 : 9 < cfg7.N) :
    (after7 V c 9 h9).mean = k7_pay1 (F := Ideal) (after7 V c 9 h9).sum := by
  have e := after7_succ_last V c 8 h9 (by decide)
  rw [e]
  exact (last7_mean c (grid7.coords ⟨8 + 1, h9⟩) (ms7_0 ⟨8 + 1, h9⟩) (hs7_0 ⟨8 + 1, h9⟩) (ms7_1 ⟨8 + 1, h9⟩) (hs7_1 ⟨8 + 1, h9⟩) (ms7_2 ⟨8 + 1, h9⟩) (hs7_2 ⟨8 + 1, h9⟩) (ms7_3 ⟨8 + 1, h9⟩) (hs7_3 ⟨8 + 1, h9⟩) (ms7_4 ⟨8 + 1, h9⟩) (hs7_4 ⟨8 + 1, h9⟩) (ms7_5 ⟨8 + 1, h9⟩) (hs7_5 ⟨8 + 1, h9⟩) (ms7_6 ⟨8 + 1, h9⟩) (hs7_6 ⟨8 + 1, h9⟩) sumBuf7 (Memref.isWhole_whole _) sqBuf7 (Memref.isWhole_whole _) _ _ (blk7 V c 0 ⟨8 + 1, h9⟩) (blk7 V c 1 ⟨8 + 1, h9⟩) (blk7 V c 2 ⟨8 + 1, h9⟩) (blk7 V c 3 ⟨8 + 1, h9⟩) _ _).trans (congrArg _ (last7_sum c (grid7.coords ⟨8 + 1, h9⟩) (ms7_0 ⟨8 + 1, h9⟩) (hs7_0 ⟨8 + 1, h9⟩) (ms7_1 ⟨8 + 1, h9⟩) (hs7_1 ⟨8 + 1, h9⟩) (ms7_2 ⟨8 + 1, h9⟩) (hs7_2 ⟨8 + 1, h9⟩) (ms7_3 ⟨8 + 1, h9⟩) (hs7_3 ⟨8 + 1, h9⟩) (ms7_4 ⟨8 + 1, h9⟩) (hs7_4 ⟨8 + 1, h9⟩) (ms7_5 ⟨8 + 1, h9⟩) (hs7_5 ⟨8 + 1, h9⟩) (ms7_6 ⟨8 + 1, h9⟩) (hs7_6 ⟨8 + 1, h9⟩) sumBuf7 (Memref.isWhole_whole _) sqBuf7 (Memref.isWhole_whole _) _ _ (blk7 V c 0 ⟨8 + 1, h9⟩) (blk7 V c 1 ⟨8 + 1, h9⟩) (blk7 V c 2 ⟨8 + 1, h9⟩) (blk7 V c 3 ⟨8 + 1, h9⟩) _ _).symm)

theorem varLast7 (c : Dev nD) (h9 : 9 < cfg7.N) :
    (after7 V c 9 h9).var = k7_pay2 (F := Ideal) (after7 V c 9 h9).sum (after7 V c 9 h9).sq := by
  have e := after7_succ_last V c 8 h9 (by decide)
  rw [e]
  refine (last7_var c (grid7.coords ⟨8 + 1, h9⟩) (ms7_0 ⟨8 + 1, h9⟩) (hs7_0 ⟨8 + 1, h9⟩) (ms7_1 ⟨8 + 1, h9⟩) (hs7_1 ⟨8 + 1, h9⟩) (ms7_2 ⟨8 + 1, h9⟩) (hs7_2 ⟨8 + 1, h9⟩) (ms7_3 ⟨8 + 1, h9⟩) (hs7_3 ⟨8 + 1, h9⟩) (ms7_4 ⟨8 + 1, h9⟩) (hs7_4 ⟨8 + 1, h9⟩) (ms7_5 ⟨8 + 1, h9⟩) (hs7_5 ⟨8 + 1, h9⟩) (ms7_6 ⟨8 + 1, h9⟩) (hs7_6 ⟨8 + 1, h9⟩) sumBuf7 (Memref.isWhole_whole _) sqBuf7 (Memref.isWhole_whole _) _ _ (blk7 V c 0 ⟨8 + 1, h9⟩) (blk7 V c 1 ⟨8 + 1, h9⟩) (blk7 V c 2 ⟨8 + 1, h9⟩) (blk7 V c 3 ⟨8 + 1, h9⟩) _ _).trans ?_
  rw [last7_sum c (grid7.coords ⟨8 + 1, h9⟩) (ms7_0 ⟨8 + 1, h9⟩) (hs7_0 ⟨8 + 1, h9⟩) (ms7_1 ⟨8 + 1, h9⟩) (hs7_1 ⟨8 + 1, h9⟩) (ms7_2 ⟨8 + 1, h9⟩) (hs7_2 ⟨8 + 1, h9⟩) (ms7_3 ⟨8 + 1, h9⟩) (hs7_3 ⟨8 + 1, h9⟩) (ms7_4 ⟨8 + 1, h9⟩) (hs7_4 ⟨8 + 1, h9⟩) (ms7_5 ⟨8 + 1, h9⟩) (hs7_5 ⟨8 + 1, h9⟩) (ms7_6 ⟨8 + 1, h9⟩) (hs7_6 ⟨8 + 1, h9⟩) sumBuf7 (Memref.isWhole_whole _) sqBuf7 (Memref.isWhole_whole _) _ _ (blk7 V c 0 ⟨8 + 1, h9⟩) (blk7 V c 1 ⟨8 + 1, h9⟩) (blk7 V c 2 ⟨8 + 1, h9⟩) (blk7 V c 3 ⟨8 + 1, h9⟩) _ _, last7_sq c (grid7.coords ⟨8 + 1, h9⟩) (ms7_0 ⟨8 + 1, h9⟩) (hs7_0 ⟨8 + 1, h9⟩) (ms7_1 ⟨8 + 1, h9⟩) (hs7_1 ⟨8 + 1, h9⟩) (ms7_2 ⟨8 + 1, h9⟩) (hs7_2 ⟨8 + 1, h9⟩) (ms7_3 ⟨8 + 1, h9⟩) (hs7_3 ⟨8 + 1, h9⟩) (ms7_4 ⟨8 + 1, h9⟩) (hs7_4 ⟨8 + 1, h9⟩) (ms7_5 ⟨8 + 1, h9⟩) (hs7_5 ⟨8 + 1, h9⟩) (ms7_6 ⟨8 + 1, h9⟩) (hs7_6 ⟨8 + 1, h9⟩) sumBuf7 (Memref.isWhole_whole _) sqBuf7 (Memref.isWhole_whole _) _ _ (blk7 V c 0 ⟨8 + 1, h9⟩) (blk7 V c 1 ⟨8 + 1, h9⟩) (blk7 V c 2 ⟨8 + 1, h9⟩) (blk7 V c 3 ⟨8 + 1, h9⟩) _ _]

/-- Any index of a one-row array is (0, its column). -/
theorem rowIdx7 (j : S1x64.Idx) : j = ix2 0 (j 1) := by
  funext d; apply Fin.ext
  match d with
  | ⟨0, _⟩ => show (j 0).val = 0; have := (j 0).isLt; simp at this; omega
  | ⟨1, _⟩ => rfl

theorem mean7_at (v36 : Vec Ideal S1x64 .f32) (j : S1x64.Idx) :
    k7_pay1 (F := Ideal) v36 j = Ideal.div (v36 (ix2 0 (j 1))) (Ideal.ofBits .f32 0x47435000#32) := by
  have e := rowIdx7 j
  conv_lhs => rw [e]
  exact mean7_apply v36 (j 1)

theorem var7_at (v36 v39 : Vec Ideal S1x64 .f32) (j : S1x64.Idx) :
    k7_pay2 (F := Ideal) v36 v39 j
      = Ideal.div (v39 (ix2 0 (j 1))) (Ideal.ofBits .f32 0x47435000#32) - Ideal.div (v36 (ix2 0 (j 1))) (Ideal.ofBits .f32 0x47435000#32) * Ideal.div (v36 (ix2 0 (j 1))) (Ideal.ofBits .f32 0x47435000#32) := by
  have e := rowIdx7 j
  conv_lhs => rw [e]
  exact (var7_apply v36 v39 (j 1)).trans
    (congrArg₂ (fun x y => Ideal.div (v39 (ix2 0 (j 1))) (Ideal.ofBits .f32 0x47435000#32) - x * y) (mean7_apply v36 (j 1)) (mean7_apply v36 (j 1)))

/-- WHAT POINT t WRITES BACK into the combined-block window is block t of the whole combined array. -/
theorem preFlushed7 (c : Dev nD) (t : Fin cfg7.N) :
    (dat7 V c).flushed 4 t = ((cfg7.win 4).blk t).view.read (Elt Ideal) (preAll7 (V c main_v78) (V c main_v65) (V c main_v11) (V c main_v79)) := by
  show (cfg7.win 4).cut (grid7.coords t) ((dat7 V c).after 4 t) = _
  rw [dat7_after_4, preAt7]
  obtain ⟨-, -, -, -, -, -, -, -, e40, e41, -⟩ := whereStats7 t
  funext j
  show k7_pay5 (F := Ideal) (blk7 V c 2 t) (blk7 V c 0 t) (blk7 V c 1 t) (blk7 V c 3 t) j = (preAll7 (V c main_v78) (V c main_v65) (V c main_v11) (V c main_v79)) (((cfg7.win 4).blk t).view.emb j)
  have e : j = ix2 (j 0) (j 1) := eq_ix2 j
  refine ((congrArg (k7_pay5 (F := Ideal) (blk7 V c 2 t) (blk7 V c 0 t) (blk7 V c 1 t) (blk7 V c 3 t)) e).trans (combineBlock7 V c t (j 0) (j 1))).trans ?_
  refine congrArg _ ?_
  funext d; apply Fin.ext
  match d with
  | ⟨0, _⟩ => show 5000 * t.val + (j 0).val = win7_4.index t (0 : Fin 2) * 5000 + 1 * (j 0).val; omega
  | ⟨1, _⟩ => show (j 1).val = win7_4.index t (1 : Fin 2) * 64 + 1 * (j 1).val; omega

theorem inBlockPre7 (t : Fin cfg7.N) (i : S50000x64.Idx) :
    i ∈ ((cfg7.win 4).blk t).view.set ↔ ∀ a : Fin 2, win7_4.index t a * S5000x64.size a ≤ (i a).val ∧ (i a).val < win7_4.index t a * S5000x64.size a + S5000x64.size a := by
  show i ∈ ((View.whole main_v80_0).slice (win7_4.rect t)).set ↔ _
  rw [View.set_slice_whole, Rect.mem_set_unit]
  exact Iff.rfl

theorem coveredPre7 (i : S50000x64.Idx) : ∃ t : Fin cfg7.N, (cfg7.win 4).flush t = true ∧ i ∈ ((cfg7.win 4).blk t).view.set := by
  have hi0 : (i 0).val < 50000 := (i 0).isLt
  have hi1 : (i 1).val < 64 := (i 1).isLt
  refine ⟨⟨(i 0).val / 5000, by rw [tenPoints7]; omega⟩, flush7_4 _, ?_⟩
  rw [inBlockPre7]
  obtain ⟨-, -, -, -, -, -, -, -, e40, e41, -⟩ := whereStats7 ⟨(i 0).val / 5000, by rw [tenPoints7]; omega⟩
  intro a
  match a with
  | ⟨0, _⟩ => show win7_4.index _ (0 : Fin 2) * 5000 ≤ (i 0).val ∧ (i 0).val < win7_4.index _ (0 : Fin 2) * 5000 + 5000; (try dsimp only at e40); omega
  | ⟨1, _⟩ => show win7_4.index _ (1 : Fin 2) * 64 ≤ (i 1).val ∧ (i 1).val < win7_4.index _ (1 : Fin 2) * 64 + 64; omega

/-- THE COMBINED ARRAY after the call. -/
theorem statsFinal7_pre (c : Dev nD) : (dat7 V c).arrAt 4 cfg7.N = (preAll7 (V c main_v78) (V c main_v65) (V c main_v11) (V c main_v79)) :=
  (dat7 V c).arrAt_eq_of_cover 4 _ (fun t _ => preFlushed7 V c t) coveredPre7

theorem lastPoint7 (t : Fin cfg7.N) (h : t.val % 10 = 9) : t.val = 9 := by
  have hN : t.val < 10 := lt_of_lt_of_eq t.isLt tenPoints7
  omega

/-- The mean row is written back at the last point only, and there it is the batch mean of the combined array. -/
theorem meanFlushed7 (c : Dev nD) (t : Fin cfg7.N) (hf : (cfg7.win 5).flush t = true) :
    (dat7 V c).flushed 5 t = ((cfg7.win 5).blk t).view.read (Elt Ideal) (meanAll7 (preAll7 (V c main_v78) (V c main_v65) (V c main_v11) (V c main_v79))) := by
  have ht : t.val = 9 := lastPoint7 t ((flush7_5 t).mp hf)
  obtain ⟨n, hn⟩ := t
  (try dsimp only at ht); subst ht
  show (cfg7.win 5).cut (grid7.coords ⟨9, hn⟩) ((dat7 V c).after 5 ⟨9, hn⟩) = _
  rw [dat7_after_5]
  (try dsimp only)
  rw [meanLast7 V c hn]
  obtain ⟨-, -, -, -, -, -, -, -, -, -, e50, e51, -⟩ := whereStats7 ⟨9, hn⟩
  funext j
  show k7_pay1 (F := Ideal) (after7 V c 9 hn).sum j = meanAll7 (preAll7 (V c main_v78) (V c main_v65) (V c main_v11) (V c main_v79)) (((cfg7.win 5).blk ⟨9, hn⟩).view.emb j)
  have he : (((cfg7.win 5).blk ⟨9, hn⟩).view.emb j) 1 = j 1 :=
    Fin.ext (show win7_5.index ⟨9, hn⟩ (1 : Fin 2) * 64 + 1 * (j 1).val = (j 1).val by omega)
  refine (mean7_at _ j).trans ?_
  rw [sumLast7 V c (j 1) hn]
  unfold meanAll7
  rw [he]

theorem varFlushed7 (c : Dev nD) (t : Fin cfg7.N) (hf : (cfg7.win 6).flush t = true) :
    (dat7 V c).flushed 6 t = ((cfg7.win 6).blk t).view.read (Elt Ideal) (varAll7 (preAll7 (V c main_v78) (V c main_v65) (V c main_v11) (V c main_v79))) := by
  have ht : t.val = 9 := lastPoint7 t ((flush7_6 t).mp hf)
  obtain ⟨n, hn⟩ := t
  (try dsimp only at ht); subst ht
  show (cfg7.win 6).cut (grid7.coords ⟨9, hn⟩) ((dat7 V c).after 6 ⟨9, hn⟩) = _
  rw [dat7_after_6]
  (try dsimp only)
  rw [varLast7 V c hn]
  obtain ⟨-, -, -, -, -, -, -, -, -, -, -, -, e60, e61⟩ := whereStats7 ⟨9, hn⟩
  funext j
  show k7_pay2 (F := Ideal) (after7 V c 9 hn).sum (after7 V c 9 hn).sq j = varAll7 (preAll7 (V c main_v78) (V c main_v65) (V c main_v11) (V c main_v79)) (((cfg7.win 6).blk ⟨9, hn⟩).view.emb j)
  have he : (((cfg7.win 6).blk ⟨9, hn⟩).view.emb j) 1 = j 1 :=
    Fin.ext (show win7_6.index ⟨9, hn⟩ (1 : Fin 2) * 64 + 1 * (j 1).val = (j 1).val by omega)
  refine (var7_at _ _ j).trans ?_
  rw [sumLast7 V c (j 1) hn, sqLast7 V c (j 1) hn]
  unfold varAll7 meanAll7
  rw [he]

theorem inBlockMean7 (t : Fin cfg7.N) (i : S1x64.Idx) :
    i ∈ ((cfg7.win 5).blk t).view.set ↔ ∀ a : Fin 2, win7_5.index t a * S1x64.size a ≤ (i a).val ∧ (i a).val < win7_5.index t a * S1x64.size a + S1x64.size a := by
  show i ∈ ((View.whole main_v80_1).slice (win7_5.rect t)).set ↔ _
  rw [View.set_slice_whole, Rect.mem_set_unit]
  exact Iff.rfl

theorem inBlockVar7 (t : Fin cfg7.N) (i : S1x64.Idx) :
    i ∈ ((cfg7.win 6).blk t).view.set ↔ ∀ a : Fin 2, win7_6.index t a * S1x64.size a ≤ (i a).val ∧ (i a).val < win7_6.index t a * S1x64.size a + S1x64.size a := by
  show i ∈ ((View.whole main_v80_2).slice (win7_6.rect t)).set ↔ _
  rw [View.set_slice_whole, Rect.mem_set_unit]
  exact Iff.rfl

theorem ninth7 : 9 < cfg7.N := by rw [tenPoints7]; decide

theorem coveredMean7 (i : S1x64.Idx) : ∃ t : Fin cfg7.N, (cfg7.win 5).flush t = true ∧ i ∈ ((cfg7.win 5).blk t).view.set := by
  have hi0 : (i 0).val < 1 := (i 0).isLt
  have hi1 : (i 1).val < 64 := (i 1).isLt
  refine ⟨⟨9, ninth7⟩, (flush7_5 _).mpr (by decide), ?_⟩
  rw [inBlockMean7]
  obtain ⟨-, -, -, -, -, -, -, -, -, -, e50, e51, -⟩ := whereStats7 ⟨9, ninth7⟩
  intro a
  match a with
  | ⟨0, _⟩ => show win7_5.index _ (0 : Fin 2) * 1 ≤ (i 0).val ∧ (i 0).val < win7_5.index _ (0 : Fin 2) * 1 + 1; omega
  | ⟨1, _⟩ => show win7_5.index _ (1 : Fin 2) * 64 ≤ (i 1).val ∧ (i 1).val < win7_5.index _ (1 : Fin 2) * 64 + 64; omega

theorem coveredVar7 (i : S1x64.Idx) : ∃ t : Fin cfg7.N, (cfg7.win 6).flush t = true ∧ i ∈ ((cfg7.win 6).blk t).view.set := by
  have hi0 : (i 0).val < 1 := (i 0).isLt
  have hi1 : (i 1).val < 64 := (i 1).isLt
  refine ⟨⟨9, ninth7⟩, (flush7_6 _).mpr (by decide), ?_⟩
  rw [inBlockVar7]
  obtain ⟨-, -, -, -, -, -, -, -, -, -, -, -, e60, e61⟩ := whereStats7 ⟨9, ninth7⟩
  intro a
  match a with
  | ⟨0, _⟩ => show win7_6.index _ (0 : Fin 2) * 1 ≤ (i 0).val ∧ (i 0).val < win7_6.index _ (0 : Fin 2) * 1 + 1; omega
  | ⟨1, _⟩ => show win7_6.index _ (1 : Fin 2) * 64 ≤ (i 1).val ∧ (i 1).val < win7_6.index _ (1 : Fin 2) * 64 + 64; omega

/-- THE MEAN ROW and THE VARIANCE ROW after the call. -/
theorem statsFinal7_mean (c : Dev nD) : (dat7 V c).arrAt 5 cfg7.N = meanAll7 (preAll7 (V c main_v78) (V c main_v65) (V c main_v11) (V c main_v79)) :=
  (dat7 V c).arrAt_eq_of_cover 5 _ (fun t hf => meanFlushed7 V c t hf) coveredMean7

theorem statsFinal7_var (c : Dev nD) : (dat7 V c).arrAt 6 cfg7.N = varAll7 (preAll7 (V c main_v78) (V c main_v65) (V c main_v11) (V c main_v79)) :=
  (dat7 V c).arrAt_eq_of_cover 6 _ (fun t hf => varFlushed7 V c t hf) coveredVar7

end Cert.KernelIdeal.Hand

end
-- ==== Proof.Ideal.ActValue2.lean ====
/-
  The normalisation and rectifier of layer one, read as a value at the ideal float instance. At row a and column b
  the stored block is the exponential linear unit of y = g(b) · ((pre(a,b) − mean(b)) · rsqrt(var(b) + eps)) + be(b), the
  four rows read at column b. Each grid point writes back rows 5000·t … 5000·t+4999 of one whole-array function of the
  arrays the call found; the ten blocks cover the array.
-/
import proofs.«169495_j53601191854606_1_alg».proof.Proof.Ideal.Act2
import proofs.«169495_j53601191854606_1_alg».proof.Proof.Ideal.ProductValue0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- A one-row array repeated down 5000 rows, read at (a, b): the row's entry at column b. -/
theorem rowBcast128 {α : Type} (v : S1x128.Idx → α) (a : Fin 5000) (b : Fin 128) :
    broadcastTo S5000x128 v broadcasts_S1x128_S5000x128 (ix2 a b) = v (ix2 0 b) :=
  broadcastTo_apply v _ (ix2 a b) (ix2 0 b) (fun d => by
    match d with
    | ⟨0, _⟩ => rfl
    | ⟨1, _⟩ => rfl)

theorem exp_at {s : Shape} {φ : FTy} (v : FVec Ideal s φ) (i : s.Idx) : exp v i = Ideal.exp (v i) := rfl
theorem rsqrt_at {s : Shape} {φ : FTy} (v : FVec Ideal s φ) (i : s.Idx) : rsqrt v i = Ideal.rsqrt (v i) := rfl

/-- The normalised, scaled and shifted entry. -/
def normY (x mu vr g be : EReal) : EReal :=
  g * ((x - mu) * Ideal.rsqrt (vr + Ideal.ofBits .f32 0x3727C5AC#32)) + be

/-- The exponential linear unit in the kernel's arrangement. -/
def rectK (y : EReal) : EReal :=
  Scalar.select (Ideal.cmp .ogt y (Ideal.ofBits .f32 0x00000000#32)) y (Ideal.exp y - Ideal.ofBits .f32 0x3F800000#32)

/-- Equal entries give equal outputs. -/
theorem rect_congr {x x' mu mu' vr vr' g g' be be' : EReal} (h0 : x = x') (h1 : mu = mu') (h2 : vr = vr') (h3 : g = g') (h4 : be = be') :
    rectK (normY x mu vr g be) = rectK (normY x' mu' vr' g' be') := by
  subst h0; subst h1; subst h2; subst h3; subst h4; rfl

theorem actPay2_apply (v0 : Vec Ideal S5000x128 .f32) (v2 v6 v13 v17 : Vec Ideal S1x128 .f32) (a : Fin 5000) (b : Fin 128) :
    k2_pay1 (F := Ideal) v0 v2 v6 v13 v17 (ix2 a b)
      = rectK (normY (v0 (ix2 a b)) (v2 (ix2 0 b)) (v6 (ix2 0 b)) (v13 (ix2 0 b)) (v17 (ix2 0 b))) := by
  unfold k2_pay1
  simp only [select_apply, cmpf_apply, subf_apply, addf_apply, mulf_apply, broadcast_apply, shapeCast_self, rowBcast128, exp_at, rsqrt_at]
  rfl

theorem actPay2_at (v0 : Vec Ideal S5000x128 .f32) (v2 v6 v13 v17 : Vec Ideal S1x128 .f32) (j : S5000x128.Idx) :
    k2_pay1 (F := Ideal) v0 v2 v6 v13 v17 j
      = rectK (normY (v0 (ix2 (j 0) (j 1))) (v2 (ix2 0 (j 1))) (v6 (ix2 0 (j 1))) (v13 (ix2 0 (j 1))) (v17 (ix2 0 (j 1)))) := by
  have e : j = ix2 (j 0) (j 1) := eq_ix2 j
  conv_lhs => rw [e]
  exact actPay2_apply v0 v2 v6 v13 v17 (j 0) (j 1)

/-- The whole activated array. -/
def actAll2 (pre : S50000x128.Idx → EReal) (mu vr g be : S1x128.Idx → EReal) : S50000x128.Idx → EReal :=
  fun i => rectK (normY (pre (ix2 (i 0) (i 1))) (mu (ix2 0 (i 1))) (vr (ix2 0 (i 1))) (g (ix2 0 (i 1))) (be (ix2 0 (i 1))))

theorem whereAct2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 1600000 in
theorem actFlushed2 (c : Dev nD) (t : Fin cfg2.N) :
    (dat2 V c).flushed 5 t = ((cfg2.win 5).blk t).view.read (Elt Ideal)
      (actAll2 (V c main_v42_0) (V c main_v42_1) (V c main_v42_2) (V c main_v43) (V c main_v44)) := by
  show (cfg2.win 5).cut (grid2.coords t) ((dat2 V c).after 5 t) = _
  rw [dat2_after_5]
  unfold act2
  rw [View.canon_unit_zero origin2]
  simp only [View.ld_unit_zero (S := S5000x128) origin2, View.ld_unit_zero (S := S1x128) origin2]
  obtain ⟨e00, e01, e10, e11, e20, e21, e30, e31, e40, e41, e50, e51⟩ := whereAct2 t
  funext j
  show k2_pay1 (F := Ideal) (blk2 V c 0 t) (blk2 V c 1 t) (blk2 V c 2 t) (blk2 V c 3 t) (blk2 V c 4 t) j
    = actAll2 (V c main_v42_0) (V c main_v42_1) (V c main_v42_2) (V c main_v43) (V c main_v44) (((cfg2.win 5).blk t).view.emb j)
  refine (actPay2_at _ _ _ _ _ j).trans ?_
  unfold actAll2
  have h0 : blk2 V c 0 t (ix2 (j 0) (j 1)) = V c main_v42_0 (ix2 ((((cfg2.win 5).blk t).view.emb j) 0) ((((cfg2.win 5).blk t).view.emb j) 1)) := by
    show V c main_v42_0 (((cfg2.win 0).blk t).view.emb (ix2 (j 0) (j 1))) = _
    refine congrArg _ ?_
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * (j 1).val = win2_5.index t (1 : Fin 2) * 128 + 1 * (j 1).val; omega
  have h1 : blk2 V c 1 t (ix2 0 (j 1)) = V c main_v42_1 (ix2 0 ((((cfg2.win 5).blk t).view.emb j) 1)) := by
    show V c main_v42_1 (((cfg2.win 1).blk t).view.emb (ix2 0 (j 1))) = _
    refine congrArg _ ?_
    funext a; apply Fin.ext
    match a with
    | ⟨0, _⟩ => show win2_1.index t (0 : Fin 2) * 1 + 1 * 0 = 0; omega
    | ⟨1, _⟩ => show win2_1.index t (1 : Fin 2) * 128 + 1 * (j 1).val = win2_5.index t (1 : Fin 2) * 128 + 1 * (j 1).val; omega
  have h2 : blk2 V c 2 t (ix2 0 (j 1)) = V c main_v42_2 (ix2 0 ((((cfg2.win 5).blk t).view.emb j) 1)) := by
    show V c main_v42_2 (((cfg2.win 2).blk t).view.emb (ix2 0 (j 1))) = _
    refine congrArg _ ?_
    funext a; apply Fin.ext
    match a with
    | ⟨0, _⟩ => show win2_2.index t (0 : Fin 2) * 1 + 1 * 0 = 0; omega
    | ⟨1, _⟩ => show win2_2.index t (1 : Fin 2) * 128 + 1 * (j 1).val = win2_5.index t (1 : Fin 2) * 128 + 1 * (j 1).val; omega
  have h3 : blk2 V c 3 t (ix2 0 (j 1)) = V c main_v43 (ix2 0 ((((cfg2.win 5).blk t).view.emb j) 1)) := by
    show V c main_v43 (((cfg2.win 3).blk t).view.emb (ix2 0 (j 1))) = _
    refine congrArg _ ?_
    funext a; apply Fin.ext
    match a with
    | ⟨0, _⟩ => show win2_3.index t (0 : Fin 2) * 1 + 1 * 0 = 0; omega
    | ⟨1, _⟩ => show win2_3.index t (1 : Fin 2) * 128 + 1 * (j 1).val = win2_5.index t (1 : Fin 2) * 128 + 1 * (j 1).val; omega
  have h4 : blk2 V c 4 t (ix2 0 (j 1)) = V c main_v44 (ix2 0 ((((cfg2.win 5).blk t).view.emb j) 1)) := by
    show V c main_v44 (((cfg2.win 4).blk t).view.emb (ix2 0 (j 1))) = _
    refine congrArg _ ?_
    funext a; apply Fin.ext
    match a with
    | ⟨0, _⟩ => show win2_4.index t (0 : Fin 2) * 1 + 1 * 0 = 0; omega
    | ⟨1, _⟩ => show win2_4.index t (1 : Fin 2) * 128 + 1 * (j 1).val = win2_5.index t (1 : Fin 2) * 128 + 1 * (j 1).val; omega
  exact rect_congr h0 h1 h2 h3 h4

theorem inBlockAct2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v45).slice (win2_5.rect t)).set ↔ _
  rw [View.set_slice_whole, Rect.mem_set_unit]
  exact Iff.rfl

theorem coveredAct2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  refine ⟨⟨(i 0).val / 5000, by rw [show cfg2.N = 10 from N_2]; omega⟩, flush2_5 _, ?_⟩
  rw [inBlockAct2]
  obtain ⟨e00, e01, e10, e11, e20, e21, e30, e31, e40, e41, e50, e51⟩ := whereAct2 ⟨(i 0).val / 5000, by rw [show cfg2.N = 10 from N_2]; omega⟩
  intro a
  match a with
  | ⟨0, _⟩ => show win2_5.index _ (0 : Fin 2) * 5000 ≤ (i 0).val ∧ (i 0).val < win2_5.index _ (0 : Fin 2) * 5000 + 5000; (try dsimp only at e50); omega
  | ⟨1, _⟩ => show win2_5.index _ (1 : Fin 2) * 128 ≤ (i 1).val ∧ (i 1).val < win2_5.index _ (1 : Fin 2) * 128 + 128; omega

/-- THE ARRAY after the call. -/
theorem actFinal2 (c : Dev nD) : (dat2 V c).arrAt 5 cfg2.N
    = actAll2 (V c main_v42_0) (V c main_v42_1) (V c main_v42_2) (V c main_v43) (V c main_v44) :=
  (dat2 V c).arrAt_eq_of_cover 5 _ (fun t _ => actFlushed2 V c t) coveredAct2

end Cert.KernelIdeal.Hand

end
-- ==== Proof.Ideal.ActValue5.lean ====
/-
  The normalisation and rectifier of layer two, read as a value at the ideal float instance. At row a and column b
  the stored block is the exponential linear unit of y = g(b) · ((pre(a,b) − mean(b)) · rsqrt(var(b) + eps)) + be(b), the
  four rows read at column b. Each grid point writes back rows 5000·t … 5000·t+4999 of one whole-array function of the
  arrays the call found; the ten blocks cover the array.
-/
import proofs.«169495_j53601191854606_1_alg».proof.Proof.Ideal.Act5
import proofs.«169495_j53601191854606_1_alg».proof.Proof.Ideal.ActValue2
import proofs.«169495_j53601191854606_1_alg».proof.Proof.Ideal.ProductValue0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem actPay5_apply (v0 : Vec Ideal S5000x128 .f32) (v2 v6 v13 v17 : Vec Ideal S1x128 .f32) (a : Fin 5000) (b : Fin 128) :
    k5_pay1 (F := Ideal) v0 v2 v6 v13 v17 (ix2 a b)
      = rectK (normY (v0 (ix2 a b)) (v2 (ix2 0 b)) (v6 (ix2 0 b)) (v13 (ix2 0 b)) (v17 (ix2 0 b))) := by
  unfold k5_pay1
  simp only [select_apply, cmpf_apply, subf_apply, addf_apply, mulf_apply, broadcast_apply, shapeCast_self, rowBcast128, exp_at, rsqrt_at]
  rfl

theorem actPay5_at (v0 : Vec Ideal S5000x128 .f32) (v2 v6 v13 v17 : Vec Ideal S1x128 .f32) (j : S5000x128.Idx) :
    k5_pay1 (F := Ideal) v0 v2 v6 v13 v17 j
      = rectK (normY (v0 (ix2 (j 0) (j 1))) (v2 (ix2 0 (j 1))) (v6 (ix2 0 (j 1))) (v13 (ix2 0 (j 1))) (v17 (ix2 0 (j 1)))) := by
  have e : j = ix2 (j 0) (j 1) := eq_ix2 j
  conv_lhs => rw [e]
  exact actPay5_apply v0 v2 v6 v13 v17 (j 0) (j 1)

/-- The whole activated array. -/
def actAll5 (pre : S50000x128.Idx → EReal) (mu vr g be : S1x128.Idx → EReal) : S50000x128.Idx → EReal :=
  fun i => rectK (normY (pre (ix2 (i 0) (i 1))) (mu (ix2 0 (i 1))) (vr (ix2 0 (i 1))) (g (ix2 0 (i 1))) (be (ix2 0 (i 1))))

theorem whereAct5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

set_option maxHeartbeats 1600000 in
theorem actFlushed5 (c : Dev nD) (t : Fin cfg5.N) :
    (dat5 V c).flushed 5 t = ((cfg5.win 5).blk t).view.read (Elt Ideal)
      (actAll5 (V c main_v61_0) (V c main_v61_1) (V c main_v61_2) (V c main_v62) (V c main_v63)) := by
  show (cfg5.win 5).cut (grid5.coords t) ((dat5 V c).after 5 t) = _
  rw [dat5_after_5]
  unfold act5
  rw [View.canon_unit_zero origin2]
  simp only [View.ld_unit_zero (S := S5000x128) origin2, View.ld_unit_zero (S := S1x128) origin2]
  obtain ⟨e00, e01, e10, e11, e20, e21, e30, e31, e40, e41, e50, e51⟩ := whereAct5 t
  funext j
  show k5_pay1 (F := Ideal) (blk5 V c 0 t) (blk5 V c 1 t) (blk5 V c 2 t) (blk5 V c 3 t) (blk5 V c 4 t) j
    = actAll5 (V c main_v61_0) (V c main_v61_1) (V c main_v61_2) (V c main_v62) (V c main_v63) (((cfg5.win 5).blk t).view.emb j)
  refine (actPay5_at _ _ _ _ _ j).trans ?_
  unfold actAll5
  have h0 : blk5 V c 0 t (ix2 (j 0) (j 1)) = V c main_v61_0 (ix2 ((((cfg5.win 5).blk t).view.emb j) 0) ((((cfg5.win 5).blk t).view.emb j) 1)) := by
    show V c main_v61_0 (((cfg5.win 0).blk t).view.emb (ix2 (j 0) (j 1))) = _
    refine congrArg _ ?_
    funext a; apply Fin.ext
    match a with
    | ⟨0, _⟩ => show win5_0.index t (0 : Fin 2) * 5000 + 1 * (j 0).val = win5_5.index t (0 : Fin 2) * 5000 + 1 * (j 0).val; omega
    | ⟨1, _⟩ => show win5_0.index t (1 : Fin 2) * 128 + 1 * (j 1).val = win5_5.index t (1 : Fin 2) * 128 + 1 * (j 1).val; omega
  have h1 : blk5 V c 1 t (ix2 0 (j 1)) = V c main_v61_1 (ix2 0 ((((cfg5.win 5).blk t).view.emb j) 1)) := by
    show V c main_v61_1 (((cfg5.win 1).blk t).view.emb (ix2 0 (j 1))) = _
    refine congrArg _ ?_
    funext a; apply Fin.ext
    match a with
    | ⟨0, _⟩ => show win5_1.index t (0 : Fin 2) * 1 + 1 * 0 = 0; omega
    | ⟨1, _⟩ => show win5_1.index t (1 : Fin 2) * 128 + 1 * (j 1).val = win5_5.index t (1 : Fin 2) * 128 + 1 * (j 1).val; omega
  have h2 : blk5 V c 2 t (ix2 0 (j 1)) = V c main_v61_2 (ix2 0 ((((cfg5.win 5).blk t).view.emb j) 1)) := by
    show V c main_v61_2 (((cfg5.win 2).blk t).view.emb (ix2 0 (j 1))) = _
    refine congrArg _ ?_
    funext a; apply Fin.ext
    match a with
    | ⟨0, _⟩ => show win5_2.index t (0 : Fin 2) * 1 + 1 * 0 = 0; omega
    | ⟨1, _⟩ => show win5_2.index t (1 : Fin 2) * 128 + 1 * (j 1).val = win5_5.index t (1 : Fin 2) * 128 + 1 * (j 1).val; omega
  have h3 : blk5 V c 3 t (ix2 0 (j 1)) = V c main_v62 (ix2 0 ((((cfg5.win 5).blk t).view.emb j) 1)) := by
    show V c main_v62 (((cfg5.win 3).blk t).view.emb (ix2 0 (j 1))) = _
    refine congrArg _ ?_
    funext a; apply Fin.ext
    match a with
    | ⟨0, _⟩ => show win5_3.index t (0 : Fin 2) * 1 + 1 * 0 = 0; omega
    | ⟨1, _⟩ => show win5_3.index t (1 : Fin 2) * 128 + 1 * (j 1).val = win5_5.index t (1 : Fin 2) * 128 + 1 * (j 1).val; omega
  have h4 : blk5 V c 4 t (ix2 0 (j 1)) = V c main_v63 (ix2 0 ((((cfg5.win 5).blk t).view.emb j) 1)) := by
    show V c main_v63 (((cfg5.win 4).blk t).view.emb (ix2 0 (j 1))) = _
    refine congrArg _ ?_
    funext a; apply Fin.ext
    match a with
    | ⟨0, _⟩ => show win5_4.index t (0 : Fin 2) * 1 + 1 * 0 = 0; omega
    | ⟨1, _⟩ => show win5_4.index t (1 : Fin 2) * 128 + 1 * (j 1).val = win5_5.index t (1 : Fin 2) * 128 + 1 * (j 1).val; omega
  exact rect_congr h0 h1 h2 h3 h4

theorem inBlockAct5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v64).slice (win5_5.rect t)).set ↔ _
  rw [View.set_slice_whole, Rect.mem_set_unit]
  exact Iff.rfl

theorem coveredAct5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  refine ⟨⟨(i 0).val / 5000, by rw [show cfg5.N = 10 from N_5]; omega⟩, flush5_5 _, ?_⟩
  rw [inBlockAct5]
  obtain ⟨e00, e01, e10, e11, e20, e21, e30, e31, e40, e41, e50, e51⟩ := whereAct5 ⟨(i 0).val / 5000, by rw [show cfg5.N = 10 from N_5]; omega⟩
  intro a
  match a with
  | ⟨0, _⟩ => show win5_5.index _ (0 : Fin 2) * 5000 ≤ (i 0).val ∧ (i 0).val < win5_5.index _ (0 : Fin 2) * 5000 + 5000; (try dsimp only at e50); omega
  | ⟨1, _⟩ => show win5_5.index _ (1 : Fin 2) * 128 ≤ (i 1).val ∧ (i 1).val < win5_5.index _ (1 : Fin 2) * 128 + 128; omega

/-- THE ARRAY after the call. -/
theorem actFinal5 (c : Dev nD) : (dat5 V c).arrAt 5 cfg5.N
    = actAll5 (V c main_v61_0) (V c main_v61_1) (V c main_v61_2) (V c main_v62) (V c main_v63) :=
  (dat5 V c).arrAt_eq_of_cover 5 _ (fun t _ => actFlushed5 V c t) coveredAct5

end Cert.KernelIdeal.Hand

end
-- ==== Proof.Ideal.ActValue8.lean ====
/-
  The normalisation and rectifier of layer three, read as a value at the ideal float instance. At row a and column b
  the stored block is the exponential linear unit of y = g(b) · ((pre(a,b) − mean(b)) · rsqrt(var(b) + eps)) + be(b), the
  four rows read at column b. Each grid point writes back rows 5000·t … 5000·t+4999 of one whole-array function of the
  arrays the call found; the ten blocks cover the array.
-/
import proofs.«169495_j53601191854606_1_alg».proof.Proof.Ideal.Act8
import proofs.«169495_j53601191854606_1_alg».proof.Proof.Ideal.ActValue2
import proofs.«169495_j53601191854606_1_alg».proof.Proof.Ideal.ProductValue0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- A one-row array repeated down 5000 rows, read at (a, b): the row's entry at column b. -/
theorem rowBcast64 {α : Type} (v : S1x64.Idx → α) (a : Fin 5000) (b : Fin 64) :
    broadcastTo S5000x64 v broadcasts_S1x64_S5000x64 (ix2 a b) = v (ix2 0 b) :=
  broadcastTo_apply v _ (ix2 a b) (ix2 0 b) (fun d => by
    match d with
    | ⟨0, _⟩ => rfl
    | ⟨1, _⟩ => rfl)

theorem actPay8_apply (v0 : Vec Ideal S5000x64 .f32) (v2 v6 v13 v17 : Vec Ideal S1x64 .f32) (a : Fin 5000) (b : Fin 64) :
    k8_pay1 (F := Ideal) v0 v2 v6 v13 v17 (ix2 a b)
      = rectK (normY (v0 (ix2 a b)) (v2 (ix2 0 b)) (v6 (ix2 0 b)) (v13 (ix2 0 b)) (v17 (ix2 0 b))) := by
  unfold k8_pay1
  simp only [select_apply, cmpf_apply, subf_apply, addf_apply, mulf_apply, broadcast_apply, shapeCast_self, rowBcast64, exp_at, rsqrt_at]
  rfl

theorem actPay8_at (v0 : Vec Ideal S5000x64 .f32) (v2 v6 v13 v17 : Vec Ideal S1x64 .f32) (j : S5000x64.Idx) :
    k8_pay1 (F := Ideal) v0 v2 v6 v13 v17 j
      = rectK (normY (v0 (ix2 (j 0) (j 1))) (v2 (ix2 0 (j 1))) (v6 (ix2 0 (j 1))) (v13 (ix2 0 (j 1))) (v17 (ix2 0 (j 1)))) := by
  have e : j = ix2 (j 0) (j 1) := eq_ix2 j
  conv_lhs => rw [e]
  exact actPay8_apply v0 v2 v6 v13 v17 (j 0) (j 1)

/-- The whole activated array. -/
def actAll8 (pre : S50000x64.Idx → EReal) (mu vr g be : S1x64.Idx → EReal) : S50000x64.Idx → EReal :=
  fun i => rectK (normY (pre (ix2 (i 0) (i 1))) (mu (ix2 0 (i 1))) (vr (ix2 0 (i 1))) (g (ix2 0 (i 1))) (be (ix2 0 (i 1))))

theorem whereAct8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

set_option maxHeartbeats 1600000 in
theorem actFlushed8 (c : Dev nD) (t : Fin cfg8.N) :
    (dat8 V c).flushed 5 t = ((cfg8.win 5).blk t).view.read (Elt Ideal)
      (actAll8 (V c main_v80_0) (V c main_v80_1) (V c main_v80_2) (V c main_v81) (V c main_v82)) := by
  show (cfg8.win 5).cut (grid8.coords t) ((dat8 V c).after 5 t) = _
  rw [dat8_after_5]
  unfold act8
  rw [View.canon_unit_zero origin2]
  simp only [View.ld_unit_zero (S := S5000x64) origin2, View.ld_unit_zero (S := S1x64) origin2]
  obtain ⟨e00, e01, e10, e11, e20, e21, e30, e31, e40, e41, e50, e51⟩ := whereAct8 t
  funext j
  show k8_pay1 (F := Ideal) (blk8 V c 0 t) (blk8 V c 1 t) (blk8 V c 2 t) (blk8 V c 3 t) (blk8 V c 4 t) j
    = actAll8 (V c main_v80_0) (V c main_v80_1) (V c main_v80_2) (V c main_v81) (V c main_v82) (((cfg8.win 5).blk t).view.emb j)
  refine (actPay8_at _ _ _ _ _ j).trans ?_
  unfold actAll8
  have h0 : blk8 V c 0 t (ix2 (j 0) (j 1)) = V c main_v80_0 (ix2 ((((cfg8.win 5).blk t).view.emb j) 0) ((((cfg8.win 5).blk t).view.emb j) 1)) := by
    show V c main_v80_0 (((cfg8.win 0).blk t).view.emb (ix2 (j 0) (j 1))) = _
    refine congrArg _ ?_
    funext a; apply Fin.ext
    match a with
    | ⟨0, _⟩ => show win8_0.index t (0 : Fin 2) * 5000 + 1 * (j 0).val = win8_5.index t (0 : Fin 2) * 5000 + 1 * (j 0).val; omega
    | ⟨1, _⟩ => show win8_0.index t (1 : Fin 2) * 64 + 1 * (j 1).val = win8_5.index t (1 : Fin 2) * 64 + 1 * (j 1).val; omega
  have h1 : blk8 V c 1 t (ix2 0 (j 1)) = V c main_v80_1 (ix2 0 ((((cfg8.win 5).blk t).view.emb j) 1)) := by
    show V c main_v80_1 (((cfg8.win 1).blk t).view.emb (ix2 0 (j 1))) = _
    refine congrArg _ ?_
    funext a; apply Fin.ext
    match a with
    | ⟨0, _⟩ => show win8_1.index t (0 : Fin 2) * 1 + 1 * 0 = 0; omega
    | ⟨1, _⟩ => show win8_1.index t (1 : Fin 2) * 64 + 1 * (j 1).val = win8_5.index t (1 : Fin 2) * 64 + 1 * (j 1).val; omega
  have h2 : blk8 V c 2 t (ix2 0 (j 1)) = V c main_v80_2 (ix2 0 ((((cfg8.win 5).blk t).view.emb j) 1)) := by
    show V c main_v80_2 (((cfg8.win 2).blk t).view.emb (ix2 0 (j 1))) = _
    refine congrArg _ ?_
    funext a; apply Fin.ext
    match a with
    | ⟨0, _⟩ => show win8_2.index t (0 : Fin 2) * 1 + 1 * 0 = 0; omega
    | ⟨1, _⟩ => show win8_2.index t (1 : Fin 2) * 64 + 1 * (j 1).val = win8_5.index t (1 : Fin 2) * 64 + 1 * (j 1).val; omega
  have h3 : blk8 V c 3 t (ix2 0 (j 1)) = V c main_v81 (ix2 0 ((((cfg8.win 5).blk t).view.emb j) 1)) := by
    show V c main_v81 (((cfg8.win 3).blk t).view.emb (ix2 0 (j 1))) = _
    refine congrArg _ ?_
    funext a; apply Fin.ext
    match a with
    | ⟨0, _⟩ => show win8_3.index t (0 : Fin 2) * 1 + 1 * 0 = 0; omega
    | ⟨1, _⟩ => show win8_3.index t (1 : Fin 2) * 64 + 1 * (j 1).val = win8_5.index t (1 : Fin 2) * 64 + 1 * (j 1).val; omega
  have h4 : blk8 V c 4 t (ix2 0 (j 1)) = V c main_v82 (ix2 0 ((((cfg8.win 5).blk t).view.emb j) 1)) := by
    show V c main_v82 (((cfg8.win 4).blk t).view.emb (ix2 0 (j 1))) = _
    refine congrArg _ ?_
    funext a; apply Fin.ext
    match a with
    | ⟨0, _⟩ => show win8_4.index t (0 : Fin 2) * 1 + 1 * 0 = 0; omega
    | ⟨1, _⟩ => show win8_4.index t (1 : Fin 2) * 64 + 1 * (j 1).val = win8_5.index t (1 : Fin 2) * 64 + 1 * (j 1).val; omega
  exact rect_congr h0 h1 h2 h3 h4

theorem inBlockAct8 (t : Fin cfg8.N) (i : S50000x64.Idx) :
    i ∈ ((cfg8.win 5).blk t).view.set ↔ ∀ a : Fin 2, win8_5.index t a * S5000x64.size a ≤ (i a).val ∧ (i a).val < win8_5.index t a * S5000x64.size a + S5000x64.size a := by
  show i ∈ ((View.whole main_v83).slice (win8_5.rect t)).set ↔ _
  rw [View.set_slice_whole, Rect.mem_set_unit]
  exact Iff.rfl

theorem coveredAct8 (i : S50000x64.Idx) : ∃ t : Fin cfg8.N, (cfg8.win 5).flush t = true ∧ i ∈ ((cfg8.win 5).blk t).view.set := by
  have hi0 : (i 0).val < 50000 := (i 0).isLt
  have hi1 : (i 1).val < 64 := (i 1).isLt
  refine ⟨⟨(i 0).val / 5000, by rw [show cfg8.N = 10 from N_8]; omega⟩, flush8_5 _, ?_⟩
  rw [inBlockAct8]
  obtain ⟨e00, e01, e10, e11, e20, e21, e30, e31, e40, e41, e50, e51⟩ := whereAct8 ⟨(i 0).val / 5000, by rw [show cfg8.N = 10 from N_8]; omega⟩
  intro a
  match a with
  | ⟨0, _⟩ => show win8_5.index _ (0 : Fin 2) * 5000 ≤ (i 0).val ∧ (i 0).val < win8_5.index _ (0 : Fin 2) * 5000 + 5000; (try dsimp only at e50); omega
  | ⟨1, _⟩ => show win8_5.index _ (1 : Fin 2) * 64 ≤ (i 1).val ∧ (i 1).val < win8_5.index _ (1 : Fin 2) * 64 + 64; omega

/-- THE ARRAY after the call. -/
theorem actFinal8 (c : Dev nD) : (dat8 V c).arrAt 5 cfg8.N
    = actAll8 (V c main_v80_0) (V c main_v80_1) (V c main_v80_2) (V c main_v81) (V c main_v82) :=
  (dat8 V c).arrAt_eq_of_cover 5 _ (fun t _ => actFlushed8 V c t) coveredAct8

end Cert.KernelIdeal.Hand

end
-- ==== Proof.NormRectLaw.lean ====
/-
  One column of a batch normalisation followed by the exponential linear unit, in two arrangements, on the extended reals.

  A column a of real numbers indexed by a finite type with n entries, a point x, a gain g and a shift be, all real.
  One pass: from the sum S of the column and the sum Q of its squares, the mean S / N and the variance Q / N - mean * mean;
  the normalised value y = g * ((x - mean) * rsqrt (variance + eps)) + be; the result y where 0 < y and exp y - 1 elsewhere.
  Two passes: the mean m = (0 + S) / N, the variance v = (0 + the sum of (a - m) * (a - m)) / N,
  z = (g * (x - m)) * rsqrt (v + eps) + be; the result z where 0 < z and 1 * (exp (z where not 0 < z, else 0) - 1) elsewhere.

  The two agree when N is the number n of entries (not zero) and eps is a positive real.  The means are the same sum divided
  by the same number.  The variances: with mu = S / n, the sum of (a - mu)^2 is Q - 2 mu S + n mu^2 = Q - n mu^2, so its n-th
  part is Q / n - mu^2; the identity holds over the reals and is carried to the extended reals because every term is the image
  of a real (a finite sum of images is the image of the sum; a quotient by a real that is not zero is a product with the
  image of its reciprocal).  The two-pass variance is an n-th part of a sum of squares, so it is a real that is not
  negative; adding eps makes it positive, and the reciprocal square root of a positive real is a positive real.  The two
  normalised values then differ by the association of a product only.  On the branch where the value is not positive the
  inner choice returns the value itself and the factor 1 does nothing.  Every intermediate is a real, so the result is.
-/
import Idealize.ShloMosaic.PureOps.Ideal.Laws
import Mathlib.Tactic.Ring
import Mathlib.Tactic.FieldSimp
import Mathlib.Tactic.Positivity
import Mathlib.Tactic.NormNum

noncomputable section

namespace Cert.NormRectLaw

open Idealize.ShloMosaic
open scoped BigOperators

variable {ι : Type*} [Fintype ι]

/-! ## The two arrangements, in the order the operations are made -/

/-- One pass: the mean, the column's sum over N. -/
def meanK (N : EReal) (a : ι → EReal) : EReal := Ideal.div (∑ p, a p) N

/-- One pass: the variance, the mean of the squares less the square of the mean. -/
def varK (N : EReal) (a : ι → EReal) : EReal := Ideal.div (∑ p, a p * a p) N - meanK N a * meanK N a

/-- One pass: the normalised, scaled and shifted value. -/
def yK (N eps : EReal) (a : ι → EReal) (x g be : EReal) : EReal :=
  g * ((x - meanK N a) * Ideal.rsqrt (varK N a + eps)) + be

/-- One pass: the exponential linear unit of the normalised value. -/
def outK (N eps one zero : EReal) (a : ι → EReal) (x g be : EReal) : EReal :=
  if zero < yK N eps a x g be then yK N eps a x g be else Ideal.exp (yK N eps a x g be) - one

/-- Two passes: the mean, a sum started from zero over N. -/
def meanR (N zero : EReal) (a : ι → EReal) : EReal := Ideal.div (zero + ∑ p, a p) N

/-- Two passes: the variance, the mean of the squares of the centred column. -/
def varR (N zero : EReal) (a : ι → EReal) : EReal :=
  Ideal.div (zero + ∑ p, (a p - meanR N zero a) * (a p - meanR N zero a)) N

/-- Two passes: the normalised, scaled and shifted value. -/
def zR (N eps zero : EReal) (a : ι → EReal) (x g be : EReal) : EReal :=
  (g * (x - meanR N zero a)) * Ideal.rsqrt (varR N zero a + eps) + be

/-- Two passes: the exponential linear unit, with the exponential's argument replaced by zero on the positive branch. -/
def outR (N eps one zero : EReal) (a : ι → EReal) (x g be : EReal) : EReal :=
  if zero < zR N eps zero a x g be then zR N eps zero a x g be
  else one * (Ideal.exp (if zero < zR N eps zero a x g be then zero else zR N eps zero a x g be) - 1)

/-! ## What is assumed of the four constants -/

/-- The divisor is the number of entries, which is not zero; zero and one are zero and one; eps is a positive real. -/
structure Consts (ι : Type*) [Fintype ι] (N eps one zero : EReal) : Prop where
  zero_eq : zero = 0
  one_eq : one = 1
  N_eq : N = (((Fintype.card ι : ℕ) : ℝ) : EReal)
  card_pos : 0 < Fintype.card ι
  eps_eq : ∃ e : ℝ, 0 < e ∧ eps = ((e : ℝ) : EReal)

/-- Every entry of the column is a real. -/
def IsRealCol (a : ι → EReal) : Prop := ∀ p, ∃ r : ℝ, a p = ((r : ℝ) : EReal)

/-- An extended real that is a real. -/
def IsReal (x : EReal) : Prop := ∃ r : ℝ, x = ((r : ℝ) : EReal)

/-! ## The four constants as bit patterns -/

/-- The pattern 0x47435000 is (2^23 + 4411392) * 2^(142 - 127 - 23) = 50000. -/
theorem N_lit : Ideal.ofBits .f32 0x47435000#32 = ((50000 : ℝ) : EReal) := by
  simp [Ideal.ofBits, Ideal.ieee, -EReal.coe_mul]; norm_num

/-- The pattern 0x3F800000 is one. -/
theorem one_lit : Ideal.ofBits .f32 0x3F800000#32 = 1 := by
  rw [show (1 : EReal) = ((1 : ℝ) : EReal) by norm_cast]
  simp [Ideal.ofBits, Ideal.ieee, -EReal.coe_mul]; norm_num

/-- The pattern 0x00000000 is zero. -/
theorem zero_lit : Ideal.ofBits .f32 0x00000000#32 = 0 := Ideal.ofBits_zero_f32

/-- The pattern 0x3727C5AC is (2^23 + 2606508) * 2^(110 - 127 - 23), a positive real. -/
theorem eps_lit : ∃ e : ℝ, 0 < e ∧ Ideal.ofBits .f32 0x3727C5AC#32 = ((e : ℝ) : EReal) := by
  refine ⟨10995116 * (2 : ℝ) ^ (-40 : Int), by positivity, ?_⟩
  simp [Ideal.ofBits, Ideal.ieee, -EReal.coe_mul] <;> norm_num

/-- The four printed constants meet the assumptions when the column has 50000 entries. -/
theorem consts_lit (hcard : Fintype.card ι = 50000) :
    Consts ι (Ideal.ofBits .f32 0x47435000#32) (Ideal.ofBits .f32 0x3727C5AC#32)
      (Ideal.ofBits .f32 0x3F800000#32) (Ideal.ofBits .f32 0x00000000#32) where
  zero_eq := zero_lit
  one_eq := one_lit
  N_eq := by rw [N_lit, hcard]; norm_num
  card_pos := by rw [hcard]; norm_num
  eps_eq := eps_lit

/-! ## The rectifier as a choice on a comparison -/

/-- A choice on "the first is greater than the second" is a choice on the order. -/
theorem select_ogt {α : Type} (y z : EReal) (u v : α) :
    Scalar.select (Ideal.cmp .ogt y z) u v = if z < y then u else v := by
  unfold Ideal.cmp Scalar.select
  by_cases h : z < y <;> simp [h]

/-- The one-pass result, with the choice written on the comparison's bit. -/
theorem outK_select (N eps one zero : EReal) (a : ι → EReal) (x g be : EReal) :
    Scalar.select (Ideal.cmp .ogt (yK N eps a x g be) zero) (yK N eps a x g be) (Ideal.exp (yK N eps a x g be) - one)
      = outK N eps one zero a x g be :=
  select_ogt _ _ _ _

/-- The two-pass result, with both choices written on the comparison's bit. -/
theorem outR_select (N eps one zero : EReal) (a : ι → EReal) (x g be : EReal) :
    Scalar.select (Ideal.cmp .ogt (zR N eps zero a x g be) zero) (zR N eps zero a x g be)
        (one * (Ideal.exp (Scalar.select (Ideal.cmp .ogt (zR N eps zero a x g be) zero) zero (zR N eps zero a x g be)) - 1))
      = outR N eps one zero a x g be := by
  rw [select_ogt, select_ogt]
  rfl

/-! ## Over the reals -/

/-- A finite sum of reals, taken in the extended reals, is the real sum. -/
theorem coe_sum (f : ι → ℝ) : (∑ p, ((f p : ℝ) : EReal)) = ((∑ p, f p : ℝ) : EReal) := by
  classical
  induction (Finset.univ : Finset ι) using Finset.induction_on with
  | empty => simp
  | insert b t hb ih => rw [Finset.sum_insert hb, Finset.sum_insert hb, ih, EReal.coe_add]

/-- The mean of the squares less the square of the mean is the mean of the squares of the centred column. -/
theorem real_var_law (r : ι → ℝ) {n : ℝ} (hn : (Fintype.card ι : ℝ) = n) (hn0 : n ≠ 0) :
    (∑ p, r p * r p) * (1 / n) - ((∑ p, r p) * (1 / n)) * ((∑ p, r p) * (1 / n))
      = (∑ p, (r p - (∑ q, r q) * (1 / n)) * (r p - (∑ q, r q) * (1 / n))) * (1 / n) := by
  have hs : ∀ μ : ℝ, ∑ p, (r p - μ) * (r p - μ) = (∑ p, r p * r p) - 2 * μ * (∑ p, r p) + n * (μ * μ) := fun μ => by
    rw [← hn, Finset.mul_sum, ← Finset.card_univ, ← nsmul_eq_mul, ← Finset.sum_const, ← Finset.sum_sub_distrib,
      ← Finset.sum_add_distrib]
    exact Finset.sum_congr rfl fun p _ => by ring
  rw [hs]
  field_simp
  ring

/-- A mean of squares is not negative. -/
theorem real_var_nonneg (r : ι → ℝ) (μ : ℝ) {n : ℝ} (hn : 0 ≤ n) : 0 ≤ (∑ p, (r p - μ) * (r p - μ)) * (1 / n) :=
  mul_nonneg (Finset.sum_nonneg fun p _ => mul_self_nonneg _) (one_div_nonneg.mpr hn)

/-! ## The means and the variances -/

/-- The two means are the same sum over the same number. -/
theorem mean_eq {N zero : EReal} (hz : zero = 0) (a : ι → EReal) : meanK N a = meanR N zero a := by
  unfold meanK meanR
  rw [hz, zero_add]

/-- A real column is the image of a column of reals. -/
theorem exists_col {a : ι → EReal} (ha : IsRealCol a) : ∃ r : ι → ℝ, a = fun p => ((r p : ℝ) : EReal) := by
  choose r hr using ha
  exact ⟨r, funext hr⟩

section Real

variable {N eps one zero : EReal} (C : Consts ι N eps one zero)
include C

theorem card_ne_zero : ((Fintype.card ι : ℕ) : ℝ) ≠ 0 := Nat.cast_ne_zero.mpr (Nat.pos_iff_ne_zero.mp C.card_pos)

/-- The one-pass mean of a real column is the real mean. -/
theorem meanK_coe (r : ι → ℝ) :
    meanK N (fun p => ((r p : ℝ) : EReal)) = (((∑ p, r p) * (1 / ((Fintype.card ι : ℕ) : ℝ)) : ℝ) : EReal) := by
  unfold meanK
  rw [C.N_eq, Ideal.div_coe (card_ne_zero C), coe_sum, ← EReal.coe_mul]

/-- The one-pass variance of a real column is the real one. -/
theorem varK_coe (r : ι → ℝ) :
    varK N (fun p => ((r p : ℝ) : EReal))
      = (((∑ p, r p * r p) * (1 / ((Fintype.card ι : ℕ) : ℝ))
          - ((∑ p, r p) * (1 / ((Fintype.card ι : ℕ) : ℝ))) * ((∑ p, r p) * (1 / ((Fintype.card ι : ℕ) : ℝ))) : ℝ) : EReal) := by
  unfold varK
  rw [meanK_coe C, C.N_eq, Ideal.div_coe (card_ne_zero C)]
  have hq : (∑ p, ((r p : ℝ) : EReal) * ((r p : ℝ) : EReal)) = ((∑ p, r p * r p : ℝ) : EReal) := by
    rw [← coe_sum]
    exact Finset.sum_congr rfl fun p _ => (EReal.coe_mul _ _).symm
  rw [hq, ← EReal.coe_mul, ← EReal.coe_mul, ← EReal.coe_sub]

/-- The two-pass variance of a real column is the real mean of the squares of the centred column. -/
theorem varR_coe (r : ι → ℝ) :
    varR N zero (fun p => ((r p : ℝ) : EReal))
      = (((∑ p, (r p - (∑ q, r q) * (1 / ((Fintype.card ι : ℕ) : ℝ))) * (r p - (∑ q, r q) * (1 / ((Fintype.card ι : ℕ) : ℝ))))
          * (1 / ((Fintype.card ι : ℕ) : ℝ)) : ℝ) : EReal) := by
  unfold varR
  rw [← mean_eq C.zero_eq, meanK_coe C, C.zero_eq, zero_add, C.N_eq, Ideal.div_coe (card_ne_zero C)]
  have hq : (∑ p, (((r p : ℝ) : EReal) - (((∑ q, r q) * (1 / ((Fintype.card ι : ℕ) : ℝ)) : ℝ) : EReal))
        * (((r p : ℝ) : EReal) - (((∑ q, r q) * (1 / ((Fintype.card ι : ℕ) : ℝ)) : ℝ) : EReal)))
      = ((∑ p, (r p - (∑ q, r q) * (1 / ((Fintype.card ι : ℕ) : ℝ))) * (r p - (∑ q, r q) * (1 / ((Fintype.card ι : ℕ) : ℝ))) : ℝ) : EReal) := by
    rw [← coe_sum]
    exact Finset.sum_congr rfl fun p _ => by rw [← EReal.coe_sub, ← EReal.coe_mul]
  rw [hq, ← EReal.coe_mul]

/-- The two variances of a real column agree. -/
theorem var_eq {a : ι → EReal} (ha : IsRealCol a) : varK N a = varR N zero a := by
  obtain ⟨r, rfl⟩ := exists_col ha
  rw [varK_coe C, varR_coe C, real_var_law r rfl (card_ne_zero C)]

/-- The variance of a real column is a real that is not negative. -/
theorem var_nonneg_real {a : ι → EReal} (ha : IsRealCol a) : ∃ v : ℝ, 0 ≤ v ∧ varR N zero a = ((v : ℝ) : EReal) := by
  obtain ⟨r, rfl⟩ := exists_col ha
  exact ⟨_, real_var_nonneg r _ (Nat.cast_nonneg _), varR_coe C r⟩

/-- The reciprocal square root of the variance plus eps is a positive real. -/
theorem rsqrt_pos_real {a : ι → EReal} (ha : IsRealCol a) :
    ∃ s : ℝ, 0 < s ∧ Ideal.rsqrt (varR N zero a + eps) = ((s : ℝ) : EReal) := by
  obtain ⟨v, hv, hv'⟩ := var_nonneg_real C ha
  obtain ⟨e, he, he'⟩ := C.eps_eq
  have hpos : 0 < v + e := add_pos_of_nonneg_of_pos hv he
  refine ⟨(Real.sqrt (v + e))⁻¹, inv_pos.mpr (Real.sqrt_pos.mpr hpos), ?_⟩
  rw [hv', he', ← EReal.coe_add, Ideal.rsqrt_coe, if_neg (not_lt.mpr hpos.le), if_neg hpos.ne']

/-- The mean of a real column is a real. -/
theorem mean_real {a : ι → EReal} (ha : IsRealCol a) : IsReal (meanK N a) := by
  obtain ⟨r, rfl⟩ := exists_col ha
  exact ⟨_, meanK_coe C r⟩

/-! ## The normalised value and the rectifier -/

/-- The two normalised values agree: equal means, equal variances, and a product associated two ways. -/
theorem y_eq {a : ι → EReal} (ha : IsRealCol a) (x g be : EReal) : yK N eps a x g be = zR N eps zero a x g be := by
  unfold yK zR
  rw [var_eq C ha, mean_eq C.zero_eq, mul_assoc]

/-- The normalised value of real data is a real. -/
theorem y_real {a : ι → EReal} (ha : IsRealCol a) {x g be : EReal} (hx : IsReal x) (hg : IsReal g) (hbe : IsReal be) :
    IsReal (yK N eps a x g be) := by
  obtain ⟨m, hm⟩ := mean_real C ha
  obtain ⟨s, -, hs⟩ := rsqrt_pos_real C ha
  obtain ⟨x, rfl⟩ := hx
  obtain ⟨g, rfl⟩ := hg
  obtain ⟨be, rfl⟩ := hbe
  refine ⟨g * ((x - m) * s) + be, ?_⟩
  unfold yK
  rw [var_eq C ha, hs, hm, ← EReal.coe_sub, ← EReal.coe_mul, ← EReal.coe_mul, ← EReal.coe_add]

/-- The two results agree on real data (the point, the gain and the shift need not be real for this). -/
theorem out_eq {a : ι → EReal} (ha : IsRealCol a) (x g be : EReal) :
    outK N eps one zero a x g be = outR N eps one zero a x g be := by
  unfold outK outR
  rw [y_eq C ha]
  by_cases h : zero < zR N eps zero a x g be
  · rw [if_pos h, if_pos h]
  · rw [if_neg h, if_neg h, if_neg h, C.one_eq, one_mul]

/-- The result on real data is a real. -/
theorem out_real {a : ι → EReal} (ha : IsRealCol a) {x g be : EReal} (hx : IsReal x) (hg : IsReal g) (hbe : IsReal be) :
    IsReal (outK N eps one zero a x g be) := by
  obtain ⟨y, hy⟩ := y_real C ha hx hg hbe
  unfold outK
  rw [hy]
  by_cases h : zero < ((y : ℝ) : EReal)
  · rw [if_pos h]; exact ⟨y, rfl⟩
  · rw [if_neg h, C.one_eq, Ideal.exp_coe, ← EReal.coe_one, ← EReal.coe_sub]; exact ⟨_, rfl⟩

end Real

end Cert.NormRectLaw

end
-- ==== Proof.LibVecBroadcast.lean ====
/-
  Vectors laid out as one-column or one-row arrays and repeated along the other axis, read at an index, for any extents
  and any element type: a vector reshaped to a column [M,1] reads at (p, 0) its entry p, reshaped to a row [1,N] reads at
  (0, q) its entry q; a vector broadcast by the host along a new unit axis to a column (or a row) and that column (row)
  broadcast along N columns (down M rows) reads at (p, q) the vector's entry p (entry q).  And a row [1,N] cut by a reshape
  from the host's splat of the f32 zero word is zero at every entry, at the ideal values.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Gcn

open Idealize.ShloMosaic Idealize.ShloMosaic.ValueIdx

variable {M N : Nat} {α : Type}

/-- A vector as one column (a reshape), read at (p, 0). -/
theorem colcast_apply (v : (⟨1, ![M]⟩ : Shape).Idx → α) (h : (⟨1, ![M]⟩ : Shape).ShapeCasts ⟨2, ![M, 1]⟩) (p : Fin M) :
    shapeCast ⟨2, ![M, 1]⟩ v h (ix2 p (0 : Fin 1)) = v (ix1 p) :=
  shapeCast_apply v h _ _ (by
    rw [Shape.rowMajor_val_two, Shape.rowMajor_val_one]
    show p.val = p.val * 1 + 0
    omega)

/-- A vector as one row (a reshape), read at (0, q). -/
theorem rowcast_apply (v : (⟨1, ![N]⟩ : Shape).Idx → α) (h : (⟨1, ![N]⟩ : Shape).ShapeCasts ⟨2, ![1, N]⟩) (q : Fin N) :
    shapeCast ⟨2, ![1, N]⟩ v h (ix2 (0 : Fin 1) q) = v (ix1 q) :=
  shapeCast_a_1a_apply v h 0 q

/-- A vector broadcast to one column and that column along N columns, read at (p, q): entry p. -/
theorem col_of_vec (v : (⟨1, ![M]⟩ : Shape).Idx → α) (h1 : (⟨1, ![M]⟩ : Shape).BroadcastsInDim ⟨2, ![M, 1]⟩ ![0])
    (h2 : (⟨2, ![M, 1]⟩ : Shape).BroadcastsInDim ⟨2, ![M, N]⟩ ![0, 1]) (p : Fin M) (q : Fin N) :
    broadcastInDim ⟨2, ![M, N]⟩ ![0, 1] h2 (broadcastInDim ⟨2, ![M, 1]⟩ ![0] h1 v) (ix2 p q) = v (ix1 p) := by
  rw [broadcastInDim_apply ![0, 1] h2 _ (ix2 p q) (ix2 p (0 : Fin 1)) (fun a => by
      match a with
      | ⟨0, _⟩ =>
        show p.val = if M = 1 then 0 else p.val
        split
        · have := p.isLt; omega
        · rfl
      | ⟨1, _⟩ => rfl),
    broadcastInDim_apply ![0] h1 v (ix2 p (0 : Fin 1)) (ix1 p) (fun a => by
      match a with
      | ⟨0, _⟩ =>
        show p.val = if M = 1 then 0 else p.val
        split
        · have := p.isLt; omega
        · rfl)]

/-- A vector broadcast to one row and that row down M rows, read at (p, q): entry q. -/
theorem row_of_vec (v : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 v) (ix2 p q) = v (ix1 q) := by
  rw [broadcastInDim_apply ![0, 1] h2 _ (ix2 p q) (ix2 (0 : Fin 1) q) (fun a => by
      match a with
      | ⟨0, _⟩ => rfl
      | ⟨1, _⟩ =>
        show q.val = if N = 1 then 0 else q.val
        split
        · have := q.isLt; omega
        · rfl),
    broadcastInDim_apply ![1] h1 v (ix2 (0 : Fin 1) q) (ix1 q) (fun a => by
      match a with
      | ⟨0, _⟩ =>
        show q.val = if N = 1 then 0 else q.val
        split
        · have := q.isLt; omega
        · rfl)]

/-- A row cut from a splat of the zero word is zero. -/
theorem zero_row_apply (h1 : (⟨0, ![]⟩ : Shape).BroadcastsInDim ⟨1, ![N]⟩ ![])
    (h2 : (⟨1, ![N]⟩ : Shape).ShapeCasts ⟨2, ![1, N]⟩) (q : Fin N) :
    shapeCast ⟨2, ![1, N]⟩ (broadcastInDim ⟨1, ![N]⟩ ![] h1 (constant (F := Ideal) ⟨0, ![]⟩ .f32 0x00000000#32)) h2
      (ix2 (0 : Fin 1) q) = 0 := by
  rw [rowcast_apply, broadcastInDim_apply ![] h1 _ (ix1 q) ix0 (fun a => a.elim0), constant_apply, Ideal.ofBits_zero_f32]

end Cert.Gcn

end
-- ==== Proof.Ref.Read.lean ====
/-
  The reference's layers read at one entry, at the ideal values (a float is an extended real, every operation exact).

  The product of the node features with a weight matrix, at node p and feature q, is the sum over the contracted feature c
  of the features' entry (p, c) times the weights' entry (c, q).  A vector over the features repeated on every node's row
  reads, at (p, q), its entry q; a scalar spread over any shape reads the scalar.  The host's sum over the nodes started from
  the zero word reads, at feature q, that word's value plus the sum over the 50000 nodes of column q.  Hence, at feature q,
  the mean is (0 + the column's sum) / N, the centred entry (p, q) is the entry less that mean, the variance is
  (0 + the sum of the squared centred column) / N, the normalised entry is (g q * (entry - mean)) * rsqrt (variance + eps)
  + be q, and the exponential linear unit of it is the choice, on "it is greater than zero", between it and
  1 * (exp (the choice between zero and it) - 1): the two-pass arrangement of one column, with that column, the entry, and
  entry q of the gain and of the shift as its data.
-/
import proofs.«169495_j53601191854606_1_alg».proof.Proof.Ref.Pure
import proofs.«169495_j53601191854606_1_alg».proof.Proof.NormRectLaw
import proofs.«169495_j53601191854606_1_alg».proof.Proof.LibDotNN
import proofs.«169495_j53601191854606_1_alg».proof.Proof.LibVecBroadcast
import Idealize.ShloMosaic.Lib.IdealHost

noncomputable section

namespace Cert.ReferenceIdeal.Read

open Cert.ReferenceIdeal Cert.ReferenceIdeal.Gen Cert.ReferenceIdeal.Hand Cert.NormRectLaw
open Idealize.ShloMosaic Idealize.ShloMosaic.ValueIdx Idealize.SL.Sem
open scoped BigOperators

local notation "cN" => Ideal.ofBits FTy.f32 0x47435000#32
local notation "cEps" => Ideal.ofBits FTy.f32 0x3727C5AC#32
local notation "cOne" => Ideal.ofBits FTy.f32 0x3F800000#32
local notation "cZero" => Ideal.ofBits FTy.f32 0x00000000#32

/-! ## The host's elementwise operations and its sum over the rows, at an entry -/

/-- The host's reciprocal square root at an entry. -/
theorem hostRsqrt_apply {s : Shape} {φ : FTy} (v : FVec Ideal s φ) (i : s.Idx) : Host.rsqrt v i = Ideal.rsqrt (v i) := rfl

/-- The host's exp(x) - 1 at an entry. -/
theorem hostExpm1_apply {s : Shape} {φ : FTy} (v : FVec Ideal s φ) (i : s.Idx) : Host.expm1 v i = Ideal.exp (v i) - 1 := rfl

/-- A comparison at an entry, at the ideal values. -/
theorem cmpf_ideal_apply {s : Shape} {φ : FTy} (pr : CmpFPredicate) (a b : FVec Ideal s φ) (i : s.Idx) :
    cmpf pr a b i = Ideal.cmp pr (a i) (b i) := rfl

/-- The index over feature t whose coordinate on the dropped row axis is k is (k, t). -/
theorem lift_ix2 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The host's sum over the rows from a constant word, at feature q: the word's value plus the sum of column q. -/
theorem sum_rows {m n : Nat} (h' : (⟨2, ![m, n]⟩ : Shape).ReducesTo [0] (⟨1, ![n]⟩ : Shape))
    (h : (⟨2, ![m, n]⟩ : Shape).Reduces [0] (⟨1, ![n]⟩ : Shape)) (hu : 0 < (⟨0, ![]⟩ : Shape).numel)
    (y : FVec Ideal ⟨2, ![m, n]⟩ .f32) (w : BitVec 32) (q : Fin n) :
    Host.reduceAdd y (constant (F := Ideal) ⟨0, ![]⟩ .f32 w) h' hu (ix1 q) = Ideal.ofBits .f32 w + ∑ p : Fin m, y (ix2 p q) := by
  rw [hostReduceAdd_apply, Ideal.hostReduceAdd_single h' h, constant_apply]
  refine congrArg (fun s => Ideal.ofBits .f32 w + s) ?_
  exact Finset.sum_congr rfl fun k _ => congrArg y (lift_ix2 h q k)

/-! ## Width 128 -/

theorem reduces_S50000x128_S128 : S50000x128.Reduces [0] S128 := by decide

/-- The features times the weights at an entry. -/
theorem xw128_apply (h : FVec Ideal S50000x128 .f32) (W : FVec Ideal S128x128 .f32) (i : S50000x128.Idx) :
    xw128 (F := Ideal) h W i = ∑ c : Fin 128, h (ix2 (i 0) c) * W (ix2 c (i 1)) := by
  unfold xw128 dot_S50000x128_S128x128_S50000x128_1_0_0_1_n_n
  exact Cert.LibDotNN.dotGeneral_nn_apply_idx _ none h W i

/-- A vector over the features repeated on every row, at (p, q). -/
theorem rows128_apply (v : FVec Ideal S128 .f32) (p : Fin 50000) (q : Fin 128) : rows128 (F := Ideal) v (ix2 p q) = v (ix1 q) :=
  Cert.Gcn.row_of_vec v _ _ p q

/-- The sum over the nodes at feature q. -/
theorem sum128_apply (y : FVec Ideal S50000x128 .f32) (q : Fin 128) :
    sum128 (F := Ideal) y (ix1 q) = cZero + ∑ p : Fin 50000, y (ix2 p q) :=
  sum_rows reducesTo_S50000x128_S128_d0 reduces_S50000x128_S128 h_S_ y _ q

/-- The mean over the nodes at feature q is the two-pass mean of column q. -/
theorem mean128_apply (y : FVec Ideal S50000x128 .f32) (q : Fin 128) :
    mean128 (F := Ideal) y (ix1 q) = meanR cN cZero (fun p : Fin 50000 => y (ix2 p q)) := by
  unfold mean128
  rw [hostDivf_apply, sum128_apply, broadcastInDim_scalar_apply, constant_apply]
  rfl

/-- The centred entry. -/
theorem centred128_apply (y : FVec Ideal S50000x128 .f32) (p : Fin 50000) (q : Fin 128) :
    centred128 (F := Ideal) y (ix2 p q) = y (ix2 p q) - meanR cN cZero (fun p' : Fin 50000 => y (ix2 p' q)) := by
  unfold centred128
  rw [subf_apply, rows128_apply, mean128_apply]

/-- The variance over the nodes at feature q is the two-pass variance of column q. -/
theorem var128_apply (y : FVec Ideal S50000x128 .f32) (q : Fin 128) :
    var128 (F := Ideal) y (ix1 q) = varR cN cZero (fun p : Fin 50000 => y (ix2 p q)) := by
  unfold var128
  rw [hostDivf_apply, sum128_apply, broadcastInDim_scalar_apply, constant_apply]
  unfold varR
  refine congrArg (fun s => Ideal.div (cZero + s) cN) (Finset.sum_congr rfl fun p _ => ?_)
  rw [mulf_apply, centred128_apply]

/-- The normalised entry is the two-pass normalised value of column q at the entry. -/
theorem bn128_apply (y : FVec Ideal S50000x128 .f32) (g be : FVec Ideal S128 .f32) (p : Fin 50000) (q : Fin 128) :
    bn128 (F := Ideal) y g be (ix2 p q)
      = zR cN cEps cZero (fun p' : Fin 50000 => y (ix2 p' q)) (y (ix2 p q)) (g (ix1 q)) (be (ix1 q)) := by
  unfold bn128
  rw [addf_apply, mulf_apply, mulf_apply, rows128_apply, rows128_apply, rows128_apply, centred128_apply, hostRsqrt_apply,
    addf_apply, var128_apply, broadcastInDim_scalar_apply, constant_apply]
  rfl

/-- The exponential linear unit at an entry, as the two choices on one comparison. -/
theorem elu128_apply (x : FVec Ideal S50000x128 .f32) (i : S50000x128.Idx) :
    elu128 (F := Ideal) x i
      = Scalar.select (Ideal.cmp .ogt (x i) cZero) (x i)
          (cOne * (Ideal.exp (Scalar.select (Ideal.cmp .ogt (x i) cZero) cZero (x i)) - 1)) := by
  unfold elu128
  rw [select_apply, mulf_apply, hostExpm1_apply, select_apply, cmpf_ideal_apply, broadcastInDim_scalar_apply,
    broadcastInDim_scalar_apply, constant_apply, constant_apply]

/-- Normalisation then the exponential linear unit, at (p, q): the two-pass result of column q at the entry. -/
theorem bnElu128_apply (y : FVec Ideal S50000x128 .f32) (g be : FVec Ideal S128 .f32) (p : Fin 50000) (q : Fin 128) :
    elu128 (F := Ideal) (bn128 (F := Ideal) y g be) (ix2 p q)
      = outR cN cEps cOne cZero (fun p' : Fin 50000 => y (ix2 p' q)) (y (ix2 p q)) (g (ix1 q)) (be (ix1 q)) := by
  rw [elu128_apply, bn128_apply]
  exact outR_select _ _ _ _ _ _ _ _

/-- One layer at (p, q): the two-pass result of column q of the convolution at its entry (p, q). -/
theorem layer128_apply (h : FVec Ideal S50000x128 .f32) (src dst : IVec S1600000 32) (dis : FVec Ideal S50000 .f32)
    (W : FVec Ideal S128x128 .f32) (b g be : FVec Ideal S128 .f32) (p : Fin 50000) (q : Fin 128) :
    layer128 (F := Ideal) h src dst dis W b g be (ix2 p q)
      = outR cN cEps cOne cZero (fun p' : Fin 50000 => conv128 (F := Ideal) (xw128 (F := Ideal) h W) dis src dst b (ix2 p' q))
          (conv128 (F := Ideal) (xw128 (F := Ideal) h W) dis src dst b (ix2 p q)) (g (ix1 q)) (be (ix1 q)) := by
  unfold layer128
  exact bnElu128_apply _ g be p q

/-! ## Width 64 -/

theorem reduces_S50000x64_S64 : S50000x64.Reduces [0] S64 := by decide

/-- The features times the weights at an entry. -/
theorem xw64_apply (h : FVec Ideal S50000x128 .f32) (W : FVec Ideal S128x64 .f32) (i : S50000x64.Idx) :
    xw64 (F := Ideal) h W i = ∑ c : Fin 128, h (ix2 (i 0) c) * W (ix2 c (i 1)) := by
  unfold xw64 dot_S50000x128_S128x64_S50000x64_1_0_0_1_n_n
  exact Cert.LibDotNN.dotGeneral_nn_apply_idx _ none h W i

/-- A vector over the features repeated on every row, at (p, q). -/
theorem rows64_apply (v : FVec Ideal S64 .f32) (p : Fin 50000) (q : Fin 64) : rows64 (F := Ideal) v (ix2 p q) = v (ix1 q) :=
  Cert.Gcn.row_of_vec v _ _ p q

/-- The sum over the nodes at feature q. -/
theorem sum64_apply (y : FVec Ideal S50000x64 .f32) (q : Fin 64) :
    sum64 (F := Ideal) y (ix1 q) = cZero + ∑ p : Fin 50000, y (ix2 p q) :=
  sum_rows reducesTo_S50000x64_S64_d0 reduces_S50000x64_S64 h_S_ y _ q

/-- The mean over the nodes at feature q is the two-pass mean of column q. -/
theorem mean64_apply (y : FVec Ideal S50000x64 .f32) (q : Fin 64) :
    mean64 (F := Ideal) y (ix1 q) = meanR cN cZero (fun p : Fin 50000 => y (ix2 p q)) := by
  unfold mean64
  rw [hostDivf_apply, sum64_apply, broadcastInDim_scalar_apply, constant_apply]
  rfl

/-- The centred entry. -/
theorem centred64_apply (y : FVec Ideal S50000x64 .f32) (p : Fin 50000) (q : Fin 64) :
    centred64 (F := Ideal) y (ix2 p q) = y (ix2 p q) - meanR cN cZero (fun p' : Fin 50000 => y (ix2 p' q)) := by
  unfold centred64
  rw [subf_apply, rows64_apply, mean64_apply]

/-- The variance over the nodes at feature q is the two-pass variance of column q. -/
theorem var64_apply (y : FVec Ideal S50000x64 .f32) (q : Fin 64) :
    var64 (F := Ideal) y (ix1 q) = varR cN cZero (fun p : Fin 50000 => y (ix2 p q)) := by
  unfold var64
  rw [hostDivf_apply, sum64_apply, broadcastInDim_scalar_apply, constant_apply]
  unfold varR
  refine congrArg (fun s => Ideal.div (cZero + s) cN) (Finset.sum_congr rfl fun p _ => ?_)
  rw [mulf_apply, centred64_apply]

/-- The normalised entry is the two-pass normalised value of column q at the entry. -/
theorem bn64_apply (y : FVec Ideal S50000x64 .f32) (g be : FVec Ideal S64 .f32) (p : Fin 50000) (q : Fin 64) :
    bn64 (F := Ideal) y g be (ix2 p q)
      = zR cN cEps cZero (fun p' : Fin 50000 => y (ix2 p' q)) (y (ix2 p q)) (g (ix1 q)) (be (ix1 q)) := by
  unfold bn64
  rw [addf_apply, mulf_apply, mulf_apply, rows64_apply, rows64_apply, rows64_apply, centred64_apply, hostRsqrt_apply,
    addf_apply, var64_apply, broadcastInDim_scalar_apply, constant_apply]
  rfl

/-- The exponential linear unit at an entry, as the two choices on one comparison. -/
theorem elu64_apply (x : FVec Ideal S50000x64 .f32) (i : S50000x64.Idx) :
    elu64 (F := Ideal) x i
      = Scalar.select (Ideal.cmp .ogt (x i) cZero) (x i)
          (cOne * (Ideal.exp (Scalar.select (Ideal.cmp .ogt (x i) cZero) cZero (x i)) - 1)) := by
  unfold elu64
  rw [select_apply, mulf_apply, hostExpm1_apply, select_apply, cmpf_ideal_apply, broadcastInDim_scalar_apply,
    broadcastInDim_scalar_apply, constant_apply, constant_apply]

/-- Normalisation then the exponential linear unit, at (p, q): the two-pass result of column q at the entry. -/
theorem bnElu64_apply (y : FVec Ideal S50000x64 .f32) (g be : FVec Ideal S64 .f32) (p : Fin 50000) (q : Fin 64) :
    elu64 (F := Ideal) (bn64 (F := Ideal) y g be) (ix2 p q)
      = outR cN cEps cOne cZero (fun p' : Fin 50000 => y (ix2 p' q)) (y (ix2 p q)) (g (ix1 q)) (be (ix1 q)) := by
  rw [elu64_apply, bn64_apply]
  exact outR_select _ _ _ _ _ _ _ _

/-- One layer at (p, q): the two-pass result of column q of the convolution at its entry (p, q). -/
theorem layer64_apply (h : FVec Ideal S50000x128 .f32) (src dst : IVec S1600000 32) (dis : FVec Ideal S50000 .f32)
    (W : FVec Ideal S128x64 .f32) (b g be : FVec Ideal S64 .f32) (p : Fin 50000) (q : Fin 64) :
    layer64 (F := Ideal) h src dst dis W b g be (ix2 p q)
      = outR cN cEps cOne cZero (fun p' : Fin 50000 => conv64 (F := Ideal) (xw64 (F := Ideal) h W) dis src dst b (ix2 p' q))
          (conv64 (F := Ideal) (xw64 (F := Ideal) h W) dis src dst b (ix2 p q)) (g (ix1 q)) (be (ix1 q)) := by
  unfold layer64
  exact bnElu64_apply _ g be p q

end Cert.ReferenceIdeal.Read

end
-- ==== Proof.Ideal.BridgeLaw.lean ====
/- One layer in two arrangements, at the ideal values. The kernel computes the product of the features with the
   weights as a sum over the contracted feature; the convolution from the summed messages, the degrees laid out as a
   column and the bias as a row; the mean and the variance of each column in one pass (the sum and the sum of squares,
   each started from the zero word, over N); and the rectifier of the normalised entry. The reference computes the
   same layer in two passes. They agree on columns of reals: the one-pass and two-pass results of a real column are
   equal. -/
import proofs.«169495_j53601191854606_1_alg».proof.Proof.Ref.Agg
import proofs.«169495_j53601191854606_1_alg».proof.Proof.Ref.Read
import proofs.«169495_j53601191854606_1_alg».proof.Proof.NormRectLaw
import proofs.«169495_j53601191854606_1_alg».proof.Proof.LibVecBroadcast
import Idealize.ShloMosaic.Lib.IdealHost

noncomputable section

namespace Cert.ReferenceIdeal.Bridge

open Cert.ReferenceIdeal Cert.ReferenceIdeal.Gen Cert.ReferenceIdeal.Hand Cert.NormRectLaw
open Idealize.ShloMosaic Idealize.ShloMosaic.ValueIdx Idealize.SL.Sem
open scoped BigOperators

local notation "cN" => Ideal.ofBits FTy.f32 0x47435000#32
local notation "cEps" => Ideal.ofBits FTy.f32 0x3727C5AC#32
local notation "cOne" => Ideal.ofBits FTy.f32 0x3F800000#32
local notation "cZero" => Ideal.ofBits FTy.f32 0x00000000#32

/-- The kernel's normalised, scaled and shifted entry. -/
def normYG (x mu vr g be : EReal) : EReal :=
  g * ((x - mu) * Ideal.rsqrt (vr + cEps)) + be

/-- The kernel's rectifier: the entry where it is greater than zero, else its exponential less one. -/
def rectG (y : EReal) : EReal :=
  Scalar.select (Ideal.cmp .ogt y cZero) y (Ideal.exp y - cOne)

/-! ### Width 128 -/

/-- The kernel's product: entry (p, q) is the sum over the contracted feature. -/
def prodG128 (x : S50000x128.Idx → EReal) (w : S128x128.Idx → EReal) : S50000x128.Idx → EReal :=
  fun i => ∑ c : Fin 128, x (ix2 (i 0) c) * w (ix2 c (i 1))

/-- The kernel's convolution: the summed messages, plus the node's row of the product scaled by the square of the
    node's entry of the degree column, plus the bias row's entry. -/
def preG128 (agg h : S50000x128.Idx → EReal) (d : S50000x1.Idx → EReal) (b : S1x128.Idx → EReal) : S50000x128.Idx → EReal :=
  fun i => (agg i + h i * (d (ix2 (i 0) 0) * d (ix2 (i 0) 0))) + b (ix2 0 (i 1))

/-- The kernel's mean row: per feature, the column's sum started from the zero word, over N. -/
def meanG128 (pre : S50000x128.Idx → EReal) : S1x128.Idx → EReal :=
  fun j => Ideal.div (cZero + ∑ p : Fin 50000, pre (ix2 p (j 1))) cN

/-- The kernel's variance row: per feature, the mean of the squares less the square of the mean. -/
def varG128 (pre : S50000x128.Idx → EReal) : S1x128.Idx → EReal :=
  fun j => Ideal.div (cZero + ∑ p : Fin 50000, pre (ix2 p (j 1)) * pre (ix2 p (j 1))) cN - meanG128 pre j * meanG128 pre j

/-- The kernel's activated array: the rectifier of the normalised entry, the four rows read at the entry's feature. -/
def actG128 (pre : S50000x128.Idx → EReal) (mu vr g be : S1x128.Idx → EReal) : S50000x128.Idx → EReal :=
  fun i => rectG (normYG (pre (ix2 (i 0) (i 1))) (mu (ix2 0 (i 1))) (vr (ix2 0 (i 1))) (g (ix2 0 (i 1))) (be (ix2 0 (i 1))))

theorem preG128_apply (agg h : S50000x128.Idx → EReal) (d : S50000x1.Idx → EReal) (b : S1x128.Idx → EReal) (p : Fin 50000) (q : Fin 128) :
    preG128 agg h d b (ix2 p q) = (agg (ix2 p q) + h (ix2 p q) * (d (ix2 p 0) * d (ix2 p 0))) + b (ix2 0 q) := rfl

theorem actG128_apply (pre : S50000x128.Idx → EReal) (mu vr g be : S1x128.Idx → EReal) (p : Fin 50000) (q : Fin 128) :
    actG128 pre mu vr g be (ix2 p q)
      = rectG (normYG (pre (ix2 p q)) (mu (ix2 0 q)) (vr (ix2 0 q)) (g (ix2 0 q)) (be (ix2 0 q))) := rfl

/-- The kernel's mean row at feature q is the one-pass mean of column q. -/
theorem meanG128_eq (pre : S50000x128.Idx → EReal) (q : Fin 128) :
    meanG128 pre (ix2 0 q) = meanK cN (fun p : Fin 50000 => pre (ix2 p q)) := by
  show Ideal.div (cZero + ∑ p : Fin 50000, pre (ix2 p q)) cN = Ideal.div (∑ p : Fin 50000, pre (ix2 p q)) cN
  rw [zero_lit, zero_add]

/-- The kernel's variance row at feature q is the one-pass variance of column q. -/
theorem varG128_eq (pre : S50000x128.Idx → EReal) (q : Fin 128) :
    varG128 pre (ix2 0 q) = varK cN (fun p : Fin 50000 => pre (ix2 p q)) := by
  show Ideal.div (cZero + ∑ p : Fin 50000, pre (ix2 p q) * pre (ix2 p q)) cN - meanG128 pre (ix2 0 q) * meanG128 pre (ix2 0 q)
    = Ideal.div (∑ p : Fin 50000, pre (ix2 p q) * pre (ix2 p q)) cN
      - meanK cN (fun p : Fin 50000 => pre (ix2 p q)) * meanK cN (fun p : Fin 50000 => pre (ix2 p q))
  rw [meanG128_eq, zero_lit, zero_add]

/-- The kernel's product is the reference's. -/
theorem prodG128_eq (h : FVec Ideal S50000x128 .f32) (W : FVec Ideal S128x128 .f32) : prodG128 h W = xw128 (F := Ideal) h W :=
  funext fun i => (Cert.ReferenceIdeal.Read.xw128_apply h W i).symm

/-- The kernel's convolution, over the degrees as a column and the bias as a row, is the reference's. -/
theorem preG128_eq_conv (xw : FVec Ideal S50000x128 .f32) (dis : FVec Ideal S50000 .f32) (src dst : IVec S1600000 32)
    (b : FVec Ideal S128 .f32) (hd : S50000.ShapeCasts S50000x1) (hr : S128.ShapeCasts S1x128) :
    preG128 (aggW128 (F := Ideal) xw (edgeW (F := Ideal) dis src dst) src dst) xw (shapeCast S50000x1 dis hd) (shapeCast S1x128 b hr)
      = conv128 (F := Ideal) xw dis src dst b := by
  funext i
  obtain ⟨p, q, rfl⟩ : ∃ (p : Fin 50000) (q : Fin 128), i = ix2 p q := ⟨i 0, i 1, eq_ix2 i⟩
  rw [preG128_apply, conv128_eq_agg, addf_apply, addf_apply, mulf_apply, Cert.Gcn.colcast_apply, Cert.Gcn.rowcast_apply,
    Cert.Gcn.col_of_vec, mulf_apply, Cert.ReferenceIdeal.Read.rows128_apply]

/-- One layer in the kernel's arrangement — the product, the convolution over the degree column and the bias row, the
    one-pass mean and variance rows, the rectifier of the normalised entries — is the reference's layer, when every
    column of the convolution is a column of reals. -/
theorem bridge128 (h : FVec Ideal S50000x128 .f32) (W : FVec Ideal S128x128 .f32) (b g be : FVec Ideal S128 .f32)
    (dis : FVec Ideal S50000 .f32) (src dst : IVec S1600000 32) (hd : S50000.ShapeCasts S50000x1) (hr : S128.ShapeCasts S1x128)
    (hcol : ∀ q : Fin 128, IsRealCol (fun p : Fin 50000 => conv128 (F := Ideal) (xw128 (F := Ideal) h W) dis src dst b (ix2 p q))) :
    actG128 (preG128 (aggW128 (F := Ideal) (prodG128 h W) (edgeW (F := Ideal) dis src dst) src dst) (prodG128 h W)
        (shapeCast S50000x1 dis hd) (shapeCast S1x128 b hr))
      (meanG128 (preG128 (aggW128 (F := Ideal) (prodG128 h W) (edgeW (F := Ideal) dis src dst) src dst) (prodG128 h W)
        (shapeCast S50000x1 dis hd) (shapeCast S1x128 b hr)))
      (varG128 (preG128 (aggW128 (F := Ideal) (prodG128 h W) (edgeW (F := Ideal) dis src dst) src dst) (prodG128 h W)
        (shapeCast S50000x1 dis hd) (shapeCast S1x128 b hr)))
      (shapeCast S1x128 g hr) (shapeCast S1x128 be hr)
      = layer128 (F := Ideal) h src dst dis W b g be := by
  rw [prodG128_eq, preG128_eq_conv]
  funext i
  obtain ⟨p, q, rfl⟩ : ∃ (p : Fin 50000) (q : Fin 128), i = ix2 p q := ⟨i 0, i 1, eq_ix2 i⟩
  have C := consts_lit (ι := Fin 50000) (by simp)
  rw [actG128_apply, meanG128_eq, varG128_eq, Cert.Gcn.rowcast_apply, Cert.Gcn.rowcast_apply,
    Cert.ReferenceIdeal.Read.layer128_apply, ← out_eq C (hcol q), ← outK_select]
  rfl

/-! ### Width 64 -/

/-- The kernel's product: entry (p, q) is the sum over the contracted feature. -/
def prodG64 (x : S50000x128.Idx → EReal) (w : S128x64.Idx → EReal) : S50000x64.Idx → EReal :=
  fun i => ∑ c : Fin 128, x (ix2 (i 0) c) * w (ix2 c (i 1))

/-- The kernel's convolution: the summed messages, plus the node's row of the product scaled by the square of the
    node's entry of the degree column, plus the bias row's entry. -/
def preG64 (agg h : S50000x64.Idx → EReal) (d : S50000x1.Idx → EReal) (b : S1x64.Idx → EReal) : S50000x64.Idx → EReal :=
  fun i => (agg i + h i * (d (ix2 (i 0) 0) * d (ix2 (i 0) 0))) + b (ix2 0 (i 1))

/-- The kernel's mean row: per feature, the column's sum started from the zero word, over N. -/
def meanG64 (pre : S50000x64.Idx → EReal) : S1x64.Idx → EReal :=
  fun j => Ideal.div (cZero + ∑ p : Fin 50000, pre (ix2 p (j 1))) cN

/-- The kernel's variance row: per feature, the mean of the squares less the square of the mean. -/
def varG64 (pre : S50000x64.Idx → EReal) : S1x64.Idx → EReal :=
  fun j => Ideal.div (cZero + ∑ p : Fin 50000, pre (ix2 p (j 1)) * pre (ix2 p (j 1))) cN - meanG64 pre j * meanG64 pre j

/-- The kernel's activated array: the rectifier of the normalised entry, the four rows read at the entry's feature. -/
def actG64 (pre : S50000x64.Idx → EReal) (mu vr g be : S1x64.Idx → EReal) : S50000x64.Idx → EReal :=
  fun i => rectG (normYG (pre (ix2 (i 0) (i 1))) (mu (ix2 0 (i 1))) (vr (ix2 0 (i 1))) (g (ix2 0 (i 1))) (be (ix2 0 (i 1))))

theorem preG64_apply (agg h : S50000x64.Idx → EReal) (d : S50000x1.Idx → EReal) (b : S1x64.Idx → EReal) (p : Fin 50000) (q : Fin 64) :
    preG64 agg h d b (ix2 p q) = (agg (ix2 p q) + h (ix2 p q) * (d (ix2 p 0) * d (ix2 p 0))) + b (ix2 0 q) := rfl

theorem actG64_apply (pre : S50000x64.Idx → EReal) (mu vr g be : S1x64.Idx → EReal) (p : Fin 50000) (q : Fin 64) :
    actG64 pre mu vr g be (ix2 p q)
      = rectG (normYG (pre (ix2 p q)) (mu (ix2 0 q)) (vr (ix2 0 q)) (g (ix2 0 q)) (be (ix2 0 q))) := rfl

/-- The kernel's mean row at feature q is the one-pass mean of column q. -/
theorem meanG64_eq (pre : S50000x64.Idx → EReal) (q : Fin 64) :
    meanG64 pre (ix2 0 q) = meanK cN (fun p : Fin 50000 => pre (ix2 p q)) := by
  show Ideal.div (cZero + ∑ p : Fin 50000, pre (ix2 p q)) cN = Ideal.div (∑ p : Fin 50000, pre (ix2 p q)) cN
  rw [zero_lit, zero_add]

/-- The kernel's variance row at feature q is the one-pass variance of column q. -/
theorem varG64_eq (pre : S50000x64.Idx → EReal) (q : Fin 64) :
    varG64 pre (ix2 0 q) = varK cN (fun p : Fin 50000 => pre (ix2 p q)) := by
  show Ideal.div (cZero + ∑ p : Fin 50000, pre (ix2 p q) * pre (ix2 p q)) cN - meanG64 pre (ix2 0 q) * meanG64 pre (ix2 0 q)
    = Ideal.div (∑ p : Fin 50000, pre (ix2 p q) * pre (ix2 p q)) cN
      - meanK cN (fun p : Fin 50000 => pre (ix2 p q)) * meanK cN (fun p : Fin 50000 => pre (ix2 p q))
  rw [meanG64_eq, zero_lit, zero_add]

/-- The kernel's product is the reference's. -/
theorem prodG64_eq (h : FVec Ideal S50000x128 .f32) (W : FVec Ideal S128x64 .f32) : prodG64 h W = xw64 (F := Ideal) h W :=
  funext fun i => (Cert.ReferenceIdeal.Read.xw64_apply h W i).symm

/-- The kernel's convolution, over the degrees as a column and the bias as a row, is the reference's. -/
theorem preG64_eq_conv (xw : FVec Ideal S50000x64 .f32) (dis : FVec Ideal S50000 .f32) (src dst : IVec S1600000 32)
    (b : FVec Ideal S64 .f32) (hd : S50000.ShapeCasts S50000x1) (hr : S64.ShapeCasts S1x64) :
    preG64 (aggW64 (F := Ideal) xw (edgeW (F := Ideal) dis src dst) src dst) xw (shapeCast S50000x1 dis hd) (shapeCast S1x64 b hr)
      = conv64 (F := Ideal) xw dis src dst b := by
  funext i
  obtain ⟨p, q, rfl⟩ : ∃ (p : Fin 50000) (q : Fin 64), i = ix2 p q := ⟨i 0, i 1, eq_ix2 i⟩
  rw [preG64_apply, conv64_eq_agg, addf_apply, addf_apply, mulf_apply, Cert.Gcn.colcast_apply, Cert.Gcn.rowcast_apply,
    Cert.Gcn.col_of_vec, mulf_apply, Cert.ReferenceIdeal.Read.rows64_apply]

/-- One layer in the kernel's arrangement — the product, the convolution over the degree column and the bias row, the
    one-pass mean and variance rows, the rectifier of the normalised entries — is the reference's layer, when every
    column of the convolution is a column of reals. -/
theorem bridge64 (h : FVec Ideal S50000x128 .f32) (W : FVec Ideal S128x64 .f32) (b g be : FVec Ideal S64 .f32)
    (dis : FVec Ideal S50000 .f32) (src dst : IVec S1600000 32) (hd : S50000.ShapeCasts S50000x1) (hr : S64.ShapeCasts S1x64)
    (hcol : ∀ q : Fin 64, IsRealCol (fun p : Fin 50000 => conv64 (F := Ideal) (xw64 (F := Ideal) h W) dis src dst b (ix2 p q))) :
    actG64 (preG64 (aggW64 (F := Ideal) (prodG64 h W) (edgeW (F := Ideal) dis src dst) src dst) (prodG64 h W)
        (shapeCast S50000x1 dis hd) (shapeCast S1x64 b hr))
      (meanG64 (preG64 (aggW64 (F := Ideal) (prodG64 h W) (edgeW (F := Ideal) dis src dst) src dst) (prodG64 h W)
        (shapeCast S50000x1 dis hd) (shapeCast S1x64 b hr)))
      (varG64 (preG64 (aggW64 (F := Ideal) (prodG64 h W) (edgeW (F := Ideal) dis src dst) src dst) (prodG64 h W)
        (shapeCast S50000x1 dis hd) (shapeCast S1x64 b hr)))
      (shapeCast S1x64 g hr) (shapeCast S1x64 be hr)
      = layer64 (F := Ideal) h src dst dis W b g be := by
  rw [prodG64_eq, preG64_eq_conv]
  funext i
  obtain ⟨p, q, rfl⟩ : ∃ (p : Fin 50000) (q : Fin 64), i = ix2 p q := ⟨i 0, i 1, eq_ix2 i⟩
  have C := consts_lit (ι := Fin 50000) (by simp)
  rw [actG64_apply, meanG64_eq, varG64_eq, Cert.Gcn.rowcast_apply, Cert.Gcn.rowcast_apply,
    Cert.ReferenceIdeal.Read.layer64_apply, ← out_eq C (hcol q), ← outK_select]
  rfl

end Cert.ReferenceIdeal.Bridge

end
-- ==== Proof.LibRealLift.lean ====
/-
  Arrays of extended reals all of whose entries are real numbers, and the operations on them.

  At the ideal instance a float is an extended real. When every entry of an array is (the image of) a real
  number, sums, differences and products of such arrays are again such arrays, computed entry by entry in ℝ;
  a change of float format does nothing; and a plain matrix product `[M, K] × [K, N]` into a zero accumulator is
  the real matrix product: entry `(p, j)` is `∑ k, a (p, k) * b (k, j)`, a finite sum of reals.

  Two identities of real sums are recorded here as well. The split-precision product: a factor `a` is split as
  `a` itself plus the residual `a - a = 0` (no rounding happens at the ideal instance), and the three partial products
  `a·w + a·(w - w) + (a - a)·w` collapse to `a·w`. The three-multiplication form of a complex product:
  `(a + b)·(u + v) - a·u - b·v = a·v + b·u`, summed over the contraction index.
-/
import Idealize.ShloMosaic.Lib.ValueIdx
import Idealize.ShloMosaic.PureOps.Ideal.Laws

open Idealize.ShloMosaic Idealize.ShloMosaic.ValueIdx

namespace Cert.LibRealLift

/-- The array of extended reals whose entry at `i` is the real number `r i`. -/
def cv {s : Shape} {φ : FTy} (r : s.Idx → ℝ) : FVec Ideal s φ := fun i => ((r i : ℝ) : EReal)

theorem cv_apply {s : Shape} {φ : FTy} (r : s.Idx → ℝ) (i : s.Idx) : (cv r : FVec Ideal s φ) i = ((r i : ℝ) : EReal) := rfl

/-- A finite sum of reals, taken in the extended reals, is the real sum. -/
theorem coe_sum {κ : Type*} (t : Finset κ) (f : κ → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

variable {s : Shape} {φ : FTy}

theorem addf_cv (a b : s.Idx → ℝ) : addf (cv a : FVec Ideal s φ) (cv b) = cv (fun i => a i + b i) :=
  funext fun i => (EReal.coe_add (a i) (b i)).symm

theorem subf_cv (a b : s.Idx → ℝ) : subf (cv a : FVec Ideal s φ) (cv b) = cv (fun i => a i - b i) :=
  funext fun i => (EReal.coe_sub (a i) (b i)).symm

theorem mulf_cv (a b : s.Idx → ℝ) : mulf (cv a : FVec Ideal s φ) (cv b) = cv (fun i => a i * b i) :=
  funext fun i => (EReal.coe_mul (a i) (b i)).symm

/-- The residual of a split `x = x + (x - x)` is zero when `x` is real. -/
theorem subf_cv_self (a : s.Idx → ℝ) : subf (cv a : FVec Ideal s φ) (cv a) = cv (fun _ => 0) := by
  rw [subf_cv]; exact congrArg cv (funext fun i => sub_self (a i))

theorem truncf_cv {ψ : FTy} (a : s.Idx → ℝ) (h : ψ.bits < φ.bits) : (truncf ψ (cv a : FVec Ideal s φ) h : FVec Ideal s ψ) = cv a := rfl

theorem extf_cv {ψ : FTy} (a : s.Idx → ℝ) (h : φ.bits < ψ.bits) : (extf ψ (cv a : FVec Ideal s φ) h : FVec Ideal s ψ) = cv a := rfl

/-! ## A plain matrix product, entry by entry -/

/-- The contraction sum of a plain `[M, K] × [K, N]` product at the output entry `(p, j)`, re-indexed by the one
    contraction coordinate `k`: the left operand at `(p, k)` times the right operand at `(k, j)`. -/
theorem plain_sum (M K N : Nat) (l : (⟨2, ![M, K]⟩ : Shape).Idx → EReal) (r : (⟨2, ![K, N]⟩ : Shape).Idx → EReal)
    (p : Fin M) (j : Fin N) :
    (∑ k : (DotDims.plain M K N).contr.Idx, l ((DotDims.plain M K N).lhsIdx (ix2 p j) k) * r ((DotDims.plain M K N).rhsIdx (ix2 p j) k))
      = ∑ k : Fin K, l (ix2 p k) * r (ix2 k j) := by
  rw [← Equiv.sum_comp (contrEquiv1 (DotDims.plain M K N) K rfl rfl).symm]
  refine Finset.sum_congr rfl fun k _ => ?_
  have hl : (DotDims.plain M K N).lhsIdx (ix2 p j) ((contrEquiv1 (DotDims.plain M K N) K rfl rfl).symm k) = ix2 p k := by
    funext a; apply Fin.ext
    match a with
    | ⟨0, _⟩ => rfl
    | ⟨1, _⟩ => exact contrEquiv1_symm_val (DotDims.plain M K N) K rfl rfl k
  have hr : (DotDims.plain M K N).rhsIdx (ix2 p j) ((contrEquiv1 (DotDims.plain M K N) K rfl rfl).symm k) = ix2 k j := by
    funext a; apply Fin.ext
    match a with
    | ⟨0, _⟩ => exact contrEquiv1_symm_val (DotDims.plain M K N) K rfl rfl k
    | ⟨1, _⟩ => rfl
  rw [hl, hr]

/-- The real matrix product of `a : [M, K]` and `b : [K, N]`. -/
def mm (M K N : Nat) (a : (⟨2, ![M, K]⟩ : Shape).Idx → ℝ) (b : (⟨2, ![K, N]⟩ : Shape).Idx → ℝ) : (⟨2, ![M, N]⟩ : Shape).Idx → ℝ :=
  fun i => ∑ k : Fin K, a (ix2 (i 0) k) * b (ix2 k (i 1))

/-- A kernel's plain matrix product of real arrays into the zero accumulator is the real matrix product. -/
theorem matmul_plain_cv (M K N : Nat) {φ₁ φ₂ : FTy} (prec : Option ContractPrecision)
    (a : (⟨2, ![M, K]⟩ : Shape).Idx → ℝ) (b : (⟨2, ![K, N]⟩ : Shape).Idx → ℝ) :
    matmul (DotDims.plain M K N) prec (cv a : FVec Ideal _ φ₁) (cv b : FVec Ideal _ φ₂) (constant (F := Ideal) ⟨2, ![M, N]⟩ .f32 0x00000000#32)
      = cv (mm M K N a b) := by
  funext i
  obtain ⟨p, j, rfl⟩ : ∃ (p : Fin M) (j : Fin N), i = ix2 p j := ⟨i 0, i 1, eq_ix2 i⟩
  show FloatOps.matmul (DotDims.plain M K N) prec (cv a) (cv b) (constant ⟨2, ![M, N]⟩ .f32 0x00000000#32) (ix2 p j) = _
  rw [Ideal.matmul_constant_zero_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-- The host's plain `dot_general` of real arrays is the real matrix product. -/
theorem dotGeneral_plain_cv (M K N : Nat) {φ₁ φ₂ : FTy} (prec : Option ContractPrecision)
    (a : (⟨2, ![M, K]⟩ : Shape).Idx → ℝ) (b : (⟨2, ![K, N]⟩ : Shape).Idx → ℝ) :
    (Host.dotGeneral (DotDims.plain M K N) prec (cv a : FVec Ideal _ φ₁) (cv b : FVec Ideal _ φ₂) : FVec Ideal ⟨2, ![M, N]⟩ .f32)
      = cv (mm M K N a b) := by
  funext i
  obtain ⟨p, j, rfl⟩ : ∃ (p : Fin M) (j : Fin N), i = ix2 p j := ⟨i 0, i 1, eq_ix2 i⟩
  simp only [Host.dotGeneral]
  rw [Ideal.dotGeneral_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-! ## Real sums: the split-precision product and the three-multiplication complex product -/

/-- A product with the zero matrix on the right is zero. -/
theorem mm_zero_right (M K N : Nat) (a : (⟨2, ![M, K]⟩ : Shape).Idx → ℝ) : mm M K N a (fun _ => 0) = fun _ => 0 :=
  funext fun i => by simp [mm]

/-- A product with the zero matrix on the left is zero. -/
theorem mm_zero_left (M K N : Nat) (b : (⟨2, ![K, N]⟩ : Shape).Idx → ℝ) : mm M K N (fun _ => 0) b = fun _ => 0 :=
  funext fun i => by simp [mm]

/-- The product of sums, less the two diagonal products, is the sum of the two cross products. -/
theorem mm_cross (M K N : Nat) (a b : (⟨2, ![M, K]⟩ : Shape).Idx → ℝ) (u v : (⟨2, ![K, N]⟩ : Shape).Idx → ℝ) (i : (⟨2, ![M, N]⟩ : Shape).Idx) :
    mm M K N (fun q => a q + b q) (fun q => u q + v q) i - mm M K N a u i - mm M K N b v i = mm M K N a v i + mm M K N b u i := by
  simp only [mm, add_mul, mul_add, Finset.sum_add_distrib]
  ring

end Cert.LibRealLift
-- ==== Proof.LibIsReal.lean ====
/-
  Arrays of extended reals whose every entry is a real number: the property, and the host operations that keep it.

  IsR v says every entry of v is (the image of) a real.  Such an array is cv of a real array (exists_cv).  The property
  passes through any re-indexing of the entries — a gather by any index array, a broadcast along any axes —, through a
  product, a select between two such arrays, a finite sum, and through the host's accumulating scatter of such updates
  into such an operand: its entry is the operand's entry plus a finite sum of update entries.  Two more entry-by-entry
  operations on cv arrays: the larger of two, and a constant array.  And the one place a graph normalisation leaves the
  reals and comes back: 1/sqrt(d) computed as a quotient, guarded by d > 0 with 0 as the other branch, is a real for
  every real d that is not negative (at d = 0 the quotient is the infinity and the guard discards it); the degree of a graph
  node, an accumulating scatter of ones into zeros, is a natural number, so the guarded array built from it is real.
-/
import proofs.«169495_j53601191854606_1_alg».proof.Proof.LibRealLift
import Idealize.ShloMosaic.Lib.Pipeline.Value
import Idealize.ShloMosaic.Lib.IdealHost

open Idealize.ShloMosaic Idealize.ShloMosaic.ValueIdx

noncomputable section

namespace Cert.LibIsReal

open Cert.LibRealLift

/-- Every entry is a real number. -/
def IsR {s : Shape} (v : s.Idx → EReal) : Prop := ∀ i, ∃ r : ℝ, v i = ((r : ℝ) : EReal)

variable {s t : Shape} {φ : FTy}

theorem isR_cv (a : s.Idx → ℝ) : IsR (cv a : FVec Ideal s φ) := fun i => ⟨a i, rfl⟩

/-- An array of reals is the image of a real array. -/
theorem exists_cv {v : s.Idx → EReal} (h : IsR v) : ∃ a : s.Idx → ℝ, v = (cv a : FVec Ideal s φ) := by
  choose a ha using h
  exact ⟨a, funext ha⟩

/-- A gather reads entries of its operand. -/
theorem isR_gather {si : Shape} {w : Nat} (d : GatherDims s si t) {x : s.Idx → EReal} (hx : IsR x) (idx : IVec si w) :
    IsR (Host.gather d x idx) := fun j => hx _

/-- A broadcast reads entries of its operand. -/
theorem isR_bcast (dims : Fin s.rank → Fin t.rank) (h : s.BroadcastsInDim t dims) {x : s.Idx → EReal} (hx : IsR x) :
    IsR (broadcastInDim t dims h x) := fun j => hx _

theorem isR_mulf {a b : FVec Ideal s φ} (ha : IsR a) (hb : IsR b) : IsR (mulf a b) := fun i => by
  obtain ⟨x, hx⟩ := ha i
  obtain ⟨y, hy⟩ := hb i
  exact ⟨x * y, by rw [mulf_apply, hx, hy, EReal.coe_mul]⟩

theorem isR_select (c : IVec s 1) {a b : s.Idx → EReal} (ha : IsR a) (hb : IsR b) : IsR (select c a b) := fun i => by
  rw [select_apply]
  by_cases hc : c i = 1#1
  · rw [hc, select_one]; exact ha i
  · rw [eq_zero_of_ne_one hc, select_zero]; exact hb i

/-- A finite sum of reals is a real. -/
theorem exists_real_sum {κ : Type*} (S : Finset κ) {f : κ → EReal} (hf : ∀ k ∈ S, ∃ r : ℝ, f k = ((r : ℝ) : EReal)) :
    ∃ r : ℝ, ∑ k ∈ S, f k = ((r : ℝ) : EReal) := by
  classical
  induction S using Finset.induction_on with
  | empty => exact ⟨0, by simp⟩
  | insert a S ha ih =>
    obtain ⟨x, hx⟩ := hf a (Finset.mem_insert_self a S)
    obtain ⟨y, hy⟩ := ih fun k hk => hf k (Finset.mem_insert_of_mem hk)
    exact ⟨x + y, by rw [Finset.sum_insert ha, hx, hy, EReal.coe_add]⟩

/-- The host's accumulating scatter of real updates into a real operand is real. -/
theorem isR_scatterAdd {si u : Shape} {w : Nat} (d : ScatterDims s si u) {x : FVec Ideal s φ} (hx : IsR x) (idx : IVec si w)
    {upd : FVec Ideal u φ} (hu : IsR upd) : IsR (Host.scatterAdd d x idx upd) := fun i => by
  obtain ⟨a, ha⟩ := hx i
  obtain ⟨b, hb⟩ := exists_real_sum (Finset.univ.filter (fun j => d.resultIdx? j idx = some i)) (f := upd) fun k _ => hu k
  refine ⟨a + b, ?_⟩
  show x i + ∑ j ∈ Finset.univ.filter (fun j => d.resultIdx? j idx = some i), upd j = _
  rw [ha, hb, EReal.coe_add]

/-- A constant array whose word denotes a real. -/
theorem isR_const (w : BitVec 32) (r : ℝ) (hw : Ideal.ofBits .f32 w = ((r : ℝ) : EReal)) :
    IsR (constant (F := Ideal) s .f32 w) := fun _ => ⟨r, hw⟩

/-- The larger of two real arrays, entry by entry. -/
theorem maximumf_cv (a b : s.Idx → ℝ) : maximumf (cv a : FVec Ideal s φ) (cv b) = cv (fun i => max (a i) (b i)) :=
  funext fun i => (Monotone.map_max EReal.coe_strictMono.monotone (a := a i) (b := b i)).symm

/-- 1/sqrt(d) as a quotient, kept where d > 0 and replaced by 0 elsewhere, is a real for every real d ≥ 0. -/
theorem guarded_inv_sqrt_real (d : ℝ) (hd : 0 ≤ d) :
    ∃ r : ℝ, Scalar.select (Ideal.cmp .ogt ((d : ℝ) : EReal) (Ideal.ofBits .f32 0x00000000#32))
        (Ideal.div (Ideal.ofBits .f32 0x3F800000#32) (Ideal.sqrt ((d : ℝ) : EReal))) (Ideal.ofBits .f32 0x00000000#32)
      = ((r : ℝ) : EReal) := by
  rw [Ideal.ofBits_zero_f32, Ideal.ofBits_one_f32]
  by_cases h0 : 0 < d
  · have hc : Ideal.cmp .ogt ((d : ℝ) : EReal) 0 = 1#1 := by
      unfold Ideal.cmp
      simp [EReal.coe_pos.mpr h0]
    have hs : Real.sqrt d ≠ 0 := (Real.sqrt_pos.mpr h0).ne'
    rw [hc, select_one, Ideal.sqrt_coe, if_neg (not_lt.mpr hd), Ideal.div_coe hs, one_mul]
    exact ⟨_, rfl⟩
  · have hc : Ideal.cmp .ogt ((d : ℝ) : EReal) 0 = 0#1 := by
      unfold Ideal.cmp
      have : ¬ (0 : EReal) < ((d : ℝ) : EReal) := fun h => h0 (EReal.coe_pos.mp h)
      simp [this]
    rw [hc, select_zero]
    exact ⟨0, rfl⟩

/-- A count of ones, started from zero, is a natural number. -/
theorem count_ones {ι : Type} (S : Finset ι) :
    Ideal.ofBits .f32 0x00000000#32 + ∑ _e ∈ S, Ideal.ofBits .f32 0x3F800000#32 = (((S.card : ℕ) : ℝ) : EReal) := by
  rw [Ideal.ofBits_zero_f32, Ideal.ofBits_one_f32, zero_add, Finset.sum_const, ← EReal.coe_one, ← EReal.coe_nsmul]
  congr 1
  simp

/-- The host's accumulating scatter of an all-ones update array into an all-zeros operand counts, at each entry, the
    updates that land there. -/
theorem scatterAdd_count {si u : Shape} {w : Nat} (d : ScatterDims s si u) (z : FVec Ideal s .f32) (idx : IVec si w)
    (o : FVec Ideal u .f32) (hz : ∀ i, z i = Ideal.ofBits .f32 0x00000000#32) (ho : ∀ j, o j = Ideal.ofBits .f32 0x3F800000#32)
    (i : s.Idx) : ∃ c : ℕ, Host.scatterAdd d z idx o i = (((c : ℕ) : ℝ) : EReal) := by
  refine ⟨(Finset.univ.filter (fun j => d.resultIdx? j idx = some i)).card, ?_⟩
  show z i + ∑ j ∈ Finset.univ.filter (fun j => d.resultIdx? j idx = some i), o j = _
  rw [hz, Finset.sum_congr rfl (fun j _ => ho j)]
  exact count_ones _

/-- The normalisation array 1/sqrt(deg) guarded by deg > 0, for a degree array of natural numbers, is real. -/
theorem guarded_isR (deg z o z' : FVec Ideal s .f32) (hdeg : ∀ i, ∃ c : ℕ, deg i = (((c : ℕ) : ℝ) : EReal))
    (hz : ∀ i, z i = Ideal.ofBits .f32 0x00000000#32) (ho : ∀ i, o i = Ideal.ofBits .f32 0x3F800000#32)
    (hz' : ∀ i, z' i = Ideal.ofBits .f32 0x00000000#32) :
    IsR (select (cmpf (F := Ideal) (φ := .f32) .ogt deg z) (Host.divf (F := Ideal) (φ := .f32) o (Host.sqrt (F := Ideal) (φ := .f32) deg)) z') := fun i => by
  obtain ⟨c, hc⟩ := hdeg i
  show ∃ r : ℝ, Scalar.select (Ideal.cmp .ogt (deg i) (z i)) (Ideal.div (o i) (Ideal.sqrt (deg i))) (z' i) = ((r : ℝ) : EReal)
  rw [hz, ho, hz', hc]
  exact guarded_inv_sqrt_real _ (Nat.cast_nonneg c)

/-- A scalar spread over any shape reads the scalar everywhere. -/
theorem bcast_scalar_apply {α : Type} (h : (⟨0, ![]⟩ : Shape).BroadcastsInDim t ![]) (x : (⟨0, ![]⟩ : Shape).Idx → α) (j : t.Idx) :
    broadcastInDim t ![] h x j = x ix0 :=
  broadcastInDim_apply ![] h x j ix0 (fun a => a.elim0)

end Cert.LibIsReal

end
-- ==== Proof.Ref.Real.lean ====
/-
  Every entry of each layer of the reference is a real number when the inputs are arrays of reals, at the ideal values.

  The degree of a node is a sum of ones started from zero, a natural number c; one plus it is a real that is at least one, and
  the reciprocal square root of a positive real is a positive real, so the normalised degrees are reals.  A gather and a
  broadcast read entries of their operand; a product and a sum of two arrays of reals are arrays of reals; the accumulating
  scatter of real updates into zeros is an array of reals.  Hence the edge weights, the messages and the convolution of real
  features are arrays of reals, and so is every column of the convolution.  The features times the weights are finite sums
  of products of reals.  One layer at an entry is the two-pass normalisation and exponential linear unit of a real column at
  a real entry with a real gain and shift, which agrees with the one-pass arrangement and is a real.
-/
import proofs.«169495_j53601191854606_1_alg».proof.Proof.Ref.Pure
import proofs.«169495_j53601191854606_1_alg».proof.Proof.Ref.Read
import proofs.«169495_j53601191854606_1_alg».proof.Proof.NormRectLaw
import proofs.«169495_j53601191854606_1_alg».proof.Proof.LibIsReal

noncomputable section

namespace Cert.ReferenceIdeal.Real

open Cert.ReferenceIdeal Cert.ReferenceIdeal.Gen Cert.ReferenceIdeal.Hand Cert.LibIsReal
open Idealize.ShloMosaic Idealize.ShloMosaic.ValueIdx Idealize.SL.Sem
open scoped BigOperators

/-! ## Sums, and scalars spread over a shape -/

/-- A sum of two arrays of reals is an array of reals. -/
theorem isR_addf {s : Shape} {φ : FTy} {a b : FVec Ideal s φ} (ha : IsR a) (hb : IsR b) : IsR (addf a b) := fun i => by
  obtain ⟨x, hx⟩ := ha i
  obtain ⟨y, hy⟩ := hb i
  exact ⟨x + y, by rw [addf_apply, hx, hy, EReal.coe_add]⟩

/-- The zero word is the real zero. -/
theorem zero_word : Ideal.ofBits .f32 0x00000000#32 = (((0 : ℝ)) : EReal) := by
  rw [Ideal.ofBits_zero_f32, EReal.coe_zero]

/-- The word 0x3F800000 is the real one. -/
theorem one_word : Ideal.ofBits .f32 0x3F800000#32 = (((1 : ℝ)) : EReal) := by
  rw [Cert.NormRectLaw.one_lit, EReal.coe_one]

/-- The zero word spread over any shape is an array of reals. -/
theorem isR_zeros {T : Shape} (h : (⟨0, ![]⟩ : Shape).BroadcastsInDim T ![]) :
    IsR (broadcastInDim T ![] h (constant (F := Ideal) (⟨0, ![]⟩ : Shape) .f32 0x00000000#32)) :=
  isR_bcast _ h (isR_const _ 0 zero_word)

/-! ## The normalised degrees -/

/-- One plus a count, under the reciprocal square root, is a real. -/
theorem rsqrt_one_add_count (c : ℕ) : ∃ r : ℝ, Ideal.rsqrt (Ideal.ofBits .f32 0x3F800000#32 + (((c : ℕ) : ℝ) : EReal)) = ((r : ℝ) : EReal) := by
  have hpos : (0 : ℝ) < 1 + (c : ℝ) := by positivity
  refine ⟨(Real.sqrt (1 + (c : ℝ)))⁻¹, ?_⟩
  rw [one_word, ← EReal.coe_add, Ideal.rsqrt_coe, if_neg (not_lt.mpr hpos.le), if_neg hpos.ne']

/-- The normalised degrees are reals, whatever the edges. -/
theorem disOf_real (dst : IVec S1600000 32) : IsR (disOf (F := Ideal) dst) := fun i => by
  unfold disOf
  rw [Cert.ReferenceIdeal.Read.hostRsqrt_apply, addf_apply, bcast_scalar_apply, constant_apply]
  obtain ⟨c, hc⟩ := scatterAdd_count scatter_S50000_S1600000x1_S1600000_n_0_0_1
    (broadcastInDim S50000 ![] bcast_S_S50000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))
    (fun j => by rw [bcast_scalar_apply, constant_apply]) (fun j => by rw [bcast_scalar_apply, constant_apply]) i
  rw [hc]
  exact rsqrt_one_add_count c

/-- The edge weights of real degrees are reals. -/
theorem edgeW_real {dis : FVec Ideal S50000 .f32} (hdis : IsR dis) (src dst : IVec S1600000 32) :
    IsR (edgeW (F := Ideal) dis src dst) := by
  unfold edgeW
  exact isR_mulf (isR_gather _ hdis _) (isR_gather _ hdis _)

/-! ## Width 128 -/

/-- The features times the weights, of reals, are reals: a finite sum of products of reals at each entry. -/
theorem xw128_real {h : FVec Ideal S50000x128 .f32} {W : FVec Ideal S128x128 .f32} (hh : IsR h) (hW : IsR W) :
    IsR (xw128 (F := Ideal) h W) := fun i => by
  rw [Cert.ReferenceIdeal.Read.xw128_apply]
  exact exists_real_sum Finset.univ fun c _ => by
    obtain ⟨x, hx⟩ := hh (ix2 (i 0) c)
    obtain ⟨y, hy⟩ := hW (ix2 c (i 1))
    exact ⟨x * y, by rw [hx, hy, EReal.coe_mul]⟩

/-- A real vector repeated on every row is an array of reals. -/
theorem rows128_real {v : FVec Ideal S128 .f32} (hv : IsR v) : IsR (rows128 (F := Ideal) v) := by
  unfold rows128
  exact isR_bcast _ _ (isR_bcast _ _ hv)

/-- The messages of real features and real degrees are reals. -/
theorem msgs128_real {xw : FVec Ideal S50000x128 .f32} {dis : FVec Ideal S50000 .f32} (hxw : IsR xw) (hdis : IsR dis)
    (src dst : IVec S1600000 32) : IsR (msgs128 (F := Ideal) xw dis src dst) := by
  unfold msgs128
  exact isR_mulf (isR_gather _ hxw _) (isR_bcast _ _ (isR_bcast _ _ (edgeW_real hdis src dst)))

/-- The convolution of real features with real degrees and a real bias is an array of reals. -/
theorem conv128_real {xw : FVec Ideal S50000x128 .f32} {dis : FVec Ideal S50000 .f32} {b : FVec Ideal S128 .f32}
    (hxw : IsR xw) (hdis : IsR dis) (hb : IsR b) (src dst : IVec S1600000 32) :
    IsR (conv128 (F := Ideal) xw dis src dst b) := by
  unfold conv128
  exact isR_addf
    (isR_addf (isR_scatterAdd _ (isR_zeros _) _ (msgs128_real hxw hdis src dst))
      (isR_mulf hxw (isR_bcast _ _ (isR_bcast _ _ (isR_mulf hdis hdis)))))
    (rows128_real hb)

/-- Every column of the convolution is a column of reals. -/
theorem col128_real {xw : FVec Ideal S50000x128 .f32} {dis : FVec Ideal S50000 .f32} {b : FVec Ideal S128 .f32}
    (hxw : IsR xw) (hdis : IsR dis) (hb : IsR b) (src dst : IVec S1600000 32) (q : Fin 128) :
    Cert.NormRectLaw.IsRealCol (fun p : Fin 50000 => conv128 (F := Ideal) xw dis src dst b (ix2 p q)) :=
  fun p => conv128_real hxw hdis hb src dst (ix2 p q)

/-- One layer of real data is an array of reals. -/
theorem layer128_real {h : FVec Ideal S50000x128 .f32} {dis : FVec Ideal S50000 .f32} {W : FVec Ideal S128x128 .f32}
    {b g be : FVec Ideal S128 .f32} (hh : IsR h) (hdis : IsR dis) (hW : IsR W) (hb : IsR b) (hg : IsR g) (hbe : IsR be)
    (src dst : IVec S1600000 32) : IsR (layer128 (F := Ideal) h src dst dis W b g be) := fun i => by
  obtain ⟨p, q, rfl⟩ : ∃ (p : Fin 50000) (q : Fin 128), i = ix2 p q := ⟨i 0, i 1, eq_ix2 i⟩
  have C := Cert.NormRectLaw.consts_lit (ι := Fin 50000) (by simp)
  have hcol := col128_real (xw128_real hh hW) hdis hb src dst q
  rw [Cert.ReferenceIdeal.Read.layer128_apply, ← Cert.NormRectLaw.out_eq C hcol]
  exact Cert.NormRectLaw.out_real C hcol (hcol p) (hg (ix1 q)) (hbe (ix1 q))

/-! ## Width 64 -/

/-- The features times the weights, of reals, are reals: a finite sum of products of reals at each entry. -/
theorem xw64_real {h : FVec Ideal S50000x128 .f32} {W : FVec Ideal S128x64 .f32} (hh : IsR h) (hW : IsR W) :
    IsR (xw64 (F := Ideal) h W) := fun i => by
  rw [Cert.ReferenceIdeal.Read.xw64_apply]
  exact exists_real_sum Finset.univ fun c _ => by
    obtain ⟨x, hx⟩ := hh (ix2 (i 0) c)
    obtain ⟨y, hy⟩ := hW (ix2 c (i 1))
    exact ⟨x * y, by rw [hx, hy, EReal.coe_mul]⟩

/-- A real vector repeated on every row is an array of reals. -/
theorem rows64_real {v : FVec Ideal S64 .f32} (hv : IsR v) : IsR (rows64 (F := Ideal) v) := by
  unfold rows64
  exact isR_bcast _ _ (isR_bcast _ _ hv)

/-- The messages of real features and real degrees are reals. -/
theorem msgs64_real {xw : FVec Ideal S50000x64 .f32} {dis : FVec Ideal S50000 .f32} (hxw : IsR xw) (hdis : IsR dis)
    (src dst : IVec S1600000 32) : IsR (msgs64 (F := Ideal) xw dis src dst) := by
  unfold msgs64
  exact isR_mulf (isR_gather _ hxw _) (isR_bcast _ _ (isR_bcast _ _ (edgeW_real hdis src dst)))

/-- The convolution of real features with real degrees and a real bias is an array of reals. -/
theorem conv64_real {xw : FVec Ideal S50000x64 .f32} {dis : FVec Ideal S50000 .f32} {b : FVec Ideal S64 .f32}
    (hxw : IsR xw) (hdis : IsR dis) (hb : IsR b) (src dst : IVec S1600000 32) :
    IsR (conv64 (F := Ideal) xw dis src dst b) := by
  unfold conv64
  exact isR_addf
    (isR_addf (isR_scatterAdd _ (isR_zeros _) _ (msgs64_real hxw hdis src dst))
      (isR_mulf hxw (isR_bcast _ _ (isR_bcast _ _ (isR_mulf hdis hdis)))))
    (rows64_real hb)

/-- Every column of the convolution is a column of reals. -/
theorem col64_real {xw : FVec Ideal S50000x64 .f32} {dis : FVec Ideal S50000 .f32} {b : FVec Ideal S64 .f32}
    (hxw : IsR xw) (hdis : IsR dis) (hb : IsR b) (src dst : IVec S1600000 32) (q : Fin 64) :
    Cert.NormRectLaw.IsRealCol (fun p : Fin 50000 => conv64 (F := Ideal) xw dis src dst b (ix2 p q)) :=
  fun p => conv64_real hxw hdis hb src dst (ix2 p q)

/-- One layer of real data is an array of reals. -/
theorem layer64_real {h : FVec Ideal S50000x128 .f32} {dis : FVec Ideal S50000 .f32} {W : FVec Ideal S128x64 .f32}
    {b g be : FVec Ideal S64 .f32} (hh : IsR h) (hdis : IsR dis) (hW : IsR W) (hb : IsR b) (hg : IsR g) (hbe : IsR be)
    (src dst : IVec S1600000 32) : IsR (layer64 (F := Ideal) h src dst dis W b g be) := fun i => by
  obtain ⟨p, q, rfl⟩ : ∃ (p : Fin 50000) (q : Fin 64), i = ix2 p q := ⟨i 0, i 1, eq_ix2 i⟩
  have C := Cert.NormRectLaw.consts_lit (ι := Fin 50000) (by simp)
  have hcol := col64_real (xw64_real hh hW) hdis hb src dst q
  rw [Cert.ReferenceIdeal.Read.layer64_apply, ← Cert.NormRectLaw.out_eq C hcol]
  exact Cert.NormRectLaw.out_real C hcol (hcol p) (hg (ix1 q)) (hbe (ix1 q))

end Cert.ReferenceIdeal.Real

end
-- ==== Proof.Ref.PreReal.lean ====
/- From the precondition to real entries: the precondition says of each float argument that every entry's absolute
   value is below +∞, which of an extended real says it is a real number. -/
import proofs.«169495_j53601191854606_1_alg».proof.Pre_finite_inputs
import proofs.«169495_j53601191854606_1_alg».proof.Proof.LibIsReal
import Idealize.ShloMosaic.Lib.ReduceAll

open Idealize.ShloMosaic Idealize.ShloMosaic.ValueIdx

noncomputable section

namespace Cert.ReferenceIdeal.PreReal

open Cert.LibIsReal Cert.Pre_finite_inputs

/-- The scalar shape has one index. -/
instance : Subsingleton (⟨0, ![]⟩ : Shape).Idx := ⟨fun a b => funext fun d => d.elim0⟩

/-- The word 0x7F800000 denotes +∞. -/
theorem ofBits_inf : Ideal.ofBits .f32 0x7F800000#32 = ⊤ := by
  simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = ((r : ℝ) : EReal) := by
  rw [ofBits_inf] at h
  have hlt : max x (-x) < ⊤ := by
    change BitVec.ofBool (decide (max x (-x) < ⊤)) = 1#1 at h
    by_cases hc : max x (-x) < ⊤
    · exact hc
    · rw [decide_eq_false hc] at h
      exact absurd h (by decide)
  induction x using EReal.rec with
  | bot => simp at hlt
  | coe r => exact ⟨r, rfl⟩
  | top => simp at hlt

/-- An array all of whose entries have absolute value below +∞ (the conjunction over all entries being true) is an
    array of reals. -/
theorem isR_of_all_finite {s : Shape} {axes : List (Fin s.rank)} (a : FVec Ideal s .f32)
    (hb : (⟨0, ![]⟩ : Shape).BroadcastsInDim s ![]) (hr : s.ReducesTo axes (⟨0, ![]⟩ : Shape)) (hu : 0 < (⟨0, ![]⟩ : Shape).numel)
    (h : Host.reduce IntOp.andi (cmpf .olt (Host.absf a) (broadcastInDim s ![] hb (constant (⟨0, ![]⟩ : Shape) .f32 0x7F800000#32)))
      (constantI (⟨0, ![]⟩ : Shape) 1 1#1) hr hu ix0 = 1#1) : IsR a := fun i =>
  real_of_abs_lt_inf (a i) (Host.reduce_andi_all _ _ hr hu ix0 h i)

variable [Cert.Pre_finite_inputs.Facts]

/-- The precondition makes every float argument an array of reals. -/
theorem real_of_pre (a0 : FVec Ideal S50000x128 .f32) (a1 : IVec S2x1600000 32) (a2 : FVec Ideal S128x128 .f32) (a3 : FVec Ideal S128 .f32) (a4 : FVec Ideal S128 .f32) (a5 : FVec Ideal S128 .f32) (a6 : FVec Ideal S128x128 .f32) (a7 : FVec Ideal S128 .f32) (a8 : FVec Ideal S128 .f32) (a9 : FVec Ideal S128 .f32) (a10 : FVec Ideal S128x64 .f32) (a11 : FVec Ideal S64 .f32) (a12 : FVec Ideal S64 .f32) (a13 : FVec Ideal S64 .f32)
    (h : Cert.Pre_finite_inputs.fn (F := Ideal) a0 a1 a2 a3 a4 a5 a6 a7 a8 a9 a10 a11 a12 a13 = (fun _ => 1#1)) :
    IsR a0 ∧ IsR a2 ∧ IsR a3 ∧ IsR a4 ∧ IsR a5 ∧ IsR a6 ∧ IsR a7 ∧ IsR a8 ∧ IsR a9 ∧ IsR a10 ∧ IsR a11 ∧ IsR a12 ∧ IsR a13 := by
  have h0 := congrFun h ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨⟨⟨h0, h2⟩, h3⟩, h4⟩, h5⟩, h6⟩, h7⟩, h8⟩, h9⟩, h10⟩, h11⟩, h12⟩, h13⟩ := h0
  exact ⟨isR_of_all_finite a0 Facts.bcast_S_S50000x128 Facts.reducesTo_S50000x128_S_d0_1 Facts.h_S_ h0,
    isR_of_all_finite a2 Facts.bcast_S_S128x128 Facts.reducesTo_S128x128_S_d0_1 Facts.h_S_ h2,
    isR_of_all_finite a3 Facts.bcast_S_S128 Facts.reducesTo_S128_S_d0 Facts.h_S_ h3,
    isR_of_all_finite a4 Facts.bcast_S_S128 Facts.reducesTo_S128_S_d0 Facts.h_S_ h4,
    isR_of_all_finite a5 Facts.bcast_S_S128 Facts.reducesTo_S128_S_d0 Facts.h_S_ h5,
    isR_of_all_finite a6 Facts.bcast_S_S128x128 Facts.reducesTo_S128x128_S_d0_1 Facts.h_S_ h6,
    isR_of_all_finite a7 Facts.bcast_S_S128 Facts.reducesTo_S128_S_d0 Facts.h_S_ h7,
    isR_of_all_finite a8 Facts.bcast_S_S128 Facts.reducesTo_S128_S_d0 Facts.h_S_ h8,
    isR_of_all_finite a9 Facts.bcast_S_S128 Facts.reducesTo_S128_S_d0 Facts.h_S_ h9,
    isR_of_all_finite a10 Facts.bcast_S_S128x64 Facts.reducesTo_S128x64_S_d0_1 Facts.h_S_ h10,
    isR_of_all_finite a11 Facts.bcast_S_S64 Facts.reducesTo_S64_S_d0 Facts.h_S_ h11,
    isR_of_all_finite a12 Facts.bcast_S_S64 Facts.reducesTo_S64_S_d0 Facts.h_S_ h12,
    isR_of_all_finite a13 Facts.bcast_S_S64 Facts.reducesTo_S64_S_d0 Facts.h_S_ h13⟩

end Cert.ReferenceIdeal.PreReal

end
-- ==== Proof.Ideal.Bridge.lean ====
/- The idealized kernel's result is the reference's. Layer by layer, the activated array a call leaves is followed back
   through the run: the call's entry arrays are what the statistics call and the host stretch before it left, those
   are what the product call and the first stretch left, and those are the launch memory's arguments; the array is
   then one layer in the kernel's arrangement, which on real data is the reference's layer. The precondition makes the
   arguments real, each layer keeps its output real, and the three layers compose to the reference's result term. -/
import proofs.«169495_j53601191854606_1_alg».proof.Proof.Ideal.RunData
import proofs.«169495_j53601191854606_1_alg».proof.Proof.Ideal.HostRead
import proofs.«169495_j53601191854606_1_alg».proof.Proof.Ideal.HostCarry
import proofs.«169495_j53601191854606_1_alg».proof.Proof.Ideal.ProductValue0
import proofs.«169495_j53601191854606_1_alg».proof.Proof.Ideal.ProductValue3
import proofs.«169495_j53601191854606_1_alg».proof.Proof.Ideal.ProductValue6
import proofs.«169495_j53601191854606_1_alg».proof.Proof.Ideal.StatsValue1
import proofs.«169495_j53601191854606_1_alg».proof.Proof.Ideal.StatsValue4
import proofs.«169495_j53601191854606_1_alg».proof.Proof.Ideal.StatsValue7
import proofs.«169495_j53601191854606_1_alg».proof.Proof.Ideal.ActValue2
import proofs.«169495_j53601191854606_1_alg».proof.Proof.Ideal.ActValue5
import proofs.«169495_j53601191854606_1_alg».proof.Proof.Ideal.ActValue8
import proofs.«169495_j53601191854606_1_alg».proof.Proof.Ideal.BridgeLaw
import proofs.«169495_j53601191854606_1_alg».proof.Proof.Ref.Real
import proofs.«169495_j53601191854606_1_alg».proof.Proof.Ref.PreReal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window BodyObligation cellOf)
open Idealize.ShloMosaic.ValueIdx
open Cert.LibIsReal (IsR)
open Cert.ReferenceIdeal.Hand (srcOf dstOf disOf wrapCol edgeW aggW128 aggW64 layer128 layer64 refOut)

variable (m : (ℓ : Loc nD τ sig) → Buf (Elt Ideal) ℓ) (ρ : Dev nD → PrngReg)

/-! ### Layer 1 -/

/-- The layer's product with its weights, after its call. -/
theorem X2_v27 (c : Dev nD) : B2 m ρ c (Proc.devRef .tc main_v27) = (prodAll0 (m ((c : Thread nD τ).loc main_arg0)) (m ((c : Thread nD τ).loc main_arg2))) := by
  have h0 : C1 m ρ c main_arg0 = (m ((c : Thread nD τ).loc main_arg0)) := B1_arg0 m ρ c
  have h1 : C1 m ρ c main_arg2 = (m ((c : Thread nD τ).loc main_arg2)) := B1_arg2 m ρ c
  have h := (B2_arr m ρ c 2).trans (prodFinal0 (C1 m ρ) c)
  rw [h0, h1] at h
  exact h

/-- What the statistics call finds: the summed messages. -/
theorem E3_v40 (c : Dev nD) : C3 m ρ c main_v40 = (aggW128 (prodAll0 (m ((c : Thread nD τ).loc main_arg0)) (m ((c : Thread nD τ).loc main_arg2))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) := by
  have h := B3_v40 m ρ c
  rw [X2_v27, B2_v26, B1_v26, B2_v1, B1_v1, B2_v3, B1_v3] at h
  exact h

/-- … the product. -/
theorem E3_v27 (c : Dev nD) : C3 m ρ c main_v27 = (prodAll0 (m ((c : Thread nD τ).loc main_arg0)) (m ((c : Thread nD τ).loc main_arg2))) :=
  (B3_v27 m ρ c).trans (X2_v27 m ρ c)

/-- … the normalised degrees as a column. -/
theorem E3_v11 (c : Dev nD) : C3 m ρ c main_v11 = (shapeCast S50000x1 (disOf (dstOf (m ((c : Thread nD τ).loc main_arg1)))) shapeCasts_S50000_S50000x1) :=
  (B3_v11 m ρ c).trans (B1_v11 m ρ c)

/-- … the bias as a row. -/
theorem E3_v41 (c : Dev nD) : C3 m ρ c main_v41 = (shapeCast S1x128 (m ((c : Thread nD τ).loc main_arg3)) shapeCasts_S128_S1x128) := by
  have h := B3_v41 m ρ c
  rw [B2_arg3] at h
  exact h

/-- The statistics call's three results: the convolution, its mean row and its variance row. -/
theorem X4_v42_0 (c : Dev nD) : B4 m ρ c (Proc.devRef .tc main_v42_0) = (preAll1 (aggW128 (prodAll0 (m ((c : Thread nD τ).loc main_arg0)) (m ((c : Thread nD τ).loc main_arg2))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll0 (m ((c : Thread nD τ).loc main_arg0)) (m ((c : Thread nD τ).loc main_arg2))) (shapeCast S50000x1 (disOf (dstOf (m ((c : Thread nD τ).loc main_arg1)))) shapeCasts_S50000_S50000x1) (shapeCast S1x128 (m ((c : Thread nD τ).loc main_arg3)) shapeCasts_S128_S1x128)) := by
  have h := (B4_arr m ρ c 4).trans (statsFinal1_pre (C3 m ρ) c)
  rw [E3_v40, E3_v27, E3_v11, E3_v41] at h
  exact h
theorem X4_v42_1 (c : Dev nD) : B4 m ρ c (Proc.devRef .tc main_v42_1) = meanAll1 (preAll1 (aggW128 (prodAll0 (m ((c : Thread nD τ).loc main_arg0)) (m ((c : Thread nD τ).loc main_arg2))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll0 (m ((c : Thread nD τ).loc main_arg0)) (m ((c : Thread nD τ).loc main_arg2))) (shapeCast S50000x1 (disOf (dstOf (m ((c : Thread nD τ).loc main_arg1)))) shapeCasts_S50000_S50000x1) (shapeCast S1x128 (m ((c : Thread nD τ).loc main_arg3)) shapeCasts_S128_S1x128)) := by
  have h := (B4_arr m ρ c 5).trans (statsFinal1_mean (C3 m ρ) c)
  rw [E3_v40, E3_v27, E3_v11, E3_v41] at h
  exact h
theorem X4_v42_2 (c : Dev nD) : B4 m ρ c (Proc.devRef .tc main_v42_2) = varAll1 (preAll1 (aggW128 (prodAll0 (m ((c : Thread nD τ).loc main_arg0)) (m ((c : Thread nD τ).loc main_arg2))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll0 (m ((c : Thread nD τ).loc main_arg0)) (m ((c : Thread nD τ).loc main_arg2))) (shapeCast S50000x1 (disOf (dstOf (m ((c : Thread nD τ).loc main_arg1)))) shapeCasts_S50000_S50000x1) (shapeCast S1x128 (m ((c : Thread nD τ).loc main_arg3)) shapeCasts_S128_S1x128)) := by
  have h := (B4_arr m ρ c 6).trans (statsFinal1_var (C3 m ρ) c)
  rw [E3_v40, E3_v27, E3_v11, E3_v41] at h
  exact h

/-- The layer's activated array, after its call, in the kernel's arrangement. -/
theorem X6_v45 (c : Dev nD) : B6 m ρ c (Proc.devRef .tc main_v45)
    = actAll2 (preAll1 (aggW128 (prodAll0 (m ((c : Thread nD τ).loc main_arg0)) (m ((c : Thread nD τ).loc main_arg2))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll0 (m ((c : Thread nD τ).loc main_arg0)) (m ((c : Thread nD τ).loc main_arg2))) (shapeCast S50000x1 (disOf (dstOf (m ((c : Thread nD τ).loc main_arg1)))) shapeCasts_S50000_S50000x1) (shapeCast S1x128 (m ((c : Thread nD τ).loc main_arg3)) shapeCasts_S128_S1x128)) (meanAll1 (preAll1 (aggW128 (prodAll0 (m ((c : Thread nD τ).loc main_arg0)) (m ((c : Thread nD τ).loc main_arg2))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll0 (m ((c : Thread nD τ).loc main_arg0)) (m ((c : Thread nD τ).loc main_arg2))) (shapeCast S50000x1 (disOf (dstOf (m ((c : Thread nD τ).loc main_arg1)))) shapeCasts_S50000_S50000x1) (shapeCast S1x128 (m ((c : Thread nD τ).loc main_arg3)) shapeCasts_S128_S1x128))) (varAll1 (preAll1 (aggW128 (prodAll0 (m ((c : Thread nD τ).loc main_arg0)) (m ((c : Thread nD τ).loc main_arg2))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll0 (m ((c : Thread nD τ).loc main_arg0)) (m ((c : Thread nD τ).loc main_arg2))) (shapeCast S50000x1 (disOf (dstOf (m ((c : Thread nD τ).loc main_arg1)))) shapeCasts_S50000_S50000x1) (shapeCast S1x128 (m ((c : Thread nD τ).loc main_arg3)) shapeCasts_S128_S1x128))) (shapeCast S1x128 (m ((c : Thread nD τ).loc main_arg4)) shapeCasts_S128_S1x128) (shapeCast S1x128 (m ((c : Thread nD τ).loc main_arg5)) shapeCasts_S128_S1x128) := by
  have e0 : C5 m ρ c main_v42_0 = (preAll1 (aggW128 (prodAll0 (m ((c : Thread nD τ).loc main_arg0)) (m ((c : Thread nD τ).loc main_arg2))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll0 (m ((c : Thread nD τ).loc main_arg0)) (m ((c : Thread nD τ).loc main_arg2))) (shapeCast S50000x1 (disOf (dstOf (m ((c : Thread nD τ).loc main_arg1)))) shapeCasts_S50000_S50000x1) (shapeCast S1x128 (m ((c : Thread nD τ).loc main_arg3)) shapeCasts_S128_S1x128)) := (B5_v42_0 m ρ c).trans (X4_v42_0 m ρ c)
  have e1 : C5 m ρ c main_v42_1 = meanAll1 (preAll1 (aggW128 (prodAll0 (m ((c : Thread nD τ).loc main_arg0)) (m ((c : Thread nD τ).loc main_arg2))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll0 (m ((c : Thread nD τ).loc main_arg0)) (m ((c : Thread nD τ).loc main_arg2))) (shapeCast S50000x1 (disOf (dstOf (m ((c : Thread nD τ).loc main_arg1)))) shapeCasts_S50000_S50000x1) (shapeCast S1x128 (m ((c : Thread nD τ).loc main_arg3)) shapeCasts_S128_S1x128)) := (B5_v42_1 m ρ c).trans (X4_v42_1 m ρ c)
  have e2 : C5 m ρ c main_v42_2 = varAll1 (preAll1 (aggW128 (prodAll0 (m ((c : Thread nD τ).loc main_arg0)) (m ((c : Thread nD τ).loc main_arg2))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll0 (m ((c : Thread nD τ).loc main_arg0)) (m ((c : Thread nD τ).loc main_arg2))) (shapeCast S50000x1 (disOf (dstOf (m ((c : Thread nD τ).loc main_arg1)))) shapeCasts_S50000_S50000x1) (shapeCast S1x128 (m ((c : Thread nD τ).loc main_arg3)) shapeCasts_S128_S1x128)) := (B5_v42_2 m ρ c).trans (X4_v42_2 m ρ c)
  have e3 : C5 m ρ c main_v43 = (shapeCast S1x128 (m ((c : Thread nD τ).loc main_arg4)) shapeCasts_S128_S1x128) := by
    have h := B5_v43 m ρ c
    rw [B4_arg4] at h
    exact h
  have e4 : C5 m ρ c main_v44 = (shapeCast S1x128 (m ((c : Thread nD τ).loc main_arg5)) shapeCasts_S128_S1x128) := by
    have h := B5_v44 m ρ c
    rw [B4_arg5] at h
    exact h
  have h := (B6_arr m ρ c 5).trans (actFinal2 (C5 m ρ) c)
  rw [e0, e1, e2, e3, e4] at h
  exact h

/-- Layer 1: the kernel's activated array is the reference's layer of the same data, when the data are real. -/
theorem layer1 (c : Dev nD) (hx : IsR (m ((c : Thread nD τ).loc main_arg0))) (hW : IsR (m ((c : Thread nD τ).loc main_arg2))) (hb : IsR (m ((c : Thread nD τ).loc main_arg3))) :
    B6 m ρ c (Proc.devRef .tc main_v45)
      = layer128 (F := Ideal) (m ((c : Thread nD τ).loc main_arg0)) (srcOf (m ((c : Thread nD τ).loc main_arg1))) (dstOf (m ((c : Thread nD τ).loc main_arg1))) (disOf (dstOf (m ((c : Thread nD τ).loc main_arg1)))) (m ((c : Thread nD τ).loc main_arg2)) (m ((c : Thread nD τ).loc main_arg3)) (m ((c : Thread nD τ).loc main_arg4)) (m ((c : Thread nD τ).loc main_arg5)) :=
  (X6_v45 m ρ c).trans
    (Cert.ReferenceIdeal.Bridge.bridge128 (m ((c : Thread nD τ).loc main_arg0)) (m ((c : Thread nD τ).loc main_arg2)) (m ((c : Thread nD τ).loc main_arg3)) (m ((c : Thread nD τ).loc main_arg4)) (m ((c : Thread nD τ).loc main_arg5)) (disOf (dstOf (m ((c : Thread nD τ).loc main_arg1)))) (srcOf (m ((c : Thread nD τ).loc main_arg1))) (dstOf (m ((c : Thread nD τ).loc main_arg1)))
      shapeCasts_S50000_S50000x1 shapeCasts_S128_S1x128
      (fun q => Cert.ReferenceIdeal.Real.col128_real (Cert.ReferenceIdeal.Real.xw128_real hx hW)
        (Cert.ReferenceIdeal.Real.disOf_real _) hb _ _ q))

/-! ### Layer 2 -/

/-- The layer's product with its weights, after its call. -/
theorem X7_v46 (c : Dev nD) : B7 m ρ c (Proc.devRef .tc main_v46) = (prodAll3 (B6 m ρ c (Proc.devRef .tc main_v45)) (m ((c : Thread nD τ).loc main_arg6))) := by
  have h0 : C6 m ρ c main_v45 = (B6 m ρ c (Proc.devRef .tc main_v45)) := rfl
  have h1 : C6 m ρ c main_arg6 = (m ((c : Thread nD τ).loc main_arg6)) := B6_arg6 m ρ c
  have h := (B7_arr m ρ c 2).trans (prodFinal3 (C6 m ρ) c)
  rw [h0, h1] at h
  exact h

/-- What the statistics call finds: the summed messages. -/
theorem E8_v59 (c : Dev nD) : C8 m ρ c main_v59 = (aggW128 (prodAll3 (B6 m ρ c (Proc.devRef .tc main_v45)) (m ((c : Thread nD τ).loc main_arg6))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) := by
  have h := B8_v59 m ρ c
  rw [X7_v46, B7_v26, B1_v26, B7_v1, B1_v1, B7_v3, B1_v3] at h
  exact h

/-- … the product. -/
theorem E8_v46 (c : Dev nD) : C8 m ρ c main_v46 = (prodAll3 (B6 m ρ c (Proc.devRef .tc main_v45)) (m ((c : Thread nD τ).loc main_arg6))) :=
  (B8_v46 m ρ c).trans (X7_v46 m ρ c)

/-- … the normalised degrees as a column. -/
theorem E8_v11 (c : Dev nD) : C8 m ρ c main_v11 = (shapeCast S50000x1 (disOf (dstOf (m ((c : Thread nD τ).loc main_arg1)))) shapeCasts_S50000_S50000x1) :=
  (B8_v11 m ρ c).trans (B1_v11 m ρ c)

/-- … the bias as a row. -/
theorem E8_v60 (c : Dev nD) : C8 m ρ c main_v60 = (shapeCast S1x128 (m ((c : Thread nD τ).loc main_arg7)) shapeCasts_S128_S1x128) := by
  have h := B8_v60 m ρ c
  rw [B7_arg7] at h
  exact h

/-- The statistics call's three results: the convolution, its mean row and its variance row. -/
theorem X9_v61_0 (c : Dev nD) : B9 m ρ c (Proc.devRef .tc main_v61_0) = (preAll4 (aggW128 (prodAll3 (B6 m ρ c (Proc.devRef .tc main_v45)) (m ((c : Thread nD τ).loc main_arg6))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll3 (B6 m ρ c (Proc.devRef .tc main_v45)) (m ((c : Thread nD τ).loc main_arg6))) (shapeCast S50000x1 (disOf (dstOf (m ((c : Thread nD τ).loc main_arg1)))) shapeCasts_S50000_S50000x1) (shapeCast S1x128 (m ((c : Thread nD τ).loc main_arg7)) shapeCasts_S128_S1x128)) := by
  have h := (B9_arr m ρ c 4).trans (statsFinal4_pre (C8 m ρ) c)
  rw [E8_v59, E8_v46, E8_v11, E8_v60] at h
  exact h
theorem X9_v61_1 (c : Dev nD) : B9 m ρ c (Proc.devRef .tc main_v61_1) = meanAll4 (preAll4 (aggW128 (prodAll3 (B6 m ρ c (Proc.devRef .tc main_v45)) (m ((c : Thread nD τ).loc main_arg6))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll3 (B6 m ρ c (Proc.devRef .tc main_v45)) (m ((c : Thread nD τ).loc main_arg6))) (shapeCast S50000x1 (disOf (dstOf (m ((c : Thread nD τ).loc main_arg1)))) shapeCasts_S50000_S50000x1) (shapeCast S1x128 (m ((c : Thread nD τ).loc main_arg7)) shapeCasts_S128_S1x128)) := by
  have h := (B9_arr m ρ c 5).trans (statsFinal4_mean (C8 m ρ) c)
  rw [E8_v59, E8_v46, E8_v11, E8_v60] at h
  exact h
theorem X9_v61_2 (c : Dev nD) : B9 m ρ c (Proc.devRef .tc main_v61_2) = varAll4 (preAll4 (aggW128 (prodAll3 (B6 m ρ c (Proc.devRef .tc main_v45)) (m ((c : Thread nD τ).loc main_arg6))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll3 (B6 m ρ c (Proc.devRef .tc main_v45)) (m ((c : Thread nD τ).loc main_arg6))) (shapeCast S50000x1 (disOf (dstOf (m ((c : Thread nD τ).loc main_arg1)))) shapeCasts_S50000_S50000x1) (shapeCast S1x128 (m ((c : Thread nD τ).loc main_arg7)) shapeCasts_S128_S1x128)) := by
  have h := (B9_arr m ρ c 6).trans (statsFinal4_var (C8 m ρ) c)
  rw [E8_v59, E8_v46, E8_v11, E8_v60] at h
  exact h

/-- The layer's activated array, after its call, in the kernel's arrangement. -/
theorem X11_v64 (c : Dev nD) : B11 m ρ c (Proc.devRef .tc main_v64)
    = actAll5 (preAll4 (aggW128 (prodAll3 (B6 m ρ c (Proc.devRef .tc main_v45)) (m ((c : Thread nD τ).loc main_arg6))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll3 (B6 m ρ c (Proc.devRef .tc main_v45)) (m ((c : Thread nD τ).loc main_arg6))) (shapeCast S50000x1 (disOf (dstOf (m ((c : Thread nD τ).loc main_arg1)))) shapeCasts_S50000_S50000x1) (shapeCast S1x128 (m ((c : Thread nD τ).loc main_arg7)) shapeCasts_S128_S1x128)) (meanAll4 (preAll4 (aggW128 (prodAll3 (B6 m ρ c (Proc.devRef .tc main_v45)) (m ((c : Thread nD τ).loc main_arg6))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll3 (B6 m ρ c (Proc.devRef .tc main_v45)) (m ((c : Thread nD τ).loc main_arg6))) (shapeCast S50000x1 (disOf (dstOf (m ((c : Thread nD τ).loc main_arg1)))) shapeCasts_S50000_S50000x1) (shapeCast S1x128 (m ((c : Thread nD τ).loc main_arg7)) shapeCasts_S128_S1x128))) (varAll4 (preAll4 (aggW128 (prodAll3 (B6 m ρ c (Proc.devRef .tc main_v45)) (m ((c : Thread nD τ).loc main_arg6))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll3 (B6 m ρ c (Proc.devRef .tc main_v45)) (m ((c : Thread nD τ).loc main_arg6))) (shapeCast S50000x1 (disOf (dstOf (m ((c : Thread nD τ).loc main_arg1)))) shapeCasts_S50000_S50000x1) (shapeCast S1x128 (m ((c : Thread nD τ).loc main_arg7)) shapeCasts_S128_S1x128))) (shapeCast S1x128 (m ((c : Thread nD τ).loc main_arg8)) shapeCasts_S128_S1x128) (shapeCast S1x128 (m ((c : Thread nD τ).loc main_arg9)) shapeCasts_S128_S1x128) := by
  have e0 : C10 m ρ c main_v61_0 = (preAll4 (aggW128 (prodAll3 (B6 m ρ c (Proc.devRef .tc main_v45)) (m ((c : Thread nD τ).loc main_arg6))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll3 (B6 m ρ c (Proc.devRef .tc main_v45)) (m ((c : Thread nD τ).loc main_arg6))) (shapeCast S50000x1 (disOf (dstOf (m ((c : Thread nD τ).loc main_arg1)))) shapeCasts_S50000_S50000x1) (shapeCast S1x128 (m ((c : Thread nD τ).loc main_arg7)) shapeCasts_S128_S1x128)) := (B10_v61_0 m ρ c).trans (X9_v61_0 m ρ c)
  have e1 : C10 m ρ c main_v61_1 = meanAll4 (preAll4 (aggW128 (prodAll3 (B6 m ρ c (Proc.devRef .tc main_v45)) (m ((c : Thread nD τ).loc main_arg6))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll3 (B6 m ρ c (Proc.devRef .tc main_v45)) (m ((c : Thread nD τ).loc main_arg6))) (shapeCast S50000x1 (disOf (dstOf (m ((c : Thread nD τ).loc main_arg1)))) shapeCasts_S50000_S50000x1) (shapeCast S1x128 (m ((c : Thread nD τ).loc main_arg7)) shapeCasts_S128_S1x128)) := (B10_v61_1 m ρ c).trans (X9_v61_1 m ρ c)
  have e2 : C10 m ρ c main_v61_2 = varAll4 (preAll4 (aggW128 (prodAll3 (B6 m ρ c (Proc.devRef .tc main_v45)) (m ((c : Thread nD τ).loc main_arg6))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll3 (B6 m ρ c (Proc.devRef .tc main_v45)) (m ((c : Thread nD τ).loc main_arg6))) (shapeCast S50000x1 (disOf (dstOf (m ((c : Thread nD τ).loc main_arg1)))) shapeCasts_S50000_S50000x1) (shapeCast S1x128 (m ((c : Thread nD τ).loc main_arg7)) shapeCasts_S128_S1x128)) := (B10_v61_2 m ρ c).trans (X9_v61_2 m ρ c)
  have e3 : C10 m ρ c main_v62 = (shapeCast S1x128 (m ((c : Thread nD τ).loc main_arg8)) shapeCasts_S128_S1x128) := by
    have h := B10_v62 m ρ c
    rw [B9_arg8] at h
    exact h
  have e4 : C10 m ρ c main_v63 = (shapeCast S1x128 (m ((c : Thread nD τ).loc main_arg9)) shapeCasts_S128_S1x128) := by
    have h := B10_v63 m ρ c
    rw [B9_arg9] at h
    exact h
  have h := (B11_arr m ρ c 5).trans (actFinal5 (C10 m ρ) c)
  rw [e0, e1, e2, e3, e4] at h
  exact h

/-- Layer 2: the kernel's activated array is the reference's layer of the same data, when the data are real. -/
theorem layer2 (c : Dev nD) (hx : IsR (B6 m ρ c (Proc.devRef .tc main_v45))) (hW : IsR (m ((c : Thread nD τ).loc main_arg6))) (hb : IsR (m ((c : Thread nD τ).loc main_arg7))) :
    B11 m ρ c (Proc.devRef .tc main_v64)
      = layer128 (F := Ideal) (B6 m ρ c (Proc.devRef .tc main_v45)) (srcOf (m ((c : Thread nD τ).loc main_arg1))) (dstOf (m ((c : Thread nD τ).loc main_arg1))) (disOf (dstOf (m ((c : Thread nD τ).loc main_arg1)))) (m ((c : Thread nD τ).loc main_arg6)) (m ((c : Thread nD τ).loc main_arg7)) (m ((c : Thread nD τ).loc main_arg8)) (m ((c : Thread nD τ).loc main_arg9)) :=
  (X11_v64 m ρ c).trans
    (Cert.ReferenceIdeal.Bridge.bridge128 (B6 m ρ c (Proc.devRef .tc main_v45)) (m ((c : Thread nD τ).loc main_arg6)) (m ((c : Thread nD τ).loc main_arg7)) (m ((c : Thread nD τ).loc main_arg8)) (m ((c : Thread nD τ).loc main_arg9)) (disOf (dstOf (m ((c : Thread nD τ).loc main_arg1)))) (srcOf (m ((c : Thread nD τ).loc main_arg1))) (dstOf (m ((c : Thread nD τ).loc main_arg1)))
      shapeCasts_S50000_S50000x1 shapeCasts_S128_S1x128
      (fun q => Cert.ReferenceIdeal.Real.col128_real (Cert.ReferenceIdeal.Real.xw128_real hx hW)
        (Cert.ReferenceIdeal.Real.disOf_real _) hb _ _ q))

/-! ### Layer 3 -/

/-- The layer's product with its weights, after its call. -/
theorem X12_v65 (c : Dev nD) : B12 m ρ c (Proc.devRef .tc main_v65) = (prodAll6 (B11 m ρ c (Proc.devRef .tc main_v64)) (m ((c : Thread nD τ).loc main_arg10))) := by
  have h0 : C11 m ρ c main_v64 = (B11 m ρ c (Proc.devRef .tc main_v64)) := rfl
  have h1 : C11 m ρ c main_arg10 = (m ((c : Thread nD τ).loc main_arg10)) := B11_arg10 m ρ c
  have h := (B12_arr m ρ c 2).trans (prodFinal6 (C11 m ρ) c)
  rw [h0, h1] at h
  exact h

/-- What the statistics call finds: the summed messages. -/
theorem E13_v78 (c : Dev nD) : C13 m ρ c main_v78 = (aggW64 (prodAll6 (B11 m ρ c (Proc.devRef .tc main_v64)) (m ((c : Thread nD τ).loc main_arg10))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) := by
  have h := B13_v78 m ρ c
  rw [X12_v65, B12_v26, B1_v26, B12_v1, B1_v1, B12_v3, B1_v3] at h
  exact h

/-- … the product. -/
theorem E13_v65 (c : Dev nD) : C13 m ρ c main_v65 = (prodAll6 (B11 m ρ c (Proc.devRef .tc main_v64)) (m ((c : Thread nD τ).loc main_arg10))) :=
  (B13_v65 m ρ c).trans (X12_v65 m ρ c)

/-- … the normalised degrees as a column. -/
theorem E13_v11 (c : Dev nD) : C13 m ρ c main_v11 = (shapeCast S50000x1 (disOf (dstOf (m ((c : Thread nD τ).loc main_arg1)))) shapeCasts_S50000_S50000x1) :=
  (B13_v11 m ρ c).trans (B1_v11 m ρ c)

/-- … the bias as a row. -/
theorem E13_v79 (c : Dev nD) : C13 m ρ c main_v79 = (shapeCast S1x64 (m ((c : Thread nD τ).loc main_arg11)) shapeCasts_S64_S1x64) := by
  have h := B13_v79 m ρ c
  rw [B12_arg11] at h
  exact h

/-- The statistics call's three results: the convolution, its mean row and its variance row. -/
theorem X14_v80_0 (c : Dev nD) : B14 m ρ c (Proc.devRef .tc main_v80_0) = (preAll7 (aggW64 (prodAll6 (B11 m ρ c (Proc.devRef .tc main_v64)) (m ((c : Thread nD τ).loc main_arg10))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll6 (B11 m ρ c (Proc.devRef .tc main_v64)) (m ((c : Thread nD τ).loc main_arg10))) (shapeCast S50000x1 (disOf (dstOf (m ((c : Thread nD τ).loc main_arg1)))) shapeCasts_S50000_S50000x1) (shapeCast S1x64 (m ((c : Thread nD τ).loc main_arg11)) shapeCasts_S64_S1x64)) := by
  have h := (B14_arr m ρ c 4).trans (statsFinal7_pre (C13 m ρ) c)
  rw [E13_v78, E13_v65, E13_v11, E13_v79] at h
  exact h
theorem X14_v80_1 (c : Dev nD) : B14 m ρ c (Proc.devRef .tc main_v80_1) = meanAll7 (preAll7 (aggW64 (prodAll6 (B11 m ρ c (Proc.devRef .tc main_v64)) (m ((c : Thread nD τ).loc main_arg10))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll6 (B11 m ρ c (Proc.devRef .tc main_v64)) (m ((c : Thread nD τ).loc main_arg10))) (shapeCast S50000x1 (disOf (dstOf (m ((c : Thread nD τ).loc main_arg1)))) shapeCasts_S50000_S50000x1) (shapeCast S1x64 (m ((c : Thread nD τ).loc main_arg11)) shapeCasts_S64_S1x64)) := by
  have h := (B14_arr m ρ c 5).trans (statsFinal7_mean (C13 m ρ) c)
  rw [E13_v78, E13_v65, E13_v11, E13_v79] at h
  exact h
theorem X14_v80_2 (c : Dev nD) : B14 m ρ c (Proc.devRef .tc main_v80_2) = varAll7 (preAll7 (aggW64 (prodAll6 (B11 m ρ c (Proc.devRef .tc main_v64)) (m ((c : Thread nD τ).loc main_arg10))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll6 (B11 m ρ c (Proc.devRef .tc main_v64)) (m ((c : Thread nD τ).loc main_arg10))) (shapeCast S50000x1 (disOf (dstOf (m ((c : Thread nD τ).loc main_arg1)))) shapeCasts_S50000_S50000x1) (shapeCast S1x64 (m ((c : Thread nD τ).loc main_arg11)) shapeCasts_S64_S1x64)) := by
  have h := (B14_arr m ρ c 6).trans (statsFinal7_var (C13 m ρ) c)
  rw [E13_v78, E13_v65, E13_v11, E13_v79] at h
  exact h

/-- The layer's activated array, after its call, in the kernel's arrangement. -/
theorem X16_v83 (c : Dev nD) : B16 m ρ c (Proc.devRef .tc main_v83)
    = actAll8 (preAll7 (aggW64 (prodAll6 (B11 m ρ c (Proc.devRef .tc main_v64)) (m ((c : Thread nD τ).loc main_arg10))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll6 (B11 m ρ c (Proc.devRef .tc main_v64)) (m ((c : Thread nD τ).loc main_arg10))) (shapeCast S50000x1 (disOf (dstOf (m ((c : Thread nD τ).loc main_arg1)))) shapeCasts_S50000_S50000x1) (shapeCast S1x64 (m ((c : Thread nD τ).loc main_arg11)) shapeCasts_S64_S1x64)) (meanAll7 (preAll7 (aggW64 (prodAll6 (B11 m ρ c (Proc.devRef .tc main_v64)) (m ((c : Thread nD τ).loc main_arg10))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll6 (B11 m ρ c (Proc.devRef .tc main_v64)) (m ((c : Thread nD τ).loc main_arg10))) (shapeCast S50000x1 (disOf (dstOf (m ((c : Thread nD τ).loc main_arg1)))) shapeCasts_S50000_S50000x1) (shapeCast S1x64 (m ((c : Thread nD τ).loc main_arg11)) shapeCasts_S64_S1x64))) (varAll7 (preAll7 (aggW64 (prodAll6 (B11 m ρ c (Proc.devRef .tc main_v64)) (m ((c : Thread nD τ).loc main_arg10))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll6 (B11 m ρ c (Proc.devRef .tc main_v64)) (m ((c : Thread nD τ).loc main_arg10))) (shapeCast S50000x1 (disOf (dstOf (m ((c : Thread nD τ).loc main_arg1)))) shapeCasts_S50000_S50000x1) (shapeCast S1x64 (m ((c : Thread nD τ).loc main_arg11)) shapeCasts_S64_S1x64))) (shapeCast S1x64 (m ((c : Thread nD τ).loc main_arg12)) shapeCasts_S64_S1x64) (shapeCast S1x64 (m ((c : Thread nD τ).loc main_arg13)) shapeCasts_S64_S1x64) := by
  have e0 : C15 m ρ c main_v80_0 = (preAll7 (aggW64 (prodAll6 (B11 m ρ c (Proc.devRef .tc main_v64)) (m ((c : Thread nD τ).loc main_arg10))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll6 (B11 m ρ c (Proc.devRef .tc main_v64)) (m ((c : Thread nD τ).loc main_arg10))) (shapeCast S50000x1 (disOf (dstOf (m ((c : Thread nD τ).loc main_arg1)))) shapeCasts_S50000_S50000x1) (shapeCast S1x64 (m ((c : Thread nD τ).loc main_arg11)) shapeCasts_S64_S1x64)) := (B15_v80_0 m ρ c).trans (X14_v80_0 m ρ c)
  have e1 : C15 m ρ c main_v80_1 = meanAll7 (preAll7 (aggW64 (prodAll6 (B11 m ρ c (Proc.devRef .tc main_v64)) (m ((c : Thread nD τ).loc main_arg10))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll6 (B11 m ρ c (Proc.devRef .tc main_v64)) (m ((c : Thread nD τ).loc main_arg10))) (shapeCast S50000x1 (disOf (dstOf (m ((c : Thread nD τ).loc main_arg1)))) shapeCasts_S50000_S50000x1) (shapeCast S1x64 (m ((c : Thread nD τ).loc main_arg11)) shapeCasts_S64_S1x64)) := (B15_v80_1 m ρ c).trans (X14_v80_1 m ρ c)
  have e2 : C15 m ρ c main_v80_2 = varAll7 (preAll7 (aggW64 (prodAll6 (B11 m ρ c (Proc.devRef .tc main_v64)) (m ((c : Thread nD τ).loc main_arg10))) (edgeW (disOf (dstOf (m ((c : Thread nD τ).loc main_arg1)))) (srcOf (m ((c : Thread nD τ).loc main_arg1))) (dstOf (m ((c : Thread nD τ).loc main_arg1)))) (srcOf (m ((c : Thread nD τ).loc main_arg1))) (dstOf (m ((c : Thread nD τ).loc main_arg1)))) (prodAll6 (B11 m ρ c (Proc.devRef .tc main_v64)) (m ((c : Thread nD τ).loc main_arg10))) (shapeCast S50000x1 (disOf (dstOf (m ((c : Thread nD τ).loc main_arg1)))) shapeCasts_S50000_S50000x1) (shapeCast S1x64 (m ((c : Thread nD τ).loc main_arg11)) shapeCasts_S64_S1x64)) := (B15_v80_2 m ρ c).trans (X14_v80_2 m ρ c)
  have e3 : C15 m ρ c main_v81 = (shapeCast S1x64 (m ((c : Thread nD τ).loc main_arg12)) shapeCasts_S64_S1x64) := by
    have h := B15_v81 m ρ c
    rw [B14_arg12] at h
    exact h
  have e4 : C15 m ρ c main_v82 = (shapeCast S1x64 (m ((c : Thread nD τ).loc main_arg13)) shapeCasts_S64_S1x64) := by
    have h := B15_v82 m ρ c
    rw [B14_arg13] at h
    exact h
  have h := (B16_arr m ρ c 5).trans (actFinal8 (C15 m ρ) c)
  rw [e0, e1, e2, e3, e4] at h
  exact h

/-- Layer 3: the kernel's activated array is the reference's layer of the same data, when the data are real. -/
theorem layer3 (c : Dev nD) (hx : IsR (B11 m ρ c (Proc.devRef .tc main_v64))) (hW : IsR (m ((c : Thread nD τ).loc main_arg10))) (hb : IsR (m ((c : Thread nD τ).loc main_arg11))) :
    B16 m ρ c (Proc.devRef .tc main_v83)
      = layer64 (F := Ideal) (B11 m ρ c (Proc.devRef .tc main_v64)) (srcOf (m ((c : Thread nD τ).loc main_arg1))) (dstOf (m ((c : Thread nD τ).loc main_arg1))) (disOf (dstOf (m ((c : Thread nD τ).loc main_arg1)))) (m ((c : Thread nD τ).loc main_arg10)) (m ((c : Thread nD τ).loc main_arg11)) (m ((c : Thread nD τ).loc main_arg12)) (m ((c : Thread nD τ).loc main_arg13)) :=
  (X16_v83 m ρ c).trans
    (Cert.ReferenceIdeal.Bridge.bridge64 (B11 m ρ c (Proc.devRef .tc main_v64)) (m ((c : Thread nD τ).loc main_arg10)) (m ((c : Thread nD τ).loc main_arg11)) (m ((c : Thread nD τ).loc main_arg12)) (m ((c : Thread nD τ).loc main_arg13)) (disOf (dstOf (m ((c : Thread nD τ).loc main_arg1)))) (srcOf (m ((c : Thread nD τ).loc main_arg1))) (dstOf (m ((c : Thread nD τ).loc main_arg1)))
      shapeCasts_S50000_S50000x1 shapeCasts_S64_S1x64
      (fun q => Cert.ReferenceIdeal.Real.col64_real (Cert.ReferenceIdeal.Real.xw64_real hx hW)
        (Cert.ReferenceIdeal.Real.disOf_real _) hb _ _ q))

/-! ### The three layers composed -/

/-- From the precondition — every float argument finite — the kernel's result is the reference's result term of the
    launch memory's arguments. -/
theorem kernel_result [Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = (fun _ => 1#1)) :
    B16 m ρ c (Proc.devRef .tc main_v83) = refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  obtain ⟨r0, r2, r3, r4, r5, r6, r7, r8, r9, r10, r11, r12, r13⟩ := Cert.ReferenceIdeal.PreReal.real_of_pre _ _ _ _ _ _ _ _ _ _ _ _ _ _ hpre
  have hdis := Cert.ReferenceIdeal.Real.disOf_real (dstOf (m ((c : Thread nD τ).loc main_arg1)))
  have e1 := layer1 m ρ c r0 r2 r3
  have x1 : IsR (B6 m ρ c (Proc.devRef .tc main_v45)) := by
    rw [e1]; exact Cert.ReferenceIdeal.Real.layer128_real r0 hdis r2 r3 r4 r5 _ _
  have e2 := layer2 m ρ c x1 r6 r7
  have x2 : IsR (B11 m ρ c (Proc.devRef .tc main_v64)) := by
    rw [e2]; exact Cert.ReferenceIdeal.Real.layer128_real x1 hdis r6 r7 r8 r9 _ _
  have e3 := layer3 m ρ c x2 r10 r11
  rw [e3, e2, e1]
  rfl

end Cert.KernelIdeal.Hand

end
-- ==== Proof.Ref.Ops.lean ====
/- The reference program's @main read as a list of its host operations, window by window, the operations
   of each called function standing at the call over that call's buffer record; that @main is the list run in
   order; that the signature scopes nothing; that every operation touches TensorCore buffers only. -/
import proofs.«169495_j53601191854606_1_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 of 281 (window `main_part0`). -/
abbrev ops_part0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v8 main_v7 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    binary main_arg0 main_arg2 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v10 main_v17 main_v18 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v19 (broadcastInDim S1600000 ![] bcast_S_S1600000 : (⟨S_, .i32⟩ : BufTy).Contents (Elt F) → (⟨S1600000, .i32⟩ : BufTy).Contents (Elt F)),
    binary main_v3 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 50000#32),
    unary main_c_4 main_v21 (broadcastInDim S1600000 ![] bcast_S_S1600000 : (⟨S_, .i32⟩ : BufTy).Contents (Elt F) → (⟨S1600000, .i32⟩ : BufTy).Contents (Elt F)),
    binary main_v3 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v10 main_v24 main_v25 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v18 main_v25 main_v26 (mulf : (⟨S1600000, .f32⟩ : BufTy).Contents (Elt F) → (⟨S1600000, .f32⟩ : BufTy).Contents (Elt F) → (⟨S1600000, .f32⟩ : BufTy).Contents (Elt F)),
    nullary main_c_5 (constantI S_ 32 0#32),
    unary main_c_5 main_v27 (broadcastInDim S1600000 ![] bcast_S_S1600000 : (⟨S_, .i32⟩ : BufTy).Contents (Elt F) → (⟨S1600000, .i32⟩ : BufTy).Contents (Elt F)),
    binary main_v1 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 50000#32),
    unary main_c_6 main_v29 (broadcastInDim S1600000 ![] bcast_S_S1600000 : (⟨S_, .i32⟩ : BufTy).Contents (Elt F) → (⟨S1600000, .i32⟩ : BufTy).Contents (Elt F)),
    binary main_v1 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v11 main_v32 main_v33 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_v26 main_v34 (broadcastInDim S1600000x1 ![0] bcast_S1600000_S1600000x1_0 : (⟨S1600000, .f32⟩ : BufTy).Contents (Elt F) → (⟨S1600000x1, .f32⟩ : BufTy).Contents (Elt F)),
    unary main_v34 main_v35 (broadcastInDim S1600000x128 ![0, 1] bcast_S1600000x1_S1600000x128_0_1 : (⟨S1600000x1, .f32⟩ : BufTy).Contents (Elt F) → (⟨S1600000x128, .f32⟩ : BufTy).Contents (Elt F)),
    binary main_v33 main_v35 main_v36 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v37 (broadcastInDim S50000x128 ![] bcast_S_S50000x128 : (⟨S_, .f32⟩ : BufTy).Contents (Elt F) → (⟨S50000x128, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    binary main_v10 main_v10 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_v11 main_v42 main_v43 (mulf : (⟨S50000x128, .f32⟩ : BufTy).Contents (Elt F) → (⟨S50000x128, .f32⟩ : BufTy).Contents (Elt F) → (⟨S50000x128, .f32⟩ : BufTy).Contents (Elt F)),
    binary main_v39 main_v43 main_v44 (addf : (⟨S50000x128, .f32⟩ : BufTy).Contents (Elt F) → (⟨S50000x128, .f32⟩ : BufTy).Contents (Elt F) → (⟨S50000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x00000000#32),
    binary main_v47 main_cst_8 main_v48 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ]

/-- @main's operations 61 … 134 of 281 (window `main_part1`). -/
abbrev ops_part1 : List (HloOp τ sig (Elt F)) :=
  [ nullary main_cst_9 (constant S_ .f32 0x47435000#32),
    unary main_cst_9 main_v49 (broadcastInDim S128 ![] bcast_S_S128 : (⟨S_, .f32⟩ : BufTy).Contents (Elt F) → (⟨S128, .f32⟩ : BufTy).Contents (Elt F)),
    binary main_v48 main_v49 main_v50 (Host.divf : (⟨S128, .f32⟩ : BufTy).Contents (Elt F) → (⟨S128, .f32⟩ : BufTy).Contents (Elt F) → (⟨S128, .f32⟩ : BufTy).Contents (Elt F)),
    unary main_v50 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v47 main_v52 main_v53 (subf : (⟨S50000x128, .f32⟩ : BufTy).Contents (Elt F) → (⟨S50000x128, .f32⟩ : BufTy).Contents (Elt F) → (⟨S50000x128, .f32⟩ : BufTy).Contents (Elt F)),
    binary main_v53 main_v53 main_v54 (mulf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    binary main_v54 main_cst_10 main_v55 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v56 (broadcastInDim S128 ![] bcast_S_S128 : (⟨S_, .f32⟩ : BufTy).Contents (Elt F) → (⟨S128, .f32⟩ : BufTy).Contents (Elt F)),
    binary main_v55 main_v56 main_v57 (Host.divf : (⟨S128, .f32⟩ : BufTy).Contents (Elt F) → (⟨S128, .f32⟩ : BufTy).Contents (Elt F) → (⟨S128, .f32⟩ : BufTy).Contents (Elt F)),
    unary main_v50 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v47 main_v59 main_v60 (subf : (⟨S50000x128, .f32⟩ : BufTy).Contents (Elt F) → (⟨S50000x128, .f32⟩ : BufTy).Contents (Elt F) → (⟨S50000x128, .f32⟩ : BufTy).Contents (Elt F)),
    unary main_arg4 main_v61 (broadcastInDim S1x128 ![1] bcast_S128_S1x128_1 : (⟨S128, .f32⟩ : BufTy).Contents (Elt F) → (⟨S1x128, .f32⟩ : BufTy).Contents (Elt F)),
    unary main_v61 main_v62 (broadcastInDim S50000x128 ![0, 1] bcast_S1x128_S50000x128_0_1 : (⟨S1x128, .f32⟩ : BufTy).Contents (Elt F) → (⟨S50000x128, .f32⟩ : BufTy).Contents (Elt F)),
    binary main_v62 main_v60 main_v63 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v64 (broadcastInDim S128 ![] bcast_S_S128 : (⟨S_, .f32⟩ : BufTy).Contents (Elt F) → (⟨S128, .f32⟩ : BufTy).Contents (Elt F)),
    binary main_v57 main_v64 main_v65 (addf : (⟨S128, .f32⟩ : BufTy).Contents (Elt F) → (⟨S128, .f32⟩ : BufTy).Contents (Elt F) → (⟨S128, .f32⟩ : BufTy).Contents (Elt F)),
    unary main_v65 main_v66 (Host.rsqrt : (⟨S128, .f32⟩ : BufTy).Contents (Elt F) → (⟨S128, .f32⟩ : BufTy).Contents (Elt F)),
    unary main_v66 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v63 main_v68 main_v69 (mulf : (⟨S50000x128, .f32⟩ : BufTy).Contents (Elt F) → (⟨S50000x128, .f32⟩ : BufTy).Contents (Elt F) → (⟨S50000x128, .f32⟩ : BufTy).Contents (Elt F)),
    unary main_arg5 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v72) main_call0.v0 main_call0.v1 (cmpf .ogt),
    TRef.nullary main_call0.cst_0 (constant S_ .f32 0x00000000#32),
    TRef.unary main_call0.cst_0 main_call0.v2 (broadcastInDim S50000x128 ![] bcast_S_S50000x128),
    TRef.binary (.of main_v72) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x128 ![] bcast_S_S50000x128),
    TRef.ternary main_call0.v3 main_call0.call0.v1 (.of main_v72) main_call0.call0.v2 select,
    TRef.unary main_call0.call0.v2 main_call0.v5 Host.expm1,
    TRef.nullary main_call0.cst_2 (constant S_ .f32 0x3F800000#32),
    TRef.unary main_call0.cst_2 main_call0.v6 (broadcastInDim S50000x128 ![] bcast_S_S50000x128),
    TRef.binary main_call0.v6 main_call0.v5 main_call0.v7 mulf,
    TRef.ternary main_call0.v1 (.of main_v72) main_call0.v7 main_call0.call1.v0 select,
    binary main_v73 main_arg6 main_v74 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_13 (constantI S_ 32 0#32),
    unary main_c_13 main_v75 (broadcastInDim S1600000 ![] bcast_S_S1600000 : (⟨S_, .i32⟩ : BufTy).Contents (Elt F) → (⟨S1600000, .i32⟩ : BufTy).Contents (Elt F)),
    binary main_v1 main_v75 main_v76 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 50000#32),
    unary main_c_14 main_v77 (broadcastInDim S1600000 ![] bcast_S_S1600000 : (⟨S_, .i32⟩ : BufTy).Contents (Elt F) → (⟨S1600000, .i32⟩ : BufTy).Contents (Elt F)),
    binary main_v1 main_v77 main_v78 (addi : (⟨S1600000, .i32⟩ : BufTy).Contents (Elt F) → (⟨S1600000, .i32⟩ : BufTy).Contents (Elt F) → (⟨S1600000, .i32⟩ : BufTy).Contents (Elt F)),
    ternary main_v76 main_v78 main_v1 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v79 main_v80 (broadcastInDim S1600000x1 ![0] bcast_S1600000_S1600000x1_0 : (⟨S1600000, .i32⟩ : BufTy).Contents (Elt F) → (⟨S1600000x1, .i32⟩ : BufTy).Contents (Elt F)),
    binary main_v10 main_v80 main_v81 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_15 (constantI S_ 32 0#32),
    unary main_c_15 main_v82 (broadcastInDim S1600000 ![] bcast_S_S1600000 : (⟨S_, .i32⟩ : BufTy).Contents (Elt F) → (⟨S1600000, .i32⟩ : BufTy).Contents (Elt F)),
    binary main_v3 main_v82 main_v83 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 50000#32),
    unary main_c_16 main_v84 (broadcastInDim S1600000 ![] bcast_S_S1600000 : (⟨S_, .i32⟩ : BufTy).Contents (Elt F) → (⟨S1600000, .i32⟩ : BufTy).Contents (Elt F)),
    binary main_v3 main_v84 main_v85 (addi : (⟨S1600000, .i32⟩ : BufTy).Contents (Elt F) → (⟨S1600000, .i32⟩ : BufTy).Contents (Elt F) → (⟨S1600000, .i32⟩ : BufTy).Contents (Elt F)),
    ternary main_v83 main_v85 main_v3 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v86 main_v87 (broadcastInDim S1600000x1 ![0] bcast_S1600000_S1600000x1_0 : (⟨S1600000, .i32⟩ : BufTy).Contents (Elt F) → (⟨S1600000x1, .i32⟩ : BufTy).Contents (Elt F)),
    binary main_v10 main_v87 main_v88 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v81 main_v88 main_v89 (mulf : (⟨S1600000, .f32⟩ : BufTy).Contents (Elt F) → (⟨S1600000, .f32⟩ : BufTy).Contents (Elt F) → (⟨S1600000, .f32⟩ : BufTy).Contents (Elt F)),
    nullary main_c_17 (constantI S_ 32 0#32),
    unary main_c_17 main_v90 (broadcastInDim S1600000 ![] bcast_S_S1600000 : (⟨S_, .i32⟩ : BufTy).Contents (Elt F) → (⟨S1600000, .i32⟩ : BufTy).Contents (Elt F)),
    binary main_v1 main_v90 main_v91 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 50000#32),
    unary main_c_18 main_v92 (broadcastInDim S1600000 ![] bcast_S_S1600000 : (⟨S_, .i32⟩ : BufTy).Contents (Elt F) → (⟨S1600000, .i32⟩ : BufTy).Contents (Elt F)),
    binary main_v1 main_v92 main_v93 (addi : (⟨S1600000, .i32⟩ : BufTy).Contents (Elt F) → (⟨S1600000, .i32⟩ : BufTy).Contents (Elt F) → (⟨S1600000, .i32⟩ : BufTy).Contents (Elt F)),
    ternary main_v91 main_v93 main_v1 main_v94 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v94 main_v95 (broadcastInDim S1600000x1 ![0] bcast_S1600000_S1600000x1_0 : (⟨S1600000, .i32⟩ : BufTy).Contents (Elt F) → (⟨S1600000x1, .i32⟩ : BufTy).Contents (Elt F)),
    binary main_v74 main_v95 main_v96 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_v89 main_v97 (broadcastInDim S1600000x1 ![0] bcast_S1600000_S1600000x1_0 : (⟨S1600000, .f32⟩ : BufTy).Contents (Elt F) → (⟨S1600000x1, .f32⟩ : BufTy).Contents (Elt F)),
    unary main_v97 main_v98 (broadcastInDim S1600000x128 ![0, 1] bcast_S1600000x1_S1600000x128_0_1 : (⟨S1600000x1, .f32⟩ : BufTy).Contents (Elt F) → (⟨S1600000x128, .f32⟩ : BufTy).Contents (Elt F)) ]

/-- @main's operations 135 … 208 of 281 (window `main_part2`). -/
abbrev ops_part2 : List (HloOp τ sig (Elt F)) :=
  [ binary main_v96 main_v98 main_v99 (mulf : (⟨S1600000x128, .f32⟩ : BufTy).Contents (Elt F) → (⟨S1600000x128, .f32⟩ : BufTy).Contents (Elt F) → (⟨S1600000x128, .f32⟩ : BufTy).Contents (Elt F)),
    nullary main_cst_19 (constant S_ .f32 0x00000000#32),
    unary main_cst_19 main_v100 (broadcastInDim S50000x128 ![] bcast_S_S50000x128 : (⟨S_, .f32⟩ : BufTy).Contents (Elt F) → (⟨S50000x128, .f32⟩ : BufTy).Contents (Elt F)),
    unary main_v3 main_v101 (broadcastInDim S1600000x1 ![0] bcast_S1600000_S1600000x1_0 : (⟨S1600000, .i32⟩ : BufTy).Contents (Elt F) → (⟨S1600000x1, .i32⟩ : BufTy).Contents (Elt F)),
    ternary main_v100 main_v101 main_v99 main_v102 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    binary main_v10 main_v10 main_v103 (mulf : (⟨S50000, .f32⟩ : BufTy).Contents (Elt F) → (⟨S50000, .f32⟩ : BufTy).Contents (Elt F) → (⟨S50000, .f32⟩ : BufTy).Contents (Elt F)),
    unary main_v103 main_v104 (broadcastInDim S50000x1 ![0] bcast_S50000_S50000x1_0 : (⟨S50000, .f32⟩ : BufTy).Contents (Elt F) → (⟨S50000x1, .f32⟩ : BufTy).Contents (Elt F)),
    unary main_v104 main_v105 (broadcastInDim S50000x128 ![0, 1] bcast_S50000x1_S50000x128_0_1 : (⟨S50000x1, .f32⟩ : BufTy).Contents (Elt F) → (⟨S50000x128, .f32⟩ : BufTy).Contents (Elt F)),
    binary main_v74 main_v105 main_v106 (mulf : (⟨S50000x128, .f32⟩ : BufTy).Contents (Elt F) → (⟨S50000x128, .f32⟩ : BufTy).Contents (Elt F) → (⟨S50000x128, .f32⟩ : BufTy).Contents (Elt F)),
    binary main_v102 main_v106 main_v107 (addf : (⟨S50000x128, .f32⟩ : BufTy).Contents (Elt F) → (⟨S50000x128, .f32⟩ : BufTy).Contents (Elt F) → (⟨S50000x128, .f32⟩ : BufTy).Contents (Elt F)),
    unary main_arg7 main_v108 (broadcastInDim S1x128 ![1] bcast_S128_S1x128_1 : (⟨S128, .f32⟩ : BufTy).Contents (Elt F) → (⟨S1x128, .f32⟩ : BufTy).Contents (Elt F)),
    unary main_v108 main_v109 (broadcastInDim S50000x128 ![0, 1] bcast_S1x128_S50000x128_0_1 : (⟨S1x128, .f32⟩ : BufTy).Contents (Elt F) → (⟨S50000x128, .f32⟩ : BufTy).Contents (Elt F)),
    binary main_v107 main_v109 main_v110 (addf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    binary main_v110 main_cst_20 main_v111 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_21 (constant S_ .f32 0x47435000#32),
    unary main_cst_21 main_v112 (broadcastInDim S128 ![] bcast_S_S128 : (⟨S_, .f32⟩ : BufTy).Contents (Elt F) → (⟨S128, .f32⟩ : BufTy).Contents (Elt F)),
    binary main_v111 main_v112 main_v113 (Host.divf : (⟨S128, .f32⟩ : BufTy).Contents (Elt F) → (⟨S128, .f32⟩ : BufTy).Contents (Elt F) → (⟨S128, .f32⟩ : BufTy).Contents (Elt F)),
    unary main_v113 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v110 main_v115 main_v116 (subf : (⟨S50000x128, .f32⟩ : BufTy).Contents (Elt F) → (⟨S50000x128, .f32⟩ : BufTy).Contents (Elt F) → (⟨S50000x128, .f32⟩ : BufTy).Contents (Elt F)),
    binary main_v116 main_v116 main_v117 (mulf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x00000000#32),
    binary main_v117 main_cst_22 main_v118 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_23 (constant S_ .f32 0x47435000#32),
    unary main_cst_23 main_v119 (broadcastInDim S128 ![] bcast_S_S128 : (⟨S_, .f32⟩ : BufTy).Contents (Elt F) → (⟨S128, .f32⟩ : BufTy).Contents (Elt F)),
    binary main_v118 main_v119 main_v120 (Host.divf : (⟨S128, .f32⟩ : BufTy).Contents (Elt F) → (⟨S128, .f32⟩ : BufTy).Contents (Elt F) → (⟨S128, .f32⟩ : BufTy).Contents (Elt F)),
    unary main_v113 main_v121 (broadcastInDim S1x128 ![1] bcast_S128_S1x128_1 : (⟨S128, .f32⟩ : BufTy).Contents (Elt F) → (⟨S1x128, .f32⟩ : BufTy).Contents (Elt F)),
    unary main_v121 main_v122 (broadcastInDim S50000x128 ![0, 1] bcast_S1x128_S50000x128_0_1 : (⟨S1x128, .f32⟩ : BufTy).Contents (Elt F) → (⟨S50000x128, .f32⟩ : BufTy).Contents (Elt F)),
    binary main_v110 main_v122 main_v123 (subf : (⟨S50000x128, .f32⟩ : BufTy).Contents (Elt F) → (⟨S50000x128, .f32⟩ : BufTy).Contents (Elt F) → (⟨S50000x128, .f32⟩ : BufTy).Contents (Elt F)),
    unary main_arg8 main_v124 (broadcastInDim S1x128 ![1] bcast_S128_S1x128_1 : (⟨S128, .f32⟩ : BufTy).Contents (Elt F) → (⟨S1x128, .f32⟩ : BufTy).Contents (Elt F)),
    unary main_v124 main_v125 (broadcastInDim S50000x128 ![0, 1] bcast_S1x128_S50000x128_0_1 : (⟨S1x128, .f32⟩ : BufTy).Contents (Elt F) → (⟨S50000x128, .f32⟩ : BufTy).Contents (Elt F)),
    binary main_v125 main_v123 main_v126 (mulf : (⟨S50000x128, .f32⟩ : BufTy).Contents (Elt F) → (⟨S50000x128, .f32⟩ : BufTy).Contents (Elt F) → (⟨S50000x128, .f32⟩ : BufTy).Contents (Elt F)),
    nullary main_cst_24 (constant S_ .f32 0x3727C5AC#32),
    unary main_cst_24 main_v127 (broadcastInDim S128 ![] bcast_S_S128 : (⟨S_, .f32⟩ : BufTy).Contents (Elt F) → (⟨S128, .f32⟩ : BufTy).Contents (Elt F)),
    binary main_v120 main_v127 main_v128 (addf : (⟨S128, .f32⟩ : BufTy).Contents (Elt F) → (⟨S128, .f32⟩ : BufTy).Contents (Elt F) → (⟨S128, .f32⟩ : BufTy).Contents (Elt F)),
    unary main_v128 main_v129 (Host.rsqrt : (⟨S128, .f32⟩ : BufTy).Contents (Elt F) → (⟨S128, .f32⟩ : BufTy).Contents (Elt F)),
    unary main_v129 main_v130 (broadcastInDim S1x128 ![1] bcast_S128_S1x128_1 : (⟨S128, .f32⟩ : BufTy).Contents (Elt F) → (⟨S1x128, .f32⟩ : BufTy).Contents (Elt F)),
    unary main_v130 main_v131 (broadcastInDim S50000x128 ![0, 1] bcast_S1x128_S50000x128_0_1 : (⟨S1x128, .f32⟩ : BufTy).Contents (Elt F) → (⟨S50000x128, .f32⟩ : BufTy).Contents (Elt F)),
    binary main_v126 main_v131 main_v132 (mulf : (⟨S50000x128, .f32⟩ : BufTy).Contents (Elt F) → (⟨S50000x128, .f32⟩ : BufTy).Contents (Elt F) → (⟨S50000x128, .f32⟩ : BufTy).Contents (Elt F)),
    unary main_arg9 main_v133 (broadcastInDim S1x128 ![1] bcast_S128_S1x128_1 : (⟨S128, .f32⟩ : BufTy).Contents (Elt F) → (⟨S1x128, .f32⟩ : BufTy).Contents (Elt F)),
    unary main_v133 main_v134 (broadcastInDim S50000x128 ![0, 1] bcast_S1x128_S50000x128_0_1 : (⟨S1x128, .f32⟩ : BufTy).Contents (Elt F) → (⟨S50000x128, .f32⟩ : BufTy).Contents (Elt F)),
    binary main_v132 main_v134 main_v135 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v135) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (.of main_v135) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (.of main_v135) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (.of main_v135) main_call1.v7 main_call1.call1.v0 select,
    binary main_v136 main_arg10 main_v137 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_25 (constantI S_ 32 0#32),
    unary main_c_25 main_v138 (broadcastInDim S1600000 ![] bcast_S_S1600000 : (⟨S_, .i32⟩ : BufTy).Contents (Elt F) → (⟨S1600000, .i32⟩ : BufTy).Contents (Elt F)),
    binary main_v1 main_v138 main_v139 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 50000#32),
    unary main_c_26 main_v140 (broadcastInDim S1600000 ![] bcast_S_S1600000 : (⟨S_, .i32⟩ : BufTy).Contents (Elt F) → (⟨S1600000, .i32⟩ : BufTy).Contents (Elt F)),
    binary main_v1 main_v140 main_v141 (addi : (⟨S1600000, .i32⟩ : BufTy).Contents (Elt F) → (⟨S1600000, .i32⟩ : BufTy).Contents (Elt F) → (⟨S1600000, .i32⟩ : BufTy).Contents (Elt F)),
    ternary main_v139 main_v141 main_v1 main_v142 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v142 main_v143 (broadcastInDim S1600000x1 ![0] bcast_S1600000_S1600000x1_0 : (⟨S1600000, .i32⟩ : BufTy).Contents (Elt F) → (⟨S1600000x1, .i32⟩ : BufTy).Contents (Elt F)),
    binary main_v10 main_v143 main_v144 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_27 (constantI S_ 32 0#32),
    unary main_c_27 main_v145 (broadcastInDim S1600000 ![] bcast_S_S1600000 : (⟨S_, .i32⟩ : BufTy).Contents (Elt F) → (⟨S1600000, .i32⟩ : BufTy).Contents (Elt F)),
    binary main_v3 main_v145 main_v146 (cmpi .slt : (⟨S1600000, .i32⟩ : BufTy).Contents (Elt F) → (⟨S1600000, .i32⟩ : BufTy).Contents (Elt F) → (⟨S1600000, .i1⟩ : BufTy).Contents (Elt F)),
    nullary main_c_28 (constantI S_ 32 50000#32),
    unary main_c_28 main_v147 (broadcastInDim S1600000 ![] bcast_S_S1600000 : (⟨S_, .i32⟩ : BufTy).Contents (Elt F) → (⟨S1600000, .i32⟩ : BufTy).Contents (Elt F)),
    binary main_v3 main_v147 main_v148 (addi : (⟨S1600000, .i32⟩ : BufTy).Contents (Elt F) → (⟨S1600000, .i32⟩ : BufTy).Contents (Elt F) → (⟨S1600000, .i32⟩ : BufTy).Contents (Elt F)) ]

/-- @main's operations 209 … 281 of 281 (window `main_part3`). -/
abbrev ops_part3 : List (HloOp τ sig (Elt F)) :=
  [ ternary main_v146 main_v148 main_v3 main_v149 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v149 main_v150 (broadcastInDim S1600000x1 ![0] bcast_S1600000_S1600000x1_0 : (⟨S1600000, .i32⟩ : BufTy).Contents (Elt F) → (⟨S1600000x1, .i32⟩ : BufTy).Contents (Elt F)),
    binary main_v10 main_v150 main_v151 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v144 main_v151 main_v152 (mulf : (⟨S1600000, .f32⟩ : BufTy).Contents (Elt F) → (⟨S1600000, .f32⟩ : BufTy).Contents (Elt F) → (⟨S1600000, .f32⟩ : BufTy).Contents (Elt F)),
    nullary main_c_29 (constantI S_ 32 0#32),
    unary main_c_29 main_v153 (broadcastInDim S1600000 ![] bcast_S_S1600000 : (⟨S_, .i32⟩ : BufTy).Contents (Elt F) → (⟨S1600000, .i32⟩ : BufTy).Contents (Elt F)),
    binary main_v1 main_v153 main_v154 (cmpi .slt : (⟨S1600000, .i32⟩ : BufTy).Contents (Elt F) → (⟨S1600000, .i32⟩ : BufTy).Contents (Elt F) → (⟨S1600000, .i1⟩ : BufTy).Contents (Elt F)),
    nullary main_c_30 (constantI S_ 32 50000#32),
    unary main_c_30 main_v155 (broadcastInDim S1600000 ![] bcast_S_S1600000 : (⟨S_, .i32⟩ : BufTy).Contents (Elt F) → (⟨S1600000, .i32⟩ : BufTy).Contents (Elt F)),
    binary main_v1 main_v155 main_v156 (addi : (⟨S1600000, .i32⟩ : BufTy).Contents (Elt F) → (⟨S1600000, .i32⟩ : BufTy).Contents (Elt F) → (⟨S1600000, .i32⟩ : BufTy).Contents (Elt F)),
    ternary main_v154 main_v156 main_v1 main_v157 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v157 main_v158 (broadcastInDim S1600000x1 ![0] bcast_S1600000_S1600000x1_0 : (⟨S1600000, .i32⟩ : BufTy).Contents (Elt F) → (⟨S1600000x1, .i32⟩ : BufTy).Contents (Elt F)),
    binary main_v137 main_v158 main_v159 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    unary main_v152 main_v160 (broadcastInDim S1600000x1 ![0] bcast_S1600000_S1600000x1_0 : (⟨S1600000, .f32⟩ : BufTy).Contents (Elt F) → (⟨S1600000x1, .f32⟩ : BufTy).Contents (Elt F)),
    unary main_v160 main_v161 (broadcastInDim S1600000x64 ![0, 1] bcast_S1600000x1_S1600000x64_0_1 : (⟨S1600000x1, .f32⟩ : BufTy).Contents (Elt F) → (⟨S1600000x64, .f32⟩ : BufTy).Contents (Elt F)),
    binary main_v159 main_v161 main_v162 (mulf : (⟨S1600000x64, .f32⟩ : BufTy).Contents (Elt F) → (⟨S1600000x64, .f32⟩ : BufTy).Contents (Elt F) → (⟨S1600000x64, .f32⟩ : BufTy).Contents (Elt F)),
    nullary main_cst_31 (constant S_ .f32 0x00000000#32),
    unary main_cst_31 main_v163 (broadcastInDim S50000x64 ![] bcast_S_S50000x64 : (⟨S_, .f32⟩ : BufTy).Contents (Elt F) → (⟨S50000x64, .f32⟩ : BufTy).Contents (Elt F)),
    unary main_v3 main_v164 (broadcastInDim S1600000x1 ![0] bcast_S1600000_S1600000x1_0 : (⟨S1600000, .i32⟩ : BufTy).Contents (Elt F) → (⟨S1600000x1, .i32⟩ : BufTy).Contents (Elt F)),
    ternary main_v163 main_v164 main_v162 main_v165 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    binary main_v10 main_v10 main_v166 (mulf : (⟨S50000, .f32⟩ : BufTy).Contents (Elt F) → (⟨S50000, .f32⟩ : BufTy).Contents (Elt F) → (⟨S50000, .f32⟩ : BufTy).Contents (Elt F)),
    unary main_v166 main_v167 (broadcastInDim S50000x1 ![0] bcast_S50000_S50000x1_0 : (⟨S50000, .f32⟩ : BufTy).Contents (Elt F) → (⟨S50000x1, .f32⟩ : BufTy).Contents (Elt F)),
    unary main_v167 main_v168 (broadcastInDim S50000x64 ![0, 1] bcast_S50000x1_S50000x64_0_1 : (⟨S50000x1, .f32⟩ : BufTy).Contents (Elt F) → (⟨S50000x64, .f32⟩ : BufTy).Contents (Elt F)),
    binary main_v137 main_v168 main_v169 (mulf : (⟨S50000x64, .f32⟩ : BufTy).Contents (Elt F) → (⟨S50000x64, .f32⟩ : BufTy).Contents (Elt F) → (⟨S50000x64, .f32⟩ : BufTy).Contents (Elt F)),
    binary main_v165 main_v169 main_v170 (addf : (⟨S50000x64, .f32⟩ : BufTy).Contents (Elt F) → (⟨S50000x64, .f32⟩ : BufTy).Contents (Elt F) → (⟨S50000x64, .f32⟩ : BufTy).Contents (Elt F)),
    unary main_arg11 main_v171 (broadcastInDim S1x64 ![1] bcast_S64_S1x64_1 : (⟨S64, .f32⟩ : BufTy).Contents (Elt F) → (⟨S1x64, .f32⟩ : BufTy).Contents (Elt F)),
    unary main_v171 main_v172 (broadcastInDim S50000x64 ![0, 1] bcast_S1x64_S50000x64_0_1 : (⟨S1x64, .f32⟩ : BufTy).Contents (Elt F) → (⟨S50000x64, .f32⟩ : BufTy).Contents (Elt F)),
    binary main_v170 main_v172 main_v173 (addf : (⟨S50000x64, .f32⟩ : BufTy).Contents (Elt F) → (⟨S50000x64, .f32⟩ : BufTy).Contents (Elt F) → (⟨S50000x64, .f32⟩ : BufTy).Contents (Elt F)),
    nullary main_cst_32 (constant S_ .f32 0x00000000#32),
    binary main_v173 main_cst_32 main_v174 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_33 (constant S_ .f32 0x47435000#32),
    unary main_cst_33 main_v175 (broadcastInDim S64 ![] bcast_S_S64 : (⟨S_, .f32⟩ : BufTy).Contents (Elt F) → (⟨S64, .f32⟩ : BufTy).Contents (Elt F)),
    binary main_v174 main_v175 main_v176 (Host.divf : (⟨S64, .f32⟩ : BufTy).Contents (Elt F) → (⟨S64, .f32⟩ : BufTy).Contents (Elt F) → (⟨S64, .f32⟩ : BufTy).Contents (Elt F)),
    unary main_v176 main_v177 (broadcastInDim S1x64 ![1] bcast_S64_S1x64_1 : (⟨S64, .f32⟩ : BufTy).Contents (Elt F) → (⟨S1x64, .f32⟩ : BufTy).Contents (Elt F)),
    unary main_v177 main_v178 (broadcastInDim S50000x64 ![0, 1] bcast_S1x64_S50000x64_0_1 : (⟨S1x64, .f32⟩ : BufTy).Contents (Elt F) → (⟨S50000x64, .f32⟩ : BufTy).Contents (Elt F)),
    binary main_v173 main_v178 main_v179 (subf : (⟨S50000x64, .f32⟩ : BufTy).Contents (Elt F) → (⟨S50000x64, .f32⟩ : BufTy).Contents (Elt F) → (⟨S50000x64, .f32⟩ : BufTy).Contents (Elt F)),
    binary main_v179 main_v179 main_v180 (mulf : (⟨S50000x64, .f32⟩ : BufTy).Contents (Elt F) → (⟨S50000x64, .f32⟩ : BufTy).Contents (Elt F) → (⟨S50000x64, .f32⟩ : BufTy).Contents (Elt F)),
    nullary main_cst_34 (constant S_ .f32 0x00000000#32),
    binary main_v180 main_cst_34 main_v181 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_35 (constant S_ .f32 0x47435000#32),
    unary main_cst_35 main_v182 (broadcastInDim S64 ![] bcast_S_S64 : (⟨S_, .f32⟩ : BufTy).Contents (Elt F) → (⟨S64, .f32⟩ : BufTy).Contents (Elt F)),
    binary main_v181 main_v182 main_v183 (Host.divf : (⟨S64, .f32⟩ : BufTy).Contents (Elt F) → (⟨S64, .f32⟩ : BufTy).Contents (Elt F) → (⟨S64, .f32⟩ : BufTy).Contents (Elt F)),
    unary main_v176 main_v184 (broadcastInDim S1x64 ![1] bcast_S64_S1x64_1 : (⟨S64, .f32⟩ : BufTy).Contents (Elt F) → (⟨S1x64, .f32⟩ : BufTy).Contents (Elt F)),
    unary main_v184 main_v185 (broadcastInDim S50000x64 ![0, 1] bcast_S1x64_S50000x64_0_1 : (⟨S1x64, .f32⟩ : BufTy).Contents (Elt F) → (⟨S50000x64, .f32⟩ : BufTy).Contents (Elt F)),
    binary main_v173 main_v185 main_v186 (subf : (⟨S50000x64, .f32⟩ : BufTy).Contents (Elt F) → (⟨S50000x64, .f32⟩ : BufTy).Contents (Elt F) → (⟨S50000x64, .f32⟩ : BufTy).Contents (Elt F)),
    unary main_arg12 main_v187 (broadcastInDim S1x64 ![1] bcast_S64_S1x64_1 : (⟨S64, .f32⟩ : BufTy).Contents (Elt F) → (⟨S1x64, .f32⟩ : BufTy).Contents (Elt F)),
    unary main_v187 main_v188 (broadcastInDim S50000x64 ![0, 1] bcast_S1x64_S50000x64_0_1 : (⟨S1x64, .f32⟩ : BufTy).Contents (Elt F) → (⟨S50000x64, .f32⟩ : BufTy).Contents (Elt F)),
    binary main_v188 main_v186 main_v189 (mulf : (⟨S50000x64, .f32⟩ : BufTy).Contents (Elt F) → (⟨S50000x64, .f32⟩ : BufTy).Contents (Elt F) → (⟨S50000x64, .f32⟩ : BufTy).Contents (Elt F)),
    nullary main_cst_36 (constant S_ .f32 0x3727C5AC#32),
    unary main_cst_36 main_v190 (broadcastInDim S64 ![] bcast_S_S64 : (⟨S_, .f32⟩ : BufTy).Contents (Elt F) → (⟨S64, .f32⟩ : BufTy).Contents (Elt F)),
    binary main_v183 main_v190 main_v191 (addf : (⟨S64, .f32⟩ : BufTy).Contents (Elt F) → (⟨S64, .f32⟩ : BufTy).Contents (Elt F) → (⟨S64, .f32⟩ : BufTy).Contents (Elt F)),
    unary main_v191 main_v192 (Host.rsqrt : (⟨S64, .f32⟩ : BufTy).Contents (Elt F) → (⟨S64, .f32⟩ : BufTy).Contents (Elt F)),
    unary main_v192 main_v193 (broadcastInDim S1x64 ![1] bcast_S64_S1x64_1 : (⟨S64, .f32⟩ : BufTy).Contents (Elt F) → (⟨S1x64, .f32⟩ : BufTy).Contents (Elt F)),
    unary main_v193 main_v194 (broadcastInDim S50000x64 ![0, 1] bcast_S1x64_S50000x64_0_1 : (⟨S1x64, .f32⟩ : BufTy).Contents (Elt F) → (⟨S50000x64, .f32⟩ : BufTy).Contents (Elt F)),
    binary main_v189 main_v194 main_v195 (mulf : (⟨S50000x64, .f32⟩ : BufTy).Contents (Elt F) → (⟨S50000x64, .f32⟩ : BufTy).Contents (Elt F) → (⟨S50000x64, .f32⟩ : BufTy).Contents (Elt F)),
    unary main_arg13 main_v196 (broadcastInDim S1x64 ![1] bcast_S64_S1x64_1 : (⟨S64, .f32⟩ : BufTy).Contents (Elt F) → (⟨S1x64, .f32⟩ : BufTy).Contents (Elt F)),
    unary main_v196 main_v197 (broadcastInDim S50000x64 ![0, 1] bcast_S1x64_S50000x64_0_1 : (⟨S1x64, .f32⟩ : BufTy).Contents (Elt F) → (⟨S50000x64, .f32⟩ : BufTy).Contents (Elt F)),
    binary main_v195 main_v197 main_v198 (addf : (⟨S50000x64, .f32⟩ : BufTy).Contents (Elt F) → (⟨S50000x64, .f32⟩ : BufTy).Contents (Elt F) → (⟨S50000x64, .f32⟩ : BufTy).Contents (Elt F)),
    TRef.nullary main_call2.cst (constant S_ .f32 0x00000000#32),
    TRef.unary main_call2.cst main_call2.v0 (broadcastInDim S50000x64 ![] bcast_S_S50000x64),
    TRef.binary (.of main_v198) main_call2.v0 main_call2.v1 (cmpf .ogt),
    TRef.nullary main_call2.cst_0 (constant S_ .f32 0x00000000#32),
    TRef.unary main_call2.cst_0 main_call2.v2 (broadcastInDim S50000x64 ![] bcast_S_S50000x64),
    TRef.binary (.of main_v198) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S50000x64 ![] bcast_S_S50000x64),
    TRef.ternary main_call2.v3 main_call2.call0.v1 (.of main_v198) main_call2.call0.v2 select,
    TRef.unary main_call2.call0.v2 main_call2.v5 Host.expm1,
    TRef.nullary main_call2.cst_2 (constant S_ .f32 0x3F800000#32),
    TRef.unary main_call2.cst_2 main_call2.v6 (broadcastInDim S50000x64 ![] bcast_S_S50000x64),
    TRef.binary main_call2.v6 main_call2.v5 main_call2.v7 mulf,
    TRef.ternary main_call2.v1 (.of main_v198) main_call2.v7 main_call2.call1.v0 select ]

/-- @main's 281 operations, in order: the four windows one after the other. -/
abbrev ops : List (HloOp τ sig (Elt F)) :=
  ops_part0 ++ (ops_part1 ++ (ops_part2 ++ ops_part3))

set_option maxRecDepth 8192 in
theorem main_part0_eq (c : Dev nD) : main_part0 (F := F) c = seq ops_part0 := rfl

-- a called function's body is a chain of its own ending in a return: unfolded at the call, the sequencing is
-- re-associated until both sides are one chain of steps
set_option maxRecDepth 8192 in
theorem main_part1_eq (c : Dev nD) : main_part1 (F := F) c = seq ops_part1 := by
  simp only [main_part1, fn_elu.body, fn_where.body, fn_where_0.body, seq, bind_assoc, pure_bind]
  rfl

set_option maxRecDepth 8192 in
theorem main_part2_eq (c : Dev nD) : main_part2 (F := F) c = seq ops_part2 := by
  simp only [main_part2, fn_elu.body, fn_where.body, fn_where_0.body, seq, bind_assoc, pure_bind]
  rfl

set_option maxRecDepth 8192 in
theorem main_part3_eq (c : Dev nD) : main_part3 (F := F) c = seq ops_part3 := by
  simp only [main_part3, fn_elu_1.body, fn_where_2.body, fn_where_3.body, seq, bind_assoc, pure_bind]

set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., binary_bufs_sub .., unary_bufs_sub .., unary_bufs_sub .., binary_bufs_sub ..,
    binary_bufs_sub .., unary_bufs_sub .., unary_bufs_sub .., binary_bufs_sub .., nullary_bufs_sub .., binary_bufs_sub ..⟩

set_option maxRecDepth 8192 in
theorem ops_part1_sub : (ops_part1 : List (HloOp τ sig (Elt F))).Forall fun op => op.bufs ⊆ tcRefs τ sig :=
  ⟨nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub ..⟩

set_option maxRecDepth 8192 in
theorem ops_part2_sub : (ops_part2 : List (HloOp τ sig (Elt F))).Forall fun op => op.bufs ⊆ tcRefs τ sig :=
  ⟨binary_bufs_sub .., nullary_bufs_sub .., unary_bufs_sub .., unary_bufs_sub .., ternary_bufs_sub .., binary_bufs_sub ..,
    unary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub ..⟩

set_option maxRecDepth 8192 in
theorem ops_part3_sub : (ops_part3 : List (HloOp τ sig (Elt F))).Forall fun op => op.bufs ⊆ tcRefs τ sig :=
  ⟨ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., binary_bufs_sub .., unary_bufs_sub .., unary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h,
      List.forall_iff_forall_mem.mp ops_part2_sub op h, List.forall_iff_forall_mem.mp ops_part3_sub op h]

end Cert.ReferenceIdeal.Hand

end
-- ==== Proof.Ref.W0.lean ====
/- The first window of the reference's @main (operations 1 … 60) read back from any contents `V` of the device's
   buffers: which buffers it writes, that it leaves every other buffer alone, and what it leaves in the buffers the
   later windows read — the edge rows, the normalised degrees, the first convolution and its sum over the nodes — as
   the named terms of Ref/Pure.lean over `V` at the arguments. -/
import proofs.«169495_j53601191854606_1_alg».proof.Proof.Ref.Ops
import proofs.«169495_j53601191854606_1_alg».proof.Proof.Ref.Pure

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part0`'s operations write. -/
abbrev ops_part0_W : List (Ref sig .tc) :=
  [main_v0, main_v1, main_v2, main_v3, main_cst, main_v4, main_cst_0, main_v5,
    main_v6, main_v7, main_cst_1, main_v8, main_v9, main_v10, main_v11, main_c,
    main_v12, main_v13, main_c_2, main_v14, main_v15, main_v16, main_v17, main_v18,
    main_c_3, main_v19, main_v20, main_c_4, main_v21, main_v22, main_v23, main_v24,
    main_v25, main_v26, main_c_5, main_v27, main_v28, main_c_6, main_v29, main_v30,
    main_v31, main_v32, main_v33, main_v34, main_v35, main_v36, main_cst_7, main_v37,
    main_v38, main_v39, main_v40, main_v41, main_v42, main_v43, main_v44, main_v45,
    main_v46, main_v47, main_cst_8, main_v48]

set_option maxRecDepth 8192 in
theorem ops_part0_writes : (ops_part0 : List (HloOp τ sig (Elt F))).Forall fun op =>
    op.writes ⊆ (ops_part0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem w0_keep (V : Valuation τ sig (Elt F)) (r : Ref sig .tc) (h : r ∉ ops_part0_W) :
    after ops_part0 V (Proc.devRef .tc r) = V (Proc.devRef .tc r) :=
  after_of_writes_sub ops_part0 V ops_part0_writes h

set_option maxRecDepth 8192 in
set_option maxHeartbeats 4000000 in
theorem w0_v1 (V : Valuation τ sig (Elt F)) :
    after ops_part0 V (Proc.devRef .tc main_v1) = srcOf (V (Proc.devRef .tc main_arg1)) := by
  simp only [ops_part0]
  after_results_simp
  all_goals rfl

set_option maxRecDepth 8192 in
set_option maxHeartbeats 4000000 in
theorem w0_v3 (V : Valuation τ sig (Elt F)) :
    after ops_part0 V (Proc.devRef .tc main_v3) = dstOf (V (Proc.devRef .tc main_arg1)) := by
  simp only [ops_part0]
  after_results_simp
  all_goals rfl

set_option maxRecDepth 8192 in
set_option maxHeartbeats 4000000 in
theorem w0_v10 (V : Valuation τ sig (Elt F)) :
    after ops_part0 V (Proc.devRef .tc main_v10) = disOf (dstOf (V (Proc.devRef .tc main_arg1))) := by
  simp only [ops_part0]
  after_results_simp
  all_goals rfl

set_option maxRecDepth 8192 in
set_option maxHeartbeats 4000000 in
theorem w0_v47 (V : Valuation τ sig (Elt F)) :
    after ops_part0 V (Proc.devRef .tc main_v47) = (conv128 (xw128 (V (Proc.devRef .tc main_arg0)) (V (Proc.devRef .tc main_arg2))) (disOf (dstOf (V (Proc.devRef .tc main_arg1)))) (srcOf (V (Proc.devRef .tc main_arg1))) (dstOf (V (Proc.devRef .tc main_arg1))) (V (Proc.devRef .tc main_arg3))) := by
  simp only [ops_part0]
  after_results_simp
  all_goals rfl

set_option maxRecDepth 8192 in
set_option maxHeartbeats 4000000 in
theorem w0_v48 (V : Valuation τ sig (Elt F)) :
    after ops_part0 V (Proc.devRef .tc main_v48) = sum128 (conv128 (xw128 (V (Proc.devRef .tc main_arg0)) (V (Proc.devRef .tc main_arg2))) (disOf (dstOf (V (Proc.devRef .tc main_arg1)))) (srcOf (V (Proc.devRef .tc main_arg1))) (dstOf (V (Proc.devRef .tc main_arg1))) (V (Proc.devRef .tc main_arg3))) := by
  simp only [ops_part0]
  after_results_simp
  all_goals rfl

end Cert.ReferenceIdeal.Hand

end
-- ==== Proof.Ref.W1.lean ====
/- The second window of the reference's @main (operations 61 … 134: the first layer's batch normalisation and
   exponential linear unit, the second layer's product with its weights and the gathers of its messages) read back
   from any contents `V` of the device's buffers in which the sum buffer holds the sum of the convolution buffer. -/
import proofs.«169495_j53601191854606_1_alg».proof.Proof.Ref.Ops
import proofs.«169495_j53601191854606_1_alg».proof.Proof.Ref.Pure

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part1`'s operations write. -/
abbrev ops_part1_W : List (Ref sig .tc) :=
  [main_cst_9, main_v49, main_v50, main_v51, main_v52, main_v53, main_v54, main_cst_10,
    main_v55, main_cst_11, main_v56, main_v57, main_v58, main_v59, main_v60, main_v61,
    main_v62, main_v63, main_cst_12, main_v64, main_v65, main_v66, main_v67, main_v68,
    main_v69, main_v70, main_v71, main_v72, main_call0.cst.ref, main_call0.v0.ref, main_call0.v1.ref, main_call0.cst_0.ref,
    main_call0.v2.ref, main_call0.v3.ref, main_call0.cst_1.ref, main_call0.call0.v0.ref, main_call0.call0.v1.ref, main_call0.call0.v2.ref, main_call0.v5.ref, main_call0.cst_2.ref,
    main_call0.v6.ref, main_call0.v7.ref, main_call0.call1.v0.ref, main_v74, main_c_13, main_v75, main_v76, main_c_14,
    main_v77, main_v78, main_v79, main_v80, main_v81, main_c_15, main_v82, main_v83,
    main_c_16, main_v84, main_v85, main_v86, main_v87, main_v88, main_v89, main_c_17,
    main_v90, main_v91, main_c_18, main_v92, main_v93, main_v94, main_v95, main_v96,
    main_v97, main_v98]

set_option maxRecDepth 8192 in
theorem ops_part1_writes : (ops_part1 : List (HloOp τ sig (Elt F))).Forall fun op =>
    op.writes ⊆ (ops_part1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem w1_keep (V : Valuation τ sig (Elt F)) (r : Ref sig .tc) (h : r ∉ ops_part1_W) :
    after ops_part1 V (Proc.devRef .tc r) = V (Proc.devRef .tc r) :=
  after_of_writes_sub ops_part1 V ops_part1_writes h

set_option maxRecDepth 8192 in
set_option maxHeartbeats 4000000 in
theorem w1_v74 (V : Valuation τ sig (Elt F))
    (h48 : V (Proc.devRef .tc main_v48) = sum128 (V (Proc.devRef .tc main_v47))) :
    after ops_part1 V (Proc.devRef .tc main_v74) = (xw128 (elu128 (bn128 (V (Proc.devRef .tc main_v47)) (V (Proc.devRef .tc main_arg4)) (V (Proc.devRef .tc main_arg5)))) (V (Proc.devRef .tc main_arg6))) := by
  simp only [ops_part1]
  after_results_simp
  simp only [h48]
  all_goals rfl

set_option maxRecDepth 8192 in
set_option maxHeartbeats 4000000 in
theorem w1_v96 (V : Valuation τ sig (Elt F))
    (h48 : V (Proc.devRef .tc main_v48) = sum128 (V (Proc.devRef .tc main_v47))) :
    after ops_part1 V (Proc.devRef .tc main_v96) = Host.gather gather_S50000x128_S1600000x1_S1600000x128_1_0_n_n_0_1_1128 (xw128 (elu128 (bn128 (V (Proc.devRef .tc main_v47)) (V (Proc.devRef .tc main_arg4)) (V (Proc.devRef .tc main_arg5)))) (V (Proc.devRef .tc main_arg6))) (wrapCol (V (Proc.devRef .tc main_v1))) := by
  simp only [ops_part1]
  after_results_simp
  simp only [h48]
  all_goals rfl

set_option maxRecDepth 8192 in
set_option maxHeartbeats 4000000 in
theorem w1_v98 (V : Valuation τ sig (Elt F)) :
    after ops_part1 V (Proc.devRef .tc main_v98) = broadcastInDim S1600000x128 ![0, 1] bcast_S1600000x1_S1600000x128_0_1 (broadcastInDim S1600000x1 ![0] bcast_S1600000_S1600000x1_0 (edgeW (V (Proc.devRef .tc main_v10)) (V (Proc.devRef .tc main_v1)) (V (Proc.devRef .tc main_v3)))) := by
  simp only [ops_part1]
  after_results_simp
  all_goals rfl

end Cert.ReferenceIdeal.Hand

end
-- ==== Proof.Ref.W2.lean ====
/- The third window of the reference's @main (operations 135 … 208: the rest of the second layer, the third layer's
   product with its weights and the first of its gathers) read back from any contents `V` of the device's buffers in
   which the two message buffers hold the gathered rows and the broadcast edge weights. -/
import proofs.«169495_j53601191854606_1_alg».proof.Proof.Ref.Ops
import proofs.«169495_j53601191854606_1_alg».proof.Proof.Ref.Pure

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part2`'s operations write. -/
abbrev ops_part2_W : List (Ref sig .tc) :=
  [main_v99, main_cst_19, main_v100, main_v101, main_v102, main_v103, main_v104, main_v105,
    main_v106, main_v107, main_v108, main_v109, main_v110, main_cst_20, main_v111, main_cst_21,
    main_v112, main_v113, main_v114, main_v115, main_v116, main_v117, main_cst_22, main_v118,
    main_cst_23, main_v119, main_v120, main_v121, main_v122, main_v123, main_v124, main_v125,
    main_v126, main_cst_24, main_v127, main_v128, main_v129, main_v130, main_v131, main_v132,
    main_v133, main_v134, main_v135, main_call1.cst.ref, main_call1.v0.ref, main_call1.v1.ref, main_call1.cst_0.ref, main_call1.v2.ref,
    main_call1.v3.ref, main_call1.cst_1.ref, main_call1.call0.v0.ref, main_call1.call0.v1.ref, main_call1.call0.v2.ref, main_call1.v5.ref, main_call1.cst_2.ref, main_call1.v6.ref,
    main_call1.v7.ref, main_call1.call1.v0.ref, main_v137, main_c_25, main_v138, main_v139, main_c_26, main_v140,
    main_v141, main_v142, main_v143, main_v144, main_c_27, main_v145, main_v146, main_c_28,
    main_v147, main_v148]

set_option maxRecDepth 8192 in
theorem ops_part2_writes : (ops_part2 : List (HloOp τ sig (Elt F))).Forall fun op =>
    op.writes ⊆ (ops_part2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem w2_keep (V : Valuation τ sig (Elt F)) (r : Ref sig .tc) (h : r ∉ ops_part2_W) :
    after ops_part2 V (Proc.devRef .tc r) = V (Proc.devRef .tc r) :=
  after_of_writes_sub ops_part2 V ops_part2_writes h

set_option maxRecDepth 8192 in
set_option maxHeartbeats 4000000 in
theorem w2_v137 (V : Valuation τ sig (Elt F))
    (h96 : V (Proc.devRef .tc main_v96) = Host.gather gather_S50000x128_S1600000x1_S1600000x128_1_0_n_n_0_1_1128 (V (Proc.devRef .tc main_v74)) (wrapCol (V (Proc.devRef .tc main_v1))))
    (h98 : V (Proc.devRef .tc main_v98) = broadcastInDim S1600000x128 ![0, 1] bcast_S1600000x1_S1600000x128_0_1 (broadcastInDim S1600000x1 ![0] bcast_S1600000_S1600000x1_0 (edgeW (V (Proc.devRef .tc main_v10)) (V (Proc.devRef .tc main_v1)) (V (Proc.devRef .tc main_v3))))) :
    after ops_part2 V (Proc.devRef .tc main_v137) = xw64 (elu128 (bn128 (conv128 (V (Proc.devRef .tc main_v74)) (V (Proc.devRef .tc main_v10)) (V (Proc.devRef .tc main_v1)) (V (Proc.devRef .tc main_v3)) (V (Proc.devRef .tc main_arg7))) (V (Proc.devRef .tc main_arg8)) (V (Proc.devRef .tc main_arg9)))) (V (Proc.devRef .tc main_arg10)) := by
  simp only [ops_part2]
  after_results_simp
  simp only [h96, h98]
  all_goals rfl

set_option maxRecDepth 8192 in
set_option maxHeartbeats 4000000 in
theorem w2_v144 (V : Valuation τ sig (Elt F)) :
    after ops_part2 V (Proc.devRef .tc main_v144) = Host.gather gather_S50000_S1600000x1_S1600000_n_0_n_n_0_1_1 (V (Proc.devRef .tc main_v10)) (wrapCol (V (Proc.devRef .tc main_v1))) := by
  simp only [ops_part2]
  after_results_simp
  all_goals rfl

set_option maxRecDepth 8192 in
set_option maxHeartbeats 4000000 in
theorem w2_v146 (V : Valuation τ sig (Elt F)) :
    after ops_part2 V (Proc.devRef .tc main_v146) = cmpi .slt (V (Proc.devRef .tc main_v3)) (broadcastInDim S1600000 ![] bcast_S_S1600000 (constantI S_ 32 0#32)) := by
  simp only [ops_part2]
  after_results_simp
  all_goals rfl

set_option maxRecDepth 8192 in
set_option maxHeartbeats 4000000 in
theorem w2_v148 (V : Valuation τ sig (Elt F)) :
    after ops_part2 V (Proc.devRef .tc main_v148) = addi (V (Proc.devRef .tc main_v3)) (broadcastInDim S1600000 ![] bcast_S_S1600000 (constantI S_ 32 50000#32)) := by
  simp only [ops_part2]
  after_results_simp
  all_goals rfl

end Cert.ReferenceIdeal.Hand

end
-- ==== Proof.Ref.W3.lean ====
/- The last window of the reference's @main (operations 209 … 281: the rest of the third layer, at width 64) read
   back from any contents `V` of the device's buffers in which the three buffers the window before left for the edge
   weights hold the gather at the sources, the comparison of the destinations with zero and their sum with 50000. -/
import proofs.«169495_j53601191854606_1_alg».proof.Proof.Ref.Ops
import proofs.«169495_j53601191854606_1_alg».proof.Proof.Ref.Pure

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part3`'s operations write. -/
abbrev ops_part3_W : List (Ref sig .tc) :=
  [main_v149, main_v150, main_v151, main_v152, main_c_29, main_v153, main_v154, main_c_30,
    main_v155, main_v156, main_v157, main_v158, main_v159, main_v160, main_v161, main_v162,
    main_cst_31, main_v163, main_v164, main_v165, main_v166, main_v167, main_v168, main_v169,
    main_v170, main_v171, main_v172, main_v173, main_cst_32, main_v174, main_cst_33, main_v175,
    main_v176, main_v177, main_v178, main_v179, main_v180, main_cst_34, main_v181, main_cst_35,
    main_v182, main_v183, main_v184, main_v185, main_v186, main_v187, main_v188, main_v189,
    main_cst_36, main_v190, main_v191, main_v192, main_v193, main_v194, main_v195, main_v196,
    main_v197, main_v198, main_call2.cst.ref, main_call2.v0.ref, main_call2.v1.ref, main_call2.cst_0.ref, main_call2.v2.ref, main_call2.v3.ref,
    main_call2.cst_1.ref, main_call2.call0.v0.ref, main_call2.call0.v1.ref, main_call2.call0.v2.ref, main_call2.v5.ref, main_call2.cst_2.ref, main_call2.v6.ref, main_call2.v7.ref,
    main_call2.call1.v0.ref]

set_option maxRecDepth 8192 in
theorem ops_part3_writes : (ops_part3 : List (HloOp τ sig (Elt F))).Forall fun op =>
    op.writes ⊆ (ops_part3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem w3_keep (V : Valuation τ sig (Elt F)) (r : Ref sig .tc) (h : r ∉ ops_part3_W) :
    after ops_part3 V (Proc.devRef .tc r) = V (Proc.devRef .tc r) :=
  after_of_writes_sub ops_part3 V ops_part3_writes h

set_option maxRecDepth 8192 in
set_option maxHeartbeats 4000000 in
theorem w3_v199 (V : Valuation τ sig (Elt F))
    (h144 : V (Proc.devRef .tc main_v144) = Host.gather gather_S50000_S1600000x1_S1600000_n_0_n_n_0_1_1 (V (Proc.devRef .tc main_v10)) (wrapCol (V (Proc.devRef .tc main_v1))))
    (h146 : V (Proc.devRef .tc main_v146) = cmpi .slt (V (Proc.devRef .tc main_v3)) (broadcastInDim S1600000 ![] bcast_S_S1600000 (constantI S_ 32 0#32)))
    (h148 : V (Proc.devRef .tc main_v148) = addi (V (Proc.devRef .tc main_v3)) (broadcastInDim S1600000 ![] bcast_S_S1600000 (constantI S_ 32 50000#32))) :
    after ops_part3 V (Proc.devRef .tc main_v199) = elu64 (bn64 (conv64 (V (Proc.devRef .tc main_v137)) (V (Proc.devRef .tc main_v10)) (V (Proc.devRef .tc main_v1)) (V (Proc.devRef .tc main_v3)) (V (Proc.devRef .tc main_arg11))) (V (Proc.devRef .tc main_arg12)) (V (Proc.devRef .tc main_arg13))) := by
  simp only [ops_part3]
  after_results_simp
  simp only [h144, h146, h148]
  all_goals rfl

end Cert.ReferenceIdeal.Hand

end
-- ==== Proof.Ref.Run.lean ====
/- The reference's run read back: the four windows' read-backs (Ref/W0 … W3) chained from the launch contents, the
   buffers each window hands the next named by the terms of Ref/Pure.lean, down to the result buffer at `refOut` of
   the fourteen arguments and the arguments unchanged; then the statement over every weakly fair execution. -/
import proofs.«169495_j53601191854606_1_alg».proof.Proof.Ref.Ops
import proofs.«169495_j53601191854606_1_alg».proof.Proof.Ref.Pure
import proofs.«169495_j53601191854606_1_alg».proof.Proof.Ref.W0
import proofs.«169495_j53601191854606_1_alg».proof.Proof.Ref.W1
import proofs.«169495_j53601191854606_1_alg».proof.Proof.Ref.W2
import proofs.«169495_j53601191854606_1_alg».proof.Proof.Ref.W3

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first window, from contents `V0`. -/
def V1 (V0 : Valuation τ sig (Elt F)) : Valuation τ sig (Elt F) := after ops_part0 V0
/-- … after the first two windows. -/
def V2 (V0 : Valuation τ sig (Elt F)) : Valuation τ sig (Elt F) := after ops_part1 (V1 V0)
/-- … after the first three windows. -/
def V3 (V0 : Valuation τ sig (Elt F)) : Valuation τ sig (Elt F) := after ops_part2 (V2 V0)
/-- … after all four windows. -/
def V4 (V0 : Valuation τ sig (Elt F)) : Valuation τ sig (Elt F) := after ops_part3 (V3 V0)

/-- The whole list run from `V0` is the four windows run one after the other. -/
theorem after_ops (V0 : Valuation τ sig (Elt F)) : after ops V0 = V4 V0 := by
  simp only [ops, after_append]
  rfl

/-! ### A buffer no window writes -/

theorem V1_keep (V0 : Valuation τ sig (Elt F)) (r : Ref sig .tc) (h0 : r ∉ ops_part0_W) :
    V1 V0 (Proc.devRef .tc r) = V0 (Proc.devRef .tc r) := w0_keep V0 r h0
theorem V2_keep (V0 : Valuation τ sig (Elt F)) (r : Ref sig .tc) (h0 : r ∉ ops_part0_W) (h1 : r ∉ ops_part1_W) :
    V2 V0 (Proc.devRef .tc r) = V0 (Proc.devRef .tc r) := (w1_keep (V1 V0) r h1).trans (V1_keep V0 r h0)
theorem V3_keep (V0 : Valuation τ sig (Elt F)) (r : Ref sig .tc) (h0 : r ∉ ops_part0_W) (h1 : r ∉ ops_part1_W) (h2 : r ∉ ops_part2_W) :
    V3 V0 (Proc.devRef .tc r) = V0 (Proc.devRef .tc r) := (w2_keep (V2 V0) r h2).trans (V2_keep V0 r h0 h1)
theorem V4_keep (V0 : Valuation τ sig (Elt F)) (r : Ref sig .tc) (h0 : r ∉ ops_part0_W) (h1 : r ∉ ops_part1_W) (h2 : r ∉ ops_part2_W)
    (h3 : r ∉ ops_part3_W) :
    V4 V0 (Proc.devRef .tc r) = V0 (Proc.devRef .tc r) := (w3_keep (V3 V0) r h3).trans (V3_keep V0 r h0 h1 h2)

/-! ### The arguments, at every stage -/

theorem V1_arg0 (V0 : Valuation τ sig (Elt F)) : V1 V0 (Proc.devRef .tc main_arg0) = V0 (Proc.devRef .tc main_arg0) := V1_keep V0 main_arg0 (by decide)
theorem V2_arg0 (V0 : Valuation τ sig (Elt F)) : V2 V0 (Proc.devRef .tc main_arg0) = V0 (Proc.devRef .tc main_arg0) := V2_keep V0 main_arg0 (by decide) (by decide)
theorem V3_arg0 (V0 : Valuation τ sig (Elt F)) : V3 V0 (Proc.devRef .tc main_arg0) = V0 (Proc.devRef .tc main_arg0) := V3_keep V0 main_arg0 (by decide) (by decide) (by decide)
theorem V4_arg0 (V0 : Valuation τ sig (Elt F)) : V4 V0 (Proc.devRef .tc main_arg0) = V0 (Proc.devRef .tc main_arg0) := V4_keep V0 main_arg0 (by decide) (by decide) (by decide) (by decide)

theorem V1_arg1 (V0 : Valuation τ sig (Elt F)) : V1 V0 (Proc.devRef .tc main_arg1) = V0 (Proc.devRef .tc main_arg1) := V1_keep V0 main_arg1 (by decide)
theorem V2_arg1 (V0 : Valuation τ sig (Elt F)) : V2 V0 (Proc.devRef .tc main_arg1) = V0 (Proc.devRef .tc main_arg1) := V2_keep V0 main_arg1 (by decide) (by decide)
theorem V3_arg1 (V0 : Valuation τ sig (Elt F)) : V3 V0 (Proc.devRef .tc main_arg1) = V0 (Proc.devRef .tc main_arg1) := V3_keep V0 main_arg1 (by decide) (by decide) (by decide)
theorem V4_arg1 (V0 : Valuation τ sig (Elt F)) : V4 V0 (Proc.devRef .tc main_arg1) = V0 (Proc.devRef .tc main_arg1) := V4_keep V0 main_arg1 (by decide) (by decide) (by decide) (by decide)

theorem V1_arg2 (V0 : Valuation τ sig (Elt F)) : V1 V0 (Proc.devRef .tc main_arg2) = V0 (Proc.devRef .tc main_arg2) := V1_keep V0 main_arg2 (by decide)
theorem V2_arg2 (V0 : Valuation τ sig (Elt F)) : V2 V0 (Proc.devRef .tc main_arg2) = V0 (Proc.devRef .tc main_arg2) := V2_keep V0 main_arg2 (by decide) (by decide)
theorem V3_arg2 (V0 : Valuation τ sig (Elt F)) : V3 V0 (Proc.devRef .tc main_arg2) = V0 (Proc.devRef .tc main_arg2) := V3_keep V0 main_arg2 (by decide) (by decide) (by decide)
theorem V4_arg2 (V0 : Valuation τ sig (Elt F)) : V4 V0 (Proc.devRef .tc main_arg2) = V0 (Proc.devRef .tc main_arg2) := V4_keep V0 main_arg2 (by decide) (by decide) (by decide) (by decide)

theorem V1_arg3 (V0 : Valuation τ sig (Elt F)) : V1 V0 (Proc.devRef .tc main_arg3) = V0 (Proc.devRef .tc main_arg3) := V1_keep V0 main_arg3 (by decide)
theorem V2_arg3 (V0 : Valuation τ sig (Elt F)) : V2 V0 (Proc.devRef .tc main_arg3) = V0 (Proc.devRef .tc main_arg3) := V2_keep V0 main_arg3 (by decide) (by decide)
theorem V3_arg3 (V0 : Valuation τ sig (Elt F)) : V3 V0 (Proc.devRef .tc main_arg3) = V0 (Proc.devRef .tc main_arg3) := V3_keep V0 main_arg3 (by decide) (by decide) (by decide)
theorem V4_arg3 (V0 : Valuation τ sig (Elt F)) : V4 V0 (Proc.devRef .tc main_arg3) = V0 (Proc.devRef .tc main_arg3) := V4_keep V0 main_arg3 (by decide) (by decide) (by decide) (by decide)

theorem V1_arg4 (V0 : Valuation τ sig (Elt F)) : V1 V0 (Proc.devRef .tc main_arg4) = V0 (Proc.devRef .tc main_arg4) := V1_keep V0 main_arg4 (by decide)
theorem V2_arg4 (V0 : Valuation τ sig (Elt F)) : V2 V0 (Proc.devRef .tc main_arg4) = V0 (Proc.devRef .tc main_arg4) := V2_keep V0 main_arg4 (by decide) (by decide)
theorem V3_arg4 (V0 : Valuation τ sig (Elt F)) : V3 V0 (Proc.devRef .tc main_arg4) = V0 (Proc.devRef .tc main_arg4) := V3_keep V0 main_arg4 (by decide) (by decide) (by decide)
theorem V4_arg4 (V0 : Valuation τ sig (Elt F)) : V4 V0 (Proc.devRef .tc main_arg4) = V0 (Proc.devRef .tc main_arg4) := V4_keep V0 main_arg4 (by decide) (by decide) (by decide) (by decide)

theorem V1_arg5 (V0 : Valuation τ sig (Elt F)) : V1 V0 (Proc.devRef .tc main_arg5) = V0 (Proc.devRef .tc main_arg5) := V1_keep V0 main_arg5 (by decide)
theorem V2_arg5 (V0 : Valuation τ sig (Elt F)) : V2 V0 (Proc.devRef .tc main_arg5) = V0 (Proc.devRef .tc main_arg5) := V2_keep V0 main_arg5 (by decide) (by decide)
theorem V3_arg5 (V0 : Valuation τ sig (Elt F)) : V3 V0 (Proc.devRef .tc main_arg5) = V0 (Proc.devRef .tc main_arg5) := V3_keep V0 main_arg5 (by decide) (by decide) (by decide)
theorem V4_arg5 (V0 : Valuation τ sig (Elt F)) : V4 V0 (Proc.devRef .tc main_arg5) = V0 (Proc.devRef .tc main_arg5) := V4_keep V0 main_arg5 (by decide) (by decide) (by decide) (by decide)

theorem V1_arg6 (V0 : Valuation τ sig (Elt F)) : V1 V0 (Proc.devRef .tc main_arg6) = V0 (Proc.devRef .tc main_arg6) := V1_keep V0 main_arg6 (by decide)
theorem V2_arg6 (V0 : Valuation τ sig (Elt F)) : V2 V0 (Proc.devRef .tc main_arg6) = V0 (Proc.devRef .tc main_arg6) := V2_keep V0 main_arg6 (by decide) (by decide)
theorem V3_arg6 (V0 : Valuation τ sig (Elt F)) : V3 V0 (Proc.devRef .tc main_arg6) = V0 (Proc.devRef .tc main_arg6) := V3_keep V0 main_arg6 (by decide) (by decide) (by decide)
theorem V4_arg6 (V0 : Valuation τ sig (Elt F)) : V4 V0 (Proc.devRef .tc main_arg6) = V0 (Proc.devRef .tc main_arg6) := V4_keep V0 main_arg6 (by decide) (by decide) (by decide) (by decide)

theorem V1_arg7 (V0 : Valuation τ sig (Elt F)) : V1 V0 (Proc.devRef .tc main_arg7) = V0 (Proc.devRef .tc main_arg7) := V1_keep V0 main_arg7 (by decide)
theorem V2_arg7 (V0 : Valuation τ sig (Elt F)) : V2 V0 (Proc.devRef .tc main_arg7) = V0 (Proc.devRef .tc main_arg7) := V2_keep V0 main_arg7 (by decide) (by decide)
theorem V3_arg7 (V0 : Valuation τ sig (Elt F)) : V3 V0 (Proc.devRef .tc main_arg7) = V0 (Proc.devRef .tc main_arg7) := V3_keep V0 main_arg7 (by decide) (by decide) (by decide)
theorem V4_arg7 (V0 : Valuation τ sig (Elt F)) : V4 V0 (Proc.devRef .tc main_arg7) = V0 (Proc.devRef .tc main_arg7) := V4_keep V0 main_arg7 (by decide) (by decide) (by decide) (by decide)

theorem V1_arg8 (V0 : Valuation τ sig (Elt F)) : V1 V0 (Proc.devRef .tc main_arg8) = V0 (Proc.devRef .tc main_arg8) := V1_keep V0 main_arg8 (by decide)
theorem V2_arg8 (V0 : Valuation τ sig (Elt F)) : V2 V0 (Proc.devRef .tc main_arg8) = V0 (Proc.devRef .tc main_arg8) := V2_keep V0 main_arg8 (by decide) (by decide)
theorem V3_arg8 (V0 : Valuation τ sig (Elt F)) : V3 V0 (Proc.devRef .tc main_arg8) = V0 (Proc.devRef .tc main_arg8) := V3_keep V0 main_arg8 (by decide) (by decide) (by decide)
theorem V4_arg8 (V0 : Valuation τ sig (Elt F)) : V4 V0 (Proc.devRef .tc main_arg8) = V0 (Proc.devRef .tc main_arg8) := V4_keep V0 main_arg8 (by decide) (by decide) (by decide) (by decide)

theorem V1_arg9 (V0 : Valuation τ sig (Elt F)) : V1 V0 (Proc.devRef .tc main_arg9) = V0 (Proc.devRef .tc main_arg9) := V1_keep V0 main_arg9 (by decide)
theorem V2_arg9 (V0 : Valuation τ sig (Elt F)) : V2 V0 (Proc.devRef .tc main_arg9) = V0 (Proc.devRef .tc main_arg9) := V2_keep V0 main_arg9 (by decide) (by decide)
theorem V3_arg9 (V0 : Valuation τ sig (Elt F)) : V3 V0 (Proc.devRef .tc main_arg9) = V0 (Proc.devRef .tc main_arg9) := V3_keep V0 main_arg9 (by decide) (by decide) (by decide)
theorem V4_arg9 (V0 : Valuation τ sig (Elt F)) : V4 V0 (Proc.devRef .tc main_arg9) = V0 (Proc.devRef .tc main_arg9) := V4_keep V0 main_arg9 (by decide) (by decide) (by decide) (by decide)

theorem V1_arg10 (V0 : Valuation τ sig (Elt F)) : V1 V0 (Proc.devRef .tc main_arg10) = V0 (Proc.devRef .tc main_arg10) := V1_keep V0 main_arg10 (by decide)
theorem V2_arg10 (V0 : Valuation τ sig (Elt F)) : V2 V0 (Proc.devRef .tc main_arg10) = V0 (Proc.devRef .tc main_arg10) := V2_keep V0 main_arg10 (by decide) (by decide)
theorem V3_arg10 (V0 : Valuation τ sig (Elt F)) : V3 V0 (Proc.devRef .tc main_arg10) = V0 (Proc.devRef .tc main_arg10) := V3_keep V0 main_arg10 (by decide) (by decide) (by decide)
theorem V4_arg10 (V0 : Valuation τ sig (Elt F)) : V4 V0 (Proc.devRef .tc main_arg10) = V0 (Proc.devRef .tc main_arg10) := V4_keep V0 main_arg10 (by decide) (by decide) (by decide) (by decide)

theorem V1_arg11 (V0 : Valuation τ sig (Elt F)) : V1 V0 (Proc.devRef .tc main_arg11) = V0 (Proc.devRef .tc main_arg11) := V1_keep V0 main_arg11 (by decide)
theorem V2_arg11 (V0 : Valuation τ sig (Elt F)) : V2 V0 (Proc.devRef .tc main_arg11) = V0 (Proc.devRef .tc main_arg11) := V2_keep V0 main_arg11 (by decide) (by decide)
theorem V3_arg11 (V0 : Valuation τ sig (Elt F)) : V3 V0 (Proc.devRef .tc main_arg11) = V0 (Proc.devRef .tc main_arg11) := V3_keep V0 main_arg11 (by decide) (by decide) (by decide)
theorem V4_arg11 (V0 : Valuation τ sig (Elt F)) : V4 V0 (Proc.devRef .tc main_arg11) = V0 (Proc.devRef .tc main_arg11) := V4_keep V0 main_arg11 (by decide) (by decide) (by decide) (by decide)

theorem V1_arg12 (V0 : Valuation τ sig (Elt F)) : V1 V0 (Proc.devRef .tc main_arg12) = V0 (Proc.devRef .tc main_arg12) := V1_keep V0 main_arg12 (by decide)
theorem V2_arg12 (V0 : Valuation τ sig (Elt F)) : V2 V0 (Proc.devRef .tc main_arg12) = V0 (Proc.devRef .tc main_arg12) := V2_keep V0 main_arg12 (by decide) (by decide)
theorem V3_arg12 (V0 : Valuation τ sig (Elt F)) : V3 V0 (Proc.devRef .tc main_arg12) = V0 (Proc.devRef .tc main_arg12) := V3_keep V0 main_arg12 (by decide) (by decide) (by decide)
theorem V4_arg12 (V0 : Valuation τ sig (Elt F)) : V4 V0 (Proc.devRef .tc main_arg12) = V0 (Proc.devRef .tc main_arg12) := V4_keep V0 main_arg12 (by decide) (by decide) (by decide) (by decide)

theorem V1_arg13 (V0 : Valuation τ sig (Elt F)) : V1 V0 (Proc.devRef .tc main_arg13) = V0 (Proc.devRef .tc main_arg13) := V1_keep V0 main_arg13 (by decide)
theorem V2_arg13 (V0 : Valuation τ sig (Elt F)) : V2 V0 (Proc.devRef .tc main_arg13) = V0 (Proc.devRef .tc main_arg13) := V2_keep V0 main_arg13 (by decide) (by decide)
theorem V3_arg13 (V0 : Valuation τ sig (Elt F)) : V3 V0 (Proc.devRef .tc main_arg13) = V0 (Proc.devRef .tc main_arg13) := V3_keep V0 main_arg13 (by decide) (by decide) (by decide)
theorem V4_arg13 (V0 : Valuation τ sig (Elt F)) : V4 V0 (Proc.devRef .tc main_arg13) = V0 (Proc.devRef .tc main_arg13) := V4_keep V0 main_arg13 (by decide) (by decide) (by decide) (by decide)

/-! ### After the first window -/

theorem V1_v1 (V0 : Valuation τ sig (Elt F)) : V1 V0 (Proc.devRef .tc main_v1) = srcOf (V0 (Proc.devRef .tc main_arg1)) := w0_v1 V0
theorem V1_v3 (V0 : Valuation τ sig (Elt F)) : V1 V0 (Proc.devRef .tc main_v3) = dstOf (V0 (Proc.devRef .tc main_arg1)) := w0_v3 V0
theorem V1_v10 (V0 : Valuation τ sig (Elt F)) : V1 V0 (Proc.devRef .tc main_v10) = disOf (dstOf (V0 (Proc.devRef .tc main_arg1))) := w0_v10 V0
theorem V1_v47 (V0 : Valuation τ sig (Elt F)) : V1 V0 (Proc.devRef .tc main_v47) = (conv128 (xw128 (V0 (Proc.devRef .tc main_arg0)) (V0 (Proc.devRef .tc main_arg2))) (disOf (dstOf (V0 (Proc.devRef .tc main_arg1)))) (srcOf (V0 (Proc.devRef .tc main_arg1))) (dstOf (V0 (Proc.devRef .tc main_arg1))) (V0 (Proc.devRef .tc main_arg3))) := w0_v47 V0
theorem V1_v48 (V0 : Valuation τ sig (Elt F)) : V1 V0 (Proc.devRef .tc main_v48) = sum128 (conv128 (xw128 (V0 (Proc.devRef .tc main_arg0)) (V0 (Proc.devRef .tc main_arg2))) (disOf (dstOf (V0 (Proc.devRef .tc main_arg1)))) (srcOf (V0 (Proc.devRef .tc main_arg1))) (dstOf (V0 (Proc.devRef .tc main_arg1))) (V0 (Proc.devRef .tc main_arg3))) := w0_v48 V0

/-! ### After the second window -/

theorem V2_v1 (V0 : Valuation τ sig (Elt F)) : V2 V0 (Proc.devRef .tc main_v1) = srcOf (V0 (Proc.devRef .tc main_arg1)) := (w1_keep (V1 V0) main_v1 (by decide)).trans (V1_v1 V0)
theorem V2_v3 (V0 : Valuation τ sig (Elt F)) : V2 V0 (Proc.devRef .tc main_v3) = dstOf (V0 (Proc.devRef .tc main_arg1)) := (w1_keep (V1 V0) main_v3 (by decide)).trans (V1_v3 V0)
theorem V2_v10 (V0 : Valuation τ sig (Elt F)) : V2 V0 (Proc.devRef .tc main_v10) = disOf (dstOf (V0 (Proc.devRef .tc main_arg1))) := (w1_keep (V1 V0) main_v10 (by decide)).trans (V1_v10 V0)

theorem V1_h48 (V0 : Valuation τ sig (Elt F)) : V1 V0 (Proc.devRef .tc main_v48) = sum128 (V1 V0 (Proc.devRef .tc main_v47)) := by
  rw [V1_v48, V1_v47]

/-- The second layer's product with its weights: of the first layer's output. -/
theorem V2_v74 (V0 : Valuation τ sig (Elt F)) : V2 V0 (Proc.devRef .tc main_v74) = (xw128 (layer128 (V0 (Proc.devRef .tc main_arg0)) (srcOf (V0 (Proc.devRef .tc main_arg1))) (dstOf (V0 (Proc.devRef .tc main_arg1))) (disOf (dstOf (V0 (Proc.devRef .tc main_arg1)))) (V0 (Proc.devRef .tc main_arg2)) (V0 (Proc.devRef .tc main_arg3)) (V0 (Proc.devRef .tc main_arg4)) (V0 (Proc.devRef .tc main_arg5))) (V0 (Proc.devRef .tc main_arg6))) :=
  (w1_v74 (V1 V0) (V1_h48 V0)).trans (by rw [V1_v47, V1_arg4, V1_arg5, V1_arg6]; rfl)
theorem V2_v96 (V0 : Valuation τ sig (Elt F)) : V2 V0 (Proc.devRef .tc main_v96) = Host.gather gather_S50000x128_S1600000x1_S1600000x128_1_0_n_n_0_1_1128 (xw128 (layer128 (V0 (Proc.devRef .tc main_arg0)) (srcOf (V0 (Proc.devRef .tc main_arg1))) (dstOf (V0 (Proc.devRef .tc main_arg1))) (disOf (dstOf (V0 (Proc.devRef .tc main_arg1)))) (V0 (Proc.devRef .tc main_arg2)) (V0 (Proc.devRef .tc main_arg3)) (V0 (Proc.devRef .tc main_arg4)) (V0 (Proc.devRef .tc main_arg5))) (V0 (Proc.devRef .tc main_arg6))) (wrapCol (srcOf (V0 (Proc.devRef .tc main_arg1)))) :=
  (w1_v96 (V1 V0) (V1_h48 V0)).trans (by rw [V1_v47, V1_arg4, V1_arg5, V1_arg6, V1_v1]; rfl)
theorem V2_v98 (V0 : Valuation τ sig (Elt F)) : V2 V0 (Proc.devRef .tc main_v98) = broadcastInDim S1600000x128 ![0, 1] bcast_S1600000x1_S1600000x128_0_1 (broadcastInDim S1600000x1 ![0] bcast_S1600000_S1600000x1_0 (edgeW (disOf (dstOf (V0 (Proc.devRef .tc main_arg1)))) (srcOf (V0 (Proc.devRef .tc main_arg1))) (dstOf (V0 (Proc.devRef .tc main_arg1))))) :=
  (w1_v98 (V1 V0)).trans (by rw [V1_v10, V1_v1, V1_v3])

/-! ### After the third window -/

theorem V3_v1 (V0 : Valuation τ sig (Elt F)) : V3 V0 (Proc.devRef .tc main_v1) = srcOf (V0 (Proc.devRef .tc main_arg1)) := (w2_keep (V2 V0) main_v1 (by decide)).trans (V2_v1 V0)
theorem V3_v3 (V0 : Valuation τ sig (Elt F)) : V3 V0 (Proc.devRef .tc main_v3) = dstOf (V0 (Proc.devRef .tc main_arg1)) := (w2_keep (V2 V0) main_v3 (by decide)).trans (V2_v3 V0)
theorem V3_v10 (V0 : Valuation τ sig (Elt F)) : V3 V0 (Proc.devRef .tc main_v10) = disOf (dstOf (V0 (Proc.devRef .tc main_arg1))) := (w2_keep (V2 V0) main_v10 (by decide)).trans (V2_v10 V0)

theorem V2_h96 (V0 : Valuation τ sig (Elt F)) : V2 V0 (Proc.devRef .tc main_v96) = Host.gather gather_S50000x128_S1600000x1_S1600000x128_1_0_n_n_0_1_1128 (V2 V0 (Proc.devRef .tc main_v74)) (wrapCol (V2 V0 (Proc.devRef .tc main_v1))) := by
  rw [V2_v96, V2_v74, V2_v1]
theorem V2_h98 (V0 : Valuation τ sig (Elt F)) : V2 V0 (Proc.devRef .tc main_v98) = broadcastInDim S1600000x128 ![0, 1] bcast_S1600000x1_S1600000x128_0_1 (broadcastInDim S1600000x1 ![0] bcast_S1600000_S1600000x1_0 (edgeW (V2 V0 (Proc.devRef .tc main_v10)) (V2 V0 (Proc.devRef .tc main_v1)) (V2 V0 (Proc.devRef .tc main_v3)))) := by
  rw [V2_v98, V2_v10, V2_v1, V2_v3]

/-- The third layer's product with its weights: of the second layer's output. -/
theorem V3_v137 (V0 : Valuation τ sig (Elt F)) : V3 V0 (Proc.devRef .tc main_v137) = (xw64 (layer128 (layer128 (V0 (Proc.devRef .tc main_arg0)) (srcOf (V0 (Proc.devRef .tc main_arg1))) (dstOf (V0 (Proc.devRef .tc main_arg1))) (disOf (dstOf (V0 (Proc.devRef .tc main_arg1)))) (V0 (Proc.devRef .tc main_arg2)) (V0 (Proc.devRef .tc main_arg3)) (V0 (Proc.devRef .tc main_arg4)) (V0 (Proc.devRef .tc main_arg5))) (srcOf (V0 (Proc.devRef .tc main_arg1))) (dstOf (V0 (Proc.devRef .tc main_arg1))) (disOf (dstOf (V0 (Proc.devRef .tc main_arg1)))) (V0 (Proc.devRef .tc main_arg6)) (V0 (Proc.devRef .tc main_arg7)) (V0 (Proc.devRef .tc main_arg8)) (V0 (Proc.devRef .tc main_arg9))) (V0 (Proc.devRef .tc main_arg10))) :=
  (w2_v137 (V2 V0) (V2_h96 V0) (V2_h98 V0)).trans
    (by rw [V2_v74, V2_v10, V2_v1, V2_v3, V2_arg7, V2_arg8, V2_arg9, V2_arg10]; rfl)
theorem V3_v144 (V0 : Valuation τ sig (Elt F)) : V3 V0 (Proc.devRef .tc main_v144) = Host.gather gather_S50000_S1600000x1_S1600000_n_0_n_n_0_1_1 (disOf (dstOf (V0 (Proc.devRef .tc main_arg1)))) (wrapCol (srcOf (V0 (Proc.devRef .tc main_arg1)))) :=
  (w2_v144 (V2 V0)).trans (by rw [V2_v10, V2_v1])
theorem V3_v146 (V0 : Valuation τ sig (Elt F)) : V3 V0 (Proc.devRef .tc main_v146) = cmpi .slt (dstOf (V0 (Proc.devRef .tc main_arg1))) (broadcastInDim S1600000 ![] bcast_S_S1600000 (constantI S_ 32 0#32)) :=
  (w2_v146 (V2 V0)).trans (by rw [V2_v3])
theorem V3_v148 (V0 : Valuation τ sig (Elt F)) : V3 V0 (Proc.devRef .tc main_v148) = addi (dstOf (V0 (Proc.devRef .tc main_arg1))) (broadcastInDim S1600000 ![] bcast_S_S1600000 (constantI S_ 32 50000#32)) :=
  (w2_v148 (V2 V0)).trans (by rw [V2_v3])

/-! ### After the last window: the result -/

theorem V3_h144 (V0 : Valuation τ sig (Elt F)) : V3 V0 (Proc.devRef .tc main_v144) = Host.gather gather_S50000_S1600000x1_S1600000_n_0_n_n_0_1_1 (V3 V0 (Proc.devRef .tc main_v10)) (wrapCol (V3 V0 (Proc.devRef .tc main_v1))) := by
  rw [V3_v144, V3_v10, V3_v1]
theorem V3_h146 (V0 : Valuation τ sig (Elt F)) : V3 V0 (Proc.devRef .tc main_v146) = cmpi .slt (V3 V0 (Proc.devRef .tc main_v3)) (broadcastInDim S1600000 ![] bcast_S_S1600000 (constantI S_ 32 0#32)) := by
  rw [V3_v146, V3_v3]
theorem V3_h148 (V0 : Valuation τ sig (Elt F)) : V3 V0 (Proc.devRef .tc main_v148) = addi (V3 V0 (Proc.devRef .tc main_v3)) (broadcastInDim S1600000 ![] bcast_S_S1600000 (constantI S_ 32 50000#32)) := by
  rw [V3_v148, V3_v3]

/-- The result buffer after the whole program: `refOut` of the arguments' contents. -/
theorem V4_v199 (V0 : Valuation τ sig (Elt F)) : V4 V0 (Proc.devRef .tc main_v199) = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  (w3_v199 (V3 V0) (V3_h144 V0) (V3_h146 V0) (V3_h148 V0)).trans
    (by rw [V3_v137, V3_v10, V3_v1, V3_v3, V3_arg11, V3_arg12, V3_arg13]; rfl)

/-- The fold of the whole operation list at the result buffer. -/
theorem out_eq (V0 : Valuation τ sig (Elt F)) : after ops V0 (Proc.devRef .tc main_v199) = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  rw [after_ops]; exact V4_v199 V0

/-! ### The run -/

/-- On every device, for any float values, from any memory with zero counters: every weakly fair execution of @main
    terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v199) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v199).trans (by simp only [after_ops]; exact V4_v199 (launchContents m c)),
      (h c main_arg0).trans (by simp only [after_ops]; exact V4_arg0 (launchContents m c)),
      (h c main_arg1).trans (by simp only [after_ops]; exact V4_arg1 (launchContents m c)),
      (h c main_arg2).trans (by simp only [after_ops]; exact V4_arg2 (launchContents m c)),
      (h c main_arg3).trans (by simp only [after_ops]; exact V4_arg3 (launchContents m c)),
      (h c main_arg4).trans (by simp only [after_ops]; exact V4_arg4 (launchContents m c)),
      (h c main_arg5).trans (by simp only [after_ops]; exact V4_arg5 (launchContents m c)),
      (h c main_arg6).trans (by simp only [after_ops]; exact V4_arg6 (launchContents m c)),
      (h c main_arg7).trans (by simp only [after_ops]; exact V4_arg7 (launchContents m c)),
      (h c main_arg8).trans (by simp only [after_ops]; exact V4_arg8 (launchContents m c)),
      (h c main_arg9).trans (by simp only [after_ops]; exact V4_arg9 (launchContents m c)),
      (h c main_arg10).trans (by simp only [after_ops]; exact V4_arg10 (launchContents m c)),
      (h c main_arg11).trans (by simp only [after_ops]; exact V4_arg11 (launchContents m c)),
      (h c main_arg12).trans (by simp only [after_ops]; exact V4_arg12 (launchContents m c)),
      (h c main_arg13).trans (by simp only [after_ops]; exact V4_arg13 (launchContents m c))⟩)
    (run_seq scopedRefs_eq scopedSems_eq defs main (fun _ => ops) main_eq (fun _ => ops_sub) m ρ)

end Cert.ReferenceIdeal.Hand

end
-- ==== Proof.lean ====
/-
  The certificate's five claims. Both kernel programs — as printed at word level, and idealized — run to the end
  with their argument arrays unchanged: @main is seven stretches of host operations and nine pallas_calls, each call
  an item whose body obligation is proved at every grid point (three of them carrying two accumulators from point
  to point). The reference runs as a straight list of host operations. The idealization rewrote nothing. At the
  ideal values the kernel's result array is, layer by layer, the reference's: the feature products agree entry by
  entry, the gather-scale-scatter chain is the same host operations, the batch mean is one sum regrouped, the
  one-pass variance equals the two-pass one because every entry is real (the precondition), and the two rectifier
  forms agree; so from memories agreeing on the arguments the two idealized programs end with equal results.
-/
import proofs.«169495_j53601191854606_1_alg».proof.Defs
import proofs.«169495_j53601191854606_1_alg».proof.Proof.Gen.Kernel
import proofs.«169495_j53601191854606_1_alg».proof.Proof.Gen.KernelIdeal
import proofs.«169495_j53601191854606_1_alg».proof.Proof.Gen.ReferenceIdeal
import proofs.«169495_j53601191854606_1_alg».proof.Proof.Gen.Pre_finite_inputs
import proofs.«169495_j53601191854606_1_alg».proof.Proof.Bits.Run
import proofs.«169495_j53601191854606_1_alg».proof.Proof.Ideal.Run
import proofs.«169495_j53601191854606_1_alg».proof.Proof.Ideal.Bridge
import proofs.«169495_j53601191854606_1_alg».proof.Proof.Ref.Run
import Idealize.ShloMosaic.Adequacy
import Idealize.ShloMosaic.Init

noncomputable section

namespace Cert.Proof

open Idealize.ShloMosaic Idealize.ShloMosaic.TcCoe Idealize.SL.Sem

/-- At the ideal values, from memories agreeing on the arguments, both idealized programs run to the end with the
    reference's result term of the arguments in their result buffers, the arguments unchanged. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m g m' g' hpre hagree
  refine ⟨fun c => Cert.ReferenceIdeal.Hand.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ⟨?_, ?_, ?_, ?_, ?_, ?_, ?_, ?_, ?_, ?_, ?_, ?_, ?_, ?_, ?_⟩) (Cert.KernelIdeal.Hand.run_all m g)
    · exact (h c _ (Cert.KernelIdeal.Hand.mem_unscoped Cert.KernelIdeal.main_v83 (by decide))).trans (Cert.KernelIdeal.Hand.kernel_result m g c (hpre c))
    · exact (h c _ (Cert.KernelIdeal.Hand.mem_unscoped Cert.KernelIdeal.main_arg0 (by decide))).trans (Cert.KernelIdeal.Hand.kept_arg0 m g c)
    · exact (h c _ (Cert.KernelIdeal.Hand.mem_unscoped Cert.KernelIdeal.main_arg1 (by decide))).trans (Cert.KernelIdeal.Hand.kept_arg1 m g c)
    · exact (h c _ (Cert.KernelIdeal.Hand.mem_unscoped Cert.KernelIdeal.main_arg2 (by decide))).trans (Cert.KernelIdeal.Hand.kept_arg2 m g c)
    · exact (h c _ (Cert.KernelIdeal.Hand.mem_unscoped Cert.KernelIdeal.main_arg3 (by decide))).trans (Cert.KernelIdeal.Hand.kept_arg3 m g c)
    · exact (h c _ (Cert.KernelIdeal.Hand.mem_unscoped Cert.KernelIdeal.main_arg4 (by decide))).trans (Cert.KernelIdeal.Hand.kept_arg4 m g c)
    · exact (h c _ (Cert.KernelIdeal.Hand.mem_unscoped Cert.KernelIdeal.main_arg5 (by decide))).trans (Cert.KernelIdeal.Hand.kept_arg5 m g c)
    · exact (h c _ (Cert.KernelIdeal.Hand.mem_unscoped Cert.KernelIdeal.main_arg6 (by decide))).trans (Cert.KernelIdeal.Hand.kept_arg6 m g c)
    · exact (h c _ (Cert.KernelIdeal.Hand.mem_unscoped Cert.KernelIdeal.main_arg7 (by decide))).trans (Cert.KernelIdeal.Hand.kept_arg7 m g c)
    · exact (h c _ (Cert.KernelIdeal.Hand.mem_unscoped Cert.KernelIdeal.main_arg8 (by decide))).trans (Cert.KernelIdeal.Hand.kept_arg8 m g c)
    · exact (h c _ (Cert.KernelIdeal.Hand.mem_unscoped Cert.KernelIdeal.main_arg9 (by decide))).trans (Cert.KernelIdeal.Hand.kept_arg9 m g c)
    · exact (h c _ (Cert.KernelIdeal.Hand.mem_unscoped Cert.KernelIdeal.main_arg10 (by decide))).trans (Cert.KernelIdeal.Hand.kept_arg10 m g c)
    · exact (h c _ (Cert.KernelIdeal.Hand.mem_unscoped Cert.KernelIdeal.main_arg11 (by decide))).trans (Cert.KernelIdeal.Hand.kept_arg11 m g c)
    · exact (h c _ (Cert.KernelIdeal.Hand.mem_unscoped Cert.KernelIdeal.main_arg12 (by decide))).trans (Cert.KernelIdeal.Hand.kept_arg12 m g c)
    · exact (h c _ (Cert.KernelIdeal.Hand.mem_unscoped Cert.KernelIdeal.main_arg13 (by decide))).trans (Cert.KernelIdeal.Hand.kept_arg13 m g c)
  · refine (θ_run Cert.ReferenceIdeal.defs _ _).mono (fun r h c => ⟨(h c).1.trans ?_, (h c).2⟩) (Cert.ReferenceIdeal.Hand.run (F := Ideal) m' g')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Hand.frame_all m ρ,
  fun m ρ _ => Cert.KernelIdeal.Hand.frame_all m ρ,
  fun m ρ _ => (θ_run Cert.ReferenceIdeal.defs _ _).mono (fun _ h c => (h c).2) (Cert.ReferenceIdeal.Hand.run (F := Ideal) m ρ),
  trivial,
  algebraic⟩

end Cert.Proof

end
